-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v200)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v200) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v350) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x2 : Shape := ⟨2, ![50000, 2]⟩
abbrev S2x800000 : Shape := ⟨2, ![2, 800000]⟩
abbrev S800000x7 : Shape := ⟨2, ![800000, 7]⟩
abbrev S7x2 : Shape := ⟨2, ![7, 2]⟩
abbrev S2 : Shape := ⟨1, ![2]⟩
abbrev S2x64 : Shape := ⟨2, ![2, 64]⟩
abbrev S64 : Shape := ⟨1, ![64]⟩
abbrev S64x64 : Shape := ⟨2, ![64, 64]⟩
abbrev S4x7x64 : Shape := ⟨3, ![4, 7, 64]⟩
abbrev S4x64 : Shape := ⟨2, ![4, 64]⟩
abbrev S4x64x64 : Shape := ⟨3, ![4, 64, 64]⟩
abbrev S64x500 : Shape := ⟨2, ![64, 500]⟩
abbrev S500 : Shape := ⟨1, ![500]⟩
abbrev S500x1 : Shape := ⟨2, ![500, 1]⟩
abbrev S1 : Shape := ⟨1, ![1]⟩
abbrev S_ : Shape := ⟨0, ![]⟩

class Facts : Prop where
  bcast_S_S50000x2 : S_.BroadcastsInDim S50000x2 (![] : Fin 0 → Fin S50000x2.rank)
  reducesTo_S50000x2_S_d0_1 : S50000x2.ReducesTo [0, 1] S_
  h_S_ : 0 < S_.numel
  bcast_S_S800000x7 : S_.BroadcastsInDim S800000x7 (![] : Fin 0 → Fin S800000x7.rank)
  reducesTo_S800000x7_S_d0_1 : S800000x7.ReducesTo [0, 1] S_
  bcast_S_S7x2 : S_.BroadcastsInDim S7x2 (![] : Fin 0 → Fin S7x2.rank)
  reducesTo_S7x2_S_d0_1 : S7x2.ReducesTo [0, 1] S_
  bcast_S_S2 : S_.BroadcastsInDim S2 (![] : Fin 0 → Fin S2.rank)
  reducesTo_S2_S_d0 : S2.ReducesTo [0] S_
  bcast_S_S2x64 : S_.BroadcastsInDim S2x64 (![] : Fin 0 → Fin S2x64.rank)
  reducesTo_S2x64_S_d0_1 : S2x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S4x7x64 : S_.BroadcastsInDim S4x7x64 (![] : Fin 0 → Fin S4x7x64.rank)
  reducesTo_S4x7x64_S_d0_1_2 : S4x7x64.ReducesTo [0, 1, 2] S_
  bcast_S_S4x64 : S_.BroadcastsInDim S4x64 (![] : Fin 0 → Fin S4x64.rank)
  reducesTo_S4x64_S_d0_1 : S4x64.ReducesTo [0, 1] S_
  bcast_S_S4x64x64 : S_.BroadcastsInDim S4x64x64 (![] : Fin 0 → Fin S4x64x64.rank)
  reducesTo_S4x64x64_S_d0_1_2 : S4x64x64.ReducesTo [0, 1, 2] S_
  bcast_S_S64x500 : S_.BroadcastsInDim S64x500 (![] : Fin 0 → Fin S64x500.rank)
  reducesTo_S64x500_S_d0_1 : S64x500.ReducesTo [0, 1] S_
  bcast_S_S500 : S_.BroadcastsInDim S500 (![] : Fin 0 → Fin S500.rank)
  reducesTo_S500_S_d0 : S500.ReducesTo [0] S_
  bcast_S_S500x1 : S_.BroadcastsInDim S500x1 (![] : Fin 0 → Fin S500x1.rank)
  reducesTo_S500x1_S_d0_1 : S500x1.ReducesTo [0, 1] S_
  bcast_S_S1 : S_.BroadcastsInDim S1 (![] : Fin 0 → Fin S1.rank)
  reducesTo_S1_S_d0 : S1.ReducesTo [0] S_

variable [Facts]

def fn_part6 {F : FTy → Type} [FloatOps F] (main_arg22 : FVec F S1 .f32) (main_v98 : IVec S_ 1) (main_v101 : IVec S500x1 1) (main_c_39 : IVec S_ 1) : IVec S_ 1 :=
  let main_v102 : IVec S_ 1 := (fun x v => Host.reduce IntOp.andi x v reducesTo_S500x1_S_d0_1 h_S_) main_v101 main_c_39
  let main_v103 : IVec S_ 1 := andi main_v98 main_v102
  let main_v104 : FVec F S1 .f32 := Host.absf main_arg22
  let main_cst_40 : FVec F S_ .f32 := constant S_ .f32 0x7F800000#32
  let main_v105 : FVec F S1 .f32 := broadcastInDim S1 ![] bcast_S_S1 main_cst_40
  let main_v106 : IVec S1 1 := cmpf .olt main_v104 main_v105
  let main_c_41 : IVec S_ 1 := constantI S_ 1 1#1
  let main_v107 : IVec S_ 1 := (fun x v => Host.reduce IntOp.andi x v reducesTo_S1_S_d0 h_S_) main_v106 main_c_41
  let main_v108 : IVec S_ 1 := andi main_v103 main_v107
  main_v108

def fn_part5 {F : FTy → Type} [FloatOps F] (main_arg19 : FVec F S64x500 .f32) (main_arg20 : FVec F S500 .f32) (main_arg21 : FVec F S500x1 .f32) (main_arg22 : FVec F S1 .f32) (main_v83 : IVec S_ 1) (main_v84 : FVec F S4x64 .f32) (main_cst_32 : FVec F S_ .f32) : IVec S_ 1 :=
  let main_v85 : FVec F S4x64 .f32 := broadcastInDim S4x64 ![] bcast_S_S4x64 main_cst_32
  let main_v86 : IVec S4x64 1 := cmpf .olt main_v84 main_v85
  let main_c_33 : IVec S_ 1 := constantI S_ 1 1#1
  let main_v87 : IVec S_ 1 := (fun x v => Host.reduce IntOp.andi x v reducesTo_S4x64_S_d0_1 h_S_) main_v86 main_c_33
  let main_v88 : IVec S_ 1 := andi main_v83 main_v87
  let main_v89 : FVec F S64x500 .f32 := Host.absf main_arg19
  let main_cst_34 : FVec F S_ .f32 := constant S_ .f32 0x7F800000#32
  let main_v90 : FVec F S64x500 .f32 := broadcastInDim S64x500 ![] bcast_S_S64x500 main_cst_34
  let main_v91 : IVec S64x500 1 := cmpf .olt main_v89 main_v90
  let main_c_35 : IVec S_ 1 := constantI S_ 1 1#1
  let main_v92 : IVec S_ 1 := (fun x v => Host.reduce IntOp.andi x v reducesTo_S64x500_S_d0_1 h_S_) main_v91 main_c_35
  let main_v93 : IVec S_ 1 := andi main_v88 main_v92
  let main_v94 : FVec F S500 .f32 := Host.absf main_arg20
  let main_cst_36 : FVec F S_ .f32 := constant S_ .f32 0x7F800000#32
  let main_v95 : FVec F S500 .f32 := broadcastInDim S500 ![] bcast_S_S500 main_cst_36
  let main_v96 : IVec S500 1 := cmpf .olt main_v94 main_v95
  let main_c_37 : IVec S_ 1 := constantI S_ 1 1#1
  let main_v97 : IVec S_ 1 := (fun x v => Host.reduce IntOp.andi x v reducesTo_S500_S_d0 h_S_) main_v96 main_c_37
  let main_v98 : IVec S_ 1 := andi main_v93 main_v97
  let main_v99 : FVec F S500x1 .f32 := Host.absf main_arg21
  let main_cst_38 : FVec F S_ .f32 := constant S_ .f32 0x7F800000#32
  let main_v100 : FVec F S500x1 .f32 := broadcastInDim S500x1 ![] bcast_S_S500x1 main_cst_38
  let main_v101 : IVec S500x1 1 := cmpf .olt main_v99 main_v100
  let main_c_39 : IVec S_ 1 := constantI S_ 1 1#1
  fn_part6 (F := F) main_arg22 main_v98 main_v101 main_c_39

def fn_part4 {F : FTy → Type} [FloatOps F] (main_arg15 : FVec F S4x64 .f32) (main_arg16 : FVec F S4x64 .f32) (main_arg17 : FVec F S4x64x64 .f32) (main_arg18 : FVec F S4x64 .f32) (main_arg19 : FVec F S64x500 .f32) (main_arg20 : FVec F S500 .f32) (main_arg21 : FVec F S500x1 .f32) (main_arg22 : FVec F S1 .f32) (main_v63 : IVec S_ 1) (main_v67 : IVec S_ 1) : IVec S_ 1 :=
  let main_v68 : IVec S_ 1 := andi main_v63 main_v67
  let main_v69 : FVec F S4x64 .f32 := Host.absf main_arg15
  let main_cst_26 : FVec F S_ .f32 := constant S_ .f32 0x7F800000#32
  let main_v70 : FVec F S4x64 .f32 := broadcastInDim S4x64 ![] bcast_S_S4x64 main_cst_26
  let main_v71 : IVec S4x64 1 := cmpf .olt main_v69 main_v70
  let main_c_27 : IVec S_ 1 := constantI S_ 1 1#1
  let main_v72 : IVec S_ 1 := (fun x v => Host.reduce IntOp.andi x v reducesTo_S4x64_S_d0_1 h_S_) main_v71 main_c_27
  let main_v73 : IVec S_ 1 := andi main_v68 main_v72
  let main_v74 : FVec F S4x64 .f32 := Host.absf main_arg16
  let main_cst_28 : FVec F S_ .f32 := constant S_ .f32 0x7F800000#32
  let main_v75 : FVec F S4x64 .f32 := broadcastInDim S4x64 ![] bcast_S_S4x64 main_cst_28
  let main_v76 : IVec S4x64 1 := cmpf .olt main_v74 main_v75
  let main_c_29 : IVec S_ 1 := constantI S_ 1 1#1
  let main_v77 : IVec S_ 1 := (fun x v => Host.reduce IntOp.andi x v reducesTo_S4x64_S_d0_1 h_S_) main_v76 main_c_29
  let main_v78 : IVec S_ 1 := andi main_v73 main_v77
  let main_v79 : FVec F S4x64x64 .f32 := Host.absf main_arg17
  let main_cst_30 : FVec F S_ .f32 := constant S_ .f32 0x7F800000#32
  let main_v80 : FVec F S4x64x64 .f32 := broadcastInDim S4x64x64 ![] bcast_S_S4x64x64 main_cst_30
  let main_v81 : IVec S4x64x64 1 := cmpf .olt main_v79 main_v80
  let main_c_31 : IVec S_ 1 := constantI S_ 1 1#1
  let main_v82 : IVec S_ 1 := (fun x v => Host.reduce IntOp.andi x v reducesTo_S4x64x64_S_d0_1_2 h_S_) main_v81 main_c_31
  let main_v83 : IVec S_ 1 := andi main_v78 main_v82
  let main_v84 : FVec F S4x64 .f32 := Host.absf main_arg18
  let main_cst_32 : FVec F S_ .f32 := constant S_ .f32 0x7F800000#32
  fn_part5 (F := F) main_arg19 main_arg20 main_arg21 main_arg22 main_v83 main_v84 main_cst_32

def fn_part3 {F : FTy → Type} [FloatOps F] (main_arg12 : FVec F S4x64 .f32) (main_arg13 : FVec F S4x64x64 .f32) (main_arg14 : FVec F S4x64 .f32) (main_arg15 : FVec F S4x64 .f32) (main_arg16 : FVec F S4x64 .f32) (main_arg17 : FVec F S4x64x64 .f32) (main_arg18 : FVec F S4x64 .f32) (main_arg19 : FVec F S64x500 .f32) (main_arg20 : FVec F S500 .f32) (main_arg21 : FVec F S500x1 .f32) (main_arg22 : FVec F S1 .f32) (main_v48 : IVec S_ 1) (main_v49 : FVec F S4x7x64 .f32) (main_v50 : FVec F S4x7x64 .f32) : IVec S_ 1 :=
  let main_v51 : IVec S4x7x64 1 := cmpf .olt main_v49 main_v50
  let main_c_19 : IVec S_ 1 := constantI S_ 1 1#1
  let main_v52 : IVec S_ 1 := (fun x v => Host.reduce IntOp.andi x v reducesTo_S4x7x64_S_d0_1_2 h_S_) main_v51 main_c_19
  let main_v53 : IVec S_ 1 := andi main_v48 main_v52
  let main_v54 : FVec F S4x64 .f32 := Host.absf main_arg12
  let main_cst_20 : FVec F S_ .f32 := constant S_ .f32 0x7F800000#32
  let main_v55 : FVec F S4x64 .f32 := broadcastInDim S4x64 ![] bcast_S_S4x64 main_cst_20
  let main_v56 : IVec S4x64 1 := cmpf .olt main_v54 main_v55
  let main_c_21 : IVec S_ 1 := constantI S_ 1 1#1
  let main_v57 : IVec S_ 1 := (fun x v => Host.reduce IntOp.andi x v reducesTo_S4x64_S_d0_1 h_S_) main_v56 main_c_21
  let main_v58 : IVec S_ 1 := andi main_v53 main_v57
  let main_v59 : FVec F S4x64x64 .f32 := Host.absf main_arg13
  let main_cst_22 : FVec F S_ .f32 := constant S_ .f32 0x7F800000#32
  let main_v60 : FVec F S4x64x64 .f32 := broadcastInDim S4x64x64 ![] bcast_S_S4x64x64 main_cst_22
  let main_v61 : IVec S4x64x64 1 := cmpf .olt main_v59 main_v60
  let main_c_23 : IVec S_ 1 := constantI S_ 1 1#1
  let main_v62 : IVec S_ 1 := (fun x v => Host.reduce IntOp.andi x v reducesTo_S4x64x64_S_d0_1_2 h_S_) main_v61 main_c_23
  let main_v63 : IVec S_ 1 := andi main_v58 main_v62
  let main_v64 : FVec F S4x64 .f32 := Host.absf main_arg14
  let main_cst_24 : FVec F S_ .f32 := constant S_ .f32 0x7F800000#32
  let main_v65 : FVec F S4x64 .f32 := broadcastInDim S4x64 ![] bcast_S_S4x64 main_cst_24
  let main_v66 : IVec S4x64 1 := cmpf .olt main_v64 main_v65
  let main_c_25 : IVec S_ 1 := constantI S_ 1 1#1
  let main_v67 : IVec S_ 1 := (fun x v => Host.reduce IntOp.andi x v reducesTo_S4x64_S_d0_1 h_S_) main_v66 main_c_25
  fn_part4 (F := F) main_arg15 main_arg16 main_arg17 main_arg18 main_arg19 main_arg20 main_arg21 main_arg22 main_v63 main_v67

def fn_part2 {F : FTy → Type} [FloatOps F] (main_arg8 : FVec F S64 .f32) (main_arg9 : FVec F S64x64 .f32) (main_arg10 : FVec F S64 .f32) (main_arg11 : FVec F S4x7x64 .f32) (main_arg12 : FVec F S4x64 .f32) (main_arg13 : FVec F S4x64x64 .f32) (main_arg14 : FVec F S4x64 .f32) (main_arg15 : FVec F S4x64 .f32) (main_arg16 : FVec F S4x64 .f32) (main_arg17 : FVec F S4x64x64 .f32) (main_arg18 : FVec F S4x64 .f32) (main_arg19 : FVec F S64x500 .f32) (main_arg20 : FVec F S500 .f32) (main_arg21 : FVec F S500x1 .f32) (main_arg22 : FVec F S1 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg9
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S4x7x64 .f32 := Host.absf main_arg11
  let main_cst_18 : FVec F S_ .f32 := constant S_ .f32 0x7F800000#32
  let main_v50 : FVec F S4x7x64 .f32 := broadcastInDim S4x7x64 ![] bcast_S_S4x7x64 main_cst_18
  fn_part3 (F := F) main_arg12 main_arg13 main_arg14 main_arg15 main_arg16 main_arg17 main_arg18 main_arg19 main_arg20 main_arg21 main_arg22 main_v48 main_v49 main_v50

def fn_part1 {F : FTy → Type} [FloatOps F] (main_arg5 : FVec F S2x64 .f32) (main_arg6 : FVec F S64 .f32) (main_arg7 : FVec F S64 .f32) (main_arg8 : FVec F S64 .f32) (main_arg9 : FVec F S64x64 .f32) (main_arg10 : FVec F S64 .f32) (main_arg11 : FVec F S4x7x64 .f32) (main_arg12 : FVec F S4x64 .f32) (main_arg13 : FVec F S4x64x64 .f32) (main_arg14 : FVec F S4x64 .f32) (main_arg15 : FVec F S4x64 .f32) (main_arg16 : FVec F S4x64 .f32) (main_arg17 : FVec F S4x64x64 .f32) (main_arg18 : FVec F S4x64 .f32) (main_arg19 : FVec F S64x500 .f32) (main_arg20 : FVec F S500 .f32) (main_arg21 : FVec F S500x1 .f32) (main_arg22 : FVec F S1 .f32) (main_v13 : IVec S_ 1) (main_v16 : IVec S2 1) : IVec S_ 1 :=
  let main_c_5 : IVec S_ 1 := constantI S_ 1 1#1
  let main_v17 : IVec S_ 1 := (fun x v => Host.reduce IntOp.andi x v reducesTo_S2_S_d0 h_S_) main_v16 main_c_5
  let main_v18 : IVec S_ 1 := andi main_v13 main_v17
  let main_v19 : FVec F S2x64 .f32 := Host.absf main_arg5
  let main_cst_6 : FVec F S_ .f32 := constant S_ .f32 0x7F800000#32
  let main_v20 : FVec F S2x64 .f32 := broadcastInDim S2x64 ![] bcast_S_S2x64 main_cst_6
  let main_v21 : IVec S2x64 1 := cmpf .olt main_v19 main_v20
  let main_c_7 : IVec S_ 1 := constantI S_ 1 1#1
  let main_v22 : IVec S_ 1 := (fun x v => Host.reduce IntOp.andi x v reducesTo_S2x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S50000x2 .f32) (main_arg1 : IVec S2x800000 32) (main_arg2 : FVec F S800000x7 .f32) (main_arg3 : FVec F S7x2 .f32) (main_arg4 : FVec F S2 .f32) (main_arg5 : FVec F S2x64 .f32) (main_arg6 : FVec F S64 .f32) (main_arg7 : FVec F S64 .f32) (main_arg8 : FVec F S64 .f32) (main_arg9 : FVec F S64x64 .f32) (main_arg10 : FVec F S64 .f32) (main_arg11 : FVec F S4x7x64 .f32) (main_arg12 : FVec F S4x64 .f32) (main_arg13 : FVec F S4x64x64 .f32) (main_arg14 : FVec F S4x64 .f32) (main_arg15 : FVec F S4x64 .f32) (main_arg16 : FVec F S4x64 .f32) (main_arg17 : FVec F S4x64x64 .f32) (main_arg18 : FVec F S4x64 .f32) (main_arg19 : FVec F S64x500 .f32) (main_arg20 : FVec F S500 .f32) (main_arg21 : FVec F S500x1 .f32) (main_arg22 : FVec F S1 .f32) : IVec S_ 1 :=
  let main_v0 : FVec F S50000x2 .f32 := Host.absf main_arg0
  let main_cst : FVec F S_ .f32 := constant S_ .f32 0x7F800000#32
  let main_v1 : FVec F S50000x2 .f32 := broadcastInDim S50000x2 ![] bcast_S_S50000x2 main_cst
  let main_v2 : IVec S50000x2 1 := cmpf .olt main_v0 main_v1
  let main_c : IVec S_ 1 := constantI S_ 1 1#1
  let main_v3 : IVec S_ 1 := (fun x v => Host.reduce IntOp.andi x v reducesTo_S50000x2_S_d0_1 h_S_) main_v2 main_c
  let main_v4 : FVec F S800000x7 .f32 := Host.absf main_arg2
  let main_cst_0 : FVec F S_ .f32 := constant S_ .f32 0x7F800000#32
  let main_v5 : FVec F S800000x7 .f32 := broadcastInDim S800000x7 ![] bcast_S_S800000x7 main_cst_0
  let main_v6 : IVec S800000x7 1 := cmpf .olt main_v4 main_v5
  let main_c_1 : IVec S_ 1 := constantI S_ 1 1#1
  let main_v7 : IVec S_ 1 := (fun x v => Host.reduce IntOp.andi x v reducesTo_S800000x7_S_d0_1 h_S_) main_v6 main_c_1
  let main_v8 : IVec S_ 1 := andi main_v3 main_v7
  let main_v9 : FVec F S7x2 .f32 := Host.absf main_arg3
  let main_cst_2 : FVec F S_ .f32 := constant S_ .f32 0x7F800000#32
  let main_v10 : FVec F S7x2 .f32 := broadcastInDim S7x2 ![] bcast_S_S7x2 main_cst_2
  let main_v11 : IVec S7x2 1 := cmpf .olt main_v9 main_v10
  let main_c_3 : IVec S_ 1 := constantI S_ 1 1#1
  let main_v12 : IVec S_ 1 := (fun x v => Host.reduce IntOp.andi x v reducesTo_S7x2_S_d0_1 h_S_) main_v11 main_c_3
  let main_v13 : IVec S_ 1 := andi main_v8 main_v12
  let main_v14 : FVec F S2 .f32 := Host.absf main_arg4
  let main_cst_4 : FVec F S_ .f32 := constant S_ .f32 0x7F800000#32
  let main_v15 : FVec F S2 .f32 := broadcastInDim S2 ![] bcast_S_S2 main_cst_4
  let main_v16 : IVec S2 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S50000x2 : Shape := ⟨2, ![50000, 2]⟩
abbrev S2x800000 : Shape := ⟨2, ![2, 800000]⟩
abbrev S800000x7 : Shape := ⟨2, ![800000, 7]⟩
abbrev S7x2 : Shape := ⟨2, ![7, 2]⟩
abbrev S2 : Shape := ⟨1, ![2]⟩
abbrev S2x64 : Shape := ⟨2, ![2, 64]⟩
abbrev S64 : Shape := ⟨1, ![64]⟩
abbrev S64x64 : Shape := ⟨2, ![64, 64]⟩
abbrev S4x7x64 : Shape := ⟨3, ![4, 7, 64]⟩
abbrev S4x64 : Shape := ⟨2, ![4, 64]⟩
abbrev S4x64x64 : Shape := ⟨3, ![4, 64, 64]⟩
abbrev S64x500 : Shape := ⟨2, ![64, 500]⟩
abbrev S500 : Shape := ⟨1, ![500]⟩
abbrev S500x1 : Shape := ⟨2, ![500, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S1x2 : Shape := ⟨2, ![1, 2]⟩
abbrev S4000x2 : Shape := ⟨2, ![4000, 2]⟩
abbrev S4000x7 : Shape := ⟨2, ![4000, 7]⟩
abbrev S1x64 : Shape := ⟨2, ![1, 64]⟩
abbrev S50000x64 : Shape := ⟨2, ![50000, 64]⟩
abbrev S5000x2 : Shape := ⟨2, ![5000, 2]⟩
abbrev S5000x64 : Shape := ⟨2, ![5000, 64]⟩
abbrev S1x7x64 : Shape := ⟨3, ![1, 7, 64]⟩
abbrev S7x64 : Shape := ⟨2, ![7, 64]⟩
abbrev S1x64x64 : Shape := ⟨3, ![1, 64, 64]⟩
abbrev S800000x64 : Shape := ⟨2, ![800000, 64]⟩
abbrev S4000x64 : Shape := ⟨2, ![4000, 64]⟩
abbrev S50000x500 : Shape := ⟨2, ![50000, 500]⟩
abbrev S1x500 : Shape := ⟨2, ![1, 500]⟩
abbrev S50000x1 : Shape := ⟨2, ![50000, 1]⟩
abbrev S1x1 : Shape := ⟨2, ![1, 1]⟩

abbrev nBuf : Space → Nat
  | .hbm => 261
  | .vmem => 140
  | .smem => 0
  | _ => 0

abbrev hbmTy0_0 (i : Nat) : BufTy := match i % 128 with
  | 0 => ⟨S50000x2, .f32⟩
  | 1 => ⟨S2x800000, .i32⟩
  | 2 => ⟨S800000x7, .f32⟩
  | 3 => ⟨S7x2, .f32⟩
  | 4 => ⟨S2, .f32⟩
  | 5 => ⟨S2x64, .f32⟩
  | 6 => ⟨S64, .f32⟩
  | 7 => ⟨S64, .f32⟩
  | 8 => ⟨S64, .f32⟩
  | 9 => ⟨S64x64, .f32⟩
  | 10 => ⟨S64, .f32⟩
  | 11 => ⟨S4x7x64, .f32⟩
  | 12 => ⟨S4x64, .f32⟩
  | 13 => ⟨S4x64x64, .f32⟩
  | 14 => ⟨S4x64, .f32⟩
  | 15 => ⟨S4x64, .f32⟩
  | 16 => ⟨S4x64, .f32⟩
  | 17 => ⟨S4x64x64, .f32⟩
  | 18 => ⟨S4x64, .f32⟩
  | 19 => ⟨S64x500, .f32⟩
  | 20 => ⟨S500, .f32⟩
  | 21 => ⟨S500x1, .f32⟩
  | 22 => ⟨S1, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x2, .f32⟩
  | 36 => ⟨S1x2, .f32⟩
  | 37 => ⟨S800000x2, .f32⟩
  | 38 => ⟨S_, .f32⟩
  | 39 => ⟨S50000x2, .f32⟩
  | 40 => ⟨S800000x1, .i32⟩
  | 41 => ⟨S50000x2, .f32⟩
  | 42 => ⟨S1x64, .f32⟩
  | 43 => ⟨S50000x64, .f32⟩
  | 44 => ⟨S1x64, .f32⟩
  | 45 => ⟨S1x64, .f32⟩
  | 46 => ⟨S_, .f32⟩
  | 47 => ⟨S1x64, .f32⟩
  | 48 => ⟨S1x64, .f32⟩
  | 49 => ⟨S_, .f32⟩
  | 50 => ⟨S1x64, .f32⟩
  | 51 => ⟨S1x64, .f32⟩
  | 52 => ⟨S1x64, .f32⟩
  | 53 => ⟨S1x64, .f32⟩
  | 54 => ⟨S1x64, .f32⟩
  | 55 => ⟨S1x64, .f32⟩
  | 56 => ⟨S1x64, .f32⟩
  | 57 => ⟨S50000x64, .f32⟩
  | 58 => ⟨S1x7x64, .f32⟩
  | 59 => ⟨S7x64, .f32⟩
  | 60 => ⟨S1x64, .f32⟩
  | 61 => ⟨S64, .f32⟩
  | 62 => ⟨S1x64x64, .f32⟩
  | 63 => ⟨S64x64, .f32⟩
  | 64 => ⟨S1x64, .f32⟩
  | 65 => ⟨S64, .f32⟩
  | 66 => ⟨S1x64, .f32⟩
  | 67 => ⟨S64, .f32⟩
  | 68 => ⟨S1x64, .f32⟩
  | 69 => ⟨S64, .f32⟩
  | 70 => ⟨S1x64x64, .f32⟩
  | 71 => ⟨S64x64, .f32⟩
  | 72 => ⟨S1x64, .f32⟩
  | 73 => ⟨S64, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S1x64, .f32⟩
  | 84 => ⟨S800000x64, .f32⟩
  | 85 => ⟨S_, .f32⟩
  | 86 => ⟨S50000x64, .f32⟩
  | 87 => ⟨S800000x1, .i32⟩
  | 88 => ⟨S50000x64, .f32⟩
  | 89 => ⟨S1x64, .f32⟩
  | 90 => ⟨S50000x64, .f32⟩
  | 91 => ⟨S1x64, .f32⟩
  | 92 => ⟨S1x64, .f32⟩
  | 93 => ⟨S_, .f32⟩
  | 94 => ⟨S1x64, .f32⟩
  | 95 => ⟨S1x64, .f32⟩
  | 96 => ⟨S_, .f32⟩
  | 97 => ⟨S1x64, .f32⟩
  | 98 => ⟨S1x64, .f32⟩
  | 99 => ⟨S1x64, .f32⟩
  | 100 => ⟨S1x64, .f32⟩
  | 101 => ⟨S1x64, .f32⟩
  | 102 => ⟨S1x64, .f32⟩
  | 103 => ⟨S1x64, .f32⟩
  | 104 => ⟨S50000x64, .f32⟩
  | 105 => ⟨S1x7x64, .f32⟩
  | 106 => ⟨S7x64, .f32⟩
  | 107 => ⟨S1x64, .f32⟩
  | 108 => ⟨S64, .f32⟩
  | 109 => ⟨S1x64x64, .f32⟩
  | 110 => ⟨S64x64, .f32⟩
  | 111 => ⟨S1x64, .f32⟩
  | 112 => ⟨S64, .f32⟩
  | 113 => ⟨S1x64, .f32⟩
  | 114 => ⟨S64, .f32⟩
  | 115 => ⟨S1x64, .f32⟩
  | 116 => ⟨S64, .f32⟩
  | 117 => ⟨S1x64x64, .f32⟩
  | 118 => ⟨S64x64, .f32⟩
  | 119 => ⟨S1x64, .f32⟩
  | 120 => ⟨S64, .f32⟩
  | 121 => ⟨S_, .i32⟩
  | 122 => ⟨S800000, .i32⟩
  | 123 => ⟨S800000, .i1⟩
  | 124 => ⟨S_, .i32⟩
  | 125 => ⟨S800000, .i32⟩
  | 126 => ⟨S800000, .i32⟩
  | 127 => ⟨S800000, .i32⟩
  | _ => ⟨S50000x2, .f32⟩

abbrev hbmTy0_1 (i : Nat) : BufTy := match i % 128 with
  | 0 => ⟨S800000x1, .i32⟩
  | 1 => ⟨S800000x64, .f32⟩
  | 2 => ⟨S1x64, .f32⟩
  | 3 => ⟨S800000x64, .f32⟩
  | 4 => ⟨S_, .f32⟩
  | 5 => ⟨S50000x64, .f32⟩
  | 6 => ⟨S800000x1, .i32⟩
  | 7 => ⟨S50000x64, .f32⟩
  | 8 => ⟨S1x64, .f32⟩
  | 9 => ⟨S50000x64, .f32⟩
  | 10 => ⟨S1x64, .f32⟩
  | 11 => ⟨S1x64, .f32⟩
  | 12 => ⟨S_, .f32⟩
  | 13 => ⟨S1x64, .f32⟩
  | 14 => ⟨S1x64, .f32⟩
  | 15 => ⟨S_, .f32⟩
  | 16 => ⟨S1x64, .f32⟩
  | 17 => ⟨S1x64, .f32⟩
  | 18 => ⟨S1x64, .f32⟩
  | 19 => ⟨S1x64, .f32⟩
  | 20 => ⟨S1x64, .f32⟩
  | 21 => ⟨S1x64, .f32⟩
  | 22 => ⟨S1x64, .f32⟩
  | 23 => ⟨S50000x64, .f32⟩
  | 24 => ⟨S1x7x64, .f32⟩
  | 25 => ⟨S7x64, .f32⟩
  | 26 => ⟨S1x64, .f32⟩
  | 27 => ⟨S64, .f32⟩
  | 28 => ⟨S1x64x64, .f32⟩
  | 29 => ⟨S64x64, .f32⟩
  | 30 => ⟨S1x64, .f32⟩
  | 31 => ⟨S64, .f32⟩
  | 32 => ⟨S1x64, .f32⟩
  | 33 => ⟨S64, .f32⟩
  | 34 => ⟨S1x64, .f32⟩
  | 35 => ⟨S64, .f32⟩
  | 36 => ⟨S1x64x64, .f32⟩
  | 37 => ⟨S64x64, .f32⟩
  | 38 => ⟨S1x64, .f32⟩
  | 39 => ⟨S64, .f32⟩
  | 40 => ⟨S_, .i32⟩
  | 41 => ⟨S800000, .i32⟩
  | 42 => ⟨S800000, .i1⟩
  | 43 => ⟨S_, .i32⟩
  | 44 => ⟨S800000, .i32⟩
  | 45 => ⟨S800000, .i32⟩
  | 46 => ⟨S800000, .i32⟩
  | 47 => ⟨S800000x1, .i32⟩
  | 48 => ⟨S800000x64, .f32⟩
  | 49 => ⟨S1x64, .f32⟩
  | 50 => ⟨S800000x64, .f32⟩
  | 51 => ⟨S_, .f32⟩
  | 52 => ⟨S50000x64, .f32⟩
  | 53 => ⟨S800000x1, .i32⟩
  | 54 => ⟨S50000x64, .f32⟩
  | 55 => ⟨S1x64, .f32⟩
  | 56 => ⟨S50000x64, .f32⟩
  | 57 => ⟨S1x64, .f32⟩
  | 58 => ⟨S1x64, .f32⟩
  | 59 => ⟨S_, .f32⟩
  | 60 => ⟨S1x64, .f32⟩
  | 61 => ⟨S1x64, .f32⟩
  | 62 => ⟨S_, .f32⟩
  | 63 => ⟨S1x64, .f32⟩
  | 64 => ⟨S1x64, .f32⟩
  | 65 => ⟨S1x64, .f32⟩
  | 66 => ⟨S1x64, .f32⟩
  | 67 => ⟨S1x64, .f32⟩
  | 68 => ⟨S1x64, .f32⟩
  | 69 => ⟨S1x64, .f32⟩
  | 70 => ⟨S50000x64, .f32⟩
  | 71 => ⟨S1x7x64, .f32⟩
  | 72 => ⟨S7x64, .f32⟩
  | 73 => ⟨S1x64, .f32⟩
  | 74 => ⟨S64, .f32⟩
  | 75 => ⟨S1x64x64, .f32⟩
  | 76 => ⟨S64x64, .f32⟩
  | 77 => ⟨S1x64, .f32⟩
  | 78 => ⟨S64, .f32⟩
  | 79 => ⟨S1x64, .f32⟩
  | 80 => ⟨S64, .f32⟩
  | 81 => ⟨S1x64, .f32⟩
  | 82 => ⟨S64, .f32⟩
  | 83 => ⟨S1x64x64, .f32⟩
  | 84 => ⟨S64x64, .f32⟩
  | 85 => ⟨S1x64, .f32⟩
  | 86 => ⟨S64, .f32⟩
  | 87 => ⟨S_, .i32⟩
  | 88 => ⟨S800000, .i32⟩
  | 89 => ⟨S800000, .i1⟩
  | 90 => ⟨S_, .i32⟩
  | 91 => ⟨S800000, .i32⟩
  | 92 => ⟨S800000, .i32⟩
  | 93 => ⟨S800000, .i32⟩
  | 94 => ⟨S800000x1, .i32⟩
  | 95 => ⟨S800000x64, .f32⟩
  | 96 => ⟨S1x64, .f32⟩
  | 97 => ⟨S800000x64, .f32⟩
  | 98 => ⟨S_, .f32⟩
  | 99 => ⟨S50000x64, .f32⟩
  | 100 => ⟨S800000x1, .i32⟩
  | 101 => ⟨S50000x64, .f32⟩
  | 102 => ⟨S1x64, .f32⟩
  | 103 => ⟨S50000x64, .f32⟩
  | 104 => ⟨S1x64, .f32⟩
  | 105 => ⟨S1x64, .f32⟩
  | 106 => ⟨S_, .f32⟩
  | 107 => ⟨S1x64, .f32⟩
  | 108 => ⟨S1x64, .f32⟩
  | 109 => ⟨S_, .f32⟩
  | 110 => ⟨S1x64, .f32⟩
  | 111 => ⟨S1x64, .f32⟩
  | 112 => ⟨S1x64, .f32⟩
  | 113 => ⟨S1x64, .f32⟩
  | 114 => ⟨S1x64, .f32⟩
  | 115 => ⟨S1x64, .f32⟩
  | 116 => ⟨S1x64, .f32⟩
  | 117 => ⟨S50000x64, .f32⟩
  | 118 => ⟨S50000x500, .f32⟩
  | 119 => ⟨S1x500, .f32⟩
  | 120 => ⟨S50000x500, .f32⟩
  | 121 => ⟨S50000x500, .f32⟩
  | 122 => ⟨S_, .f32⟩
  | 123 => ⟨S50000x500, .f32⟩
  | 124 => ⟨S50000x500, .i1⟩
  | 125 => ⟨S_, .f32⟩
  | 126 => ⟨S50000x500, .f32⟩
  | 127 => ⟨S50000x500, .f32⟩
  | _ => ⟨S50000x2, .f32⟩

abbrev hbmTy0_2 (i : Nat) : BufTy := match i % 128 with
  | 0 => ⟨S50000x500, .f32⟩
  | 1 => ⟨S50000x1, .f32⟩
  | 2 => ⟨S1x1, .f32⟩
  | 3 => ⟨S50000x1, .f32⟩
  | 4 => ⟨S50000x1, .f32⟩
  | _ => ⟨S50000x2, .f32⟩

abbrev hbmTy (i : Nat) : BufTy := match i / 128 with
  | 0 => hbmTy0_0 i
  | 1 => hbmTy0_1 i
  | 2 => hbmTy0_2 i
  | _ => ⟨S50000x2, .f32⟩

abbrev vmemTy0_0 (i : Nat) : BufTy := match i % 128 with
  | 0 => ⟨S4000x2, .f32⟩
  | 1 => ⟨S4000x2, .f32⟩
  | 2 => ⟨S4000x7, .f32⟩
  | 3 => ⟨S4000x7, .f32⟩
  | 4 => ⟨S7x2, .f32⟩
  | 5 => ⟨S1x2, .f32⟩
  | 6 => ⟨S4000x2, .f32⟩
  | 7 => ⟨S4000x2, .f32⟩
  | 8 => ⟨S5000x2, .f32⟩
  | 9 => ⟨S5000x2, .f32⟩
  | 10 => ⟨S5000x2, .f32⟩
  | 11 => ⟨S5000x2, .f32⟩
  | 12 => ⟨S2x64, .f32⟩
  | 13 => ⟨S1x64, .f32⟩
  | 14 => ⟨S5000x64, .f32⟩
  | 15 => ⟨S5000x64, .f32⟩
  | 16 => ⟨S1x64, .f32⟩
  | 17 => ⟨S1x64, .f32⟩
  | 18 => ⟨S5000x64, .f32⟩
  | 19 => ⟨S5000x64, .f32⟩
  | 20 => ⟨S1x64, .f32⟩
  | 21 => ⟨S1x64, .f32⟩
  | 22 => ⟨S1x64, .f32⟩
  | 23 => ⟨S1x64, .f32⟩
  | 24 => ⟨S64x64, .f32⟩
  | 25 => ⟨S1x64, .f32⟩
  | 26 => ⟨S5000x64, .f32⟩
  | 27 => ⟨S5000x64, .f32⟩
  | 28 => ⟨S4000x64, .f32⟩
  | 29 => ⟨S4000x64, .f32⟩
  | 30 => ⟨S4000x7, .f32⟩
  | 31 => ⟨S4000x7, .f32⟩
  | 32 => ⟨S7x64, .f32⟩
  | 33 => ⟨S1x64, .f32⟩
  | 34 => ⟨S4000x64, .f32⟩
  | 35 => ⟨S4000x64, .f32⟩
  | 36 => ⟨S5000x64, .f32⟩
  | 37 => ⟨S5000x64, .f32⟩
  | 38 => ⟨S5000x64, .f32⟩
  | 39 => ⟨S5000x64, .f32⟩
  | 40 => ⟨S64x64, .f32⟩
  | 41 => ⟨S1x64, .f32⟩
  | 42 => ⟨S5000x64, .f32⟩
  | 43 => ⟨S5000x64, .f32⟩
  | 44 => ⟨S1x64, .f32⟩
  | 45 => ⟨S1x64, .f32⟩
  | 46 => ⟨S5000x64, .f32⟩
  | 47 => ⟨S5000x64, .f32⟩
  | 48 => ⟨S1x64, .f32⟩
  | 49 => ⟨S1x64, .f32⟩
  | 50 => ⟨S1x64, .f32⟩
  | 51 => ⟨S1x64, .f32⟩
  | 52 => ⟨S64x64, .f32⟩
  | 53 => ⟨S1x64, .f32⟩
  | 54 => ⟨S5000x64, .f32⟩
  | 55 => ⟨S5000x64, .f32⟩
  | 56 => ⟨S4000x64, .f32⟩
  | 57 => ⟨S4000x64, .f32⟩
  | 58 => ⟨S4000x7, .f32⟩
  | 59 => ⟨S4000x7, .f32⟩
  | 60 => ⟨S7x64, .f32⟩
  | 61 => ⟨S1x64, .f32⟩
  | 62 => ⟨S4000x64, .f32⟩
  | 63 => ⟨S4000x64, .f32⟩
  | 64 => ⟨S5000x64, .f32⟩
  | 65 => ⟨S5000x64, .f32⟩
  | 66 => ⟨S5000x64, .f32⟩
  | 67 => ⟨S5000x64, .f32⟩
  | 68 => ⟨S64x64, .f32⟩
  | 69 => ⟨S1x64, .f32⟩
  | 70 => ⟨S5000x64, .f32⟩
  | 71 => ⟨S5000x64, .f32⟩
  | 72 => ⟨S1x64, .f32⟩
  | 73 => ⟨S1x64, .f32⟩
  | 74 => ⟨S5000x64, .f32⟩
  | 75 => ⟨S5000x64, .f32⟩
  | 76 => ⟨S1x64, .f32⟩
  | 77 => ⟨S1x64, .f32⟩
  | 78 => ⟨S1x64, .f32⟩
  | 79 => ⟨S1x64, .f32⟩
  | 80 => ⟨S64x64, .f32⟩
  | 81 => ⟨S1x64, .f32⟩
  | 82 => ⟨S5000x64, .f32⟩
  | 83 => ⟨S5000x64, .f32⟩
  | 84 => ⟨S4000x64, .f32⟩
  | 85 => ⟨S4000x64, .f32⟩
  | 86 => ⟨S4000x7, .f32⟩
  | 87 => ⟨S4000x7, .f32⟩
  | 88 => ⟨S7x64, .f32⟩
  | 89 => ⟨S1x64, .f32⟩
  | 90 => ⟨S4000x64, .f32⟩
  | 91 => ⟨S4000x64, .f32⟩
  | 92 => ⟨S5000x64, .f32⟩
  | 93 => ⟨S5000x64, .f32⟩
  | 94 => ⟨S5000x64, .f32⟩
  | 95 => ⟨S5000x64, .f32⟩
  | 96 => ⟨S64x64, .f32⟩
  | 97 => ⟨S1x64, .f32⟩
  | 98 => ⟨S5000x64, .f32⟩
  | 99 => ⟨S5000x64, .f32⟩
  | 100 => ⟨S1x64, .f32⟩
  | 101 => ⟨S1x64, .f32⟩
  | 102 => ⟨S5000x64, .f32⟩
  | 103 => ⟨S5000x64, .f32⟩
  | 104 => ⟨S1x64, .f32⟩
  | 105 => ⟨S1x64, .f32⟩
  | 106 => ⟨S1x64, .f32⟩
  | 107 => ⟨S1x64, .f32⟩
  | 108 => ⟨S64x64, .f32⟩
  | 109 => ⟨S1x64, .f32⟩
  | 110 => ⟨S5000x64, .f32⟩
  | 111 => ⟨S5000x64, .f32⟩
  | 112 => ⟨S4000x64, .f32⟩
  | 113 => ⟨S4000x64, .f32⟩
  | 114 => ⟨S4000x7, .f32⟩
  | 115 => ⟨S4000x7, .f32⟩
  | 116 => ⟨S7x64, .f32⟩
  | 117 => ⟨S1x64, .f32⟩
  | 118 => ⟨S4000x64, .f32⟩
  | 119 => ⟨S4000x64, .f32⟩
  | 120 => ⟨S5000x64, .f32⟩
  | 121 => ⟨S5000x64, .f32⟩
  | 122 => ⟨S5000x64, .f32⟩
  | 123 => ⟨S5000x64, .f32⟩
  | 124 => ⟨S64x64, .f32⟩
  | 125 => ⟨S1x64, .f32⟩
  | 126 => ⟨S5000x64, .f32⟩
  | 127 => ⟨S5000x64, .f32⟩
  | _ => ⟨S50000x2, .f32⟩

abbrev vmemTy0_1 (i : Nat) : BufTy := match i % 128 with
  | 0 => ⟨S1x64, .f32⟩
  | 1 => ⟨S1x64, .f32⟩
  | 2 => ⟨S5000x64, .f32⟩
  | 3 => ⟨S5000x64, .f32⟩
  | 4 => ⟨S1x64, .f32⟩
  | 5 => ⟨S1x64, .f32⟩
  | 6 => ⟨S1x64, .f32⟩
  | 7 => ⟨S1x64, .f32⟩
  | 8 => ⟨S64x64, .f32⟩
  | 9 => ⟨S1x64, .f32⟩
  | 10 => ⟨S5000x64, .f32⟩
  | 11 => ⟨S5000x64, .f32⟩
  | _ => ⟨S50000x2, .f32⟩

abbrev vmemTy (i : Nat) : BufTy := match i / 128 with
  | 0 => vmemTy0_0 i
  | 1 => vmemTy0_1 i
  | _ => ⟨S50000x2, .f32⟩

abbrev bufTy : (tb : Table) → Fin (tcTables nBuf tb) → BufTy
  | .hbm, ⟨i, _⟩ => hbmTy i
  | .local _ .vmem, ⟨i, _⟩ => vmemTy i
  | _, _ => ⟨S50000x2, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 140 → Bool
  | ⟨i, _⟩ => dmaSemScopedAt i

abbrev sig : RefSig :=
  ofTc nBuf bufTy 0 140 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_cst : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17_0 : Ref sig .tc := ⟨.hbm, 43, rfl⟩
abbrev main_v17_1 : Ref sig .tc := ⟨.hbm, 44, rfl⟩
abbrev main_v17_2 : Ref sig .tc := ⟨.hbm, 45, rfl⟩
abbrev main_cst_1 : Ref sig .tc := ⟨.hbm, 46, rfl⟩
abbrev main_v18 : Ref sig .tc := ⟨.hbm, 47, rfl⟩
abbrev main_v19 : Ref sig .tc := ⟨.hbm, 48, rfl⟩
abbrev main_cst_2 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_c_3 : Ref sig .tc := ⟨.hbm, 74, rfl⟩
abbrev main_v44 : Ref sig .tc := ⟨.hbm, 75, rfl⟩
abbrev main_v45 : Ref sig .tc := ⟨.hbm, 76, rfl⟩
abbrev main_c_4 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_5 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57_0 : Ref sig .tc := ⟨.hbm, 90, rfl⟩
abbrev main_v57_1 : Ref sig .tc := ⟨.hbm, 91, rfl⟩
abbrev main_v57_2 : Ref sig .tc := ⟨.hbm, 92, rfl⟩
abbrev main_cst_6 : Ref sig .tc := ⟨.hbm, 93, rfl⟩
abbrev main_v58 : Ref sig .tc := ⟨.hbm, 94, rfl⟩
abbrev main_v59 : Ref sig .tc := ⟨.hbm, 95, rfl⟩
abbrev main_cst_7 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_8 : Ref sig .tc := ⟨.hbm, 121, rfl⟩
abbrev main_v84 : Ref sig .tc := ⟨.hbm, 122, rfl⟩
abbrev main_v85 : Ref sig .tc := ⟨.hbm, 123, rfl⟩
abbrev main_c_9 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_cst_10 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97_0 : Ref sig .tc := ⟨.hbm, 137, rfl⟩
abbrev main_v97_1 : Ref sig .tc := ⟨.hbm, 138, rfl⟩
abbrev main_v97_2 : Ref sig .tc := ⟨.hbm, 139, rfl⟩
abbrev main_cst_11 : Ref sig .tc := ⟨.hbm, 140, rfl⟩
abbrev main_v98 : Ref sig .tc := ⟨.hbm, 141, rfl⟩
abbrev main_v99 : Ref sig .tc := ⟨.hbm, 142, rfl⟩
abbrev main_cst_12 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_v110 : Ref sig .tc := ⟨.hbm, 154, rfl⟩
abbrev main_v111 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_v122 : Ref sig .tc := ⟨.hbm, 166, rfl⟩
abbrev main_v123 : Ref sig .tc := ⟨.hbm, 167, rfl⟩
abbrev main_c_13 : Ref sig .tc := ⟨.hbm, 168, rfl⟩
abbrev main_v124 : Ref sig .tc := ⟨.hbm, 169, rfl⟩
abbrev main_v125 : Ref sig .tc := ⟨.hbm, 170, rfl⟩
abbrev main_c_14 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_v129 : Ref sig .tc := ⟨.hbm, 175, rfl⟩
abbrev main_v130 : Ref sig .tc := ⟨.hbm, 176, rfl⟩
abbrev main_v131 : Ref sig .tc := ⟨.hbm, 177, rfl⟩
abbrev main_v132 : Ref sig .tc := ⟨.hbm, 178, rfl⟩
abbrev main_cst_15 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_v136 : Ref sig .tc := ⟨.hbm, 183, rfl⟩
abbrev main_v137_0 : Ref sig .tc := ⟨.hbm, 184, rfl⟩
abbrev main_v137_1 : Ref sig .tc := ⟨.hbm, 185, rfl⟩
abbrev main_v137_2 : Ref sig .tc := ⟨.hbm, 186, rfl⟩
abbrev main_cst_16 : Ref sig .tc := ⟨.hbm, 187, rfl⟩
abbrev main_v138 : Ref sig .tc := ⟨.hbm, 188, rfl⟩
abbrev main_v139 : Ref sig .tc := ⟨.hbm, 189, rfl⟩
abbrev main_cst_17 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_c_18 : Ref sig .tc := ⟨.hbm, 215, rfl⟩
abbrev main_v164 : Ref sig .tc := ⟨.hbm, 216, rfl⟩
abbrev main_v165 : Ref sig .tc := ⟨.hbm, 217, rfl⟩
abbrev main_c_19 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_cst_20 : Ref sig .tc := ⟨.hbm, 226, rfl⟩
abbrev main_v173 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177_0 : Ref sig .tc := ⟨.hbm, 231, rfl⟩
abbrev main_v177_1 : Ref sig .tc := ⟨.hbm, 232, rfl⟩
abbrev main_v177_2 : Ref sig .tc := ⟨.hbm, 233, rfl⟩
abbrev main_cst_21 : Ref sig .tc := ⟨.hbm, 234, rfl⟩
abbrev main_v178 : Ref sig .tc := ⟨.hbm, 235, rfl⟩
abbrev main_v179 : Ref sig .tc := ⟨.hbm, 236, rfl⟩
abbrev main_cst_22 : Ref sig .tc := ⟨.hbm, 237, rfl⟩
abbrev main_v180 : Ref sig .tc := ⟨.hbm, 238, rfl⟩
abbrev main_v181 : Ref sig .tc := ⟨.hbm, 239, rfl⟩
abbrev main_v182 : Ref sig .tc := ⟨.hbm, 240, rfl⟩
abbrev main_v183 : Ref sig .tc := ⟨.hbm, 241, rfl⟩
abbrev main_v184 : Ref sig .tc := ⟨.hbm, 242, rfl⟩
abbrev main_v185 : Ref sig .tc := ⟨.hbm, 243, rfl⟩
abbrev main_v186 : Ref sig .tc := ⟨.hbm, 244, rfl⟩
abbrev main_v187 : Ref sig .tc := ⟨.hbm, 245, rfl⟩
abbrev main_v188 : Ref sig .tc := ⟨.hbm, 246, rfl⟩
abbrev main_v189 : Ref sig .tc := ⟨.hbm, 247, rfl⟩
abbrev main_v190 : Ref sig .tc := ⟨.hbm, 248, rfl⟩
abbrev main_v191 : Ref sig .tc := ⟨.hbm, 249, rfl⟩
abbrev main_cst_23 : Ref sig .tc := ⟨.hbm, 250, rfl⟩
abbrev main_v192 : Ref sig .tc := ⟨.hbm, 251, rfl⟩
abbrev main_v193 : Ref sig .tc := ⟨.hbm, 252, rfl⟩
abbrev main_cst_24 : Ref sig .tc := ⟨.hbm, 253, rfl⟩
abbrev main_v194 : Ref sig .tc := ⟨.hbm, 254, rfl⟩
abbrev main_v195 : Ref sig .tc := ⟨.hbm, 255, rfl⟩
abbrev main_v196 : Ref sig .tc := ⟨.hbm, 256, rfl⟩
abbrev main_v197 : Ref sig .tc := ⟨.hbm, 257, rfl⟩
abbrev main_v198 : Ref sig .tc := ⟨.hbm, 258, rfl⟩
abbrev main_v199 : Ref sig .tc := ⟨.hbm, 259, rfl⟩
abbrev main_v200 : Ref sig .tc := ⟨.hbm, 260, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc1_stg5_0 : Ref sig .tc := ⟨.vmem, 16, rfl⟩
abbrev cc1_stg6_0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg4_0 : Ref sig .tc := ⟨.vmem, 23, rfl⟩
abbrev cc2_stg5_0 : Ref sig .tc := ⟨.vmem, 24, rfl⟩
abbrev cc2_stg6_0 : Ref sig .tc := ⟨.vmem, 25, rfl⟩
abbrev cc2_stg7_0 : Ref sig .tc := ⟨.vmem, 26, rfl⟩
abbrev cc2_stg7_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg1_1 : Ref sig .tc := ⟨.vmem, 31, rfl⟩
abbrev cc3_stg2_0 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg1_1 : Ref sig .tc := ⟨.vmem, 39, rfl⟩
abbrev cc4_stg2_0 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg6_0 : Ref sig .tc := ⟨.vmem, 45, rfl⟩
abbrev cc5_stg0_0 : Ref sig .tc := ⟨.vmem, 46, rfl⟩
abbrev cc5_stg0_1 : Ref sig .tc := ⟨.vmem, 47, rfl⟩
abbrev cc5_stg1_0 : Ref sig .tc := ⟨.vmem, 48, rfl⟩
abbrev cc5_stg2_0 : Ref sig .tc := ⟨.vmem, 49, rfl⟩
abbrev cc5_stg3_0 : Ref sig .tc := ⟨.vmem, 50, rfl⟩
abbrev cc5_stg4_0 : Ref sig .tc := ⟨.vmem, 51, rfl⟩
abbrev cc5_stg5_0 : Ref sig .tc := ⟨.vmem, 52, rfl⟩
abbrev cc5_stg6_0 : Ref sig .tc := ⟨.vmem, 53, rfl⟩
abbrev cc5_stg7_0 : Ref sig .tc := ⟨.vmem, 54, rfl⟩
abbrev cc5_stg7_1 : Ref sig .tc := ⟨.vmem, 55, rfl⟩
abbrev cc6_stg0_0 : Ref sig .tc := ⟨.vmem, 56, rfl⟩
abbrev cc6_stg0_1 : Ref sig .tc := ⟨.vmem, 57, rfl⟩
abbrev cc6_stg1_0 : Ref sig .tc := ⟨.vmem, 58, rfl⟩
abbrev cc6_stg1_1 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg4_0 : Ref sig .tc := ⟨.vmem, 62, rfl⟩
abbrev cc6_stg4_1 : Ref sig .tc := ⟨.vmem, 63, rfl⟩
abbrev cc7_stg0_0 : Ref sig .tc := ⟨.vmem, 64, rfl⟩
abbrev cc7_stg0_1 : Ref sig .tc := ⟨.vmem, 65, rfl⟩
abbrev cc7_stg1_0 : Ref sig .tc := ⟨.vmem, 66, rfl⟩
abbrev cc7_stg1_1 : Ref sig .tc := ⟨.vmem, 67, rfl⟩
abbrev cc7_stg2_0 : Ref sig .tc := ⟨.vmem, 68, rfl⟩
abbrev cc7_stg3_0 : Ref sig .tc := ⟨.vmem, 69, rfl⟩
abbrev cc7_stg4_0 : Ref sig .tc := ⟨.vmem, 70, rfl⟩
abbrev cc7_stg4_1 : Ref sig .tc := ⟨.vmem, 71, rfl⟩
abbrev cc7_stg5_0 : Ref sig .tc := ⟨.vmem, 72, rfl⟩
abbrev cc7_stg6_0 : Ref sig .tc := ⟨.vmem, 73, rfl⟩
abbrev cc8_stg0_0 : Ref sig .tc := ⟨.vmem, 74, rfl⟩
abbrev cc8_stg0_1 : Ref sig .tc := ⟨.vmem, 75, rfl⟩
abbrev cc8_stg1_0 : Ref sig .tc := ⟨.vmem, 76, rfl⟩
abbrev cc8_stg2_0 : Ref sig .tc := ⟨.vmem, 77, rfl⟩
abbrev cc8_stg3_0 : Ref sig .tc := ⟨.vmem, 78, rfl⟩
abbrev cc8_stg4_0 : Ref sig .tc := ⟨.vmem, 79, rfl⟩
abbrev cc8_stg5_0 : Ref sig .tc := ⟨.vmem, 80, rfl⟩
abbrev cc8_stg6_0 : Ref sig .tc := ⟨.vmem, 81, rfl⟩
abbrev cc8_stg7_0 : Ref sig .tc := ⟨.vmem, 82, rfl⟩
abbrev cc8_stg7_1 : Ref sig .tc := ⟨.vmem, 83, rfl⟩
abbrev cc9_stg0_0 : Ref sig .tc := ⟨.vmem, 84, rfl⟩
abbrev cc9_stg0_1 : Ref sig .tc := ⟨.vmem, 85, rfl⟩
abbrev cc9_stg1_0 : Ref sig .tc := ⟨.vmem, 86, rfl⟩
abbrev cc9_stg1_1 : Ref sig .tc := ⟨.vmem, 87, rfl⟩
abbrev cc9_stg2_0 : Ref sig .tc := ⟨.vmem, 88, rfl⟩
abbrev cc9_stg3_0 : Ref sig .tc := ⟨.vmem, 89, rfl⟩
abbrev cc9_stg4_0 : Ref sig .tc := ⟨.vmem, 90, rfl⟩
abbrev cc9_stg4_1 : Ref sig .tc := ⟨.vmem, 91, rfl⟩
abbrev cc10_stg0_0 : Ref sig .tc := ⟨.vmem, 92, rfl⟩
abbrev cc10_stg0_1 : Ref sig .tc := ⟨.vmem, 93, rfl⟩
abbrev cc10_stg1_0 : Ref sig .tc := ⟨.vmem, 94, rfl⟩
abbrev cc10_stg1_1 : Ref sig .tc := ⟨.vmem, 95, rfl⟩
abbrev cc10_stg2_0 : Ref sig .tc := ⟨.vmem, 96, rfl⟩
abbrev cc10_stg3_0 : Ref sig .tc := ⟨.vmem, 97, rfl⟩
abbrev cc10_stg4_0 : Ref sig .tc := ⟨.vmem, 98, rfl⟩
abbrev cc10_stg4_1 : Ref sig .tc := ⟨.vmem, 99, rfl⟩
abbrev cc10_stg5_0 : Ref sig .tc := ⟨.vmem, 100, rfl⟩
abbrev cc10_stg6_0 : Ref sig .tc := ⟨.vmem, 101, rfl⟩
abbrev cc11_stg0_0 : Ref sig .tc := ⟨.vmem, 102, rfl⟩
abbrev cc11_stg0_1 : Ref sig .tc := ⟨.vmem, 103, rfl⟩
abbrev cc11_stg1_0 : Ref sig .tc := ⟨.vmem, 104, rfl⟩
abbrev cc11_stg2_0 : Ref sig .tc := ⟨.vmem, 105, rfl⟩
abbrev cc11_stg3_0 : Ref sig .tc := ⟨.vmem, 106, rfl⟩
abbrev cc11_stg4_0 : Ref sig .tc := ⟨.vmem, 107, rfl⟩
abbrev cc11_stg5_0 : Ref sig .tc := ⟨.vmem, 108, rfl⟩
abbrev cc11_stg6_0 : Ref sig .tc := ⟨.vmem, 109, rfl⟩
abbrev cc11_stg7_0 : Ref sig .tc := ⟨.vmem, 110, rfl⟩
abbrev cc11_stg7_1 : Ref sig .tc := ⟨.vmem, 111, rfl⟩
abbrev cc12_stg0_0 : Ref sig .tc := ⟨.vmem, 112, rfl⟩
abbrev cc12_stg0_1 : Ref sig .tc := ⟨.vmem, 113, rfl⟩
abbrev cc12_stg1_0 : Ref sig .tc := ⟨.vmem, 114, rfl⟩
abbrev cc12_stg1_1 : Ref sig .tc := ⟨.vmem, 115, rfl⟩
abbrev cc12_stg2_0 : Ref sig .tc := ⟨.vmem, 116, rfl⟩
abbrev cc12_stg3_0 : Ref sig .tc := ⟨.vmem, 117, rfl⟩
abbrev cc12_stg4_0 : Ref sig .tc := ⟨.vmem, 118, rfl⟩
abbrev cc12_stg4_1 : Ref sig .tc := ⟨.vmem, 119, rfl⟩
abbrev cc13_stg0_0 : Ref sig .tc := ⟨.vmem, 120, rfl⟩
abbrev cc13_stg0_1 : Ref sig .tc := ⟨.vmem, 121, rfl⟩
abbrev cc13_stg1_0 : Ref sig .tc := ⟨.vmem, 122, rfl⟩
abbrev cc13_stg1_1 : Ref sig .tc := ⟨.vmem, 123, rfl⟩
abbrev cc13_stg2_0 : Ref sig .tc := ⟨.vmem, 124, rfl⟩
abbrev cc13_stg3_0 : Ref sig .tc := ⟨.vmem, 125, rfl⟩
abbrev cc13_stg4_0 : Ref sig .tc := ⟨.vmem, 126, rfl⟩
abbrev cc13_stg4_1 : Ref sig .tc := ⟨.vmem, 127, rfl⟩
abbrev cc13_stg5_0 : Ref sig .tc := ⟨.vmem, 128, rfl⟩
abbrev cc13_stg6_0 : Ref sig .tc := ⟨.vmem, 129, rfl⟩
abbrev cc14_stg0_0 : Ref sig .tc := ⟨.vmem, 130, rfl⟩
abbrev cc14_stg0_1 : Ref sig .tc := ⟨.vmem, 131, rfl⟩
abbrev cc14_stg1_0 : Ref sig .tc := ⟨.vmem, 132, rfl⟩
abbrev cc14_stg2_0 : Ref sig .tc := ⟨.vmem, 133, rfl⟩
abbrev cc14_stg3_0 : Ref sig .tc := ⟨.vmem, 134, rfl⟩
abbrev cc14_stg4_0 : Ref sig .tc := ⟨.vmem, 135, rfl⟩
abbrev cc14_stg5_0 : Ref sig .tc := ⟨.vmem, 136, rfl⟩
abbrev cc14_stg6_0 : Ref sig .tc := ⟨.vmem, 137, rfl⟩
abbrev cc14_stg7_0 : Ref sig .tc := ⟨.vmem, 138, rfl⟩
abbrev cc14_stg7_1 : Ref sig .tc := ⟨.vmem, 139, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc1_sem5_0 : DmaSem sig := 16
abbrev cc1_sem6_0 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem4_0 : DmaSem sig := 23
abbrev cc2_sem5_0 : DmaSem sig := 24
abbrev cc2_sem6_0 : DmaSem sig := 25
abbrev cc2_sem7_0 : DmaSem sig := 26
abbrev cc2_sem7_1 : DmaSem sig := 27
abbrev cc3_sem0_0 : DmaSem sig := 28
abbrev cc3_sem0_1 : DmaSem sig := 29
abbrev cc3_sem1_0 : DmaSem sig := 30
abbrev cc3_sem1_1 : DmaSem sig := 31
abbrev cc3_sem2_0 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem1_1 : DmaSem sig := 39
abbrev cc4_sem2_0 : DmaSem sig := 40
abbrev cc4_sem3_0 : DmaSem sig := 41
abbrev cc4_sem4_0 : DmaSem sig := 42
abbrev cc4_sem4_1 : DmaSem sig := 43
abbrev cc4_sem5_0 : DmaSem sig := 44
abbrev cc4_sem6_0 : DmaSem sig := 45
abbrev cc5_sem0_0 : DmaSem sig := 46
abbrev cc5_sem0_1 : DmaSem sig := 47
abbrev cc5_sem1_0 : DmaSem sig := 48
abbrev cc5_sem2_0 : DmaSem sig := 49
abbrev cc5_sem3_0 : DmaSem sig := 50
abbrev cc5_sem4_0 : DmaSem sig := 51
abbrev cc5_sem5_0 : DmaSem sig := 52
abbrev cc5_sem6_0 : DmaSem sig := 53
abbrev cc5_sem7_0 : DmaSem sig := 54
abbrev cc5_sem7_1 : DmaSem sig := 55
abbrev cc6_sem0_0 : DmaSem sig := 56
abbrev cc6_sem0_1 : DmaSem sig := 57
abbrev cc6_sem1_0 : DmaSem sig := 58
abbrev cc6_sem1_1 : DmaSem sig := 59
abbrev cc6_sem2_0 : DmaSem sig := 60
abbrev cc6_sem3_0 : DmaSem sig := 61
abbrev cc6_sem4_0 : DmaSem sig := 62
abbrev cc6_sem4_1 : DmaSem sig := 63
abbrev cc7_sem0_0 : DmaSem sig := 64
abbrev cc7_sem0_1 : DmaSem sig := 65
abbrev cc7_sem1_0 : DmaSem sig := 66
abbrev cc7_sem1_1 : DmaSem sig := 67
abbrev cc7_sem2_0 : DmaSem sig := 68
abbrev cc7_sem3_0 : DmaSem sig := 69
abbrev cc7_sem4_0 : DmaSem sig := 70
abbrev cc7_sem4_1 : DmaSem sig := 71
abbrev cc7_sem5_0 : DmaSem sig := 72
abbrev cc7_sem6_0 : DmaSem sig := 73
abbrev cc8_sem0_0 : DmaSem sig := 74
abbrev cc8_sem0_1 : DmaSem sig := 75
abbrev cc8_sem1_0 : DmaSem sig := 76
abbrev cc8_sem2_0 : DmaSem sig := 77
abbrev cc8_sem3_0 : DmaSem sig := 78
abbrev cc8_sem4_0 : DmaSem sig := 79
abbrev cc8_sem5_0 : DmaSem sig := 80
abbrev cc8_sem6_0 : DmaSem sig := 81
abbrev cc8_sem7_0 : DmaSem sig := 82
abbrev cc8_sem7_1 : DmaSem sig := 83
abbrev cc9_sem0_0 : DmaSem sig := 84
abbrev cc9_sem0_1 : DmaSem sig := 85
abbrev cc9_sem1_0 : DmaSem sig := 86
abbrev cc9_sem1_1 : DmaSem sig := 87
abbrev cc9_sem2_0 : DmaSem sig := 88
abbrev cc9_sem3_0 : DmaSem sig := 89
abbrev cc9_sem4_0 : DmaSem sig := 90
abbrev cc9_sem4_1 : DmaSem sig := 91
abbrev cc10_sem0_0 : DmaSem sig := 92
abbrev cc10_sem0_1 : DmaSem sig := 93
abbrev cc10_sem1_0 : DmaSem sig := 94
abbrev cc10_sem1_1 : DmaSem sig := 95
abbrev cc10_sem2_0 : DmaSem sig := 96
abbrev cc10_sem3_0 : DmaSem sig := 97
abbrev cc10_sem4_0 : DmaSem sig := 98
abbrev cc10_sem4_1 : DmaSem sig := 99
abbrev cc10_sem5_0 : DmaSem sig := 100
abbrev cc10_sem6_0 : DmaSem sig := 101
abbrev cc11_sem0_0 : DmaSem sig := 102
abbrev cc11_sem0_1 : DmaSem sig := 103
abbrev cc11_sem1_0 : DmaSem sig := 104
abbrev cc11_sem2_0 : DmaSem sig := 105
abbrev cc11_sem3_0 : DmaSem sig := 106
abbrev cc11_sem4_0 : DmaSem sig := 107
abbrev cc11_sem5_0 : DmaSem sig := 108
abbrev cc11_sem6_0 : DmaSem sig := 109
abbrev cc11_sem7_0 : DmaSem sig := 110
abbrev cc11_sem7_1 : DmaSem sig := 111
abbrev cc12_sem0_0 : DmaSem sig := 112
abbrev cc12_sem0_1 : DmaSem sig := 113
abbrev cc12_sem1_0 : DmaSem sig := 114
abbrev cc12_sem1_1 : DmaSem sig := 115
abbrev cc12_sem2_0 : DmaSem sig := 116
abbrev cc12_sem3_0 : DmaSem sig := 117
abbrev cc12_sem4_0 : DmaSem sig := 118
abbrev cc12_sem4_1 : DmaSem sig := 119
abbrev cc13_sem0_0 : DmaSem sig := 120
abbrev cc13_sem0_1 : DmaSem sig := 121
abbrev cc13_sem1_0 : DmaSem sig := 122
abbrev cc13_sem1_1 : DmaSem sig := 123
abbrev cc13_sem2_0 : DmaSem sig := 124
abbrev cc13_sem3_0 : DmaSem sig := 125
abbrev cc13_sem4_0 : DmaSem sig := 126
abbrev cc13_sem4_1 : DmaSem sig := 127
abbrev cc13_sem5_0 : DmaSem sig := 128
abbrev cc13_sem6_0 : DmaSem sig := 129
abbrev cc14_sem0_0 : DmaSem sig := 130
abbrev cc14_sem0_1 : DmaSem sig := 131
abbrev cc14_sem1_0 : DmaSem sig := 132
abbrev cc14_sem2_0 : DmaSem sig := 133
abbrev cc14_sem3_0 : DmaSem sig := 134
abbrev cc14_sem4_0 : DmaSem sig := 135
abbrev cc14_sem5_0 : DmaSem sig := 136
abbrev cc14_sem6_0 : DmaSem sig := 137
abbrev cc14_sem7_0 : DmaSem sig := 138
abbrev cc14_sem7_1 : DmaSem sig := 139

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x7 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S7x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4000x2 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x2 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S2x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![200], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S4000x7 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S7x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S4000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S64x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x64 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S64x64 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x64 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x64 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![200], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S4000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S4000x7 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S7x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S4000x64 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 2 → Memref sig .tc .vmem S5000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x64 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S64x64 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x64 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S5000x64 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x64 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x64 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x64 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x64 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x64 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 1 → Memref sig .tc .vmem S1x64 .f32 := fun | 0 => Memref.whole cc8_stg4_0 | ⟨_ + 1, h⟩ => absurd h (Nat.not_lt.2 (Nat.le_add_left _ _))
abbrev sem8_4 : Fin 1 → DmaSem sig := fun | 0 => cc8_sem4_0 | ⟨_ + 1, h⟩ => absurd h (Nat.not_lt.2 (Nat.le_add_left _ _))
abbrev reads8_4 : Fin grid8.rank → Bool := ![false]

abbrev stage8_5 : Fin 1 → Memref sig .tc .vmem S64x64 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x64 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 2 → Memref sig .tc .vmem S5000x64 .f32 := fun | 0 => Memref.whole cc8_stg7_0 | 1 => Memref.whole cc8_stg7_1 | ⟨_ + 2, h⟩ => absurd h (Nat.not_lt.2 (Nat.le_add_left _ _))
abbrev sem8_7 : Fin 2 → DmaSem sig := fun | 0 => cc8_sem7_0 | 1 => cc8_sem7_1 | ⟨_ + 2, h⟩ => absurd h (Nat.not_lt.2 (Nat.le_add_left _ _))
abbrev reads8_7 : Fin grid8.rank → Bool := ![true]

abbrev grid9 : Pipeline.Grid := ⟨1, ![200], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S4000x64 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S4000x7 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S7x64 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S1x64 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 2 → Memref sig .tc .vmem S4000x64 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_4 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_6 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 2 → Memref sig .tc .vmem S5000x64 .f32 := fun | 0 => Memref.whole cc10_stg1_0 | 1 => Memref.whole cc10_stg1_1 | ⟨_ + 2, h⟩ => absurd h (Nat.not_lt.2 (Nat.le_add_left _ _))
abbrev sem10_1 : Fin 2 → DmaSem sig := fun | 0 => cc10_sem1_0 | 1 => cc10_sem1_1 | ⟨_ + 2, h⟩ => absurd h (Nat.not_lt.2 (Nat.le_add_left _ _))
abbrev reads10_1 : Fin grid10.rank → Bool := ![true]

abbrev stage10_2 : Fin 1 → Memref sig .tc .vmem S64x64 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S1x64 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![false]

abbrev stage10_4 : Fin 2 → Memref sig .tc .vmem S5000x64 .f32 := fun | 0 => Memref.whole cc10_stg4_0 | 1 => Memref.whole cc10_stg4_1 | ⟨_ + 2, h⟩ => absurd h (Nat.not_lt.2 (Nat.le_add_left _ _))
abbrev sem10_4 : Fin 2 → DmaSem sig := fun | 0 => cc10_sem4_0 | 1 => cc10_sem4_1 | ⟨_ + 2, h⟩ => absurd h (Nat.not_lt.2 (Nat.le_add_left _ _))
abbrev reads10_4 : Fin grid10.rank → Bool := ![true]

abbrev stage10_5 : Fin 1 → Memref sig .tc .vmem S1x64 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev stage10_6 : Fin 1 → Memref sig .tc .vmem S1x64 .f32 := fun | 0 => Memref.whole cc10_stg6_0 | ⟨_ + 1, h⟩ => absurd h (Nat.not_lt.2 (Nat.le_add_left _ _))
abbrev sem10_6 : Fin 1 → DmaSem sig := fun | 0 => cc10_sem6_0 | ⟨_ + 1, h⟩ => absurd h (Nat.not_lt.2 (Nat.le_add_left _ _))
abbrev reads10_6 : Fin grid10.rank → Bool := ![false]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_4 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_5 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_6 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_7 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x64 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 1 → Memref sig .tc .vmem S1x64 .f32 := fun | 0 => Memref.whole cc11_stg3_0 | ⟨_ + 1, h⟩ => absurd h (Nat.not_lt.2 (Nat.le_add_left _ _))
abbrev sem11_3 : Fin 1 → DmaSem sig := fun | 0 => cc11_sem3_0 | ⟨_ + 1, h⟩ => absurd h (Nat.not_lt.2 (Nat.le_add_left _ _))
abbrev reads11_3 : Fin grid11.rank → Bool := ![false]

abbrev stage11_4 : Fin 1 → Memref sig .tc .vmem S1x64 .f32 := fun | 0 => Memref.whole cc11_stg4_0 | ⟨_ + 1, h⟩ => absurd h (Nat.not_lt.2 (Nat.le_add_left _ _))
abbrev sem11_4 : Fin 1 → DmaSem sig := fun | 0 => cc11_sem4_0 | ⟨_ + 1, h⟩ => absurd h (Nat.not_lt.2 (Nat.le_add_left _ _))
abbrev reads11_4 : Fin grid11.rank → Bool := ![false]

abbrev stage11_5 : Fin 1 → Memref sig .tc .vmem S64x64 .f32 := fun | 0 => Memref.whole cc11_stg5_0 | ⟨_ + 1, h⟩ => absurd h (Nat.not_lt.2 (Nat.le_add_left _ _))
abbrev sem11_5 : Fin 1 → DmaSem sig := fun | 0 => cc11_sem5_0 | ⟨_ + 1, h⟩ => absurd h (Nat.not_lt.2 (Nat.le_add_left _ _))
abbrev reads11_5 : Fin grid11.rank → Bool := ![false]

abbrev stage11_6 : Fin 1 → Memref sig .tc .vmem S1x64 .f32 := fun | 0 => Memref.whole cc11_stg6_0 | ⟨_ + 1, h⟩ => absurd h (Nat.not_lt.2 (Nat.le_add_left _ _))
abbrev sem11_6 : Fin 1 → DmaSem sig := fun | 0 => cc11_sem6_0 | ⟨_ + 1, h⟩ => absurd h (Nat.not_lt.2 (Nat.le_add_left _ _))
abbrev reads11_6 : Fin grid11.rank → Bool := ![false]

abbrev stage11_7 : Fin 2 → Memref sig .tc .vmem S5000x64 .f32 := fun | 0 => Memref.whole cc11_stg7_0 | 1 => Memref.whole cc11_stg7_1 | ⟨_ + 2, h⟩ => absurd h (Nat.not_lt.2 (Nat.le_add_left _ _))
abbrev sem11_7 : Fin 2 → DmaSem sig := fun | 0 => cc11_sem7_0 | 1 => cc11_sem7_1 | ⟨_ + 2, h⟩ => absurd h (Nat.not_lt.2 (Nat.le_add_left _ _))
abbrev reads11_7 : Fin grid11.rank → Bool := ![true]

abbrev grid12 : Pipeline.Grid := ⟨1, ![200], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S4000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S4000x7 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S7x64 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x64 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S4000x64 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![10], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_5 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S5000x64 .f32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S64x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S1x64 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 2 → Memref sig .tc .vmem S5000x64 .f32 := fun | 0 => Memref.whole cc13_stg4_0 | 1 => Memref.whole cc13_stg4_1 | ⟨_ + 2, h⟩ => absurd h (Nat.not_lt.2 (Nat.le_add_left _ _))
abbrev sem13_4 : Fin 2 → DmaSem sig := fun | 0 => cc13_sem4_0 | 1 => cc13_sem4_1 | ⟨_ + 2, h⟩ => absurd h (Nat.not_lt.2 (Nat.le_add_left _ _))
abbrev reads13_4 : Fin grid13.rank → Bool := ![true]

abbrev stage13_5 : Fin 1 → Memref sig .tc .vmem S1x64 .f32 := fun | 0 => Memref.whole cc13_stg5_0 | ⟨_ + 1, h⟩ => absurd h (Nat.not_lt.2 (Nat.le_add_left _ _))
abbrev sem13_5 : Fin 1 → DmaSem sig := fun | 0 => cc13_sem5_0 | ⟨_ + 1, h⟩ => absurd h (Nat.not_lt.2 (Nat.le_add_left _ _))
abbrev reads13_5 : Fin grid13.rank → Bool := ![false]

abbrev stage13_6 : Fin 1 → Memref sig .tc .vmem S1x64 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_6 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_7 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S5000x64 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x64 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x64 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 1 → Memref sig .tc .vmem S1x64 .f32 := fun | 0 => Memref.whole cc14_stg3_0 | ⟨_ + 1, h⟩ => absurd h (Nat.not_lt.2 (Nat.le_add_left _ _))
abbrev sem14_3 : Fin 1 → DmaSem sig := fun | 0 => cc14_sem3_0 | ⟨_ + 1, h⟩ => absurd h (Nat.not_lt.2 (Nat.le_add_left _ _))
abbrev reads14_3 : Fin grid14.rank → Bool := ![false]

abbrev stage14_4 : Fin 1 → Memref sig .tc .vmem S1x64 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S64x64 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev stage14_6 : Fin 1 → Memref sig .tc .vmem S1x64 .f32 := fun | 0 => Memref.whole cc14_stg6_0 | ⟨_ + 1, h⟩ => absurd h (Nat.not_lt.2 (Nat.le_add_left _ _))
abbrev sem14_6 : Fin 1 → DmaSem sig := fun | 0 => cc14_sem6_0 | ⟨_ + 1, h⟩ => absurd h (Nat.not_lt.2 (Nat.le_add_left _ _))
abbrev reads14_6 : Fin grid14.rank → Bool := ![false]

abbrev stage14_7 : Fin 2 → Memref sig .tc .vmem S5000x64 .f32 := fun | 0 => Memref.whole cc14_stg7_0 | 1 => Memref.whole cc14_stg7_1 | ⟨_ + 2, h⟩ => absurd h (Nat.not_lt.2 (Nat.le_add_left _ _))
abbrev sem14_7 : Fin 2 → DmaSem sig := fun | 0 => cc14_sem7_0 | 1 => cc14_sem7_1 | ⟨_ + 2, h⟩ => absurd h (Nat.not_lt.2 (Nat.le_add_left _ _))
abbrev reads14_7 : Fin grid14.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  shapeCasts_S2_S1x2 : S2.ShapeCasts S1x2
  inb_S4000x7_S4000x7_0_0 : ∀ a, (![0, 0] : Fin 2 → Nat) a + S4000x7.size a ≤ S4000x7.size a
  h_S4000x7 : 0 < S4000x7.numel
  bitsLt_bf16_f32 : FTy.bits .bf16 < FTy.bits .f32
  inb_S7x2_S7x2_0_0 : ∀ a, (![0, 0] : Fin 2 → Nat) a + S7x2.size a ≤ S7x2.size a
  h_S7x2 : 0 < S7x2.numel
  inb_S4000x2_S4000x2_0_0 : ∀ a, (![0, 0] : Fin 2 → Nat) a + S4000x2.size a ≤ S4000x2.size a
  h_S4000x2 : 0 < S4000x2.numel
  shapeCasts_S4000x2_S4000x2 : S4000x2.ShapeCasts S4000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S4000x2 : S1x2.Broadcasts S4000x2
  bcast_S_S50000x2 : S_.BroadcastsInDim S50000x2 (![] : Fin 0 → Fin S50000x2.rank)
  shapeCasts_S64_S1x64 : S64.ShapeCasts S1x64
  inb_S1x64_S1x64_0_0 : ∀ a, (![0, 0] : Fin 2 → Nat) a + S1x64.size a ≤ S1x64.size a
  h_S1x64 : 0 < S1x64.numel
  inb_S5000x2_S5000x2_0_0 : ∀ a, (![0, 0] : Fin 2 → Nat) a + S5000x2.size a ≤ S5000x2.size a
  h_S5000x2 : 0 < S5000x2.numel
  shapeCasts_S5000x2_S5000x2 : S5000x2.ShapeCasts S5000x2
  inb_S2x64_S2x64_0_0 : ∀ a, (![0, 0] : Fin 2 → Nat) a + S2x64.size a ≤ S2x64.size a
  h_S2x64 : 0 < S2x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  reduces_S5000x64_S64 : S5000x64.Reduces [0] S64
  bcast_S_S1x64 : S_.BroadcastsInDim S1x64 (![] : Fin 0 → Fin S1x64.rank)
  shapeCasts_S5000x64_S5000x64 : S5000x64.ShapeCasts S5000x64
  inb_S64x64_S64x64_0_0 : ∀ a, (![0, 0] : Fin 2 → Nat) a + S64x64.size a ≤ S64x64.size a
  h_S64x64 : 0 < S64x64.numel
  slices_S4x7x64_S1x7x64_0_0_0 : S4x7x64.Slices ![0, 0, 0] S1x7x64
  shapeCasts_S1x7x64_S7x64 : S1x7x64.ShapeCasts S7x64
  slices_S4x64_S1x64_0_0 : S4x64.Slices ![0, 0] S1x64
  shapeCasts_S1x64_S64 : S1x64.ShapeCasts S64
  slices_S4x64x64_S1x64x64_0_0_0 : S4x64x64.Slices ![0, 0, 0] S1x64x64
  shapeCasts_S1x64x64_S64x64 : S1x64x64.ShapeCasts S64x64
  inb_S7x64_S7x64_0_0 : ∀ a, (![0, 0] : Fin 2 → Nat) a + S7x64.size a ≤ S7x64.size a
  h_S7x64 : 0 < S7x64.numel
  shapeCasts_S7x64_S7x64 : S7x64.ShapeCasts S7x64
  inb_S4000x64_S4000x64_0_0 : ∀ a, (![0, 0] : Fin 2 → Nat) a + S4000x64.size a ≤ S4000x64.size a
  h_S4000x64 : 0 < S4000x64.numel
  shapeCasts_S4000x64_S4000x64 : S4000x64.ShapeCasts S4000x64
  broadcasts_S1x64_S4000x64 : S1x64.Broadcasts S4000x64
  bcast_S_S50000x64 : S_.BroadcastsInDim S50000x64 (![] : Fin 0 → Fin S50000x64.rank)
  shapeCasts_S64x64_S64x64 : S64x64.ShapeCasts S64x64
  slices_S4x7x64_S1x7x64_1_0_0 : S4x7x64.Slices ![1, 0, 0] S1x7x64
  slices_S4x64_S1x64_1_0 : S4x64.Slices ![1, 0] S1x64
  slices_S4x64x64_S1x64x64_1_0_0 : S4x64x64.Slices ![1, 0, 0] S1x64x64
  slices_S4x7x64_S1x7x64_2_0_0 : S4x7x64.Slices ![2, 0, 0] S1x7x64
  slices_S4x64_S1x64_2_0 : S4x64.Slices ![2, 0] S1x64
  slices_S4x64x64_S1x64x64_2_0_0 : S4x64x64.Slices ![2, 0, 0] S1x64x64
  slices_S4x7x64_S1x7x64_3_0_0 : S4x7x64.Slices ![3, 0, 0] S1x7x64
  slices_S4x64_S1x64_3_0 : S4x64.Slices ![3, 0] S1x64
  slices_S4x64x64_S1x64x64_3_0_0 : S4x64x64.Slices ![3, 0, 0] S1x64x64
  bcast_S500_S1x500_1 : S500.BroadcastsInDim S1x500 (![1] : Fin 1 → Fin S1x500.rank)
  bcast_S1x500_S50000x500_0_1 : S1x500.BroadcastsInDim S50000x500 (![0, 1] : Fin 2 → Fin S50000x500.rank)
  bcast_S_S50000x500 : S_.BroadcastsInDim S50000x500 (![] : Fin 0 → Fin S50000x500.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x2_S800000x1_S800000x2_1_0_n_n_0_1_12_wf : GatherDims.WF S50000x2 S800000x1 S800000x2 [1] [0] [] [0] [] 1 ![1, 2]
  dot_S4000x7_S7x2_S4000x2_1_0_0_1_n_n_wf : DotDims.WF S4000x7 S7x2 S4000x2 [1] [0] [0] [1] [] []
  scatter_S50000x2_S800000x1_S800000x2_1_0_0_1_wf : ScatterDims.WF S50000x2 S800000x1 S800000x2 [1] [0] [0] 1
  dot_S5000x2_S2x64_S5000x64_1_0_0_1_n_n_wf : DotDims.WF S5000x2 S2x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  dot_S4000x7_S7x64_S4000x64_1_0_0_1_n_n_wf : DotDims.WF S4000x7 S7x64 S4000x64 [1] [0] [0] [1] [] []
  scatter_S50000x64_S800000x1_S800000x64_1_0_0_1_wf : ScatterDims.WF S50000x64 S800000x1 S800000x64 [1] [0] [0] 1
  dot_S50000x64_S64x500_S50000x500_1_0_0_1_n_n_wf : DotDims.WF S50000x64 S64x500 S50000x500 [1] [0] [0] [1] [] []
  dot_S50000x500_S500x1_S50000x1_1_0_0_1_n_n_wf : DotDims.WF S50000x500 S500x1 S50000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x2.size a ≤ S800000x2.size a
  hwx0_0 : ∀ i : grid0.Coords, EltTy.bits .f32 = 32 ∨ (Rect.block (s := S800000x2) S4000x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x7.size a ≤ S800000x7.size a
  hwx0_1 : ∀ i : grid0.Coords, EltTy.bits .f32 = 32 ∨ (Rect.block (s := S800000x7) S4000x7.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S7x2.size a ≤ S7x2.size a
  hwx0_2 : ∀ i : grid0.Coords, EltTy.bits .f32 = 32 ∨ (Rect.block (s := S7x2) S7x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x2.size a ≤ S1x2.size a
  hwx0_3 : ∀ i : grid0.Coords, EltTy.bits .f32 = 32 ∨ (Rect.block (s := S1x2) S1x2.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4000x2.size a ≤ S800000x2.size a
  hwx0_4 : ∀ i : grid0.Coords, EltTy.bits .f32 = 32 ∨ (Rect.block (s := S800000x2) S4000x2.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x2.size a ≤ S50000x2.size a
  hwx1_0 : ∀ i : grid1.Coords, EltTy.bits .f32 = 32 ∨ (Rect.block (s := S50000x2) S5000x2.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x2.size a ≤ S50000x2.size a
  hwx1_1 : ∀ i : grid1.Coords, EltTy.bits .f32 = 32 ∨ (Rect.block (s := S50000x2) S5000x2.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S2x64.size a ≤ S2x64.size a
  hwx1_2 : ∀ i : grid1.Coords, EltTy.bits .f32 = 32 ∨ (Rect.block (s := S2x64) S2x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x64.size a ≤ S800000x64.size a
  hwx3_0 : ∀ i : grid3.Coords, EltTy.bits .f32 = 32 ∨ (Rect.block (s := S800000x64) S4000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S4000x7.size a ≤ S800000x7.size a
  hwx3_1 : ∀ i : grid3.Coords, EltTy.bits .f32 = 32 ∨ (Rect.block (s := S800000x7) S4000x7.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S7x64.size a ≤ S7x64.size a
  hwx3_2 : ∀ i : grid3.Coords, EltTy.bits .f32 = 32 ∨ (Rect.block (s := S7x64) S7x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S4000x64.size a ≤ S800000x64.size a
  hwx3_4 : ∀ i : grid3.Coords, EltTy.bits .f32 = 32 ∨ (Rect.block (s := S800000x64) S4000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S64x64.size a ≤ S64x64.size a
  hwx4_2 : ∀ i : grid4.Coords, EltTy.bits .f32 = 32 ∨ (Rect.block (s := S64x64) S64x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x64.size a ≤ S50000x64.size a
  hwx4_4 : ∀ i : grid4.Coords, EltTy.bits .f32 = 32 ∨ (Rect.block (s := S50000x64) S5000x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S64x64.size a ≤ S64x64.size a
  hwx5_5 : ∀ i : grid5.Coords, EltTy.bits .f32 = 32 ∨ (Rect.block (s := S64x64) S64x64.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x64.size a ≤ S1x64.size a
  hwx5_6 : ∀ i : grid5.Coords, EltTy.bits .f32 = 32 ∨ (Rect.block (s := S1x64) S1x64.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x64.size a ≤ S50000x64.size a
  hwx5_7 : ∀ i : grid5.Coords, EltTy.bits .f32 = 32 ∨ (Rect.block (s := S50000x64) S5000x64.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S4000x64.size a ≤ S800000x64.size a
  hwx6_0 : ∀ i : grid6.Coords, EltTy.bits .f32 = 32 ∨ (Rect.block (s := S800000x64) S4000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S4000x7.size a ≤ S800000x7.size a
  hwx6_1 : ∀ i : grid6.Coords, EltTy.bits .f32 = 32 ∨ (Rect.block (s := S800000x7) S4000x7.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S7x64.size a ≤ S7x64.size a
  hwx6_2 : ∀ i : grid6.Coords, EltTy.bits .f32 = 32 ∨ (Rect.block (s := S7x64) S7x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S4000x64.size a ≤ S800000x64.size a
  hwx6_4 : ∀ i : grid6.Coords, EltTy.bits .f32 = 32 ∨ (Rect.block (s := S800000x64) S4000x64.size (cc6_transform_4 i) (hinb6_4 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x64.size a ≤ S50000x64.size a
  hwx7_0 : ∀ i : grid7.Coords, EltTy.bits .f32 = 32 ∨ (Rect.block (s := S50000x64) S5000x64.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x64.size a ≤ S50000x64.size a
  hwx7_1 : ∀ i : grid7.Coords, EltTy.bits .f32 = 32 ∨ (Rect.block (s := S50000x64) S5000x64.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S64x64.size a ≤ S64x64.size a
  hwx7_2 : ∀ i : grid7.Coords, EltTy.bits .f32 = 32 ∨ (Rect.block (s := S64x64) S64x64.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x64.size a ≤ S1x64.size a
  hwx7_3 : ∀ i : grid7.Coords, EltTy.bits .f32 = 32 ∨ (Rect.block (s := S1x64) S1x64.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S5000x64.size a ≤ S50000x64.size a
  hwx7_4 : ∀ i : grid7.Coords, EltTy.bits .f32 = 32 ∨ (Rect.block (s := S50000x64) S5000x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x64.size a ≤ S1x64.size a
  hwx7_6 : ∀ i : grid7.Coords, EltTy.bits .f32 = 32 ∨ (Rect.block (s := S1x64) S1x64.size (cc7_transform_6 i) (hinb7_6 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x64.size a ≤ S50000x64.size a
  hwx8_0 : ∀ i : grid8.Coords, EltTy.bits .f32 = 32 ∨ (Rect.block (s := S50000x64) S5000x64.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x64.size a ≤ S1x64.size a
  hwx8_1 : ∀ i : grid8.Coords, EltTy.bits .f32 = 32 ∨ (Rect.block (s := S1x64) S1x64.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x64.size a ≤ S1x64.size a
  hwx8_2 : ∀ i : grid8.Coords, EltTy.bits .f32 = 32 ∨ (Rect.block (s := S1x64) S1x64.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x64.size a ≤ S1x64.size a
  hwx8_3 : ∀ i : grid8.Coords, EltTy.bits .f32 = 32 ∨ (Rect.block (s := S1x64) S1x64.size (cc8_transform_3 i) (hinb8_3 i)).WholeWords (EltTy.packing .f32)
  hstage8_4 : ∀ j, (stage8_4 j).IsWhole
  nbuf8_4 : grid8.bufCount reads8_4 true = 1
  hreads8_4 : ∀ i i' : grid8.Coords, (∀ a, reads8_4 a = true → i a = i' a) → cc8_transform_4 i = cc8_transform_4 i'
  hinb8_4 : ∀ (i : grid8.Coords) a, (cc8_transform_4 i a + 1) * S1x64.size a ≤ S1x64.size a
  hwx8_4 : ∀ i : grid8.Coords, EltTy.bits .f32 = 32 ∨ (Rect.block (s := S1x64) S1x64.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S64x64.size a ≤ S64x64.size a
  hwx8_5 : ∀ i : grid8.Coords, EltTy.bits .f32 = 32 ∨ (Rect.block (s := S64x64) S64x64.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x64.size a ≤ S1x64.size a
  hwx8_6 : ∀ i : grid8.Coords, EltTy.bits .f32 = 32 ∨ (Rect.block (s := S1x64) S1x64.size (cc8_transform_6 i) (hinb8_6 i)).WholeWords (EltTy.packing .f32)
  hstage8_7 : ∀ j, (stage8_7 j).IsWhole
  nbuf8_7 : grid8.bufCount reads8_7 false = 2
  hreads8_7 : ∀ i i' : grid8.Coords, (∀ a, reads8_7 a = true → i a = i' a) → cc8_transform_7 i = cc8_transform_7 i'
  hinb8_7 : ∀ (i : grid8.Coords) a, (cc8_transform_7 i a + 1) * S5000x64.size a ≤ S50000x64.size a
  hwx8_7 : ∀ i : grid8.Coords, EltTy.bits .f32 = 32 ∨ (Rect.block (s := S50000x64) S5000x64.size (cc8_transform_7 i) (hinb8_7 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S4000x64.size a ≤ S800000x64.size a
  hwx9_0 : ∀ i : grid9.Coords, EltTy.bits .f32 = 32 ∨ (Rect.block (s := S800000x64) S4000x64.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S4000x7.size a ≤ S800000x7.size a
  hwx9_1 : ∀ i : grid9.Coords, EltTy.bits .f32 = 32 ∨ (Rect.block (s := S800000x7) S4000x7.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S7x64.size a ≤ S7x64.size a
  hwx9_2 : ∀ i : grid9.Coords, EltTy.bits .f32 = 32 ∨ (Rect.block (s := S7x64) S7x64.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S1x64.size a ≤ S1x64.size a
  hwx9_3 : ∀ i : grid9.Coords, EltTy.bits .f32 = 32 ∨ (Rect.block (s := S1x64) S1x64.size (cc9_transform_3 i) (hinb9_3 i)).WholeWords (EltTy.packing .f32)
  hstage9_4 : ∀ j, (stage9_4 j).IsWhole
  nbuf9_4 : grid9.bufCount reads9_4 false = 2
  hreads9_4 : ∀ i i' : grid9.Coords, (∀ a, reads9_4 a = true → i a = i' a) → cc9_transform_4 i = cc9_transform_4 i'
  hinb9_4 : ∀ (i : grid9.Coords) a, (cc9_transform_4 i a + 1) * S4000x64.size a ≤ S800000x64.size a
  hwx9_4 : ∀ i : grid9.Coords, EltTy.bits .f32 = 32 ∨ (Rect.block (s := S800000x64) S4000x64.size (cc9_transform_4 i) (hinb9_4 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x64.size a ≤ S50000x64.size a
  hwx10_0 : ∀ i : grid10.Coords, EltTy.bits .f32 = 32 ∨ (Rect.block (s := S50000x64) S5000x64.size (cc10_transform_0 i) (hinb10_0 i)).WholeWords (EltTy.packing .f32)
  hstage10_1 : ∀ j, (stage10_1 j).IsWhole
  nbuf10_1 : grid10.bufCount reads10_1 false = 2
  hreads10_1 : ∀ i i' : grid10.Coords, (∀ a, reads10_1 a = true → i a = i' a) → cc10_transform_1 i = cc10_transform_1 i'
  hinb10_1 : ∀ (i : grid10.Coords) a, (cc10_transform_1 i a + 1) * S5000x64.size a ≤ S50000x64.size a
  hwx10_1 : ∀ i : grid10.Coords, EltTy.bits .f32 = 32 ∨ (Rect.block (s := S50000x64) S5000x64.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S64x64.size a ≤ S64x64.size a
  hwx10_2 : ∀ i : grid10.Coords, EltTy.bits .f32 = 32 ∨ (Rect.block (s := S64x64) S64x64.size (cc10_transform_2 i) (hinb10_2 i)).WholeWords (EltTy.packing .f32)
  hstage10_3 : ∀ j, (stage10_3 j).IsWhole
  nbuf10_3 : grid10.bufCount reads10_3 true = 1
  hreads10_3 : ∀ i i' : grid10.Coords, (∀ a, reads10_3 a = true → i a = i' a) → cc10_transform_3 i = cc10_transform_3 i'
  hinb10_3 : ∀ (i : grid10.Coords) a, (cc10_transform_3 i a + 1) * S1x64.size a ≤ S1x64.size a
  hwx10_3 : ∀ i : grid10.Coords, EltTy.bits .f32 = 32 ∨ (Rect.block (s := S1x64) S1x64.size (cc10_transform_3 i) (hinb10_3 i)).WholeWords (EltTy.packing .f32)
  hstage10_4 : ∀ j, (stage10_4 j).IsWhole
  nbuf10_4 : grid10.bufCount reads10_4 false = 2
  hreads10_4 : ∀ i i' : grid10.Coords, (∀ a, reads10_4 a = true → i a = i' a) → cc10_transform_4 i = cc10_transform_4 i'
  hinb10_4 : ∀ (i : grid10.Coords) a, (cc10_transform_4 i a + 1) * S5000x64.size a ≤ S50000x64.size a
  hwx10_4 : ∀ i : grid10.Coords, EltTy.bits .f32 = 32 ∨ (Rect.block (s := S50000x64) S5000x64.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x64.size a ≤ S1x64.size a
  hwx10_5 : ∀ i : grid10.Coords, EltTy.bits .f32 = 32 ∨ (Rect.block (s := S1x64) S1x64.size (cc10_transform_5 i) (hinb10_5 i)).WholeWords (EltTy.packing .f32)
  hstage10_6 : ∀ j, (stage10_6 j).IsWhole
  nbuf10_6 : grid10.bufCount reads10_6 true = 1
  hreads10_6 : ∀ i i' : grid10.Coords, (∀ a, reads10_6 a = true → i a = i' a) → cc10_transform_6 i = cc10_transform_6 i'
  hinb10_6 : ∀ (i : grid10.Coords) a, (cc10_transform_6 i a + 1) * S1x64.size a ≤ S1x64.size a
  hwx10_6 : ∀ i : grid10.Coords, EltTy.bits .f32 = 32 ∨ (Rect.block (s := S1x64) S1x64.size (cc10_transform_6 i) (hinb10_6 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x64.size a ≤ S50000x64.size a
  hwx11_0 : ∀ i : grid11.Coords, EltTy.bits .f32 = 32 ∨ (Rect.block (s := S50000x64) S5000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x64.size a ≤ S1x64.size a
  hwx11_1 : ∀ i : grid11.Coords, EltTy.bits .f32 = 32 ∨ (Rect.block (s := S1x64) S1x64.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x64.size a ≤ S1x64.size a
  hwx11_2 : ∀ i : grid11.Coords, EltTy.bits .f32 = 32 ∨ (Rect.block (s := S1x64) S1x64.size (cc11_transform_2 i) (hinb11_2 i)).WholeWords (EltTy.packing .f32)
  hstage11_3 : ∀ j, (stage11_3 j).IsWhole
  nbuf11_3 : grid11.bufCount reads11_3 true = 1
  hreads11_3 : ∀ i i' : grid11.Coords, (∀ a, reads11_3 a = true → i a = i' a) → cc11_transform_3 i = cc11_transform_3 i'
  hinb11_3 : ∀ (i : grid11.Coords) a, (cc11_transform_3 i a + 1) * S1x64.size a ≤ S1x64.size a
  hwx11_3 : ∀ i : grid11.Coords, EltTy.bits .f32 = 32 ∨ (Rect.block (s := S1x64) S1x64.size (cc11_transform_3 i) (hinb11_3 i)).WholeWords (EltTy.packing .f32)
  hstage11_4 : ∀ j, (stage11_4 j).IsWhole
  nbuf11_4 : grid11.bufCount reads11_4 true = 1
  hreads11_4 : ∀ i i' : grid11.Coords, (∀ a, reads11_4 a = true → i a = i' a) → cc11_transform_4 i = cc11_transform_4 i'
  hinb11_4 : ∀ (i : grid11.Coords) a, (cc11_transform_4 i a + 1) * S1x64.size a ≤ S1x64.size a
  hwx11_4 : ∀ i : grid11.Coords, EltTy.bits .f32 = 32 ∨ (Rect.block (s := S1x64) S1x64.size (cc11_transform_4 i) (hinb11_4 i)).WholeWords (EltTy.packing .f32)
  hstage11_5 : ∀ j, (stage11_5 j).IsWhole
  nbuf11_5 : grid11.bufCount reads11_5 true = 1
  hreads11_5 : ∀ i i' : grid11.Coords, (∀ a, reads11_5 a = true → i a = i' a) → cc11_transform_5 i = cc11_transform_5 i'
  hinb11_5 : ∀ (i : grid11.Coords) a, (cc11_transform_5 i a + 1) * S64x64.size a ≤ S64x64.size a
  hwx11_5 : ∀ i : grid11.Coords, EltTy.bits .f32 = 32 ∨ (Rect.block (s := S64x64) S64x64.size (cc11_transform_5 i) (hinb11_5 i)).WholeWords (EltTy.packing .f32)
  hstage11_6 : ∀ j, (stage11_6 j).IsWhole
  nbuf11_6 : grid11.bufCount reads11_6 true = 1
  hreads11_6 : ∀ i i' : grid11.Coords, (∀ a, reads11_6 a = true → i a = i' a) → cc11_transform_6 i = cc11_transform_6 i'
  hinb11_6 : ∀ (i : grid11.Coords) a, (cc11_transform_6 i a + 1) * S1x64.size a ≤ S1x64.size a
  hwx11_6 : ∀ i : grid11.Coords, EltTy.bits .f32 = 32 ∨ (Rect.block (s := S1x64) S1x64.size (cc11_transform_6 i) (hinb11_6 i)).WholeWords (EltTy.packing .f32)
  hstage11_7 : ∀ j, (stage11_7 j).IsWhole
  nbuf11_7 : grid11.bufCount reads11_7 false = 2
  hreads11_7 : ∀ i i' : grid11.Coords, (∀ a, reads11_7 a = true → i a = i' a) → cc11_transform_7 i = cc11_transform_7 i'
  hinb11_7 : ∀ (i : grid11.Coords) a, (cc11_transform_7 i a + 1) * S5000x64.size a ≤ S50000x64.size a
  hwx11_7 : ∀ i : grid11.Coords, EltTy.bits .f32 = 32 ∨ (Rect.block (s := S50000x64) S5000x64.size (cc11_transform_7 i) (hinb11_7 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S4000x64.size a ≤ S800000x64.size a
  hwx12_0 : ∀ i : grid12.Coords, EltTy.bits .f32 = 32 ∨ (Rect.block (s := S800000x64) S4000x64.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S4000x7.size a ≤ S800000x7.size a
  hwx12_1 : ∀ i : grid12.Coords, EltTy.bits .f32 = 32 ∨ (Rect.block (s := S800000x7) S4000x7.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S7x64.size a ≤ S7x64.size a
  hwx12_2 : ∀ i : grid12.Coords, EltTy.bits .f32 = 32 ∨ (Rect.block (s := S7x64) S7x64.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x64.size a ≤ S1x64.size a
  hwx12_3 : ∀ i : grid12.Coords, EltTy.bits .f32 = 32 ∨ (Rect.block (s := S1x64) S1x64.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S4000x64.size a ≤ S800000x64.size a
  hwx12_4 : ∀ i : grid12.Coords, EltTy.bits .f32 = 32 ∨ (Rect.block (s := S800000x64) S4000x64.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x64.size a ≤ S50000x64.size a
  hwx13_0 : ∀ i : grid13.Coords, EltTy.bits .f32 = 32 ∨ (Rect.block (s := S50000x64) S5000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S5000x64.size a ≤ S50000x64.size a
  hwx13_1 : ∀ i : grid13.Coords, EltTy.bits .f32 = 32 ∨ (Rect.block (s := S50000x64) S5000x64.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S64x64.size a ≤ S64x64.size a
  hwx13_2 : ∀ i : grid13.Coords, EltTy.bits .f32 = 32 ∨ (Rect.block (s := S64x64) S64x64.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S1x64.size a ≤ S1x64.size a
  hwx13_3 : ∀ i : grid13.Coords, EltTy.bits .f32 = 32 ∨ (Rect.block (s := S1x64) S1x64.size (cc13_transform_3 i) (hinb13_3 i)).WholeWords (EltTy.packing .f32)
  hstage13_4 : ∀ j, (stage13_4 j).IsWhole
  nbuf13_4 : grid13.bufCount reads13_4 false = 2
  hreads13_4 : ∀ i i' : grid13.Coords, (∀ a, reads13_4 a = true → i a = i' a) → cc13_transform_4 i = cc13_transform_4 i'
  hinb13_4 : ∀ (i : grid13.Coords) a, (cc13_transform_4 i a + 1) * S5000x64.size a ≤ S50000x64.size a
  hwx13_4 : ∀ i : grid13.Coords, EltTy.bits .f32 = 32 ∨ (Rect.block (s := S50000x64) S5000x64.size (cc13_transform_4 i) (hinb13_4 i)).WholeWords (EltTy.packing .f32)
  hstage13_5 : ∀ j, (stage13_5 j).IsWhole
  nbuf13_5 : grid13.bufCount reads13_5 true = 1
  hreads13_5 : ∀ i i' : grid13.Coords, (∀ a, reads13_5 a = true → i a = i' a) → cc13_transform_5 i = cc13_transform_5 i'
  hinb13_5 : ∀ (i : grid13.Coords) a, (cc13_transform_5 i a + 1) * S1x64.size a ≤ S1x64.size a
  hwx13_5 : ∀ i : grid13.Coords, EltTy.bits .f32 = 32 ∨ (Rect.block (s := S1x64) S1x64.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x64.size a ≤ S1x64.size a
  hwx13_6 : ∀ i : grid13.Coords, EltTy.bits .f32 = 32 ∨ (Rect.block (s := S1x64) S1x64.size (cc13_transform_6 i) (hinb13_6 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x64.size a ≤ S50000x64.size a
  hwx14_0 : ∀ i : grid14.Coords, EltTy.bits .f32 = 32 ∨ (Rect.block (s := S50000x64) S5000x64.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x64.size a ≤ S1x64.size a
  hwx14_1 : ∀ i : grid14.Coords, EltTy.bits .f32 = 32 ∨ (Rect.block (s := S1x64) S1x64.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x64.size a ≤ S1x64.size a
  hwx14_2 : ∀ i : grid14.Coords, EltTy.bits .f32 = 32 ∨ (Rect.block (s := S1x64) S1x64.size (cc14_transform_2 i) (hinb14_2 i)).WholeWords (EltTy.packing .f32)
  hstage14_3 : ∀ j, (stage14_3 j).IsWhole
  nbuf14_3 : grid14.bufCount reads14_3 true = 1
  hreads14_3 : ∀ i i' : grid14.Coords, (∀ a, reads14_3 a = true → i a = i' a) → cc14_transform_3 i = cc14_transform_3 i'
  hinb14_3 : ∀ (i : grid14.Coords) a, (cc14_transform_3 i a + 1) * S1x64.size a ≤ S1x64.size a
  hwx14_3 : ∀ i : grid14.Coords, EltTy.bits .f32 = 32 ∨ (Rect.block (s := S1x64) S1x64.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x64.size a ≤ S1x64.size a
  hwx14_4 : ∀ i : grid14.Coords, EltTy.bits .f32 = 32 ∨ (Rect.block (s := S1x64) S1x64.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S64x64.size a ≤ S64x64.size a
  hwx14_5 : ∀ i : grid14.Coords, EltTy.bits .f32 = 32 ∨ (Rect.block (s := S64x64) S64x64.size (cc14_transform_5 i) (hinb14_5 i)).WholeWords (EltTy.packing .f32)
  hstage14_6 : ∀ j, (stage14_6 j).IsWhole
  nbuf14_6 : grid14.bufCount reads14_6 true = 1
  hreads14_6 : ∀ i i' : grid14.Coords, (∀ a, reads14_6 a = true → i a = i' a) → cc14_transform_6 i = cc14_transform_6 i'
  hinb14_6 : ∀ (i : grid14.Coords) a, (cc14_transform_6 i a + 1) * S1x64.size a ≤ S1x64.size a
  hwx14_6 : ∀ i : grid14.Coords, EltTy.bits .f32 = 32 ∨ (Rect.block (s := S1x64) S1x64.size (cc14_transform_6 i) (hinb14_6 i)).WholeWords (EltTy.packing .f32)
  hstage14_7 : ∀ j, (stage14_7 j).IsWhole
  nbuf14_7 : grid14.bufCount reads14_7 false = 2
  hreads14_7 : ∀ i i' : grid14.Coords, (∀ a, reads14_7 a = true → i a = i' a) → cc14_transform_7 i = cc14_transform_7 i'
  hinb14_7 : ∀ (i : grid14.Coords) a, (cc14_transform_7 i a + 1) * S5000x64.size a ≤ S50000x64.size a
  hwx14_7 : ∀ i : grid14.Coords, EltTy.bits .f32 = 32 ∨ (Rect.block (s := S50000x64) S5000x64.size (cc14_transform_7 i) (hinb14_7 i)).WholeWords (EltTy.packing .f32)

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def dot_S4000x7_S7x2_S4000x2_1_0_0_1_n_n : DotDims S4000x7 S7x2 S4000x2 where
  lhsContracting := [1]
  rhsContracting := [0]
  lhsNonContracting := [0]
  rhsNonContracting := [1]
  lhsBatch := []
  rhsBatch := []
  wf := dot_S4000x7_S7x2_S4000x2_1_0_0_1_n_n_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def dot_S5000x2_S2x64_S5000x64_1_0_0_1_n_n : DotDims S5000x2 S2x64 S5000x64 where
  lhsContracting := [1]
  rhsContracting := [0]
  lhsNonContracting := [0]
  rhsNonContracting := [1]
  lhsBatch := []
  rhsBatch := []
  wf := dot_S5000x2_S2x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S4000x7_S7x64_S4000x64_1_0_0_1_n_n : DotDims S4000x7 S7x64 S4000x64 where
  lhsContracting := [1]
  rhsContracting := [0]
  lhsNonContracting := [0]
  rhsNonContracting := [1]
  lhsBatch := []
  rhsBatch := []
  wf := dot_S4000x7_S7x64_S4000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x500_S50000x500_1_0_0_1_n_n : DotDims S50000x64 S64x500 S50000x500 where
  lhsContracting := [1]
  rhsContracting := [0]
  lhsNonContracting := [0]
  rhsNonContracting := [1]
  lhsBatch := []
  rhsBatch := []
  wf := dot_S50000x64_S64x500_S50000x500_1_0_0_1_n_n_wf
def dot_S50000x500_S500x1_S50000x1_1_0_0_1_n_n : DotDims S50000x500 S500x1 S50000x1 where
  lhsContracting := [1]
  rhsContracting := [0]
  lhsNonContracting := [0]
  rhsNonContracting := [1]
  lhsBatch := []
  rhsBatch := []
  wf := dot_S50000x500_S500x1_S50000x1_1_0_0_1_n_n_wf

abbrev win0_0 : Pipeline.Window sig grid0 :=
  Pipeline.Window.ofSpec (Memref.whole main_v10) S4000x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4000x7.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S7x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S1x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S4000x2.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg0) S5000x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x2.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S2x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17_0) S5000x64.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v17_1) S1x64.size cc1_transform_5 reads1_5 true true 1 stage1_5 sem1_5
    hrank1 hreads1_5 hinb1_5 nbuf1_5 (Memref.isWhole_whole _) hwx1_5 hstage1_5

abbrev win1_6 : Pipeline.Window sig grid1 :=
  Pipeline.Window.ofSpec (Memref.whole main_v17_2) S1x64.size cc1_transform_6 reads1_6 true true 1 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v17_0) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v19) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v23) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v24) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v25) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg9) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v26) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v27) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v50) S4000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg2) S4000x7.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v29) S7x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v51) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v52) S4000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v27) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v33) S64x64.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v56) S1x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v57_0) S5000x64.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v57_1) S1x64.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v57_2) S1x64.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v57_0) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v59) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v63) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v64) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v65) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v41) S64x64.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v66) S1x64.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v67) S5000x64.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v90) S4000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg2) S4000x7.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v69) S7x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v91) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v92) S4000x64.size cc6_transform_4 reads6_4 true false 2 stage6_4 sem6_4
    hrank6 hreads6_4 hinb6_4 nbuf6_4 (Memref.isWhole_whole _) hwx6_4 hstage6_4

abbrev win6 : Fin 5 → Pipeline.Window sig grid6 := fun | 0 => win6_0 | 1 => win6_1 | 2 => win6_2 | 3 => win6_3 | 4 => win6_4 | ⟨_ + 5, h⟩ => absurd h (Nat.not_lt.2 (Nat.le_add_left _ _))
abbrev spec6 : Fin 5 → Pipeline.WinSpec sig grid6.rank := fun w => (win6 w).toWinSpec

abbrev win7_0 : Pipeline.Window sig grid7 :=
  Pipeline.Window.ofSpec (Memref.whole main_v67) S5000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v95) S5000x64.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v73) S64x64.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v96) S1x64.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v97_0) S5000x64.size cc7_transform_4 reads7_4 true false 2 stage7_4 sem7_4
    hrank7 hreads7_4 hinb7_4 nbuf7_4 (Memref.isWhole_whole _) hwx7_4 hstage7_4

abbrev win7_5 : Pipeline.Window sig grid7 :=
  Pipeline.Window.ofSpec (Memref.whole main_v97_1) S1x64.size cc7_transform_5 reads7_5 true true 1 stage7_5 sem7_5
    hrank7 hreads7_5 hinb7_5 nbuf7_5 (Memref.isWhole_whole _) hwx7_5 hstage7_5

abbrev win7_6 : Pipeline.Window sig grid7 :=
  Pipeline.Window.ofSpec (Memref.whole main_v97_2) S1x64.size cc7_transform_6 reads7_6 true true 1 stage7_6 sem7_6
    hrank7 hreads7_6 hinb7_6 nbuf7_6 (Memref.isWhole_whole _) hwx7_6 hstage7_6

abbrev win7 : Fin 7 → Pipeline.Window sig grid7 := fun | 0 => win7_0 | 1 => win7_1 | 2 => win7_2 | 3 => win7_3 | 4 => win7_4 | 5 => win7_5 | 6 => win7_6 | ⟨_ + 7, h⟩ => absurd h (Nat.not_lt.2 (Nat.le_add_left _ _))
abbrev spec7 : Fin 7 → Pipeline.WinSpec sig grid7.rank := fun w => (win7 w).toWinSpec

abbrev win8_0 : Pipeline.Window sig grid8 :=
  Pipeline.Window.ofSpec (Memref.whole main_v97_0) S5000x64.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v99) S1x64.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v103) S1x64.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v104) S1x64.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v105) S1x64.size cc8_transform_4 reads8_4 false true 1 stage8_4 sem8_4
    hrank8 hreads8_4 hinb8_4 nbuf8_4 (Memref.isWhole_whole _) hwx8_4 hstage8_4

abbrev win8_5 : Pipeline.Window sig grid8 :=
  Pipeline.Window.ofSpec (Memref.whole main_v81) S64x64.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v106) S1x64.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v107) S5000x64.size cc8_transform_7 reads8_7 true false 2 stage8_7 sem8_7
    hrank8 hreads8_7 hinb8_7 nbuf8_7 (Memref.isWhole_whole _) hwx8_7 hstage8_7

abbrev win8 : Fin 8 → Pipeline.Window sig grid8 := fun | 0 => win8_0 | 1 => win8_1 | 2 => win8_2 | 3 => win8_3 | 4 => win8_4 | 5 => win8_5 | 6 => win8_6 | 7 => win8_7 | ⟨_ + 8, h⟩ => absurd h (Nat.not_lt.2 (Nat.le_add_left _ _))
abbrev spec8 : Fin 8 → Pipeline.WinSpec sig grid8.rank := fun w => (win8 w).toWinSpec

abbrev win9_0 : Pipeline.Window sig grid9 :=
  Pipeline.Window.ofSpec (Memref.whole main_v130) S4000x64.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg2) S4000x7.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v109) S7x64.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v131) S1x64.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v132) S4000x64.size cc9_transform_4 reads9_4 true false 2 stage9_4 sem9_4
    hrank9 hreads9_4 hinb9_4 nbuf9_4 (Memref.isWhole_whole _) hwx9_4 hstage9_4

abbrev win9 : Fin 5 → Pipeline.Window sig grid9 := fun | 0 => win9_0 | 1 => win9_1 | 2 => win9_2 | 3 => win9_3 | 4 => win9_4 | ⟨_ + 5, h⟩ => absurd h (Nat.not_lt.2 (Nat.le_add_left _ _))
abbrev spec9 : Fin 5 → Pipeline.WinSpec sig grid9.rank := fun w => (win9 w).toWinSpec

abbrev win10_0 : Pipeline.Window sig grid10 :=
  Pipeline.Window.ofSpec (Memref.whole main_v107) S5000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v135) S5000x64.size cc10_transform_1 reads10_1 false false 2 stage10_1 sem10_1
    hrank10 hreads10_1 hinb10_1 nbuf10_1 (Memref.isWhole_whole _) hwx10_1 hstage10_1

abbrev win10_2 : Pipeline.Window sig grid10 :=
  Pipeline.Window.ofSpec (Memref.whole main_v113) S64x64.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v136) S1x64.size cc10_transform_3 reads10_3 false true 1 stage10_3 sem10_3
    hrank10 hreads10_3 hinb10_3 nbuf10_3 (Memref.isWhole_whole _) hwx10_3 hstage10_3

abbrev win10_4 : Pipeline.Window sig grid10 :=
  Pipeline.Window.ofSpec (Memref.whole main_v137_0) S5000x64.size cc10_transform_4 reads10_4 true false 2 stage10_4 sem10_4
    hrank10 hreads10_4 hinb10_4 nbuf10_4 (Memref.isWhole_whole _) hwx10_4 hstage10_4

abbrev win10_5 : Pipeline.Window sig grid10 :=
  Pipeline.Window.ofSpec (Memref.whole main_v137_1) S1x64.size cc10_transform_5 reads10_5 true true 1 stage10_5 sem10_5
    hrank10 hreads10_5 hinb10_5 nbuf10_5 (Memref.isWhole_whole _) hwx10_5 hstage10_5

abbrev win10_6 : Pipeline.Window sig grid10 :=
  Pipeline.Window.ofSpec (Memref.whole main_v137_2) S1x64.size cc10_transform_6 reads10_6 true true 1 stage10_6 sem10_6
    hrank10 hreads10_6 hinb10_6 nbuf10_6 (Memref.isWhole_whole _) hwx10_6 hstage10_6

abbrev win10 : Fin 7 → Pipeline.Window sig grid10 := fun | 0 => win10_0 | 1 => win10_1 | 2 => win10_2 | 3 => win10_3 | 4 => win10_4 | 5 => win10_5 | 6 => win10_6 | ⟨_ + 7, h⟩ => absurd h (Nat.not_lt.2 (Nat.le_add_left _ _))
abbrev spec10 : Fin 7 → Pipeline.WinSpec sig grid10.rank := fun w => (win10 w).toWinSpec

abbrev win11_0 : Pipeline.Window sig grid11 :=
  Pipeline.Window.ofSpec (Memref.whole main_v137_0) S5000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v139) S1x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v143) S1x64.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v144) S1x64.size cc11_transform_3 reads11_3 false true 1 stage11_3 sem11_3
    hrank11 hreads11_3 hinb11_3 nbuf11_3 (Memref.isWhole_whole _) hwx11_3 hstage11_3

abbrev win11_4 : Pipeline.Window sig grid11 :=
  Pipeline.Window.ofSpec (Memref.whole main_v145) S1x64.size cc11_transform_4 reads11_4 false true 1 stage11_4 sem11_4
    hrank11 hreads11_4 hinb11_4 nbuf11_4 (Memref.isWhole_whole _) hwx11_4 hstage11_4

abbrev win11_5 : Pipeline.Window sig grid11 :=
  Pipeline.Window.ofSpec (Memref.whole main_v121) S64x64.size cc11_transform_5 reads11_5 false true 1 stage11_5 sem11_5
    hrank11 hreads11_5 hinb11_5 nbuf11_5 (Memref.isWhole_whole _) hwx11_5 hstage11_5

abbrev win11_6 : Pipeline.Window sig grid11 :=
  Pipeline.Window.ofSpec (Memref.whole main_v146) S1x64.size cc11_transform_6 reads11_6 false true 1 stage11_6 sem11_6
    hrank11 hreads11_6 hinb11_6 nbuf11_6 (Memref.isWhole_whole _) hwx11_6 hstage11_6

abbrev win11_7 : Pipeline.Window sig grid11 :=
  Pipeline.Window.ofSpec (Memref.whole main_v147) S5000x64.size cc11_transform_7 reads11_7 true false 2 stage11_7 sem11_7
    hrank11 hreads11_7 hinb11_7 nbuf11_7 (Memref.isWhole_whole _) hwx11_7 hstage11_7

abbrev win11 : Fin 8 → Pipeline.Window sig grid11 := fun | 0 => win11_0 | 1 => win11_1 | 2 => win11_2 | 3 => win11_3 | 4 => win11_4 | 5 => win11_5 | 6 => win11_6 | 7 => win11_7 | ⟨_ + 8, h⟩ => absurd h (Nat.not_lt.2 (Nat.le_add_left _ _))
abbrev spec11 : Fin 8 → Pipeline.WinSpec sig grid11.rank := fun w => (win11 w).toWinSpec

abbrev win12_0 : Pipeline.Window sig grid12 :=
  Pipeline.Window.ofSpec (Memref.whole main_v170) S4000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_arg2) S4000x7.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v149) S7x64.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v171) S1x64.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v172) S4000x64.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v147) S5000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v175) S5000x64.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v153) S64x64.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v176) S1x64.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v177_0) S5000x64.size cc13_transform_4 reads13_4 true false 2 stage13_4 sem13_4
    hrank13 hreads13_4 hinb13_4 nbuf13_4 (Memref.isWhole_whole _) hwx13_4 hstage13_4

abbrev win13_5 : Pipeline.Window sig grid13 :=
  Pipeline.Window.ofSpec (Memref.whole main_v177_1) S1x64.size cc13_transform_5 reads13_5 true true 1 stage13_5 sem13_5
    hrank13 hreads13_5 hinb13_5 nbuf13_5 (Memref.isWhole_whole _) hwx13_5 hstage13_5

abbrev win13_6 : Pipeline.Window sig grid13 :=
  Pipeline.Window.ofSpec (Memref.whole main_v177_2) S1x64.size cc13_transform_6 reads13_6 true true 1 stage13_6 sem13_6
    hrank13 hreads13_6 hinb13_6 nbuf13_6 (Memref.isWhole_whole _) hwx13_6 hstage13_6

abbrev win13 : Fin 7 → Pipeline.Window sig grid13 := fun | 0 => win13_0 | 1 => win13_1 | 2 => win13_2 | 3 => win13_3 | 4 => win13_4 | 5 => win13_5 | 6 => win13_6 | ⟨_ + 7, h⟩ => absurd h (Nat.not_lt.2 (Nat.le_add_left _ _))
abbrev spec13 : Fin 7 → Pipeline.WinSpec sig grid13.rank := fun w => (win13 w).toWinSpec

abbrev win14_0 : Pipeline.Window sig grid14 :=
  Pipeline.Window.ofSpec (Memref.whole main_v177_0) S5000x64.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v179) S1x64.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v183) S1x64.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v184) S1x64.size cc14_transform_3 reads14_3 false true 1 stage14_3 sem14_3
    hrank14 hreads14_3 hinb14_3 nbuf14_3 (Memref.isWhole_whole _) hwx14_3 hstage14_3

abbrev win14_4 : Pipeline.Window sig grid14 :=
  Pipeline.Window.ofSpec (Memref.whole main_v185) S1x64.size cc14_transform_4 reads14_4 false true 1 stage14_4 sem14_4
    hrank14 hreads14_4 hinb14_4 nbuf14_4 (Memref.isWhole_whole _) hwx14_4 hstage14_4

abbrev win14_5 : Pipeline.Window sig grid14 :=
  Pipeline.Window.ofSpec (Memref.whole main_v161) S64x64.size cc14_transform_5 reads14_5 false true 1 stage14_5 sem14_5
    hrank14 hreads14_5 hinb14_5 nbuf14_5 (Memref.isWhole_whole _) hwx14_5 hstage14_5

abbrev win14_6 : Pipeline.Window sig grid14 :=
  Pipeline.Window.ofSpec (Memref.whole main_v186) S1x64.size cc14_transform_6 reads14_6 false true 1 stage14_6 sem14_6
    hrank14 hreads14_6 hinb14_6 nbuf14_6 (Memref.isWhole_whole _) hwx14_6 hstage14_6

abbrev win14_7 : Pipeline.Window sig grid14 :=
  Pipeline.Window.ofSpec (Memref.whole main_v187) S5000x64.size cc14_transform_7 reads14_7 true false 2 stage14_7 sem14_7
    hrank14 hreads14_7 hinb14_7 nbuf14_7 (Memref.isWhole_whole _) hwx14_7 hstage14_7

abbrev win14 : Fin 8 → Pipeline.Window sig grid14 := fun | 0 => win14_0 | 1 => win14_1 | 2 => win14_2 | 3 => win14_3 | 4 => win14_4 | 5 => win14_5 | 6 => win14_6 | 7 => win14_7 | ⟨_ + 8, h⟩ => absurd h (Nat.not_lt.2 (Nat.le_add_left _ _))
abbrev spec14 : Fin 8 → Pipeline.WinSpec sig grid14.rank := fun w => (win14 w).toWinSpec

class Facts : Prop extends Facts₀ where

variable [Facts]
-- ==== ReferenceIdeal.lean ====
abbrev S50000x2 : Shape := ⟨2, ![50000, 2]⟩
abbrev S2x800000 : Shape := ⟨2, ![2, 800000]⟩
abbrev S800000x7 : Shape := ⟨2, ![800000, 7]⟩
abbrev S7x2 : Shape := ⟨2, ![7, 2]⟩
abbrev S2 : Shape := ⟨1, ![2]⟩
abbrev S2x64 : Shape := ⟨2, ![2, 64]⟩
abbrev S64 : Shape := ⟨1, ![64]⟩
abbrev S64x64 : Shape := ⟨2, ![64, 64]⟩
abbrev S4x7x64 : Shape := ⟨3, ![4, 7, 64]⟩
abbrev S4x64 : Shape := ⟨2, ![4, 64]⟩
abbrev S4x64x64 : Shape := ⟨3, ![4, 64, 64]⟩
abbrev S64x500 : Shape := ⟨2, ![64, 500]⟩
abbrev S500 : Shape := ⟨1, ![500]⟩
abbrev S500x1 : Shape := ⟨2, ![500, 1]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x2 : Shape := ⟨2, ![800000, 2]⟩
abbrev S1x2 : Shape := ⟨2, ![1, 2]⟩
abbrev S50000x64 : Shape := ⟨2, ![50000, 64]⟩
abbrev S1x64 : Shape := ⟨2, ![1, 64]⟩
abbrev S1x7x64 : Shape := ⟨3, ![1, 7, 64]⟩
abbrev S7x64 : Shape := ⟨2, ![7, 64]⟩
abbrev S1x64x64 : Shape := ⟨3, ![1, 64, 64]⟩
abbrev S800000x64 : Shape := ⟨2, ![800000, 64]⟩
abbrev S50000x500 : Shape := ⟨2, ![50000, 500]⟩
abbrev S1x500 : Shape := ⟨2, ![1, 500]⟩
abbrev S50000x1 : Shape := ⟨2, ![50000, 1]⟩
abbrev S1x1 : Shape := ⟨2, ![1, 1]⟩

abbrev nBuf : Space → Nat
  | .hbm => 546
  | .vmem => 0
  | .smem => 0
  | _ => 0

abbrev hbmTy0_0 (i : Nat) : BufTy := match i % 128 with
  | 0 => ⟨S50000x2, .f32⟩
  | 1 => ⟨S2x800000, .i32⟩
  | 2 => ⟨S800000x7, .f32⟩
  | 3 => ⟨S7x2, .f32⟩
  | 4 => ⟨S2, .f32⟩
  | 5 => ⟨S2x64, .f32⟩
  | 6 => ⟨S64, .f32⟩
  | 7 => ⟨S64, .f32⟩
  | 8 => ⟨S64, .f32⟩
  | 9 => ⟨S64x64, .f32⟩
  | 10 => ⟨S64, .f32⟩
  | 11 => ⟨S4x7x64, .f32⟩
  | 12 => ⟨S4x64, .f32⟩
  | 13 => ⟨S4x64x64, .f32⟩
  | 14 => ⟨S4x64, .f32⟩
  | 15 => ⟨S4x64, .f32⟩
  | 16 => ⟨S4x64, .f32⟩
  | 17 => ⟨S4x64x64, .f32⟩
  | 18 => ⟨S4x64, .f32⟩
  | 19 => ⟨S64x500, .f32⟩
  | 20 => ⟨S500, .f32⟩
  | 21 => ⟨S500x1, .f32⟩
  | 22 => ⟨S1, .f32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x2, .f32⟩
  | 36 => ⟨S800000x2, .f32⟩
  | 37 => ⟨S800000x2, .f32⟩
  | 38 => ⟨S1x2, .f32⟩
  | 39 => ⟨S800000x2, .f32⟩
  | 40 => ⟨S800000x2, .f32⟩
  | 41 => ⟨S_, .f32⟩
  | 42 => ⟨S800000x2, .f32⟩
  | 43 => ⟨S800000x2, .f32⟩
  | 44 => ⟨S_, .f32⟩
  | 45 => ⟨S50000x2, .f32⟩
  | 46 => ⟨S800000x1, .i32⟩
  | 47 => ⟨S50000x2, .f32⟩
  | 48 => ⟨S50000x2, .f32⟩
  | 49 => ⟨S50000x64, .f32⟩
  | 50 => ⟨S1x64, .f32⟩
  | 51 => ⟨S50000x64, .f32⟩
  | 52 => ⟨S50000x64, .f32⟩
  | 53 => ⟨S_, .f32⟩
  | 54 => ⟨S64, .f32⟩
  | 55 => ⟨S_, .f32⟩
  | 56 => ⟨S64, .f32⟩
  | 57 => ⟨S64, .f32⟩
  | 58 => ⟨S_, .i32⟩
  | 59 => ⟨S_, .f32⟩
  | 60 => ⟨S64, .f32⟩
  | 61 => ⟨S1x64, .f32⟩
  | 62 => ⟨S_, .f32⟩
  | 63 => ⟨S1x64, .f32⟩
  | 64 => ⟨S1x64, .f32⟩
  | 65 => ⟨S50000x64, .f32⟩
  | 66 => ⟨S50000x64, .f32⟩
  | 67 => ⟨S50000x64, .f32⟩
  | 68 => ⟨S_, .f32⟩
  | 69 => ⟨S_, .f32⟩
  | 70 => ⟨S_, .f32⟩
  | 71 => ⟨S_, .f32⟩
  | 72 => ⟨S64, .f32⟩
  | 73 => ⟨S64, .f32⟩
  | 74 => ⟨S64, .f32⟩
  | 75 => ⟨S_, .f32⟩
  | 76 => ⟨S_, .i1⟩
  | 77 => ⟨S_, .f32⟩
  | 78 => ⟨S_, .f32⟩
  | 79 => ⟨S64, .f32⟩
  | 80 => ⟨S64, .f32⟩
  | 81 => ⟨S1x64, .f32⟩
  | 82 => ⟨S50000x64, .f32⟩
  | 83 => ⟨S50000x64, .f32⟩
  | 84 => ⟨S_, .f32⟩
  | 85 => ⟨S64, .f32⟩
  | 86 => ⟨S64, .f32⟩
  | 87 => ⟨S64, .f32⟩
  | 88 => ⟨S1x64, .f32⟩
  | 89 => ⟨S50000x64, .f32⟩
  | 90 => ⟨S50000x64, .f32⟩
  | 91 => ⟨S1x64, .f32⟩
  | 92 => ⟨S50000x64, .f32⟩
  | 93 => ⟨S50000x64, .f32⟩
  | 94 => ⟨S1x64, .f32⟩
  | 95 => ⟨S50000x64, .f32⟩
  | 96 => ⟨S50000x64, .f32⟩
  | 97 => ⟨S_, .f32⟩
  | 98 => ⟨S50000x64, .f32⟩
  | 99 => ⟨S50000x64, .i1⟩
  | 100 => ⟨S_, .f32⟩
  | 101 => ⟨S50000x64, .f32⟩
  | 102 => ⟨S50000x64, .f32⟩
  | 103 => ⟨S50000x64, .f32⟩
  | 104 => ⟨S50000x64, .f32⟩
  | 105 => ⟨S1x64, .f32⟩
  | 106 => ⟨S50000x64, .f32⟩
  | 107 => ⟨S50000x64, .f32⟩
  | 108 => ⟨S_, .f32⟩
  | 109 => ⟨S50000x64, .f32⟩
  | 110 => ⟨S50000x64, .i1⟩
  | 111 => ⟨S_, .f32⟩
  | 112 => ⟨S50000x64, .f32⟩
  | 113 => ⟨S50000x64, .f32⟩
  | 114 => ⟨S50000x64, .f32⟩
  | 115 => ⟨S1x7x64, .f32⟩
  | 116 => ⟨S7x64, .f32⟩
  | 117 => ⟨S1x64, .f32⟩
  | 118 => ⟨S64, .f32⟩
  | 119 => ⟨S1x64x64, .f32⟩
  | 120 => ⟨S64x64, .f32⟩
  | 121 => ⟨S1x64, .f32⟩
  | 122 => ⟨S64, .f32⟩
  | 123 => ⟨S1x64, .f32⟩
  | 124 => ⟨S64, .f32⟩
  | 125 => ⟨S1x64, .f32⟩
  | 126 => ⟨S64, .f32⟩
  | 127 => ⟨S1x64x64, .f32⟩
  | _ => ⟨S50000x2, .f32⟩

abbrev hbmTy0_1 (i : Nat) : BufTy := match i % 128 with
  | 0 => ⟨S64x64, .f32⟩
  | 1 => ⟨S1x64, .f32⟩
  | 2 => ⟨S64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x64, .f32⟩
  | 12 => ⟨S800000x64, .f32⟩
  | 13 => ⟨S800000x64, .f32⟩
  | 14 => ⟨S1x64, .f32⟩
  | 15 => ⟨S800000x64, .f32⟩
  | 16 => ⟨S800000x64, .f32⟩
  | 17 => ⟨S_, .f32⟩
  | 18 => ⟨S800000x64, .f32⟩
  | 19 => ⟨S800000x64, .f32⟩
  | 20 => ⟨S_, .f32⟩
  | 21 => ⟨S50000x64, .f32⟩
  | 22 => ⟨S800000x1, .i32⟩
  | 23 => ⟨S50000x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S_, .f32⟩
  | 30 => ⟨S64, .f32⟩
  | 31 => ⟨S_, .f32⟩
  | 32 => ⟨S64, .f32⟩
  | 33 => ⟨S64, .f32⟩
  | 34 => ⟨S_, .i32⟩
  | 35 => ⟨S_, .f32⟩
  | 36 => ⟨S64, .f32⟩
  | 37 => ⟨S1x64, .f32⟩
  | 38 => ⟨S_, .f32⟩
  | 39 => ⟨S1x64, .f32⟩
  | 40 => ⟨S1x64, .f32⟩
  | 41 => ⟨S50000x64, .f32⟩
  | 42 => ⟨S50000x64, .f32⟩
  | 43 => ⟨S50000x64, .f32⟩
  | 44 => ⟨S_, .f32⟩
  | 45 => ⟨S_, .f32⟩
  | 46 => ⟨S_, .f32⟩
  | 47 => ⟨S_, .f32⟩
  | 48 => ⟨S64, .f32⟩
  | 49 => ⟨S64, .f32⟩
  | 50 => ⟨S64, .f32⟩
  | 51 => ⟨S_, .f32⟩
  | 52 => ⟨S_, .i1⟩
  | 53 => ⟨S_, .f32⟩
  | 54 => ⟨S_, .f32⟩
  | 55 => ⟨S64, .f32⟩
  | 56 => ⟨S64, .f32⟩
  | 57 => ⟨S1x64, .f32⟩
  | 58 => ⟨S50000x64, .f32⟩
  | 59 => ⟨S50000x64, .f32⟩
  | 60 => ⟨S_, .f32⟩
  | 61 => ⟨S64, .f32⟩
  | 62 => ⟨S64, .f32⟩
  | 63 => ⟨S64, .f32⟩
  | 64 => ⟨S1x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S1x64, .f32⟩
  | 71 => ⟨S50000x64, .f32⟩
  | 72 => ⟨S50000x64, .f32⟩
  | 73 => ⟨S_, .f32⟩
  | 74 => ⟨S50000x64, .f32⟩
  | 75 => ⟨S50000x64, .i1⟩
  | 76 => ⟨S_, .f32⟩
  | 77 => ⟨S50000x64, .f32⟩
  | 78 => ⟨S50000x64, .f32⟩
  | 79 => ⟨S50000x64, .f32⟩
  | 80 => ⟨S50000x64, .f32⟩
  | 81 => ⟨S1x64, .f32⟩
  | 82 => ⟨S50000x64, .f32⟩
  | 83 => ⟨S50000x64, .f32⟩
  | 84 => ⟨S_, .f32⟩
  | 85 => ⟨S50000x64, .f32⟩
  | 86 => ⟨S50000x64, .i1⟩
  | 87 => ⟨S_, .f32⟩
  | 88 => ⟨S50000x64, .f32⟩
  | 89 => ⟨S50000x64, .f32⟩
  | 90 => ⟨S50000x64, .f32⟩
  | 91 => ⟨S1x7x64, .f32⟩
  | 92 => ⟨S7x64, .f32⟩
  | 93 => ⟨S1x64, .f32⟩
  | 94 => ⟨S64, .f32⟩
  | 95 => ⟨S1x64x64, .f32⟩
  | 96 => ⟨S64x64, .f32⟩
  | 97 => ⟨S1x64, .f32⟩
  | 98 => ⟨S64, .f32⟩
  | 99 => ⟨S1x64, .f32⟩
  | 100 => ⟨S64, .f32⟩
  | 101 => ⟨S1x64, .f32⟩
  | 102 => ⟨S64, .f32⟩
  | 103 => ⟨S1x64x64, .f32⟩
  | 104 => ⟨S64x64, .f32⟩
  | 105 => ⟨S1x64, .f32⟩
  | 106 => ⟨S64, .f32⟩
  | 107 => ⟨S_, .i32⟩
  | 108 => ⟨S800000, .i32⟩
  | 109 => ⟨S800000, .i1⟩
  | 110 => ⟨S_, .i32⟩
  | 111 => ⟨S800000, .i32⟩
  | 112 => ⟨S800000, .i32⟩
  | 113 => ⟨S800000, .i32⟩
  | 114 => ⟨S800000x1, .i32⟩
  | 115 => ⟨S800000x64, .f32⟩
  | 116 => ⟨S800000x64, .f32⟩
  | 117 => ⟨S800000x64, .f32⟩
  | 118 => ⟨S1x64, .f32⟩
  | 119 => ⟨S800000x64, .f32⟩
  | 120 => ⟨S800000x64, .f32⟩
  | 121 => ⟨S_, .f32⟩
  | 122 => ⟨S800000x64, .f32⟩
  | 123 => ⟨S800000x64, .f32⟩
  | 124 => ⟨S_, .f32⟩
  | 125 => ⟨S50000x64, .f32⟩
  | 126 => ⟨S800000x1, .i32⟩
  | 127 => ⟨S50000x64, .f32⟩
  | _ => ⟨S50000x2, .f32⟩

abbrev hbmTy0_2 (i : Nat) : BufTy := match i % 128 with
  | 0 => ⟨S50000x64, .f32⟩
  | 1 => ⟨S50000x64, .f32⟩
  | 2 => ⟨S1x64, .f32⟩
  | 3 => ⟨S50000x64, .f32⟩
  | 4 => ⟨S50000x64, .f32⟩
  | 5 => ⟨S_, .f32⟩
  | 6 => ⟨S64, .f32⟩
  | 7 => ⟨S_, .f32⟩
  | 8 => ⟨S64, .f32⟩
  | 9 => ⟨S64, .f32⟩
  | 10 => ⟨S_, .i32⟩
  | 11 => ⟨S_, .f32⟩
  | 12 => ⟨S64, .f32⟩
  | 13 => ⟨S1x64, .f32⟩
  | 14 => ⟨S_, .f32⟩
  | 15 => ⟨S1x64, .f32⟩
  | 16 => ⟨S1x64, .f32⟩
  | 17 => ⟨S50000x64, .f32⟩
  | 18 => ⟨S50000x64, .f32⟩
  | 19 => ⟨S50000x64, .f32⟩
  | 20 => ⟨S_, .f32⟩
  | 21 => ⟨S_, .f32⟩
  | 22 => ⟨S_, .f32⟩
  | 23 => ⟨S_, .f32⟩
  | 24 => ⟨S64, .f32⟩
  | 25 => ⟨S64, .f32⟩
  | 26 => ⟨S64, .f32⟩
  | 27 => ⟨S_, .f32⟩
  | 28 => ⟨S_, .i1⟩
  | 29 => ⟨S_, .f32⟩
  | 30 => ⟨S_, .f32⟩
  | 31 => ⟨S64, .f32⟩
  | 32 => ⟨S64, .f32⟩
  | 33 => ⟨S1x64, .f32⟩
  | 34 => ⟨S50000x64, .f32⟩
  | 35 => ⟨S50000x64, .f32⟩
  | 36 => ⟨S_, .f32⟩
  | 37 => ⟨S64, .f32⟩
  | 38 => ⟨S64, .f32⟩
  | 39 => ⟨S64, .f32⟩
  | 40 => ⟨S1x64, .f32⟩
  | 41 => ⟨S50000x64, .f32⟩
  | 42 => ⟨S50000x64, .f32⟩
  | 43 => ⟨S1x64, .f32⟩
  | 44 => ⟨S50000x64, .f32⟩
  | 45 => ⟨S50000x64, .f32⟩
  | 46 => ⟨S1x64, .f32⟩
  | 47 => ⟨S50000x64, .f32⟩
  | 48 => ⟨S50000x64, .f32⟩
  | 49 => ⟨S_, .f32⟩
  | 50 => ⟨S50000x64, .f32⟩
  | 51 => ⟨S50000x64, .i1⟩
  | 52 => ⟨S_, .f32⟩
  | 53 => ⟨S50000x64, .f32⟩
  | 54 => ⟨S50000x64, .f32⟩
  | 55 => ⟨S50000x64, .f32⟩
  | 56 => ⟨S50000x64, .f32⟩
  | 57 => ⟨S1x64, .f32⟩
  | 58 => ⟨S50000x64, .f32⟩
  | 59 => ⟨S50000x64, .f32⟩
  | 60 => ⟨S_, .f32⟩
  | 61 => ⟨S50000x64, .f32⟩
  | 62 => ⟨S50000x64, .i1⟩
  | 63 => ⟨S_, .f32⟩
  | 64 => ⟨S50000x64, .f32⟩
  | 65 => ⟨S50000x64, .f32⟩
  | 66 => ⟨S50000x64, .f32⟩
  | 67 => ⟨S1x7x64, .f32⟩
  | 68 => ⟨S7x64, .f32⟩
  | 69 => ⟨S1x64, .f32⟩
  | 70 => ⟨S64, .f32⟩
  | 71 => ⟨S1x64x64, .f32⟩
  | 72 => ⟨S64x64, .f32⟩
  | 73 => ⟨S1x64, .f32⟩
  | 74 => ⟨S64, .f32⟩
  | 75 => ⟨S1x64, .f32⟩
  | 76 => ⟨S64, .f32⟩
  | 77 => ⟨S1x64, .f32⟩
  | 78 => ⟨S64, .f32⟩
  | 79 => ⟨S1x64x64, .f32⟩
  | 80 => ⟨S64x64, .f32⟩
  | 81 => ⟨S1x64, .f32⟩
  | 82 => ⟨S64, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S800000x64, .f32⟩
  | 93 => ⟨S800000x64, .f32⟩
  | 94 => ⟨S1x64, .f32⟩
  | 95 => ⟨S800000x64, .f32⟩
  | 96 => ⟨S800000x64, .f32⟩
  | 97 => ⟨S_, .f32⟩
  | 98 => ⟨S800000x64, .f32⟩
  | 99 => ⟨S800000x64, .f32⟩
  | 100 => ⟨S_, .f32⟩
  | 101 => ⟨S50000x64, .f32⟩
  | 102 => ⟨S800000x1, .i32⟩
  | 103 => ⟨S50000x64, .f32⟩
  | 104 => ⟨S50000x64, .f32⟩
  | 105 => ⟨S50000x64, .f32⟩
  | 106 => ⟨S1x64, .f32⟩
  | 107 => ⟨S50000x64, .f32⟩
  | 108 => ⟨S50000x64, .f32⟩
  | 109 => ⟨S_, .f32⟩
  | 110 => ⟨S64, .f32⟩
  | 111 => ⟨S_, .f32⟩
  | 112 => ⟨S64, .f32⟩
  | 113 => ⟨S64, .f32⟩
  | 114 => ⟨S_, .i32⟩
  | 115 => ⟨S_, .f32⟩
  | 116 => ⟨S64, .f32⟩
  | 117 => ⟨S1x64, .f32⟩
  | 118 => ⟨S_, .f32⟩
  | 119 => ⟨S1x64, .f32⟩
  | 120 => ⟨S1x64, .f32⟩
  | 121 => ⟨S50000x64, .f32⟩
  | 122 => ⟨S50000x64, .f32⟩
  | 123 => ⟨S50000x64, .f32⟩
  | 124 => ⟨S_, .f32⟩
  | 125 => ⟨S_, .f32⟩
  | 126 => ⟨S_, .f32⟩
  | 127 => ⟨S_, .f32⟩
  | _ => ⟨S50000x2, .f32⟩

abbrev hbmTy0_3 (i : Nat) : BufTy := match i % 128 with
  | 0 => ⟨S64, .f32⟩
  | 1 => ⟨S64, .f32⟩
  | 2 => ⟨S64, .f32⟩
  | 3 => ⟨S_, .f32⟩
  | 4 => ⟨S_, .i1⟩
  | 5 => ⟨S_, .f32⟩
  | 6 => ⟨S_, .f32⟩
  | 7 => ⟨S64, .f32⟩
  | 8 => ⟨S64, .f32⟩
  | 9 => ⟨S1x64, .f32⟩
  | 10 => ⟨S50000x64, .f32⟩
  | 11 => ⟨S50000x64, .f32⟩
  | 12 => ⟨S_, .f32⟩
  | 13 => ⟨S64, .f32⟩
  | 14 => ⟨S64, .f32⟩
  | 15 => ⟨S64, .f32⟩
  | 16 => ⟨S1x64, .f32⟩
  | 17 => ⟨S50000x64, .f32⟩
  | 18 => ⟨S50000x64, .f32⟩
  | 19 => ⟨S1x64, .f32⟩
  | 20 => ⟨S50000x64, .f32⟩
  | 21 => ⟨S50000x64, .f32⟩
  | 22 => ⟨S1x64, .f32⟩
  | 23 => ⟨S50000x64, .f32⟩
  | 24 => ⟨S50000x64, .f32⟩
  | 25 => ⟨S_, .f32⟩
  | 26 => ⟨S50000x64, .f32⟩
  | 27 => ⟨S50000x64, .i1⟩
  | 28 => ⟨S_, .f32⟩
  | 29 => ⟨S50000x64, .f32⟩
  | 30 => ⟨S50000x64, .f32⟩
  | 31 => ⟨S50000x64, .f32⟩
  | 32 => ⟨S50000x64, .f32⟩
  | 33 => ⟨S1x64, .f32⟩
  | 34 => ⟨S50000x64, .f32⟩
  | 35 => ⟨S50000x64, .f32⟩
  | 36 => ⟨S_, .f32⟩
  | 37 => ⟨S50000x64, .f32⟩
  | 38 => ⟨S50000x64, .i1⟩
  | 39 => ⟨S_, .f32⟩
  | 40 => ⟨S50000x64, .f32⟩
  | 41 => ⟨S50000x64, .f32⟩
  | 42 => ⟨S50000x64, .f32⟩
  | 43 => ⟨S1x7x64, .f32⟩
  | 44 => ⟨S7x64, .f32⟩
  | 45 => ⟨S1x64, .f32⟩
  | 46 => ⟨S64, .f32⟩
  | 47 => ⟨S1x64x64, .f32⟩
  | 48 => ⟨S64x64, .f32⟩
  | 49 => ⟨S1x64, .f32⟩
  | 50 => ⟨S64, .f32⟩
  | 51 => ⟨S1x64, .f32⟩
  | 52 => ⟨S64, .f32⟩
  | 53 => ⟨S1x64, .f32⟩
  | 54 => ⟨S64, .f32⟩
  | 55 => ⟨S1x64x64, .f32⟩
  | 56 => ⟨S64x64, .f32⟩
  | 57 => ⟨S1x64, .f32⟩
  | 58 => ⟨S64, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x64, .f32⟩
  | 68 => ⟨S800000x64, .f32⟩
  | 69 => ⟨S800000x64, .f32⟩
  | 70 => ⟨S1x64, .f32⟩
  | 71 => ⟨S800000x64, .f32⟩
  | 72 => ⟨S800000x64, .f32⟩
  | 73 => ⟨S_, .f32⟩
  | 74 => ⟨S800000x64, .f32⟩
  | 75 => ⟨S800000x64, .f32⟩
  | 76 => ⟨S_, .f32⟩
  | 77 => ⟨S50000x64, .f32⟩
  | 78 => ⟨S800000x1, .i32⟩
  | 79 => ⟨S50000x64, .f32⟩
  | 80 => ⟨S50000x64, .f32⟩
  | 81 => ⟨S50000x64, .f32⟩
  | 82 => ⟨S1x64, .f32⟩
  | 83 => ⟨S50000x64, .f32⟩
  | 84 => ⟨S50000x64, .f32⟩
  | 85 => ⟨S_, .f32⟩
  | 86 => ⟨S64, .f32⟩
  | 87 => ⟨S_, .f32⟩
  | 88 => ⟨S64, .f32⟩
  | 89 => ⟨S64, .f32⟩
  | 90 => ⟨S_, .i32⟩
  | 91 => ⟨S_, .f32⟩
  | 92 => ⟨S64, .f32⟩
  | 93 => ⟨S1x64, .f32⟩
  | 94 => ⟨S_, .f32⟩
  | 95 => ⟨S1x64, .f32⟩
  | 96 => ⟨S1x64, .f32⟩
  | 97 => ⟨S50000x64, .f32⟩
  | 98 => ⟨S50000x64, .f32⟩
  | 99 => ⟨S50000x64, .f32⟩
  | 100 => ⟨S_, .f32⟩
  | 101 => ⟨S_, .f32⟩
  | 102 => ⟨S_, .f32⟩
  | 103 => ⟨S_, .f32⟩
  | 104 => ⟨S64, .f32⟩
  | 105 => ⟨S64, .f32⟩
  | 106 => ⟨S64, .f32⟩
  | 107 => ⟨S_, .f32⟩
  | 108 => ⟨S_, .i1⟩
  | 109 => ⟨S_, .f32⟩
  | 110 => ⟨S_, .f32⟩
  | 111 => ⟨S64, .f32⟩
  | 112 => ⟨S64, .f32⟩
  | 113 => ⟨S1x64, .f32⟩
  | 114 => ⟨S50000x64, .f32⟩
  | 115 => ⟨S50000x64, .f32⟩
  | 116 => ⟨S_, .f32⟩
  | 117 => ⟨S64, .f32⟩
  | 118 => ⟨S64, .f32⟩
  | 119 => ⟨S64, .f32⟩
  | 120 => ⟨S1x64, .f32⟩
  | 121 => ⟨S50000x64, .f32⟩
  | 122 => ⟨S50000x64, .f32⟩
  | 123 => ⟨S1x64, .f32⟩
  | 124 => ⟨S50000x64, .f32⟩
  | 125 => ⟨S50000x64, .f32⟩
  | 126 => ⟨S1x64, .f32⟩
  | 127 => ⟨S50000x64, .f32⟩
  | _ => ⟨S50000x2, .f32⟩

abbrev hbmTy0_4 (i : Nat) : BufTy := match i % 128 with
  | 0 => ⟨S50000x64, .f32⟩
  | 1 => ⟨S_, .f32⟩
  | 2 => ⟨S50000x64, .f32⟩
  | 3 => ⟨S50000x64, .i1⟩
  | 4 => ⟨S_, .f32⟩
  | 5 => ⟨S50000x64, .f32⟩
  | 6 => ⟨S50000x64, .f32⟩
  | 7 => ⟨S50000x64, .f32⟩
  | 8 => ⟨S50000x64, .f32⟩
  | 9 => ⟨S1x64, .f32⟩
  | 10 => ⟨S50000x64, .f32⟩
  | 11 => ⟨S50000x64, .f32⟩
  | 12 => ⟨S_, .f32⟩
  | 13 => ⟨S50000x64, .f32⟩
  | 14 => ⟨S50000x64, .i1⟩
  | 15 => ⟨S_, .f32⟩
  | 16 => ⟨S50000x64, .f32⟩
  | 17 => ⟨S50000x64, .f32⟩
  | 18 => ⟨S50000x64, .f32⟩
  | 19 => ⟨S50000x500, .f32⟩
  | 20 => ⟨S1x500, .f32⟩
  | 21 => ⟨S50000x500, .f32⟩
  | 22 => ⟨S50000x500, .f32⟩
  | 23 => ⟨S_, .f32⟩
  | 24 => ⟨S50000x500, .f32⟩
  | 25 => ⟨S50000x500, .i1⟩
  | 26 => ⟨S_, .f32⟩
  | 27 => ⟨S50000x500, .f32⟩
  | 28 => ⟨S50000x500, .f32⟩
  | 29 => ⟨S50000x500, .f32⟩
  | 30 => ⟨S50000x1, .f32⟩
  | 31 => ⟨S1x1, .f32⟩
  | 32 => ⟨S50000x1, .f32⟩
  | 33 => ⟨S50000x1, .f32⟩
  | _ => ⟨S50000x2, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S50000x2, .f32⟩

abbrev bufTy : (tb : Table) → Fin (tcTables nBuf tb) → BufTy
  | .hbm, ⟨i, _⟩ => hbmTy i
  | _, _ => ⟨S50000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_call0_cst : Ref sig .tc := ⟨.hbm, 41, rfl⟩
abbrev main_call0_v0 : Ref sig .tc := ⟨.hbm, 42, rfl⟩
abbrev main_v16 : Ref sig .tc := ⟨.hbm, 43, rfl⟩
abbrev main_cst : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_cst_1 : Ref sig .tc := ⟨.hbm, 53, rfl⟩
abbrev main_v25 : Ref sig .tc := ⟨.hbm, 54, rfl⟩
abbrev main_cst_2 : Ref sig .tc := ⟨.hbm, 55, rfl⟩
abbrev main_v26 : Ref sig .tc := ⟨.hbm, 56, rfl⟩
abbrev main_v27 : Ref sig .tc := ⟨.hbm, 57, rfl⟩
abbrev main_c_3 : Ref sig .tc := ⟨.hbm, 58, rfl⟩
abbrev main_call1_cst : Ref sig .tc := ⟨.hbm, 59, rfl⟩
abbrev main_call1_v0 : Ref sig .tc := ⟨.hbm, 60, rfl⟩
abbrev main_call1_v1 : Ref sig .tc := ⟨.hbm, 61, rfl⟩
abbrev main_call1_cst_0 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_call1_v5 : Ref sig .tc := ⟨.hbm, 66, rfl⟩
abbrev main_call1_v6 : Ref sig .tc := ⟨.hbm, 67, rfl⟩
abbrev main_call1_v7 : Ref sig .tc := ⟨.hbm, 68, rfl⟩
abbrev main_call1_cst_1 : Ref sig .tc := ⟨.hbm, 69, rfl⟩
abbrev main_call1_v8 : Ref sig .tc := ⟨.hbm, 70, rfl⟩
abbrev main_call1_cst_2 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_cst_3 : Ref sig .tc := ⟨.hbm, 75, rfl⟩
abbrev main_call1_v12 : Ref sig .tc := ⟨.hbm, 76, rfl⟩
abbrev main_call1_cst_4 : Ref sig .tc := ⟨.hbm, 77, rfl⟩
abbrev main_call1_call0_v0 : Ref sig .tc := ⟨.hbm, 78, rfl⟩
abbrev main_call1_call0_v1 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_4 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_v41 : Ref sig .tc := ⟨.hbm, 94, rfl⟩
abbrev main_v42 : Ref sig .tc := ⟨.hbm, 95, rfl⟩
abbrev main_v43 : Ref sig .tc := ⟨.hbm, 96, rfl⟩
abbrev main_cst_5 : Ref sig .tc := ⟨.hbm, 97, rfl⟩
abbrev main_v44 : Ref sig .tc := ⟨.hbm, 98, rfl⟩
abbrev main_v45 : Ref sig .tc := ⟨.hbm, 99, rfl⟩
abbrev main_cst_6 : Ref sig .tc := ⟨.hbm, 100, rfl⟩
abbrev main_v46 : Ref sig .tc := ⟨.hbm, 101, rfl⟩
abbrev main_v47 : Ref sig .tc := ⟨.hbm, 102, rfl⟩
abbrev main_v48 : Ref sig .tc := ⟨.hbm, 103, rfl⟩
abbrev main_v49 : Ref sig .tc := ⟨.hbm, 104, rfl⟩
abbrev main_v50 : Ref sig .tc := ⟨.hbm, 105, rfl⟩
abbrev main_v51 : Ref sig .tc := ⟨.hbm, 106, rfl⟩
abbrev main_v52 : Ref sig .tc := ⟨.hbm, 107, rfl⟩
abbrev main_cst_7 : Ref sig .tc := ⟨.hbm, 108, rfl⟩
abbrev main_v53 : Ref sig .tc := ⟨.hbm, 109, rfl⟩
abbrev main_v54 : Ref sig .tc := ⟨.hbm, 110, rfl⟩
abbrev main_cst_8 : Ref sig .tc := ⟨.hbm, 111, rfl⟩
abbrev main_v55 : Ref sig .tc := ⟨.hbm, 112, rfl⟩
abbrev main_v56 : Ref sig .tc := ⟨.hbm, 113, rfl⟩
abbrev main_v57 : Ref sig .tc := ⟨.hbm, 114, rfl⟩
abbrev main_v58 : Ref sig .tc := ⟨.hbm, 115, rfl⟩
abbrev main_v59 : Ref sig .tc := ⟨.hbm, 116, rfl⟩
abbrev main_v60 : Ref sig .tc := ⟨.hbm, 117, rfl⟩
abbrev main_v61 : Ref sig .tc := ⟨.hbm, 118, rfl⟩
abbrev main_v62 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_v69 : Ref sig .tc := ⟨.hbm, 126, rfl⟩
abbrev main_v70 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_c_9 : Ref sig .tc := ⟨.hbm, 131, rfl⟩
abbrev main_v74 : Ref sig .tc := ⟨.hbm, 132, rfl⟩
abbrev main_v75 : Ref sig .tc := ⟨.hbm, 133, rfl⟩
abbrev main_c_10 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_v84 : Ref sig .tc := ⟨.hbm, 143, rfl⟩
abbrev main_v85 : Ref sig .tc := ⟨.hbm, 144, rfl⟩
abbrev main_call4_cst : Ref sig .tc := ⟨.hbm, 145, rfl⟩
abbrev main_call4_v0 : Ref sig .tc := ⟨.hbm, 146, rfl⟩
abbrev main_v86 : Ref sig .tc := ⟨.hbm, 147, rfl⟩
abbrev main_cst_11 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_cst_12 : Ref sig .tc := ⟨.hbm, 157, rfl⟩
abbrev main_v95 : Ref sig .tc := ⟨.hbm, 158, rfl⟩
abbrev main_cst_13 : Ref sig .tc := ⟨.hbm, 159, rfl⟩
abbrev main_v96 : Ref sig .tc := ⟨.hbm, 160, rfl⟩
abbrev main_v97 : Ref sig .tc := ⟨.hbm, 161, rfl⟩
abbrev main_c_14 : Ref sig .tc := ⟨.hbm, 162, rfl⟩
abbrev main_call5_cst : Ref sig .tc := ⟨.hbm, 163, rfl⟩
abbrev main_call5_v0 : Ref sig .tc := ⟨.hbm, 164, rfl⟩
abbrev main_call5_v1 : Ref sig .tc := ⟨.hbm, 165, rfl⟩
abbrev main_call5_cst_0 : Ref sig .tc := ⟨.hbm, 166, rfl⟩
abbrev main_call5_v2 : Ref sig .tc := ⟨.hbm, 167, rfl⟩
abbrev main_call5_v3 : Ref sig .tc := ⟨.hbm, 168, rfl⟩
abbrev main_call5_v4 : Ref sig .tc := ⟨.hbm, 169, rfl⟩
abbrev main_call5_v5 : Ref sig .tc := ⟨.hbm, 170, rfl⟩
abbrev main_call5_v6 : Ref sig .tc := ⟨.hbm, 171, rfl⟩
abbrev main_call5_v7 : Ref sig .tc := ⟨.hbm, 172, rfl⟩
abbrev main_call5_cst_1 : Ref sig .tc := ⟨.hbm, 173, rfl⟩
abbrev main_call5_v8 : Ref sig .tc := ⟨.hbm, 174, rfl⟩
abbrev main_call5_cst_2 : Ref sig .tc := ⟨.hbm, 175, rfl⟩
abbrev main_call5_v9 : Ref sig .tc := ⟨.hbm, 176, rfl⟩
abbrev main_call5_v10 : Ref sig .tc := ⟨.hbm, 177, rfl⟩
abbrev main_call5_v11 : Ref sig .tc := ⟨.hbm, 178, rfl⟩
abbrev main_call5_cst_3 : Ref sig .tc := ⟨.hbm, 179, rfl⟩
abbrev main_call5_v12 : Ref sig .tc := ⟨.hbm, 180, rfl⟩
abbrev main_call5_cst_4 : Ref sig .tc := ⟨.hbm, 181, rfl⟩
abbrev main_call5_call0_v0 : Ref sig .tc := ⟨.hbm, 182, rfl⟩
abbrev main_call5_call0_v1 : Ref sig .tc := ⟨.hbm, 183, rfl⟩
abbrev main_v98 : Ref sig .tc := ⟨.hbm, 184, rfl⟩
abbrev main_v99 : Ref sig .tc := ⟨.hbm, 185, rfl⟩
abbrev main_v100 : Ref sig .tc := ⟨.hbm, 186, rfl⟩
abbrev main_v101 : Ref sig .tc := ⟨.hbm, 187, rfl⟩
abbrev main_cst_15 : Ref sig .tc := ⟨.hbm, 188, rfl⟩
abbrev main_v102 : Ref sig .tc := ⟨.hbm, 189, rfl⟩
abbrev main_v103 : Ref sig .tc := ⟨.hbm, 190, rfl⟩
abbrev main_v104 : Ref sig .tc := ⟨.hbm, 191, rfl⟩
abbrev main_v105 : Ref sig .tc := ⟨.hbm, 192, rfl⟩
abbrev main_v106 : Ref sig .tc := ⟨.hbm, 193, rfl⟩
abbrev main_v107 : Ref sig .tc := ⟨.hbm, 194, rfl⟩
abbrev main_v108 : Ref sig .tc := ⟨.hbm, 195, rfl⟩
abbrev main_v109 : Ref sig .tc := ⟨.hbm, 196, rfl⟩
abbrev main_v110 : Ref sig .tc := ⟨.hbm, 197, rfl⟩
abbrev main_v111 : Ref sig .tc := ⟨.hbm, 198, rfl⟩
abbrev main_v112 : Ref sig .tc := ⟨.hbm, 199, rfl⟩
abbrev main_v113 : Ref sig .tc := ⟨.hbm, 200, rfl⟩
abbrev main_cst_16 : Ref sig .tc := ⟨.hbm, 201, rfl⟩
abbrev main_v114 : Ref sig .tc := ⟨.hbm, 202, rfl⟩
abbrev main_v115 : Ref sig .tc := ⟨.hbm, 203, rfl⟩
abbrev main_cst_17 : Ref sig .tc := ⟨.hbm, 204, rfl⟩
abbrev main_v116 : Ref sig .tc := ⟨.hbm, 205, rfl⟩
abbrev main_v117 : Ref sig .tc := ⟨.hbm, 206, rfl⟩
abbrev main_v118 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_cst_18 : Ref sig .tc := ⟨.hbm, 212, rfl⟩
abbrev main_v123 : Ref sig .tc := ⟨.hbm, 213, rfl⟩
abbrev main_v124 : Ref sig .tc := ⟨.hbm, 214, rfl⟩
abbrev main_cst_19 : Ref sig .tc := ⟨.hbm, 215, rfl⟩
abbrev main_v125 : Ref sig .tc := ⟨.hbm, 216, rfl⟩
abbrev main_v126 : Ref sig .tc := ⟨.hbm, 217, rfl⟩
abbrev main_v127 : Ref sig .tc := ⟨.hbm, 218, rfl⟩
abbrev main_v128 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩
abbrev main_v141 : Ref sig .tc := ⟨.hbm, 232, rfl⟩
abbrev main_v142 : Ref sig .tc := ⟨.hbm, 233, rfl⟩
abbrev main_v143 : Ref sig .tc := ⟨.hbm, 234, rfl⟩
abbrev main_c_20 : Ref sig .tc := ⟨.hbm, 235, rfl⟩
abbrev main_v144 : Ref sig .tc := ⟨.hbm, 236, rfl⟩
abbrev main_v145 : Ref sig .tc := ⟨.hbm, 237, rfl⟩
abbrev main_c_21 : Ref sig .tc := ⟨.hbm, 238, rfl⟩
abbrev main_v146 : Ref sig .tc := ⟨.hbm, 239, rfl⟩
abbrev main_v147 : Ref sig .tc := ⟨.hbm, 240, rfl⟩
abbrev main_v148 : Ref sig .tc := ⟨.hbm, 241, rfl⟩
abbrev main_v149 : Ref sig .tc := ⟨.hbm, 242, rfl⟩
abbrev main_v150 : Ref sig .tc := ⟨.hbm, 243, rfl⟩
abbrev main_v151 : Ref sig .tc := ⟨.hbm, 244, rfl⟩
abbrev main_v152 : Ref sig .tc := ⟨.hbm, 245, rfl⟩
abbrev main_v153 : Ref sig .tc := ⟨.hbm, 246, rfl⟩
abbrev main_v154 : Ref sig .tc := ⟨.hbm, 247, rfl⟩
abbrev main_v155 : Ref sig .tc := ⟨.hbm, 248, rfl⟩
abbrev main_call8_cst : Ref sig .tc := ⟨.hbm, 249, rfl⟩
abbrev main_call8_v0 : Ref sig .tc := ⟨.hbm, 250, rfl⟩
abbrev main_v156 : Ref sig .tc := ⟨.hbm, 251, rfl⟩
abbrev main_cst_22 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_v163 : Ref sig .tc := ⟨.hbm, 259, rfl⟩
abbrev main_v164 : Ref sig .tc := ⟨.hbm, 260, rfl⟩
abbrev main_cst_23 : Ref sig .tc := ⟨.hbm, 261, rfl⟩
abbrev main_v165 : Ref sig .tc := ⟨.hbm, 262, rfl⟩
abbrev main_cst_24 : Ref sig .tc := ⟨.hbm, 263, rfl⟩
abbrev main_v166 : Ref sig .tc := ⟨.hbm, 264, rfl⟩
abbrev main_v167 : Ref sig .tc := ⟨.hbm, 265, rfl⟩
abbrev main_c_25 : Ref sig .tc := ⟨.hbm, 266, rfl⟩
abbrev main_call9_cst : Ref sig .tc := ⟨.hbm, 267, rfl⟩
abbrev main_call9_v0 : Ref sig .tc := ⟨.hbm, 268, rfl⟩
abbrev main_call9_v1 : Ref sig .tc := ⟨.hbm, 269, rfl⟩
abbrev main_call9_cst_0 : Ref sig .tc := ⟨.hbm, 270, rfl⟩
abbrev main_call9_v2 : Ref sig .tc := ⟨.hbm, 271, rfl⟩
abbrev main_call9_v3 : Ref sig .tc := ⟨.hbm, 272, rfl⟩
abbrev main_call9_v4 : Ref sig .tc := ⟨.hbm, 273, rfl⟩
abbrev main_call9_v5 : Ref sig .tc := ⟨.hbm, 274, rfl⟩
abbrev main_call9_v6 : Ref sig .tc := ⟨.hbm, 275, rfl⟩
abbrev main_call9_v7 : Ref sig .tc := ⟨.hbm, 276, rfl⟩
abbrev main_call9_cst_1 : Ref sig .tc := ⟨.hbm, 277, rfl⟩
abbrev main_call9_v8 : Ref sig .tc := ⟨.hbm, 278, rfl⟩
abbrev main_call9_cst_2 : Ref sig .tc := ⟨.hbm, 279, rfl⟩
abbrev main_call9_v9 : Ref sig .tc := ⟨.hbm, 280, rfl⟩
abbrev main_call9_v10 : Ref sig .tc := ⟨.hbm, 281, rfl⟩
abbrev main_call9_v11 : Ref sig .tc := ⟨.hbm, 282, rfl⟩
abbrev main_call9_cst_3 : Ref sig .tc := ⟨.hbm, 283, rfl⟩
abbrev main_call9_v12 : Ref sig .tc := ⟨.hbm, 284, rfl⟩
abbrev main_call9_cst_4 : Ref sig .tc := ⟨.hbm, 285, rfl⟩
abbrev main_call9_call0_v0 : Ref sig .tc := ⟨.hbm, 286, rfl⟩
abbrev main_call9_call0_v1 : Ref sig .tc := ⟨.hbm, 287, rfl⟩
abbrev main_v168 : Ref sig .tc := ⟨.hbm, 288, rfl⟩
abbrev main_v169 : Ref sig .tc := ⟨.hbm, 289, rfl⟩
abbrev main_v170 : Ref sig .tc := ⟨.hbm, 290, rfl⟩
abbrev main_v171 : Ref sig .tc := ⟨.hbm, 291, rfl⟩
abbrev main_cst_26 : Ref sig .tc := ⟨.hbm, 292, rfl⟩
abbrev main_v172 : Ref sig .tc := ⟨.hbm, 293, rfl⟩
abbrev main_v173 : Ref sig .tc := ⟨.hbm, 294, rfl⟩
abbrev main_v174 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_v180 : Ref sig .tc := ⟨.hbm, 301, rfl⟩
abbrev main_v181 : Ref sig .tc := ⟨.hbm, 302, rfl⟩
abbrev main_v182 : Ref sig .tc := ⟨.hbm, 303, rfl⟩
abbrev main_v183 : Ref sig .tc := ⟨.hbm, 304, rfl⟩
abbrev main_cst_27 : Ref sig .tc := ⟨.hbm, 305, rfl⟩
abbrev main_v184 : Ref sig .tc := ⟨.hbm, 306, rfl⟩
abbrev main_v185 : Ref sig .tc := ⟨.hbm, 307, rfl⟩
abbrev main_cst_28 : Ref sig .tc := ⟨.hbm, 308, rfl⟩
abbrev main_v186 : Ref sig .tc := ⟨.hbm, 309, rfl⟩
abbrev main_v187 : Ref sig .tc := ⟨.hbm, 310, rfl⟩
abbrev main_v188 : Ref sig .tc := ⟨.hbm, 311, rfl⟩
abbrev main_v189 : Ref sig .tc := ⟨.hbm, 312, rfl⟩
abbrev main_v190 : Ref sig .tc := ⟨.hbm, 313, rfl⟩
abbrev main_v191 : Ref sig .tc := ⟨.hbm, 314, rfl⟩
abbrev main_v192 : Ref sig .tc := ⟨.hbm, 315, rfl⟩
abbrev main_cst_29 : Ref sig .tc := ⟨.hbm, 316, rfl⟩
abbrev main_v193 : Ref sig .tc := ⟨.hbm, 317, rfl⟩
abbrev main_v194 : Ref sig .tc := ⟨.hbm, 318, rfl⟩
abbrev main_cst_30 : Ref sig .tc := ⟨.hbm, 319, rfl⟩
abbrev main_v195 : Ref sig .tc := ⟨.hbm, 320, rfl⟩
abbrev main_v196 : Ref sig .tc := ⟨.hbm, 321, rfl⟩
abbrev main_v197 : Ref sig .tc := ⟨.hbm, 322, rfl⟩
abbrev main_v198 : Ref sig .tc := ⟨.hbm, 323, rfl⟩
abbrev main_v199 : Ref sig .tc := ⟨.hbm, 324, rfl⟩
abbrev main_v200 : Ref sig .tc := ⟨.hbm, 325, rfl⟩
abbrev main_v201 : Ref sig .tc := ⟨.hbm, 326, rfl⟩
abbrev main_v202 : Ref sig .tc := ⟨.hbm, 327, rfl⟩
abbrev main_v203 : Ref sig .tc := ⟨.hbm, 328, rfl⟩
abbrev main_v204 : Ref sig .tc := ⟨.hbm, 329, rfl⟩
abbrev main_v205 : Ref sig .tc := ⟨.hbm, 330, rfl⟩
abbrev main_v206 : Ref sig .tc := ⟨.hbm, 331, rfl⟩
abbrev main_v207 : Ref sig .tc := ⟨.hbm, 332, rfl⟩
abbrev main_v208 : Ref sig .tc := ⟨.hbm, 333, rfl⟩
abbrev main_v209 : Ref sig .tc := ⟨.hbm, 334, rfl⟩
abbrev main_v210 : Ref sig .tc := ⟨.hbm, 335, rfl⟩
abbrev main_v211 : Ref sig .tc := ⟨.hbm, 336, rfl⟩
abbrev main_v212 : Ref sig .tc := ⟨.hbm, 337, rfl⟩
abbrev main_v213 : Ref sig .tc := ⟨.hbm, 338, rfl⟩
abbrev main_c_31 : Ref sig .tc := ⟨.hbm, 339, rfl⟩
abbrev main_v214 : Ref sig .tc := ⟨.hbm, 340, rfl⟩
abbrev main_v215 : Ref sig .tc := ⟨.hbm, 341, rfl⟩
abbrev main_c_32 : Ref sig .tc := ⟨.hbm, 342, rfl⟩
abbrev main_v216 : Ref sig .tc := ⟨.hbm, 343, rfl⟩
abbrev main_v217 : Ref sig .tc := ⟨.hbm, 344, rfl⟩
abbrev main_v218 : Ref sig .tc := ⟨.hbm, 345, rfl⟩
abbrev main_v219 : Ref sig .tc := ⟨.hbm, 346, rfl⟩
abbrev main_v220 : Ref sig .tc := ⟨.hbm, 347, rfl⟩
abbrev main_v221 : Ref sig .tc := ⟨.hbm, 348, rfl⟩
abbrev main_v222 : Ref sig .tc := ⟨.hbm, 349, rfl⟩
abbrev main_v223 : Ref sig .tc := ⟨.hbm, 350, rfl⟩
abbrev main_v224 : Ref sig .tc := ⟨.hbm, 351, rfl⟩
abbrev main_v225 : Ref sig .tc := ⟨.hbm, 352, rfl⟩
abbrev main_call12_cst : Ref sig .tc := ⟨.hbm, 353, rfl⟩
abbrev main_call12_v0 : Ref sig .tc := ⟨.hbm, 354, rfl⟩
abbrev main_v226 : Ref sig .tc := ⟨.hbm, 355, rfl⟩
abbrev main_cst_33 : Ref sig .tc := ⟨.hbm, 356, rfl⟩
abbrev main_v227 : Ref sig .tc := ⟨.hbm, 357, rfl⟩
abbrev main_v228 : Ref sig .tc := ⟨.hbm, 358, rfl⟩
abbrev main_v229 : Ref sig .tc := ⟨.hbm, 359, rfl⟩
abbrev main_v230 : Ref sig .tc := ⟨.hbm, 360, rfl⟩
abbrev main_v231 : Ref sig .tc := ⟨.hbm, 361, rfl⟩
abbrev main_v232 : Ref sig .tc := ⟨.hbm, 362, rfl⟩
abbrev main_v233 : Ref sig .tc := ⟨.hbm, 363, rfl⟩
abbrev main_v234 : Ref sig .tc := ⟨.hbm, 364, rfl⟩
abbrev main_cst_34 : Ref sig .tc := ⟨.hbm, 365, rfl⟩
abbrev main_v235 : Ref sig .tc := ⟨.hbm, 366, rfl⟩
abbrev main_cst_35 : Ref sig .tc := ⟨.hbm, 367, rfl⟩
abbrev main_v236 : Ref sig .tc := ⟨.hbm, 368, rfl⟩
abbrev main_v237 : Ref sig .tc := ⟨.hbm, 369, rfl⟩
abbrev main_c_36 : Ref sig .tc := ⟨.hbm, 370, rfl⟩
abbrev main_call13_cst : Ref sig .tc := ⟨.hbm, 371, rfl⟩
abbrev main_call13_v0 : Ref sig .tc := ⟨.hbm, 372, rfl⟩
abbrev main_call13_v1 : Ref sig .tc := ⟨.hbm, 373, rfl⟩
abbrev main_call13_cst_0 : Ref sig .tc := ⟨.hbm, 374, rfl⟩
abbrev main_call13_v2 : Ref sig .tc := ⟨.hbm, 375, rfl⟩
abbrev main_call13_v3 : Ref sig .tc := ⟨.hbm, 376, rfl⟩
abbrev main_call13_v4 : Ref sig .tc := ⟨.hbm, 377, rfl⟩
abbrev main_call13_v5 : Ref sig .tc := ⟨.hbm, 378, rfl⟩
abbrev main_call13_v6 : Ref sig .tc := ⟨.hbm, 379, rfl⟩
abbrev main_call13_v7 : Ref sig .tc := ⟨.hbm, 380, rfl⟩
abbrev main_call13_cst_1 : Ref sig .tc := ⟨.hbm, 381, rfl⟩
abbrev main_call13_v8 : Ref sig .tc := ⟨.hbm, 382, rfl⟩
abbrev main_call13_cst_2 : Ref sig .tc := ⟨.hbm, 383, rfl⟩
abbrev main_call13_v9 : Ref sig .tc := ⟨.hbm, 384, rfl⟩
abbrev main_call13_v10 : Ref sig .tc := ⟨.hbm, 385, rfl⟩
abbrev main_call13_v11 : Ref sig .tc := ⟨.hbm, 386, rfl⟩
abbrev main_call13_cst_3 : Ref sig .tc := ⟨.hbm, 387, rfl⟩
abbrev main_call13_v12 : Ref sig .tc := ⟨.hbm, 388, rfl⟩
abbrev main_call13_cst_4 : Ref sig .tc := ⟨.hbm, 389, rfl⟩
abbrev main_call13_call0_v0 : Ref sig .tc := ⟨.hbm, 390, rfl⟩
abbrev main_call13_call0_v1 : Ref sig .tc := ⟨.hbm, 391, rfl⟩
abbrev main_v238 : Ref sig .tc := ⟨.hbm, 392, rfl⟩
abbrev main_v239 : Ref sig .tc := ⟨.hbm, 393, rfl⟩
abbrev main_v240 : Ref sig .tc := ⟨.hbm, 394, rfl⟩
abbrev main_v241 : Ref sig .tc := ⟨.hbm, 395, rfl⟩
abbrev main_cst_37 : Ref sig .tc := ⟨.hbm, 396, rfl⟩
abbrev main_v242 : Ref sig .tc := ⟨.hbm, 397, rfl⟩
abbrev main_v243 : Ref sig .tc := ⟨.hbm, 398, rfl⟩
abbrev main_v244 : Ref sig .tc := ⟨.hbm, 399, rfl⟩
abbrev main_v245 : Ref sig .tc := ⟨.hbm, 400, rfl⟩
abbrev main_v246 : Ref sig .tc := ⟨.hbm, 401, rfl⟩
abbrev main_v247 : Ref sig .tc := ⟨.hbm, 402, rfl⟩
abbrev main_v248 : Ref sig .tc := ⟨.hbm, 403, rfl⟩
abbrev main_v249 : Ref sig .tc := ⟨.hbm, 404, rfl⟩
abbrev main_v250 : Ref sig .tc := ⟨.hbm, 405, rfl⟩
abbrev main_v251 : Ref sig .tc := ⟨.hbm, 406, rfl⟩
abbrev main_v252 : Ref sig .tc := ⟨.hbm, 407, rfl⟩
abbrev main_v253 : Ref sig .tc := ⟨.hbm, 408, rfl⟩
abbrev main_cst_38 : Ref sig .tc := ⟨.hbm, 409, rfl⟩
abbrev main_v254 : Ref sig .tc := ⟨.hbm, 410, rfl⟩
abbrev main_v255 : Ref sig .tc := ⟨.hbm, 411, rfl⟩
abbrev main_cst_39 : Ref sig .tc := ⟨.hbm, 412, rfl⟩
abbrev main_v256 : Ref sig .tc := ⟨.hbm, 413, rfl⟩
abbrev main_v257 : Ref sig .tc := ⟨.hbm, 414, rfl⟩
abbrev main_v258 : Ref sig .tc := ⟨.hbm, 415, rfl⟩
abbrev main_v259 : Ref sig .tc := ⟨.hbm, 416, rfl⟩
abbrev main_v260 : Ref sig .tc := ⟨.hbm, 417, rfl⟩
abbrev main_v261 : Ref sig .tc := ⟨.hbm, 418, rfl⟩
abbrev main_v262 : Ref sig .tc := ⟨.hbm, 419, rfl⟩
abbrev main_cst_40 : Ref sig .tc := ⟨.hbm, 420, rfl⟩
abbrev main_v263 : Ref sig .tc := ⟨.hbm, 421, rfl⟩
abbrev main_v264 : Ref sig .tc := ⟨.hbm, 422, rfl⟩
abbrev main_cst_41 : Ref sig .tc := ⟨.hbm, 423, rfl⟩
abbrev main_v265 : Ref sig .tc := ⟨.hbm, 424, rfl⟩
abbrev main_v266 : Ref sig .tc := ⟨.hbm, 425, rfl⟩
abbrev main_v267 : Ref sig .tc := ⟨.hbm, 426, rfl⟩
abbrev main_v268 : Ref sig .tc := ⟨.hbm, 427, rfl⟩
abbrev main_v269 : Ref sig .tc := ⟨.hbm, 428, rfl⟩
abbrev main_v270 : Ref sig .tc := ⟨.hbm, 429, rfl⟩
abbrev main_v271 : Ref sig .tc := ⟨.hbm, 430, rfl⟩
abbrev main_v272 : Ref sig .tc := ⟨.hbm, 431, rfl⟩
abbrev main_v273 : Ref sig .tc := ⟨.hbm, 432, rfl⟩
abbrev main_v274 : Ref sig .tc := ⟨.hbm, 433, rfl⟩
abbrev main_v275 : Ref sig .tc := ⟨.hbm, 434, rfl⟩
abbrev main_v276 : Ref sig .tc := ⟨.hbm, 435, rfl⟩
abbrev main_v277 : Ref sig .tc := ⟨.hbm, 436, rfl⟩
abbrev main_v278 : Ref sig .tc := ⟨.hbm, 437, rfl⟩
abbrev main_v279 : Ref sig .tc := ⟨.hbm, 438, rfl⟩
abbrev main_v280 : Ref sig .tc := ⟨.hbm, 439, rfl⟩
abbrev main_v281 : Ref sig .tc := ⟨.hbm, 440, rfl⟩
abbrev main_v282 : Ref sig .tc := ⟨.hbm, 441, rfl⟩
abbrev main_v283 : Ref sig .tc := ⟨.hbm, 442, rfl⟩
abbrev main_c_42 : Ref sig .tc := ⟨.hbm, 443, rfl⟩
abbrev main_v284 : Ref sig .tc := ⟨.hbm, 444, rfl⟩
abbrev main_v285 : Ref sig .tc := ⟨.hbm, 445, rfl⟩
abbrev main_c_43 : Ref sig .tc := ⟨.hbm, 446, rfl⟩
abbrev main_v286 : Ref sig .tc := ⟨.hbm, 447, rfl⟩
abbrev main_v287 : Ref sig .tc := ⟨.hbm, 448, rfl⟩
abbrev main_v288 : Ref sig .tc := ⟨.hbm, 449, rfl⟩
abbrev main_v289 : Ref sig .tc := ⟨.hbm, 450, rfl⟩
abbrev main_v290 : Ref sig .tc := ⟨.hbm, 451, rfl⟩
abbrev main_v291 : Ref sig .tc := ⟨.hbm, 452, rfl⟩
abbrev main_v292 : Ref sig .tc := ⟨.hbm, 453, rfl⟩
abbrev main_v293 : Ref sig .tc := ⟨.hbm, 454, rfl⟩
abbrev main_v294 : Ref sig .tc := ⟨.hbm, 455, rfl⟩
abbrev main_v295 : Ref sig .tc := ⟨.hbm, 456, rfl⟩
abbrev main_call16_cst : Ref sig .tc := ⟨.hbm, 457, rfl⟩
abbrev main_call16_v0 : Ref sig .tc := ⟨.hbm, 458, rfl⟩
abbrev main_v296 : Ref sig .tc := ⟨.hbm, 459, rfl⟩
abbrev main_cst_44 : Ref sig .tc := ⟨.hbm, 460, rfl⟩
abbrev main_v297 : Ref sig .tc := ⟨.hbm, 461, rfl⟩
abbrev main_v298 : Ref sig .tc := ⟨.hbm, 462, rfl⟩
abbrev main_v299 : Ref sig .tc := ⟨.hbm, 463, rfl⟩
abbrev main_v300 : Ref sig .tc := ⟨.hbm, 464, rfl⟩
abbrev main_v301 : Ref sig .tc := ⟨.hbm, 465, rfl⟩
abbrev main_v302 : Ref sig .tc := ⟨.hbm, 466, rfl⟩
abbrev main_v303 : Ref sig .tc := ⟨.hbm, 467, rfl⟩
abbrev main_v304 : Ref sig .tc := ⟨.hbm, 468, rfl⟩
abbrev main_cst_45 : Ref sig .tc := ⟨.hbm, 469, rfl⟩
abbrev main_v305 : Ref sig .tc := ⟨.hbm, 470, rfl⟩
abbrev main_cst_46 : Ref sig .tc := ⟨.hbm, 471, rfl⟩
abbrev main_v306 : Ref sig .tc := ⟨.hbm, 472, rfl⟩
abbrev main_v307 : Ref sig .tc := ⟨.hbm, 473, rfl⟩
abbrev main_c_47 : Ref sig .tc := ⟨.hbm, 474, rfl⟩
abbrev main_call17_cst : Ref sig .tc := ⟨.hbm, 475, rfl⟩
abbrev main_call17_v0 : Ref sig .tc := ⟨.hbm, 476, rfl⟩
abbrev main_call17_v1 : Ref sig .tc := ⟨.hbm, 477, rfl⟩
abbrev main_call17_cst_0 : Ref sig .tc := ⟨.hbm, 478, rfl⟩
abbrev main_call17_v2 : Ref sig .tc := ⟨.hbm, 479, rfl⟩
abbrev main_call17_v3 : Ref sig .tc := ⟨.hbm, 480, rfl⟩
abbrev main_call17_v4 : Ref sig .tc := ⟨.hbm, 481, rfl⟩
abbrev main_call17_v5 : Ref sig .tc := ⟨.hbm, 482, rfl⟩
abbrev main_call17_v6 : Ref sig .tc := ⟨.hbm, 483, rfl⟩
abbrev main_call17_v7 : Ref sig .tc := ⟨.hbm, 484, rfl⟩
abbrev main_call17_cst_1 : Ref sig .tc := ⟨.hbm, 485, rfl⟩
abbrev main_call17_v8 : Ref sig .tc := ⟨.hbm, 486, rfl⟩
abbrev main_call17_cst_2 : Ref sig .tc := ⟨.hbm, 487, rfl⟩
abbrev main_call17_v9 : Ref sig .tc := ⟨.hbm, 488, rfl⟩
abbrev main_call17_v10 : Ref sig .tc := ⟨.hbm, 489, rfl⟩
abbrev main_call17_v11 : Ref sig .tc := ⟨.hbm, 490, rfl⟩
abbrev main_call17_cst_3 : Ref sig .tc := ⟨.hbm, 491, rfl⟩
abbrev main_call17_v12 : Ref sig .tc := ⟨.hbm, 492, rfl⟩
abbrev main_call17_cst_4 : Ref sig .tc := ⟨.hbm, 493, rfl⟩
abbrev main_call17_call0_v0 : Ref sig .tc := ⟨.hbm, 494, rfl⟩
abbrev main_call17_call0_v1 : Ref sig .tc := ⟨.hbm, 495, rfl⟩
abbrev main_v308 : Ref sig .tc := ⟨.hbm, 496, rfl⟩
abbrev main_v309 : Ref sig .tc := ⟨.hbm, 497, rfl⟩
abbrev main_v310 : Ref sig .tc := ⟨.hbm, 498, rfl⟩
abbrev main_v311 : Ref sig .tc := ⟨.hbm, 499, rfl⟩
abbrev main_cst_48 : Ref sig .tc := ⟨.hbm, 500, rfl⟩
abbrev main_v312 : Ref sig .tc := ⟨.hbm, 501, rfl⟩
abbrev main_v313 : Ref sig .tc := ⟨.hbm, 502, rfl⟩
abbrev main_v314 : Ref sig .tc := ⟨.hbm, 503, rfl⟩
abbrev main_v315 : Ref sig .tc := ⟨.hbm, 504, rfl⟩
abbrev main_v316 : Ref sig .tc := ⟨.hbm, 505, rfl⟩
abbrev main_v317 : Ref sig .tc := ⟨.hbm, 506, rfl⟩
abbrev main_v318 : Ref sig .tc := ⟨.hbm, 507, rfl⟩
abbrev main_v319 : Ref sig .tc := ⟨.hbm, 508, rfl⟩
abbrev main_v320 : Ref sig .tc := ⟨.hbm, 509, rfl⟩
abbrev main_v321 : Ref sig .tc := ⟨.hbm, 510, rfl⟩
abbrev main_v322 : Ref sig .tc := ⟨.hbm, 511, rfl⟩
abbrev main_v323 : Ref sig .tc := ⟨.hbm, 512, rfl⟩
abbrev main_cst_49 : Ref sig .tc := ⟨.hbm, 513, rfl⟩
abbrev main_v324 : Ref sig .tc := ⟨.hbm, 514, rfl⟩
abbrev main_v325 : Ref sig .tc := ⟨.hbm, 515, rfl⟩
abbrev main_cst_50 : Ref sig .tc := ⟨.hbm, 516, rfl⟩
abbrev main_v326 : Ref sig .tc := ⟨.hbm, 517, rfl⟩
abbrev main_v327 : Ref sig .tc := ⟨.hbm, 518, rfl⟩
abbrev main_v328 : Ref sig .tc := ⟨.hbm, 519, rfl⟩
abbrev main_v329 : Ref sig .tc := ⟨.hbm, 520, rfl⟩
abbrev main_v330 : Ref sig .tc := ⟨.hbm, 521, rfl⟩
abbrev main_v331 : Ref sig .tc := ⟨.hbm, 522, rfl⟩
abbrev main_v332 : Ref sig .tc := ⟨.hbm, 523, rfl⟩
abbrev main_cst_51 : Ref sig .tc := ⟨.hbm, 524, rfl⟩
abbrev main_v333 : Ref sig .tc := ⟨.hbm, 525, rfl⟩
abbrev main_v334 : Ref sig .tc := ⟨.hbm, 526, rfl⟩
abbrev main_cst_52 : Ref sig .tc := ⟨.hbm, 527, rfl⟩
abbrev main_v335 : Ref sig .tc := ⟨.hbm, 528, rfl⟩
abbrev main_v336 : Ref sig .tc := ⟨.hbm, 529, rfl⟩
abbrev main_v337 : Ref sig .tc := ⟨.hbm, 530, rfl⟩
abbrev main_v338 : Ref sig .tc := ⟨.hbm, 531, rfl⟩
abbrev main_v339 : Ref sig .tc := ⟨.hbm, 532, rfl⟩
abbrev main_v340 : Ref sig .tc := ⟨.hbm, 533, rfl⟩
abbrev main_v341 : Ref sig .tc := ⟨.hbm, 534, rfl⟩
abbrev main_cst_53 : Ref sig .tc := ⟨.hbm, 535, rfl⟩
abbrev main_v342 : Ref sig .tc := ⟨.hbm, 536, rfl⟩
abbrev main_v343 : Ref sig .tc := ⟨.hbm, 537, rfl⟩
abbrev main_cst_54 : Ref sig .tc := ⟨.hbm, 538, rfl⟩
abbrev main_v344 : Ref sig .tc := ⟨.hbm, 539, rfl⟩
abbrev main_v345 : Ref sig .tc := ⟨.hbm, 540, rfl⟩
abbrev main_v346 : Ref sig .tc := ⟨.hbm, 541, rfl⟩
abbrev main_v347 : Ref sig .tc := ⟨.hbm, 542, rfl⟩
abbrev main_v348 : Ref sig .tc := ⟨.hbm, 543, rfl⟩
abbrev main_v349 : Ref sig .tc := ⟨.hbm, 544, rfl⟩
abbrev main_v350 : Ref sig .tc := ⟨.hbm, 545, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S2_S1x2_1 : S2.BroadcastsInDim S1x2 (![1] : Fin 1 → Fin S1x2.rank)
  bcast_S1x2_S800000x2_0_1 : S1x2.BroadcastsInDim S800000x2 (![0, 1] : Fin 2 → Fin S800000x2.rank)
  bcast_S_S800000x2 : S_.BroadcastsInDim S800000x2 (![] : Fin 0 → Fin S800000x2.rank)
  bcast_S_S50000x2 : S_.BroadcastsInDim S50000x2 (![] : Fin 0 → Fin S50000x2.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S_S50000x64 : S_.BroadcastsInDim S50000x64 (![] : Fin 0 → Fin S50000x64.rank)
  slices_S4x7x64_S1x7x64_0_0_0 : S4x7x64.Slices ![0, 0, 0] S1x7x64
  shapeCasts_S1x7x64_S7x64 : S1x7x64.ShapeCasts S7x64
  slices_S4x64_S1x64_0_0 : S4x64.Slices ![0, 0] S1x64
  shapeCasts_S1x64_S64 : S1x64.ShapeCasts S64
  slices_S4x64x64_S1x64x64_0_0_0 : S4x64x64.Slices ![0, 0, 0] S1x64x64
  shapeCasts_S1x64x64_S64x64 : S1x64x64.ShapeCasts S64x64
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  slices_S4x7x64_S1x7x64_1_0_0 : S4x7x64.Slices ![1, 0, 0] S1x7x64
  slices_S4x64_S1x64_1_0 : S4x64.Slices ![1, 0] S1x64
  slices_S4x64x64_S1x64x64_1_0_0 : S4x64x64.Slices ![1, 0, 0] S1x64x64
  slices_S4x7x64_S1x7x64_2_0_0 : S4x7x64.Slices ![2, 0, 0] S1x7x64
  slices_S4x64_S1x64_2_0 : S4x64.Slices ![2, 0] S1x64
  slices_S4x64x64_S1x64x64_2_0_0 : S4x64x64.Slices ![2, 0, 0] S1x64x64
  slices_S4x7x64_S1x7x64_3_0_0 : S4x7x64.Slices ![3, 0, 0] S1x7x64
  slices_S4x64_S1x64_3_0 : S4x64.Slices ![3, 0] S1x64
  slices_S4x64x64_S1x64x64_3_0_0 : S4x64x64.Slices ![3, 0, 0] S1x64x64
  bcast_S500_S1x500_1 : S500.BroadcastsInDim S1x500 (![1] : Fin 1 → Fin S1x500.rank)
  bcast_S1x500_S50000x500_0_1 : S1x500.BroadcastsInDim S50000x500 (![0, 1] : Fin 2 → Fin S50000x500.rank)
  bcast_S_S50000x500 : S_.BroadcastsInDim S50000x500 (![] : Fin 0 → Fin S50000x500.rank)
  bcast_S1_S1x1_1 : S1.BroadcastsInDim S1x1 (![1] : Fin 1 → Fin S1x1.rank)
  bcast_S1x1_S50000x1_0_1 : S1x1.BroadcastsInDim S50000x1 (![0, 1] : Fin 2 → Fin S50000x1.rank)
  gather_S50000x2_S800000x1_S800000x2_1_0_n_n_0_1_12_wf : GatherDims.WF S50000x2 S800000x1 S800000x2 [1] [0] [] [0] [] 1 ![1, 2]
  dot_S800000x7_S7x2_S800000x2_1_0_0_1_n_n_wf : DotDims.WF S800000x7 S7x2 S800000x2 [1] [0] [0] [1] [] []
  scatter_S50000x2_S800000x1_S800000x2_1_0_0_1_wf : ScatterDims.WF S50000x2 S800000x1 S800000x2 [1] [0] [0] 1
  dot_S50000x2_S2x64_S50000x64_1_0_0_1_n_n_wf : DotDims.WF S50000x2 S2x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  dot_S800000x7_S7x64_S800000x64_1_0_0_1_n_n_wf : DotDims.WF S800000x7 S7x64 S800000x64 [1] [0] [0] [1] [] []
  scatter_S50000x64_S800000x1_S800000x64_1_0_0_1_wf : ScatterDims.WF S50000x64 S800000x1 S800000x64 [1] [0] [0] 1
  dot_S50000x64_S64x500_S50000x500_1_0_0_1_n_n_wf : DotDims.WF S50000x64 S64x500 S50000x500 [1] [0] [0] [1] [] []
  dot_S50000x500_S500x1_S50000x1_1_0_0_1_n_n_wf : DotDims.WF S50000x500 S500x1 S50000x1 [1] [0] [0] [1] [] []

variable [Facts₀]

def gather_S50000x2_S800000x1_S800000x2_1_0_n_n_0_1_12 : GatherDims S50000x2 S800000x1 S800000x2 where
  offsetDims := [1]
  collapsedSliceDims := [0]
  operandBatchingDims := []
  startIndicesBatchingDims := []
  startIndexMap := [0]
  indexVectorDim := 1
  sliceSizes := ![1, 2]
  wf := gather_S50000x2_S800000x1_S800000x2_1_0_n_n_0_1_12_wf
def dot_S800000x7_S7x2_S800000x2_1_0_0_1_n_n : DotDims S800000x7 S7x2 S800000x2 where
  lhsContracting := [1]
  rhsContracting := [0]
  lhsNonContracting := [0]
  rhsNonContracting := [1]
  lhsBatch := []
  rhsBatch := []
  wf := dot_S800000x7_S7x2_S800000x2_1_0_0_1_n_n_wf
def scatter_S50000x2_S800000x1_S800000x2_1_0_0_1 : ScatterDims S50000x2 S800000x1 S800000x2 where
  updateWindowDims := [1]
  insertedWindowDims := [0]
  scatterDimsToOperandDims := [0]
  indexVectorDim := 1
  wf := scatter_S50000x2_S800000x1_S800000x2_1_0_0_1_wf
def dot_S50000x2_S2x64_S50000x64_1_0_0_1_n_n : DotDims S50000x2 S2x64 S50000x64 where
  lhsContracting := [1]
  rhsContracting := [0]
  lhsNonContracting := [0]
  rhsNonContracting := [1]
  lhsBatch := []
  rhsBatch := []
  wf := dot_S50000x2_S2x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x7_S7x64_S800000x64_1_0_0_1_n_n : DotDims S800000x7 S7x64 S800000x64 where
  lhsContracting := [1]
  rhsContracting := [0]
  lhsNonContracting := [0]
  rhsNonContracting := [1]
  lhsBatch := []
  rhsBatch := []
  wf := dot_S800000x7_S7x64_S800000x64_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x500_S50000x500_1_0_0_1_n_n : DotDims S50000x64 S64x500 S50000x500 where
  lhsContracting := [1]
  rhsContracting := [0]
  lhsNonContracting := [0]
  rhsNonContracting := [1]
  lhsBatch := []
  rhsBatch := []
  wf := dot_S50000x64_S64x500_S50000x500_1_0_0_1_n_n_wf
def dot_S50000x500_S500x1_S50000x1_1_0_0_1_n_n : DotDims S50000x500 S500x1 S50000x1 where
  lhsContracting := [1]
  rhsContracting := [0]
  lhsNonContracting := [0]
  rhsNonContracting := [1]
  lhsBatch := []
  rhsBatch := []
  wf := dot_S50000x500_S500x1_S50000x1_1_0_0_1_n_n_wf

class Facts : Prop extends Facts₀ where

variable [Facts]
-- ==== Proof.RefOps.lean ====
import proofs.«122931_j61864708931975_1_alg».proof.ReferenceIdeal
import Idealize.ShloMosaic.Lib.StableHlo.Run

/-! # The reference program as one straight line

The reference @main is a sequence of host operations; each call of an outlined function stands for the
callee's operations over that call's own buffers. This module lists every operation in program order, cut into
consecutive segments, shows that @main is the sequence of their concatenation, and concludes that every run
ends with each buffer at the fold of the operations' results over the launch contents. -/

set_option synthInstance.maxSize 4096

noncomputable section

namespace Cert.ReferenceIdeal

open Idealize.ShloMosaic Idealize.SL.Sem Idealize.ShloMosaic.StableHlo
open Facts₀ Facts

variable {F : FTy → Type} [FloatOps F] [Facts]

namespace RefOps

/-- The fold over a concatenation is the fold over the second list from the fold over the first. -/
theorem after_append {τ : Topo} {sig : RefSig} {Val : EltTy → Type} (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- Operations 0 to 3 of the program, in order. -/
abbrev seg0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]

/-- Operations 4 to 11 of the program, in order. -/
abbrev seg1 : List (HloOp τ sig (Elt F)) :=
  [ StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)) ]

/-- Operations 12 to 20 of the program, in order. -/
abbrev seg2 : List (HloOp τ sig (Elt F)) :=
  [ StableHlo.binary main_arg0 main_v9 main_v10 ((fun x i => Host.gather gather_S50000x2_S800000x1_S800000x2_1_0_n_n_0_1_12 x i) : (⟨S50000x2, .f32⟩ : BufTy).Contents (Elt F) → (⟨S800000x1, .i32⟩ : BufTy).Contents (Elt F) → (⟨S800000x2, .f32⟩ : BufTy).Contents (Elt F)),
    StableHlo.binary main_arg2 main_arg3 main_v11 ((fun l r => Host.dotGeneral dot_S800000x7_S7x2_S800000x2_1_0_0_1_n_n none l r) : (⟨S800000x7, .f32⟩ : BufTy).Contents (Elt F) → (⟨S7x2, .f32⟩ : BufTy).Contents (Elt F) → (⟨S800000x2, .f32⟩ : BufTy).Contents (Elt F)),
    StableHlo.binary main_v10 main_v11 main_v12 (addf : (⟨S800000x2, .f32⟩ : BufTy).Contents (Elt F) → (⟨S800000x2, .f32⟩ : BufTy).Contents (Elt F) → (⟨S800000x2, .f32⟩ : BufTy).Contents (Elt F)),
    StableHlo.unary main_arg4 main_v13 (broadcastInDim S1x2 ![1] bcast_S2_S1x2_1 : (⟨S2, .f32⟩ : BufTy).Contents (Elt F) → (⟨S1x2, .f32⟩ : BufTy).Contents (Elt F)),
    StableHlo.unary main_v13 main_v14 (broadcastInDim S800000x2 ![0, 1] bcast_S1x2_S800000x2_0_1 : (⟨S1x2, .f32⟩ : BufTy).Contents (Elt F) → (⟨S800000x2, .f32⟩ : BufTy).Contents (Elt F)),
    StableHlo.binary main_v12 main_v14 main_v15 (addf : (⟨S800000x2, .f32⟩ : BufTy).Contents (Elt F) → (⟨S800000x2, .f32⟩ : BufTy).Contents (Elt F) → (⟨S800000x2, .f32⟩ : BufTy).Contents (Elt F)),
    StableHlo.TRef.nullary main_call0.cst (constant S_ .f32 0x00000000#32),
    StableHlo.TRef.unary main_call0.cst main_call0.v0 (broadcastInDim S800000x2 ![] bcast_S_S800000x2),
    StableHlo.TRef.binary (.of main_v15) main_call0.v0 main_call0.v1 maximumf ]

/-- Operations 21 to 29 of the program, in order. -/
abbrev seg3 : List (HloOp τ sig (Elt F)) :=
  [ StableHlo.nullary main_cst (constant S_ .f32 0x00000000#32),
    StableHlo.unary main_cst main_v17 (broadcastInDim S50000x2 ![] bcast_S_S50000x2 : (⟨S_, .f32⟩ : BufTy).Contents (Elt F) → (⟨S50000x2, .f32⟩ : BufTy).Contents (Elt F)),
    StableHlo.unary main_v3 main_v18 (broadcastInDim S800000x1 ![0] bcast_S800000_S800000x1_0 : (⟨S800000, .i32⟩ : BufTy).Contents (Elt F) → (⟨S800000x1, .i32⟩ : BufTy).Contents (Elt F)),
    StableHlo.ternary main_v17 main_v18 main_v16 main_v19 ((fun x i u => Host.scatterAdd scatter_S50000x2_S800000x1_S800000x2_1_0_0_1 x i u) : (⟨S50000x2, .f32⟩ : BufTy).Contents (Elt F) → (⟨S800000x1, .i32⟩ : BufTy).Contents (Elt F) → (⟨S800000x2, .f32⟩ : BufTy).Contents (Elt F) → (⟨S50000x2, .f32⟩ : BufTy).Contents (Elt F)),
    StableHlo.binary main_arg0 main_v19 main_v20 (addf : (⟨S50000x2, .f32⟩ : BufTy).Contents (Elt F) → (⟨S50000x2, .f32⟩ : BufTy).Contents (Elt F) → (⟨S50000x2, .f32⟩ : BufTy).Contents (Elt F)),
    StableHlo.binary main_v20 main_arg5 main_v21 ((fun l r => Host.dotGeneral dot_S50000x2_S2x64_S50000x64_1_0_0_1_n_n none l r) : (⟨S50000x2, .f32⟩ : BufTy).Contents (Elt F) → (⟨S2x64, .f32⟩ : BufTy).Contents (Elt F) → (⟨S50000x64, .f32⟩ : BufTy).Contents (Elt F)),
    StableHlo.unary main_arg6 main_v22 (broadcastInDim S1x64 ![1] bcast_S64_S1x64_1 : (⟨S64, .f32⟩ : BufTy).Contents (Elt F) → (⟨S1x64, .f32⟩ : BufTy).Contents (Elt F)),
    StableHlo.unary main_v22 main_v23 (broadcastInDim S50000x64 ![0, 1] bcast_S1x64_S50000x64_0_1 : (⟨S1x64, .f32⟩ : BufTy).Contents (Elt F) → (⟨S50000x64, .f32⟩ : BufTy).Contents (Elt F)),
    StableHlo.binary main_v21 main_v23 main_v24 (addf : (⟨S50000x64, .f32⟩ : BufTy).Contents (Elt F) → (⟨S50000x64, .f32⟩ : BufTy).Contents (Elt F) → (⟨S50000x64, .f32⟩ : BufTy).Contents (Elt F)) ]

/-- Operations 30 to 34 of the program, in order. -/
abbrev seg4 : List (HloOp τ sig (Elt F)) :=
  [ StableHlo.nullary main_cst_1 (constant S_ .f32 0x00000000#32),
    StableHlo.binary main_v24 main_cst_1 main_v25 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_2 (constant S_ .f32 0x47435000#32),
    StableHlo.unary main_cst_2 main_v26 (broadcastInDim S64 ![] bcast_S_S64 : (⟨S_, .f32⟩ : BufTy).Contents (Elt F) → (⟨S64, .f32⟩ : BufTy).Contents (Elt F)),
    StableHlo.binary main_v25 main_v26 main_v27 (Host.divf : (⟨S64, .f32⟩ : BufTy).Contents (Elt F) → (⟨S64, .f32⟩ : BufTy).Contents (Elt F) → (⟨S64, .f32⟩ : BufTy).Contents (Elt F)) ]

/-- Operations 35 to 57 of the program, in order. -/
abbrev seg5 : List (HloOp τ sig (Elt F)) :=
  [ StableHlo.nullary main_c_3 (constantI S_ 32 0#32),
    StableHlo.TRef.nullary main_call1.cst (constant S_ .f32 0x00000000#32),
    StableHlo.TRef.binary (.of main_v24) main_call1.cst main_call1.v0 (fun x v => Host.reduceAdd x v reducesTo_S50000x64_S64_d0 h_S_),
    StableHlo.TRef.unary main_call1.v0 main_call1.v1 (broadcastInDim S1x64 ![1] bcast_S64_S1x64_1),
    StableHlo.TRef.nullary main_call1.cst_0 (constant S_ .f32 0x47435000#32),
    StableHlo.TRef.unary main_call1.cst_0 main_call1.v2 (broadcastInDim S1x64 ![] bcast_S_S1x64),
    StableHlo.TRef.binary main_call1.v1 main_call1.v2 main_call1.v3 Host.divf,
    StableHlo.TRef.unary main_call1.v3 main_call1.v4 (broadcastInDim S50000x64 ![0, 1] bcast_S1x64_S50000x64_0_1),
    StableHlo.TRef.binary (.of main_v24) main_call1.v4 main_call1.v5 subf,
    StableHlo.TRef.binary main_call1.v5 main_call1.v5 main_call1.v6 mulf,
    StableHlo.TRef.unary (.of main_c_3) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x64_S64_d0 h_S_),
    StableHlo.TRef.unary main_call1.v8 main_call1.v10 (broadcastInDim S64 ![] bcast_S_S64),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S64 ![] bcast_S_S64),
    StableHlo.TRef.ternary main_call1.v12 main_call1.v11 main_call1.call0.v1 main_call1.call0.v2 (fun p a b => select (broadcastInDim S64 ![] bcast_S_S64 p) a b) ]

/-- Operations 58 to 82 of the program, in order. -/
abbrev seg6 : List (HloOp τ sig (Elt F)) :=
  [ StableHlo.unary main_v27 main_v29 (broadcastInDim S1x64 ![1] bcast_S64_S1x64_1 : (⟨S64, .f32⟩ : BufTy).Contents (Elt F) → (⟨S1x64, .f32⟩ : BufTy).Contents (Elt F)),
    StableHlo.unary main_v29 main_v30 (broadcastInDim S50000x64 ![0, 1] bcast_S1x64_S50000x64_0_1 : (⟨S1x64, .f32⟩ : BufTy).Contents (Elt F) → (⟨S50000x64, .f32⟩ : BufTy).Contents (Elt F)),
    StableHlo.binary main_v24 main_v30 main_v31 (subf : (⟨S50000x64, .f32⟩ : BufTy).Contents (Elt F) → (⟨S50000x64, .f32⟩ : BufTy).Contents (Elt F) → (⟨S50000x64, .f32⟩ : BufTy).Contents (Elt F)),
    StableHlo.nullary main_cst_4 (constant S_ .f32 0x3727C5AC#32),
    StableHlo.unary main_cst_4 main_v32 (broadcastInDim S64 ![] bcast_S_S64 : (⟨S_, .f32⟩ : BufTy).Contents (Elt F) → (⟨S64, .f32⟩ : BufTy).Contents (Elt F)),
    StableHlo.binary main_v28 main_v32 main_v33 (addf : (⟨S64, .f32⟩ : BufTy).Contents (Elt F) → (⟨S64, .f32⟩ : BufTy).Contents (Elt F) → (⟨S64, .f32⟩ : BufTy).Contents (Elt F)),
    StableHlo.unary main_v33 main_v34 (Host.rsqrt : (⟨S64, .f32⟩ : BufTy).Contents (Elt F) → (⟨S64, .f32⟩ : BufTy).Contents (Elt F)),
    StableHlo.unary main_v34 main_v35 (broadcastInDim S1x64 ![1] bcast_S64_S1x64_1 : (⟨S64, .f32⟩ : BufTy).Contents (Elt F) → (⟨S1x64, .f32⟩ : BufTy).Contents (Elt F)),
    StableHlo.unary main_v35 main_v36 (broadcastInDim S50000x64 ![0, 1] bcast_S1x64_S50000x64_0_1 : (⟨S1x64, .f32⟩ : BufTy).Contents (Elt F) → (⟨S50000x64, .f32⟩ : BufTy).Contents (Elt F)),
    StableHlo.binary main_v31 main_v36 main_v37 (mulf : (⟨S50000x64, .f32⟩ : BufTy).Contents (Elt F) → (⟨S50000x64, .f32⟩ : BufTy).Contents (Elt F) → (⟨S50000x64, .f32⟩ : BufTy).Contents (Elt F)),
    StableHlo.unary main_arg7 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S50000x64 ![0, 1] bcast_S1x64_S50000x64_0_1 : (⟨S1x64, .f32⟩ : BufTy).Contents (Elt F) → (⟨S50000x64, .f32⟩ : BufTy).Contents (Elt F)),
    StableHlo.binary main_v37 main_v39 main_v40 (mulf : (⟨S50000x64, .f32⟩ : BufTy).Contents (Elt F) → (⟨S50000x64, .f32⟩ : BufTy).Contents (Elt F) → (⟨S50000x64, .f32⟩ : BufTy).Contents (Elt F)),
    StableHlo.unary main_arg8 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S50000x64 ![0, 1] bcast_S1x64_S50000x64_0_1 : (⟨S1x64, .f32⟩ : BufTy).Contents (Elt F) → (⟨S50000x64, .f32⟩ : BufTy).Contents (Elt F)),
    StableHlo.binary main_v40 main_v42 main_v43 (addf : (⟨S50000x64, .f32⟩ : BufTy).Contents (Elt F) → (⟨S50000x64, .f32⟩ : BufTy).Contents (Elt F) → (⟨S50000x64, .f32⟩ : BufTy).Contents (Elt F)),
    StableHlo.nullary main_cst_5 (constant S_ .f32 0x00000000#32),
    StableHlo.unary main_cst_5 main_v44 (broadcastInDim S50000x64 ![] bcast_S_S50000x64 : (⟨S_, .f32⟩ : BufTy).Contents (Elt F) → (⟨S50000x64, .f32⟩ : BufTy).Contents (Elt F)),
    StableHlo.binary main_v43 main_v44 main_v45 (cmpf .oge : (⟨S50000x64, .f32⟩ : BufTy).Contents (Elt F) → (⟨S50000x64, .f32⟩ : BufTy).Contents (Elt F) → (⟨S50000x64, .i1⟩ : BufTy).Contents (Elt F)),
    StableHlo.nullary main_cst_6 (constant S_ .f32 0x3C23D70A#32),
    StableHlo.unary main_cst_6 main_v46 (broadcastInDim S50000x64 ![] bcast_S_S50000x64 : (⟨S_, .f32⟩ : BufTy).Contents (Elt F) → (⟨S50000x64, .f32⟩ : BufTy).Contents (Elt F)),
    StableHlo.binary main_v46 main_v43 main_v47 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v45) (.of main_v43) (.of main_v47) main_call2.v0 select,
    StableHlo.binary main_v48 main_arg9 main_v49 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg10 main_v50 (broadcastInDim S1x64 ![1] bcast_S64_S1x64_1 : (⟨S64, .f32⟩ : BufTy).Contents (Elt F) → (⟨S1x64, .f32⟩ : BufTy).Contents (Elt F)) ]

/-- Operations 83 to 91 of the program, in order. -/
abbrev seg7 : List (HloOp τ sig (Elt F)) :=
  [ StableHlo.unary main_v50 main_v51 (broadcastInDim S50000x64 ![0, 1] bcast_S1x64_S50000x64_0_1 : (⟨S1x64, .f32⟩ : BufTy).Contents (Elt F) → (⟨S50000x64, .f32⟩ : BufTy).Contents (Elt F)),
    StableHlo.binary main_v49 main_v51 main_v52 (addf : (⟨S50000x64, .f32⟩ : BufTy).Contents (Elt F) → (⟨S50000x64, .f32⟩ : BufTy).Contents (Elt F) → (⟨S50000x64, .f32⟩ : BufTy).Contents (Elt F)),
    StableHlo.nullary main_cst_7 (constant S_ .f32 0x00000000#32),
    StableHlo.unary main_cst_7 main_v53 (broadcastInDim S50000x64 ![] bcast_S_S50000x64 : (⟨S_, .f32⟩ : BufTy).Contents (Elt F) → (⟨S50000x64, .f32⟩ : BufTy).Contents (Elt F)),
    StableHlo.binary main_v52 main_v53 main_v54 (cmpf .oge : (⟨S50000x64, .f32⟩ : BufTy).Contents (Elt F) → (⟨S50000x64, .f32⟩ : BufTy).Contents (Elt F) → (⟨S50000x64, .i1⟩ : BufTy).Contents (Elt F)),
    StableHlo.nullary main_cst_8 (constant S_ .f32 0x3C23D70A#32),
    StableHlo.unary main_cst_8 main_v55 (broadcastInDim S50000x64 ![] bcast_S_S50000x64 : (⟨S_, .f32⟩ : BufTy).Contents (Elt F) → (⟨S50000x64, .f32⟩ : BufTy).Contents (Elt F)),
    StableHlo.binary main_v55 main_v52 main_v56 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v54) (.of main_v52) (.of main_v56) main_call3.v0 select ]

/-- Operations 92 to 107 of the program, in order. -/
abbrev seg8 : List (HloOp τ sig (Elt F)) :=
  [ StableHlo.unary main_arg11 main_v58 ((extractStridedSlice S1x7x64 ![0, 0, 0] · slices_S4x7x64_S1x7x64_0_0_0) : (⟨S4x7x64, .f32⟩ : BufTy).Contents (Elt F) → (⟨S1x7x64, .f32⟩ : BufTy).Contents (Elt F)),
    StableHlo.reshape main_v58 main_v59 rfl shapeCasts_S1x7x64_S7x64,
    StableHlo.unary main_arg12 main_v60 ((extractStridedSlice S1x64 ![0, 0] · slices_S4x64_S1x64_0_0) : (⟨S4x64, .f32⟩ : BufTy).Contents (Elt F) → (⟨S1x64, .f32⟩ : BufTy).Contents (Elt F)),
    StableHlo.reshape main_v60 main_v61 rfl shapeCasts_S1x64_S64,
    StableHlo.unary main_arg13 main_v62 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v62 main_v63 rfl shapeCasts_S1x64x64_S64x64,
    StableHlo.unary main_arg14 main_v64 ((extractStridedSlice S1x64 ![0, 0] · slices_S4x64_S1x64_0_0) : (⟨S4x64, .f32⟩ : BufTy).Contents (Elt F) → (⟨S1x64, .f32⟩ : BufTy).Contents (Elt F)),
    StableHlo.reshape main_v64 main_v65 rfl shapeCasts_S1x64_S64,
    StableHlo.unary main_arg15 main_v66 ((extractStridedSlice S1x64 ![0, 0] · slices_S4x64_S1x64_0_0) : (⟨S4x64, .f32⟩ : BufTy).Contents (Elt F) → (⟨S1x64, .f32⟩ : BufTy).Contents (Elt F)),
    StableHlo.reshape main_v66 main_v67 rfl shapeCasts_S1x64_S64,
    StableHlo.unary main_arg16 main_v68 ((extractStridedSlice S1x64 ![0, 0] · slices_S4x64_S1x64_0_0) : (⟨S4x64, .f32⟩ : BufTy).Contents (Elt F) → (⟨S1x64, .f32⟩ : BufTy).Contents (Elt F)),
    StableHlo.reshape main_v68 main_v69 rfl shapeCasts_S1x64_S64,
    StableHlo.unary main_arg17 main_v70 ((extractStridedSlice S1x64x64 ![0, 0, 0] · slices_S4x64x64_S1x64x64_0_0_0) : (⟨S4x64x64, .f32⟩ : BufTy).Contents (Elt F) → (⟨S1x64x64, .f32⟩ : BufTy).Contents (Elt F)),
    StableHlo.reshape main_v70 main_v71 rfl shapeCasts_S1x64x64_S64x64,
    StableHlo.unary main_arg18 main_v72 ((extractStridedSlice S1x64 ![0, 0] · slices_S4x64_S1x64_0_0) : (⟨S4x64, .f32⟩ : BufTy).Contents (Elt F) → (⟨S1x64, .f32⟩ : BufTy).Contents (Elt F)),
    StableHlo.reshape main_v72 main_v73 rfl shapeCasts_S1x64_S64 ]

/-- Operations 108 to 115 of the program, in order. -/
abbrev seg9 : List (HloOp τ sig (Elt F)) :=
  [ StableHlo.nullary main_c_9 (constantI S_ 32 0#32),
    StableHlo.unary main_c_9 main_v74 (broadcastInDim S800000 ![] bcast_S_S800000 : (⟨S_, .i32⟩ : BufTy).Contents (Elt F) → (⟨S800000, .i32⟩ : BufTy).Contents (Elt F)),
    StableHlo.binary main_v1 main_v74 main_v75 (cmpi .slt : (⟨S800000, .i32⟩ : BufTy).Contents (Elt F) → (⟨S800000, .i32⟩ : BufTy).Contents (Elt F) → (⟨S800000, .i1⟩ : BufTy).Contents (Elt F)),
    StableHlo.nullary main_c_10 (constantI S_ 32 50000#32),
    StableHlo.unary main_c_10 main_v76 (broadcastInDim S800000 ![] bcast_S_S800000 : (⟨S_, .i32⟩ : BufTy).Contents (Elt F) → (⟨S800000, .i32⟩ : BufTy).Contents (Elt F)),
    StableHlo.binary main_v1 main_v76 main_v77 (addi : (⟨S800000, .i32⟩ : BufTy).Contents (Elt F) → (⟨S800000, .i32⟩ : BufTy).Contents (Elt F) → (⟨S800000, .i32⟩ : BufTy).Contents (Elt F)),
    StableHlo.ternary main_v75 main_v77 main_v1 main_v78 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v78 main_v79 (broadcastInDim S800000x1 ![0] bcast_S800000_S800000x1_0 : (⟨S800000, .i32⟩ : BufTy).Contents (Elt F) → (⟨S800000x1, .i32⟩ : BufTy).Contents (Elt F)) ]

/-- Operations 116 to 124 of the program, in order. -/
abbrev seg10 : List (HloOp τ sig (Elt F)) :=
  [ StableHlo.binary main_v57 main_v79 main_v80 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_arg2 main_v59 main_v81 ((fun l r => Host.dotGeneral dot_S800000x7_S7x64_S800000x64_1_0_0_1_n_n none l r) : (⟨S800000x7, .f32⟩ : BufTy).Contents (Elt F) → (⟨S7x64, .f32⟩ : BufTy).Contents (Elt F) → (⟨S800000x64, .f32⟩ : BufTy).Contents (Elt F)),
    StableHlo.binary main_v80 main_v81 main_v82 (addf : (⟨S800000x64, .f32⟩ : BufTy).Contents (Elt F) → (⟨S800000x64, .f32⟩ : BufTy).Contents (Elt F) → (⟨S800000x64, .f32⟩ : BufTy).Contents (Elt F)),
    StableHlo.unary main_v61 main_v83 (broadcastInDim S1x64 ![1] bcast_S64_S1x64_1 : (⟨S64, .f32⟩ : BufTy).Contents (Elt F) → (⟨S1x64, .f32⟩ : BufTy).Contents (Elt F)),
    StableHlo.unary main_v83 main_v84 (broadcastInDim S800000x64 ![0, 1] bcast_S1x64_S800000x64_0_1 : (⟨S1x64, .f32⟩ : BufTy).Contents (Elt F) → (⟨S800000x64, .f32⟩ : BufTy).Contents (Elt F)),
    StableHlo.binary main_v82 main_v84 main_v85 (addf : (⟨S800000x64, .f32⟩ : BufTy).Contents (Elt F) → (⟨S800000x64, .f32⟩ : BufTy).Contents (Elt F) → (⟨S800000x64, .f32⟩ : BufTy).Contents (Elt F)),
    StableHlo.TRef.nullary main_call4.cst (constant S_ .f32 0x00000000#32),
    StableHlo.TRef.unary main_call4.cst main_call4.v0 (broadcastInDim S800000x64 ![] bcast_S_S800000x64),
    StableHlo.TRef.binary (.of main_v85) main_call4.v0 main_call4.v1 maximumf ]

/-- Operations 125 to 133 of the program, in order. -/
abbrev seg11 : List (HloOp τ sig (Elt F)) :=
  [ StableHlo.nullary main_cst_11 (constant S_ .f32 0x00000000#32),
    StableHlo.unary main_cst_11 main_v87 (broadcastInDim S50000x64 ![] bcast_S_S50000x64 : (⟨S_, .f32⟩ : BufTy).Contents (Elt F) → (⟨S50000x64, .f32⟩ : BufTy).Contents (Elt F)),
    StableHlo.unary main_v3 main_v88 (broadcastInDim S800000x1 ![0] bcast_S800000_S800000x1_0 : (⟨S800000, .i32⟩ : BufTy).Contents (Elt F) → (⟨S800000x1, .i32⟩ : BufTy).Contents (Elt F)),
    StableHlo.ternary main_v87 main_v88 main_v86 main_v89 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v57 main_v89 main_v90 (addf : (⟨S50000x64, .f32⟩ : BufTy).Contents (Elt F) → (⟨S50000x64, .f32⟩ : BufTy).Contents (Elt F) → (⟨S50000x64, .f32⟩ : BufTy).Contents (Elt F)),
    StableHlo.binary main_v90 main_v63 main_v91 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v65 main_v92 (broadcastInDim S1x64 ![1] bcast_S64_S1x64_1 : (⟨S64, .f32⟩ : BufTy).Contents (Elt F) → (⟨S1x64, .f32⟩ : BufTy).Contents (Elt F)),
    StableHlo.unary main_v92 main_v93 (broadcastInDim S50000x64 ![0, 1] bcast_S1x64_S50000x64_0_1 : (⟨S1x64, .f32⟩ : BufTy).Contents (Elt F) → (⟨S50000x64, .f32⟩ : BufTy).Contents (Elt F)),
    StableHlo.binary main_v91 main_v93 main_v94 (addf : (⟨S50000x64, .f32⟩ : BufTy).Contents (Elt F) → (⟨S50000x64, .f32⟩ : BufTy).Contents (Elt F) → (⟨S50000x64, .f32⟩ : BufTy).Contents (Elt F)) ]

/-- Operations 134 to 138 of the program, in order. -/
abbrev seg12 : List (HloOp τ sig (Elt F)) :=
  [ StableHlo.nullary main_cst_12 (constant S_ .f32 0x00000000#32),
    StableHlo.binary main_v94 main_cst_12 main_v95 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_13 (constant S_ .f32 0x47435000#32),
    StableHlo.unary main_cst_13 main_v96 (broadcastInDim S64 ![] bcast_S_S64 : (⟨S_, .f32⟩ : BufTy).Contents (Elt F) → (⟨S64, .f32⟩ : BufTy).Contents (Elt F)),
    StableHlo.binary main_v95 main_v96 main_v97 (Host.divf : (⟨S64, .f32⟩ : BufTy).Contents (Elt F) → (⟨S64, .f32⟩ : BufTy).Contents (Elt F) → (⟨S64, .f32⟩ : BufTy).Contents (Elt F)) ]

/-- Operations 139 to 161 of the program, in order. -/
abbrev seg13 : List (HloOp τ sig (Elt F)) :=
  [ StableHlo.nullary main_c_14 (constantI S_ 32 0#32),
    StableHlo.TRef.nullary main_call5.cst (constant S_ .f32 0x00000000#32),
    StableHlo.TRef.binary (.of main_v94) main_call5.cst main_call5.v0 (fun x v => Host.reduceAdd x v reducesTo_S50000x64_S64_d0 h_S_),
    StableHlo.TRef.unary main_call5.v0 main_call5.v1 (broadcastInDim S1x64 ![1] bcast_S64_S1x64_1),
    StableHlo.TRef.nullary main_call5.cst_0 (constant S_ .f32 0x47435000#32),
    StableHlo.TRef.unary main_call5.cst_0 main_call5.v2 (broadcastInDim S1x64 ![] bcast_S_S1x64),
    StableHlo.TRef.binary main_call5.v1 main_call5.v2 main_call5.v3 Host.divf,
    StableHlo.TRef.unary main_call5.v3 main_call5.v4 (broadcastInDim S50000x64 ![0, 1] bcast_S1x64_S50000x64_0_1),
    StableHlo.TRef.binary (.of main_v94) main_call5.v4 main_call5.v5 subf,
    StableHlo.TRef.binary main_call5.v5 main_call5.v5 main_call5.v6 mulf,
    StableHlo.TRef.unary (.of main_c_14) main_call5.v7 (sitofp .f32),
    StableHlo.TRef.nullary main_call5.cst_1 (constant S_ .f32 0x47435000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S50000x64_S64_d0 h_S_),
    StableHlo.TRef.unary main_call5.v8 main_call5.v10 (broadcastInDim S64 ![] bcast_S_S64),
    StableHlo.TRef.binary main_call5.v9 main_call5.v10 main_call5.v11 Host.divf,
    StableHlo.TRef.nullary main_call5.cst_3 (constant S_ .f32 0x00000000#32),
    StableHlo.TRef.binary main_call5.v8 main_call5.cst_3 main_call5.v12 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S64 ![] bcast_S_S64),
    StableHlo.TRef.ternary main_call5.v12 main_call5.v11 main_call5.call0.v1 main_call5.call0.v2 (fun p a b => select (broadcastInDim S64 ![] bcast_S_S64 p) a b) ]

/-- Operations 162 to 165 of the program, in order. -/
abbrev seg14 : List (HloOp τ sig (Elt F)) :=
  [ StableHlo.unary main_v97 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S50000x64 ![0, 1] bcast_S1x64_S50000x64_0_1 : (⟨S1x64, .f32⟩ : BufTy).Contents (Elt F) → (⟨S50000x64, .f32⟩ : BufTy).Contents (Elt F)),
    StableHlo.binary main_v94 main_v100 main_v101 (subf : (⟨S50000x64, .f32⟩ : BufTy).Contents (Elt F) → (⟨S50000x64, .f32⟩ : BufTy).Contents (Elt F) → (⟨S50000x64, .f32⟩ : BufTy).Contents (Elt F)),
    StableHlo.nullary main_cst_15 (constant S_ .f32 0x3727C5AC#32) ]

/-- Operations 166 to 195 of the program, in order. -/
abbrev seg15 : List (HloOp τ sig (Elt F)) :=
  [ StableHlo.unary main_cst_15 main_v102 (broadcastInDim S64 ![] bcast_S_S64 : (⟨S_, .f32⟩ : BufTy).Contents (Elt F) → (⟨S64, .f32⟩ : BufTy).Contents (Elt F)),
    StableHlo.binary main_v98 main_v102 main_v103 (addf : (⟨S64, .f32⟩ : BufTy).Contents (Elt F) → (⟨S64, .f32⟩ : BufTy).Contents (Elt F) → (⟨S64, .f32⟩ : BufTy).Contents (Elt F)),
    StableHlo.unary main_v103 main_v104 (Host.rsqrt : (⟨S64, .f32⟩ : BufTy).Contents (Elt F) → (⟨S64, .f32⟩ : BufTy).Contents (Elt F)),
    StableHlo.unary main_v104 main_v105 (broadcastInDim S1x64 ![1] bcast_S64_S1x64_1 : (⟨S64, .f32⟩ : BufTy).Contents (Elt F) → (⟨S1x64, .f32⟩ : BufTy).Contents (Elt F)),
    StableHlo.unary main_v105 main_v106 (broadcastInDim S50000x64 ![0, 1] bcast_S1x64_S50000x64_0_1 : (⟨S1x64, .f32⟩ : BufTy).Contents (Elt F) → (⟨S50000x64, .f32⟩ : BufTy).Contents (Elt F)),
    StableHlo.binary main_v101 main_v106 main_v107 (mulf : (⟨S50000x64, .f32⟩ : BufTy).Contents (Elt F) → (⟨S50000x64, .f32⟩ : BufTy).Contents (Elt F) → (⟨S50000x64, .f32⟩ : BufTy).Contents (Elt F)),
    StableHlo.unary main_v67 main_v108 (broadcastInDim S1x64 ![1] bcast_S64_S1x64_1 : (⟨S64, .f32⟩ : BufTy).Contents (Elt F) → (⟨S1x64, .f32⟩ : BufTy).Contents (Elt F)),
    StableHlo.unary main_v108 main_v109 (broadcastInDim S50000x64 ![0, 1] bcast_S1x64_S50000x64_0_1 : (⟨S1x64, .f32⟩ : BufTy).Contents (Elt F) → (⟨S50000x64, .f32⟩ : BufTy).Contents (Elt F)),
    StableHlo.binary main_v107 main_v109 main_v110 (mulf : (⟨S50000x64, .f32⟩ : BufTy).Contents (Elt F) → (⟨S50000x64, .f32⟩ : BufTy).Contents (Elt F) → (⟨S50000x64, .f32⟩ : BufTy).Contents (Elt F)),
    StableHlo.unary main_v69 main_v111 (broadcastInDim S1x64 ![1] bcast_S64_S1x64_1 : (⟨S64, .f32⟩ : BufTy).Contents (Elt F) → (⟨S1x64, .f32⟩ : BufTy).Contents (Elt F)),
    StableHlo.unary main_v111 main_v112 (broadcastInDim S50000x64 ![0, 1] bcast_S1x64_S50000x64_0_1 : (⟨S1x64, .f32⟩ : BufTy).Contents (Elt F) → (⟨S50000x64, .f32⟩ : BufTy).Contents (Elt F)),
    StableHlo.binary main_v110 main_v112 main_v113 (addf : (⟨S50000x64, .f32⟩ : BufTy).Contents (Elt F) → (⟨S50000x64, .f32⟩ : BufTy).Contents (Elt F) → (⟨S50000x64, .f32⟩ : BufTy).Contents (Elt F)),
    StableHlo.nullary main_cst_16 (constant S_ .f32 0x00000000#32),
    StableHlo.unary main_cst_16 main_v114 (broadcastInDim S50000x64 ![] bcast_S_S50000x64 : (⟨S_, .f32⟩ : BufTy).Contents (Elt F) → (⟨S50000x64, .f32⟩ : BufTy).Contents (Elt F)),
    StableHlo.binary main_v113 main_v114 main_v115 (cmpf .oge : (⟨S50000x64, .f32⟩ : BufTy).Contents (Elt F) → (⟨S50000x64, .f32⟩ : BufTy).Contents (Elt F) → (⟨S50000x64, .i1⟩ : BufTy).Contents (Elt F)),
    StableHlo.nullary main_cst_17 (constant S_ .f32 0x3C23D70A#32),
    StableHlo.unary main_cst_17 main_v116 (broadcastInDim S50000x64 ![] bcast_S_S50000x64 : (⟨S_, .f32⟩ : BufTy).Contents (Elt F) → (⟨S50000x64, .f32⟩ : BufTy).Contents (Elt F)),
    StableHlo.binary main_v116 main_v113 main_v117 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v115) (.of main_v113) (.of main_v117) main_call6.v0 select,
    StableHlo.binary main_v118 main_v71 main_v119 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v73 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S50000x64 ![0, 1] bcast_S1x64_S50000x64_0_1 : (⟨S1x64, .f32⟩ : BufTy).Contents (Elt F) → (⟨S50000x64, .f32⟩ : BufTy).Contents (Elt F)),
    StableHlo.binary main_v119 main_v121 main_v122 (addf : (⟨S50000x64, .f32⟩ : BufTy).Contents (Elt F) → (⟨S50000x64, .f32⟩ : BufTy).Contents (Elt F) → (⟨S50000x64, .f32⟩ : BufTy).Contents (Elt F)),
    StableHlo.nullary main_cst_18 (constant S_ .f32 0x00000000#32),
    StableHlo.unary main_cst_18 main_v123 (broadcastInDim S50000x64 ![] bcast_S_S50000x64 : (⟨S_, .f32⟩ : BufTy).Contents (Elt F) → (⟨S50000x64, .f32⟩ : BufTy).Contents (Elt F)),
    StableHlo.binary main_v122 main_v123 main_v124 (cmpf .oge : (⟨S50000x64, .f32⟩ : BufTy).Contents (Elt F) → (⟨S50000x64, .f32⟩ : BufTy).Contents (Elt F) → (⟨S50000x64, .i1⟩ : BufTy).Contents (Elt F)),
    StableHlo.nullary main_cst_19 (constant S_ .f32 0x3C23D70A#32),
    StableHlo.unary main_cst_19 main_v125 (broadcastInDim S50000x64 ![] bcast_S_S50000x64 : (⟨S_, .f32⟩ : BufTy).Contents (Elt F) → (⟨S50000x64, .f32⟩ : BufTy).Contents (Elt F)),
    StableHlo.binary main_v125 main_v122 main_v126 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v124) (.of main_v122) (.of main_v126) main_call7.v0 select ]

/-- Operations 196 to 211 of the program, in order. -/
abbrev seg16 : List (HloOp τ sig (Elt F)) :=
  [ StableHlo.unary main_arg11 main_v128 ((extractStridedSlice S1x7x64 ![1, 0, 0] · slices_S4x7x64_S1x7x64_1_0_0) : (⟨S4x7x64, .f32⟩ : BufTy).Contents (Elt F) → (⟨S1x7x64, .f32⟩ : BufTy).Contents (Elt F)),
    StableHlo.reshape main_v128 main_v129 rfl shapeCasts_S1x7x64_S7x64,
    StableHlo.unary main_arg12 main_v130 ((extractStridedSlice S1x64 ![1, 0] · slices_S4x64_S1x64_1_0) : (⟨S4x64, .f32⟩ : BufTy).Contents (Elt F) → (⟨S1x64, .f32⟩ : BufTy).Contents (Elt F)),
    StableHlo.reshape main_v130 main_v131 rfl shapeCasts_S1x64_S64,
    StableHlo.unary main_arg13 main_v132 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v132 main_v133 rfl shapeCasts_S1x64x64_S64x64,
    StableHlo.unary main_arg14 main_v134 ((extractStridedSlice S1x64 ![1, 0] · slices_S4x64_S1x64_1_0) : (⟨S4x64, .f32⟩ : BufTy).Contents (Elt F) → (⟨S1x64, .f32⟩ : BufTy).Contents (Elt F)),
    StableHlo.reshape main_v134 main_v135 rfl shapeCasts_S1x64_S64,
    StableHlo.unary main_arg15 main_v136 ((extractStridedSlice S1x64 ![1, 0] · slices_S4x64_S1x64_1_0) : (⟨S4x64, .f32⟩ : BufTy).Contents (Elt F) → (⟨S1x64, .f32⟩ : BufTy).Contents (Elt F)),
    StableHlo.reshape main_v136 main_v137 rfl shapeCasts_S1x64_S64,
    StableHlo.unary main_arg16 main_v138 ((extractStridedSlice S1x64 ![1, 0] · slices_S4x64_S1x64_1_0) : (⟨S4x64, .f32⟩ : BufTy).Contents (Elt F) → (⟨S1x64, .f32⟩ : BufTy).Contents (Elt F)),
    StableHlo.reshape main_v138 main_v139 rfl shapeCasts_S1x64_S64,
    StableHlo.unary main_arg17 main_v140 ((extractStridedSlice S1x64x64 ![1, 0, 0] · slices_S4x64x64_S1x64x64_1_0_0) : (⟨S4x64x64, .f32⟩ : BufTy).Contents (Elt F) → (⟨S1x64x64, .f32⟩ : BufTy).Contents (Elt F)),
    StableHlo.reshape main_v140 main_v141 rfl shapeCasts_S1x64x64_S64x64,
    StableHlo.unary main_arg18 main_v142 ((extractStridedSlice S1x64 ![1, 0] · slices_S4x64_S1x64_1_0) : (⟨S4x64, .f32⟩ : BufTy).Contents (Elt F) → (⟨S1x64, .f32⟩ : BufTy).Contents (Elt F)),
    StableHlo.reshape main_v142 main_v143 rfl shapeCasts_S1x64_S64 ]

/-- Operations 212 to 219 of the program, in order. -/
abbrev seg17 : List (HloOp τ sig (Elt F)) :=
  [ StableHlo.nullary main_c_20 (constantI S_ 32 0#32),
    StableHlo.unary main_c_20 main_v144 (broadcastInDim S800000 ![] bcast_S_S800000 : (⟨S_, .i32⟩ : BufTy).Contents (Elt F) → (⟨S800000, .i32⟩ : BufTy).Contents (Elt F)),
    StableHlo.binary main_v1 main_v144 main_v145 (cmpi .slt : (⟨S800000, .i32⟩ : BufTy).Contents (Elt F) → (⟨S800000, .i32⟩ : BufTy).Contents (Elt F) → (⟨S800000, .i1⟩ : BufTy).Contents (Elt F)),
    StableHlo.nullary main_c_21 (constantI S_ 32 50000#32),
    StableHlo.unary main_c_21 main_v146 (broadcastInDim S800000 ![] bcast_S_S800000 : (⟨S_, .i32⟩ : BufTy).Contents (Elt F) → (⟨S800000, .i32⟩ : BufTy).Contents (Elt F)),
    StableHlo.binary main_v1 main_v146 main_v147 (addi : (⟨S800000, .i32⟩ : BufTy).Contents (Elt F) → (⟨S800000, .i32⟩ : BufTy).Contents (Elt F) → (⟨S800000, .i32⟩ : BufTy).Contents (Elt F)),
    StableHlo.ternary main_v145 main_v147 main_v1 main_v148 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v148 main_v149 (broadcastInDim S800000x1 ![0] bcast_S800000_S800000x1_0 : (⟨S800000, .i32⟩ : BufTy).Contents (Elt F) → (⟨S800000x1, .i32⟩ : BufTy).Contents (Elt F)) ]

/-- Operations 220 to 225 of the program, in order. -/
abbrev seg18 : List (HloOp τ sig (Elt F)) :=
  [ StableHlo.binary main_v127 main_v149 main_v150 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_arg2 main_v129 main_v151 ((fun l r => Host.dotGeneral dot_S800000x7_S7x64_S800000x64_1_0_0_1_n_n none l r) : (⟨S800000x7, .f32⟩ : BufTy).Contents (Elt F) → (⟨S7x64, .f32⟩ : BufTy).Contents (Elt F) → (⟨S800000x64, .f32⟩ : BufTy).Contents (Elt F)),
    StableHlo.binary main_v150 main_v151 main_v152 (addf : (⟨S800000x64, .f32⟩ : BufTy).Contents (Elt F) → (⟨S800000x64, .f32⟩ : BufTy).Contents (Elt F) → (⟨S800000x64, .f32⟩ : BufTy).Contents (Elt F)),
    StableHlo.unary main_v131 main_v153 (broadcastInDim S1x64 ![1] bcast_S64_S1x64_1 : (⟨S64, .f32⟩ : BufTy).Contents (Elt F) → (⟨S1x64, .f32⟩ : BufTy).Contents (Elt F)),
    StableHlo.unary main_v153 main_v154 (broadcastInDim S800000x64 ![0, 1] bcast_S1x64_S800000x64_0_1 : (⟨S1x64, .f32⟩ : BufTy).Contents (Elt F) → (⟨S800000x64, .f32⟩ : BufTy).Contents (Elt F)),
    StableHlo.binary main_v152 main_v154 main_v155 (addf : (⟨S800000x64, .f32⟩ : BufTy).Contents (Elt F) → (⟨S800000x64, .f32⟩ : BufTy).Contents (Elt F) → (⟨S800000x64, .f32⟩ : BufTy).Contents (Elt F)) ]

/-- Operations 226 to 228 of the program, in order. -/
abbrev seg19 : List (HloOp τ sig (Elt F)) :=
  [ StableHlo.TRef.nullary main_call8.cst (constant S_ .f32 0x00000000#32),
    StableHlo.TRef.unary main_call8.cst main_call8.v0 (broadcastInDim S800000x64 ![] bcast_S_S800000x64),
    StableHlo.TRef.binary (.of main_v155) main_call8.v0 main_call8.v1 maximumf ]

/-- Operations 229 to 237 of the program, in order. -/
abbrev seg20 : List (HloOp τ sig (Elt F)) :=
  [ StableHlo.nullary main_cst_22 (constant S_ .f32 0x00000000#32),
    StableHlo.unary main_cst_22 main_v157 (broadcastInDim S50000x64 ![] bcast_S_S50000x64 : (⟨S_, .f32⟩ : BufTy).Contents (Elt F) → (⟨S50000x64, .f32⟩ : BufTy).Contents (Elt F)),
    StableHlo.unary main_v3 main_v158 (broadcastInDim S800000x1 ![0] bcast_S800000_S800000x1_0 : (⟨S800000, .i32⟩ : BufTy).Contents (Elt F) → (⟨S800000x1, .i32⟩ : BufTy).Contents (Elt F)),
    StableHlo.ternary main_v157 main_v158 main_v156 main_v159 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v127 main_v159 main_v160 (addf : (⟨S50000x64, .f32⟩ : BufTy).Contents (Elt F) → (⟨S50000x64, .f32⟩ : BufTy).Contents (Elt F) → (⟨S50000x64, .f32⟩ : BufTy).Contents (Elt F)),
    StableHlo.binary main_v160 main_v133 main_v161 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v135 main_v162 (broadcastInDim S1x64 ![1] bcast_S64_S1x64_1 : (⟨S64, .f32⟩ : BufTy).Contents (Elt F) → (⟨S1x64, .f32⟩ : BufTy).Contents (Elt F)),
    StableHlo.unary main_v162 main_v163 (broadcastInDim S50000x64 ![0, 1] bcast_S1x64_S50000x64_0_1 : (⟨S1x64, .f32⟩ : BufTy).Contents (Elt F) → (⟨S50000x64, .f32⟩ : BufTy).Contents (Elt F)),
    StableHlo.binary main_v161 main_v163 main_v164 (addf : (⟨S50000x64, .f32⟩ : BufTy).Contents (Elt F) → (⟨S50000x64, .f32⟩ : BufTy).Contents (Elt F) → (⟨S50000x64, .f32⟩ : BufTy).Contents (Elt F)) ]

/-- Operations 238 to 242 of the program, in order. -/
abbrev seg21 : List (HloOp τ sig (Elt F)) :=
  [ StableHlo.nullary main_cst_23 (constant S_ .f32 0x00000000#32),
    StableHlo.binary main_v164 main_cst_23 main_v165 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_24 (constant S_ .f32 0x47435000#32),
    StableHlo.unary main_cst_24 main_v166 (broadcastInDim S64 ![] bcast_S_S64 : (⟨S_, .f32⟩ : BufTy).Contents (Elt F) → (⟨S64, .f32⟩ : BufTy).Contents (Elt F)),
    StableHlo.binary main_v165 main_v166 main_v167 (Host.divf : (⟨S64, .f32⟩ : BufTy).Contents (Elt F) → (⟨S64, .f32⟩ : BufTy).Contents (Elt F) → (⟨S64, .f32⟩ : BufTy).Contents (Elt F)) ]

/-- Operations 243 to 265 of the program, in order. -/
abbrev seg22 : List (HloOp τ sig (Elt F)) :=
  [ StableHlo.nullary main_c_25 (constantI S_ 32 0#32),
    StableHlo.TRef.nullary main_call9.cst (constant S_ .f32 0x00000000#32),
    StableHlo.TRef.binary (.of main_v164) main_call9.cst main_call9.v0 (fun x v => Host.reduceAdd x v reducesTo_S50000x64_S64_d0 h_S_),
    StableHlo.TRef.unary main_call9.v0 main_call9.v1 (broadcastInDim S1x64 ![1] bcast_S64_S1x64_1),
    StableHlo.TRef.nullary main_call9.cst_0 (constant S_ .f32 0x47435000#32),
    StableHlo.TRef.unary main_call9.cst_0 main_call9.v2 (broadcastInDim S1x64 ![] bcast_S_S1x64),
    StableHlo.TRef.binary main_call9.v1 main_call9.v2 main_call9.v3 Host.divf,
    StableHlo.TRef.unary main_call9.v3 main_call9.v4 (broadcastInDim S50000x64 ![0, 1] bcast_S1x64_S50000x64_0_1),
    StableHlo.TRef.binary (.of main_v164) main_call9.v4 main_call9.v5 subf,
    StableHlo.TRef.binary main_call9.v5 main_call9.v5 main_call9.v6 mulf,
    StableHlo.TRef.unary (.of main_c_25) main_call9.v7 (sitofp .f32),
    StableHlo.TRef.nullary main_call9.cst_1 (constant S_ .f32 0x47435000#32),
    StableHlo.TRef.binary main_call9.cst_1 main_call9.v7 main_call9.v8 subf,
    StableHlo.TRef.nullary main_call9.cst_2 (constant S_ .f32 0x00000000#32),
    StableHlo.TRef.binary main_call9.v6 main_call9.cst_2 main_call9.v9 (fun x v => Host.reduceAdd x v reducesTo_S50000x64_S64_d0 h_S_),
    StableHlo.TRef.unary main_call9.v8 main_call9.v10 (broadcastInDim S64 ![] bcast_S_S64),
    StableHlo.TRef.binary main_call9.v9 main_call9.v10 main_call9.v11 Host.divf,
    StableHlo.TRef.nullary main_call9.cst_3 (constant S_ .f32 0x00000000#32),
    StableHlo.TRef.binary main_call9.v8 main_call9.cst_3 main_call9.v12 (cmpf .ogt),
    StableHlo.TRef.nullary main_call9.cst_4 (constant S_ .f32 0x7FC00000#32),
    StableHlo.TRef.unary main_call9.cst_4 main_call9.call0.v0 id,
    StableHlo.TRef.unary main_call9.call0.v0 main_call9.call0.v1 (broadcastInDim S64 ![] bcast_S_S64),
    StableHlo.TRef.ternary main_call9.v12 main_call9.v11 main_call9.call0.v1 main_call9.call0.v2 (fun p a b => select (broadcastInDim S64 ![] bcast_S_S64 p) a b) ]

/-- Operations 266 to 299 of the program, in order. -/
abbrev seg23 : List (HloOp τ sig (Elt F)) :=
  [ StableHlo.unary main_v167 main_v169 (broadcastInDim S1x64 ![1] bcast_S64_S1x64_1 : (⟨S64, .f32⟩ : BufTy).Contents (Elt F) → (⟨S1x64, .f32⟩ : BufTy).Contents (Elt F)),
    StableHlo.unary main_v169 main_v170 (broadcastInDim S50000x64 ![0, 1] bcast_S1x64_S50000x64_0_1 : (⟨S1x64, .f32⟩ : BufTy).Contents (Elt F) → (⟨S50000x64, .f32⟩ : BufTy).Contents (Elt F)),
    StableHlo.binary main_v164 main_v170 main_v171 (subf : (⟨S50000x64, .f32⟩ : BufTy).Contents (Elt F) → (⟨S50000x64, .f32⟩ : BufTy).Contents (Elt F) → (⟨S50000x64, .f32⟩ : BufTy).Contents (Elt F)),
    StableHlo.nullary main_cst_26 (constant S_ .f32 0x3727C5AC#32),
    StableHlo.unary main_cst_26 main_v172 (broadcastInDim S64 ![] bcast_S_S64 : (⟨S_, .f32⟩ : BufTy).Contents (Elt F) → (⟨S64, .f32⟩ : BufTy).Contents (Elt F)),
    StableHlo.binary main_v168 main_v172 main_v173 (addf : (⟨S64, .f32⟩ : BufTy).Contents (Elt F) → (⟨S64, .f32⟩ : BufTy).Contents (Elt F) → (⟨S64, .f32⟩ : BufTy).Contents (Elt F)),
    StableHlo.unary main_v173 main_v174 (Host.rsqrt : (⟨S64, .f32⟩ : BufTy).Contents (Elt F) → (⟨S64, .f32⟩ : BufTy).Contents (Elt F)),
    StableHlo.unary main_v174 main_v175 (broadcastInDim S1x64 ![1] bcast_S64_S1x64_1 : (⟨S64, .f32⟩ : BufTy).Contents (Elt F) → (⟨S1x64, .f32⟩ : BufTy).Contents (Elt F)),
    StableHlo.unary main_v175 main_v176 (broadcastInDim S50000x64 ![0, 1] bcast_S1x64_S50000x64_0_1 : (⟨S1x64, .f32⟩ : BufTy).Contents (Elt F) → (⟨S50000x64, .f32⟩ : BufTy).Contents (Elt F)),
    StableHlo.binary main_v171 main_v176 main_v177 (mulf : (⟨S50000x64, .f32⟩ : BufTy).Contents (Elt F) → (⟨S50000x64, .f32⟩ : BufTy).Contents (Elt F) → (⟨S50000x64, .f32⟩ : BufTy).Contents (Elt F)),
    StableHlo.unary main_v137 main_v178 (broadcastInDim S1x64 ![1] bcast_S64_S1x64_1 : (⟨S64, .f32⟩ : BufTy).Contents (Elt F) → (⟨S1x64, .f32⟩ : BufTy).Contents (Elt F)),
    StableHlo.unary main_v178 main_v179 (broadcastInDim S50000x64 ![0, 1] bcast_S1x64_S50000x64_0_1 : (⟨S1x64, .f32⟩ : BufTy).Contents (Elt F) → (⟨S50000x64, .f32⟩ : BufTy).Contents (Elt F)),
    StableHlo.binary main_v177 main_v179 main_v180 (mulf : (⟨S50000x64, .f32⟩ : BufTy).Contents (Elt F) → (⟨S50000x64, .f32⟩ : BufTy).Contents (Elt F) → (⟨S50000x64, .f32⟩ : BufTy).Contents (Elt F)),
    StableHlo.unary main_v139 main_v181 (broadcastInDim S1x64 ![1] bcast_S64_S1x64_1 : (⟨S64, .f32⟩ : BufTy).Contents (Elt F) → (⟨S1x64, .f32⟩ : BufTy).Contents (Elt F)),
    StableHlo.unary main_v181 main_v182 (broadcastInDim S50000x64 ![0, 1] bcast_S1x64_S50000x64_0_1 : (⟨S1x64, .f32⟩ : BufTy).Contents (Elt F) → (⟨S50000x64, .f32⟩ : BufTy).Contents (Elt F)),
    StableHlo.binary main_v180 main_v182 main_v183 (addf : (⟨S50000x64, .f32⟩ : BufTy).Contents (Elt F) → (⟨S50000x64, .f32⟩ : BufTy).Contents (Elt F) → (⟨S50000x64, .f32⟩ : BufTy).Contents (Elt F)),
    StableHlo.nullary main_cst_27 (constant S_ .f32 0x00000000#32),
    StableHlo.unary main_cst_27 main_v184 (broadcastInDim S50000x64 ![] bcast_S_S50000x64 : (⟨S_, .f32⟩ : BufTy).Contents (Elt F) → (⟨S50000x64, .f32⟩ : BufTy).Contents (Elt F)),
    StableHlo.binary main_v183 main_v184 main_v185 (cmpf .oge : (⟨S50000x64, .f32⟩ : BufTy).Contents (Elt F) → (⟨S50000x64, .f32⟩ : BufTy).Contents (Elt F) → (⟨S50000x64, .i1⟩ : BufTy).Contents (Elt F)),
    StableHlo.nullary main_cst_28 (constant S_ .f32 0x3C23D70A#32),
    StableHlo.unary main_cst_28 main_v186 (broadcastInDim S50000x64 ![] bcast_S_S50000x64 : (⟨S_, .f32⟩ : BufTy).Contents (Elt F) → (⟨S50000x64, .f32⟩ : BufTy).Contents (Elt F)),
    StableHlo.binary main_v186 main_v183 main_v187 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v185) (.of main_v183) (.of main_v187) main_call10.v0 select,
    StableHlo.binary main_v188 main_v141 main_v189 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v143 main_v190 (broadcastInDim S1x64 ![1] bcast_S64_S1x64_1 : (⟨S64, .f32⟩ : BufTy).Contents (Elt F) → (⟨S1x64, .f32⟩ : BufTy).Contents (Elt F)),
    StableHlo.unary main_v190 main_v191 (broadcastInDim S50000x64 ![0, 1] bcast_S1x64_S50000x64_0_1 : (⟨S1x64, .f32⟩ : BufTy).Contents (Elt F) → (⟨S50000x64, .f32⟩ : BufTy).Contents (Elt F)),
    StableHlo.binary main_v189 main_v191 main_v192 (addf : (⟨S50000x64, .f32⟩ : BufTy).Contents (Elt F) → (⟨S50000x64, .f32⟩ : BufTy).Contents (Elt F) → (⟨S50000x64, .f32⟩ : BufTy).Contents (Elt F)),
    StableHlo.nullary main_cst_29 (constant S_ .f32 0x00000000#32),
    StableHlo.unary main_cst_29 main_v193 (broadcastInDim S50000x64 ![] bcast_S_S50000x64 : (⟨S_, .f32⟩ : BufTy).Contents (Elt F) → (⟨S50000x64, .f32⟩ : BufTy).Contents (Elt F)),
    StableHlo.binary main_v192 main_v193 main_v194 (cmpf .oge : (⟨S50000x64, .f32⟩ : BufTy).Contents (Elt F) → (⟨S50000x64, .f32⟩ : BufTy).Contents (Elt F) → (⟨S50000x64, .i1⟩ : BufTy).Contents (Elt F)),
    StableHlo.nullary main_cst_30 (constant S_ .f32 0x3C23D70A#32),
    StableHlo.unary main_cst_30 main_v195 (broadcastInDim S50000x64 ![] bcast_S_S50000x64 : (⟨S_, .f32⟩ : BufTy).Contents (Elt F) → (⟨S50000x64, .f32⟩ : BufTy).Contents (Elt F)),
    StableHlo.binary main_v195 main_v192 main_v196 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v194) (.of main_v192) (.of main_v196) main_call11.v0 select ]

/-- Operations 300 to 308 of the program, in order. -/
abbrev seg24 : List (HloOp τ sig (Elt F)) :=
  [ StableHlo.unary main_arg11 main_v198 ((extractStridedSlice S1x7x64 ![2, 0, 0] · slices_S4x7x64_S1x7x64_2_0_0) : (⟨S4x7x64, .f32⟩ : BufTy).Contents (Elt F) → (⟨S1x7x64, .f32⟩ : BufTy).Contents (Elt F)),
    StableHlo.reshape main_v198 main_v199 rfl shapeCasts_S1x7x64_S7x64,
    StableHlo.unary main_arg12 main_v200 ((extractStridedSlice S1x64 ![2, 0] · slices_S4x64_S1x64_2_0) : (⟨S4x64, .f32⟩ : BufTy).Contents (Elt F) → (⟨S1x64, .f32⟩ : BufTy).Contents (Elt F)),
    StableHlo.reshape main_v200 main_v201 rfl shapeCasts_S1x64_S64,
    StableHlo.unary main_arg13 main_v202 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v202 main_v203 rfl shapeCasts_S1x64x64_S64x64,
    StableHlo.unary main_arg14 main_v204 ((extractStridedSlice S1x64 ![2, 0] · slices_S4x64_S1x64_2_0) : (⟨S4x64, .f32⟩ : BufTy).Contents (Elt F) → (⟨S1x64, .f32⟩ : BufTy).Contents (Elt F)),
    StableHlo.reshape main_v204 main_v205 rfl shapeCasts_S1x64_S64,
    StableHlo.unary main_arg15 main_v206 ((extractStridedSlice S1x64 ![2, 0] · slices_S4x64_S1x64_2_0) : (⟨S4x64, .f32⟩ : BufTy).Contents (Elt F) → (⟨S1x64, .f32⟩ : BufTy).Contents (Elt F)) ]

/-- Operations 309 to 315 of the program, in order. -/
abbrev seg25 : List (HloOp τ sig (Elt F)) :=
  [ StableHlo.reshape main_v206 main_v207 rfl shapeCasts_S1x64_S64,
    StableHlo.unary main_arg16 main_v208 ((extractStridedSlice S1x64 ![2, 0] · slices_S4x64_S1x64_2_0) : (⟨S4x64, .f32⟩ : BufTy).Contents (Elt F) → (⟨S1x64, .f32⟩ : BufTy).Contents (Elt F)),
    StableHlo.reshape main_v208 main_v209 rfl shapeCasts_S1x64_S64,
    StableHlo.unary main_arg17 main_v210 ((extractStridedSlice S1x64x64 ![2, 0, 0] · slices_S4x64x64_S1x64x64_2_0_0) : (⟨S4x64x64, .f32⟩ : BufTy).Contents (Elt F) → (⟨S1x64x64, .f32⟩ : BufTy).Contents (Elt F)),
    StableHlo.reshape main_v210 main_v211 rfl shapeCasts_S1x64x64_S64x64,
    StableHlo.unary main_arg18 main_v212 ((extractStridedSlice S1x64 ![2, 0] · slices_S4x64_S1x64_2_0) : (⟨S4x64, .f32⟩ : BufTy).Contents (Elt F) → (⟨S1x64, .f32⟩ : BufTy).Contents (Elt F)),
    StableHlo.reshape main_v212 main_v213 rfl shapeCasts_S1x64_S64 ]

/-- Operations 316 to 323 of the program, in order. -/
abbrev seg26 : List (HloOp τ sig (Elt F)) :=
  [ StableHlo.nullary main_c_31 (constantI S_ 32 0#32),
    StableHlo.unary main_c_31 main_v214 (broadcastInDim S800000 ![] bcast_S_S800000 : (⟨S_, .i32⟩ : BufTy).Contents (Elt F) → (⟨S800000, .i32⟩ : BufTy).Contents (Elt F)),
    StableHlo.binary main_v1 main_v214 main_v215 (cmpi .slt : (⟨S800000, .i32⟩ : BufTy).Contents (Elt F) → (⟨S800000, .i32⟩ : BufTy).Contents (Elt F) → (⟨S800000, .i1⟩ : BufTy).Contents (Elt F)),
    StableHlo.nullary main_c_32 (constantI S_ 32 50000#32),
    StableHlo.unary main_c_32 main_v216 (broadcastInDim S800000 ![] bcast_S_S800000 : (⟨S_, .i32⟩ : BufTy).Contents (Elt F) → (⟨S800000, .i32⟩ : BufTy).Contents (Elt F)),
    StableHlo.binary main_v1 main_v216 main_v217 (addi : (⟨S800000, .i32⟩ : BufTy).Contents (Elt F) → (⟨S800000, .i32⟩ : BufTy).Contents (Elt F) → (⟨S800000, .i32⟩ : BufTy).Contents (Elt F)),
    StableHlo.ternary main_v215 main_v217 main_v1 main_v218 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v218 main_v219 (broadcastInDim S800000x1 ![0] bcast_S800000_S800000x1_0 : (⟨S800000, .i32⟩ : BufTy).Contents (Elt F) → (⟨S800000x1, .i32⟩ : BufTy).Contents (Elt F)) ]

/-- Operations 324 to 332 of the program, in order. -/
abbrev seg27 : List (HloOp τ sig (Elt F)) :=
  [ StableHlo.binary main_v197 main_v219 main_v220 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_arg2 main_v199 main_v221 ((fun l r => Host.dotGeneral dot_S800000x7_S7x64_S800000x64_1_0_0_1_n_n none l r) : (⟨S800000x7, .f32⟩ : BufTy).Contents (Elt F) → (⟨S7x64, .f32⟩ : BufTy).Contents (Elt F) → (⟨S800000x64, .f32⟩ : BufTy).Contents (Elt F)),
    StableHlo.binary main_v220 main_v221 main_v222 (addf : (⟨S800000x64, .f32⟩ : BufTy).Contents (Elt F) → (⟨S800000x64, .f32⟩ : BufTy).Contents (Elt F) → (⟨S800000x64, .f32⟩ : BufTy).Contents (Elt F)),
    StableHlo.unary main_v201 main_v223 (broadcastInDim S1x64 ![1] bcast_S64_S1x64_1 : (⟨S64, .f32⟩ : BufTy).Contents (Elt F) → (⟨S1x64, .f32⟩ : BufTy).Contents (Elt F)),
    StableHlo.unary main_v223 main_v224 (broadcastInDim S800000x64 ![0, 1] bcast_S1x64_S800000x64_0_1 : (⟨S1x64, .f32⟩ : BufTy).Contents (Elt F) → (⟨S800000x64, .f32⟩ : BufTy).Contents (Elt F)),
    StableHlo.binary main_v222 main_v224 main_v225 (addf : (⟨S800000x64, .f32⟩ : BufTy).Contents (Elt F) → (⟨S800000x64, .f32⟩ : BufTy).Contents (Elt F) → (⟨S800000x64, .f32⟩ : BufTy).Contents (Elt F)),
    StableHlo.TRef.nullary main_call12.cst (constant S_ .f32 0x00000000#32),
    StableHlo.TRef.unary main_call12.cst main_call12.v0 (broadcastInDim S800000x64 ![] bcast_S_S800000x64),
    StableHlo.TRef.binary (.of main_v225) main_call12.v0 main_call12.v1 maximumf ]

/-- Operations 333 to 341 of the program, in order. -/
abbrev seg28 : List (HloOp τ sig (Elt F)) :=
  [ StableHlo.nullary main_cst_33 (constant S_ .f32 0x00000000#32),
    StableHlo.unary main_cst_33 main_v227 (broadcastInDim S50000x64 ![] bcast_S_S50000x64 : (⟨S_, .f32⟩ : BufTy).Contents (Elt F) → (⟨S50000x64, .f32⟩ : BufTy).Contents (Elt F)),
    StableHlo.unary main_v3 main_v228 (broadcastInDim S800000x1 ![0] bcast_S800000_S800000x1_0 : (⟨S800000, .i32⟩ : BufTy).Contents (Elt F) → (⟨S800000x1, .i32⟩ : BufTy).Contents (Elt F)),
    StableHlo.ternary main_v227 main_v228 main_v226 main_v229 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v197 main_v229 main_v230 (addf : (⟨S50000x64, .f32⟩ : BufTy).Contents (Elt F) → (⟨S50000x64, .f32⟩ : BufTy).Contents (Elt F) → (⟨S50000x64, .f32⟩ : BufTy).Contents (Elt F)),
    StableHlo.binary main_v230 main_v203 main_v231 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v205 main_v232 (broadcastInDim S1x64 ![1] bcast_S64_S1x64_1 : (⟨S64, .f32⟩ : BufTy).Contents (Elt F) → (⟨S1x64, .f32⟩ : BufTy).Contents (Elt F)),
    StableHlo.unary main_v232 main_v233 (broadcastInDim S50000x64 ![0, 1] bcast_S1x64_S50000x64_0_1 : (⟨S1x64, .f32⟩ : BufTy).Contents (Elt F) → (⟨S50000x64, .f32⟩ : BufTy).Contents (Elt F)),
    StableHlo.binary main_v231 main_v233 main_v234 (addf : (⟨S50000x64, .f32⟩ : BufTy).Contents (Elt F) → (⟨S50000x64, .f32⟩ : BufTy).Contents (Elt F) → (⟨S50000x64, .f32⟩ : BufTy).Contents (Elt F)) ]

/-- Operations 342 to 346 of the program, in order. -/
abbrev seg29 : List (HloOp τ sig (Elt F)) :=
  [ StableHlo.nullary main_cst_34 (constant S_ .f32 0x00000000#32),
    StableHlo.binary main_v234 main_cst_34 main_v235 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_35 (constant S_ .f32 0x47435000#32),
    StableHlo.unary main_cst_35 main_v236 (broadcastInDim S64 ![] bcast_S_S64 : (⟨S_, .f32⟩ : BufTy).Contents (Elt F) → (⟨S64, .f32⟩ : BufTy).Contents (Elt F)),
    StableHlo.binary main_v235 main_v236 main_v237 (Host.divf : (⟨S64, .f32⟩ : BufTy).Contents (Elt F) → (⟨S64, .f32⟩ : BufTy).Contents (Elt F) → (⟨S64, .f32⟩ : BufTy).Contents (Elt F)) ]

/-- Operations 347 to 369 of the program, in order. -/
abbrev seg30 : List (HloOp τ sig (Elt F)) :=
  [ StableHlo.nullary main_c_36 (constantI S_ 32 0#32),
    StableHlo.TRef.nullary main_call13.cst (constant S_ .f32 0x00000000#32),
    StableHlo.TRef.binary (.of main_v234) main_call13.cst main_call13.v0 (fun x v => Host.reduceAdd x v reducesTo_S50000x64_S64_d0 h_S_),
    StableHlo.TRef.unary main_call13.v0 main_call13.v1 (broadcastInDim S1x64 ![1] bcast_S64_S1x64_1),
    StableHlo.TRef.nullary main_call13.cst_0 (constant S_ .f32 0x47435000#32),
    StableHlo.TRef.unary main_call13.cst_0 main_call13.v2 (broadcastInDim S1x64 ![] bcast_S_S1x64),
    StableHlo.TRef.binary main_call13.v1 main_call13.v2 main_call13.v3 Host.divf,
    StableHlo.TRef.unary main_call13.v3 main_call13.v4 (broadcastInDim S50000x64 ![0, 1] bcast_S1x64_S50000x64_0_1),
    StableHlo.TRef.binary (.of main_v234) main_call13.v4 main_call13.v5 subf,
    StableHlo.TRef.binary main_call13.v5 main_call13.v5 main_call13.v6 mulf,
    StableHlo.TRef.unary (.of main_c_36) main_call13.v7 (sitofp .f32),
    StableHlo.TRef.nullary main_call13.cst_1 (constant S_ .f32 0x47435000#32),
    StableHlo.TRef.binary main_call13.cst_1 main_call13.v7 main_call13.v8 subf,
    StableHlo.TRef.nullary main_call13.cst_2 (constant S_ .f32 0x00000000#32),
    StableHlo.TRef.binary main_call13.v6 main_call13.cst_2 main_call13.v9 (fun x v => Host.reduceAdd x v reducesTo_S50000x64_S64_d0 h_S_),
    StableHlo.TRef.unary main_call13.v8 main_call13.v10 (broadcastInDim S64 ![] bcast_S_S64),
    StableHlo.TRef.binary main_call13.v9 main_call13.v10 main_call13.v11 Host.divf,
    StableHlo.TRef.nullary main_call13.cst_3 (constant S_ .f32 0x00000000#32),
    StableHlo.TRef.binary main_call13.v8 main_call13.cst_3 main_call13.v12 (cmpf .ogt),
    StableHlo.TRef.nullary main_call13.cst_4 (constant S_ .f32 0x7FC00000#32),
    StableHlo.TRef.unary main_call13.cst_4 main_call13.call0.v0 id,
    StableHlo.TRef.unary main_call13.call0.v0 main_call13.call0.v1 (broadcastInDim S64 ![] bcast_S_S64),
    StableHlo.TRef.ternary main_call13.v12 main_call13.v11 main_call13.call0.v1 main_call13.call0.v2 (fun p a b => select (broadcastInDim S64 ![] bcast_S_S64 p) a b) ]

/-- Operations 370 to 391 of the program, in order. -/
abbrev seg31 : List (HloOp τ sig (Elt F)) :=
  [ StableHlo.unary main_v237 main_v239 (broadcastInDim S1x64 ![1] bcast_S64_S1x64_1 : (⟨S64, .f32⟩ : BufTy).Contents (Elt F) → (⟨S1x64, .f32⟩ : BufTy).Contents (Elt F)),
    StableHlo.unary main_v239 main_v240 (broadcastInDim S50000x64 ![0, 1] bcast_S1x64_S50000x64_0_1 : (⟨S1x64, .f32⟩ : BufTy).Contents (Elt F) → (⟨S50000x64, .f32⟩ : BufTy).Contents (Elt F)),
    StableHlo.binary main_v234 main_v240 main_v241 (subf : (⟨S50000x64, .f32⟩ : BufTy).Contents (Elt F) → (⟨S50000x64, .f32⟩ : BufTy).Contents (Elt F) → (⟨S50000x64, .f32⟩ : BufTy).Contents (Elt F)),
    StableHlo.nullary main_cst_37 (constant S_ .f32 0x3727C5AC#32),
    StableHlo.unary main_cst_37 main_v242 (broadcastInDim S64 ![] bcast_S_S64 : (⟨S_, .f32⟩ : BufTy).Contents (Elt F) → (⟨S64, .f32⟩ : BufTy).Contents (Elt F)),
    StableHlo.binary main_v238 main_v242 main_v243 (addf : (⟨S64, .f32⟩ : BufTy).Contents (Elt F) → (⟨S64, .f32⟩ : BufTy).Contents (Elt F) → (⟨S64, .f32⟩ : BufTy).Contents (Elt F)),
    StableHlo.unary main_v243 main_v244 (Host.rsqrt : (⟨S64, .f32⟩ : BufTy).Contents (Elt F) → (⟨S64, .f32⟩ : BufTy).Contents (Elt F)),
    StableHlo.unary main_v244 main_v245 (broadcastInDim S1x64 ![1] bcast_S64_S1x64_1 : (⟨S64, .f32⟩ : BufTy).Contents (Elt F) → (⟨S1x64, .f32⟩ : BufTy).Contents (Elt F)),
    StableHlo.unary main_v245 main_v246 (broadcastInDim S50000x64 ![0, 1] bcast_S1x64_S50000x64_0_1 : (⟨S1x64, .f32⟩ : BufTy).Contents (Elt F) → (⟨S50000x64, .f32⟩ : BufTy).Contents (Elt F)),
    StableHlo.binary main_v241 main_v246 main_v247 (mulf : (⟨S50000x64, .f32⟩ : BufTy).Contents (Elt F) → (⟨S50000x64, .f32⟩ : BufTy).Contents (Elt F) → (⟨S50000x64, .f32⟩ : BufTy).Contents (Elt F)),
    StableHlo.unary main_v207 main_v248 (broadcastInDim S1x64 ![1] bcast_S64_S1x64_1 : (⟨S64, .f32⟩ : BufTy).Contents (Elt F) → (⟨S1x64, .f32⟩ : BufTy).Contents (Elt F)),
    StableHlo.unary main_v248 main_v249 (broadcastInDim S50000x64 ![0, 1] bcast_S1x64_S50000x64_0_1 : (⟨S1x64, .f32⟩ : BufTy).Contents (Elt F) → (⟨S50000x64, .f32⟩ : BufTy).Contents (Elt F)),
    StableHlo.binary main_v247 main_v249 main_v250 (mulf : (⟨S50000x64, .f32⟩ : BufTy).Contents (Elt F) → (⟨S50000x64, .f32⟩ : BufTy).Contents (Elt F) → (⟨S50000x64, .f32⟩ : BufTy).Contents (Elt F)),
    StableHlo.unary main_v209 main_v251 (broadcastInDim S1x64 ![1] bcast_S64_S1x64_1 : (⟨S64, .f32⟩ : BufTy).Contents (Elt F) → (⟨S1x64, .f32⟩ : BufTy).Contents (Elt F)),
    StableHlo.unary main_v251 main_v252 (broadcastInDim S50000x64 ![0, 1] bcast_S1x64_S50000x64_0_1 : (⟨S1x64, .f32⟩ : BufTy).Contents (Elt F) → (⟨S50000x64, .f32⟩ : BufTy).Contents (Elt F)),
    StableHlo.binary main_v250 main_v252 main_v253 (addf : (⟨S50000x64, .f32⟩ : BufTy).Contents (Elt F) → (⟨S50000x64, .f32⟩ : BufTy).Contents (Elt F) → (⟨S50000x64, .f32⟩ : BufTy).Contents (Elt F)),
    StableHlo.nullary main_cst_38 (constant S_ .f32 0x00000000#32),
    StableHlo.unary main_cst_38 main_v254 (broadcastInDim S50000x64 ![] bcast_S_S50000x64 : (⟨S_, .f32⟩ : BufTy).Contents (Elt F) → (⟨S50000x64, .f32⟩ : BufTy).Contents (Elt F)),
    StableHlo.binary main_v253 main_v254 main_v255 (cmpf .oge : (⟨S50000x64, .f32⟩ : BufTy).Contents (Elt F) → (⟨S50000x64, .f32⟩ : BufTy).Contents (Elt F) → (⟨S50000x64, .i1⟩ : BufTy).Contents (Elt F)),
    StableHlo.nullary main_cst_39 (constant S_ .f32 0x3C23D70A#32),
    StableHlo.unary main_cst_39 main_v256 (broadcastInDim S50000x64 ![] bcast_S_S50000x64 : (⟨S_, .f32⟩ : BufTy).Contents (Elt F) → (⟨S50000x64, .f32⟩ : BufTy).Contents (Elt F)),
    StableHlo.binary main_v256 main_v253 main_v257 (mulf : (⟨S50000x64, .f32⟩ : BufTy).Contents (Elt F) → (⟨S50000x64, .f32⟩ : BufTy).Contents (Elt F) → (⟨S50000x64, .f32⟩ : BufTy).Contents (Elt F)) ]

/-- Operations 392 to 403 of the program, in order. -/
abbrev seg32 : List (HloOp τ sig (Elt F)) :=
  [ StableHlo.TRef.ternary (.of main_v255) (.of main_v253) (.of main_v257) main_call14.v0 select,
    StableHlo.binary main_v258 main_v211 main_v259 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v213 main_v260 (broadcastInDim S1x64 ![1] bcast_S64_S1x64_1 : (⟨S64, .f32⟩ : BufTy).Contents (Elt F) → (⟨S1x64, .f32⟩ : BufTy).Contents (Elt F)),
    StableHlo.unary main_v260 main_v261 (broadcastInDim S50000x64 ![0, 1] bcast_S1x64_S50000x64_0_1 : (⟨S1x64, .f32⟩ : BufTy).Contents (Elt F) → (⟨S50000x64, .f32⟩ : BufTy).Contents (Elt F)),
    StableHlo.binary main_v259 main_v261 main_v262 (addf : (⟨S50000x64, .f32⟩ : BufTy).Contents (Elt F) → (⟨S50000x64, .f32⟩ : BufTy).Contents (Elt F) → (⟨S50000x64, .f32⟩ : BufTy).Contents (Elt F)),
    StableHlo.nullary main_cst_40 (constant S_ .f32 0x00000000#32),
    StableHlo.unary main_cst_40 main_v263 (broadcastInDim S50000x64 ![] bcast_S_S50000x64 : (⟨S_, .f32⟩ : BufTy).Contents (Elt F) → (⟨S50000x64, .f32⟩ : BufTy).Contents (Elt F)),
    StableHlo.binary main_v262 main_v263 main_v264 (cmpf .oge : (⟨S50000x64, .f32⟩ : BufTy).Contents (Elt F) → (⟨S50000x64, .f32⟩ : BufTy).Contents (Elt F) → (⟨S50000x64, .i1⟩ : BufTy).Contents (Elt F)),
    StableHlo.nullary main_cst_41 (constant S_ .f32 0x3C23D70A#32),
    StableHlo.unary main_cst_41 main_v265 (broadcastInDim S50000x64 ![] bcast_S_S50000x64 : (⟨S_, .f32⟩ : BufTy).Contents (Elt F) → (⟨S50000x64, .f32⟩ : BufTy).Contents (Elt F)),
    StableHlo.binary main_v265 main_v262 main_v266 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v264) (.of main_v262) (.of main_v266) main_call15.v0 select ]

/-- Operations 404 to 419 of the program, in order. -/
abbrev seg33 : List (HloOp τ sig (Elt F)) :=
  [ StableHlo.unary main_arg11 main_v268 ((extractStridedSlice S1x7x64 ![3, 0, 0] · slices_S4x7x64_S1x7x64_3_0_0) : (⟨S4x7x64, .f32⟩ : BufTy).Contents (Elt F) → (⟨S1x7x64, .f32⟩ : BufTy).Contents (Elt F)),
    StableHlo.reshape main_v268 main_v269 rfl shapeCasts_S1x7x64_S7x64,
    StableHlo.unary main_arg12 main_v270 ((extractStridedSlice S1x64 ![3, 0] · slices_S4x64_S1x64_3_0) : (⟨S4x64, .f32⟩ : BufTy).Contents (Elt F) → (⟨S1x64, .f32⟩ : BufTy).Contents (Elt F)),
    StableHlo.reshape main_v270 main_v271 rfl shapeCasts_S1x64_S64,
    StableHlo.unary main_arg13 main_v272 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v272 main_v273 rfl shapeCasts_S1x64x64_S64x64,
    StableHlo.unary main_arg14 main_v274 ((extractStridedSlice S1x64 ![3, 0] · slices_S4x64_S1x64_3_0) : (⟨S4x64, .f32⟩ : BufTy).Contents (Elt F) → (⟨S1x64, .f32⟩ : BufTy).Contents (Elt F)),
    StableHlo.reshape main_v274 main_v275 rfl shapeCasts_S1x64_S64,
    StableHlo.unary main_arg15 main_v276 ((extractStridedSlice S1x64 ![3, 0] · slices_S4x64_S1x64_3_0) : (⟨S4x64, .f32⟩ : BufTy).Contents (Elt F) → (⟨S1x64, .f32⟩ : BufTy).Contents (Elt F)),
    StableHlo.reshape main_v276 main_v277 rfl shapeCasts_S1x64_S64,
    StableHlo.unary main_arg16 main_v278 ((extractStridedSlice S1x64 ![3, 0] · slices_S4x64_S1x64_3_0) : (⟨S4x64, .f32⟩ : BufTy).Contents (Elt F) → (⟨S1x64, .f32⟩ : BufTy).Contents (Elt F)),
    StableHlo.reshape main_v278 main_v279 rfl shapeCasts_S1x64_S64,
    StableHlo.unary main_arg17 main_v280 ((extractStridedSlice S1x64x64 ![3, 0, 0] · slices_S4x64x64_S1x64x64_3_0_0) : (⟨S4x64x64, .f32⟩ : BufTy).Contents (Elt F) → (⟨S1x64x64, .f32⟩ : BufTy).Contents (Elt F)),
    StableHlo.reshape main_v280 main_v281 rfl shapeCasts_S1x64x64_S64x64,
    StableHlo.unary main_arg18 main_v282 ((extractStridedSlice S1x64 ![3, 0] · slices_S4x64_S1x64_3_0) : (⟨S4x64, .f32⟩ : BufTy).Contents (Elt F) → (⟨S1x64, .f32⟩ : BufTy).Contents (Elt F)),
    StableHlo.reshape main_v282 main_v283 rfl shapeCasts_S1x64_S64 ]

/-- Operations 420 to 427 of the program, in order. -/
abbrev seg34 : List (HloOp τ sig (Elt F)) :=
  [ StableHlo.nullary main_c_42 (constantI S_ 32 0#32),
    StableHlo.unary main_c_42 main_v284 (broadcastInDim S800000 ![] bcast_S_S800000 : (⟨S_, .i32⟩ : BufTy).Contents (Elt F) → (⟨S800000, .i32⟩ : BufTy).Contents (Elt F)),
    StableHlo.binary main_v1 main_v284 main_v285 (cmpi .slt : (⟨S800000, .i32⟩ : BufTy).Contents (Elt F) → (⟨S800000, .i32⟩ : BufTy).Contents (Elt F) → (⟨S800000, .i1⟩ : BufTy).Contents (Elt F)),
    StableHlo.nullary main_c_43 (constantI S_ 32 50000#32),
    StableHlo.unary main_c_43 main_v286 (broadcastInDim S800000 ![] bcast_S_S800000 : (⟨S_, .i32⟩ : BufTy).Contents (Elt F) → (⟨S800000, .i32⟩ : BufTy).Contents (Elt F)),
    StableHlo.binary main_v1 main_v286 main_v287 (addi : (⟨S800000, .i32⟩ : BufTy).Contents (Elt F) → (⟨S800000, .i32⟩ : BufTy).Contents (Elt F) → (⟨S800000, .i32⟩ : BufTy).Contents (Elt F)),
    StableHlo.ternary main_v285 main_v287 main_v1 main_v288 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v288 main_v289 (broadcastInDim S800000x1 ![0] bcast_S800000_S800000x1_0 : (⟨S800000, .i32⟩ : BufTy).Contents (Elt F) → (⟨S800000x1, .i32⟩ : BufTy).Contents (Elt F)) ]

/-- Operations 428 to 436 of the program, in order. -/
abbrev seg35 : List (HloOp τ sig (Elt F)) :=
  [ StableHlo.binary main_v267 main_v289 main_v290 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.binary main_arg2 main_v269 main_v291 ((fun l r => Host.dotGeneral dot_S800000x7_S7x64_S800000x64_1_0_0_1_n_n none l r) : (⟨S800000x7, .f32⟩ : BufTy).Contents (Elt F) → (⟨S7x64, .f32⟩ : BufTy).Contents (Elt F) → (⟨S800000x64, .f32⟩ : BufTy).Contents (Elt F)),
    StableHlo.binary main_v290 main_v291 main_v292 (addf : (⟨S800000x64, .f32⟩ : BufTy).Contents (Elt F) → (⟨S800000x64, .f32⟩ : BufTy).Contents (Elt F) → (⟨S800000x64, .f32⟩ : BufTy).Contents (Elt F)),
    StableHlo.unary main_v271 main_v293 (broadcastInDim S1x64 ![1] bcast_S64_S1x64_1 : (⟨S64, .f32⟩ : BufTy).Contents (Elt F) → (⟨S1x64, .f32⟩ : BufTy).Contents (Elt F)),
    StableHlo.unary main_v293 main_v294 (broadcastInDim S800000x64 ![0, 1] bcast_S1x64_S800000x64_0_1 : (⟨S1x64, .f32⟩ : BufTy).Contents (Elt F) → (⟨S800000x64, .f32⟩ : BufTy).Contents (Elt F)),
    StableHlo.binary main_v292 main_v294 main_v295 (addf : (⟨S800000x64, .f32⟩ : BufTy).Contents (Elt F) → (⟨S800000x64, .f32⟩ : BufTy).Contents (Elt F) → (⟨S800000x64, .f32⟩ : BufTy).Contents (Elt F)),
    StableHlo.TRef.nullary main_call16.cst (constant S_ .f32 0x00000000#32),
    StableHlo.TRef.unary main_call16.cst main_call16.v0 (broadcastInDim S800000x64 ![] bcast_S_S800000x64),
    StableHlo.TRef.binary (.of main_v295) main_call16.v0 main_call16.v1 maximumf ]

/-- Operations 437 to 445 of the program, in order. -/
abbrev seg36 : List (HloOp τ sig (Elt F)) :=
  [ StableHlo.nullary main_cst_44 (constant S_ .f32 0x00000000#32),
    StableHlo.unary main_cst_44 main_v297 (broadcastInDim S50000x64 ![] bcast_S_S50000x64 : (⟨S_, .f32⟩ : BufTy).Contents (Elt F) → (⟨S50000x64, .f32⟩ : BufTy).Contents (Elt F)),
    StableHlo.unary main_v3 main_v298 (broadcastInDim S800000x1 ![0] bcast_S800000_S800000x1_0 : (⟨S800000, .i32⟩ : BufTy).Contents (Elt F) → (⟨S800000x1, .i32⟩ : BufTy).Contents (Elt F)),
    StableHlo.ternary main_v297 main_v298 main_v296 main_v299 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.binary main_v267 main_v299 main_v300 (addf : (⟨S50000x64, .f32⟩ : BufTy).Contents (Elt F) → (⟨S50000x64, .f32⟩ : BufTy).Contents (Elt F) → (⟨S50000x64, .f32⟩ : BufTy).Contents (Elt F)),
    StableHlo.binary main_v300 main_v273 main_v301 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v275 main_v302 (broadcastInDim S1x64 ![1] bcast_S64_S1x64_1 : (⟨S64, .f32⟩ : BufTy).Contents (Elt F) → (⟨S1x64, .f32⟩ : BufTy).Contents (Elt F)),
    StableHlo.unary main_v302 main_v303 (broadcastInDim S50000x64 ![0, 1] bcast_S1x64_S50000x64_0_1 : (⟨S1x64, .f32⟩ : BufTy).Contents (Elt F) → (⟨S50000x64, .f32⟩ : BufTy).Contents (Elt F)),
    StableHlo.binary main_v301 main_v303 main_v304 (addf : (⟨S50000x64, .f32⟩ : BufTy).Contents (Elt F) → (⟨S50000x64, .f32⟩ : BufTy).Contents (Elt F) → (⟨S50000x64, .f32⟩ : BufTy).Contents (Elt F)) ]

/-- Operations 446 to 450 of the program, in order. -/
abbrev seg37 : List (HloOp τ sig (Elt F)) :=
  [ StableHlo.nullary main_cst_45 (constant S_ .f32 0x00000000#32),
    StableHlo.binary main_v304 main_cst_45 main_v305 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_46 (constant S_ .f32 0x47435000#32),
    StableHlo.unary main_cst_46 main_v306 (broadcastInDim S64 ![] bcast_S_S64 : (⟨S_, .f32⟩ : BufTy).Contents (Elt F) → (⟨S64, .f32⟩ : BufTy).Contents (Elt F)),
    StableHlo.binary main_v305 main_v306 main_v307 (Host.divf : (⟨S64, .f32⟩ : BufTy).Contents (Elt F) → (⟨S64, .f32⟩ : BufTy).Contents (Elt F) → (⟨S64, .f32⟩ : BufTy).Contents (Elt F)) ]

/-- Operations 451 to 473 of the program, in order. -/
abbrev seg38 : List (HloOp τ sig (Elt F)) :=
  [ StableHlo.nullary main_c_47 (constantI S_ 32 0#32),
    StableHlo.TRef.nullary main_call17.cst (constant S_ .f32 0x00000000#32),
    StableHlo.TRef.binary (.of main_v304) main_call17.cst main_call17.v0 (fun x v => Host.reduceAdd x v reducesTo_S50000x64_S64_d0 h_S_),
    StableHlo.TRef.unary main_call17.v0 main_call17.v1 (broadcastInDim S1x64 ![1] bcast_S64_S1x64_1),
    StableHlo.TRef.nullary main_call17.cst_0 (constant S_ .f32 0x47435000#32),
    StableHlo.TRef.unary main_call17.cst_0 main_call17.v2 (broadcastInDim S1x64 ![] bcast_S_S1x64),
    StableHlo.TRef.binary main_call17.v1 main_call17.v2 main_call17.v3 Host.divf,
    StableHlo.TRef.unary main_call17.v3 main_call17.v4 (broadcastInDim S50000x64 ![0, 1] bcast_S1x64_S50000x64_0_1),
    StableHlo.TRef.binary (.of main_v304) main_call17.v4 main_call17.v5 subf,
    StableHlo.TRef.binary main_call17.v5 main_call17.v5 main_call17.v6 mulf,
    StableHlo.TRef.unary (.of main_c_47) main_call17.v7 (sitofp .f32),
    StableHlo.TRef.nullary main_call17.cst_1 (constant S_ .f32 0x47435000#32),
    StableHlo.TRef.binary main_call17.cst_1 main_call17.v7 main_call17.v8 subf,
    StableHlo.TRef.nullary main_call17.cst_2 (constant S_ .f32 0x00000000#32),
    StableHlo.TRef.binary main_call17.v6 main_call17.cst_2 main_call17.v9 (fun x v => Host.reduceAdd x v reducesTo_S50000x64_S64_d0 h_S_),
    StableHlo.TRef.unary main_call17.v8 main_call17.v10 (broadcastInDim S64 ![] bcast_S_S64),
    StableHlo.TRef.binary main_call17.v9 main_call17.v10 main_call17.v11 Host.divf,
    StableHlo.TRef.nullary main_call17.cst_3 (constant S_ .f32 0x00000000#32),
    StableHlo.TRef.binary main_call17.v8 main_call17.cst_3 main_call17.v12 (cmpf .ogt),
    StableHlo.TRef.nullary main_call17.cst_4 (constant S_ .f32 0x7FC00000#32),
    StableHlo.TRef.unary main_call17.cst_4 main_call17.call0.v0 id,
    StableHlo.TRef.unary main_call17.call0.v0 main_call17.call0.v1 (broadcastInDim S64 ![] bcast_S_S64),
    StableHlo.TRef.ternary main_call17.v12 main_call17.v11 main_call17.call0.v1 main_call17.call0.v2 (fun p a b => select (broadcastInDim S64 ![] bcast_S_S64 p) a b) ]

/-- Operations 474 to 474 of the program, in order. -/
abbrev seg39 : List (HloOp τ sig (Elt F)) :=
  [ StableHlo.unary main_v307 main_v309 (broadcastInDim S1x64 ![1] bcast_S64_S1x64_1 : (⟨S64, .f32⟩ : BufTy).Contents (Elt F) → (⟨S1x64, .f32⟩ : BufTy).Contents (Elt F)) ]

/-- Operations 475 to 507 of the program, in order. -/
abbrev seg40 : List (HloOp τ sig (Elt F)) :=
  [ StableHlo.unary main_v309 main_v310 (broadcastInDim S50000x64 ![0, 1] bcast_S1x64_S50000x64_0_1 : (⟨S1x64, .f32⟩ : BufTy).Contents (Elt F) → (⟨S50000x64, .f32⟩ : BufTy).Contents (Elt F)),
    StableHlo.binary main_v304 main_v310 main_v311 (subf : (⟨S50000x64, .f32⟩ : BufTy).Contents (Elt F) → (⟨S50000x64, .f32⟩ : BufTy).Contents (Elt F) → (⟨S50000x64, .f32⟩ : BufTy).Contents (Elt F)),
    StableHlo.nullary main_cst_48 (constant S_ .f32 0x3727C5AC#32),
    StableHlo.unary main_cst_48 main_v312 (broadcastInDim S64 ![] bcast_S_S64 : (⟨S_, .f32⟩ : BufTy).Contents (Elt F) → (⟨S64, .f32⟩ : BufTy).Contents (Elt F)),
    StableHlo.binary main_v308 main_v312 main_v313 (addf : (⟨S64, .f32⟩ : BufTy).Contents (Elt F) → (⟨S64, .f32⟩ : BufTy).Contents (Elt F) → (⟨S64, .f32⟩ : BufTy).Contents (Elt F)),
    StableHlo.unary main_v313 main_v314 (Host.rsqrt : (⟨S64, .f32⟩ : BufTy).Contents (Elt F) → (⟨S64, .f32⟩ : BufTy).Contents (Elt F)),
    StableHlo.unary main_v314 main_v315 (broadcastInDim S1x64 ![1] bcast_S64_S1x64_1 : (⟨S64, .f32⟩ : BufTy).Contents (Elt F) → (⟨S1x64, .f32⟩ : BufTy).Contents (Elt F)),
    StableHlo.unary main_v315 main_v316 (broadcastInDim S50000x64 ![0, 1] bcast_S1x64_S50000x64_0_1 : (⟨S1x64, .f32⟩ : BufTy).Contents (Elt F) → (⟨S50000x64, .f32⟩ : BufTy).Contents (Elt F)),
    StableHlo.binary main_v311 main_v316 main_v317 (mulf : (⟨S50000x64, .f32⟩ : BufTy).Contents (Elt F) → (⟨S50000x64, .f32⟩ : BufTy).Contents (Elt F) → (⟨S50000x64, .f32⟩ : BufTy).Contents (Elt F)),
    StableHlo.unary main_v277 main_v318 (broadcastInDim S1x64 ![1] bcast_S64_S1x64_1 : (⟨S64, .f32⟩ : BufTy).Contents (Elt F) → (⟨S1x64, .f32⟩ : BufTy).Contents (Elt F)),
    StableHlo.unary main_v318 main_v319 (broadcastInDim S50000x64 ![0, 1] bcast_S1x64_S50000x64_0_1 : (⟨S1x64, .f32⟩ : BufTy).Contents (Elt F) → (⟨S50000x64, .f32⟩ : BufTy).Contents (Elt F)),
    StableHlo.binary main_v317 main_v319 main_v320 (mulf : (⟨S50000x64, .f32⟩ : BufTy).Contents (Elt F) → (⟨S50000x64, .f32⟩ : BufTy).Contents (Elt F) → (⟨S50000x64, .f32⟩ : BufTy).Contents (Elt F)),
    StableHlo.unary main_v279 main_v321 (broadcastInDim S1x64 ![1] bcast_S64_S1x64_1 : (⟨S64, .f32⟩ : BufTy).Contents (Elt F) → (⟨S1x64, .f32⟩ : BufTy).Contents (Elt F)),
    StableHlo.unary main_v321 main_v322 (broadcastInDim S50000x64 ![0, 1] bcast_S1x64_S50000x64_0_1 : (⟨S1x64, .f32⟩ : BufTy).Contents (Elt F) → (⟨S50000x64, .f32⟩ : BufTy).Contents (Elt F)),
    StableHlo.binary main_v320 main_v322 main_v323 (addf : (⟨S50000x64, .f32⟩ : BufTy).Contents (Elt F) → (⟨S50000x64, .f32⟩ : BufTy).Contents (Elt F) → (⟨S50000x64, .f32⟩ : BufTy).Contents (Elt F)),
    StableHlo.nullary main_cst_49 (constant S_ .f32 0x00000000#32),
    StableHlo.unary main_cst_49 main_v324 (broadcastInDim S50000x64 ![] bcast_S_S50000x64 : (⟨S_, .f32⟩ : BufTy).Contents (Elt F) → (⟨S50000x64, .f32⟩ : BufTy).Contents (Elt F)),
    StableHlo.binary main_v323 main_v324 main_v325 (cmpf .oge : (⟨S50000x64, .f32⟩ : BufTy).Contents (Elt F) → (⟨S50000x64, .f32⟩ : BufTy).Contents (Elt F) → (⟨S50000x64, .i1⟩ : BufTy).Contents (Elt F)),
    StableHlo.nullary main_cst_50 (constant S_ .f32 0x3C23D70A#32),
    StableHlo.unary main_cst_50 main_v326 (broadcastInDim S50000x64 ![] bcast_S_S50000x64 : (⟨S_, .f32⟩ : BufTy).Contents (Elt F) → (⟨S50000x64, .f32⟩ : BufTy).Contents (Elt F)),
    StableHlo.binary main_v326 main_v323 main_v327 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v325) (.of main_v323) (.of main_v327) main_call18.v0 select,
    StableHlo.binary main_v328 main_v281 main_v329 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_v283 main_v330 (broadcastInDim S1x64 ![1] bcast_S64_S1x64_1 : (⟨S64, .f32⟩ : BufTy).Contents (Elt F) → (⟨S1x64, .f32⟩ : BufTy).Contents (Elt F)),
    StableHlo.unary main_v330 main_v331 (broadcastInDim S50000x64 ![0, 1] bcast_S1x64_S50000x64_0_1 : (⟨S1x64, .f32⟩ : BufTy).Contents (Elt F) → (⟨S50000x64, .f32⟩ : BufTy).Contents (Elt F)),
    StableHlo.binary main_v329 main_v331 main_v332 (addf : (⟨S50000x64, .f32⟩ : BufTy).Contents (Elt F) → (⟨S50000x64, .f32⟩ : BufTy).Contents (Elt F) → (⟨S50000x64, .f32⟩ : BufTy).Contents (Elt F)),
    StableHlo.nullary main_cst_51 (constant S_ .f32 0x00000000#32),
    StableHlo.unary main_cst_51 main_v333 (broadcastInDim S50000x64 ![] bcast_S_S50000x64 : (⟨S_, .f32⟩ : BufTy).Contents (Elt F) → (⟨S50000x64, .f32⟩ : BufTy).Contents (Elt F)),
    StableHlo.binary main_v332 main_v333 main_v334 (cmpf .oge : (⟨S50000x64, .f32⟩ : BufTy).Contents (Elt F) → (⟨S50000x64, .f32⟩ : BufTy).Contents (Elt F) → (⟨S50000x64, .i1⟩ : BufTy).Contents (Elt F)),
    StableHlo.nullary main_cst_52 (constant S_ .f32 0x3C23D70A#32),
    StableHlo.unary main_cst_52 main_v335 (broadcastInDim S50000x64 ![] bcast_S_S50000x64 : (⟨S_, .f32⟩ : BufTy).Contents (Elt F) → (⟨S50000x64, .f32⟩ : BufTy).Contents (Elt F)),
    StableHlo.binary main_v335 main_v332 main_v336 (mulf : (⟨S50000x64, .f32⟩ : BufTy).Contents (Elt F) → (⟨S50000x64, .f32⟩ : BufTy).Contents (Elt F) → (⟨S50000x64, .f32⟩ : BufTy).Contents (Elt F)),
    StableHlo.TRef.ternary (.of main_v334) (.of main_v332) (.of main_v336) main_call19.v0 select ]

/-- Operations 508 to 522 of the program, in order. -/
abbrev seg41 : List (HloOp τ sig (Elt F)) :=
  [ StableHlo.binary main_v337 main_arg19 main_v338 ((fun l r => Host.dotGeneral dot_S50000x64_S64x500_S50000x500_1_0_0_1_n_n none l r) : (⟨S50000x64, .f32⟩ : BufTy).Contents (Elt F) → (⟨S64x500, .f32⟩ : BufTy).Contents (Elt F) → (⟨S50000x500, .f32⟩ : BufTy).Contents (Elt F)),
    StableHlo.unary main_arg20 main_v339 (broadcastInDim S1x500 ![1] bcast_S500_S1x500_1 : (⟨S500, .f32⟩ : BufTy).Contents (Elt F) → (⟨S1x500, .f32⟩ : BufTy).Contents (Elt F)),
    StableHlo.unary main_v339 main_v340 (broadcastInDim S50000x500 ![0, 1] bcast_S1x500_S50000x500_0_1 : (⟨S1x500, .f32⟩ : BufTy).Contents (Elt F) → (⟨S50000x500, .f32⟩ : BufTy).Contents (Elt F)),
    StableHlo.binary main_v338 main_v340 main_v341 (addf : (⟨S50000x500, .f32⟩ : BufTy).Contents (Elt F) → (⟨S50000x500, .f32⟩ : BufTy).Contents (Elt F) → (⟨S50000x500, .f32⟩ : BufTy).Contents (Elt F)),
    StableHlo.nullary main_cst_53 (constant S_ .f32 0x00000000#32),
    StableHlo.unary main_cst_53 main_v342 (broadcastInDim S50000x500 ![] bcast_S_S50000x500 : (⟨S_, .f32⟩ : BufTy).Contents (Elt F) → (⟨S50000x500, .f32⟩ : BufTy).Contents (Elt F)),
    StableHlo.binary main_v341 main_v342 main_v343 (cmpf .oge : (⟨S50000x500, .f32⟩ : BufTy).Contents (Elt F) → (⟨S50000x500, .f32⟩ : BufTy).Contents (Elt F) → (⟨S50000x500, .i1⟩ : BufTy).Contents (Elt F)),
    StableHlo.nullary main_cst_54 (constant S_ .f32 0x3C23D70A#32),
    StableHlo.unary main_cst_54 main_v344 (broadcastInDim S50000x500 ![] bcast_S_S50000x500 : (⟨S_, .f32⟩ : BufTy).Contents (Elt F) → (⟨S50000x500, .f32⟩ : BufTy).Contents (Elt F)),
    StableHlo.binary main_v344 main_v341 main_v345 (mulf : (⟨S50000x500, .f32⟩ : BufTy).Contents (Elt F) → (⟨S50000x500, .f32⟩ : BufTy).Contents (Elt F) → (⟨S50000x500, .f32⟩ : BufTy).Contents (Elt F)),
    StableHlo.TRef.ternary (.of main_v343) (.of main_v341) (.of main_v345) main_call20.v0 select,
    StableHlo.binary main_v346 main_arg21 main_v347 ((fun l r => Host.dotGeneral dot_S50000x500_S500x1_S50000x1_1_0_0_1_n_n none l r) : (⟨S50000x500, .f32⟩ : BufTy).Contents (Elt F) → (⟨S500x1, .f32⟩ : BufTy).Contents (Elt F) → (⟨S50000x1, .f32⟩ : BufTy).Contents (Elt F)),
    StableHlo.unary main_arg22 main_v348 (broadcastInDim S1x1 ![1] bcast_S1_S1x1_1 : (⟨S1, .f32⟩ : BufTy).Contents (Elt F) → (⟨S1x1, .f32⟩ : BufTy).Contents (Elt F)),
    StableHlo.unary main_v348 main_v349 (broadcastInDim S50000x1 ![0, 1] bcast_S1x1_S50000x1_0_1 : (⟨S1x1, .f32⟩ : BufTy).Contents (Elt F) → (⟨S50000x1, .f32⟩ : BufTy).Contents (Elt F)),
    StableHlo.binary main_v347 main_v349 main_v350 (addf : (⟨S50000x1, .f32⟩ : BufTy).Contents (Elt F) → (⟨S50000x1, .f32⟩ : BufTy).Contents (Elt F) → (⟨S50000x1, .f32⟩ : BufTy).Contents (Elt F)) ]

/-- The two index vectors. -/
abbrev opsPre : List (HloOp τ sig (Elt F)) := seg0

/-- Layer 1 of the network. -/
abbrev opsL1 : List (HloOp τ sig (Elt F)) := seg1 ++ seg2 ++ seg3 ++ seg4 ++ seg5 ++ seg6 ++ seg7

/-- Layer 2 of the network. -/
abbrev opsL2 : List (HloOp τ sig (Elt F)) := seg8 ++ seg9 ++ seg10 ++ seg11 ++ seg12 ++ seg13 ++ seg14 ++ seg15

/-- Layer 3 of the network. -/
abbrev opsL3 : List (HloOp τ sig (Elt F)) := seg16 ++ seg17 ++ seg18 ++ seg19 ++ seg20 ++ seg21 ++ seg22 ++ seg23

/-- Layer 4 of the network. -/
abbrev opsL4 : List (HloOp τ sig (Elt F)) := seg24 ++ seg25 ++ seg26 ++ seg27 ++ seg28 ++ seg29 ++ seg30 ++ seg31 ++ seg32

/-- Layer 5 of the network. -/
abbrev opsL5 : List (HloOp τ sig (Elt F)) := seg33 ++ seg34 ++ seg35 ++ seg36 ++ seg37 ++ seg38 ++ seg39 ++ seg40

/-- The output head. -/
abbrev opsHead : List (HloOp τ sig (Elt F)) := seg41

/-- Layer 1: the source column, a negative entry wrapped once. -/
abbrev l1Src : List (HloOp τ sig (Elt F)) := seg1

/-- Layer 1: the edge messages. -/
abbrev l1Msg : List (HloOp τ sig (Elt F)) := seg2

/-- Layer 1: the summed messages and the node map before normalisation. -/
abbrev l1Pre : List (HloOp τ sig (Elt F)) := seg3

/-- Layer 1: the column means. -/
abbrev l1Mean : List (HloOp τ sig (Elt F)) := seg4

/-- Layer 1: the column variances. -/
abbrev l1Var : List (HloOp τ sig (Elt F)) := seg5

/-- Layer 1: normalisation, the second map and the rectifiers. -/
abbrev l1Post : List (HloOp τ sig (Elt F)) := seg6 ++ seg7

/-- Layer 2: the layer's weights sliced out of the stacked arguments. -/
abbrev l2Wts : List (HloOp τ sig (Elt F)) := seg8

/-- Layer 2: the source column, a negative entry wrapped once. -/
abbrev l2Src : List (HloOp τ sig (Elt F)) := seg9

/-- Layer 2: the edge messages. -/
abbrev l2Msg : List (HloOp τ sig (Elt F)) := seg10

/-- Layer 2: the summed messages and the node map before normalisation. -/
abbrev l2Pre : List (HloOp τ sig (Elt F)) := seg11

/-- Layer 2: the column means. -/
abbrev l2Mean : List (HloOp τ sig (Elt F)) := seg12

/-- Layer 2: the column variances. -/
abbrev l2Var : List (HloOp τ sig (Elt F)) := seg13

/-- Layer 2: normalisation, the second map and the rectifiers. -/
abbrev l2Post : List (HloOp τ sig (Elt F)) := seg14 ++ seg15

/-- Layer 3: the layer's weights sliced out of the stacked arguments. -/
abbrev l3Wts : List (HloOp τ sig (Elt F)) := seg16

/-- Layer 3: the source column, a negative entry wrapped once. -/
abbrev l3Src : List (HloOp τ sig (Elt F)) := seg17

/-- Layer 3: the edge messages. -/
abbrev l3Msg : List (HloOp τ sig (Elt F)) := seg18 ++ seg19

/-- Layer 3: the summed messages and the node map before normalisation. -/
abbrev l3Pre : List (HloOp τ sig (Elt F)) := seg20

/-- Layer 3: the column means. -/
abbrev l3Mean : List (HloOp τ sig (Elt F)) := seg21

/-- Layer 3: the column variances. -/
abbrev l3Var : List (HloOp τ sig (Elt F)) := seg22

/-- Layer 3: normalisation, the second map and the rectifiers. -/
abbrev l3Post : List (HloOp τ sig (Elt F)) := seg23

/-- Layer 4: the layer's weights sliced out of the stacked arguments. -/
abbrev l4Wts : List (HloOp τ sig (Elt F)) := seg24 ++ seg25

/-- Layer 4: the source column, a negative entry wrapped once. -/
abbrev l4Src : List (HloOp τ sig (Elt F)) := seg26

/-- Layer 4: the edge messages. -/
abbrev l4Msg : List (HloOp τ sig (Elt F)) := seg27

/-- Layer 4: the summed messages and the node map before normalisation. -/
abbrev l4Pre : List (HloOp τ sig (Elt F)) := seg28

/-- Layer 4: the column means. -/
abbrev l4Mean : List (HloOp τ sig (Elt F)) := seg29

/-- Layer 4: the column variances. -/
abbrev l4Var : List (HloOp τ sig (Elt F)) := seg30

/-- Layer 4: normalisation, the second map and the rectifiers. -/
abbrev l4Post : List (HloOp τ sig (Elt F)) := seg31 ++ seg32

/-- Layer 5: the layer's weights sliced out of the stacked arguments. -/
abbrev l5Wts : List (HloOp τ sig (Elt F)) := seg33

/-- Layer 5: the source column, a negative entry wrapped once. -/
abbrev l5Src : List (HloOp τ sig (Elt F)) := seg34

/-- Layer 5: the edge messages. -/
abbrev l5Msg : List (HloOp τ sig (Elt F)) := seg35

/-- Layer 5: the summed messages and the node map before normalisation. -/
abbrev l5Pre : List (HloOp τ sig (Elt F)) := seg36

/-- Layer 5: the column means. -/
abbrev l5Mean : List (HloOp τ sig (Elt F)) := seg37

/-- Layer 5: the column variances. -/
abbrev l5Var : List (HloOp τ sig (Elt F)) := seg38

/-- Layer 5: normalisation, the second map and the rectifiers. -/
abbrev l5Post : List (HloOp τ sig (Elt F)) := seg39 ++ seg40

/-- Every operation of @main, in program order. -/
abbrev ops : List (HloOp τ sig (Elt F)) :=
  seg0 ++ (seg1 ++ (seg2 ++ (seg3 ++ (seg4 ++ (seg5 ++ (seg6 ++ (seg7 ++ (seg8 ++ (seg9 ++ (seg10 ++ (seg11 ++ (seg12 ++ (seg13 ++ (seg14 ++ (seg15 ++ (seg16 ++ (seg17 ++ (seg18 ++ (seg19 ++ (seg20 ++ (seg21 ++ (seg22 ++ (seg23 ++ (seg24 ++ (seg25 ++ (seg26 ++ (seg27 ++ (seg28 ++ (seg29 ++ (seg30 ++ (seg31 ++ (seg32 ++ (seg33 ++ (seg34 ++ (seg35 ++ (seg36 ++ (seg37 ++ (seg38 ++ (seg39 ++ (seg40 ++ (seg41)))))))))))))))))))))))))))))))))))))))))

set_option maxRecDepth 4096 in
set_option maxHeartbeats 4000000 in
/-- Part 0 of @main is the sequence of its segments: the callees unfolded at their calls, sequencing reassociated. -/
theorem main_part0_eq (c : Dev nD) : main_part0 (F := F) c = seq (seg0 ++ (seg1 ++ (seg2 ++ (seg3 ++ (seg4 ++ (seg5 ++ (seg6))))))) := by
  simp only [main_part0, fn_relu.body, fn_where.body, fn_var.body, fn_where_0.body, fn_relu_1.body, fn_where_2.body, seq_append, seq, bind_assoc, pure_bind]
  rfl

set_option maxRecDepth 4096 in
set_option maxHeartbeats 4000000 in
/-- Part 1 of @main is the sequence of its segments: the callees unfolded at their calls, sequencing reassociated. -/
theorem main_part1_eq (c : Dev nD) : main_part1 (F := F) c = seq (seg7 ++ (seg8 ++ (seg9 ++ (seg10 ++ (seg11 ++ (seg12 ++ (seg13 ++ (seg14)))))))) := by
  simp only [main_part1, fn_relu.body, fn_where.body, fn_var.body, fn_where_0.body, fn_relu_1.body, fn_where_2.body, seq_append, seq, bind_assoc, pure_bind]
  rfl

set_option maxRecDepth 4096 in
set_option maxHeartbeats 4000000 in
/-- Part 2 of @main is the sequence of its segments: the callees unfolded at their calls, sequencing reassociated. -/
theorem main_part2_eq (c : Dev nD) : main_part2 (F := F) c = seq (seg15 ++ (seg16 ++ (seg17 ++ (seg18)))) := by
  simp only [main_part2, fn_relu.body, fn_where.body, fn_var.body, fn_where_0.body, fn_relu_1.body, fn_where_2.body, seq_append, seq, bind_assoc, pure_bind]
  rfl

set_option maxRecDepth 4096 in
set_option maxHeartbeats 4000000 in
/-- Part 3 of @main is the sequence of its segments: the callees unfolded at their calls, sequencing reassociated. -/
theorem main_part3_eq (c : Dev nD) : main_part3 (F := F) c = seq (seg19 ++ (seg20 ++ (seg21 ++ (seg22 ++ (seg23 ++ (seg24)))))) := by
  simp only [main_part3, fn_relu.body, fn_where.body, fn_var.body, fn_where_0.body, fn_relu_1.body, fn_where_2.body, seq_append, seq, bind_assoc, pure_bind]
  rfl

set_option maxRecDepth 4096 in
set_option maxHeartbeats 4000000 in
/-- Part 4 of @main is the sequence of its segments: the callees unfolded at their calls, sequencing reassociated. -/
theorem main_part4_eq (c : Dev nD) : main_part4 (F := F) c = seq (seg25 ++ (seg26 ++ (seg27 ++ (seg28 ++ (seg29 ++ (seg30 ++ (seg31))))))) := by
  simp only [main_part4, fn_relu.body, fn_where.body, fn_var.body, fn_where_0.body, fn_relu_1.body, fn_where_2.body, seq_append, seq, bind_assoc, pure_bind]
  rfl

set_option maxRecDepth 4096 in
set_option maxHeartbeats 4000000 in
/-- Part 5 of @main is the sequence of its segments: the callees unfolded at their calls, sequencing reassociated. -/
theorem main_part5_eq (c : Dev nD) : main_part5 (F := F) c = seq (seg32 ++ (seg33 ++ (seg34 ++ (seg35 ++ (seg36 ++ (seg37 ++ (seg38 ++ (seg39)))))))) := by
  simp only [main_part5, fn_relu.body, fn_where.body, fn_var.body, fn_where_0.body, fn_relu_1.body, fn_where_2.body, seq_append, seq, bind_assoc, pure_bind]
  rfl

set_option maxRecDepth 4096 in
set_option maxHeartbeats 4000000 in
/-- Part 6 of @main is the sequence of its segments: the callees unfolded at their calls, sequencing reassociated. -/
theorem main_part6_eq (c : Dev nD) : main_part6 (F := F) c = seq (seg40 ++ (seg41)) := by
  simp only [main_part6, fn_relu.body, fn_where.body, fn_var.body, fn_where_0.body, fn_relu_1.body, fn_where_2.body, seq_append, seq, bind_assoc, pure_bind]

/-- @main is the sequence of all its operations. -/
theorem main_eq (c : Dev nD) : main (F := F) c = seq ops := by
  simp only [main, main_part0_eq, main_part1_eq, main_part2_eq, main_part3_eq, main_part4_eq, main_part5_eq, main_part6_eq, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem seg0_sub : (seg0 : List (HloOp τ sig (Elt F))).Forall fun op => op.bufs ⊆ tcRefs τ sig :=
  ⟨unary_bufs_sub .., reshape_bufs_sub .., unary_bufs_sub .., reshape_bufs_sub ..⟩

theorem seg0_fresh : ∀ op ∈ (seg0 : List (HloOp τ sig (Elt F))), op.fresh = ∅ := by
  intro _ h; (repeat (cases h with | head => rfl | tail _ h => ?_)); exact nomatch h

theorem seg1_sub : (seg1 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub ..⟩

theorem seg1_fresh : ∀ op ∈ (seg1 : List (HloOp τ sig (Elt F))), op.fresh = ∅ := by
  intro _ h; (repeat (cases h with | head => rfl | tail _ h => ?_)); exact nomatch h

theorem seg2_sub : (seg2 : List (HloOp τ sig (Elt F))).Forall fun op => op.bufs ⊆ tcRefs τ sig :=
  ⟨binary_bufs_sub .., binary_bufs_sub .., binary_bufs_sub .., unary_bufs_sub .., unary_bufs_sub .., binary_bufs_sub ..,
    nullary_bufs_sub .., unary_bufs_sub .., binary_bufs_sub ..⟩

theorem seg2_fresh : ∀ op ∈ (seg2 : List (HloOp τ sig (Elt F))), op.fresh = ∅ := by
  intro _ h; (repeat (cases h with | head => rfl | tail _ h => ?_)); exact nomatch h

theorem seg3_sub : (seg3 : List (HloOp τ sig (Elt F))).Forall fun op => op.bufs ⊆ tcRefs τ sig :=
  ⟨nullary_bufs_sub .., unary_bufs_sub .., unary_bufs_sub .., ternary_bufs_sub .., binary_bufs_sub .., binary_bufs_sub ..,
    unary_bufs_sub .., unary_bufs_sub .., binary_bufs_sub ..⟩

theorem seg3_fresh : ∀ op ∈ (seg3 : List (HloOp τ sig (Elt F))), op.fresh = ∅ := by
  intro _ h; (repeat (cases h with | head => rfl | tail _ h => ?_)); exact nomatch h

theorem seg4_sub : (seg4 : List (HloOp τ sig (Elt F))).Forall fun op => op.bufs ⊆ tcRefs τ sig :=
  ⟨nullary_bufs_sub .., binary_bufs_sub .., nullary_bufs_sub .., unary_bufs_sub .., binary_bufs_sub ..⟩

theorem seg4_fresh : ∀ op ∈ (seg4 : List (HloOp τ sig (Elt F))), op.fresh = ∅ := by
  intro _ h; (repeat (cases h with | head => rfl | tail _ h => ?_)); exact nomatch h

theorem seg5_sub : (seg5 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩

theorem seg5_fresh : ∀ op ∈ (seg5 : List (HloOp τ sig (Elt F))), op.fresh = ∅ := by
  intro _ h; (repeat (cases h with | head => rfl | tail _ h => ?_)); exact nomatch h

theorem seg6_sub : (seg6 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    unary_bufs_sub ..⟩

theorem seg6_fresh : ∀ op ∈ (seg6 : List (HloOp τ sig (Elt F))), op.fresh = ∅ := by
  intro _ h; (repeat (cases h with | head => rfl | tail _ h => ?_)); exact nomatch h

theorem seg7_sub : (seg7 : List (HloOp τ sig (Elt F))).Forall fun op => op.bufs ⊆ tcRefs τ sig :=
  ⟨unary_bufs_sub .., binary_bufs_sub .., nullary_bufs_sub .., unary_bufs_sub .., binary_bufs_sub .., nullary_bufs_sub ..,
    unary_bufs_sub .., binary_bufs_sub .., ternary_bufs_sub ..⟩

theorem seg7_fresh : ∀ op ∈ (seg7 : List (HloOp τ sig (Elt F))), op.fresh = ∅ := by
  intro _ h; (repeat (cases h with | head => rfl | tail _ h => ?_)); exact nomatch h

theorem seg8_sub : (seg8 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub ..⟩

theorem seg8_fresh : ∀ op ∈ (seg8 : List (HloOp τ sig (Elt F))), op.fresh = ∅ := by
  intro _ h; (repeat (cases h with | head => rfl | tail _ h => ?_)); exact nomatch h

theorem seg9_sub : (seg9 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub ..⟩

theorem seg9_fresh : ∀ op ∈ (seg9 : List (HloOp τ sig (Elt F))), op.fresh = ∅ := by
  intro _ h; (repeat (cases h with | head => rfl | tail _ h => ?_)); exact nomatch h

theorem seg10_sub : (seg10 : List (HloOp τ sig (Elt F))).Forall fun op => op.bufs ⊆ tcRefs τ sig :=
  ⟨binary_bufs_sub .., binary_bufs_sub .., binary_bufs_sub .., unary_bufs_sub .., unary_bufs_sub .., binary_bufs_sub ..,
    nullary_bufs_sub .., unary_bufs_sub .., binary_bufs_sub ..⟩

theorem seg10_fresh : ∀ op ∈ (seg10 : List (HloOp τ sig (Elt F))), op.fresh = ∅ := by
  intro _ h; (repeat (cases h with | head => rfl | tail _ h => ?_)); exact nomatch h

theorem seg11_sub : (seg11 : List (HloOp τ sig (Elt F))).Forall fun op => op.bufs ⊆ tcRefs τ sig :=
  ⟨nullary_bufs_sub .., unary_bufs_sub .., unary_bufs_sub .., ternary_bufs_sub .., binary_bufs_sub .., binary_bufs_sub ..,
    unary_bufs_sub .., unary_bufs_sub .., binary_bufs_sub ..⟩

theorem seg11_fresh : ∀ op ∈ (seg11 : List (HloOp τ sig (Elt F))), op.fresh = ∅ := by
  intro _ h; (repeat (cases h with | head => rfl | tail _ h => ?_)); exact nomatch h

theorem seg12_sub : (seg12 : List (HloOp τ sig (Elt F))).Forall fun op => op.bufs ⊆ tcRefs τ sig :=
  ⟨nullary_bufs_sub .., binary_bufs_sub .., nullary_bufs_sub .., unary_bufs_sub .., binary_bufs_sub ..⟩

theorem seg12_fresh : ∀ op ∈ (seg12 : List (HloOp τ sig (Elt F))), op.fresh = ∅ := by
  intro _ h; (repeat (cases h with | head => rfl | tail _ h => ?_)); exact nomatch h

theorem seg13_sub : (seg13 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩

theorem seg13_fresh : ∀ op ∈ (seg13 : List (HloOp τ sig (Elt F))), op.fresh = ∅ := by
  intro _ h; (repeat (cases h with | head => rfl | tail _ h => ?_)); exact nomatch h

theorem seg14_sub : (seg14 : List (HloOp τ sig (Elt F))).Forall fun op => op.bufs ⊆ tcRefs τ sig :=
  ⟨unary_bufs_sub .., unary_bufs_sub .., binary_bufs_sub .., nullary_bufs_sub ..⟩

theorem seg14_fresh : ∀ op ∈ (seg14 : List (HloOp τ sig (Elt F))), op.fresh = ∅ := by
  intro _ h; (repeat (cases h with | head => rfl | tail _ h => ?_)); exact nomatch h

theorem seg15_sub : (seg15 : List (HloOp τ sig (Elt F))).Forall fun op => op.bufs ⊆ tcRefs τ sig :=
  ⟨unary_bufs_sub .., binary_bufs_sub .., unary_bufs_sub .., unary_bufs_sub .., unary_bufs_sub .., binary_bufs_sub ..,
    unary_bufs_sub .., unary_bufs_sub .., binary_bufs_sub .., unary_bufs_sub .., unary_bufs_sub .., binary_bufs_sub ..,
    nullary_bufs_sub .., unary_bufs_sub .., binary_bufs_sub .., nullary_bufs_sub .., unary_bufs_sub .., binary_bufs_sub ..,
    ternary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..⟩

theorem seg15_fresh : ∀ op ∈ (seg15 : List (HloOp τ sig (Elt F))), op.fresh = ∅ := by
  intro _ h; (repeat (cases h with | head => rfl | tail _ h => ?_)); exact nomatch h

theorem seg16_sub : (seg16 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub ..⟩

theorem seg16_fresh : ∀ op ∈ (seg16 : List (HloOp τ sig (Elt F))), op.fresh = ∅ := by
  intro _ h; (repeat (cases h with | head => rfl | tail _ h => ?_)); exact nomatch h

theorem seg17_sub : (seg17 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub ..⟩

theorem seg17_fresh : ∀ op ∈ (seg17 : List (HloOp τ sig (Elt F))), op.fresh = ∅ := by
  intro _ h; (repeat (cases h with | head => rfl | tail _ h => ?_)); exact nomatch h

theorem seg18_sub : (seg18 : List (HloOp τ sig (Elt F))).Forall fun op => op.bufs ⊆ tcRefs τ sig :=
  ⟨binary_bufs_sub .., binary_bufs_sub .., binary_bufs_sub .., unary_bufs_sub .., unary_bufs_sub .., binary_bufs_sub ..⟩

theorem seg18_fresh : ∀ op ∈ (seg18 : List (HloOp τ sig (Elt F))), op.fresh = ∅ := by
  intro _ h; (repeat (cases h with | head => rfl | tail _ h => ?_)); exact nomatch h

theorem seg19_sub : (seg19 : List (HloOp τ sig (Elt F))).Forall fun op => op.bufs ⊆ tcRefs τ sig :=
  ⟨nullary_bufs_sub .., unary_bufs_sub .., binary_bufs_sub ..⟩

theorem seg19_fresh : ∀ op ∈ (seg19 : List (HloOp τ sig (Elt F))), op.fresh = ∅ := by
  intro _ h; (repeat (cases h with | head => rfl | tail _ h => ?_)); exact nomatch h

theorem seg20_sub : (seg20 : List (HloOp τ sig (Elt F))).Forall fun op => op.bufs ⊆ tcRefs τ sig :=
  ⟨nullary_bufs_sub .., unary_bufs_sub .., unary_bufs_sub .., ternary_bufs_sub .., binary_bufs_sub .., binary_bufs_sub ..,
    unary_bufs_sub .., unary_bufs_sub .., binary_bufs_sub ..⟩

theorem seg20_fresh : ∀ op ∈ (seg20 : List (HloOp τ sig (Elt F))), op.fresh = ∅ := by
  intro _ h; (repeat (cases h with | head => rfl | tail _ h => ?_)); exact nomatch h

theorem seg21_sub : (seg21 : List (HloOp τ sig (Elt F))).Forall fun op => op.bufs ⊆ tcRefs τ sig :=
  ⟨nullary_bufs_sub .., binary_bufs_sub .., nullary_bufs_sub .., unary_bufs_sub .., binary_bufs_sub ..⟩

theorem seg21_fresh : ∀ op ∈ (seg21 : List (HloOp τ sig (Elt F))), op.fresh = ∅ := by
  intro _ h; (repeat (cases h with | head => rfl | tail _ h => ?_)); exact nomatch h

theorem seg22_sub : (seg22 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩

theorem seg22_fresh : ∀ op ∈ (seg22 : List (HloOp τ sig (Elt F))), op.fresh = ∅ := by
  intro _ h; (repeat (cases h with | head => rfl | tail _ h => ?_)); exact nomatch h

theorem seg23_sub : (seg23 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub ..⟩

theorem seg23_fresh : ∀ op ∈ (seg23 : List (HloOp τ sig (Elt F))), op.fresh = ∅ := by
  intro _ h; (repeat (cases h with | head => rfl | tail _ h => ?_)); exact nomatch h

theorem seg24_sub : (seg24 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., unary_bufs_sub ..⟩

theorem seg24_fresh : ∀ op ∈ (seg24 : List (HloOp τ sig (Elt F))), op.fresh = ∅ := by
  intro _ h; (repeat (cases h with | head => rfl | tail _ h => ?_)); exact nomatch h

theorem seg25_sub : (seg25 : List (HloOp τ sig (Elt F))).Forall fun op => op.bufs ⊆ tcRefs τ sig :=
  ⟨reshape_bufs_sub .., unary_bufs_sub .., reshape_bufs_sub .., unary_bufs_sub .., reshape_bufs_sub .., unary_bufs_sub ..,
    reshape_bufs_sub ..⟩

theorem seg25_fresh : ∀ op ∈ (seg25 : List (HloOp τ sig (Elt F))), op.fresh = ∅ := by
  intro _ h; (repeat (cases h with | head => rfl | tail _ h => ?_)); exact nomatch h

theorem seg26_sub : (seg26 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub ..⟩

theorem seg26_fresh : ∀ op ∈ (seg26 : List (HloOp τ sig (Elt F))), op.fresh = ∅ := by
  intro _ h; (repeat (cases h with | head => rfl | tail _ h => ?_)); exact nomatch h

theorem seg27_sub : (seg27 : List (HloOp τ sig (Elt F))).Forall fun op => op.bufs ⊆ tcRefs τ sig :=
  ⟨binary_bufs_sub .., binary_bufs_sub .., binary_bufs_sub .., unary_bufs_sub .., unary_bufs_sub .., binary_bufs_sub ..,
    nullary_bufs_sub .., unary_bufs_sub .., binary_bufs_sub ..⟩

theorem seg27_fresh : ∀ op ∈ (seg27 : List (HloOp τ sig (Elt F))), op.fresh = ∅ := by
  intro _ h; (repeat (cases h with | head => rfl | tail _ h => ?_)); exact nomatch h

theorem seg28_sub : (seg28 : List (HloOp τ sig (Elt F))).Forall fun op => op.bufs ⊆ tcRefs τ sig :=
  ⟨nullary_bufs_sub .., unary_bufs_sub .., unary_bufs_sub .., ternary_bufs_sub .., binary_bufs_sub .., binary_bufs_sub ..,
    unary_bufs_sub .., unary_bufs_sub .., binary_bufs_sub ..⟩

theorem seg28_fresh : ∀ op ∈ (seg28 : List (HloOp τ sig (Elt F))), op.fresh = ∅ := by
  intro _ h; (repeat (cases h with | head => rfl | tail _ h => ?_)); exact nomatch h

theorem seg29_sub : (seg29 : List (HloOp τ sig (Elt F))).Forall fun op => op.bufs ⊆ tcRefs τ sig :=
  ⟨nullary_bufs_sub .., binary_bufs_sub .., nullary_bufs_sub .., unary_bufs_sub .., binary_bufs_sub ..⟩

theorem seg29_fresh : ∀ op ∈ (seg29 : List (HloOp τ sig (Elt F))), op.fresh = ∅ := by
  intro _ h; (repeat (cases h with | head => rfl | tail _ h => ?_)); exact nomatch h

theorem seg30_sub : (seg30 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩

theorem seg30_fresh : ∀ op ∈ (seg30 : List (HloOp τ sig (Elt F))), op.fresh = ∅ := by
  intro _ h; (repeat (cases h with | head => rfl | tail _ h => ?_)); exact nomatch h

theorem seg31_sub : (seg31 : List (HloOp τ sig (Elt F))).Forall fun op => op.bufs ⊆ tcRefs τ sig :=
  ⟨unary_bufs_sub .., unary_bufs_sub .., binary_bufs_sub .., nullary_bufs_sub .., unary_bufs_sub .., binary_bufs_sub ..,
    unary_bufs_sub .., unary_bufs_sub .., unary_bufs_sub .., binary_bufs_sub .., unary_bufs_sub .., unary_bufs_sub ..,
    binary_bufs_sub .., unary_bufs_sub .., unary_bufs_sub .., binary_bufs_sub .., nullary_bufs_sub .., unary_bufs_sub ..,
    binary_bufs_sub .., nullary_bufs_sub .., unary_bufs_sub .., binary_bufs_sub ..⟩

theorem seg31_fresh : ∀ op ∈ (seg31 : List (HloOp τ sig (Elt F))), op.fresh = ∅ := by
  intro _ h; (repeat (cases h with | head => rfl | tail _ h => ?_)); exact nomatch h

theorem seg32_sub : (seg32 : List (HloOp τ sig (Elt F))).Forall fun op => op.bufs ⊆ tcRefs τ sig :=
  ⟨ternary_bufs_sub .., binary_bufs_sub .., unary_bufs_sub .., unary_bufs_sub .., binary_bufs_sub .., nullary_bufs_sub ..,
    unary_bufs_sub .., binary_bufs_sub .., nullary_bufs_sub .., unary_bufs_sub .., binary_bufs_sub .., ternary_bufs_sub ..⟩

theorem seg32_fresh : ∀ op ∈ (seg32 : List (HloOp τ sig (Elt F))), op.fresh = ∅ := by
  intro _ h; (repeat (cases h with | head => rfl | tail _ h => ?_)); exact nomatch h

theorem seg33_sub : (seg33 : List (HloOp τ sig (Elt F))).Forall fun op => op.bufs ⊆ tcRefs τ sig :=
  ⟨unary_bufs_sub .., reshape_bufs_sub .., unary_bufs_sub .., reshape_bufs_sub .., unary_bufs_sub .., reshape_bufs_sub ..,
    unary_bufs_sub .., reshape_bufs_sub .., unary_bufs_sub .., reshape_bufs_sub .., unary_bufs_sub .., reshape_bufs_sub ..,
    unary_bufs_sub .., reshape_bufs_sub .., unary_bufs_sub .., reshape_bufs_sub ..⟩

theorem seg33_fresh : ∀ op ∈ (seg33 : List (HloOp τ sig (Elt F))), op.fresh = ∅ := by
  intro _ h; (repeat (cases h with | head => rfl | tail _ h => ?_)); exact nomatch h

theorem seg34_sub : (seg34 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub ..⟩

theorem seg34_fresh : ∀ op ∈ (seg34 : List (HloOp τ sig (Elt F))), op.fresh = ∅ := by
  intro _ h; (repeat (cases h with | head => rfl | tail _ h => ?_)); exact nomatch h

theorem seg35_sub : (seg35 : List (HloOp τ sig (Elt F))).Forall fun op => op.bufs ⊆ tcRefs τ sig :=
  ⟨binary_bufs_sub .., binary_bufs_sub .., binary_bufs_sub .., unary_bufs_sub .., unary_bufs_sub .., binary_bufs_sub ..,
    nullary_bufs_sub .., unary_bufs_sub .., binary_bufs_sub ..⟩

theorem seg35_fresh : ∀ op ∈ (seg35 : List (HloOp τ sig (Elt F))), op.fresh = ∅ := by
  intro _ h; (repeat (cases h with | head => rfl | tail _ h => ?_)); exact nomatch h

theorem seg36_sub : (seg36 : List (HloOp τ sig (Elt F))).Forall fun op => op.bufs ⊆ tcRefs τ sig :=
  ⟨nullary_bufs_sub .., unary_bufs_sub .., unary_bufs_sub .., ternary_bufs_sub .., binary_bufs_sub .., binary_bufs_sub ..,
    unary_bufs_sub .., unary_bufs_sub .., binary_bufs_sub ..⟩

theorem seg36_fresh : ∀ op ∈ (seg36 : List (HloOp τ sig (Elt F))), op.fresh = ∅ := by
  intro _ h; (repeat (cases h with | head => rfl | tail _ h => ?_)); exact nomatch h

theorem seg37_sub : (seg37 : List (HloOp τ sig (Elt F))).Forall fun op => op.bufs ⊆ tcRefs τ sig :=
  ⟨nullary_bufs_sub .., binary_bufs_sub .., nullary_bufs_sub .., unary_bufs_sub .., binary_bufs_sub ..⟩

theorem seg37_fresh : ∀ op ∈ (seg37 : List (HloOp τ sig (Elt F))), op.fresh = ∅ := by
  intro _ h; (repeat (cases h with | head => rfl | tail _ h => ?_)); exact nomatch h

theorem seg38_sub : (seg38 : List (HloOp τ sig (Elt F))).Forall fun op => op.bufs ⊆ tcRefs τ sig :=
  ⟨nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., binary_bufs_sub .., nullary_bufs_sub ..,
    binary_bufs_sub .., nullary_bufs_sub .., unary_bufs_sub .., unary_bufs_sub .., ternary_bufs_sub ..⟩

theorem seg38_fresh : ∀ op ∈ (seg38 : List (HloOp τ sig (Elt F))), op.fresh = ∅ := by
  intro _ h; (repeat (cases h with | head => rfl | tail _ h => ?_)); exact nomatch h

theorem seg39_sub : (seg39 : List (HloOp τ sig (Elt F))).Forall fun op => op.bufs ⊆ tcRefs τ sig :=
  unary_bufs_sub ..

theorem seg39_fresh : ∀ op ∈ (seg39 : List (HloOp τ sig (Elt F))), op.fresh = ∅ := by
  intro _ h; (repeat (cases h with | head => rfl | tail _ h => ?_)); exact nomatch h

theorem seg40_sub : (seg40 : List (HloOp τ sig (Elt F))).Forall fun op => op.bufs ⊆ tcRefs τ sig :=
  ⟨unary_bufs_sub .., binary_bufs_sub .., nullary_bufs_sub .., unary_bufs_sub .., binary_bufs_sub .., unary_bufs_sub ..,
    unary_bufs_sub .., unary_bufs_sub .., binary_bufs_sub .., unary_bufs_sub .., unary_bufs_sub .., binary_bufs_sub ..,
    unary_bufs_sub .., unary_bufs_sub .., binary_bufs_sub .., nullary_bufs_sub .., unary_bufs_sub .., binary_bufs_sub ..,
    nullary_bufs_sub .., unary_bufs_sub .., binary_bufs_sub .., ternary_bufs_sub .., binary_bufs_sub .., unary_bufs_sub ..,
    unary_bufs_sub .., binary_bufs_sub .., nullary_bufs_sub .., unary_bufs_sub .., binary_bufs_sub .., nullary_bufs_sub ..,
    unary_bufs_sub .., binary_bufs_sub .., ternary_bufs_sub ..⟩

theorem seg40_fresh : ∀ op ∈ (seg40 : List (HloOp τ sig (Elt F))), op.fresh = ∅ := by
  intro _ h; (repeat (cases h with | head => rfl | tail _ h => ?_)); exact nomatch h

theorem seg41_sub : (seg41 : List (HloOp τ sig (Elt F))).Forall fun op => op.bufs ⊆ tcRefs τ sig :=
  ⟨binary_bufs_sub .., unary_bufs_sub .., unary_bufs_sub .., binary_bufs_sub .., nullary_bufs_sub .., unary_bufs_sub ..,
    binary_bufs_sub .., nullary_bufs_sub .., unary_bufs_sub .., binary_bufs_sub .., ternary_bufs_sub .., binary_bufs_sub ..,
    unary_bufs_sub .., unary_bufs_sub .., binary_bufs_sub ..⟩

theorem seg41_fresh : ∀ op ∈ (seg41 : List (HloOp τ sig (Elt F))), op.fresh = ∅ := by
  intro _ h; (repeat (cases h with | head => rfl | tail _ h => ?_)); exact nomatch h

/-- Every operation touches TensorCore references only. -/
theorem ops_sub : (ops : List (HloOp τ sig (Elt F))).Forall fun op => op.bufs ⊆ tcRefs τ sig := by
  simp only [ops, List.forall_append]
  exact ⟨seg0_sub, seg1_sub, seg2_sub, seg3_sub, seg4_sub, seg5_sub, seg6_sub, seg7_sub, seg8_sub, seg9_sub, seg10_sub, seg11_sub, seg12_sub, seg13_sub, seg14_sub, seg15_sub, seg16_sub, seg17_sub, seg18_sub, seg19_sub, seg20_sub, seg21_sub, seg22_sub, seg23_sub, seg24_sub, seg25_sub, seg26_sub, seg27_sub, seg28_sub, seg29_sub, seg30_sub, seg31_sub, seg32_sub, seg33_sub, seg34_sub, seg35_sub, seg36_sub, seg37_sub, seg38_sub, seg39_sub, seg40_sub, seg41_sub⟩

/-- No operation allocates: each determines its results. -/
theorem ops_fresh : ∀ op ∈ (ops : List (HloOp τ sig (Elt F))), op.fresh = ∅ := by
  intro op h
  simp only [ops, List.mem_append] at h
  rcases h with h | h | h | h | h | h | h | h | h | h | h | h | h | h | h | h | h | h | h | h | h | h | h | h | h | h | h | h | h | h | h | h | h | h | h | h | h | h | h | h | h | h
  · exact seg0_fresh op h
  · exact seg1_fresh op h
  · exact seg2_fresh op h
  · exact seg3_fresh op h
  · exact seg4_fresh op h
  · exact seg5_fresh op h
  · exact seg6_fresh op h
  · exact seg7_fresh op h
  · exact seg8_fresh op h
  · exact seg9_fresh op h
  · exact seg10_fresh op h
  · exact seg11_fresh op h
  · exact seg12_fresh op h
  · exact seg13_fresh op h
  · exact seg14_fresh op h
  · exact seg15_fresh op h
  · exact seg16_fresh op h
  · exact seg17_fresh op h
  · exact seg18_fresh op h
  · exact seg19_fresh op h
  · exact seg20_fresh op h
  · exact seg21_fresh op h
  · exact seg22_fresh op h
  · exact seg23_fresh op h
  · exact seg24_fresh op h
  · exact seg25_fresh op h
  · exact seg26_fresh op h
  · exact seg27_fresh op h
  · exact seg28_fresh op h
  · exact seg29_fresh op h
  · exact seg30_fresh op h
  · exact seg31_fresh op h
  · exact seg32_fresh op h
  · exact seg33_fresh op h
  · exact seg34_fresh op h
  · exact seg35_fresh op h
  · exact seg36_fresh op h
  · exact seg37_fresh op h
  · exact seg38_fresh op h
  · exact seg39_fresh op h
  · exact seg40_fresh op h
  · exact seg41_fresh op h

/-- From any memory with zero counters every weakly fair execution of @main terminates, and every final state has each
    TensorCore buffer at the fold of the operations' results over the launch contents. -/
theorem run_main (m : (ℓ : Loc nD τ sig) → Buf (Elt F) ℓ) (ρ : Dev nD → PrngReg) :
    θ_run (defs (F := F)) (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

end RefOps

end Cert.ReferenceIdeal

end
-- ==== Proof.Spec.lean ====
/-
  The network both programs compute, as plain functions on extended reals, generic in the sizes.

  One graph-convolution layer takes node features x : [N, C], per-edge features ea : [E, K] and the two
  index columns of the edge list. Each edge e gathers the row of x its source names, adds the edge's
  linear map ea·eW + eb and rectifies (`msg`); the messages are summed into the rows their destinations
  name; then h = (x + aggr)·Wa + ba (`hpre`), h is normalised column by column with the batch mean and the
  biased batch variance, scaled and shifted, passed through the leaky rectifier, mapped by Wb, bb and
  rectified again (`post`).

  The two programs differ only in how a column's statistics are spelt: the mean is the column total over
  the count in both; the variance is E[h²] − mean² in one (`varOne`) and E[(h − mean)²] in the other
  (`varTwo`). On real entries these agree; on infinite ones they need not, which is where finiteness of
  the inputs is used.
-/
import Idealize.ShloMosaic.PureOps.Ideal
import Idealize.ShloMosaic.Lib.ValueIdx

noncomputable section

open scoped BigOperators

namespace Cert.Gine

open Idealize.ShloMosaic Idealize.ShloMosaic.ValueIdx

/-- A matrix of extended reals with literal extents. -/
abbrev Arr2 (n d : ℕ) : Type := (⟨2, ![n, d]⟩ : Shape).Idx → EReal

/-- A vector and a rank-3 array of extended reals with literal extents. -/
abbrev Arr1 (d : ℕ) : Type := (⟨1, ![d]⟩ : Shape).Idx → EReal
abbrev Arr3 (a b c : ℕ) : Type := (⟨3, ![a, b, c]⟩ : Shape).Idx → EReal

/-- A one-row matrix and a vector read as a function of the column. -/
def row {d : ℕ} (a : Arr2 1 d) : Fin d → EReal := fun j => a (ix2 0 j)
def vec {d : ℕ} (a : Arr1 d) : Fin d → EReal := fun j => a (ix1 j)

/-- The four float words the programs share: 0, the variance's ε, the rectifier's slope, the row count. -/
def wZero : EReal := Ideal.ofBits .f32 0x00000000#32
def wEps : EReal := Ideal.ofBits .f32 0x3727C5AC#32
def wSlope : EReal := Ideal.ofBits .f32 0x3C23D70A#32
def wCount : EReal := Ideal.ofBits .f32 0x47435000#32

/-- The leaky rectifier: v where v ≥ 0, slope · v elsewhere. -/
def leaky (v : EReal) : EReal := Scalar.select (Ideal.cmp .oge v wZero) v (wSlope * v)

/-- Entry (r, j) of a·w: the row of a against the column of w. -/
def prod {n K d : ℕ} (a : Arr2 n K) (w : Arr2 K d) : Arr2 n d :=
  fun i => ∑ k : Fin K, a (ix2 (i 0) k) * w (ix2 k (i 1))

/-- The message of each edge: max((gx + ea·eW) + eb, 0), gx the gathered source rows. -/
def msg {E C K : ℕ} (gx : Arr2 E C) (ea : Arr2 E K) (eW : Arr2 K C) (eb : Fin C → EReal) : Arr2 E C :=
  fun i => max ((gx i + prod ea eW i) + eb (i 1)) wZero

/-- The node map before normalisation: (x + aggr)·Wa + ba. -/
def hpre {N C H : ℕ} (x a : Arr2 N C) (Wa : Arr2 C H) (ba : Fin H → EReal) : Arr2 N H :=
  fun i => prod (fun j => x j + a j) Wa i + ba (i 1)

/-- A column's total from the zero word. -/
def colSum {N H : ℕ} (h : Arr2 N H) : Fin H → EReal := fun j => wZero + ∑ r : Fin N, h (ix2 r j)

/-- The column mean: total over the count word. -/
def mean {N H : ℕ} (h : Arr2 N H) : Fin H → EReal := fun j => Ideal.div (colSum h j) wCount

/-- The variance as E[h²] − mean². -/
def varOne {N H : ℕ} (h : Arr2 N H) : Fin H → EReal :=
  fun j => Ideal.div (colSum (fun i => h i * h i) j) wCount - mean h j * mean h j

/-- The variance as E[(h − mean)²]. -/
def varTwo {N H : ℕ} (h : Arr2 N H) : Fin H → EReal :=
  fun j => Ideal.div (colSum (fun i => (h i - mean h (i 1)) * (h i - mean h (i 1))) j) wCount

/-- Normalise, scale, shift, rectify; then the second linear map and the rectifier again. -/
def post {N H : ℕ} (h : Arr2 N H) (mu var g be : Fin H → EReal) (Wb : Arr2 H H) (bb : Fin H → EReal) : Arr2 N H :=
  fun i => leaky (prod (fun j => leaky (((h j - mu (j 1)) * Ideal.rsqrt (var (j 1) + wEps)) * g (j 1) + be (j 1))) Wb i
    + bb (i 1))

/-- A layer from its gathered rows gx and summed messages: the part after the two irregular steps, with the
    variance spelt by `v`. -/
def layerWith {N C H : ℕ} (v : Arr2 N H → Fin H → EReal) (x a : Arr2 N C) (Wa : Arr2 C H) (ba g be : Fin H → EReal)
    (Wb : Arr2 H H) (bb : Fin H → EReal) : Arr2 N H :=
  post (hpre x a Wa ba) (mean (hpre x a Wa ba)) (v (hpre x a Wa ba)) g be Wb bb

end Cert.Gine

end
-- ==== Proof.LibRowScatter.lean ====
/-
  Rows of a two-dimensional table read through an integer index column, and updates added into rows.

  A table `x : [R, C]` and an index array `idx : [n, 1]`.
  * GATHER OF ROWS (the gather operation with offset axis 1, collapsed slice axis 0, start index map `[0]`, index vector
    axis 1, slice sizes `[1, C]`): result element `(e, k)` is `x` at row `idx[e, 0]` — read as a signed integer, negative
    values truncated to 0, then clamped to at most `R − 1` — and column `k` (`gather_rows_apply`).
  * SCATTER-ADD INTO ROWS (the scatter operation with an `add` body, update window axis 1, inserted window axis 0,
    scatter-dims-to-operand-dims `[0]`, index vector axis 1): update element `(e, k)` lands at row `idx[e, 0]` read as a
    signed integer and column `k`, when that row is in `[0, R)`, and is dropped otherwise; so result element `(r, o)` is
    `x (r, o)` plus the sum over the `e` whose index is exactly `r` of the update `(e, o)` (`scatterAdd_rows_apply`).
  Both are generic in the sizes `R`, `C`, `n` and in the index width `w`; the dimension-number records take their
  well-formedness condition as a hypothesis, which is decided on literal sizes.
-/
import Idealize.ShloMosaic.PureOps.Ideal
import Idealize.ShloMosaic.Lib.ValueIdx

noncomputable section

open scoped BigOperators

namespace Cert.RowOps

open Idealize.ShloMosaic Idealize.ShloMosaic.ValueIdx

/-! ## Gather of rows -/

/-- The dimension numbers of a gather of whole rows: operand `[R, C]`, start indices `[n, 1]`, result `[n, C]`; the
    result's axis 1 is the offset axis, the operand's axis 0 is collapsed and is the one the start index names, the
    index vector lies along axis 1 of the start indices, and a slice is one row (`[1, C]`). -/
abbrev rowGather (R C n : Nat)
    (wf : GatherDims.WF ⟨2, ![R, C]⟩ ⟨2, ![n, 1]⟩ ⟨2, ![n, C]⟩ [1] [0] [] [0] [] 1 ![1, C]) :
    GatherDims ⟨2, ![R, C]⟩ ⟨2, ![n, 1]⟩ ⟨2, ![n, C]⟩ where
  offsetDims := [1]
  collapsedSliceDims := [0]
  operandBatchingDims := []
  startIndicesBatchingDims := []
  startIndexMap := [0]
  indexVectorDim := 1
  sliceSizes := ![1, C]
  wf := wf

/-- THE GATHER OF ROWS READ AT `(e, k)`: the table at row `idx[e, 0]`, read signed, truncated at 0 and clamped to
    `R − 1`, and column `k`. -/
theorem gather_rows_apply {α : Type} {R C n w : Nat} (hR : 0 < R)
    (wf : GatherDims.WF ⟨2, ![R, C]⟩ ⟨2, ![n, 1]⟩ ⟨2, ![n, C]⟩ [1] [0] [] [0] [] 1 ![1, C])
    (x : (⟨2, ![R, C]⟩ : Shape).Idx → α) (idx : IVec ⟨2, ![n, 1]⟩ w) (e : Fin n) (k : Fin C) :
    Host.gather (rowGather R C n wf) x idx (ix2 e k)
      = x (ix2 ⟨min (idx (ix2 e 0)).toInt.toNat (R - 1), by omega⟩ k) := by
  unfold Host.gather
  congr 1
  funext a
  refine Fin.ext ?_
  match a with
  | ⟨0, _⟩ =>
    -- the row axis: the clamped start index; no batching coordinate, and no offset coordinate on a collapsed axis
    show (rowGather R C n wf).start (ix2 e k) idx 0 + (rowGather R C n wf).batchCoord (ix2 e k) 0
      + (rowGather R C n wf).offCoord (ix2 e k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather R C n wf).startIndexMap from List.mem_singleton.mpr rfl)]
    have hsi : (rowGather R C n wf).siIdx (ix2 e k) ⟨List.idxOf (0 : Fin 2) (rowGather R C n wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    -- the column axis: not named by the start index map, so the start is 0 and the coordinate is the offset `k`
    show (rowGather R C n wf).start (ix2 e k) idx 1 + (rowGather R C n wf).batchCoord (ix2 e k) 1
      + (rowGather R C n wf).offCoord (ix2 e k) 1 = k.val
    rw [GatherDims.batchCoord_eq_zero _ _ _ List.not_mem_nil]
    have hst : (rowGather R C n wf).start (ix2 e k) idx 1 = 0 := by
      unfold GatherDims.start
      rw [dif_neg (show (1 : Fin 2) ∉ (rowGather R C n wf).startIndexMap from
        fun h => absurd (List.mem_singleton.mp h) (show (1 : Fin 2) ≠ 0 from by decide))]
    have hk : (1 : Fin 2) ∈ (rowGather R C n wf).sKept :=
      (GatherDims.mem_sKept _ _).mpr
        ⟨fun h => absurd (List.mem_singleton.mp h) (show (1 : Fin 2) ≠ 0 from by decide), List.not_mem_nil⟩
    rw [hst]
    unfold GatherDims.offCoord
    rw [dif_pos hk]
    simp only [Nat.zero_add, Nat.add_zero]
    rfl

/-! ## Scatter-add into rows -/

/-- The dimension numbers of a scatter of whole-row updates: operand `[R, C]`, scatter indices `[n, 1]`, updates
    `[n, C]`; the updates' axis 1 is the window axis, the operand's axis 0 is the inserted window axis and the one the
    scatter index names, and the index vector lies along axis 1 of the scatter indices. -/
abbrev rowScatter (R C n : Nat) (wf : ScatterDims.WF ⟨2, ![R, C]⟩ ⟨2, ![n, 1]⟩ ⟨2, ![n, C]⟩ [1] [0] [0] 1) :
    ScatterDims ⟨2, ![R, C]⟩ ⟨2, ![n, 1]⟩ ⟨2, ![n, C]⟩ where
  updateWindowDims := [1]
  insertedWindowDims := [0]
  scatterDimsToOperandDims := [0]
  indexVectorDim := 1
  wf := wf

section
variable {R C n w : Nat} (wf : ScatterDims.WF ⟨2, ![R, C]⟩ ⟨2, ![n, 1]⟩ ⟨2, ![n, C]⟩ [1] [0] [0] 1)
  (idx : IVec ⟨2, ![n, 1]⟩ w) (e : Fin n) (k : Fin C)

/-- On the row axis the window of update `(e, k)` starts at `idx[e, 0]` read as a signed integer (not clamped). -/
theorem rowScatter_start0 :
    (rowScatter R C n wf).start (ix2 e k) idx 0 = (idx (ix2 e 0)).toInt := by
  unfold ScatterDims.start
  rw [dif_pos (show (0 : Fin 2) ∈ (rowScatter R C n wf).scatterDimsToOperandDims from List.mem_singleton.mpr rfl)]
  have hsi : (rowScatter R C n wf).siIdx (ix2 e k) ⟨List.idxOf (0 : Fin 2) (rowScatter R C n wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis, which the scatter index does not name, the window starts at 0. -/
theorem rowScatter_start1 : (rowScatter R C n wf).start (ix2 e k) idx 1 = 0 := by
  unfold ScatterDims.start
  rw [dif_neg (show (1 : Fin 2) ∉ (rowScatter R C n wf).scatterDimsToOperandDims from
    fun h => absurd (List.mem_singleton.mp h) (show (1 : Fin 2) ≠ 0 from by decide))]

/-- The row axis is an inserted window axis: the window coordinate there is 0. -/
theorem rowScatter_window0 : (rowScatter R C n wf).window (ix2 e k) 0 = 0 := by
  unfold ScatterDims.window
  rw [dif_neg]
  intro h
  simp [ScatterDims.sKept, Shape.kept] at h

/-- On the column axis the window coordinate of update `(e, k)` is `k`. -/
theorem rowScatter_window1 : (rowScatter R C n wf).window (ix2 e k) 1 = k.val := by
  have hk : (1 : Fin 2) ∈ (rowScatter R C n wf).sKept := by
    simp [ScatterDims.sKept, Shape.kept]
  unfold ScatterDims.window
  rw [dif_pos hk]
  rfl

/-- WHERE AN UPDATE LANDS: update `(e, k)` lands at `(r, o)` exactly when `idx[e, 0]`, read signed, is the row `r` and
    `k` is the column `o` (an index outside `[0, R)` is no row, so that update lands nowhere). -/
theorem rowScatter_resultIdx?_eq_some (r : Fin R) (o : Fin C) :
    (rowScatter R C n wf).resultIdx? (ix2 e k) idx = some (ix2 r o)
      ↔ (idx (ix2 e 0)).toInt = (r.val : Int) ∧ k = o := by
  have hs0 := rowScatter_start0 wf idx e k
  have hs1 := rowScatter_start1 wf idx e k
  have hw0 := rowScatter_window0 wf e k
  have hw1 := rowScatter_window1 wf e k
  unfold ScatterDims.resultIdx?
  constructor
  · intro h
    split at h
    · rename_i hall
      have h' := Option.some.inj h
      have h0 : ((rowScatter R C n wf).start (ix2 e k) idx 0
          + ((rowScatter R C n wf).window (ix2 e k) 0 : Nat)).toNat = r.val :=
        congrArg (fun f => (f 0).val) h'
      have h1 : ((rowScatter R C n wf).start (ix2 e k) idx 1
          + ((rowScatter R C n wf).window (ix2 e k) 1 : Nat)).toNat = o.val :=
        congrArg (fun f => (f 1).val) h'
      have ha := (hall 0).1
      rw [hs0, hw0] at h0 ha
      rw [hs1, hw1] at h1
      refine ⟨by omega, Fin.ext (by omega)⟩
    · exact absurd h (by simp)
  · rintro ⟨h0, rfl⟩
    have hr : r.val < R := r.isLt
    have hk : k.val < C := k.isLt
    have hall : ∀ a, 0 ≤ (rowScatter R C n wf).start (ix2 e k) idx a + ((rowScatter R C n wf).window (ix2 e k) a : Nat)
        ∧ (rowScatter R C n wf).start (ix2 e k) idx a + ((rowScatter R C n wf).window (ix2 e k) a : Nat)
          < ((⟨2, ![R, C]⟩ : Shape).size a : Nat) := by
      intro a
      match a with
      | ⟨0, _⟩ =>
        show 0 ≤ (rowScatter R C n wf).start (ix2 e k) idx 0 + ((rowScatter R C n wf).window (ix2 e k) 0 : Nat)
          ∧ (rowScatter R C n wf).start (ix2 e k) idx 0 + ((rowScatter R C n wf).window (ix2 e k) 0 : Nat) < (R : Int)
        rw [hs0, hw0, h0]; omega
      | ⟨1, _⟩ =>
        show 0 ≤ (rowScatter R C n wf).start (ix2 e k) idx 1 + ((rowScatter R C n wf).window (ix2 e k) 1 : Nat)
          ∧ (rowScatter R C n wf).start (ix2 e k) idx 1 + ((rowScatter R C n wf).window (ix2 e k) 1 : Nat) < (C : Int)
        rw [hs1, hw1]; omega
    rw [dif_pos hall]
    congr 1
    funext a
    refine Fin.ext ?_
    match a with
    | ⟨0, _⟩ =>
      show ((rowScatter R C n wf).start (ix2 e k) idx 0
        + ((rowScatter R C n wf).window (ix2 e k) 0 : Nat)).toNat = r.val
      rw [hs0, hw0, h0]; omega
    | ⟨1, _⟩ =>
      show ((rowScatter R C n wf).start (ix2 e k) idx 1
        + ((rowScatter R C n wf).window (ix2 e k) 1 : Nat)).toNat = k.val
      rw [hs1, hw1]; omega

end

/-- THE SCATTER-ADD INTO ROWS READ AT `(r, o)`: the operand's element plus the sum, over the updates `e` whose index
    `idx[e, 0]` read signed is exactly `r`, of the update's element in column `o`. -/
theorem scatterAdd_rows_apply {R C n w : Nat} (wf : ScatterDims.WF ⟨2, ![R, C]⟩ ⟨2, ![n, 1]⟩ ⟨2, ![n, C]⟩ [1] [0] [0] 1)
    (x : (⟨2, ![R, C]⟩ : Shape).Idx → EReal) (idx : IVec ⟨2, ![n, 1]⟩ w)
    (upd : (⟨2, ![n, C]⟩ : Shape).Idx → EReal) (r : Fin R) (o : Fin C) :
    Ideal.hostScatterAdd (rowScatter R C n wf) x idx upd (ix2 r o)
      = x (ix2 r o) + ∑ e : Fin n, if (idx (ix2 e 0)).toInt = (r.val : Int) then upd (ix2 e o) else 0 := by
  unfold Ideal.hostScatterAdd
  congr 1
  -- the filtered sum as a sum of `if`s, over the two coordinates of the update index
  rw [Finset.sum_filter, sum_idx2]
  refine Finset.sum_congr rfl fun e _ => ?_
  simp only [rowScatter_resultIdx?_eq_some wf idx e _ r o]
  by_cases hA : (idx (ix2 e 0)).toInt = (r.val : Int)
  · -- the index is the row: of the columns only `o` contributes
    simp only [hA, true_and, if_true]
    rw [Finset.sum_ite_eq' Finset.univ o (fun k => upd (ix2 e k))]
    simp
  · simp [hA]

end Cert.RowOps

end
-- ==== Proof.Net.lean ====
/-
  The whole network over the specification's layer: five graph-convolution layers and a two-map head.

  The two irregular steps are the ones both programs spell with the same host operations: a gather of the
  rows of x named by the source column, and a sum of the messages into the rows named by the destination
  column, from an array of zeros. Everything else is the specification's `msg`, `hpre`, `post`. The
  variance's spelling `v` is a parameter: the network with E[h²] − mean² and the network with
  E[(h − mean)²] are the two programs.
-/
import proofs.«122931_j61864708931975_1_alg».proof.Proof.Spec
import proofs.«122931_j61864708931975_1_alg».proof.Proof.LibRowScatter

noncomputable section

open scoped BigOperators

namespace Cert.Gine

open Idealize.ShloMosaic Idealize.ShloMosaic.ValueIdx Cert.RowOps

/-- One layer's weights: the edge map eW, eb; the first node map Wa, ba; the scale g and shift be of the
    normalisation; the second node map Wb, bb. -/
structure LayerP (K C H : ℕ) where
  eW : Arr2 K C
  eb : Fin C → EReal
  Wa : Arr2 C H
  ba : Fin H → EReal
  g : Fin H → EReal
  be : Fin H → EReal
  Wb : Arr2 H H
  bb : Fin H → EReal

section Layer
variable {N E K C H : ℕ}
  (wfG : GatherDims.WF ⟨2, ![N, C]⟩ ⟨2, ![E, 1]⟩ ⟨2, ![E, C]⟩ [1] [0] [] [0] [] 1 ![1, C])
  (wfS : ScatterDims.WF ⟨2, ![N, C]⟩ ⟨2, ![E, 1]⟩ ⟨2, ![E, C]⟩ [1] [0] [0] 1)

/-- The rows of x the source column names, one per edge. -/
def gathered (src : IVec ⟨2, ![E, 1]⟩ 32) (x : Arr2 N C) : Arr2 E C :=
  Host.gather (rowGather N C E wfG) x src

/-- The messages summed into the rows the destination column names, from zeros. -/
def summed (dst : IVec ⟨2, ![E, 1]⟩ 32) (mg : Arr2 E C) : Arr2 N C :=
  Ideal.hostScatterAdd (rowScatter N C E wfS) (fun _ => wZero) dst mg

/-- One layer. -/
def layer (v : Arr2 N H → Fin H → EReal) (src dst : IVec ⟨2, ![E, 1]⟩ 32) (ea : Arr2 E K) (p : LayerP K C H)
    (x : Arr2 N C) : Arr2 N H :=
  layerWith v x (summed wfS dst (msg (gathered wfG src x) ea p.eW p.eb)) p.Wa p.ba p.g p.be p.Wb p.bb

end Layer

/-- The head: leaky(out·Wh + bh)·We + bee. -/
def head {N H R T : ℕ} (out : Arr2 N H) (Wh : Arr2 H R) (bh : Fin R → EReal) (We : Arr2 R T) (bee : Fin T → EReal) :
    Arr2 N T :=
  fun i => prod (fun j => leaky (prod out Wh j + bh (j 1))) We i + bee (i 1)

/-- The network: layer 1 on C0 channels, layers 2–5 on H, then the head. -/
def net {N E K C0 H R T : ℕ}
    (wfG0 : GatherDims.WF ⟨2, ![N, C0]⟩ ⟨2, ![E, 1]⟩ ⟨2, ![E, C0]⟩ [1] [0] [] [0] [] 1 ![1, C0])
    (wfS0 : ScatterDims.WF ⟨2, ![N, C0]⟩ ⟨2, ![E, 1]⟩ ⟨2, ![E, C0]⟩ [1] [0] [0] 1)
    (wfG : GatherDims.WF ⟨2, ![N, H]⟩ ⟨2, ![E, 1]⟩ ⟨2, ![E, H]⟩ [1] [0] [] [0] [] 1 ![1, H])
    (wfS : ScatterDims.WF ⟨2, ![N, H]⟩ ⟨2, ![E, 1]⟩ ⟨2, ![E, H]⟩ [1] [0] [0] 1)
    (v : Arr2 N H → Fin H → EReal) (src dst : IVec ⟨2, ![E, 1]⟩ 32) (ea : Arr2 E K)
    (p1 : LayerP K C0 H) (p2 p3 p4 p5 : LayerP K H H)
    (Wh : Arr2 H R) (bh : Fin R → EReal) (We : Arr2 R T) (bee : Fin T → EReal) (x : Arr2 N C0) : Arr2 N T :=
  head (layer wfG wfS v src dst ea p5 (layer wfG wfS v src dst ea p4 (layer wfG wfS v src dst ea p3
    (layer wfG wfS v src dst ea p2 (layer wfG0 wfS0 v src dst ea p1 x))))) Wh bh We bee

end Cert.Gine

end
-- ==== Proof.Params.lean ====
/-
  The network at the programs' argument arrays: which argument is which weight, which slice of a stacked
  argument is a layer's, and the two index columns read off the edge list.

  The edge list is [2, E]: row 0 the sources, row 1 the destinations. A source below zero is wrapped by
  the row count once (an index counted from the end); the destination is used as it is.
-/
import proofs.«122931_j61864708931975_1_alg».proof.Proof.Net

noncomputable section

namespace Cert.Gine

open Idealize.ShloMosaic Idealize.ShloMosaic.ValueIdx Cert.RowOps

/-- Layer 1's weights from their eight arguments. -/
def p1 (a3 : Arr2 7 2) (a4 : Arr1 2) (a5 : Arr2 2 64) (a6 a7 a8 : Arr1 64) (a9 : Arr2 64 64) (a10 : Arr1 64) :
    LayerP 7 2 64 :=
  ⟨a3, vec a4, a5, vec a6, vec a7, vec a8, a9, vec a10⟩

/-- Layer l + 2's weights: slice l of each stacked argument. -/
def pl (l : Fin 4) (a11 : Arr3 4 7 64) (a12 : Arr2 4 64) (a13 : Arr3 4 64 64) (a14 a15 a16 : Arr2 4 64)
    (a17 : Arr3 4 64 64) (a18 : Arr2 4 64) : LayerP 7 64 64 :=
  ⟨fun i => a11 (ix3 l (i 0) (i 1)), fun j => a12 (ix2 l j), fun i => a13 (ix3 l (i 0) (i 1)), fun j => a14 (ix2 l j),
    fun j => a15 (ix2 l j), fun j => a16 (ix2 l j), fun i => a17 (ix3 l (i 0) (i 1)), fun j => a18 (ix2 l j)⟩

/-- The source column: row 0 of the edge list, a negative entry wrapped once by the row count. -/
def srcIdx (a1 : IVec ⟨2, ![2, 800000]⟩ 32) : IVec ⟨2, ![800000, 1]⟩ 32 :=
  fun i => Scalar.select (Scalar.cmpi .slt (a1 (ix2 0 (i 0))) 0#32) (a1 (ix2 0 (i 0)) + 50000#32) (a1 (ix2 0 (i 0)))

/-- The destination column: row 1 of the edge list. -/
def dstIdx (a1 : IVec ⟨2, ![2, 800000]⟩ 32) : IVec ⟨2, ![800000, 1]⟩ 32 := fun i => a1 (ix2 1 (i 0))

/-- The network at the twenty-three arguments, the variance spelt by `v`. -/
def netOf
    (wfG0 : GatherDims.WF ⟨2, ![50000, 2]⟩ ⟨2, ![800000, 1]⟩ ⟨2, ![800000, 2]⟩ [1] [0] [] [0] [] 1 ![1, 2])
    (wfS0 : ScatterDims.WF ⟨2, ![50000, 2]⟩ ⟨2, ![800000, 1]⟩ ⟨2, ![800000, 2]⟩ [1] [0] [0] 1)
    (wfG : GatherDims.WF ⟨2, ![50000, 64]⟩ ⟨2, ![800000, 1]⟩ ⟨2, ![800000, 64]⟩ [1] [0] [] [0] [] 1 ![1, 64])
    (wfS : ScatterDims.WF ⟨2, ![50000, 64]⟩ ⟨2, ![800000, 1]⟩ ⟨2, ![800000, 64]⟩ [1] [0] [0] 1)
    (v : Arr2 50000 64 → Fin 64 → EReal)
    (a0 : Arr2 50000 2) (a1 : IVec ⟨2, ![2, 800000]⟩ 32) (a2 : Arr2 800000 7) (a3 : Arr2 7 2) (a4 : Arr1 2)
    (a5 : Arr2 2 64) (a6 a7 a8 : Arr1 64) (a9 : Arr2 64 64) (a10 : Arr1 64)
    (a11 : Arr3 4 7 64) (a12 : Arr2 4 64) (a13 : Arr3 4 64 64) (a14 a15 a16 : Arr2 4 64) (a17 : Arr3 4 64 64)
    (a18 : Arr2 4 64) (a19 : Arr2 64 500) (a20 : Arr1 500) (a21 : Arr2 500 1) (a22 : Arr1 1) : Arr2 50000 1 :=
  net wfG0 wfS0 wfG wfS v (srcIdx a1) (dstIdx a1) a2 (p1 a3 a4 a5 a6 a7 a8 a9 a10)
    (pl 0 a11 a12 a13 a14 a15 a16 a17 a18) (pl 1 a11 a12 a13 a14 a15 a16 a17 a18)
    (pl 2 a11 a12 a13 a14 a15 a16 a17 a18) (pl 3 a11 a12 a13 a14 a15 a16 a17 a18)
    a19 (vec a20) a21 (vec a22) a0

end Cert.Gine

end
-- ==== Proof.LibDense.lean ====
/-
  A dense layer on the extended reals, index by index, and the readings that bring a vector unit's matrix
  product, the host's dot_general and a bias row to it.

  For a left operand `a : [n, K]`, a right operand `w : [K, d]` the product's entry (r, j) is the finite sum
  `∑ k, a (r, k) * w (k, j)`; a sum on the extended reals is a sum in a commutative monoid, so no order, grouping or
  tiling of it matters and no finiteness is needed anywhere in this file.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibDense

open Idealize.ShloMosaic Idealize.ShloMosaic.ValueIdx

/-- Entry (r, j) of the product of `a : [n, K]` and `w : [K, d]`. -/
def prod {n K d : ℕ} (a : (⟨2, ![n, K]⟩ : Shape).Idx → EReal) (w : (⟨2, ![K, d]⟩ : Shape).Idx → EReal) :
    (⟨2, ![n, d]⟩ : Shape).Idx → EReal :=
  fun i => ∑ k : Fin K, a (ix2 (i 0) k) * w (ix2 k (i 1))

/-- The affine part of a graph-convolution layer: `(mean · Wl + xt · Wr) + b`, the bias added to every row. -/
def affine {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => (prod mean wl i + prod xt wr i) + b (ix1 (i 1))

/-- The layer with the rectifier: the larger of the affine part and the zero word's value. -/
def relu {n K d : ℕ} (mean xt : (⟨2, ![n, K]⟩ : Shape).Idx → EReal) (wl wr : (⟨2, ![K, d]⟩ : Shape).Idx → EReal)
    (b : (⟨1, ![d]⟩ : Shape).Idx → EReal) : (⟨2, ![n, d]⟩ : Shape).Idx → EReal :=
  fun i => max (affine mean xt wl wr b i) (Ideal.ofBits .f32 0x00000000#32)

/-- An entry of the affine part reads one row of each row operand, one column of each weight and one bias entry: two
    sets of operands that agree there give the same entry. -/
theorem affine_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    affine a x wl wr b i = affine a' x' wl' wr' b' i' := by
  unfold affine prod
  rw [hb, Finset.sum_congr rfl (fun k _ => congrArg₂ (· * ·) (ha k) (hwl k)),
    Finset.sum_congr rfl (fun k _ => congrArg₂ (· * ·) (hx k) (hwr k))]

/-- The same for the layer with the rectifier. -/
theorem relu_congr {n n' K d : ℕ} (a x : (⟨2, ![n, K]⟩ : Shape).Idx → EReal) (a' x' : (⟨2, ![n', K]⟩ : Shape).Idx → EReal)
    (wl wr wl' wr' : (⟨2, ![K, d]⟩ : Shape).Idx → EReal) (b b' : (⟨1, ![d]⟩ : Shape).Idx → EReal)
    (i : (⟨2, ![n, d]⟩ : Shape).Idx) (i' : (⟨2, ![n', d]⟩ : Shape).Idx)
    (ha : ∀ k : Fin K, a (ix2 (i 0) k) = a' (ix2 (i' 0) k)) (hx : ∀ k : Fin K, x (ix2 (i 0) k) = x' (ix2 (i' 0) k))
    (hwl : ∀ k : Fin K, wl (ix2 k (i 1)) = wl' (ix2 k (i' 1))) (hwr : ∀ k : Fin K, wr (ix2 k (i 1)) = wr' (ix2 k (i' 1)))
    (hb : b (ix1 (i 1)) = b' (ix1 (i' 1))) :
    relu a x wl wr b i = relu a' x' wl' wr' b' i' := by
  unfold relu
  rw [affine_congr a x a' x' wl wr wl' wr' b b' i i' ha hx hwl hwr hb]

/-! ## The contraction index of a plain `[M, K] × [K, N]` product is `Fin K` -/

theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The sum over the product's contraction index, re-indexed by `Fin K`, is the row-by-column sum. -/
theorem plain_sum (M K N : ℕ) (x : (⟨2, ![M, K]⟩ : Shape).Idx → EReal) (w : (⟨2, ![K, N]⟩ : Shape).Idx → EReal)
    (i : (⟨2, ![M, N]⟩ : Shape).Idx) :
    ∑ q : (DotDims.plain M K N).contr.Idx, x ((DotDims.plain M K N).lhsIdx i q) * w ((DotDims.plain M K N).rhsIdx i q)
      = prod x w i := by
  unfold prod
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact plain_lhs0 M K N i _
      | ⟨1, _⟩ => exact ((DotDims.plain M K N).lhsIdx_val_of_single rfl i _).trans hk)
  have er : (DotDims.plain M K N).rhsIdx i ((contrEquiv1 (DotDims.plain M K N) K rfl rfl).symm k) = ix2 k (i 1) :=
    funext fun a => Fin.ext (by
      match a with
      | ⟨0, _⟩ => exact ((DotDims.plain M K N).rhsIdx_val_of_single rfl i _).trans hk
      | ⟨1, _⟩ => exact plain_rhs1 M K N i _)
  exact congrArg₂ (· * ·) (congrArg x el) (congrArg w er)

/-- A vector unit's matrix product into the zero accumulator, at an entry. -/
theorem matmul_plain {M K N : ℕ} {φ₁ φ₂ : FTy} (x : FVec Ideal ⟨2, ![M, K]⟩ φ₁) (w : FVec Ideal ⟨2, ![K, N]⟩ φ₂)
    (i : (⟨2, ![M, N]⟩ : Shape).Idx) :
    FloatOps.matmul (DotDims.plain M K N) none x w (constant (F := Ideal) ⟨2, ![M, N]⟩ .f32 0x00000000#32) i = prod x w i := by
  rw [Ideal.matmul_constant_zero_apply]
  exact plain_sum M K N x w i

/-- The host's dot_general of the same dimensions, at an entry. -/
theorem dotGeneral_plain {M K N : ℕ} (sched : HostSchedule) (x : (⟨2, ![M, K]⟩ : Shape).Idx → EReal) (w : (⟨2, ![K, N]⟩ : Shape).Idx → EReal)
    (i : (⟨2, ![M, N]⟩ : Shape).Idx) :
    FloatOps.dotGeneral (F := Ideal) (φ₁ := .f32) (φ₂ := .f32) (DotDims.plain M K N) none sched x w i = prod x w i := by
  rw [Ideal.dotGeneral_apply]
  exact plain_sum M K N x w i

/-! ## A bias row -/

/-- A vector `b : [d]` cast to `[1, d]` and broadcast down `n` rows, at entry (r, j), is `b j`. -/
theorem bias_row {n d : ℕ} (b : (⟨1, ![d]⟩ : Shape).Idx → EReal) (h1 : (⟨1, ![d]⟩ : Shape).ShapeCasts ⟨2, ![1, d]⟩)
    (h2 : (⟨2, ![1, d]⟩ : Shape).Broadcasts ⟨2, ![n, d]⟩) (i : (⟨2, ![n, d]⟩ : Shape).Idx) :
    broadcastTo ⟨2, ![n, d]⟩ (shapeCast ⟨2, ![1, d]⟩ b h1) h2 i = b (ix1 (i 1)) := by
  refine (broadcastTo_apply _ h2 i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine (shapeCast_addUnit_apply ![d] b h1 _).trans (congrArg b (funext fun a => ?_))
    match a with
    | ⟨0, _⟩ => rfl

end Cert.LibDense

end
-- ==== Proof.RefLayer.lean ====
/-
  The reference's spelling of one graph-convolution layer, and of the head, as compositions of host operations on
  extended reals, and the proof that each is the specification's function.

  The reference gathers the source rows, adds the edge map ea·eW and the bias row, rectifies by a maximum with
  zero; sums the messages into the destination rows from an array of zeros; adds x, multiplies by Wa, adds the
  bias row; takes the column mean as the column total over the count; takes the variance as the total of
  (h − mean)² over (count − 0), under a selection that keeps it where count − 0 > 0 (and would give the
  not-a-number word elsewhere); normalises, scales, shifts, applies the leaky rectifier (a selection between v
  and slope · v on v ≥ 0), multiplies by Wb, adds the bias row and applies the leaky rectifier again.

  Index by index every step is the specification's: a product is the row-by-column sum, a bias row broadcast
  down the rows reads the vector at the column, a total along axis 0 is the zero word plus the column's sum,
  count − 0 is the count and the count is positive, so the selection keeps the quotient.
-/
import proofs.«122931_j61864708931975_1_alg».proof.Proof.Params
import proofs.«122931_j61864708931975_1_alg».proof.Proof.LibDense
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.Gine.Ref

open Idealize.ShloMosaic Idealize.ShloMosaic.ValueIdx Cert.RowOps Cert.Gine

/-! ## Readings of single operations -/

/-- A vector laid as a row and the row broadcast down n rows reads the vector at the column. -/
theorem bias_apply {n d : ℕ} (b : Arr1 d)
    (h1 : (⟨1, ![d]⟩ : Shape).BroadcastsInDim ⟨2, ![1, d]⟩ ![1])
    (h2 : (⟨2, ![1, d]⟩ : Shape).BroadcastsInDim ⟨2, ![n, d]⟩ ![0, 1]) (i : (⟨2, ![n, d]⟩ : Shape).Idx) :
    broadcastInDim ⟨2, ![n, d]⟩ ![0, 1] h2 (broadcastInDim ⟨2, ![1, d]⟩ ![1] h1 b) i = b (ix1 (i 1)) := by
  refine (broadcastInDim_apply _ h2 _ i (ix2 ⟨0, Nat.one_pos⟩ (i 1)) (fun a => ?_)).trans ?_
  · match a with
    | ⟨0, _⟩ => exact (if_pos rfl).symm
    | ⟨1, _⟩ =>
      show (i 1).val = if d = 1 then 0 else (i 1).val
      have hlt : (i 1).val < d := idx2_lt1 i
      split
      · omega
      · rfl
  · refine broadcastInDim_apply _ h1 b _ (ix1 (i 1)) (fun a => ?_)
    match a with
    | ⟨0, _⟩ =>
      show (i 1).val = if d = 1 then 0 else (i 1).val
      have hlt : (i 1).val < d := idx2_lt1 i
      split
      · omega
      · rfl

/-- A vector laid as a row reads the vector at the column. -/
theorem row_apply {d : ℕ} (b : Arr1 d) (h1 : (⟨1, ![d]⟩ : Shape).BroadcastsInDim ⟨2, ![1, d]⟩ ![1])
    (i : (⟨2, ![1, d]⟩ : Shape).Idx) : broadcastInDim ⟨2, ![1, d]⟩ ![1] h1 b i = b (ix1 (i 1)) := by
  refine broadcastInDim_apply _ h1 b i (ix1 (i 1)) (fun a => ?_)
  match a with
  | ⟨0, _⟩ =>
    show (i 1).val = if d = 1 then 0 else (i 1).val
    have hlt : (i 1).val < d := idx2_lt1 i
    split
    · omega
    · rfl

/-- A one-row matrix broadcast down n rows reads the row at the column. -/
theorem rows_apply {n d : ℕ} (b : Arr2 1 d) (h2 : (⟨2, ![1, d]⟩ : Shape).BroadcastsInDim ⟨2, ![n, d]⟩ ![0, 1])
    (i : (⟨2, ![n, d]⟩ : Shape).Idx) :
    broadcastInDim ⟨2, ![n, d]⟩ ![0, 1] h2 b i = b (ix2 ⟨0, Nat.one_pos⟩ (i 1)) := by
  refine broadcastInDim_apply _ h2 b i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- The host's total along axis 0 from the zero word is the specification's column total. -/
theorem total_apply {N H : ℕ} (h : Arr2 N H) (red : (⟨2, ![N, H]⟩ : Shape).ReducesTo [0] ⟨1, ![H]⟩)
    (hR : (⟨2, ![N, H]⟩ : Shape).Reduces [0] ⟨1, ![H]⟩) (hu : 0 < (⟨0, ![]⟩ : Shape).numel) (j : Fin H) :
    Host.reduceAdd (F := Ideal) (φ := .f32) h (constant (F := Ideal) ⟨0, ![]⟩ .f32 0x00000000#32) red hu (ix1 j)
      = colSum h j := by
  refine (hostReduceAdd_apply h _ red hu (ix1 j)).trans ?_
  refine (Ideal.hostReduceAdd_single red hR h _ (ix1 j)).trans ?_
  unfold colSum
  refine congrArg₂ (· + ·) rfl (Finset.sum_congr rfl fun r _ => congrArg h (funext fun a => Fin.ext ?_))
  match a with
  | ⟨0, _⟩ => rfl
  | ⟨1, _⟩ => rfl

/-- The host's product of [M, K] by [K, D] is the row-by-column sum. -/
theorem dot_apply {M K D : ℕ} (dd : DotDims ⟨2, ![M, K]⟩ ⟨2, ![K, D]⟩ ⟨2, ![M, D]⟩) (hd : dd = DotDims.plain M K D)
    (a : Arr2 M K) (w : Arr2 K D) :
    Host.dotGeneral (F := Ideal) (φ₁ := .f32) (φ₂ := .f32) dd none a w = prod a w := by
  subst hd
  funext i
  exact Cert.LibDense.dotGeneral_plain .single a w i

/-- The count word is the real 50000. -/
theorem count_eq : wCount = ((50000 : ℝ) : EReal) := by
  unfold wCount; simp [Ideal.ofBits, Ideal.ieee, -EReal.coe_mul]; norm_num

/-- The count less the integer zero read as a float is the count. -/
theorem count_sub :
    subf (constant (F := Ideal) ⟨0, ![]⟩ .f32 0x47435000#32) (sitofp .f32 (constantI ⟨0, ![]⟩ 32 0#32)) ix0 = wCount := by
  show wCount - (((0#32 : BitVec 32).toInt : ℝ) : EReal) = wCount
  simp

/-- The count is above the zero word. -/
theorem count_pos : Ideal.cmp .ogt wCount (Ideal.ofBits .f32 0x00000000#32) = 1#1 := by
  have h0 : Ideal.ofBits .f32 0x00000000#32 = 0 := Ideal.ofBits_zero_f32
  rw [h0, count_eq]
  have hlt : (0 : EReal) < ((50000 : ℝ) : EReal) := by exact_mod_cast (by norm_num : (0 : ℝ) < 50000)
  show BitVec.ofBool (decide ((0 : EReal) < ((50000 : ℝ) : EReal))) = 1#1
  rw [decide_eq_true hlt]
  rfl

/-! ## The reference's terms -/

section Terms
variable {N E K C H : ℕ}

/-- The messages as the reference spells them. -/
def refMsg (G : GatherDims ⟨2, ![N, C]⟩ ⟨2, ![E, 1]⟩ ⟨2, ![E, C]⟩) (dE : DotDims ⟨2, ![E, K]⟩ ⟨2, ![K, C]⟩ ⟨2, ![E, C]⟩)
    (h1 : (⟨1, ![C]⟩ : Shape).BroadcastsInDim ⟨2, ![1, C]⟩ ![1])
    (h2 : (⟨2, ![1, C]⟩ : Shape).BroadcastsInDim ⟨2, ![E, C]⟩ ![0, 1])
    (h0 : (⟨0, ![]⟩ : Shape).BroadcastsInDim ⟨2, ![E, C]⟩ ![])
    (x : Arr2 N C) (src : IVec ⟨2, ![E, 1]⟩ 32) (ea : Arr2 E K) (eW : Arr2 K C) (eb : Arr1 C) : Arr2 E C :=
  maximumf (F := Ideal) (φ := .f32)
    (addf (F := Ideal) (φ := .f32)
      (addf (F := Ideal) (φ := .f32) (Host.gather G x src)
        (Host.dotGeneral (F := Ideal) (φ₁ := .f32) (φ₂ := .f32) dE none ea eW))
      (broadcastInDim ⟨2, ![E, C]⟩ ![0, 1] h2 (broadcastInDim ⟨2, ![1, C]⟩ ![1] h1 eb)))
    (broadcastInDim ⟨2, ![E, C]⟩ ![] h0 (constant (F := Ideal) ⟨0, ![]⟩ .f32 0x00000000#32))

/-- The node map before normalisation as the reference spells it. -/
def refPre (S : ScatterDims ⟨2, ![N, C]⟩ ⟨2, ![E, 1]⟩ ⟨2, ![E, C]⟩) (dN : DotDims ⟨2, ![N, C]⟩ ⟨2, ![C, H]⟩ ⟨2, ![N, H]⟩)
    (h0 : (⟨0, ![]⟩ : Shape).BroadcastsInDim ⟨2, ![N, C]⟩ ![])
    (hc : (⟨1, ![E]⟩ : Shape).BroadcastsInDim ⟨2, ![E, 1]⟩ ![0])
    (h1 : (⟨1, ![H]⟩ : Shape).BroadcastsInDim ⟨2, ![1, H]⟩ ![1])
    (h2 : (⟨2, ![1, H]⟩ : Shape).BroadcastsInDim ⟨2, ![N, H]⟩ ![0, 1])
    (x : Arr2 N C) (dst : IVec ⟨1, ![E]⟩ 32) (mg : Arr2 E C) (Wa : Arr2 C H) (ba : Arr1 H) : Arr2 N H :=
  addf (F := Ideal) (φ := .f32)
    (Host.dotGeneral (F := Ideal) (φ₁ := .f32) (φ₂ := .f32) dN none
      (addf (F := Ideal) (φ := .f32) x
        (Host.scatterAdd (F := Ideal) (φ := .f32) S
          (broadcastInDim ⟨2, ![N, C]⟩ ![] h0 (constant (F := Ideal) ⟨0, ![]⟩ .f32 0x00000000#32))
          (broadcastInDim ⟨2, ![E, 1]⟩ ![0] hc dst) mg))
      Wa)
    (broadcastInDim ⟨2, ![N, H]⟩ ![0, 1] h2 (broadcastInDim ⟨2, ![1, H]⟩ ![1] h1 ba))

/-- The column mean as the reference spells it. -/
def refMean (red : (⟨2, ![N, H]⟩ : Shape).ReducesTo [0] ⟨1, ![H]⟩) (hu : 0 < (⟨0, ![]⟩ : Shape).numel)
    (hs : (⟨0, ![]⟩ : Shape).BroadcastsInDim ⟨1, ![H]⟩ ![]) (h : Arr2 N H) : Arr1 H :=
  Host.divf (F := Ideal) (φ := .f32)
    (Host.reduceAdd (F := Ideal) (φ := .f32) h (constant (F := Ideal) ⟨0, ![]⟩ .f32 0x00000000#32) red hu)
    (broadcastInDim ⟨1, ![H]⟩ ![] hs (constant (F := Ideal) ⟨0, ![]⟩ .f32 0x47435000#32))

/-- h less its column mean, the mean taken on the one-row total, as the reference's variance spells it. -/
def refCentred (red : (⟨2, ![N, H]⟩ : Shape).ReducesTo [0] ⟨1, ![H]⟩) (hu : 0 < (⟨0, ![]⟩ : Shape).numel)
    (h1 : (⟨1, ![H]⟩ : Shape).BroadcastsInDim ⟨2, ![1, H]⟩ ![1])
    (h2 : (⟨2, ![1, H]⟩ : Shape).BroadcastsInDim ⟨2, ![N, H]⟩ ![0, 1])
    (hs1 : (⟨0, ![]⟩ : Shape).BroadcastsInDim ⟨2, ![1, H]⟩ ![]) (h : Arr2 N H) : Arr2 N H :=
  subf (F := Ideal) (φ := .f32) h
    (broadcastInDim ⟨2, ![N, H]⟩ ![0, 1] h2
      (Host.divf (F := Ideal) (φ := .f32)
        (broadcastInDim ⟨2, ![1, H]⟩ ![1] h1
          (Host.reduceAdd (F := Ideal) (φ := .f32) h (constant (F := Ideal) ⟨0, ![]⟩ .f32 0x00000000#32) red hu))
        (broadcastInDim ⟨2, ![1, H]⟩ ![] hs1 (constant (F := Ideal) ⟨0, ![]⟩ .f32 0x47435000#32))))

/-- The column variance as the reference spells it. -/
def refVar (red : (⟨2, ![N, H]⟩ : Shape).ReducesTo [0] ⟨1, ![H]⟩) (hu : 0 < (⟨0, ![]⟩ : Shape).numel)
    (h1 : (⟨1, ![H]⟩ : Shape).BroadcastsInDim ⟨2, ![1, H]⟩ ![1])
    (h2 : (⟨2, ![1, H]⟩ : Shape).BroadcastsInDim ⟨2, ![N, H]⟩ ![0, 1])
    (hs1 : (⟨0, ![]⟩ : Shape).BroadcastsInDim ⟨2, ![1, H]⟩ ![])
    (hs : (⟨0, ![]⟩ : Shape).BroadcastsInDim ⟨1, ![H]⟩ ![]) (h : Arr2 N H) : Arr1 H :=
  select
    (broadcastInDim ⟨1, ![H]⟩ ![] hs
      (cmpf (F := Ideal) (φ := .f32) .ogt
        (subf (F := Ideal) (φ := .f32) (constant (F := Ideal) ⟨0, ![]⟩ .f32 0x47435000#32)
          (sitofp .f32 (constantI ⟨0, ![]⟩ 32 0#32)))
        (constant (F := Ideal) ⟨0, ![]⟩ .f32 0x00000000#32)))
    (Host.divf (F := Ideal) (φ := .f32)
      (Host.reduceAdd (F := Ideal) (φ := .f32)
        (mulf (F := Ideal) (φ := .f32) (refCentred red hu h1 h2 hs1 h) (refCentred red hu h1 h2 hs1 h))
        (constant (F := Ideal) ⟨0, ![]⟩ .f32 0x00000000#32) red hu)
      (broadcastInDim ⟨1, ![H]⟩ ![] hs
        (subf (F := Ideal) (φ := .f32) (constant (F := Ideal) ⟨0, ![]⟩ .f32 0x47435000#32)
          (sitofp .f32 (constantI ⟨0, ![]⟩ 32 0#32)))))
    (broadcastInDim ⟨1, ![H]⟩ ![] hs (id (constant (F := Ideal) ⟨0, ![]⟩ .f32 0x7FC00000#32)))

/-- The leaky rectifier as the reference spells it on a matrix. -/
def refLeaky {n d : ℕ} (h0 : (⟨0, ![]⟩ : Shape).BroadcastsInDim ⟨2, ![n, d]⟩ ![]) (v : Arr2 n d) : Arr2 n d :=
  select
    (cmpf (F := Ideal) (φ := .f32) .oge v
      (broadcastInDim ⟨2, ![n, d]⟩ ![] h0 (constant (F := Ideal) ⟨0, ![]⟩ .f32 0x00000000#32)))
    v
    (mulf (F := Ideal) (φ := .f32)
      (broadcastInDim ⟨2, ![n, d]⟩ ![] h0 (constant (F := Ideal) ⟨0, ![]⟩ .f32 0x3C23D70A#32)) v)

/-- Normalisation, scale, shift, rectifier, second map and rectifier as the reference spells them. -/
def refPost (dH : DotDims ⟨2, ![N, H]⟩ ⟨2, ![H, H]⟩ ⟨2, ![N, H]⟩)
    (h1 : (⟨1, ![H]⟩ : Shape).BroadcastsInDim ⟨2, ![1, H]⟩ ![1])
    (h2 : (⟨2, ![1, H]⟩ : Shape).BroadcastsInDim ⟨2, ![N, H]⟩ ![0, 1])
    (hs : (⟨0, ![]⟩ : Shape).BroadcastsInDim ⟨1, ![H]⟩ ![])
    (h0 : (⟨0, ![]⟩ : Shape).BroadcastsInDim ⟨2, ![N, H]⟩ ![])
    (h : Arr2 N H) (mu var g be : Arr1 H) (Wb : Arr2 H H) (bb : Arr1 H) : Arr2 N H :=
  refLeaky h0
    (addf (F := Ideal) (φ := .f32)
      (Host.dotGeneral (F := Ideal) (φ₁ := .f32) (φ₂ := .f32) dH none
        (refLeaky h0
          (addf (F := Ideal) (φ := .f32)
            (mulf (F := Ideal) (φ := .f32)
              (mulf (F := Ideal) (φ := .f32)
                (subf (F := Ideal) (φ := .f32) h
                  (broadcastInDim ⟨2, ![N, H]⟩ ![0, 1] h2 (broadcastInDim ⟨2, ![1, H]⟩ ![1] h1 mu)))
                (broadcastInDim ⟨2, ![N, H]⟩ ![0, 1] h2 (broadcastInDim ⟨2, ![1, H]⟩ ![1] h1
                  (Host.rsqrt (F := Ideal) (φ := .f32)
                    (addf (F := Ideal) (φ := .f32) var
                      (broadcastInDim ⟨1, ![H]⟩ ![] hs (constant (F := Ideal) ⟨0, ![]⟩ .f32 0x3727C5AC#32)))))))
              (broadcastInDim ⟨2, ![N, H]⟩ ![0, 1] h2 (broadcastInDim ⟨2, ![1, H]⟩ ![1] h1 g)))
            (broadcastInDim ⟨2, ![N, H]⟩ ![0, 1] h2 (broadcastInDim ⟨2, ![1, H]⟩ ![1] h1 be))))
        Wb)
      (broadcastInDim ⟨2, ![N, H]⟩ ![0, 1] h2 (broadcastInDim ⟨2, ![1, H]⟩ ![1] h1 bb)))

end Terms

/-! ## Each term is the specification's -/

section Eqs
variable {N E K C H : ℕ}

theorem refLeaky_apply {n d : ℕ} (h0 : (⟨0, ![]⟩ : Shape).BroadcastsInDim ⟨2, ![n, d]⟩ ![]) (v : Arr2 n d)
    (i : (⟨2, ![n, d]⟩ : Shape).Idx) : refLeaky h0 v i = leaky (v i) := by
  unfold refLeaky leaky
  rw [select_apply, cmpf_apply, mulf_apply, broadcastInDim_scalar_apply, broadcastInDim_scalar_apply]
  rfl

theorem refMsg_eq (wfG : GatherDims.WF ⟨2, ![N, C]⟩ ⟨2, ![E, 1]⟩ ⟨2, ![E, C]⟩ [1] [0] [] [0] [] 1 ![1, C])
    (G : GatherDims ⟨2, ![N, C]⟩ ⟨2, ![E, 1]⟩ ⟨2, ![E, C]⟩) (hG : G = rowGather N C E wfG)
    (dE : DotDims ⟨2, ![E, K]⟩ ⟨2, ![K, C]⟩ ⟨2, ![E, C]⟩) (hdE : dE = DotDims.plain E K C)
    (h1 : (⟨1, ![C]⟩ : Shape).BroadcastsInDim ⟨2, ![1, C]⟩ ![1])
    (h2 : (⟨2, ![1, C]⟩ : Shape).BroadcastsInDim ⟨2, ![E, C]⟩ ![0, 1])
    (h0 : (⟨0, ![]⟩ : Shape).BroadcastsInDim ⟨2, ![E, C]⟩ ![])
    (x : Arr2 N C) (src : IVec ⟨2, ![E, 1]⟩ 32) (ea : Arr2 E K) (eW : Arr2 K C) (eb : Arr1 C) :
    refMsg G dE h1 h2 h0 x src ea eW eb = msg (gathered wfG src x) ea eW (vec eb) := by
  subst hG
  funext i
  unfold refMsg msg gathered vec
  rw [maximumf_apply, addf_apply, addf_apply, bias_apply, broadcastInDim_scalar_apply, dot_apply dE hdE]
  rfl

theorem refPre_eq (wfS : ScatterDims.WF ⟨2, ![N, C]⟩ ⟨2, ![E, 1]⟩ ⟨2, ![E, C]⟩ [1] [0] [0] 1)
    (S : ScatterDims ⟨2, ![N, C]⟩ ⟨2, ![E, 1]⟩ ⟨2, ![E, C]⟩) (hS : S = rowScatter N C E wfS)
    (dN : DotDims ⟨2, ![N, C]⟩ ⟨2, ![C, H]⟩ ⟨2, ![N, H]⟩) (hdN : dN = DotDims.plain N C H)
    (h0 : (⟨0, ![]⟩ : Shape).BroadcastsInDim ⟨2, ![N, C]⟩ ![])
    (hc : (⟨1, ![E]⟩ : Shape).BroadcastsInDim ⟨2, ![E, 1]⟩ ![0])
    (h1 : (⟨1, ![H]⟩ : Shape).BroadcastsInDim ⟨2, ![1, H]⟩ ![1])
    (h2 : (⟨2, ![1, H]⟩ : Shape).BroadcastsInDim ⟨2, ![N, H]⟩ ![0, 1])
    (x : Arr2 N C) (dst : IVec ⟨1, ![E]⟩ 32) (mg : Arr2 E C) (Wa : Arr2 C H) (ba : Arr1 H) :
    refPre S dN h0 hc h1 h2 x dst mg Wa ba
      = hpre x (summed wfS (broadcastInDim ⟨2, ![E, 1]⟩ ![0] hc dst) mg) Wa (vec ba) := by
  subst hS
  have hz : broadcastInDim ⟨2, ![N, C]⟩ ![] h0 (constant (F := Ideal) ⟨0, ![]⟩ .f32 0x00000000#32) = fun _ => wZero := by
    funext i
    rw [broadcastInDim_scalar_apply]
    rfl
  funext i
  unfold refPre hpre summed vec
  rw [addf_apply, bias_apply, dot_apply dN hdN, hz]
  rfl

theorem refMean_eq (red : (⟨2, ![N, H]⟩ : Shape).ReducesTo [0] ⟨1, ![H]⟩)
    (hR : (⟨2, ![N, H]⟩ : Shape).Reduces [0] ⟨1, ![H]⟩) (hu : 0 < (⟨0, ![]⟩ : Shape).numel)
    (hs : (⟨0, ![]⟩ : Shape).BroadcastsInDim ⟨1, ![H]⟩ ![]) (h : Arr2 N H) :
    vec (refMean red hu hs h) = mean h := by
  funext j
  unfold vec refMean mean
  rw [hostDivf_apply, total_apply h red hR hu j, broadcastInDim_scalar_apply]
  rfl

theorem refCentred_apply (red : (⟨2, ![N, H]⟩ : Shape).ReducesTo [0] ⟨1, ![H]⟩)
    (hR : (⟨2, ![N, H]⟩ : Shape).Reduces [0] ⟨1, ![H]⟩) (hu : 0 < (⟨0, ![]⟩ : Shape).numel)
    (h1 : (⟨1, ![H]⟩ : Shape).BroadcastsInDim ⟨2, ![1, H]⟩ ![1])
    (h2 : (⟨2, ![1, H]⟩ : Shape).BroadcastsInDim ⟨2, ![N, H]⟩ ![0, 1])
    (hs1 : (⟨0, ![]⟩ : Shape).BroadcastsInDim ⟨2, ![1, H]⟩ ![]) (h : Arr2 N H) (i : (⟨2, ![N, H]⟩ : Shape).Idx) :
    refCentred red hu h1 h2 hs1 h i = h i - mean h (i 1) := by
  unfold refCentred mean
  rw [subf_apply, rows_apply, hostDivf_apply, row_apply, broadcastInDim_scalar_apply]
  refine congrArg₂ (· - ·) rfl (congrArg₂ Ideal.div ?_ rfl)
  exact total_apply h red hR hu (i 1)

theorem refVar_eq (red : (⟨2, ![N, H]⟩ : Shape).ReducesTo [0] ⟨1, ![H]⟩)
    (hR : (⟨2, ![N, H]⟩ : Shape).Reduces [0] ⟨1, ![H]⟩) (hu : 0 < (⟨0, ![]⟩ : Shape).numel)
    (h1 : (⟨1, ![H]⟩ : Shape).BroadcastsInDim ⟨2, ![1, H]⟩ ![1])
    (h2 : (⟨2, ![1, H]⟩ : Shape).BroadcastsInDim ⟨2, ![N, H]⟩ ![0, 1])
    (hs1 : (⟨0, ![]⟩ : Shape).BroadcastsInDim ⟨2, ![1, H]⟩ ![])
    (hs : (⟨0, ![]⟩ : Shape).BroadcastsInDim ⟨1, ![H]⟩ ![]) (h : Arr2 N H) :
    vec (refVar red hu h1 h2 hs1 hs h) = varTwo h := by
  funext j
  have hc : (fun i => refCentred red hu h1 h2 hs1 h i * refCentred red hu h1 h2 hs1 h i)
      = fun i => (h i - mean h (i 1)) * (h i - mean h (i 1)) := by
    funext i
    rw [refCentred_apply red hR hu h1 h2 hs1 h i]
  unfold vec refVar varTwo
  rw [select_apply, broadcastInDim_scalar_apply, broadcastInDim_scalar_apply, hostDivf_apply,
    broadcastInDim_scalar_apply, cmpf_apply, count_sub]
  have hp : FloatOps.cmpf (F := Ideal) (φ := .f32) .ogt wCount (constant (F := Ideal) ⟨0, ![]⟩ .f32 0x00000000#32 ix0) = 1#1 :=
    count_pos
  rw [hp, select_one]
  refine congrArg₂ Ideal.div ?_ rfl
  refine (total_apply _ red hR hu j).trans ?_
  show colSum (fun i => refCentred red hu h1 h2 hs1 h i * refCentred red hu h1 h2 hs1 h i) j = _
  rw [hc]

theorem refPost_eq (dH : DotDims ⟨2, ![N, H]⟩ ⟨2, ![H, H]⟩ ⟨2, ![N, H]⟩) (hdH : dH = DotDims.plain N H H)
    (h1 : (⟨1, ![H]⟩ : Shape).BroadcastsInDim ⟨2, ![1, H]⟩ ![1])
    (h2 : (⟨2, ![1, H]⟩ : Shape).BroadcastsInDim ⟨2, ![N, H]⟩ ![0, 1])
    (hs : (⟨0, ![]⟩ : Shape).BroadcastsInDim ⟨1, ![H]⟩ ![])
    (h0 : (⟨0, ![]⟩ : Shape).BroadcastsInDim ⟨2, ![N, H]⟩ ![])
    (h : Arr2 N H) (mu var g be : Arr1 H) (Wb : Arr2 H H) (bb : Arr1 H) :
    refPost dH h1 h2 hs h0 h mu var g be Wb bb = post h (vec mu) (vec var) (vec g) (vec be) Wb (vec bb) := by
  have hin : refLeaky h0
          (addf (F := Ideal) (φ := .f32)
            (mulf (F := Ideal) (φ := .f32)
              (mulf (F := Ideal) (φ := .f32)
                (subf (F := Ideal) (φ := .f32) h
                  (broadcastInDim ⟨2, ![N, H]⟩ ![0, 1] h2 (broadcastInDim ⟨2, ![1, H]⟩ ![1] h1 mu)))
                (broadcastInDim ⟨2, ![N, H]⟩ ![0, 1] h2 (broadcastInDim ⟨2, ![1, H]⟩ ![1] h1
                  (Host.rsqrt (F := Ideal) (φ := .f32)
                    (addf (F := Ideal) (φ := .f32) var
                      (broadcastInDim ⟨1, ![H]⟩ ![] hs (constant (F := Ideal) ⟨0, ![]⟩ .f32 0x3727C5AC#32)))))))
              (broadcastInDim ⟨2, ![N, H]⟩ ![0, 1] h2 (broadcastInDim ⟨2, ![1, H]⟩ ![1] h1 g)))
            (broadcastInDim ⟨2, ![N, H]⟩ ![0, 1] h2 (broadcastInDim ⟨2, ![1, H]⟩ ![1] h1 be)))
      = fun j => leaky (((h j - vec mu (j 1)) * Ideal.rsqrt (vec var (j 1) + wEps)) * vec g (j 1) + vec be (j 1)) := by
    funext j
    rw [refLeaky_apply, addf_apply, mulf_apply, mulf_apply, subf_apply, bias_apply, bias_apply, bias_apply, bias_apply]
    unfold vec
    refine congrArg leaky ?_
    refine congrArg₂ (· + ·) (congrArg₂ (· * ·) (congrArg₂ (· * ·) rfl ?_) rfl) rfl
    show FloatOps.hostUnary (F := Ideal) (φ := .f32) .rsqrt
        (var (ix1 (j 1)) + broadcastInDim ⟨1, ![H]⟩ ![] hs (constant (F := Ideal) ⟨0, ![]⟩ .f32 0x3727C5AC#32) (ix1 (j 1))) = _
    rw [broadcastInDim_scalar_apply]
    rfl
  funext i
  unfold refPost post
  rw [refLeaky_apply, addf_apply, bias_apply, hin, dot_apply dH hdH]
  rfl

end Eqs

/-! ## One layer after its source column, and the head -/

section Layer
variable {N E K C H : ℕ}

/-- The reference's layer from the source column, the destination vector and the weights. -/
def refBody (G : GatherDims ⟨2, ![N, C]⟩ ⟨2, ![E, 1]⟩ ⟨2, ![E, C]⟩) (dE : DotDims ⟨2, ![E, K]⟩ ⟨2, ![K, C]⟩ ⟨2, ![E, C]⟩)
    (S : ScatterDims ⟨2, ![N, C]⟩ ⟨2, ![E, 1]⟩ ⟨2, ![E, C]⟩) (dN : DotDims ⟨2, ![N, C]⟩ ⟨2, ![C, H]⟩ ⟨2, ![N, H]⟩)
    (dH : DotDims ⟨2, ![N, H]⟩ ⟨2, ![H, H]⟩ ⟨2, ![N, H]⟩)
    (red : (⟨2, ![N, H]⟩ : Shape).ReducesTo [0] ⟨1, ![H]⟩) (hu : 0 < (⟨0, ![]⟩ : Shape).numel)
    (c1 : (⟨1, ![C]⟩ : Shape).BroadcastsInDim ⟨2, ![1, C]⟩ ![1])
    (c2 : (⟨2, ![1, C]⟩ : Shape).BroadcastsInDim ⟨2, ![E, C]⟩ ![0, 1])
    (c0 : (⟨0, ![]⟩ : Shape).BroadcastsInDim ⟨2, ![E, C]⟩ ![])
    (n0 : (⟨0, ![]⟩ : Shape).BroadcastsInDim ⟨2, ![N, C]⟩ ![])
    (hc : (⟨1, ![E]⟩ : Shape).BroadcastsInDim ⟨2, ![E, 1]⟩ ![0])
    (h1 : (⟨1, ![H]⟩ : Shape).BroadcastsInDim ⟨2, ![1, H]⟩ ![1])
    (h2 : (⟨2, ![1, H]⟩ : Shape).BroadcastsInDim ⟨2, ![N, H]⟩ ![0, 1])
    (hs1 : (⟨0, ![]⟩ : Shape).BroadcastsInDim ⟨2, ![1, H]⟩ ![])
    (hs : (⟨0, ![]⟩ : Shape).BroadcastsInDim ⟨1, ![H]⟩ ![])
    (h0 : (⟨0, ![]⟩ : Shape).BroadcastsInDim ⟨2, ![N, H]⟩ ![])
    (x : Arr2 N C) (src : IVec ⟨2, ![E, 1]⟩ 32) (dst : IVec ⟨1, ![E]⟩ 32) (ea : Arr2 E K) (eW : Arr2 K C) (eb : Arr1 C)
    (Wa : Arr2 C H) (ba g be : Arr1 H) (Wb : Arr2 H H) (bb : Arr1 H) : Arr2 N H :=
  refPost dH h1 h2 hs h0
    (refPre S dN n0 hc h1 h2 x dst (refMsg G dE c1 c2 c0 x src ea eW eb) Wa ba)
    (refMean red hu hs (refPre S dN n0 hc h1 h2 x dst (refMsg G dE c1 c2 c0 x src ea eW eb) Wa ba))
    (refVar red hu h1 h2 hs1 hs (refPre S dN n0 hc h1 h2 x dst (refMsg G dE c1 c2 c0 x src ea eW eb) Wa ba))
    g be Wb bb

/-- The reference's layer is the specification's, the variance spelt E[(h − mean)²]. -/
theorem refBody_eq
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (G : GatherDims ⟨2, ![N, C]⟩ ⟨2, ![E, 1]⟩ ⟨2, ![E, C]⟩) (hG : G = rowGather N C E wfG)
    (dE : DotDims ⟨2, ![E, K]⟩ ⟨2, ![K, C]⟩ ⟨2, ![E, C]⟩) (hdE : dE = DotDims.plain E K C)
    (S : ScatterDims ⟨2, ![N, C]⟩ ⟨2, ![E, 1]⟩ ⟨2, ![E, C]⟩) (hS : S = rowScatter N C E wfS)
    (dN : DotDims ⟨2, ![N, C]⟩ ⟨2, ![C, H]⟩ ⟨2, ![N, H]⟩) (hdN : dN = DotDims.plain N C H)
    (dH : DotDims ⟨2, ![N, H]⟩ ⟨2, ![H, H]⟩ ⟨2, ![N, H]⟩) (hdH : dH = DotDims.plain N H H)
    (red : (⟨2, ![N, H]⟩ : Shape).ReducesTo [0] ⟨1, ![H]⟩) (hR : (⟨2, ![N, H]⟩ : Shape).Reduces [0] ⟨1, ![H]⟩)
    (hu : 0 < (⟨0, ![]⟩ : Shape).numel)
    (c1 : (⟨1, ![C]⟩ : Shape).BroadcastsInDim ⟨2, ![1, C]⟩ ![1])
    (c2 : (⟨2, ![1, C]⟩ : Shape).BroadcastsInDim ⟨2, ![E, C]⟩ ![0, 1])
    (c0 : (⟨0, ![]⟩ : Shape).BroadcastsInDim ⟨2, ![E, C]⟩ ![])
    (n0 : (⟨0, ![]⟩ : Shape).BroadcastsInDim ⟨2, ![N, C]⟩ ![])
    (hc : (⟨1, ![E]⟩ : Shape).BroadcastsInDim ⟨2, ![E, 1]⟩ ![0])
    (h1 : (⟨1, ![H]⟩ : Shape).BroadcastsInDim ⟨2, ![1, H]⟩ ![1])
    (h2 : (⟨2, ![1, H]⟩ : Shape).BroadcastsInDim ⟨2, ![N, H]⟩ ![0, 1])
    (hs1 : (⟨0, ![]⟩ : Shape).BroadcastsInDim ⟨2, ![1, H]⟩ ![])
    (hs : (⟨0, ![]⟩ : Shape).BroadcastsInDim ⟨1, ![H]⟩ ![])
    (h0 : (⟨0, ![]⟩ : Shape).BroadcastsInDim ⟨2, ![N, H]⟩ ![])
    (x : Arr2 N C) (src : IVec ⟨2, ![E, 1]⟩ 32) (dst : IVec ⟨1, ![E]⟩ 32) (ea : Arr2 E K) (eW : Arr2 K C) (eb : Arr1 C)
    (Wa : Arr2 C H) (ba g be : Arr1 H) (Wb : Arr2 H H) (bb : Arr1 H) :
    refBody G dE S dN dH red hu c1 c2 c0 n0 hc h1 h2 hs1 hs h0 x src dst ea eW eb Wa ba g be Wb bb
      = layer wfG wfS varTwo src (broadcastInDim ⟨2, ![E, 1]⟩ ![0] hc dst) ea
          ⟨eW, vec eb, Wa, vec ba, vec g, vec be, Wb, vec bb⟩ x := by
  unfold refBody layer layerWith
  rw [refMsg_eq wfG G hG dE hdE, refPre_eq wfS S hS dN hdN, refPost_eq dH hdH, refMean_eq red hR hu hs,
    refVar_eq red hR hu h1 h2 hs1 hs]

/-- The reference's head. -/
def refHead {R T : ℕ} (dh : DotDims ⟨2, ![N, H]⟩ ⟨2, ![H, R]⟩ ⟨2, ![N, R]⟩) (de : DotDims ⟨2, ![N, R]⟩ ⟨2, ![R, T]⟩ ⟨2, ![N, T]⟩)
    (r1 : (⟨1, ![R]⟩ : Shape).BroadcastsInDim ⟨2, ![1, R]⟩ ![1])
    (r2 : (⟨2, ![1, R]⟩ : Shape).BroadcastsInDim ⟨2, ![N, R]⟩ ![0, 1])
    (r0 : (⟨0, ![]⟩ : Shape).BroadcastsInDim ⟨2, ![N, R]⟩ ![])
    (t1 : (⟨1, ![T]⟩ : Shape).BroadcastsInDim ⟨2, ![1, T]⟩ ![1])
    (t2 : (⟨2, ![1, T]⟩ : Shape).BroadcastsInDim ⟨2, ![N, T]⟩ ![0, 1])
    (out : Arr2 N H) (Wh : Arr2 H R) (bh : Arr1 R) (We : Arr2 R T) (bee : Arr1 T) : Arr2 N T :=
  addf (F := Ideal) (φ := .f32)
    (Host.dotGeneral (F := Ideal) (φ₁ := .f32) (φ₂ := .f32) de none
      (refLeaky r0
        (addf (F := Ideal) (φ := .f32) (Host.dotGeneral (F := Ideal) (φ₁ := .f32) (φ₂ := .f32) dh none out Wh)
          (broadcastInDim ⟨2, ![N, R]⟩ ![0, 1] r2 (broadcastInDim ⟨2, ![1, R]⟩ ![1] r1 bh))))
      We)
    (broadcastInDim ⟨2, ![N, T]⟩ ![0, 1] t2 (broadcastInDim ⟨2, ![1, T]⟩ ![1] t1 bee))

/-- The reference's head is the specification's. -/
theorem refHead_eq {R T : ℕ} (dh : DotDims ⟨2, ![N, H]⟩ ⟨2, ![H, R]⟩ ⟨2, ![N, R]⟩) (hdh : dh = DotDims.plain N H R)
    (de : DotDims ⟨2, ![N, R]⟩ ⟨2, ![R, T]⟩ ⟨2, ![N, T]⟩) (hde : de = DotDims.plain N R T)
    (r1 : (⟨1, ![R]⟩ : Shape).BroadcastsInDim ⟨2, ![1, R]⟩ ![1])
    (r2 : (⟨2, ![1, R]⟩ : Shape).BroadcastsInDim ⟨2, ![N, R]⟩ ![0, 1])
    (r0 : (⟨0, ![]⟩ : Shape).BroadcastsInDim ⟨2, ![N, R]⟩ ![])
    (t1 : (⟨1, ![T]⟩ : Shape).BroadcastsInDim ⟨2, ![1, T]⟩ ![1])
    (t2 : (⟨2, ![1, T]⟩ : Shape).BroadcastsInDim ⟨2, ![N, T]⟩ ![0, 1])
    (out : Arr2 N H) (Wh : Arr2 H R) (bh : Arr1 R) (We : Arr2 R T) (bee : Arr1 T) :
    refHead dh de r1 r2 r0 t1 t2 out Wh bh We bee = head out Wh (vec bh) We (vec bee) := by
  have hin : refLeaky r0
        (addf (F := Ideal) (φ := .f32) (Host.dotGeneral (F := Ideal) (φ₁ := .f32) (φ₂ := .f32) dh none out Wh)
          (broadcastInDim ⟨2, ![N, R]⟩ ![0, 1] r2 (broadcastInDim ⟨2, ![1, R]⟩ ![1] r1 bh)))
      = fun j => leaky (prod out Wh j + vec bh (j 1)) := by
    funext j
    rw [refLeaky_apply, addf_apply, bias_apply, dot_apply dh hdh]
    rfl
  funext i
  unfold refHead head
  rw [addf_apply, bias_apply, hin, dot_apply de hde]
  rfl

end Layer

end Cert.Gine.Ref

end
-- ==== Proof.LibBiasRows.lean ====
/-
  A bias row added to every row of a matrix, with or without a rectifier, on the extended reals.

  For `a : [n, d]` and a row `b : [1, d]` the sum's entry (r, j) is `a (r, j) + b (0, j)`; the rectified layer takes the
  larger of that and the zero word's value.  The vector unit spells the sum as a cast of each operand to its own shape,
  a broadcast of the row down the n rows and an elementwise addition, and the rectifier as an elementwise maximum
  against a broadcast scalar.  An entry reads one entry of the matrix and one of the row, which the congruence lemmas
  record.  Nothing here needs finiteness.
-/
import Idealize.ShloMosaic.PureOps.Ideal
import Idealize.ShloMosaic.Lib.ValueIdx
import Idealize.ShloMosaic.Lib.Pipeline.Value

noncomputable section

namespace Cert.LibBiasRows

open Idealize.ShloMosaic Idealize.ShloMosaic.ValueIdx

/-- Entry (r, j) of the matrix with the row added to each of its rows. -/
def addRow {n d : ℕ} (a : (⟨2, ![n, d]⟩ : Shape).Idx → EReal) (b : (⟨2, ![1, d]⟩ : Shape).Idx → EReal) :
    (⟨2, ![n, d]⟩ : Shape).Idx → EReal :=
  fun i => a i + b (ix2 ⟨0, Nat.one_pos⟩ (i 1))

/-- The same followed by the rectifier: the larger of the sum and the zero word's value. -/
def reluRow {n d : ℕ} (a : (⟨2, ![n, d]⟩ : Shape).Idx → EReal) (b : (⟨2, ![1, d]⟩ : Shape).Idx → EReal) :
    (⟨2, ![n, d]⟩ : Shape).Idx → EReal :=
  fun i => max (addRow a b i) (Ideal.ofBits .f32 0x00000000#32)

/-- An entry of the sum reads the matrix at that entry and the row at its column. -/
theorem addRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    addRow a b i = addRow a' b' i' := by
  unfold addRow
  rw [ha, hb]

/-- The same for the rectified layer. -/
theorem reluRow_congr {n n' d : ℕ} (a : (⟨2, ![n, d]⟩ : Shape).Idx → EReal) (a' : (⟨2, ![n', d]⟩ : Shape).Idx → EReal)
    (b b' : (⟨2, ![1, d]⟩ : Shape).Idx → EReal) (i : (⟨2, ![n, d]⟩ : Shape).Idx) (i' : (⟨2, ![n', d]⟩ : Shape).Idx)
    (ha : a i = a' i') (hb : b (ix2 ⟨0, Nat.one_pos⟩ (i 1)) = b' (ix2 ⟨0, Nat.one_pos⟩ (i' 1))) :
    reluRow a b i = reluRow a' b' i' := by
  unfold reluRow
  rw [addRow_congr a a' b b' i i' ha hb]

/-- A row `[1, d]` broadcast down n rows, at entry (r, j), is the row at (0, j). -/
theorem row_broadcast {n d : ℕ} (b : (⟨2, ![1, d]⟩ : Shape).Idx → EReal)
    (h : (⟨2, ![1, d]⟩ : Shape).Broadcasts ⟨2, ![n, d]⟩) (i : (⟨2, ![n, d]⟩ : Shape).Idx) :
    broadcastTo ⟨2, ![n, d]⟩ b h i = b (ix2 ⟨0, Nat.one_pos⟩ (i 1)) := by
  refine broadcastTo_apply b h i (ix2 ⟨0, Nat.one_pos⟩ (i 1)) (fun a => ?_)
  match a with
  | ⟨0, _⟩ => exact (if_pos rfl).symm
  | ⟨1, _⟩ =>
    show (i 1).val = if d = 1 then 0 else (i 1).val
    have hlt : (i 1).val < d := idx2_lt1 i
    split
    · omega
    · rfl

/-- A vector `[d]` laid out as a row `[1, d]`, at (0, j), is the vector at j. -/
theorem row_of_vector {d : ℕ} (b : (⟨1, ![d]⟩ : Shape).Idx → EReal) (h : (⟨1, ![d]⟩ : Shape).ShapeCasts ⟨2, ![1, d]⟩)
    (j : Fin d) : shapeCast ⟨2, ![1, d]⟩ b h (ix2 ⟨0, Nat.one_pos⟩ j) = b (ix1 j) := by
  refine (shapeCast_addUnit_apply ![d] b h _).trans (congrArg b (funext fun a => ?_))
  match a with
  | ⟨0, _⟩ => rfl

/-- The vector unit's spelling of the sum, at an entry. -/
theorem vec_addRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    addf (shapeCast ⟨2, ![n, d]⟩ x h0) (broadcastTo ⟨2, ![n, d]⟩ (shapeCast ⟨2, ![1, d]⟩ b h1) h2) i = addRow x b i := by
  rw [shapeCast_self, shapeCast_self]
  show x i + broadcastTo ⟨2, ![n, d]⟩ b h2 i = x i + b (ix2 ⟨0, Nat.one_pos⟩ (i 1))
  rw [row_broadcast]

/-- The vector unit's spelling of the rectified layer, at an entry. -/
theorem vec_reluRow {n d : ℕ} (x : FVec Ideal ⟨2, ![n, d]⟩ .f32) (b : FVec Ideal ⟨2, ![1, d]⟩ .f32)
    (h0 : (⟨2, ![n, d]⟩ : Shape).ShapeCasts ⟨2, ![n, d]⟩) (h1 : (⟨2, ![1, d]⟩ : Shape).ShapeCasts ⟨2, ![1, d]⟩)
    (h2 : (⟨2, ![1, d]⟩ : Shape).Broadcasts ⟨2, ![n, d]⟩) (i : (⟨2, ![n, d]⟩ : Shape).Idx) :
    maximumf (addf (shapeCast ⟨2, ![n, d]⟩ x h0) (broadcastTo ⟨2, ![n, d]⟩ (shapeCast ⟨2, ![1, d]⟩ b h1) h2))
        (broadcast ⟨2, ![n, d]⟩ (FloatOps.ofBits (F := Ideal) .f32 0x00000000#32)) i = reluRow x b i := by
  show max (addf (shapeCast ⟨2, ![n, d]⟩ x h0) (broadcastTo ⟨2, ![n, d]⟩ (shapeCast ⟨2, ![1, d]⟩ b h1) h2) i) _ = max (addRow x b i) _
  rw [vec_addRow]
  rfl

end Cert.LibBiasRows

end
-- ==== Proof.KOps.lean ====
/-
  The host operations between the regions, read at an index.

  A vector reshaped to one row is the vector; a slice of a stacked argument along its leading axis with
  that axis dropped is the argument at that leading coordinate; the two index columns are the edge list's
  rows (the source wrapped once by the row count where negative); the zero operand of the sum is zero
  everywhere; a column's mean and its variance as E[h²] − mean² are the quotients the host computes on
  the one-row totals.
-/
import proofs.«122931_j61864708931975_1_alg».proof.Proof.Params
import proofs.«122931_j61864708931975_1_alg».proof.Proof.LibBiasRows
import Idealize.ShloMosaic.Lib.ValueLayout
import Idealize.ShloMosaic.Lib.Pipeline.Value
import Idealize.ShloMosaic.Lib.IdealHost

noncomputable section

namespace Cert.KernelIdeal.KOps

open Idealize.ShloMosaic Idealize.ShloMosaic.ValueIdx Cert.Gine

/-- A vector reshaped to one row, read as a function of the column, is the vector. -/
theorem row_reshape {d : ℕ} (b : Arr1 d) (h : (⟨1, ![d]⟩ : Shape).ShapeCasts ⟨2, ![1, d]⟩) :
    row (shapeCast ⟨2, ![1, d]⟩ b h) = vec b := by
  funext j
  exact shapeCast_a_1a_apply b h 0 j

/-- Slice l of a stacked rank-3 argument, its unit axis dropped. -/
theorem stack3 {K C : ℕ} (l : Fin 4) (a : Arr3 4 K C)
    (h : (⟨3, ![4, K, C]⟩ : Shape).Slices ![l.val, 0, 0] ⟨3, ![1, K, C]⟩)
    (h2 : (⟨3, ![1, K, C]⟩ : Shape).ShapeCasts ⟨2, ![K, C]⟩) :
    shapeCast ⟨2, ![K, C]⟩ (extractStridedSlice ⟨3, ![1, K, C]⟩ ![l.val, 0, 0] a h) h2
      = fun i => a (ix3 l (i 0) (i 1)) := by
  funext i
  obtain ⟨p, q, rfl⟩ : ∃ (p : Fin K) (q : Fin C), i = ix2 p q := ⟨i 0, i 1, eq_ix2 i⟩
  rw [shapeCast_1ab_ab_apply]
  refine extractStridedSlice_apply _ _ _ _ (ix3 l p q) (fun ax => ?_)
  match ax with
  | ⟨0, _⟩ => rfl
  | ⟨1, _⟩ => exact (Nat.zero_add _).symm
  | ⟨2, _⟩ => exact (Nat.zero_add _).symm

/-- Slice l of a stacked rank-2 argument, its unit axis dropped, read as a function of the column. -/
theorem stack2 {C : ℕ} (l : Fin 4) (a : Arr2 4 C)
    (h : (⟨2, ![4, C]⟩ : Shape).Slices ![l.val, 0] ⟨2, ![1, C]⟩)
    (h2 : (⟨2, ![1, C]⟩ : Shape).ShapeCasts ⟨1, ![C]⟩) :
    vec (shapeCast ⟨1, ![C]⟩ (extractStridedSlice ⟨2, ![1, C]⟩ ![l.val, 0] a h) h2) = fun j => a (ix2 l j) := by
  funext j
  unfold vec
  rw [shapeCast_1a_a_apply]
  exact slice2_axis0_apply l.val a h 0 j l rfl

/-- Row r of the edge list as a vector. -/
theorem edge_row (r : Fin 2) (a1 : IVec ⟨2, ![2, 800000]⟩ 32)
    (h : (⟨2, ![2, 800000]⟩ : Shape).Slices ![r.val, 0] ⟨2, ![1, 800000]⟩)
    (h2 : (⟨2, ![1, 800000]⟩ : Shape).ShapeCasts ⟨1, ![800000]⟩) (e : Fin 800000) :
    shapeCast ⟨1, ![800000]⟩ (extractStridedSlice ⟨2, ![1, 800000]⟩ ![r.val, 0] a1 h) h2 (ix1 e) = a1 (ix2 r e) := by
  rw [shapeCast_1a_a_apply]
  exact slice2_axis0_apply r.val a1 h 0 e r rfl

/-- A vector of indices as a column reads the vector at the row. -/
theorem column_apply {α : Type} (v : (⟨1, ![800000]⟩ : Shape).Idx → α)
    (h : (⟨1, ![800000]⟩ : Shape).BroadcastsInDim ⟨2, ![800000, 1]⟩ ![0]) (i : (⟨2, ![800000, 1]⟩ : Shape).Idx) :
    broadcastInDim ⟨2, ![800000, 1]⟩ ![0] h v i = v (ix1 (i 0)) := by
  refine broadcastInDim_apply _ h v i (ix1 (i 0)) (fun a => ?_)
  match a with
  | ⟨0, _⟩ => exact (if_neg (show ¬ ((800000 : ℕ) = 1) by decide)).symm

/-- The source column: the printed compare, add, select and column broadcast on row 0 of the edge list. -/
theorem src_column (a1 : IVec ⟨2, ![2, 800000]⟩ 32) (v1 : IVec ⟨1, ![800000]⟩ 32)
    (hv : ∀ e : Fin 800000, v1 (ix1 e) = a1 (ix2 0 e))
    (hb : (⟨0, ![]⟩ : Shape).BroadcastsInDim ⟨1, ![800000]⟩ ![])
    (h : (⟨1, ![800000]⟩ : Shape).BroadcastsInDim ⟨2, ![800000, 1]⟩ ![0]) :
    broadcastInDim ⟨2, ![800000, 1]⟩ ![0] h
        (select (cmpi .slt v1 (broadcastInDim ⟨1, ![800000]⟩ ![] hb (constantI ⟨0, ![]⟩ 32 0#32)))
          (addi v1 (broadcastInDim ⟨1, ![800000]⟩ ![] hb (constantI ⟨0, ![]⟩ 32 50000#32))) v1)
      = srcIdx a1 := by
  funext i
  rw [column_apply, select_apply]
  show Scalar.select (IntOp.cmpi .slt (v1 _) (broadcastInDim _ _ hb _ _)) (IntOp.addi (v1 _) (broadcastInDim _ _ hb _ _)) (v1 _) = _
  rw [broadcastInDim_scalar_apply, broadcastInDim_scalar_apply, hv (i 0)]
  rfl

/-- The destination column: row 1 of the edge list as a column. -/
theorem dst_column (a1 : IVec ⟨2, ![2, 800000]⟩ 32) (v3 : IVec ⟨1, ![800000]⟩ 32)
    (hv : ∀ e : Fin 800000, v3 (ix1 e) = a1 (ix2 1 e))
    (h : (⟨1, ![800000]⟩ : Shape).BroadcastsInDim ⟨2, ![800000, 1]⟩ ![0]) :
    broadcastInDim ⟨2, ![800000, 1]⟩ ![0] h v3 = dstIdx a1 := by
  funext i
  rw [column_apply, hv (i 0)]
  rfl

/-- The zero word broadcast to a matrix is zero everywhere. -/
theorem zeros {T : Shape} (h : (⟨0, ![]⟩ : Shape).BroadcastsInDim T ![]) :
    broadcastInDim T ![] h (constant (F := Ideal) ⟨0, ![]⟩ .f32 0x00000000#32) = fun _ => wZero := by
  funext i
  rw [broadcastInDim_scalar_apply]
  rfl

/-- The host's mean of a column from its one-row total. -/
theorem mean_row {N H : ℕ} (hh : Arr2 N H) (s : Arr2 1 H) (hs : s = fun i => colSum hh (i 1))
    (hb : (⟨0, ![]⟩ : Shape).BroadcastsInDim ⟨2, ![1, H]⟩ ![]) :
    row (Host.divf (φ := .f32) s (broadcastInDim ⟨2, ![1, H]⟩ ![] hb (constant (F := Ideal) ⟨0, ![]⟩ .f32 0x47435000#32)))
      = mean hh := by
  funext j
  subst hs
  unfold row mean
  rw [hostDivf_apply, broadcastInDim_scalar_apply]
  rfl

/-- The host's variance of a column, E[h²] − mean², from the one-row totals of h and h². -/
theorem var_row {N H : ℕ} (hh : Arr2 N H) (s q : Arr2 1 H) (hs : s = fun i => colSum hh (i 1))
    (hq : q = fun i => colSum (fun j => hh j * hh j) (i 1))
    (hb : (⟨0, ![]⟩ : Shape).BroadcastsInDim ⟨2, ![1, H]⟩ ![]) :
    row (subf (φ := .f32)
        (Host.divf (φ := .f32) q (broadcastInDim ⟨2, ![1, H]⟩ ![] hb (constant (F := Ideal) ⟨0, ![]⟩ .f32 0x47435000#32)))
        (mulf (φ := .f32)
          (Host.divf (φ := .f32) s (broadcastInDim ⟨2, ![1, H]⟩ ![] hb (constant (F := Ideal) ⟨0, ![]⟩ .f32 0x47435000#32)))
          (Host.divf (φ := .f32) s (broadcastInDim ⟨2, ![1, H]⟩ ![] hb (constant (F := Ideal) ⟨0, ![]⟩ .f32 0x47435000#32)))))
      = varOne hh := by
  funext j
  subst hs hq
  unfold row varOne mean
  rw [subf_apply, mulf_apply, hostDivf_apply, hostDivf_apply, broadcastInDim_scalar_apply]
  rfl

end Cert.KernelIdeal.KOps

end
-- ==== Proof.RefValue.lean ====
/-
  The reference program's value: every run of @main ends with the result array at the network of the
  specification, the variance spelt E[(h − mean)²], applied to the launch contents of the twenty-three
  arguments, and with the arguments unchanged.

  The run ends with each buffer at the fold of the 523 operations over the launch contents. The fold is cut at
  the layers: the two index vectors, five graph-convolution layers, the head. The operations after the first
  four write buffers numbered 27 and above, so the arguments and the two index vectors (numbered 0 to 26) keep
  their contents through every layer. Each layer's stretch of operations, folded, is the reference's layer term
  (a composition of host operations) of the layer's input, the index vectors and the weights' slices; that term
  is the specification's layer. The head likewise.
-/
import proofs.«122931_j61864708931975_1_alg».proof.Proof.RefOps
import proofs.«122931_j61864708931975_1_alg».proof.Proof.RefLayer
import proofs.«122931_j61864708931975_1_alg».proof.Proof.KOps

set_option synthInstance.maxSize 4096
set_option maxRecDepth 16384

noncomputable section

namespace Cert.ReferenceIdeal.RefValue

open Idealize.ShloMosaic Idealize.SL.Sem Idealize.ShloMosaic.StableHlo Idealize.ShloMosaic.ValueIdx
open Facts₀ Facts Cert.ReferenceIdeal.RefOps Cert.Gine.Ref
open Cert.Gine (Arr1 Arr2 Arr3)

variable [Facts]

/-! ## Buffers numbered 0 to 26 keep their contents after the first four operations -/

/-- An operation whose one written buffer has a larger number does not write buffer r. -/
theorem notin_of_lt {op : HloOp τ sig (Elt Ideal)} {y r : Ref sig .tc} (hw : op.writes = {Proc.devRef .tc y})
    (h : r.idx.val < y.idx.val) : Proc.devRef (τ := τ) .tc r ∉ op.writes := by
  rw [hw, Finset.mem_singleton]
  exact devRef_ne_of_ne (fun e => by subst e; exact Nat.lt_irrefl _ h)

/-- A list of operations keeps the buffers numbered at most n. -/
def Keeps (n : ℕ) (l : List (HloOp τ sig (Elt Ideal))) : Prop :=
  ∀ (V : Valuation τ sig (Elt Ideal)) (r : Ref sig .tc), r.idx.val ≤ n → after l V (Proc.devRef .tc r) = V (Proc.devRef .tc r)

theorem keeps_of_forall {n : ℕ} {l : List (HloOp τ sig (Elt Ideal))}
    (h : ∀ op ∈ l, ∀ r : Ref sig .tc, r.idx.val ≤ n → Proc.devRef (τ := τ) .tc r ∉ op.writes) : Keeps n l :=
  fun V r hr => after_of_forall_not_mem l V (fun op ho => h op ho r hr)

theorem keeps_seg0 : Keeps 22 (seg0 (F := Ideal)) := keeps_of_forall (by
  intro op h r hr
  repeat (cases h with
    | head => exact notin_of_lt rfl (Nat.lt_of_le_of_lt hr (by decide))
    | tail _ h => ?_)
  exact nomatch h)

theorem keeps_seg1 : Keeps 26 (seg1 (F := Ideal)) := keeps_of_forall (by
  intro op h r hr
  repeat (cases h with
    | head => exact notin_of_lt rfl (Nat.lt_of_le_of_lt hr (by decide))
    | tail _ h => ?_)
  exact nomatch h)

theorem keeps_seg2 : Keeps 26 (seg2 (F := Ideal)) := keeps_of_forall (by
  intro op h r hr
  repeat (cases h with
    | head => exact notin_of_lt rfl (Nat.lt_of_le_of_lt hr (by decide))
    | tail _ h => ?_)
  exact nomatch h)

theorem keeps_seg3 : Keeps 26 (seg3 (F := Ideal)) := keeps_of_forall (by
  intro op h r hr
  repeat (cases h with
    | head => exact notin_of_lt rfl (Nat.lt_of_le_of_lt hr (by decide))
    | tail _ h => ?_)
  exact nomatch h)

theorem keeps_seg4 : Keeps 26 (seg4 (F := Ideal)) := keeps_of_forall (by
  intro op h r hr
  repeat (cases h with
    | head => exact notin_of_lt rfl (Nat.lt_of_le_of_lt hr (by decide))
    | tail _ h => ?_)
  exact nomatch h)

theorem keeps_seg5 : Keeps 26 (seg5 (F := Ideal)) := keeps_of_forall (by
  intro op h r hr
  repeat (cases h with
    | head => exact notin_of_lt rfl (Nat.lt_of_le_of_lt hr (by decide))
    | tail _ h => ?_)
  exact nomatch h)

theorem keeps_seg6 : Keeps 26 (seg6 (F := Ideal)) := keeps_of_forall (by
  intro op h r hr
  repeat (cases h with
    | head => exact notin_of_lt rfl (Nat.lt_of_le_of_lt hr (by decide))
    | tail _ h => ?_)
  exact nomatch h)

theorem keeps_seg7 : Keeps 26 (seg7 (F := Ideal)) := keeps_of_forall (by
  intro op h r hr
  repeat (cases h with
    | head => exact notin_of_lt rfl (Nat.lt_of_le_of_lt hr (by decide))
    | tail _ h => ?_)
  exact nomatch h)

theorem keeps_seg8 : Keeps 26 (seg8 (F := Ideal)) := keeps_of_forall (by
  intro op h r hr
  repeat (cases h with
    | head => exact notin_of_lt rfl (Nat.lt_of_le_of_lt hr (by decide))
    | tail _ h => ?_)
  exact nomatch h)

theorem keeps_seg9 : Keeps 26 (seg9 (F := Ideal)) := keeps_of_forall (by
  intro op h r hr
  repeat (cases h with
    | head => exact notin_of_lt rfl (Nat.lt_of_le_of_lt hr (by decide))
    | tail _ h => ?_)
  exact nomatch h)

theorem keeps_seg10 : Keeps 26 (seg10 (F := Ideal)) := keeps_of_forall (by
  intro op h r hr
  repeat (cases h with
    | head => exact notin_of_lt rfl (Nat.lt_of_le_of_lt hr (by decide))
    | tail _ h => ?_)
  exact nomatch h)

theorem keeps_seg11 : Keeps 26 (seg11 (F := Ideal)) := keeps_of_forall (by
  intro op h r hr
  repeat (cases h with
    | head => exact notin_of_lt rfl (Nat.lt_of_le_of_lt hr (by decide))
    | tail _ h => ?_)
  exact nomatch h)

theorem keeps_seg12 : Keeps 26 (seg12 (F := Ideal)) := keeps_of_forall (by
  intro op h r hr
  repeat (cases h with
    | head => exact notin_of_lt rfl (Nat.lt_of_le_of_lt hr (by decide))
    | tail _ h => ?_)
  exact nomatch h)

theorem keeps_seg13 : Keeps 26 (seg13 (F := Ideal)) := keeps_of_forall (by
  intro op h r hr
  repeat (cases h with
    | head => exact notin_of_lt rfl (Nat.lt_of_le_of_lt hr (by decide))
    | tail _ h => ?_)
  exact nomatch h)

theorem keeps_seg14 : Keeps 26 (seg14 (F := Ideal)) := keeps_of_forall (by
  intro op h r hr
  repeat (cases h with
    | head => exact notin_of_lt rfl (Nat.lt_of_le_of_lt hr (by decide))
    | tail _ h => ?_)
  exact nomatch h)

theorem keeps_seg15 : Keeps 26 (seg15 (F := Ideal)) := keeps_of_forall (by
  intro op h r hr
  repeat (cases h with
    | head => exact notin_of_lt rfl (Nat.lt_of_le_of_lt hr (by decide))
    | tail _ h => ?_)
  exact nomatch h)

theorem keeps_seg16 : Keeps 26 (seg16 (F := Ideal)) := keeps_of_forall (by
  intro op h r hr
  repeat (cases h with
    | head => exact notin_of_lt rfl (Nat.lt_of_le_of_lt hr (by decide))
    | tail _ h => ?_)
  exact nomatch h)

theorem keeps_seg17 : Keeps 26 (seg17 (F := Ideal)) := keeps_of_forall (by
  intro op h r hr
  repeat (cases h with
    | head => exact notin_of_lt rfl (Nat.lt_of_le_of_lt hr (by decide))
    | tail _ h => ?_)
  exact nomatch h)

theorem keeps_seg18 : Keeps 26 (seg18 (F := Ideal)) := keeps_of_forall (by
  intro op h r hr
  repeat (cases h with
    | head => exact notin_of_lt rfl (Nat.lt_of_le_of_lt hr (by decide))
    | tail _ h => ?_)
  exact nomatch h)

theorem keeps_seg19 : Keeps 26 (seg19 (F := Ideal)) := keeps_of_forall (by
  intro op h r hr
  repeat (cases h with
    | head => exact notin_of_lt rfl (Nat.lt_of_le_of_lt hr (by decide))
    | tail _ h => ?_)
  exact nomatch h)

theorem keeps_seg20 : Keeps 26 (seg20 (F := Ideal)) := keeps_of_forall (by
  intro op h r hr
  repeat (cases h with
    | head => exact notin_of_lt rfl (Nat.lt_of_le_of_lt hr (by decide))
    | tail _ h => ?_)
  exact nomatch h)

theorem keeps_seg21 : Keeps 26 (seg21 (F := Ideal)) := keeps_of_forall (by
  intro op h r hr
  repeat (cases h with
    | head => exact notin_of_lt rfl (Nat.lt_of_le_of_lt hr (by decide))
    | tail _ h => ?_)
  exact nomatch h)

theorem keeps_seg22 : Keeps 26 (seg22 (F := Ideal)) := keeps_of_forall (by
  intro op h r hr
  repeat (cases h with
    | head => exact notin_of_lt rfl (Nat.lt_of_le_of_lt hr (by decide))
    | tail _ h => ?_)
  exact nomatch h)

theorem keeps_seg23 : Keeps 26 (seg23 (F := Ideal)) := keeps_of_forall (by
  intro op h r hr
  repeat (cases h with
    | head => exact notin_of_lt rfl (Nat.lt_of_le_of_lt hr (by decide))
    | tail _ h => ?_)
  exact nomatch h)

theorem keeps_seg24 : Keeps 26 (seg24 (F := Ideal)) := keeps_of_forall (by
  intro op h r hr
  repeat (cases h with
    | head => exact notin_of_lt rfl (Nat.lt_of_le_of_lt hr (by decide))
    | tail _ h => ?_)
  exact nomatch h)

theorem keeps_seg25 : Keeps 26 (seg25 (F := Ideal)) := keeps_of_forall (by
  intro op h r hr
  repeat (cases h with
    | head => exact notin_of_lt rfl (Nat.lt_of_le_of_lt hr (by decide))
    | tail _ h => ?_)
  exact nomatch h)

theorem keeps_seg26 : Keeps 26 (seg26 (F := Ideal)) := keeps_of_forall (by
  intro op h r hr
  repeat (cases h with
    | head => exact notin_of_lt rfl (Nat.lt_of_le_of_lt hr (by decide))
    | tail _ h => ?_)
  exact nomatch h)

theorem keeps_seg27 : Keeps 26 (seg27 (F := Ideal)) := keeps_of_forall (by
  intro op h r hr
  repeat (cases h with
    | head => exact notin_of_lt rfl (Nat.lt_of_le_of_lt hr (by decide))
    | tail _ h => ?_)
  exact nomatch h)

theorem keeps_seg28 : Keeps 26 (seg28 (F := Ideal)) := keeps_of_forall (by
  intro op h r hr
  repeat (cases h with
    | head => exact notin_of_lt rfl (Nat.lt_of_le_of_lt hr (by decide))
    | tail _ h => ?_)
  exact nomatch h)

theorem keeps_seg29 : Keeps 26 (seg29 (F := Ideal)) := keeps_of_forall (by
  intro op h r hr
  repeat (cases h with
    | head => exact notin_of_lt rfl (Nat.lt_of_le_of_lt hr (by decide))
    | tail _ h => ?_)
  exact nomatch h)

theorem keeps_seg30 : Keeps 26 (seg30 (F := Ideal)) := keeps_of_forall (by
  intro op h r hr
  repeat (cases h with
    | head => exact notin_of_lt rfl (Nat.lt_of_le_of_lt hr (by decide))
    | tail _ h => ?_)
  exact nomatch h)

theorem keeps_seg31 : Keeps 26 (seg31 (F := Ideal)) := keeps_of_forall (by
  intro op h r hr
  repeat (cases h with
    | head => exact notin_of_lt rfl (Nat.lt_of_le_of_lt hr (by decide))
    | tail _ h => ?_)
  exact nomatch h)

theorem keeps_seg32 : Keeps 26 (seg32 (F := Ideal)) := keeps_of_forall (by
  intro op h r hr
  repeat (cases h with
    | head => exact notin_of_lt rfl (Nat.lt_of_le_of_lt hr (by decide))
    | tail _ h => ?_)
  exact nomatch h)

theorem keeps_seg33 : Keeps 26 (seg33 (F := Ideal)) := keeps_of_forall (by
  intro op h r hr
  repeat (cases h with
    | head => exact notin_of_lt rfl (Nat.lt_of_le_of_lt hr (by decide))
    | tail _ h => ?_)
  exact nomatch h)

theorem keeps_seg34 : Keeps 26 (seg34 (F := Ideal)) := keeps_of_forall (by
  intro op h r hr
  repeat (cases h with
    | head => exact notin_of_lt rfl (Nat.lt_of_le_of_lt hr (by decide))
    | tail _ h => ?_)
  exact nomatch h)

theorem keeps_seg35 : Keeps 26 (seg35 (F := Ideal)) := keeps_of_forall (by
  intro op h r hr
  repeat (cases h with
    | head => exact notin_of_lt rfl (Nat.lt_of_le_of_lt hr (by decide))
    | tail _ h => ?_)
  exact nomatch h)

theorem keeps_seg36 : Keeps 26 (seg36 (F := Ideal)) := keeps_of_forall (by
  intro op h r hr
  repeat (cases h with
    | head => exact notin_of_lt rfl (Nat.lt_of_le_of_lt hr (by decide))
    | tail _ h => ?_)
  exact nomatch h)

theorem keeps_seg37 : Keeps 26 (seg37 (F := Ideal)) := keeps_of_forall (by
  intro op h r hr
  repeat (cases h with
    | head => exact notin_of_lt rfl (Nat.lt_of_le_of_lt hr (by decide))
    | tail _ h => ?_)
  exact nomatch h)

theorem keeps_seg38 : Keeps 26 (seg38 (F := Ideal)) := keeps_of_forall (by
  intro op h r hr
  repeat (cases h with
    | head => exact notin_of_lt rfl (Nat.lt_of_le_of_lt hr (by decide))
    | tail _ h => ?_)
  exact nomatch h)

theorem keeps_seg39 : Keeps 26 (seg39 (F := Ideal)) := keeps_of_forall (by
  intro op h r hr
  repeat (cases h with
    | head => exact notin_of_lt rfl (Nat.lt_of_le_of_lt hr (by decide))
    | tail _ h => ?_)
  exact nomatch h)

theorem keeps_seg40 : Keeps 26 (seg40 (F := Ideal)) := keeps_of_forall (by
  intro op h r hr
  repeat (cases h with
    | head => exact notin_of_lt rfl (Nat.lt_of_le_of_lt hr (by decide))
    | tail _ h => ?_)
  exact nomatch h)

theorem keeps_seg41 : Keeps 26 (seg41 (F := Ideal)) := keeps_of_forall (by
  intro op h r hr
  repeat (cases h with
    | head => exact notin_of_lt rfl (Nat.lt_of_le_of_lt hr (by decide))
    | tail _ h => ?_)
  exact nomatch h)

theorem keep_L1 (V : Valuation τ sig (Elt Ideal)) (r : Ref sig .tc) (hr : r.idx.val ≤ 26) :
    (after (seg7 (F := Ideal)) (after (seg6 (F := Ideal)) (after (seg5 (F := Ideal)) (after (seg4 (F := Ideal)) (after (seg3 (F := Ideal)) (after (seg2 (F := Ideal)) (after (seg1 (F := Ideal)) V))))))) (Proc.devRef .tc r) = V (Proc.devRef .tc r) := by
  rw [keeps_seg7 _ r hr, keeps_seg6 _ r hr, keeps_seg5 _ r hr, keeps_seg4 _ r hr, keeps_seg3 _ r hr, keeps_seg2 _ r hr, keeps_seg1 _ r hr]

theorem keep_L2 (V : Valuation τ sig (Elt Ideal)) (r : Ref sig .tc) (hr : r.idx.val ≤ 26) :
    (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) V)))))))) (Proc.devRef .tc r) = V (Proc.devRef .tc r) := by
  rw [keeps_seg15 _ r hr, keeps_seg14 _ r hr, keeps_seg13 _ r hr, keeps_seg12 _ r hr, keeps_seg11 _ r hr, keeps_seg10 _ r hr, keeps_seg9 _ r hr, keeps_seg8 _ r hr]

theorem keep_L3 (V : Valuation τ sig (Elt Ideal)) (r : Ref sig .tc) (hr : r.idx.val ≤ 26) :
    (after (seg23 (F := Ideal)) (after (seg22 (F := Ideal)) (after (seg21 (F := Ideal)) (after (seg20 (F := Ideal)) (after (seg19 (F := Ideal)) (after (seg18 (F := Ideal)) (after (seg17 (F := Ideal)) (after (seg16 (F := Ideal)) V)))))))) (Proc.devRef .tc r) = V (Proc.devRef .tc r) := by
  rw [keeps_seg23 _ r hr, keeps_seg22 _ r hr, keeps_seg21 _ r hr, keeps_seg20 _ r hr, keeps_seg19 _ r hr, keeps_seg18 _ r hr, keeps_seg17 _ r hr, keeps_seg16 _ r hr]

theorem keep_L4 (V : Valuation τ sig (Elt Ideal)) (r : Ref sig .tc) (hr : r.idx.val ≤ 26) :
    (after (seg32 (F := Ideal)) (after (seg31 (F := Ideal)) (after (seg30 (F := Ideal)) (after (seg29 (F := Ideal)) (after (seg28 (F := Ideal)) (after (seg27 (F := Ideal)) (after (seg26 (F := Ideal)) (after (seg25 (F := Ideal)) (after (seg24 (F := Ideal)) V))))))))) (Proc.devRef .tc r) = V (Proc.devRef .tc r) := by
  rw [keeps_seg32 _ r hr, keeps_seg31 _ r hr, keeps_seg30 _ r hr, keeps_seg29 _ r hr, keeps_seg28 _ r hr, keeps_seg27 _ r hr, keeps_seg26 _ r hr, keeps_seg25 _ r hr, keeps_seg24 _ r hr]

theorem keep_L5 (V : Valuation τ sig (Elt Ideal)) (r : Ref sig .tc) (hr : r.idx.val ≤ 26) :
    (after (seg40 (F := Ideal)) (after (seg39 (F := Ideal)) (after (seg38 (F := Ideal)) (after (seg37 (F := Ideal)) (after (seg36 (F := Ideal)) (after (seg35 (F := Ideal)) (after (seg34 (F := Ideal)) (after (seg33 (F := Ideal)) V)))))))) (Proc.devRef .tc r) = V (Proc.devRef .tc r) := by
  rw [keeps_seg40 _ r hr, keeps_seg39 _ r hr, keeps_seg38 _ r hr, keeps_seg37 _ r hr, keeps_seg36 _ r hr, keeps_seg35 _ r hr, keeps_seg34 _ r hr, keeps_seg33 _ r hr]

/-! ## The two index vectors -/

/-- The source vector is row 0 of the edge list. -/
theorem pre_src (V : Valuation τ sig (Elt Ideal)) (e : Fin 800000) :
    (after (seg0 (F := Ideal)) V (Proc.devRef .tc main_v1) : IVec S800000 32) (ix1 e)
      = (V (Proc.devRef .tc main_arg1) : IVec S2x800000 32) (ix2 0 e) := by
  have h : after (seg0 (F := Ideal)) V (Proc.devRef .tc main_v1)
      = shapeCast S800000 (extractStridedSlice S1x800000 ![0, 0] (V (Proc.devRef .tc main_arg1)) slices_S2x800000_S1x800000_0_0)
          shapeCasts_S1x800000_S800000 := by
    after_results
    rfl
  rw [h]
  exact Cert.KernelIdeal.KOps.edge_row 0 _ slices_S2x800000_S1x800000_0_0 shapeCasts_S1x800000_S800000 e

/-- The destination vector is row 1 of the edge list. -/
theorem pre_dst (V : Valuation τ sig (Elt Ideal)) (e : Fin 800000) :
    (after (seg0 (F := Ideal)) V (Proc.devRef .tc main_v3) : IVec S800000 32) (ix1 e)
      = (V (Proc.devRef .tc main_arg1) : IVec S2x800000 32) (ix2 1 e) := by
  have h : after (seg0 (F := Ideal)) V (Proc.devRef .tc main_v3)
      = shapeCast S800000 (extractStridedSlice S1x800000 ![1, 0] (V (Proc.devRef .tc main_arg1)) slices_S2x800000_S1x800000_1_0)
          shapeCasts_S1x800000_S800000 := by
    after_results
    rfl
  rw [h]
  exact Cert.KernelIdeal.KOps.edge_row 1 _ slices_S2x800000_S1x800000_1_0 shapeCasts_S1x800000_S800000 e

/-! ## Each layer's stretch, folded, is the reference's layer term -/

/-- The source column as the reference spells it from the source vector. -/
abbrev srcCol (v1 : IVec S800000 32) : IVec S800000x1 32 :=
  broadcastInDim S800000x1 ![0] bcast_S800000_S800000x1_0
    (select (cmpi .slt v1 (broadcastInDim S800000 ![] bcast_S_S800000 (constantI S_ 32 0#32)))
      (addi v1 (broadcastInDim S800000 ![] bcast_S_S800000 (constantI S_ 32 50000#32))) v1)

theorem wfG0 : GatherDims.WF S50000x2 S800000x1 S800000x2 [1] [0] [] [0] [] 1 ![1, 2] :=
  gather_S50000x2_S800000x1_S800000x2_1_0_n_n_0_1_12_wf
theorem wfS0 : ScatterDims.WF S50000x2 S800000x1 S800000x2 [1] [0] [0] 1 := scatter_S50000x2_S800000x1_S800000x2_1_0_0_1_wf
theorem wfG : GatherDims.WF S50000x64 S800000x1 S800000x64 [1] [0] [] [0] [] 1 ![1, 64] :=
  gather_S50000x64_S800000x1_S800000x64_1_0_n_n_0_1_164_wf
theorem wfS : ScatterDims.WF S50000x64 S800000x1 S800000x64 [1] [0] [0] 1 := scatter_S50000x64_S800000x1_S800000x64_1_0_0_1_wf

theorem red64 : S50000x64.Reduces [0] S64 := by decide

set_option maxHeartbeats 4000000 in
theorem value_L1 (V : Valuation τ sig (Elt Ideal)) :
    (after (seg7 (F := Ideal)) (after (seg6 (F := Ideal)) (after (seg5 (F := Ideal)) (after (seg4 (F := Ideal)) (after (seg3 (F := Ideal)) (after (seg2 (F := Ideal)) (after (seg1 (F := Ideal)) V))))))) (Proc.devRef .tc main_v57)
      = refBody gather_S50000x2_S800000x1_S800000x2_1_0_n_n_0_1_12 dot_S800000x7_S7x2_S800000x2_1_0_0_1_n_n
          scatter_S50000x2_S800000x1_S800000x2_1_0_0_1 dot_S50000x2_S2x64_S50000x64_1_0_0_1_n_n
          dot_S50000x64_S64x64_S50000x64_1_0_0_1_n_n reducesTo_S50000x64_S64_d0 h_S_
          bcast_S2_S1x2_1 bcast_S1x2_S800000x2_0_1 bcast_S_S800000x2 bcast_S_S50000x2 bcast_S800000_S800000x1_0
          bcast_S64_S1x64_1 bcast_S1x64_S50000x64_0_1 bcast_S_S1x64 bcast_S_S64 bcast_S_S50000x64
          (V (Proc.devRef .tc main_arg0)) (srcCol (V (Proc.devRef .tc main_v1))) (V (Proc.devRef .tc main_v3)) (V (Proc.devRef .tc main_arg2)) (V (Proc.devRef .tc main_arg3)) (V (Proc.devRef .tc main_arg4))
          (V (Proc.devRef .tc main_arg5)) (V (Proc.devRef .tc main_arg6)) (V (Proc.devRef .tc main_arg7)) (V (Proc.devRef .tc main_arg8)) (V (Proc.devRef .tc main_arg9)) (V (Proc.devRef .tc main_arg10)) := by
  after_results_simp
  rfl

set_option maxHeartbeats 4000000 in
theorem value_L2 (V : Valuation τ sig (Elt Ideal)) :
    (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) V)))))))) (Proc.devRef .tc main_v127)
      = refBody gather_S50000x64_S800000x1_S800000x64_1_0_n_n_0_1_164 dot_S800000x7_S7x64_S800000x64_1_0_0_1_n_n
          scatter_S50000x64_S800000x1_S800000x64_1_0_0_1 dot_S50000x64_S64x64_S50000x64_1_0_0_1_n_n
          dot_S50000x64_S64x64_S50000x64_1_0_0_1_n_n reducesTo_S50000x64_S64_d0 h_S_
          bcast_S64_S1x64_1 bcast_S1x64_S800000x64_0_1 bcast_S_S800000x64 bcast_S_S50000x64 bcast_S800000_S800000x1_0
          bcast_S64_S1x64_1 bcast_S1x64_S50000x64_0_1 bcast_S_S1x64 bcast_S_S64 bcast_S_S50000x64
          (V (Proc.devRef .tc main_v57)) (srcCol (V (Proc.devRef .tc main_v1))) (V (Proc.devRef .tc main_v3)) (V (Proc.devRef .tc main_arg2))
          (shapeCast S7x64 (extractStridedSlice S1x7x64 ![0, 0, 0] (V (Proc.devRef .tc main_arg11)) slices_S4x7x64_S1x7x64_0_0_0) shapeCasts_S1x7x64_S7x64)
          (shapeCast S64 (extractStridedSlice S1x64 ![0, 0] (V (Proc.devRef .tc main_arg12)) slices_S4x64_S1x64_0_0) shapeCasts_S1x64_S64)
          (shapeCast S64x64 (extractStridedSlice S1x64x64 ![0, 0, 0] (V (Proc.devRef .tc main_arg13)) slices_S4x64x64_S1x64x64_0_0_0) shapeCasts_S1x64x64_S64x64)
          (shapeCast S64 (extractStridedSlice S1x64 ![0, 0] (V (Proc.devRef .tc main_arg14)) slices_S4x64_S1x64_0_0) shapeCasts_S1x64_S64)
          (shapeCast S64 (extractStridedSlice S1x64 ![0, 0] (V (Proc.devRef .tc main_arg15)) slices_S4x64_S1x64_0_0) shapeCasts_S1x64_S64)
          (shapeCast S64 (extractStridedSlice S1x64 ![0, 0] (V (Proc.devRef .tc main_arg16)) slices_S4x64_S1x64_0_0) shapeCasts_S1x64_S64)
          (shapeCast S64x64 (extractStridedSlice S1x64x64 ![0, 0, 0] (V (Proc.devRef .tc main_arg17)) slices_S4x64x64_S1x64x64_0_0_0) shapeCasts_S1x64x64_S64x64)
          (shapeCast S64 (extractStridedSlice S1x64 ![0, 0] (V (Proc.devRef .tc main_arg18)) slices_S4x64_S1x64_0_0) shapeCasts_S1x64_S64) := by
  after_results_simp
  rfl

set_option maxHeartbeats 4000000 in
theorem value_L3 (V : Valuation τ sig (Elt Ideal)) :
    (after (seg23 (F := Ideal)) (after (seg22 (F := Ideal)) (after (seg21 (F := Ideal)) (after (seg20 (F := Ideal)) (after (seg19 (F := Ideal)) (after (seg18 (F := Ideal)) (after (seg17 (F := Ideal)) (after (seg16 (F := Ideal)) V)))))))) (Proc.devRef .tc main_v197)
      = refBody gather_S50000x64_S800000x1_S800000x64_1_0_n_n_0_1_164 dot_S800000x7_S7x64_S800000x64_1_0_0_1_n_n
          scatter_S50000x64_S800000x1_S800000x64_1_0_0_1 dot_S50000x64_S64x64_S50000x64_1_0_0_1_n_n
          dot_S50000x64_S64x64_S50000x64_1_0_0_1_n_n reducesTo_S50000x64_S64_d0 h_S_
          bcast_S64_S1x64_1 bcast_S1x64_S800000x64_0_1 bcast_S_S800000x64 bcast_S_S50000x64 bcast_S800000_S800000x1_0
          bcast_S64_S1x64_1 bcast_S1x64_S50000x64_0_1 bcast_S_S1x64 bcast_S_S64 bcast_S_S50000x64
          (V (Proc.devRef .tc main_v127)) (srcCol (V (Proc.devRef .tc main_v1))) (V (Proc.devRef .tc main_v3)) (V (Proc.devRef .tc main_arg2))
          (shapeCast S7x64 (extractStridedSlice S1x7x64 ![1, 0, 0] (V (Proc.devRef .tc main_arg11)) slices_S4x7x64_S1x7x64_1_0_0) shapeCasts_S1x7x64_S7x64)
          (shapeCast S64 (extractStridedSlice S1x64 ![1, 0] (V (Proc.devRef .tc main_arg12)) slices_S4x64_S1x64_1_0) shapeCasts_S1x64_S64)
          (shapeCast S64x64 (extractStridedSlice S1x64x64 ![1, 0, 0] (V (Proc.devRef .tc main_arg13)) slices_S4x64x64_S1x64x64_1_0_0) shapeCasts_S1x64x64_S64x64)
          (shapeCast S64 (extractStridedSlice S1x64 ![1, 0] (V (Proc.devRef .tc main_arg14)) slices_S4x64_S1x64_1_0) shapeCasts_S1x64_S64)
          (shapeCast S64 (extractStridedSlice S1x64 ![1, 0] (V (Proc.devRef .tc main_arg15)) slices_S4x64_S1x64_1_0) shapeCasts_S1x64_S64)
          (shapeCast S64 (extractStridedSlice S1x64 ![1, 0] (V (Proc.devRef .tc main_arg16)) slices_S4x64_S1x64_1_0) shapeCasts_S1x64_S64)
          (shapeCast S64x64 (extractStridedSlice S1x64x64 ![1, 0, 0] (V (Proc.devRef .tc main_arg17)) slices_S4x64x64_S1x64x64_1_0_0) shapeCasts_S1x64x64_S64x64)
          (shapeCast S64 (extractStridedSlice S1x64 ![1, 0] (V (Proc.devRef .tc main_arg18)) slices_S4x64_S1x64_1_0) shapeCasts_S1x64_S64) := by
  after_results_simp
  rfl

set_option maxHeartbeats 4000000 in
theorem value_L4 (V : Valuation τ sig (Elt Ideal)) :
    (after (seg32 (F := Ideal)) (after (seg31 (F := Ideal)) (after (seg30 (F := Ideal)) (after (seg29 (F := Ideal)) (after (seg28 (F := Ideal)) (after (seg27 (F := Ideal)) (after (seg26 (F := Ideal)) (after (seg25 (F := Ideal)) (after (seg24 (F := Ideal)) V))))))))) (Proc.devRef .tc main_v267)
      = refBody gather_S50000x64_S800000x1_S800000x64_1_0_n_n_0_1_164 dot_S800000x7_S7x64_S800000x64_1_0_0_1_n_n
          scatter_S50000x64_S800000x1_S800000x64_1_0_0_1 dot_S50000x64_S64x64_S50000x64_1_0_0_1_n_n
          dot_S50000x64_S64x64_S50000x64_1_0_0_1_n_n reducesTo_S50000x64_S64_d0 h_S_
          bcast_S64_S1x64_1 bcast_S1x64_S800000x64_0_1 bcast_S_S800000x64 bcast_S_S50000x64 bcast_S800000_S800000x1_0
          bcast_S64_S1x64_1 bcast_S1x64_S50000x64_0_1 bcast_S_S1x64 bcast_S_S64 bcast_S_S50000x64
          (V (Proc.devRef .tc main_v197)) (srcCol (V (Proc.devRef .tc main_v1))) (V (Proc.devRef .tc main_v3)) (V (Proc.devRef .tc main_arg2))
          (shapeCast S7x64 (extractStridedSlice S1x7x64 ![2, 0, 0] (V (Proc.devRef .tc main_arg11)) slices_S4x7x64_S1x7x64_2_0_0) shapeCasts_S1x7x64_S7x64)
          (shapeCast S64 (extractStridedSlice S1x64 ![2, 0] (V (Proc.devRef .tc main_arg12)) slices_S4x64_S1x64_2_0) shapeCasts_S1x64_S64)
          (shapeCast S64x64 (extractStridedSlice S1x64x64 ![2, 0, 0] (V (Proc.devRef .tc main_arg13)) slices_S4x64x64_S1x64x64_2_0_0) shapeCasts_S1x64x64_S64x64)
          (shapeCast S64 (extractStridedSlice S1x64 ![2, 0] (V (Proc.devRef .tc main_arg14)) slices_S4x64_S1x64_2_0) shapeCasts_S1x64_S64)
          (shapeCast S64 (extractStridedSlice S1x64 ![2, 0] (V (Proc.devRef .tc main_arg15)) slices_S4x64_S1x64_2_0) shapeCasts_S1x64_S64)
          (shapeCast S64 (extractStridedSlice S1x64 ![2, 0] (V (Proc.devRef .tc main_arg16)) slices_S4x64_S1x64_2_0) shapeCasts_S1x64_S64)
          (shapeCast S64x64 (extractStridedSlice S1x64x64 ![2, 0, 0] (V (Proc.devRef .tc main_arg17)) slices_S4x64x64_S1x64x64_2_0_0) shapeCasts_S1x64x64_S64x64)
          (shapeCast S64 (extractStridedSlice S1x64 ![2, 0] (V (Proc.devRef .tc main_arg18)) slices_S4x64_S1x64_2_0) shapeCasts_S1x64_S64) := by
  after_results_simp
  rfl

set_option maxHeartbeats 4000000 in
theorem value_L5 (V : Valuation τ sig (Elt Ideal)) :
    (after (seg40 (F := Ideal)) (after (seg39 (F := Ideal)) (after (seg38 (F := Ideal)) (after (seg37 (F := Ideal)) (after (seg36 (F := Ideal)) (after (seg35 (F := Ideal)) (after (seg34 (F := Ideal)) (after (seg33 (F := Ideal)) V)))))))) (Proc.devRef .tc main_v337)
      = refBody gather_S50000x64_S800000x1_S800000x64_1_0_n_n_0_1_164 dot_S800000x7_S7x64_S800000x64_1_0_0_1_n_n
          scatter_S50000x64_S800000x1_S800000x64_1_0_0_1 dot_S50000x64_S64x64_S50000x64_1_0_0_1_n_n
          dot_S50000x64_S64x64_S50000x64_1_0_0_1_n_n reducesTo_S50000x64_S64_d0 h_S_
          bcast_S64_S1x64_1 bcast_S1x64_S800000x64_0_1 bcast_S_S800000x64 bcast_S_S50000x64 bcast_S800000_S800000x1_0
          bcast_S64_S1x64_1 bcast_S1x64_S50000x64_0_1 bcast_S_S1x64 bcast_S_S64 bcast_S_S50000x64
          (V (Proc.devRef .tc main_v267)) (srcCol (V (Proc.devRef .tc main_v1))) (V (Proc.devRef .tc main_v3)) (V (Proc.devRef .tc main_arg2))
          (shapeCast S7x64 (extractStridedSlice S1x7x64 ![3, 0, 0] (V (Proc.devRef .tc main_arg11)) slices_S4x7x64_S1x7x64_3_0_0) shapeCasts_S1x7x64_S7x64)
          (shapeCast S64 (extractStridedSlice S1x64 ![3, 0] (V (Proc.devRef .tc main_arg12)) slices_S4x64_S1x64_3_0) shapeCasts_S1x64_S64)
          (shapeCast S64x64 (extractStridedSlice S1x64x64 ![3, 0, 0] (V (Proc.devRef .tc main_arg13)) slices_S4x64x64_S1x64x64_3_0_0) shapeCasts_S1x64x64_S64x64)
          (shapeCast S64 (extractStridedSlice S1x64 ![3, 0] (V (Proc.devRef .tc main_arg14)) slices_S4x64_S1x64_3_0) shapeCasts_S1x64_S64)
          (shapeCast S64 (extractStridedSlice S1x64 ![3, 0] (V (Proc.devRef .tc main_arg15)) slices_S4x64_S1x64_3_0) shapeCasts_S1x64_S64)
          (shapeCast S64 (extractStridedSlice S1x64 ![3, 0] (V (Proc.devRef .tc main_arg16)) slices_S4x64_S1x64_3_0) shapeCasts_S1x64_S64)
          (shapeCast S64x64 (extractStridedSlice S1x64x64 ![3, 0, 0] (V (Proc.devRef .tc main_arg17)) slices_S4x64x64_S1x64x64_3_0_0) shapeCasts_S1x64x64_S64x64)
          (shapeCast S64 (extractStridedSlice S1x64 ![3, 0] (V (Proc.devRef .tc main_arg18)) slices_S4x64_S1x64_3_0) shapeCasts_S1x64_S64) := by
  after_results_simp
  rfl

set_option maxHeartbeats 1000000 in
theorem value_head (V : Valuation τ sig (Elt Ideal)) :
    after (seg41 (F := Ideal)) V (Proc.devRef .tc main_v350)
      = refHead dot_S50000x64_S64x500_S50000x500_1_0_0_1_n_n dot_S50000x500_S500x1_S50000x1_1_0_0_1_n_n
          bcast_S500_S1x500_1 bcast_S1x500_S50000x500_0_1 bcast_S_S50000x500 bcast_S1_S1x1_1 bcast_S1x1_S50000x1_0_1
          (V (Proc.devRef .tc main_v337)) (V (Proc.devRef .tc main_arg19)) (V (Proc.devRef .tc main_arg20)) (V (Proc.devRef .tc main_arg21)) (V (Proc.devRef .tc main_arg22)) := by
  after_results_simp
  rfl

/-! ## The layer term is the specification's layer -/

/-- The reference's 64-column layer at slice j of the stacked weights is the specification's layer. -/
theorem math_L (j : Fin 4) (x : Arr2 50000 64) (v1 v3 : IVec S800000 32) (a1 : IVec S2x800000 32) (a2 : Arr2 800000 7)
    (a11 : Arr3 4 7 64) (a12 : Arr2 4 64) (a13 : Arr3 4 64 64) (a14 a15 a16 : Arr2 4 64) (a17 : Arr3 4 64 64) (a18 : Arr2 4 64)
    (hv1 : ∀ e : Fin 800000, v1 (ix1 e) = a1 (ix2 0 e)) (hv3 : ∀ e : Fin 800000, v3 (ix1 e) = a1 (ix2 1 e))
    (s3 : S4x7x64.Slices ![j.val, 0, 0] S1x7x64) (s2 : S4x64.Slices ![j.val, 0] S1x64)
    (s33 : S4x64x64.Slices ![j.val, 0, 0] S1x64x64) :
    refBody gather_S50000x64_S800000x1_S800000x64_1_0_n_n_0_1_164 dot_S800000x7_S7x64_S800000x64_1_0_0_1_n_n
        scatter_S50000x64_S800000x1_S800000x64_1_0_0_1 dot_S50000x64_S64x64_S50000x64_1_0_0_1_n_n
        dot_S50000x64_S64x64_S50000x64_1_0_0_1_n_n reducesTo_S50000x64_S64_d0 h_S_
        bcast_S64_S1x64_1 bcast_S1x64_S800000x64_0_1 bcast_S_S800000x64 bcast_S_S50000x64 bcast_S800000_S800000x1_0
        bcast_S64_S1x64_1 bcast_S1x64_S50000x64_0_1 bcast_S_S1x64 bcast_S_S64 bcast_S_S50000x64
        x (srcCol v1) v3 a2
        (shapeCast S7x64 (extractStridedSlice S1x7x64 ![j.val, 0, 0] a11 s3) shapeCasts_S1x7x64_S7x64)
        (shapeCast S64 (extractStridedSlice S1x64 ![j.val, 0] a12 s2) shapeCasts_S1x64_S64)
        (shapeCast S64x64 (extractStridedSlice S1x64x64 ![j.val, 0, 0] a13 s33) shapeCasts_S1x64x64_S64x64)
        (shapeCast S64 (extractStridedSlice S1x64 ![j.val, 0] a14 s2) shapeCasts_S1x64_S64)
        (shapeCast S64 (extractStridedSlice S1x64 ![j.val, 0] a15 s2) shapeCasts_S1x64_S64)
        (shapeCast S64 (extractStridedSlice S1x64 ![j.val, 0] a16 s2) shapeCasts_S1x64_S64)
        (shapeCast S64x64 (extractStridedSlice S1x64x64 ![j.val, 0, 0] a17 s33) shapeCasts_S1x64x64_S64x64)
        (shapeCast S64 (extractStridedSlice S1x64 ![j.val, 0] a18 s2) shapeCasts_S1x64_S64)
      = Cert.Gine.layer wfG wfS Cert.Gine.varTwo (Cert.Gine.srcIdx a1) (Cert.Gine.dstIdx a1) a2
          (Cert.Gine.pl j a11 a12 a13 a14 a15 a16 a17 a18) x := by
  rw [refBody_eq wfG wfS gather_S50000x64_S800000x1_S800000x64_1_0_n_n_0_1_164 rfl dot_S800000x7_S7x64_S800000x64_1_0_0_1_n_n rfl
      scatter_S50000x64_S800000x1_S800000x64_1_0_0_1 rfl dot_S50000x64_S64x64_S50000x64_1_0_0_1_n_n rfl
      dot_S50000x64_S64x64_S50000x64_1_0_0_1_n_n rfl reducesTo_S50000x64_S64_d0 red64,
    show srcCol v1 = Cert.Gine.srcIdx a1 from
      Cert.KernelIdeal.KOps.src_column a1 v1 hv1 bcast_S_S800000 bcast_S800000_S800000x1_0,
    Cert.KernelIdeal.KOps.dst_column a1 v3 hv3 bcast_S800000_S800000x1_0,
    Cert.KernelIdeal.KOps.stack3 j a11 s3 shapeCasts_S1x7x64_S7x64,
    Cert.KernelIdeal.KOps.stack3 j a13 s33 shapeCasts_S1x64x64_S64x64,
    Cert.KernelIdeal.KOps.stack3 j a17 s33 shapeCasts_S1x64x64_S64x64,
    Cert.KernelIdeal.KOps.stack2 j a12 s2 shapeCasts_S1x64_S64, Cert.KernelIdeal.KOps.stack2 j a14 s2 shapeCasts_S1x64_S64,
    Cert.KernelIdeal.KOps.stack2 j a15 s2 shapeCasts_S1x64_S64, Cert.KernelIdeal.KOps.stack2 j a16 s2 shapeCasts_S1x64_S64,
    Cert.KernelIdeal.KOps.stack2 j a18 s2 shapeCasts_S1x64_S64]
  rfl

/-- The reference's first layer is the specification's. -/
theorem math_L1 (x : Arr2 50000 2) (v1 v3 : IVec S800000 32) (a1 : IVec S2x800000 32) (a2 : Arr2 800000 7)
    (a3 : Arr2 7 2) (a4 : Arr1 2) (a5 : Arr2 2 64) (a6 a7 a8 : Arr1 64) (a9 : Arr2 64 64) (a10 : Arr1 64)
    (hv1 : ∀ e : Fin 800000, v1 (ix1 e) = a1 (ix2 0 e)) (hv3 : ∀ e : Fin 800000, v3 (ix1 e) = a1 (ix2 1 e)) :
    refBody gather_S50000x2_S800000x1_S800000x2_1_0_n_n_0_1_12 dot_S800000x7_S7x2_S800000x2_1_0_0_1_n_n
        scatter_S50000x2_S800000x1_S800000x2_1_0_0_1 dot_S50000x2_S2x64_S50000x64_1_0_0_1_n_n
        dot_S50000x64_S64x64_S50000x64_1_0_0_1_n_n reducesTo_S50000x64_S64_d0 h_S_
        bcast_S2_S1x2_1 bcast_S1x2_S800000x2_0_1 bcast_S_S800000x2 bcast_S_S50000x2 bcast_S800000_S800000x1_0
        bcast_S64_S1x64_1 bcast_S1x64_S50000x64_0_1 bcast_S_S1x64 bcast_S_S64 bcast_S_S50000x64
        x (srcCol v1) v3 a2 a3 a4 a5 a6 a7 a8 a9 a10
      = Cert.Gine.layer wfG0 wfS0 Cert.Gine.varTwo (Cert.Gine.srcIdx a1) (Cert.Gine.dstIdx a1) a2
          (Cert.Gine.p1 a3 a4 a5 a6 a7 a8 a9 a10) x := by
  rw [refBody_eq wfG0 wfS0 gather_S50000x2_S800000x1_S800000x2_1_0_n_n_0_1_12 rfl dot_S800000x7_S7x2_S800000x2_1_0_0_1_n_n rfl
      scatter_S50000x2_S800000x1_S800000x2_1_0_0_1 rfl dot_S50000x2_S2x64_S50000x64_1_0_0_1_n_n rfl
      dot_S50000x64_S64x64_S50000x64_1_0_0_1_n_n rfl reducesTo_S50000x64_S64_d0 red64,
    show srcCol v1 = Cert.Gine.srcIdx a1 from
      Cert.KernelIdeal.KOps.src_column a1 v1 hv1 bcast_S_S800000 bcast_S800000_S800000x1_0,
    Cert.KernelIdeal.KOps.dst_column a1 v3 hv3 bcast_S800000_S800000x1_0]
  rfl

/-! ## The contents between the layers -/

/-- Contents W in which the arguments are V's and the two index vectors are the rows of V's edge list. -/
structure Good (V W : Valuation τ sig (Elt Ideal)) : Prop where
  args : ∀ r : Ref sig .tc, r.idx.val ≤ 22 → W (Proc.devRef .tc r) = V (Proc.devRef .tc r)
  src : ∀ e : Fin 800000, (W (Proc.devRef .tc main_v1) : IVec S800000 32) (ix1 e)
    = (V (Proc.devRef .tc main_arg1) : IVec S2x800000 32) (ix2 0 e)
  dst : ∀ e : Fin 800000, (W (Proc.devRef .tc main_v3) : IVec S800000 32) (ix1 e)
    = (V (Proc.devRef .tc main_arg1) : IVec S2x800000 32) (ix2 1 e)

theorem good_step {V W W' : Valuation τ sig (Elt Ideal)} (h : Good V W)
    (hk : ∀ r : Ref sig .tc, r.idx.val ≤ 26 → W' (Proc.devRef .tc r) = W (Proc.devRef .tc r)) : Good V W' where
  args r hr := (hk r (Nat.le_trans hr (by decide))).trans (h.args r hr)
  src e := by rw [hk main_v1 (by decide)]; exact h.src e
  dst e := by rw [hk main_v3 (by decide)]; exact h.dst e

theorem good_pre (V : Valuation τ sig (Elt Ideal)) : Good V (after (seg0 (F := Ideal)) V) where
  args r hr := keeps_seg0 V r hr
  src e := pre_src V e
  dst e := pre_dst V e

theorem good_L1 {V W : Valuation τ sig (Elt Ideal)} (h : Good V W) : Good V (after (seg7 (F := Ideal)) (after (seg6 (F := Ideal)) (after (seg5 (F := Ideal)) (after (seg4 (F := Ideal)) (after (seg3 (F := Ideal)) (after (seg2 (F := Ideal)) (after (seg1 (F := Ideal)) W))))))) :=
  good_step h (keep_L1 W)

theorem good_L2 {V W : Valuation τ sig (Elt Ideal)} (h : Good V W) : Good V (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) W)))))))) :=
  good_step h (keep_L2 W)

theorem good_L3 {V W : Valuation τ sig (Elt Ideal)} (h : Good V W) : Good V (after (seg23 (F := Ideal)) (after (seg22 (F := Ideal)) (after (seg21 (F := Ideal)) (after (seg20 (F := Ideal)) (after (seg19 (F := Ideal)) (after (seg18 (F := Ideal)) (after (seg17 (F := Ideal)) (after (seg16 (F := Ideal)) W)))))))) :=
  good_step h (keep_L3 W)

theorem good_L4 {V W : Valuation τ sig (Elt Ideal)} (h : Good V W) : Good V (after (seg32 (F := Ideal)) (after (seg31 (F := Ideal)) (after (seg30 (F := Ideal)) (after (seg29 (F := Ideal)) (after (seg28 (F := Ideal)) (after (seg27 (F := Ideal)) (after (seg26 (F := Ideal)) (after (seg25 (F := Ideal)) (after (seg24 (F := Ideal)) W))))))))) :=
  good_step h (keep_L4 W)

theorem good_L5 {V W : Valuation τ sig (Elt Ideal)} (h : Good V W) : Good V (after (seg40 (F := Ideal)) (after (seg39 (F := Ideal)) (after (seg38 (F := Ideal)) (after (seg37 (F := Ideal)) (after (seg36 (F := Ideal)) (after (seg35 (F := Ideal)) (after (seg34 (F := Ideal)) (after (seg33 (F := Ideal)) W)))))))) :=
  good_step h (keep_L5 W)

theorem layer_L1 {V W : Valuation τ sig (Elt Ideal)} (h : Good V W) :
    (after (seg7 (F := Ideal)) (after (seg6 (F := Ideal)) (after (seg5 (F := Ideal)) (after (seg4 (F := Ideal)) (after (seg3 (F := Ideal)) (after (seg2 (F := Ideal)) (after (seg1 (F := Ideal)) W))))))) (Proc.devRef .tc main_v57)
      = Cert.Gine.layer wfG0 wfS0 Cert.Gine.varTwo (Cert.Gine.srcIdx (V (Proc.devRef .tc main_arg1))) (Cert.Gine.dstIdx (V (Proc.devRef .tc main_arg1))) (V (Proc.devRef .tc main_arg2))
          (Cert.Gine.p1 (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10))) (V (Proc.devRef .tc main_arg0)) := by
  rw [value_L1 W, h.args main_arg0 (by decide), h.args main_arg2 (by decide), h.args main_arg3 (by decide), h.args main_arg4 (by decide),
    h.args main_arg5 (by decide), h.args main_arg6 (by decide), h.args main_arg7 (by decide), h.args main_arg8 (by decide),
    h.args main_arg9 (by decide), h.args main_arg10 (by decide)]
  exact math_L1 _ _ _ (V (Proc.devRef .tc main_arg1)) _ _ _ _ _ _ _ _ _ h.src h.dst

theorem layer_L2 {V W : Valuation τ sig (Elt Ideal)} (h : Good V W) :
    (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) W)))))))) (Proc.devRef .tc main_v127)
      = Cert.Gine.layer wfG wfS Cert.Gine.varTwo (Cert.Gine.srcIdx (V (Proc.devRef .tc main_arg1))) (Cert.Gine.dstIdx (V (Proc.devRef .tc main_arg1))) (V (Proc.devRef .tc main_arg2))
          (Cert.Gine.pl 0 (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)))
          (W (Proc.devRef .tc main_v57)) := by
  rw [value_L2 W, h.args main_arg2 (by decide), h.args main_arg11 (by decide), h.args main_arg12 (by decide),
    h.args main_arg13 (by decide), h.args main_arg14 (by decide), h.args main_arg15 (by decide), h.args main_arg16 (by decide),
    h.args main_arg17 (by decide), h.args main_arg18 (by decide)]
  exact math_L 0 _ _ _ (V (Proc.devRef .tc main_arg1)) _ _ _ _ _ _ _ _ _ h.src h.dst slices_S4x7x64_S1x7x64_0_0_0 slices_S4x64_S1x64_0_0 slices_S4x64x64_S1x64x64_0_0_0

theorem layer_L3 {V W : Valuation τ sig (Elt Ideal)} (h : Good V W) :
    (after (seg23 (F := Ideal)) (after (seg22 (F := Ideal)) (after (seg21 (F := Ideal)) (after (seg20 (F := Ideal)) (after (seg19 (F := Ideal)) (after (seg18 (F := Ideal)) (after (seg17 (F := Ideal)) (after (seg16 (F := Ideal)) W)))))))) (Proc.devRef .tc main_v197)
      = Cert.Gine.layer wfG wfS Cert.Gine.varTwo (Cert.Gine.srcIdx (V (Proc.devRef .tc main_arg1))) (Cert.Gine.dstIdx (V (Proc.devRef .tc main_arg1))) (V (Proc.devRef .tc main_arg2))
          (Cert.Gine.pl 1 (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)))
          (W (Proc.devRef .tc main_v127)) := by
  rw [value_L3 W, h.args main_arg2 (by decide), h.args main_arg11 (by decide), h.args main_arg12 (by decide),
    h.args main_arg13 (by decide), h.args main_arg14 (by decide), h.args main_arg15 (by decide), h.args main_arg16 (by decide),
    h.args main_arg17 (by decide), h.args main_arg18 (by decide)]
  exact math_L 1 _ _ _ (V (Proc.devRef .tc main_arg1)) _ _ _ _ _ _ _ _ _ h.src h.dst slices_S4x7x64_S1x7x64_1_0_0 slices_S4x64_S1x64_1_0 slices_S4x64x64_S1x64x64_1_0_0

theorem layer_L4 {V W : Valuation τ sig (Elt Ideal)} (h : Good V W) :
    (after (seg32 (F := Ideal)) (after (seg31 (F := Ideal)) (after (seg30 (F := Ideal)) (after (seg29 (F := Ideal)) (after (seg28 (F := Ideal)) (after (seg27 (F := Ideal)) (after (seg26 (F := Ideal)) (after (seg25 (F := Ideal)) (after (seg24 (F := Ideal)) W))))))))) (Proc.devRef .tc main_v267)
      = Cert.Gine.layer wfG wfS Cert.Gine.varTwo (Cert.Gine.srcIdx (V (Proc.devRef .tc main_arg1))) (Cert.Gine.dstIdx (V (Proc.devRef .tc main_arg1))) (V (Proc.devRef .tc main_arg2))
          (Cert.Gine.pl 2 (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)))
          (W (Proc.devRef .tc main_v197)) := by
  rw [value_L4 W, h.args main_arg2 (by decide), h.args main_arg11 (by decide), h.args main_arg12 (by decide),
    h.args main_arg13 (by decide), h.args main_arg14 (by decide), h.args main_arg15 (by decide), h.args main_arg16 (by decide),
    h.args main_arg17 (by decide), h.args main_arg18 (by decide)]
  exact math_L 2 _ _ _ (V (Proc.devRef .tc main_arg1)) _ _ _ _ _ _ _ _ _ h.src h.dst slices_S4x7x64_S1x7x64_2_0_0 slices_S4x64_S1x64_2_0 slices_S4x64x64_S1x64x64_2_0_0

theorem layer_L5 {V W : Valuation τ sig (Elt Ideal)} (h : Good V W) :
    (after (seg40 (F := Ideal)) (after (seg39 (F := Ideal)) (after (seg38 (F := Ideal)) (after (seg37 (F := Ideal)) (after (seg36 (F := Ideal)) (after (seg35 (F := Ideal)) (after (seg34 (F := Ideal)) (after (seg33 (F := Ideal)) W)))))))) (Proc.devRef .tc main_v337)
      = Cert.Gine.layer wfG wfS Cert.Gine.varTwo (Cert.Gine.srcIdx (V (Proc.devRef .tc main_arg1))) (Cert.Gine.dstIdx (V (Proc.devRef .tc main_arg1))) (V (Proc.devRef .tc main_arg2))
          (Cert.Gine.pl 3 (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)))
          (W (Proc.devRef .tc main_v267)) := by
  rw [value_L5 W, h.args main_arg2 (by decide), h.args main_arg11 (by decide), h.args main_arg12 (by decide),
    h.args main_arg13 (by decide), h.args main_arg14 (by decide), h.args main_arg15 (by decide), h.args main_arg16 (by decide),
    h.args main_arg17 (by decide), h.args main_arg18 (by decide)]
  exact math_L 3 _ _ _ (V (Proc.devRef .tc main_arg1)) _ _ _ _ _ _ _ _ _ h.src h.dst slices_S4x7x64_S1x7x64_3_0_0 slices_S4x64_S1x64_3_0 slices_S4x64x64_S1x64x64_3_0_0

/-! ## The whole program -/

set_option maxHeartbeats 2000000 in
/-- The fold of all the operations at the result buffer is the network of the arguments' contents. -/
theorem value_main (V : Valuation τ sig (Elt Ideal)) :
    after (ops (F := Ideal)) V (Proc.devRef .tc main_v350)
      = Cert.Gine.netOf wfG0 wfS0 wfG wfS Cert.Gine.varTwo (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  have e : after (ops (F := Ideal)) V = (after (seg41 (F := Ideal)) (after (seg40 (F := Ideal)) (after (seg39 (F := Ideal)) (after (seg38 (F := Ideal)) (after (seg37 (F := Ideal)) (after (seg36 (F := Ideal)) (after (seg35 (F := Ideal)) (after (seg34 (F := Ideal)) (after (seg33 (F := Ideal)) (after (seg32 (F := Ideal)) (after (seg31 (F := Ideal)) (after (seg30 (F := Ideal)) (after (seg29 (F := Ideal)) (after (seg28 (F := Ideal)) (after (seg27 (F := Ideal)) (after (seg26 (F := Ideal)) (after (seg25 (F := Ideal)) (after (seg24 (F := Ideal)) (after (seg23 (F := Ideal)) (after (seg22 (F := Ideal)) (after (seg21 (F := Ideal)) (after (seg20 (F := Ideal)) (after (seg19 (F := Ideal)) (after (seg18 (F := Ideal)) (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))))))))))))))))))))))))))) := by
    simp only [ops, RefOps.after_append]
  have g0 := good_pre V
  have g1 := good_L1 g0
  have g2 := good_L2 g1
  have g3 := good_L3 g2
  have g4 := good_L4 g3
  have g5 := good_L5 g4
  rw [e, value_head, layer_L5 g4, layer_L4 g3, layer_L3 g2, layer_L2 g1, layer_L1 g0,
    g5.args main_arg19 (by decide), g5.args main_arg20 (by decide), g5.args main_arg21 (by decide), g5.args main_arg22 (by decide),
    refHead_eq dot_S50000x64_S64x500_S50000x500_1_0_0_1_n_n rfl dot_S50000x500_S500x1_S50000x1_1_0_0_1_n_n rfl]
  rfl

/-- The fold of all the operations keeps the arguments. -/
theorem keep_main (V : Valuation τ sig (Elt Ideal)) (r : Ref sig .tc) (hr : r.idx.val ≤ 22) :
    after (ops (F := Ideal)) V (Proc.devRef .tc r) = V (Proc.devRef .tc r) := by
  have e : after (ops (F := Ideal)) V = (after (seg41 (F := Ideal)) (after (seg40 (F := Ideal)) (after (seg39 (F := Ideal)) (after (seg38 (F := Ideal)) (after (seg37 (F := Ideal)) (after (seg36 (F := Ideal)) (after (seg35 (F := Ideal)) (after (seg34 (F := Ideal)) (after (seg33 (F := Ideal)) (after (seg32 (F := Ideal)) (after (seg31 (F := Ideal)) (after (seg30 (F := Ideal)) (after (seg29 (F := Ideal)) (after (seg28 (F := Ideal)) (after (seg27 (F := Ideal)) (after (seg26 (F := Ideal)) (after (seg25 (F := Ideal)) (after (seg24 (F := Ideal)) (after (seg23 (F := Ideal)) (after (seg22 (F := Ideal)) (after (seg21 (F := Ideal)) (after (seg20 (F := Ideal)) (after (seg19 (F := Ideal)) (after (seg18 (F := Ideal)) (after (seg17 (F := Ideal)) (after (seg16 (F := Ideal)) (after (seg15 (F := Ideal)) (after (seg14 (F := Ideal)) (after (seg13 (F := Ideal)) (after (seg12 (F := Ideal)) (after (seg11 (F := Ideal)) (after (seg10 (F := Ideal)) (after (seg9 (F := Ideal)) (after (seg8 (F := Ideal)) (after (seg7 (F := Ideal)) (after (seg6 (F := Ideal)) (after (seg5 (F := Ideal)) (after (seg4 (F := Ideal)) (after (seg3 (F := Ideal)) (after (seg2 (F := Ideal)) (after (seg1 (F := Ideal)) (after (seg0 (F := Ideal)) V)))))))))))))))))))))))))))))))))))))))))) := by
    simp only [ops, RefOps.after_append]
  have hr' : r.idx.val ≤ 26 := Nat.le_trans hr (by decide)
  rw [e, keeps_seg41 _ r hr', keeps_seg40 _ r hr', keeps_seg39 _ r hr', keeps_seg38 _ r hr', keeps_seg37 _ r hr', keeps_seg36 _ r hr', keeps_seg35 _ r hr', keeps_seg34 _ r hr', keeps_seg33 _ r hr', keeps_seg32 _ r hr', keeps_seg31 _ r hr', keeps_seg30 _ r hr', keeps_seg29 _ r hr', keeps_seg28 _ r hr', keeps_seg27 _ r hr', keeps_seg26 _ r hr', keeps_seg25 _ r hr', keeps_seg24 _ r hr', keeps_seg23 _ r hr', keeps_seg22 _ r hr', keeps_seg21 _ r hr', keeps_seg20 _ r hr', keeps_seg19 _ r hr', keeps_seg18 _ r hr', keeps_seg17 _ r hr', keeps_seg16 _ r hr', keeps_seg15 _ r hr', keeps_seg14 _ r hr', keeps_seg13 _ r hr', keeps_seg12 _ r hr', keeps_seg11 _ r hr', keeps_seg10 _ r hr', keeps_seg9 _ r hr', keeps_seg8 _ r hr', keeps_seg7 _ r hr', keeps_seg6 _ r hr', keeps_seg5 _ r hr', keeps_seg4 _ r hr', keeps_seg3 _ r hr', keeps_seg2 _ r hr', keeps_seg1 _ r hr', keeps_seg0 V r hr]

/-- Every weakly fair execution of @main terminates with the result array at the network of the launch contents of the
    arguments, and the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v350)
        = Cert.Gine.netOf wfG0 wfS0 wfG wfS Cert.Gine.varTwo (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v350).trans (value_main _),
      (h c main_arg0).trans (keep_main _ main_arg0 (by decide)),
      (h c main_arg1).trans (keep_main _ main_arg1 (by decide)),
      (h c main_arg2).trans (keep_main _ main_arg2 (by decide)),
      (h c main_arg3).trans (keep_main _ main_arg3 (by decide)),
      (h c main_arg4).trans (keep_main _ main_arg4 (by decide)),
      (h c main_arg5).trans (keep_main _ main_arg5 (by decide)),
      (h c main_arg6).trans (keep_main _ main_arg6 (by decide)),
      (h c main_arg7).trans (keep_main _ main_arg7 (by decide)),
      (h c main_arg8).trans (keep_main _ main_arg8 (by decide)),
      (h c main_arg9).trans (keep_main _ main_arg9 (by decide)),
      (h c main_arg10).trans (keep_main _ main_arg10 (by decide)),
      (h c main_arg11).trans (keep_main _ main_arg11 (by decide)),
      (h c main_arg12).trans (keep_main _ main_arg12 (by decide)),
      (h c main_arg13).trans (keep_main _ main_arg13 (by decide)),
      (h c main_arg14).trans (keep_main _ main_arg14 (by decide)),
      (h c main_arg15).trans (keep_main _ main_arg15 (by decide)),
      (h c main_arg16).trans (keep_main _ main_arg16 (by decide)),
      (h c main_arg17).trans (keep_main _ main_arg17 (by decide)),
      (h c main_arg18).trans (keep_main _ main_arg18 (by decide)),
      (h c main_arg19).trans (keep_main _ main_arg19 (by decide)),
      (h c main_arg20).trans (keep_main _ main_arg20 (by decide)),
      (h c main_arg21).trans (keep_main _ main_arg21 (by decide)),
      (h c main_arg22).trans (keep_main _ main_arg22 (by decide))⟩)
    (RefOps.run_main m ρ)

end Cert.ReferenceIdeal.RefValue

end
-- ==== Proof.KRun.lean ====
/-
  The kernel program's run, with the result buffer's final contents named.

  Every weakly fair execution of the program on the TensorCores terminates without fault; in every final
  state the result buffer holds what the fold of the program's host stretches and regions from the launch
  memory leaves in it (W33), and each of the twenty-three argument arrays holds what it was launched with.
-/
import proofs.«122931_j61864708931975_1_alg».proof.Proof.Gen.KernelIdeal.Frame

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes
-- unfolding plain definitions in a metavariable's type
set_option backward.isDefEq.respectTransparency.types false in
/-- The run with the final contents of the result buffer: the launch over the program's segments, the last
    thread state read against the final state, the result buffer at the fold's last valuation and each
    argument read back through the fold to the launch memory. -/
theorem run_W33 : θ_run defs (onTc (τ := τ) (main (F := F))) ⟨m, fun _ => 0, ρ⟩ (fun r => ∀ c : Dev nD,
      r.2.mem ((c.tc : Thread nD τ).loc main_v200) = W33 m ρ c (Proc.devRef .tc main_v200)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W33 m ρ c b)
    (hfin := fun c s' => by
      iintro ⟨⟨Hh, -⟩, HSI⟩
      unfold StableHlo.held
      imodintro
      iapply (pointsTo_read_all (Pipeline.ucRefs τ sig) (fun b => (((c : Thread nD τ)).1, b)) (W33 m ρ c) s')
      isplitl [Hh] <;> iassumption)
    (hQ := fun s h c =>
      ⟨h c _ (mem_uc main_v200 (by decide)),
       (h c _ (mem_uc main_arg0 (by decide))).trans (W33_main_arg0 m ρ c),
       (h c _ (mem_uc main_arg1 (by decide))).trans (W33_main_arg1 m ρ c),
       (h c _ (mem_uc main_arg2 (by decide))).trans (W33_main_arg2 m ρ c),
       (h c _ (mem_uc main_arg3 (by decide))).trans (W33_main_arg3 m ρ c),
       (h c _ (mem_uc main_arg4 (by decide))).trans (W33_main_arg4 m ρ c),
       (h c _ (mem_uc main_arg5 (by decide))).trans (W33_main_arg5 m ρ c),
       (h c _ (mem_uc main_arg6 (by decide))).trans (W33_main_arg6 m ρ c),
       (h c _ (mem_uc main_arg7 (by decide))).trans (W33_main_arg7 m ρ c),
       (h c _ (mem_uc main_arg8 (by decide))).trans (W33_main_arg8 m ρ c),
       (h c _ (mem_uc main_arg9 (by decide))).trans (W33_main_arg9 m ρ c),
       (h c _ (mem_uc main_arg10 (by decide))).trans (W33_main_arg10 m ρ c),
       (h c _ (mem_uc main_arg11 (by decide))).trans (W33_main_arg11 m ρ c),
       (h c _ (mem_uc main_arg12 (by decide))).trans (W33_main_arg12 m ρ c),
       (h c _ (mem_uc main_arg13 (by decide))).trans (W33_main_arg13 m ρ c),
       (h c _ (mem_uc main_arg14 (by decide))).trans (W33_main_arg14 m ρ c),
       (h c _ (mem_uc main_arg15 (by decide))).trans (W33_main_arg15 m ρ c),
       (h c _ (mem_uc main_arg16 (by decide))).trans (W33_main_arg16 m ρ c),
       (h c _ (mem_uc main_arg17 (by decide))).trans (W33_main_arg17 m ρ c),
       (h c _ (mem_uc main_arg18 (by decide))).trans (W33_main_arg18 m ρ c),
       (h c _ (mem_uc main_arg19 (by decide))).trans (W33_main_arg19 m ρ c),
       (h c _ (mem_uc main_arg20 (by decide))).trans (W33_main_arg20 m ρ c),
       (h c _ (mem_uc main_arg21 (by decide))).trans (W33_main_arg21 m ρ c),
       (h c _ (mem_uc main_arg22 (by decide))).trans (W33_main_arg22 m ρ c)⟩)

end Cert.KernelIdeal.KValue

end
-- ==== Proof.KBack.lean ====
/-
  Reading a buffer back through the run: a host stretch leaves every buffer it does not write as it found
  it, and so does a region for every buffer that is not one of its arrays. Per stretch, the list of the
  buffers it writes; a buffer outside the list reads the same before and after.
-/
import proofs.«122931_j61864708931975_1_alg».proof.Proof.Gen.KernelIdeal.Frame
import Idealize.ShloMosaic.Lib.StableHlo.Run

set_option maxRecDepth 16384

noncomputable section

namespace Cert.KernelIdeal.KValue

open Idealize.ShloMosaic Idealize.ShloMosaic.TcCoe
open Cert.KernelIdeal Cert.KernelIdeal.Gen

variable {F : FTy → Type} [FloatOps F]

/-- A buffer of a list, as a singleton of device buffers, lies in the list's image. -/
theorem sub_of_mem {W : List (Ref sig .tc)} {y : Ref sig .tc} (h : y ∈ W) :
    ({Proc.devRef .tc y} : Finset (DevRef τ sig)) ⊆ (W.map (Proc.devRef (τ := τ) .tc)).toFinset :=
  Finset.singleton_subset_iff.mpr (List.mem_toFinset.mpr (List.mem_map_of_mem h))

variable (m : (ℓ : Loc nD τ sig) → Buf (Elt F) ℓ) (ρ : Dev nD → PrngReg) (c : Dev nD)

/-- The buffers `hostOps0` writes; any other reads the same after the stretch. -/
abbrev writes_hostOps0 : List (Ref sig .tc) := [main_v0, main_v1, main_v2, main_v3, main_c, main_v4, main_v5, main_c_0, main_v6, main_v7, main_v8, main_v9, main_v10, main_v11]
theorem W1_keep (r : Ref sig .tc) (hr : r ∉ writes_hostOps0) :
    W1 m ρ c (Proc.devRef .tc r) = W0 m ρ c (Proc.devRef .tc r) :=
  StableHlo.after_of_writes_sub (W := writes_hostOps0) hostOps0 _ (by
    simp only [hostOps0, List.Forall, StableHlo.nullary_writes, StableHlo.unary_writes, StableHlo.binary_writes,
      StableHlo.ternary_writes, StableHlo.reshape_writes]
    repeat' apply And.intro
    all_goals exact sub_of_mem (by decide)) hr

/-- The buffers `hostOps1` writes; any other reads the same after the stretch. -/
abbrev writes_hostOps1 : List (Ref sig .tc) := [main_cst, main_v13, main_v14, main_v15, main_v16]
theorem W3_keep (r : Ref sig .tc) (hr : r ∉ writes_hostOps1) :
    W3 m ρ c (Proc.devRef .tc r) = W2 m ρ c (Proc.devRef .tc r) :=
  StableHlo.after_of_writes_sub (W := writes_hostOps1) hostOps1 _ (by
    simp only [hostOps1, List.Forall, StableHlo.nullary_writes, StableHlo.unary_writes, StableHlo.binary_writes,
      StableHlo.ternary_writes, StableHlo.reshape_writes]
    repeat' apply And.intro
    all_goals exact sub_of_mem (by decide)) hr

/-- The buffers `hostOps2` writes; any other reads the same after the stretch. -/
abbrev writes_hostOps2 : List (Ref sig .tc) := [main_cst_1, main_v18, main_v19, main_cst_2, main_v20, main_v21, main_v22, main_v23, main_v24, main_v25, main_v26]
theorem W5_keep (r : Ref sig .tc) (hr : r ∉ writes_hostOps2) :
    W5 m ρ c (Proc.devRef .tc r) = W4 m ρ c (Proc.devRef .tc r) :=
  StableHlo.after_of_writes_sub (W := writes_hostOps2) hostOps2 _ (by
    simp only [hostOps2, List.Forall, StableHlo.nullary_writes, StableHlo.unary_writes, StableHlo.binary_writes,
      StableHlo.ternary_writes, StableHlo.reshape_writes]
    repeat' apply And.intro
    all_goals exact sub_of_mem (by decide)) hr

/-- The buffers `hostOps3` writes; any other reads the same after the stretch. -/
abbrev writes_hostOps3 : List (Ref sig .tc) := [main_v28, main_v29, main_v30, main_v31, main_v32, main_v33, main_v34, main_v35, main_v36, main_v37, main_v38, main_v39, main_v40, main_v41, main_v42, main_v43, main_c_3, main_v44, main_v45, main_c_4, main_v46, main_v47, main_v48, main_v49, main_v50, main_v51]
theorem W7_keep (r : Ref sig .tc) (hr : r ∉ writes_hostOps3) :
    W7 m ρ c (Proc.devRef .tc r) = W6 m ρ c (Proc.devRef .tc r) :=
  StableHlo.after_of_writes_sub (W := writes_hostOps3) hostOps3 _ (by
    simp only [hostOps3, List.Forall, StableHlo.nullary_writes, StableHlo.unary_writes, StableHlo.binary_writes,
      StableHlo.ternary_writes, StableHlo.reshape_writes]
    repeat' apply And.intro
    all_goals exact sub_of_mem (by decide)) hr

/-- The buffers `hostOps4` writes; any other reads the same after the stretch. -/
abbrev writes_hostOps4 : List (Ref sig .tc) := [main_cst_5, main_v53, main_v54, main_v55, main_v56]
theorem W9_keep (r : Ref sig .tc) (hr : r ∉ writes_hostOps4) :
    W9 m ρ c (Proc.devRef .tc r) = W8 m ρ c (Proc.devRef .tc r) :=
  StableHlo.after_of_writes_sub (W := writes_hostOps4) hostOps4 _ (by
    simp only [hostOps4, List.Forall, StableHlo.nullary_writes, StableHlo.unary_writes, StableHlo.binary_writes,
      StableHlo.ternary_writes, StableHlo.reshape_writes]
    repeat' apply And.intro
    all_goals exact sub_of_mem (by decide)) hr

/-- The buffers `hostOps5` writes; any other reads the same after the stretch. -/
abbrev writes_hostOps5 : List (Ref sig .tc) := [main_cst_6, main_v58, main_v59, main_cst_7, main_v60, main_v61, main_v62, main_v63, main_v64, main_v65, main_v66]
theorem W11_keep (r : Ref sig .tc) (hr : r ∉ writes_hostOps5) :
    W11 m ρ c (Proc.devRef .tc r) = W10 m ρ c (Proc.devRef .tc r) :=
  StableHlo.after_of_writes_sub (W := writes_hostOps5) hostOps5 _ (by
    simp only [hostOps5, List.Forall, StableHlo.nullary_writes, StableHlo.unary_writes, StableHlo.binary_writes,
      StableHlo.ternary_writes, StableHlo.reshape_writes]
    repeat' apply And.intro
    all_goals exact sub_of_mem (by decide)) hr

/-- The buffers `hostOps6` writes; any other reads the same after the stretch. -/
abbrev writes_hostOps6 : List (Ref sig .tc) := [main_v68, main_v69, main_v70, main_v71, main_v72, main_v73, main_v74, main_v75, main_v76, main_v77, main_v78, main_v79, main_v80, main_v81, main_v82, main_v83, main_c_8, main_v84, main_v85, main_c_9, main_v86, main_v87, main_v88, main_v89, main_v90, main_v91]
theorem W13_keep (r : Ref sig .tc) (hr : r ∉ writes_hostOps6) :
    W13 m ρ c (Proc.devRef .tc r) = W12 m ρ c (Proc.devRef .tc r) :=
  StableHlo.after_of_writes_sub (W := writes_hostOps6) hostOps6 _ (by
    simp only [hostOps6, List.Forall, StableHlo.nullary_writes, StableHlo.unary_writes, StableHlo.binary_writes,
      StableHlo.ternary_writes, StableHlo.reshape_writes]
    repeat' apply And.intro
    all_goals exact sub_of_mem (by decide)) hr

/-- The buffers `hostOps7` writes; any other reads the same after the stretch. -/
abbrev writes_hostOps7 : List (Ref sig .tc) := [main_cst_10, main_v93, main_v94, main_v95, main_v96]
theorem W15_keep (r : Ref sig .tc) (hr : r ∉ writes_hostOps7) :
    W15 m ρ c (Proc.devRef .tc r) = W14 m ρ c (Proc.devRef .tc r) :=
  StableHlo.after_of_writes_sub (W := writes_hostOps7) hostOps7 _ (by
    simp only [hostOps7, List.Forall, StableHlo.nullary_writes, StableHlo.unary_writes, StableHlo.binary_writes,
      StableHlo.ternary_writes, StableHlo.reshape_writes]
    repeat' apply And.intro
    all_goals exact sub_of_mem (by decide)) hr

/-- The buffers `hostOps8` writes; any other reads the same after the stretch. -/
abbrev writes_hostOps8 : List (Ref sig .tc) := [main_cst_11, main_v98, main_v99, main_cst_12, main_v100, main_v101, main_v102, main_v103, main_v104, main_v105, main_v106]
theorem W17_keep (r : Ref sig .tc) (hr : r ∉ writes_hostOps8) :
    W17 m ρ c (Proc.devRef .tc r) = W16 m ρ c (Proc.devRef .tc r) :=
  StableHlo.after_of_writes_sub (W := writes_hostOps8) hostOps8 _ (by
    simp only [hostOps8, List.Forall, StableHlo.nullary_writes, StableHlo.unary_writes, StableHlo.binary_writes,
      StableHlo.ternary_writes, StableHlo.reshape_writes]
    repeat' apply And.intro
    all_goals exact sub_of_mem (by decide)) hr

/-- The buffers `hostOps9` writes; any other reads the same after the stretch. -/
abbrev writes_hostOps9 : List (Ref sig .tc) := [main_v108, main_v109, main_v110, main_v111, main_v112, main_v113, main_v114, main_v115, main_v116, main_v117, main_v118, main_v119, main_v120, main_v121, main_v122, main_v123, main_c_13, main_v124, main_v125, main_c_14, main_v126, main_v127, main_v128, main_v129, main_v130, main_v131]
theorem W19_keep (r : Ref sig .tc) (hr : r ∉ writes_hostOps9) :
    W19 m ρ c (Proc.devRef .tc r) = W18 m ρ c (Proc.devRef .tc r) :=
  StableHlo.after_of_writes_sub (W := writes_hostOps9) hostOps9 _ (by
    simp only [hostOps9, List.Forall, StableHlo.nullary_writes, StableHlo.unary_writes, StableHlo.binary_writes,
      StableHlo.ternary_writes, StableHlo.reshape_writes]
    repeat' apply And.intro
    all_goals exact sub_of_mem (by decide)) hr

/-- The buffers `hostOps10` writes; any other reads the same after the stretch. -/
abbrev writes_hostOps10 : List (Ref sig .tc) := [main_cst_15, main_v133, main_v134, main_v135, main_v136]
theorem W21_keep (r : Ref sig .tc) (hr : r ∉ writes_hostOps10) :
    W21 m ρ c (Proc.devRef .tc r) = W20 m ρ c (Proc.devRef .tc r) :=
  StableHlo.after_of_writes_sub (W := writes_hostOps10) hostOps10 _ (by
    simp only [hostOps10, List.Forall, StableHlo.nullary_writes, StableHlo.unary_writes, StableHlo.binary_writes,
      StableHlo.ternary_writes, StableHlo.reshape_writes]
    repeat' apply And.intro
    all_goals exact sub_of_mem (by decide)) hr

/-- The buffers `hostOps11` writes; any other reads the same after the stretch. -/
abbrev writes_hostOps11 : List (Ref sig .tc) := [main_cst_16, main_v138, main_v139, main_cst_17, main_v140, main_v141, main_v142, main_v143, main_v144, main_v145, main_v146]
theorem W23_keep (r : Ref sig .tc) (hr : r ∉ writes_hostOps11) :
    W23 m ρ c (Proc.devRef .tc r) = W22 m ρ c (Proc.devRef .tc r) :=
  StableHlo.after_of_writes_sub (W := writes_hostOps11) hostOps11 _ (by
    simp only [hostOps11, List.Forall, StableHlo.nullary_writes, StableHlo.unary_writes, StableHlo.binary_writes,
      StableHlo.ternary_writes, StableHlo.reshape_writes]
    repeat' apply And.intro
    all_goals exact sub_of_mem (by decide)) hr

/-- The buffers `hostOps12` writes; any other reads the same after the stretch. -/
abbrev writes_hostOps12 : List (Ref sig .tc) := [main_v148, main_v149, main_v150, main_v151, main_v152, main_v153, main_v154, main_v155, main_v156, main_v157, main_v158, main_v159, main_v160, main_v161, main_v162, main_v163, main_c_18, main_v164, main_v165, main_c_19, main_v166, main_v167, main_v168, main_v169, main_v170, main_v171]
theorem W25_keep (r : Ref sig .tc) (hr : r ∉ writes_hostOps12) :
    W25 m ρ c (Proc.devRef .tc r) = W24 m ρ c (Proc.devRef .tc r) :=
  StableHlo.after_of_writes_sub (W := writes_hostOps12) hostOps12 _ (by
    simp only [hostOps12, List.Forall, StableHlo.nullary_writes, StableHlo.unary_writes, StableHlo.binary_writes,
      StableHlo.ternary_writes, StableHlo.reshape_writes]
    repeat' apply And.intro
    all_goals exact sub_of_mem (by decide)) hr

/-- The buffers `hostOps13` writes; any other reads the same after the stretch. -/
abbrev writes_hostOps13 : List (Ref sig .tc) := [main_cst_20, main_v173, main_v174, main_v175, main_v176]
theorem W27_keep (r : Ref sig .tc) (hr : r ∉ writes_hostOps13) :
    W27 m ρ c (Proc.devRef .tc r) = W26 m ρ c (Proc.devRef .tc r) :=
  StableHlo.after_of_writes_sub (W := writes_hostOps13) hostOps13 _ (by
    simp only [hostOps13, List.Forall, StableHlo.nullary_writes, StableHlo.unary_writes, StableHlo.binary_writes,
      StableHlo.ternary_writes, StableHlo.reshape_writes]
    repeat' apply And.intro
    all_goals exact sub_of_mem (by decide)) hr

/-- The buffers `hostOps14` writes; any other reads the same after the stretch. -/
abbrev writes_hostOps14 : List (Ref sig .tc) := [main_cst_21, main_v178, main_v179, main_cst_22, main_v180, main_v181, main_v182, main_v183, main_v184, main_v185, main_v186]
theorem W29_keep (r : Ref sig .tc) (hr : r ∉ writes_hostOps14) :
    W29 m ρ c (Proc.devRef .tc r) = W28 m ρ c (Proc.devRef .tc r) :=
  StableHlo.after_of_writes_sub (W := writes_hostOps14) hostOps14 _ (by
    simp only [hostOps14, List.Forall, StableHlo.nullary_writes, StableHlo.unary_writes, StableHlo.binary_writes,
      StableHlo.ternary_writes, StableHlo.reshape_writes]
    repeat' apply And.intro
    all_goals exact sub_of_mem (by decide)) hr

/-- The buffers `hostOps15` writes; any other reads the same after the stretch. -/
abbrev writes_hostOps15 : List (Ref sig .tc) := [main_v188, main_v189, main_v190, main_v191, main_cst_23, main_v192, main_v193, main_cst_24, main_v194, main_v195]
theorem W31_keep (r : Ref sig .tc) (hr : r ∉ writes_hostOps15) :
    W31 m ρ c (Proc.devRef .tc r) = W30 m ρ c (Proc.devRef .tc r) :=
  StableHlo.after_of_writes_sub (W := writes_hostOps15) hostOps15 _ (by
    simp only [hostOps15, List.Forall, StableHlo.nullary_writes, StableHlo.unary_writes, StableHlo.binary_writes,
      StableHlo.ternary_writes, StableHlo.reshape_writes]
    repeat' apply And.intro
    all_goals exact sub_of_mem (by decide)) hr

/-- The buffers `hostOps15_1` writes; any other reads the same after the stretch. -/
abbrev writes_hostOps15_1 : List (Ref sig .tc) := [main_v196]
theorem W32_keep (r : Ref sig .tc) (hr : r ∉ writes_hostOps15_1) :
    W32 m ρ c (Proc.devRef .tc r) = W31 m ρ c (Proc.devRef .tc r) :=
  StableHlo.after_of_writes_sub (W := writes_hostOps15_1) hostOps15_1 _ (by
    simp only [hostOps15_1, List.Forall, StableHlo.nullary_writes, StableHlo.unary_writes, StableHlo.binary_writes,
      StableHlo.ternary_writes, StableHlo.reshape_writes]
    repeat' apply And.intro
    all_goals exact sub_of_mem (by decide)) hr

/-- The buffers `hostOps15_2` writes; any other reads the same after the stretch. -/
abbrev writes_hostOps15_2 : List (Ref sig .tc) := [main_v197, main_v198, main_v199, main_v200]
theorem W33_keep (r : Ref sig .tc) (hr : r ∉ writes_hostOps15_2) :
    W33 m ρ c (Proc.devRef .tc r) = W32 m ρ c (Proc.devRef .tc r) :=
  StableHlo.after_of_writes_sub (W := writes_hostOps15_2) hostOps15_2 _ (by
    simp only [hostOps15_2, List.Forall, StableHlo.nullary_writes, StableHlo.unary_writes, StableHlo.binary_writes,
      StableHlo.ternary_writes, StableHlo.reshape_writes]
    repeat' apply And.intro
    all_goals exact sub_of_mem (by decide)) hr

/-- Walks a buffer's contents back through the boundaries for as long as the stretch or region before the
    boundary leaves the buffer alone. -/
macro "wback" : tactic =>
  `(tactic| repeat (first
      | (rw [W2_of_ne]; rotate_left; decide)
      | (rw [W4_of_ne]; rotate_left; decide)
      | (rw [W6_of_ne]; rotate_left; decide)
      | (rw [W8_of_ne]; rotate_left; decide)
      | (rw [W10_of_ne]; rotate_left; decide)
      | (rw [W12_of_ne]; rotate_left; decide)
      | (rw [W14_of_ne]; rotate_left; decide)
      | (rw [W16_of_ne]; rotate_left; decide)
      | (rw [W18_of_ne]; rotate_left; decide)
      | (rw [W20_of_ne]; rotate_left; decide)
      | (rw [W22_of_ne]; rotate_left; decide)
      | (rw [W24_of_ne]; rotate_left; decide)
      | (rw [W26_of_ne]; rotate_left; decide)
      | (rw [W28_of_ne]; rotate_left; decide)
      | (rw [W30_of_ne]; rotate_left; decide)
      | (rw [W1_keep]; rotate_left; decide)
      | (rw [W3_keep]; rotate_left; decide)
      | (rw [W5_keep]; rotate_left; decide)
      | (rw [W7_keep]; rotate_left; decide)
      | (rw [W9_keep]; rotate_left; decide)
      | (rw [W11_keep]; rotate_left; decide)
      | (rw [W13_keep]; rotate_left; decide)
      | (rw [W15_keep]; rotate_left; decide)
      | (rw [W17_keep]; rotate_left; decide)
      | (rw [W19_keep]; rotate_left; decide)
      | (rw [W21_keep]; rotate_left; decide)
      | (rw [W23_keep]; rotate_left; decide)
      | (rw [W25_keep]; rotate_left; decide)
      | (rw [W27_keep]; rotate_left; decide)
      | (rw [W29_keep]; rotate_left; decide)
      | (rw [W31_keep]; rotate_left; decide)
      | (rw [W32_keep]; rotate_left; decide)
      | (rw [W33_keep]; rotate_left; decide)))

end Cert.KernelIdeal.KValue

end
-- ==== Proof.LibAxisSum.lean ====
/-
  A sum along one axis of a rank-2 array, read at an index on the extended reals.

  A vector unit's additive reduction of `src : [n, d]` along its last axis is, at row `r`, the finite sum
  `∑ k, src (r, k)`; along its first axis it is, at column `j`, `∑ r, src (r, j)`. The accumulator word is the
  neutral element of addition, so no initial value appears, and a finite sum on the extended reals is a sum in a
  commutative monoid: no order or finiteness matters.
-/
import Idealize.ShloMosaic.PureOps.Ideal
import Idealize.ShloMosaic.PureOps.Ideal.Laws
import Idealize.ShloMosaic.Lib.ValueIdx

noncomputable section

namespace Cert.LibAxisSum

open Idealize.ShloMosaic Idealize.ShloMosaic.ValueIdx

/-- The reduction of `[n, d]` along its last axis, at row `r`, is the sum of that row. -/
theorem sum_last {n d : ℕ} {φ : FTy} (src : FVec Ideal ⟨2, ![n, d]⟩ φ) (acc : BitVec φ.bits)
    (h : Shape.Reduces ⟨2, ![n, d]⟩ [1] ⟨1, ![n]⟩) (hφ : FKind.Formats φ) (hacc : acc = FKind.add.neutral φ hφ) (r : Fin n) :
    multiReduction .add [1] ⟨1, ![n]⟩ src acc h hφ hacc (ix1 r) = ∑ k : Fin d, src (ix2 r k) := by
  refine (Ideal.multiReduction_add_single src acc h hφ hacc (ix1 r)).trans ?_
  refine Finset.sum_congr rfl fun k _ => congrArg src (funext fun a => Fin.ext ?_)
  match a with
  | ⟨0, _⟩ => rfl
  | ⟨1, _⟩ => rfl

/-- The reduction of `[n, d]` along its first axis, at column `j`, is the sum of that column. -/
theorem sum_first {n d : ℕ} {φ : FTy} (src : FVec Ideal ⟨2, ![n, d]⟩ φ) (acc : BitVec φ.bits)
    (h : Shape.Reduces ⟨2, ![n, d]⟩ [0] ⟨1, ![d]⟩) (hφ : FKind.Formats φ) (hacc : acc = FKind.add.neutral φ hφ) (j : Fin d) :
    multiReduction .add [0] ⟨1, ![d]⟩ src acc h hφ hacc (ix1 j) = ∑ r : Fin n, src (ix2 r j) := by
  refine (Ideal.multiReduction_add_single src acc h hφ hacc (ix1 j)).trans ?_
  refine Finset.sum_congr rfl fun r _ => congrArg src (funext fun a => Fin.ext ?_)
  match a with
  | ⟨0, _⟩ => rfl
  | ⟨1, _⟩ => rfl

end Cert.LibAxisSum

end
-- ==== Proof.PayEdge.lean ====
/-
  The edge regions' arithmetic, entry by entry, as the specification's message formula on the blocks the
  body loads.
-/
import proofs.«122931_j61864708931975_1_alg».proof.Proof.Gen.KernelIdeal.Skeleton
import proofs.«122931_j61864708931975_1_alg».proof.Proof.Spec
import proofs.«122931_j61864708931975_1_alg».proof.Proof.LibDense
import proofs.«122931_j61864708931975_1_alg».proof.Proof.LibBiasRows
import proofs.«122931_j61864708931975_1_alg».proof.Proof.LibAxisSum

noncomputable section

namespace Cert.KernelIdeal.RegVal

open Idealize.ShloMosaic Idealize.ShloMosaic.ValueIdx Cert.KernelIdeal Cert.KernelIdeal.Gen Cert.Gine

/-- An entry of the message reads its own entry of the gathered rows, one row of the edge features, one
    column of the weight and one bias entry: operands that agree there give the same entry. -/
theorem msg_congr {E E' C K : ℕ} (gx : Arr2 E C) (gx' : Arr2 E' C) (ea : Arr2 E K) (ea' : Arr2 E' K) (eW eW' : Arr2 K C)
    (eb eb' : Fin C → EReal) (i : (⟨2, ![E, C]⟩ : Shape).Idx) (i' : (⟨2, ![E', C]⟩ : Shape).Idx)
    (hg : gx i = gx' i') (ha : ∀ k : Fin K, ea (ix2 (i 0) k) = ea' (ix2 (i' 0) k))
    (hw : ∀ k : Fin K, eW (ix2 k (i 1)) = eW' (ix2 k (i' 1))) (hb : eb (i 1) = eb' (i' 1)) :
    msg gx ea eW eb i = msg gx' ea' eW' eb' i' := by
  unfold msg prod
  rw [hg, hb]
  refine congrArg (fun s => max ((gx' i' + s) + eb' (i' 1)) wZero) ?_
  exact Finset.sum_congr rfl fun k _ => by rw [ha k, hw k]

/-- The vector unit's spelling of the message, at an entry: the gathered block plus the product into a zero
    accumulator, plus the bias row broadcast down the rows, against the zero word. -/
theorem msg_vec {n K C : ℕ} (ea : FVec Ideal ⟨2, ![n, K]⟩ .f32) (eW : FVec Ideal ⟨2, ![K, C]⟩ .f32)
    (gx : FVec Ideal ⟨2, ![n, C]⟩ .f32) (eb : FVec Ideal ⟨2, ![1, C]⟩ .f32)
    (h0 : (⟨2, ![n, C]⟩ : Shape).ShapeCasts ⟨2, ![n, C]⟩) (h1 : (⟨2, ![1, C]⟩ : Shape).ShapeCasts ⟨2, ![1, C]⟩)
    (h2 : (⟨2, ![1, C]⟩ : Shape).Broadcasts ⟨2, ![n, C]⟩) (i : (⟨2, ![n, C]⟩ : Shape).Idx) :
    maximumf (addf (addf (shapeCast ⟨2, ![n, C]⟩ gx h0)
        (FloatOps.matmul (DotDims.plain n K C) none ea eW (constant (F := Ideal) ⟨2, ![n, C]⟩ .f32 0x00000000#32)))
        (broadcastTo ⟨2, ![n, C]⟩ (shapeCast ⟨2, ![1, C]⟩ eb h1) h2))
      (broadcast ⟨2, ![n, C]⟩ (FloatOps.ofBits (F := Ideal) .f32 0x00000000#32)) i = msg gx ea eW (row eb) i := by
  rw [shapeCast_self, shapeCast_self]
  show max ((gx i + FloatOps.matmul (DotDims.plain n K C) none ea eW (constant (F := Ideal) ⟨2, ![n, C]⟩ .f32 0x00000000#32) i)
      + broadcastTo ⟨2, ![n, C]⟩ eb h2 i) _ = _
  rw [Cert.LibDense.matmul_plain, Cert.LibBiasRows.row_broadcast]
  rfl

/-- The first layer's edge arithmetic on a block of 4000 edges is the message formula of the blocks. -/
theorem edge_pay0 (v0 : Vec Ideal S4000x7 .f32) (v2 : Vec Ideal S7x2 .f32) (v5 : Vec Ideal S4000x2 .f32) (v8 : Vec Ideal S1x2 .f32)
    (i : S4000x2.Idx) : k0_pay1 (F := Ideal) v0 v2 v5 v8 i = msg v5 v0 v2 (row v8) i := by
  unfold k0_pay1
  exact msg_vec (n := 4000) (K := 7) (C := 2) v0 v2 v5 v8 _ _ _ i

/-- A later layer's edge arithmetic on a block of 4000 edges is the message formula of the blocks. -/
theorem edge_pay3 (v0 : Vec Ideal S4000x7 .f32) (v2 : Vec Ideal S7x64 .f32) (v6 : Vec Ideal S4000x64 .f32) (v9 : Vec Ideal S1x64 .f32)
    (i : S4000x64.Idx) : k3_pay1 (F := Ideal) v0 v2 v6 v9 i = msg v6 v0 v2 (row v9) i := by
  unfold k3_pay1
  have e : shapeCast S7x64 v2 shapeCasts_S7x64_S7x64 = v2 := shapeCast_self _ _
  refine Eq.trans ?_ (msg_vec (n := 4000) (K := 7) (C := 64) v0 v2 v6 v9 shapeCasts_S4000x64_S4000x64 shapeCasts_S1x64_S1x64
    broadcasts_S1x64_S4000x64 i)
  exact congrArg (fun w : Vec Ideal S7x64 .f32 => maximumf (addf (addf (shapeCast S4000x64 v6 shapeCasts_S4000x64_S4000x64)
    (FloatOps.matmul dot_S4000x7_S7x64_S4000x64_1_0_0_1_n_n none v0 w (constant (F := Ideal) S4000x64 .f32 0x00000000#32)))
    (broadcastTo S4000x64 (shapeCast S1x64 v9 shapeCasts_S1x64_S1x64) broadcasts_S1x64_S4000x64))
    (broadcast S4000x64 (FloatOps.ofBits (F := Ideal) .f32 0x00000000#32)) i) e

/-- A later layer's edge arithmetic on a block of 4000 edges is the message formula of the blocks. -/
theorem edge_pay6 (v0 : Vec Ideal S4000x7 .f32) (v2 : Vec Ideal S7x64 .f32) (v6 : Vec Ideal S4000x64 .f32) (v9 : Vec Ideal S1x64 .f32)
    (i : S4000x64.Idx) : k6_pay1 (F := Ideal) v0 v2 v6 v9 i = msg v6 v0 v2 (row v9) i := by
  unfold k6_pay1
  have e : shapeCast S7x64 v2 shapeCasts_S7x64_S7x64 = v2 := shapeCast_self _ _
  refine Eq.trans ?_ (msg_vec (n := 4000) (K := 7) (C := 64) v0 v2 v6 v9 shapeCasts_S4000x64_S4000x64 shapeCasts_S1x64_S1x64
    broadcasts_S1x64_S4000x64 i)
  exact congrArg (fun w : Vec Ideal S7x64 .f32 => maximumf (addf (addf (shapeCast S4000x64 v6 shapeCasts_S4000x64_S4000x64)
    (FloatOps.matmul dot_S4000x7_S7x64_S4000x64_1_0_0_1_n_n none v0 w (constant (F := Ideal) S4000x64 .f32 0x00000000#32)))
    (broadcastTo S4000x64 (shapeCast S1x64 v9 shapeCasts_S1x64_S1x64) broadcasts_S1x64_S4000x64))
    (broadcast S4000x64 (FloatOps.ofBits (F := Ideal) .f32 0x00000000#32)) i) e

/-- A later layer's edge arithmetic on a block of 4000 edges is the message formula of the blocks. -/
theorem edge_pay9 (v0 : Vec Ideal S4000x7 .f32) (v2 : Vec Ideal S7x64 .f32) (v6 : Vec Ideal S4000x64 .f32) (v9 : Vec Ideal S1x64 .f32)
    (i : S4000x64.Idx) : k9_pay1 (F := Ideal) v0 v2 v6 v9 i = msg v6 v0 v2 (row v9) i := by
  unfold k9_pay1
  have e : shapeCast S7x64 v2 shapeCasts_S7x64_S7x64 = v2 := shapeCast_self _ _
  refine Eq.trans ?_ (msg_vec (n := 4000) (K := 7) (C := 64) v0 v2 v6 v9 shapeCasts_S4000x64_S4000x64 shapeCasts_S1x64_S1x64
    broadcasts_S1x64_S4000x64 i)
  exact congrArg (fun w : Vec Ideal S7x64 .f32 => maximumf (addf (addf (shapeCast S4000x64 v6 shapeCasts_S4000x64_S4000x64)
    (FloatOps.matmul dot_S4000x7_S7x64_S4000x64_1_0_0_1_n_n none v0 w (constant (F := Ideal) S4000x64 .f32 0x00000000#32)))
    (broadcastTo S4000x64 (shapeCast S1x64 v9 shapeCasts_S1x64_S1x64) broadcasts_S1x64_S4000x64))
    (broadcast S4000x64 (FloatOps.ofBits (F := Ideal) .f32 0x00000000#32)) i) e

/-- A later layer's edge arithmetic on a block of 4000 edges is the message formula of the blocks. -/
theorem edge_pay12 (v0 : Vec Ideal S4000x7 .f32) (v2 : Vec Ideal S7x64 .f32) (v6 : Vec Ideal S4000x64 .f32) (v9 : Vec Ideal S1x64 .f32)
    (i : S4000x64.Idx) : k12_pay1 (F := Ideal) v0 v2 v6 v9 i = msg v6 v0 v2 (row v9) i := by
  unfold k12_pay1
  have e : shapeCast S7x64 v2 shapeCasts_S7x64_S7x64 = v2 := shapeCast_self _ _
  refine Eq.trans ?_ (msg_vec (n := 4000) (K := 7) (C := 64) v0 v2 v6 v9 shapeCasts_S4000x64_S4000x64 shapeCasts_S1x64_S1x64
    broadcasts_S1x64_S4000x64 i)
  exact congrArg (fun w : Vec Ideal S7x64 .f32 => maximumf (addf (addf (shapeCast S4000x64 v6 shapeCasts_S4000x64_S4000x64)
    (FloatOps.matmul dot_S4000x7_S7x64_S4000x64_1_0_0_1_n_n none v0 w (constant (F := Ideal) S4000x64 .f32 0x00000000#32)))
    (broadcastTo S4000x64 (shapeCast S1x64 v9 shapeCasts_S1x64_S1x64) broadcasts_S1x64_S4000x64))
    (broadcast S4000x64 (FloatOps.ofBits (F := Ideal) .f32 0x00000000#32)) i) e

end Cert.KernelIdeal.RegVal

end
-- ==== Proof.RegEdge.lean ====
/-
  The edge regions, from blocks to arrays: each of the 200 points writes back the messages of its block of
  4000 edges, the blocks tile the 800000 rows, so the output array ends holding the messages of the region's
  four operand arrays.
-/
import proofs.«122931_j61864708931975_1_alg».proof.Proof.Gen.KernelIdeal.Frame
import proofs.«122931_j61864708931975_1_alg».proof.Proof.Spec
import proofs.«122931_j61864708931975_1_alg».proof.Proof.PayEdge

set_option maxRecDepth 16384

noncomputable section

namespace Cert.KernelIdeal.RegVal

open Idealize.ShloMosaic Idealize.ShloMosaic.TcCoe Idealize.ShloMosaic.ValueIdx Cert.KernelIdeal Cert.KernelIdeal.Gen Cert.Gine
open Idealize.ShloMosaic.Pipeline (Dat)

/-- The zero offset of a whole-block access. -/
theorem hz2 : (![0, 0] : Fin 2 → Nat) = fun _ => 0 := funext fun a => by fin_cases a <;> rfl

variable (V : (c : Dev nD) → (b : Ref sig .tc) → Buf (Elt Ideal) ((c : Thread nD τ).loc b)) (c : Dev nD)

/-! ## Region 0 -/

/-- The block maps of region 0, decided over its 200 points: the gathered rows, the edge features and the
    output move down with the point; the weight and the bias stay. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

set_option maxHeartbeats 1000000 in
/-- What point `t` writes back is block `t` of the messages of the arrays the region finds. -/
theorem flushed0 (t : Fin cfg0.N) :
    (dat0 (F := Ideal) V c).flushed 4 t = ((cfg0.win 4).blk t).view.read (Elt Ideal)
      (msg (V c (Pipeline.arrRef spec0 0)) (V c (Pipeline.arrRef spec0 1)) (V c (Pipeline.arrRef spec0 2)) (row (V c (Pipeline.arrRef spec0 3)))) := by
  show (cfg0.win 4).cut (grid0.coords t) ((dat0 V c).after 4 t) = _
  rw [after0_4]
  unfold out0_4
  rw [View.canon_unit_zero hz2]
  simp only [View.ld_unit_zero (S := S4000x7) hz2, View.ld_unit_zero (S := S7x2) hz2, View.ld_unit_zero (S := S4000x2) hz2,
    View.ld_unit_zero (S := S1x2) hz2]
  obtain ⟨a0, a1, b0, b1, w0, w1, r0, r1, o0, o1⟩ := idx0 t
  funext j
  have hj0 : (j 0).val < 4000 := (j 0).isLt
  have hj1 : (j 1).val < 2 := (j 1).isLt
  refine (edge_pay0 (iblk0 V c 1 t) (iblk0 V c 2 t) (iblk0 V c 0 t) (iblk0 V c 3 t) j).trans ?_
  refine msg_congr (E := 4000) (E' := 800000) (C := 2) (K := 7) (iblk0 V c 0 t) (V c (Pipeline.arrRef spec0 0))
    (iblk0 V c 1 t) (V c (Pipeline.arrRef spec0 1)) (iblk0 V c 2 t) (V c (Pipeline.arrRef spec0 2))
    (row (iblk0 V c 3 t)) (row (V c (Pipeline.arrRef spec0 3))) j (((cfg0.win 4).blk t).view.emb j) ?_ ?_ ?_ ?_
  · show V c (Pipeline.arrRef spec0 0) (((cfg0.win 0).blk t).view.emb j) = V c (Pipeline.arrRef spec0 0) (((cfg0.win 4).blk t).view.emb j)
    refine congrArg _ (funext fun a => Fin.ext ?_)
    match a with
    | ⟨0, _⟩ => show win0_0.index t (0 : Fin 2) * 4000 + 1 * (j 0).val = win0_4.index t (0 : Fin 2) * 4000 + 1 * (j 0).val; omega
    | ⟨1, _⟩ => show win0_0.index t (1 : Fin 2) * 2 + 1 * (j 1).val = win0_4.index t (1 : Fin 2) * 2 + 1 * (j 1).val; omega
  · intro q
    show V c (Pipeline.arrRef spec0 1) (((cfg0.win 1).blk t).view.emb (ix2 (j 0) q)) = V c (Pipeline.arrRef spec0 1) (ix2 ((((cfg0.win 4).blk t).view.emb j) 0) q)
    refine congrArg _ (funext fun a => Fin.ext ?_)
    match a with
    | ⟨0, _⟩ => show win0_1.index t (0 : Fin 2) * 4000 + 1 * (j 0).val = win0_4.index t (0 : Fin 2) * 4000 + 1 * (j 0).val; omega
    | ⟨1, _⟩ => show win0_1.index t (1 : Fin 2) * 7 + 1 * q.val = q.val; omega
  · intro q
    show V c (Pipeline.arrRef spec0 2) (((cfg0.win 2).blk t).view.emb (ix2 q (j 1))) = V c (Pipeline.arrRef spec0 2) (ix2 q ((((cfg0.win 4).blk t).view.emb j) 1))
    refine congrArg _ (funext fun a => Fin.ext ?_)
    match a with
    | ⟨0, _⟩ => show win0_2.index t (0 : Fin 2) * 7 + 1 * q.val = q.val; omega
    | ⟨1, _⟩ => show win0_2.index t (1 : Fin 2) * 2 + 1 * (j 1).val = win0_4.index t (1 : Fin 2) * 2 + 1 * (j 1).val; omega
  · show V c (Pipeline.arrRef spec0 3) (((cfg0.win 3).blk t).view.emb (ix2 0 (j 1))) = V c (Pipeline.arrRef spec0 3) (ix2 0 ((((cfg0.win 4).blk t).view.emb j) 1))
    refine congrArg _ (funext fun a => Fin.ext ?_)
    match a with
    | ⟨0, _⟩ => show win0_3.index t (0 : Fin 2) * 1 + 1 * 0 = 0; omega
    | ⟨1, _⟩ => show win0_3.index t (1 : Fin 2) * 2 + 1 * (j 1).val = win0_4.index t (1 : Fin 2) * 2 + 1 * (j 1).val; omega

/-- An entry of the output array is in point `t`'s block iff each coordinate is in the block's range. -/
theorem mem_blk0 (t : Fin cfg0.N) (i : S800000x2.Idx) :
    i ∈ ((cfg0.win 4).blk t).view.set ↔ ∀ a : Fin 2, win0_4.index t a * S4000x2.size a ≤ (i a).val ∧ (i a).val < win0_4.index t a * S4000x2.size a + S4000x2.size a := by
  show i ∈ ((View.whole main_v12).slice (win0_4.rect t)).set ↔ _
  rw [View.set_slice_whole, Rect.mem_set_unit]
  exact Iff.rfl

/-- Every row of the output lies in the block of the point its number over 4000 names. -/
theorem cover0 (i : S800000x2.Idx) : ∃ t : Fin cfg0.N, (cfg0.win 4).flush t = true ∧ i ∈ ((cfg0.win 4).blk t).view.set := by
  have hi0 : (i 0).val < 800000 := (i 0).isLt
  have hi1 : (i 1).val < 2 := (i 1).isLt
  have hN : cfg0.N = 200 := N_0
  refine ⟨⟨(i 0).val / 4000, by rw [hN]; omega⟩, flush0_4 _, ?_⟩
  rw [mem_blk0]
  obtain ⟨a0, a1, b0, b1, w0, w1, r0, r1, o0, o1⟩ := idx0 ⟨(i 0).val / 4000, by rw [hN]; omega⟩
  intro a
  match a with
  | ⟨0, _⟩ => show win0_4.index _ (0 : Fin 2) * 4000 ≤ (i 0).val ∧ (i 0).val < win0_4.index _ (0 : Fin 2) * 4000 + 4000; rw [o0]; dsimp only; omega
  | ⟨1, _⟩ => show win0_4.index _ (1 : Fin 2) * 2 ≤ (i 1).val ∧ (i 1).val < win0_4.index _ (1 : Fin 2) * 2 + 2; rw [o1]; omega

/-- The output array of region 0 after its points: the messages of its four operands. -/
theorem edge0_val : ((dat0 (F := Ideal) V c).arrAt 4 cfg0.N : Arr2 800000 2) = msg (V c (Pipeline.arrRef spec0 0)) (V c (Pipeline.arrRef spec0 1)) (V c (Pipeline.arrRef spec0 2)) (row (V c (Pipeline.arrRef spec0 3))) :=
  (dat0 (F := Ideal) V c).arrAt_eq_of_cover 4 _ (fun t _ => flushed0 V c t) (cover0)

/-! ## Region 3 -/

/-- The block maps of region 3, decided over its 200 points: the gathered rows, the edge features and the
    output move down with the point; the weight and the bias stay. -/
theorem idx3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 1000000 in
/-- What point `t` writes back is block `t` of the messages of the arrays the region finds. -/
theorem flushed3 (t : Fin cfg3.N) :
    (dat3 (F := Ideal) V c).flushed 4 t = ((cfg3.win 4).blk t).view.read (Elt Ideal)
      (msg (V c (Pipeline.arrRef spec3 0)) (V c (Pipeline.arrRef spec3 1)) (V c (Pipeline.arrRef spec3 2)) (row (V c (Pipeline.arrRef spec3 3)))) := by
  show (cfg3.win 4).cut (grid3.coords t) ((dat3 V c).after 4 t) = _
  rw [after3_4]
  unfold out3_4
  rw [View.canon_unit_zero hz2]
  simp only [View.ld_unit_zero (S := S4000x7) hz2, View.ld_unit_zero (S := S7x64) hz2, View.ld_unit_zero (S := S4000x64) hz2,
    View.ld_unit_zero (S := S1x64) hz2]
  obtain ⟨a0, a1, b0, b1, w0, w1, r0, r1, o0, o1⟩ := idx3 t
  funext j
  have hj0 : (j 0).val < 4000 := (j 0).isLt
  have hj1 : (j 1).val < 64 := (j 1).isLt
  refine (edge_pay3 (iblk3 V c 1 t) (iblk3 V c 2 t) (iblk3 V c 0 t) (iblk3 V c 3 t) j).trans ?_
  refine msg_congr (E := 4000) (E' := 800000) (C := 64) (K := 7) (iblk3 V c 0 t) (V c (Pipeline.arrRef spec3 0))
    (iblk3 V c 1 t) (V c (Pipeline.arrRef spec3 1)) (iblk3 V c 2 t) (V c (Pipeline.arrRef spec3 2))
    (row (iblk3 V c 3 t)) (row (V c (Pipeline.arrRef spec3 3))) j (((cfg3.win 4).blk t).view.emb j) ?_ ?_ ?_ ?_
  · show V c (Pipeline.arrRef spec3 0) (((cfg3.win 0).blk t).view.emb j) = V c (Pipeline.arrRef spec3 0) (((cfg3.win 4).blk t).view.emb j)
    refine congrArg _ (funext fun a => Fin.ext ?_)
    match a with
    | ⟨0, _⟩ => show win3_0.index t (0 : Fin 2) * 4000 + 1 * (j 0).val = win3_4.index t (0 : Fin 2) * 4000 + 1 * (j 0).val; omega
    | ⟨1, _⟩ => show win3_0.index t (1 : Fin 2) * 64 + 1 * (j 1).val = win3_4.index t (1 : Fin 2) * 64 + 1 * (j 1).val; omega
  · intro q
    show V c (Pipeline.arrRef spec3 1) (((cfg3.win 1).blk t).view.emb (ix2 (j 0) q)) = V c (Pipeline.arrRef spec3 1) (ix2 ((((cfg3.win 4).blk t).view.emb j) 0) q)
    refine congrArg _ (funext fun a => Fin.ext ?_)
    match a with
    | ⟨0, _⟩ => show win3_1.index t (0 : Fin 2) * 4000 + 1 * (j 0).val = win3_4.index t (0 : Fin 2) * 4000 + 1 * (j 0).val; omega
    | ⟨1, _⟩ => show win3_1.index t (1 : Fin 2) * 7 + 1 * q.val = q.val; omega
  · intro q
    show V c (Pipeline.arrRef spec3 2) (((cfg3.win 2).blk t).view.emb (ix2 q (j 1))) = V c (Pipeline.arrRef spec3 2) (ix2 q ((((cfg3.win 4).blk t).view.emb j) 1))
    refine congrArg _ (funext fun a => Fin.ext ?_)
    match a with
    | ⟨0, _⟩ => show win3_2.index t (0 : Fin 2) * 7 + 1 * q.val = q.val; omega
    | ⟨1, _⟩ => show win3_2.index t (1 : Fin 2) * 64 + 1 * (j 1).val = win3_4.index t (1 : Fin 2) * 64 + 1 * (j 1).val; omega
  · show V c (Pipeline.arrRef spec3 3) (((cfg3.win 3).blk t).view.emb (ix2 0 (j 1))) = V c (Pipeline.arrRef spec3 3) (ix2 0 ((((cfg3.win 4).blk t).view.emb j) 1))
    refine congrArg _ (funext fun a => Fin.ext ?_)
    match a with
    | ⟨0, _⟩ => show win3_3.index t (0 : Fin 2) * 1 + 1 * 0 = 0; omega
    | ⟨1, _⟩ => show win3_3.index t (1 : Fin 2) * 64 + 1 * (j 1).val = win3_4.index t (1 : Fin 2) * 64 + 1 * (j 1).val; omega

/-- An entry of the output array is in point `t`'s block iff each coordinate is in the block's range. -/
theorem mem_blk3 (t : Fin cfg3.N) (i : S800000x64.Idx) :
    i ∈ ((cfg3.win 4).blk t).view.set ↔ ∀ a : Fin 2, win3_4.index t a * S4000x64.size a ≤ (i a).val ∧ (i a).val < win3_4.index t a * S4000x64.size a + S4000x64.size a := by
  show i ∈ ((View.whole main_v52).slice (win3_4.rect t)).set ↔ _
  rw [View.set_slice_whole, Rect.mem_set_unit]
  exact Iff.rfl

/-- Every row of the output lies in the block of the point its number over 4000 names. -/
theorem cover3 (i : S800000x64.Idx) : ∃ t : Fin cfg3.N, (cfg3.win 4).flush t = true ∧ i ∈ ((cfg3.win 4).blk t).view.set := by
  have hi0 : (i 0).val < 800000 := (i 0).isLt
  have hi1 : (i 1).val < 64 := (i 1).isLt
  have hN : cfg3.N = 200 := N_3
  refine ⟨⟨(i 0).val / 4000, by rw [hN]; omega⟩, flush3_4 _, ?_⟩
  rw [mem_blk3]
  obtain ⟨a0, a1, b0, b1, w0, w1, r0, r1, o0, o1⟩ := idx3 ⟨(i 0).val / 4000, by rw [hN]; omega⟩
  intro a
  match a with
  | ⟨0, _⟩ => show win3_4.index _ (0 : Fin 2) * 4000 ≤ (i 0).val ∧ (i 0).val < win3_4.index _ (0 : Fin 2) * 4000 + 4000; rw [o0]; dsimp only; omega
  | ⟨1, _⟩ => show win3_4.index _ (1 : Fin 2) * 64 ≤ (i 1).val ∧ (i 1).val < win3_4.index _ (1 : Fin 2) * 64 + 64; rw [o1]; omega

/-- The output array of region 3 after its points: the messages of its four operands. -/
theorem edge3_val : ((dat3 (F := Ideal) V c).arrAt 4 cfg3.N : Arr2 800000 64) = msg (V c (Pipeline.arrRef spec3 0)) (V c (Pipeline.arrRef spec3 1)) (V c (Pipeline.arrRef spec3 2)) (row (V c (Pipeline.arrRef spec3 3))) :=
  (dat3 (F := Ideal) V c).arrAt_eq_of_cover 4 _ (fun t _ => flushed3 V c t) (cover3)

/-! ## Region 6 -/

/-- The block maps of region 6, decided over its 200 points: the gathered rows, the edge features and the
    output move down with the point; the weight and the bias stay. -/
theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = t.val ∧ win6_4.index t (1 : Fin 2) = 0 :=
  (by decide +kernel : ∀ t : Fin grid6.N, _)

set_option maxHeartbeats 1000000 in
/-- What point `t` writes back is block `t` of the messages of the arrays the region finds. -/
theorem flushed6 (t : Fin cfg6.N) :
    (dat6 (F := Ideal) V c).flushed 4 t = ((cfg6.win 4).blk t).view.read (Elt Ideal)
      (msg (V c (Pipeline.arrRef spec6 0)) (V c (Pipeline.arrRef spec6 1)) (V c (Pipeline.arrRef spec6 2)) (row (V c (Pipeline.arrRef spec6 3)))) := by
  show (cfg6.win 4).cut (grid6.coords t) ((dat6 V c).after 4 t) = _
  rw [after6_4]
  unfold out6_4
  rw [View.canon_unit_zero hz2]
  simp only [View.ld_unit_zero (S := S4000x7) hz2, View.ld_unit_zero (S := S7x64) hz2, View.ld_unit_zero (S := S4000x64) hz2,
    View.ld_unit_zero (S := S1x64) hz2]
  obtain ⟨a0, a1, b0, b1, w0, w1, r0, r1, o0, o1⟩ := idx6 t
  funext j
  have hj0 : (j 0).val < 4000 := (j 0).isLt
  have hj1 : (j 1).val < 64 := (j 1).isLt
  refine (edge_pay6 (iblk6 V c 1 t) (iblk6 V c 2 t) (iblk6 V c 0 t) (iblk6 V c 3 t) j).trans ?_
  refine msg_congr (E := 4000) (E' := 800000) (C := 64) (K := 7) (iblk6 V c 0 t) (V c (Pipeline.arrRef spec6 0))
    (iblk6 V c 1 t) (V c (Pipeline.arrRef spec6 1)) (iblk6 V c 2 t) (V c (Pipeline.arrRef spec6 2))
    (row (iblk6 V c 3 t)) (row (V c (Pipeline.arrRef spec6 3))) j (((cfg6.win 4).blk t).view.emb j) ?_ ?_ ?_ ?_
  · show V c (Pipeline.arrRef spec6 0) (((cfg6.win 0).blk t).view.emb j) = V c (Pipeline.arrRef spec6 0) (((cfg6.win 4).blk t).view.emb j)
    refine congrArg _ (funext fun a => Fin.ext ?_)
    match a with
    | ⟨0, _⟩ => show win6_0.index t (0 : Fin 2) * 4000 + 1 * (j 0).val = win6_4.index t (0 : Fin 2) * 4000 + 1 * (j 0).val; omega
    | ⟨1, _⟩ => show win6_0.index t (1 : Fin 2) * 64 + 1 * (j 1).val = win6_4.index t (1 : Fin 2) * 64 + 1 * (j 1).val; omega
  · intro q
    show V c (Pipeline.arrRef spec6 1) (((cfg6.win 1).blk t).view.emb (ix2 (j 0) q)) = V c (Pipeline.arrRef spec6 1) (ix2 ((((cfg6.win 4).blk t).view.emb j) 0) q)
    refine congrArg _ (funext fun a => Fin.ext ?_)
    match a with
    | ⟨0, _⟩ => show win6_1.index t (0 : Fin 2) * 4000 + 1 * (j 0).val = win6_4.index t (0 : Fin 2) * 4000 + 1 * (j 0).val; omega
    | ⟨1, _⟩ => show win6_1.index t (1 : Fin 2) * 7 + 1 * q.val = q.val; omega
  · intro q
    show V c (Pipeline.arrRef spec6 2) (((cfg6.win 2).blk t).view.emb (ix2 q (j 1))) = V c (Pipeline.arrRef spec6 2) (ix2 q ((((cfg6.win 4).blk t).view.emb j) 1))
    refine congrArg _ (funext fun a => Fin.ext ?_)
    match a with
    | ⟨0, _⟩ => show win6_2.index t (0 : Fin 2) * 7 + 1 * q.val = q.val; omega
    | ⟨1, _⟩ => show win6_2.index t (1 : Fin 2) * 64 + 1 * (j 1).val = win6_4.index t (1 : Fin 2) * 64 + 1 * (j 1).val; omega
  · show V c (Pipeline.arrRef spec6 3) (((cfg6.win 3).blk t).view.emb (ix2 0 (j 1))) = V c (Pipeline.arrRef spec6 3) (ix2 0 ((((cfg6.win 4).blk t).view.emb j) 1))
    refine congrArg _ (funext fun a => Fin.ext ?_)
    match a with
    | ⟨0, _⟩ => show win6_3.index t (0 : Fin 2) * 1 + 1 * 0 = 0; omega
    | ⟨1, _⟩ => show win6_3.index t (1 : Fin 2) * 64 + 1 * (j 1).val = win6_4.index t (1 : Fin 2) * 64 + 1 * (j 1).val; omega

/-- An entry of the output array is in point `t`'s block iff each coordinate is in the block's range. -/
theorem mem_blk6 (t : Fin cfg6.N) (i : S800000x64.Idx) :
    i ∈ ((cfg6.win 4).blk t).view.set ↔ ∀ a : Fin 2, win6_4.index t a * S4000x64.size a ≤ (i a).val ∧ (i a).val < win6_4.index t a * S4000x64.size a + S4000x64.size a := by
  show i ∈ ((View.whole main_v92).slice (win6_4.rect t)).set ↔ _
  rw [View.set_slice_whole, Rect.mem_set_unit]
  exact Iff.rfl

/-- Every row of the output lies in the block of the point its number over 4000 names. -/
theorem cover6 (i : S800000x64.Idx) : ∃ t : Fin cfg6.N, (cfg6.win 4).flush t = true ∧ i ∈ ((cfg6.win 4).blk t).view.set := by
  have hi0 : (i 0).val < 800000 := (i 0).isLt
  have hi1 : (i 1).val < 64 := (i 1).isLt
  have hN : cfg6.N = 200 := N_6
  refine ⟨⟨(i 0).val / 4000, by rw [hN]; omega⟩, flush6_4 _, ?_⟩
  rw [mem_blk6]
  obtain ⟨a0, a1, b0, b1, w0, w1, r0, r1, o0, o1⟩ := idx6 ⟨(i 0).val / 4000, by rw [hN]; omega⟩
  intro a
  match a with
  | ⟨0, _⟩ => show win6_4.index _ (0 : Fin 2) * 4000 ≤ (i 0).val ∧ (i 0).val < win6_4.index _ (0 : Fin 2) * 4000 + 4000; rw [o0]; dsimp only; omega
  | ⟨1, _⟩ => show win6_4.index _ (1 : Fin 2) * 64 ≤ (i 1).val ∧ (i 1).val < win6_4.index _ (1 : Fin 2) * 64 + 64; rw [o1]; omega

/-- The output array of region 6 after its points: the messages of its four operands. -/
theorem edge6_val : ((dat6 (F := Ideal) V c).arrAt 4 cfg6.N : Arr2 800000 64) = msg (V c (Pipeline.arrRef spec6 0)) (V c (Pipeline.arrRef spec6 1)) (V c (Pipeline.arrRef spec6 2)) (row (V c (Pipeline.arrRef spec6 3))) :=
  (dat6 (F := Ideal) V c).arrAt_eq_of_cover 4 _ (fun t _ => flushed6 V c t) (cover6)

/-! ## Region 9 -/

/-- The block maps of region 9, decided over its 200 points: the gathered rows, the edge features and the
    output move down with the point; the weight and the bias stay. -/
theorem idx9 : ∀ t : Fin cfg9.N, win9_0.index t (0 : Fin 2) = t.val ∧ win9_0.index t (1 : Fin 2) = 0
    ∧ win9_1.index t (0 : Fin 2) = t.val ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0
    ∧ win9_4.index t (0 : Fin 2) = t.val ∧ win9_4.index t (1 : Fin 2) = 0 :=
  (by decide +kernel : ∀ t : Fin grid9.N, _)

set_option maxHeartbeats 1000000 in
/-- What point `t` writes back is block `t` of the messages of the arrays the region finds. -/
theorem flushed9 (t : Fin cfg9.N) :
    (dat9 (F := Ideal) V c).flushed 4 t = ((cfg9.win 4).blk t).view.read (Elt Ideal)
      (msg (V c (Pipeline.arrRef spec9 0)) (V c (Pipeline.arrRef spec9 1)) (V c (Pipeline.arrRef spec9 2)) (row (V c (Pipeline.arrRef spec9 3)))) := by
  show (cfg9.win 4).cut (grid9.coords t) ((dat9 V c).after 4 t) = _
  rw [after9_4]
  unfold out9_4
  rw [View.canon_unit_zero hz2]
  simp only [View.ld_unit_zero (S := S4000x7) hz2, View.ld_unit_zero (S := S7x64) hz2, View.ld_unit_zero (S := S4000x64) hz2,
    View.ld_unit_zero (S := S1x64) hz2]
  obtain ⟨a0, a1, b0, b1, w0, w1, r0, r1, o0, o1⟩ := idx9 t
  funext j
  have hj0 : (j 0).val < 4000 := (j 0).isLt
  have hj1 : (j 1).val < 64 := (j 1).isLt
  refine (edge_pay9 (iblk9 V c 1 t) (iblk9 V c 2 t) (iblk9 V c 0 t) (iblk9 V c 3 t) j).trans ?_
  refine msg_congr (E := 4000) (E' := 800000) (C := 64) (K := 7) (iblk9 V c 0 t) (V c (Pipeline.arrRef spec9 0))
    (iblk9 V c 1 t) (V c (Pipeline.arrRef spec9 1)) (iblk9 V c 2 t) (V c (Pipeline.arrRef spec9 2))
    (row (iblk9 V c 3 t)) (row (V c (Pipeline.arrRef spec9 3))) j (((cfg9.win 4).blk t).view.emb j) ?_ ?_ ?_ ?_
  · show V c (Pipeline.arrRef spec9 0) (((cfg9.win 0).blk t).view.emb j) = V c (Pipeline.arrRef spec9 0) (((cfg9.win 4).blk t).view.emb j)
    refine congrArg _ (funext fun a => Fin.ext ?_)
    match a with
    | ⟨0, _⟩ => show win9_0.index t (0 : Fin 2) * 4000 + 1 * (j 0).val = win9_4.index t (0 : Fin 2) * 4000 + 1 * (j 0).val; omega
    | ⟨1, _⟩ => show win9_0.index t (1 : Fin 2) * 64 + 1 * (j 1).val = win9_4.index t (1 : Fin 2) * 64 + 1 * (j 1).val; omega
  · intro q
    show V c (Pipeline.arrRef spec9 1) (((cfg9.win 1).blk t).view.emb (ix2 (j 0) q)) = V c (Pipeline.arrRef spec9 1) (ix2 ((((cfg9.win 4).blk t).view.emb j) 0) q)
    refine congrArg _ (funext fun a => Fin.ext ?_)
    match a with
    | ⟨0, _⟩ => show win9_1.index t (0 : Fin 2) * 4000 + 1 * (j 0).val = win9_4.index t (0 : Fin 2) * 4000 + 1 * (j 0).val; omega
    | ⟨1, _⟩ => show win9_1.index t (1 : Fin 2) * 7 + 1 * q.val = q.val; omega
  · intro q
    show V c (Pipeline.arrRef spec9 2) (((cfg9.win 2).blk t).view.emb (ix2 q (j 1))) = V c (Pipeline.arrRef spec9 2) (ix2 q ((((cfg9.win 4).blk t).view.emb j) 1))
    refine congrArg _ (funext fun a => Fin.ext ?_)
    match a with
    | ⟨0, _⟩ => show win9_2.index t (0 : Fin 2) * 7 + 1 * q.val = q.val; omega
    | ⟨1, _⟩ => show win9_2.index t (1 : Fin 2) * 64 + 1 * (j 1).val = win9_4.index t (1 : Fin 2) * 64 + 1 * (j 1).val; omega
  · show V c (Pipeline.arrRef spec9 3) (((cfg9.win 3).blk t).view.emb (ix2 0 (j 1))) = V c (Pipeline.arrRef spec9 3) (ix2 0 ((((cfg9.win 4).blk t).view.emb j) 1))
    refine congrArg _ (funext fun a => Fin.ext ?_)
    match a with
    | ⟨0, _⟩ => show win9_3.index t (0 : Fin 2) * 1 + 1 * 0 = 0; omega
    | ⟨1, _⟩ => show win9_3.index t (1 : Fin 2) * 64 + 1 * (j 1).val = win9_4.index t (1 : Fin 2) * 64 + 1 * (j 1).val; omega

/-- An entry of the output array is in point `t`'s block iff each coordinate is in the block's range. -/
theorem mem_blk9 (t : Fin cfg9.N) (i : S800000x64.Idx) :
    i ∈ ((cfg9.win 4).blk t).view.set ↔ ∀ a : Fin 2, win9_4.index t a * S4000x64.size a ≤ (i a).val ∧ (i a).val < win9_4.index t a * S4000x64.size a + S4000x64.size a := by
  show i ∈ ((View.whole main_v132).slice (win9_4.rect t)).set ↔ _
  rw [View.set_slice_whole, Rect.mem_set_unit]
  exact Iff.rfl

/-- Every row of the output lies in the block of the point its number over 4000 names. -/
theorem cover9 (i : S800000x64.Idx) : ∃ t : Fin cfg9.N, (cfg9.win 4).flush t = true ∧ i ∈ ((cfg9.win 4).blk t).view.set := by
  have hi0 : (i 0).val < 800000 := (i 0).isLt
  have hi1 : (i 1).val < 64 := (i 1).isLt
  have hN : cfg9.N = 200 := N_9
  refine ⟨⟨(i 0).val / 4000, by rw [hN]; omega⟩, flush9_4 _, ?_⟩
  rw [mem_blk9]
  obtain ⟨a0, a1, b0, b1, w0, w1, r0, r1, o0, o1⟩ := idx9 ⟨(i 0).val / 4000, by rw [hN]; omega⟩
  intro a
  match a with
  | ⟨0, _⟩ => show win9_4.index _ (0 : Fin 2) * 4000 ≤ (i 0).val ∧ (i 0).val < win9_4.index _ (0 : Fin 2) * 4000 + 4000; rw [o0]; dsimp only; omega
  | ⟨1, _⟩ => show win9_4.index _ (1 : Fin 2) * 64 ≤ (i 1).val ∧ (i 1).val < win9_4.index _ (1 : Fin 2) * 64 + 64; rw [o1]; omega

/-- The output array of region 9 after its points: the messages of its four operands. -/
theorem edge9_val : ((dat9 (F := Ideal) V c).arrAt 4 cfg9.N : Arr2 800000 64) = msg (V c (Pipeline.arrRef spec9 0)) (V c (Pipeline.arrRef spec9 1)) (V c (Pipeline.arrRef spec9 2)) (row (V c (Pipeline.arrRef spec9 3))) :=
  (dat9 (F := Ideal) V c).arrAt_eq_of_cover 4 _ (fun t _ => flushed9 V c t) (cover9)

/-! ## Region 12 -/

/-- The block maps of region 12, decided over its 200 points: the gathered rows, the edge features and the
    output move down with the point; the weight and the bias stay. -/
theorem idx12 : ∀ t : Fin cfg12.N, win12_0.index t (0 : Fin 2) = t.val ∧ win12_0.index t (1 : Fin 2) = 0
    ∧ win12_1.index t (0 : Fin 2) = t.val ∧ win12_1.index t (1 : Fin 2) = 0
    ∧ win12_2.index t (0 : Fin 2) = 0 ∧ win12_2.index t (1 : Fin 2) = 0
    ∧ win12_3.index t (0 : Fin 2) = 0 ∧ win12_3.index t (1 : Fin 2) = 0
    ∧ win12_4.index t (0 : Fin 2) = t.val ∧ win12_4.index t (1 : Fin 2) = 0 :=
  (by decide +kernel : ∀ t : Fin grid12.N, _)

set_option maxHeartbeats 1000000 in
/-- What point `t` writes back is block `t` of the messages of the arrays the region finds. -/
theorem flushed12 (t : Fin cfg12.N) :
    (dat12 (F := Ideal) V c).flushed 4 t = ((cfg12.win 4).blk t).view.read (Elt Ideal)
      (msg (V c (Pipeline.arrRef spec12 0)) (V c (Pipeline.arrRef spec12 1)) (V c (Pipeline.arrRef spec12 2)) (row (V c (Pipeline.arrRef spec12 3)))) := by
  show (cfg12.win 4).cut (grid12.coords t) ((dat12 V c).after 4 t) = _
  rw [after12_4]
  unfold out12_4
  rw [View.canon_unit_zero hz2]
  simp only [View.ld_unit_zero (S := S4000x7) hz2, View.ld_unit_zero (S := S7x64) hz2, View.ld_unit_zero (S := S4000x64) hz2,
    View.ld_unit_zero (S := S1x64) hz2]
  obtain ⟨a0, a1, b0, b1, w0, w1, r0, r1, o0, o1⟩ := idx12 t
  funext j
  have hj0 : (j 0).val < 4000 := (j 0).isLt
  have hj1 : (j 1).val < 64 := (j 1).isLt
  refine (edge_pay12 (iblk12 V c 1 t) (iblk12 V c 2 t) (iblk12 V c 0 t) (iblk12 V c 3 t) j).trans ?_
  refine msg_congr (E := 4000) (E' := 800000) (C := 64) (K := 7) (iblk12 V c 0 t) (V c (Pipeline.arrRef spec12 0))
    (iblk12 V c 1 t) (V c (Pipeline.arrRef spec12 1)) (iblk12 V c 2 t) (V c (Pipeline.arrRef spec12 2))
    (row (iblk12 V c 3 t)) (row (V c (Pipeline.arrRef spec12 3))) j (((cfg12.win 4).blk t).view.emb j) ?_ ?_ ?_ ?_
  · show V c (Pipeline.arrRef spec12 0) (((cfg12.win 0).blk t).view.emb j) = V c (Pipeline.arrRef spec12 0) (((cfg12.win 4).blk t).view.emb j)
    refine congrArg _ (funext fun a => Fin.ext ?_)
    match a with
    | ⟨0, _⟩ => show win12_0.index t (0 : Fin 2) * 4000 + 1 * (j 0).val = win12_4.index t (0 : Fin 2) * 4000 + 1 * (j 0).val; omega
    | ⟨1, _⟩ => show win12_0.index t (1 : Fin 2) * 64 + 1 * (j 1).val = win12_4.index t (1 : Fin 2) * 64 + 1 * (j 1).val; omega
  · intro q
    show V c (Pipeline.arrRef spec12 1) (((cfg12.win 1).blk t).view.emb (ix2 (j 0) q)) = V c (Pipeline.arrRef spec12 1) (ix2 ((((cfg12.win 4).blk t).view.emb j) 0) q)
    refine congrArg _ (funext fun a => Fin.ext ?_)
    match a with
    | ⟨0, _⟩ => show win12_1.index t (0 : Fin 2) * 4000 + 1 * (j 0).val = win12_4.index t (0 : Fin 2) * 4000 + 1 * (j 0).val; omega
    | ⟨1, _⟩ => show win12_1.index t (1 : Fin 2) * 7 + 1 * q.val = q.val; omega
  · intro q
    show V c (Pipeline.arrRef spec12 2) (((cfg12.win 2).blk t).view.emb (ix2 q (j 1))) = V c (Pipeline.arrRef spec12 2) (ix2 q ((((cfg12.win 4).blk t).view.emb j) 1))
    refine congrArg _ (funext fun a => Fin.ext ?_)
    match a with
    | ⟨0, _⟩ => show win12_2.index t (0 : Fin 2) * 7 + 1 * q.val = q.val; omega
    | ⟨1, _⟩ => show win12_2.index t (1 : Fin 2) * 64 + 1 * (j 1).val = win12_4.index t (1 : Fin 2) * 64 + 1 * (j 1).val; omega
  · show V c (Pipeline.arrRef spec12 3) (((cfg12.win 3).blk t).view.emb (ix2 0 (j 1))) = V c (Pipeline.arrRef spec12 3) (ix2 0 ((((cfg12.win 4).blk t).view.emb j) 1))
    refine congrArg _ (funext fun a => Fin.ext ?_)
    match a with
    | ⟨0, _⟩ => show win12_3.index t (0 : Fin 2) * 1 + 1 * 0 = 0; omega
    | ⟨1, _⟩ => show win12_3.index t (1 : Fin 2) * 64 + 1 * (j 1).val = win12_4.index t (1 : Fin 2) * 64 + 1 * (j 1).val; omega

/-- An entry of the output array is in point `t`'s block iff each coordinate is in the block's range. -/
theorem mem_blk12 (t : Fin cfg12.N) (i : S800000x64.Idx) :
    i ∈ ((cfg12.win 4).blk t).view.set ↔ ∀ a : Fin 2, win12_4.index t a * S4000x64.size a ≤ (i a).val ∧ (i a).val < win12_4.index t a * S4000x64.size a + S4000x64.size a := by
  show i ∈ ((View.whole main_v172).slice (win12_4.rect t)).set ↔ _
  rw [View.set_slice_whole, Rect.mem_set_unit]
  exact Iff.rfl

/-- Every row of the output lies in the block of the point its number over 4000 names. -/
theorem cover12 (i : S800000x64.Idx) : ∃ t : Fin cfg12.N, (cfg12.win 4).flush t = true ∧ i ∈ ((cfg12.win 4).blk t).view.set := by
  have hi0 : (i 0).val < 800000 := (i 0).isLt
  have hi1 : (i 1).val < 64 := (i 1).isLt
  have hN : cfg12.N = 200 := N_12
  refine ⟨⟨(i 0).val / 4000, by rw [hN]; omega⟩, flush12_4 _, ?_⟩
  rw [mem_blk12]
  obtain ⟨a0, a1, b0, b1, w0, w1, r0, r1, o0, o1⟩ := idx12 ⟨(i 0).val / 4000, by rw [hN]; omega⟩
  intro a
  match a with
  | ⟨0, _⟩ => show win12_4.index _ (0 : Fin 2) * 4000 ≤ (i 0).val ∧ (i 0).val < win12_4.index _ (0 : Fin 2) * 4000 + 4000; rw [o0]; dsimp only; omega
  | ⟨1, _⟩ => show win12_4.index _ (1 : Fin 2) * 64 ≤ (i 1).val ∧ (i 1).val < win12_4.index _ (1 : Fin 2) * 64 + 64; rw [o1]; omega

/-- The output array of region 12 after its points: the messages of its four operands. -/
theorem edge12_val : ((dat12 (F := Ideal) V c).arrAt 4 cfg12.N : Arr2 800000 64) = msg (V c (Pipeline.arrRef spec12 0)) (V c (Pipeline.arrRef spec12 1)) (V c (Pipeline.arrRef spec12 2)) (row (V c (Pipeline.arrRef spec12 3))) :=
  (dat12 (F := Ideal) V c).arrAt_eq_of_cover 4 _ (fun t _ => flushed12 V c t) (cover12)

end Cert.KernelIdeal.RegVal

end
-- ==== Proof.PayPass1.lean ====
/-
  The first node passes' arithmetic, entry by entry, on the blocks the body loads.

  A block of the node map is the specification's (x + aggr)·Wa + ba of the loaded blocks: the product into a
  zero accumulator is the row-by-column sum, the bias row is broadcast down the rows. The two accumulators
  after a block are what they held plus the block's column totals of the node map and of its squares: a sum
  along axis 0 is a finite sum on the extended reals. The first point's two stores are the zero word.
-/
import proofs.«122931_j61864708931975_1_alg».proof.Proof.Gen.KernelIdeal.Skeleton
import proofs.«122931_j61864708931975_1_alg».proof.Proof.Spec
import proofs.«122931_j61864708931975_1_alg».proof.Proof.LibDense
import proofs.«122931_j61864708931975_1_alg».proof.Proof.LibBiasRows
import proofs.«122931_j61864708931975_1_alg».proof.Proof.LibAxisSum

noncomputable section

namespace Cert.KernelIdeal.RegVal

open Idealize.ShloMosaic Idealize.ShloMosaic.ValueIdx Cert.KernelIdeal Cert.KernelIdeal.Gen Cert.Gine

/-- An entry of the node map reads one row of each row operand, one column of the weight and one bias entry:
    operands that agree there give the same entry. -/
theorem hpre_congr {N N' C H : ℕ} (x a : Arr2 N C) (x' a' : Arr2 N' C) (W W' : Arr2 C H) (b b' : Fin H → EReal)
    (i : (⟨2, ![N, H]⟩ : Shape).Idx) (i' : (⟨2, ![N', H]⟩ : Shape).Idx)
    (hx : ∀ k : Fin C, x (ix2 (i 0) k) = x' (ix2 (i' 0) k)) (ha : ∀ k : Fin C, a (ix2 (i 0) k) = a' (ix2 (i' 0) k))
    (hw : ∀ k : Fin C, W (ix2 k (i 1)) = W' (ix2 k (i' 1))) (hb : b (i 1) = b' (i' 1)) :
    hpre x a W b i = hpre x' a' W' b' i' := by
  unfold hpre prod
  rw [hb]
  refine congrArg (fun s => s + b' (i' 1)) ?_
  refine Finset.sum_congr rfl fun k _ => ?_
  show (x (ix2 (i 0) k) + a (ix2 (i 0) k)) * W (ix2 k (i 1)) = (x' (ix2 (i' 0) k) + a' (ix2 (i' 0) k)) * W' (ix2 k (i' 1))
  rw [hx k, ha k, hw k]

/-- The vector unit's spelling of the node map, at an entry: the product of the summed operands into a zero
    accumulator, plus the bias row broadcast down the rows. -/
theorem hpre_vec {n C H : ℕ} (x a : FVec Ideal ⟨2, ![n, C]⟩ .f32) (w : FVec Ideal ⟨2, ![C, H]⟩ .f32)
    (b : FVec Ideal ⟨2, ![1, H]⟩ .f32) (h1 : (⟨2, ![1, H]⟩ : Shape).ShapeCasts ⟨2, ![1, H]⟩)
    (h2 : (⟨2, ![1, H]⟩ : Shape).Broadcasts ⟨2, ![n, H]⟩) (i : (⟨2, ![n, H]⟩ : Shape).Idx) :
    addf (FloatOps.matmul (DotDims.plain n C H) none (addf x a) w (constant (F := Ideal) ⟨2, ![n, H]⟩ .f32 0x00000000#32))
      (broadcastTo ⟨2, ![n, H]⟩ (shapeCast ⟨2, ![1, H]⟩ b h1) h2) i = hpre x a w (row b) i := by
  rw [shapeCast_self]
  show FloatOps.matmul (DotDims.plain n C H) none (addf x a) w (constant (F := Ideal) ⟨2, ![n, H]⟩ .f32 0x00000000#32) i
      + broadcastTo ⟨2, ![n, H]⟩ b h2 i = _
  rw [Cert.LibDense.matmul_plain, Cert.LibBiasRows.row_broadcast]
  rfl

/-- The vector unit's spelling of an accumulator after a block, at column j: what it held plus the sum of the
    block along axis 0, laid out as a row. -/
theorem acc_vec {n d : ℕ} (h : FVec Ideal ⟨2, ![n, d]⟩ .f32) (acc : FVec Ideal ⟨2, ![1, d]⟩ .f32)
    (h0 : (⟨2, ![1, d]⟩ : Shape).ShapeCasts ⟨2, ![1, d]⟩) (z : BitVec (FTy.f32).bits)
    (hr : Shape.Reduces ⟨2, ![n, d]⟩ [0] ⟨1, ![d]⟩) (h1 : (⟨1, ![d]⟩ : Shape).ShapeCasts ⟨2, ![1, d]⟩)
    (hφ : FKind.Formats .f32) (hz : z = FKind.add.neutral .f32 hφ) (j : Fin d) :
    addf (shapeCast ⟨2, ![1, d]⟩ acc h0) (shapeCast ⟨2, ![1, d]⟩ (multiReduction .add [0] ⟨1, ![d]⟩ h z hr hφ hz) h1)
        (ix2 ⟨0, Nat.one_pos⟩ j) = acc (ix2 ⟨0, Nat.one_pos⟩ j) + ∑ r : Fin n, h (ix2 r j) := by
  rw [shapeCast_self]
  show acc (ix2 ⟨0, Nat.one_pos⟩ j) + shapeCast ⟨2, ![1, d]⟩ (multiReduction .add [0] ⟨1, ![d]⟩ h z hr hφ hz) h1 (ix2 ⟨0, Nat.one_pos⟩ j) = _
  rw [Cert.LibBiasRows.row_of_vector, Cert.LibAxisSum.sum_first]

/-- The node map's spelling on a block of 5000 rows with 64 input columns. -/
def core64 (a b : FVec Ideal S5000x64 .f32) (w : FVec Ideal S64x64 .f32) (bias : FVec Ideal S1x64 .f32) : FVec Ideal S5000x64 .f32 :=
  addf (FloatOps.matmul dot_S5000x64_S64x64_S5000x64_1_0_0_1_n_n none (addf a b) w (constant (F := Ideal) S5000x64 .f32 0x00000000#32))
    (broadcastTo S5000x64 (shapeCast S1x64 bias shapeCasts_S1x64_S1x64) broadcasts_S1x64_S5000x64)

/-- The same with 2 input columns. -/
def core2 (a b : FVec Ideal S5000x2 .f32) (w : FVec Ideal S2x64 .f32) (bias : FVec Ideal S1x64 .f32) : FVec Ideal S5000x64 .f32 :=
  addf (FloatOps.matmul dot_S5000x2_S2x64_S5000x64_1_0_0_1_n_n none (addf a b) w (constant (F := Ideal) S5000x64 .f32 0x00000000#32))
    (broadcastTo S5000x64 (shapeCast S1x64 bias shapeCasts_S1x64_S1x64) broadcasts_S1x64_S5000x64)

/-! ## Region 1: 2 input columns -/

/-- Region 1: the block of the node map, at an entry. -/
theorem pass1_pay1_h (v3 v4 : Vec Ideal S5000x2 .f32) (v8 : Vec Ideal S2x64 .f32) (v11 : Vec Ideal S1x64 .f32) (i : S5000x64.Idx) :
    k1_pay3 (F := Ideal) v3 v4 v8 v11 i = hpre v3 v4 v8 (row v11) i := by
  unfold k1_pay3
  show core2 v3 (shapeCast S5000x2 v4 shapeCasts_S5000x2_S5000x2) v8 v11 i = _
  rw [shapeCast_self]
  exact hpre_vec (n := 5000) (C := 2) (H := 64) v3 v4 v8 v11 shapeCasts_S1x64_S1x64 broadcasts_S1x64_S5000x64 i

/-- Region 1: the accumulator of column totals after a block, at column j. -/
theorem pass1_pay1_s (v3 v4 : Vec Ideal S5000x2 .f32) (v8 : Vec Ideal S2x64 .f32) (v11 v16 : Vec Ideal S1x64 .f32) (j : Fin 64) :
    k1_pay4 (F := Ideal) v3 v4 v8 v11 v16 (ix2 ⟨0, Nat.one_pos⟩ j)
      = v16 (ix2 ⟨0, Nat.one_pos⟩ j) + ∑ r : Fin 5000, hpre v3 v4 v8 (row v11) (ix2 r j) := by
  unfold k1_pay4
  refine (acc_vec (n := 5000) (d := 64) (k1_pay3 (F := Ideal) v3 v4 v8 v11) v16 shapeCasts_S1x64_S1x64 0x00000000#32
    reduces_S5000x64_S64 shapeCasts_S64_S1x64 (.inl rfl) rfl j).trans ?_
  exact congrArg (fun s => v16 (ix2 ⟨0, Nat.one_pos⟩ j) + s) (Finset.sum_congr rfl fun r _ => pass1_pay1_h v3 v4 v8 v11 (ix2 r j))

/-- Region 1: the accumulator of column totals of squares after a block, at column j. -/
theorem pass1_pay1_q (v3 v4 : Vec Ideal S5000x2 .f32) (v8 : Vec Ideal S2x64 .f32) (v11 v22 : Vec Ideal S1x64 .f32) (j : Fin 64) :
    k1_pay5 (F := Ideal) v3 v4 v8 v11 v22 (ix2 ⟨0, Nat.one_pos⟩ j)
      = v22 (ix2 ⟨0, Nat.one_pos⟩ j) + ∑ r : Fin 5000, hpre v3 v4 v8 (row v11) (ix2 r j) * hpre v3 v4 v8 (row v11) (ix2 r j) := by
  unfold k1_pay5
  refine (acc_vec (n := 5000) (d := 64) (mulf (k1_pay3 (F := Ideal) v3 v4 v8 v11) (k1_pay3 (F := Ideal) v3 v4 v8 v11)) v22 shapeCasts_S1x64_S1x64 0x00000000#32
    reduces_S5000x64_S64 shapeCasts_S64_S1x64 (.inl rfl) rfl j).trans ?_
  refine congrArg (fun s => v22 (ix2 ⟨0, Nat.one_pos⟩ j) + s) (Finset.sum_congr rfl fun r _ => ?_)
  show k1_pay3 (F := Ideal) v3 v4 v8 v11 (ix2 r j) * k1_pay3 (F := Ideal) v3 v4 v8 v11 (ix2 r j) = _
  rw [pass1_pay1_h]

/-- Region 1: the two zero blocks the first point stores. -/
theorem pass1_pay1_z1 (i : S1x64.Idx) : k1_pay1 (F := Ideal) i = wZero := rfl
theorem pass1_pay1_z2 (i : S1x64.Idx) : k1_pay2 (F := Ideal) i = wZero := rfl

/-! ## Regions 4, 7, 10, 13: 64 input columns -/

/-- Layer region 4: the block of the node map, at an entry. -/
theorem pass1_pay4_h (v3 v5 : Vec Ideal S5000x64 .f32) (v9 : Vec Ideal S64x64 .f32) (v13 : Vec Ideal S1x64 .f32) (i : S5000x64.Idx) :
    k4_pay3 (F := Ideal) v3 v5 v9 v13 i = hpre v3 v5 v9 (row v13) i := by
  unfold k4_pay3
  show core64 (shapeCast S5000x64 v3 shapeCasts_S5000x64_S5000x64) (shapeCast S5000x64 v5 shapeCasts_S5000x64_S5000x64)
    (shapeCast S64x64 v9 shapeCasts_S64x64_S64x64) v13 i = _
  rw [shapeCast_self, shapeCast_self, shapeCast_self]
  exact hpre_vec (n := 5000) (C := 64) (H := 64) v3 v5 v9 v13 shapeCasts_S1x64_S1x64 broadcasts_S1x64_S5000x64 i

/-- Layer region 4: the accumulator of column totals after a block, at column j. -/
theorem pass1_pay4_s (v3 v5 : Vec Ideal S5000x64 .f32) (v9 : Vec Ideal S64x64 .f32) (v13 v18 : Vec Ideal S1x64 .f32) (j : Fin 64) :
    k4_pay4 (F := Ideal) v3 v5 v9 v13 v18 (ix2 ⟨0, Nat.one_pos⟩ j)
      = v18 (ix2 ⟨0, Nat.one_pos⟩ j) + ∑ r : Fin 5000, hpre v3 v5 v9 (row v13) (ix2 r j) := by
  unfold k4_pay4
  refine (acc_vec (n := 5000) (d := 64) (k4_pay3 (F := Ideal) v3 v5 v9 v13) v18 shapeCasts_S1x64_S1x64 0x00000000#32
    reduces_S5000x64_S64 shapeCasts_S64_S1x64 (.inl rfl) rfl j).trans ?_
  exact congrArg (fun s => v18 (ix2 ⟨0, Nat.one_pos⟩ j) + s) (Finset.sum_congr rfl fun r _ => pass1_pay4_h v3 v5 v9 v13 (ix2 r j))

/-- Layer region 4: the accumulator of column totals of squares after a block, at column j. -/
theorem pass1_pay4_q (v3 v5 : Vec Ideal S5000x64 .f32) (v9 : Vec Ideal S64x64 .f32) (v13 v24 : Vec Ideal S1x64 .f32) (j : Fin 64) :
    k4_pay5 (F := Ideal) v3 v5 v9 v13 v24 (ix2 ⟨0, Nat.one_pos⟩ j)
      = v24 (ix2 ⟨0, Nat.one_pos⟩ j) + ∑ r : Fin 5000, hpre v3 v5 v9 (row v13) (ix2 r j) * hpre v3 v5 v9 (row v13) (ix2 r j) := by
  unfold k4_pay5
  refine (acc_vec (n := 5000) (d := 64) (mulf (k4_pay3 (F := Ideal) v3 v5 v9 v13) (k4_pay3 (F := Ideal) v3 v5 v9 v13)) v24 shapeCasts_S1x64_S1x64 0x00000000#32
    reduces_S5000x64_S64 shapeCasts_S64_S1x64 (.inl rfl) rfl j).trans ?_
  refine congrArg (fun s => v24 (ix2 ⟨0, Nat.one_pos⟩ j) + s) (Finset.sum_congr rfl fun r _ => ?_)
  show k4_pay3 (F := Ideal) v3 v5 v9 v13 (ix2 r j) * k4_pay3 (F := Ideal) v3 v5 v9 v13 (ix2 r j) = _
  rw [pass1_pay4_h]

/-- Layer region 4: the two zero blocks the first point stores. -/
theorem pass1_pay4_z1 (i : S1x64.Idx) : k4_pay1 (F := Ideal) i = wZero := rfl
theorem pass1_pay4_z2 (i : S1x64.Idx) : k4_pay2 (F := Ideal) i = wZero := rfl

/-- Layer region 7: the block of the node map, at an entry. -/
theorem pass1_pay7_h (v3 v5 : Vec Ideal S5000x64 .f32) (v9 : Vec Ideal S64x64 .f32) (v13 : Vec Ideal S1x64 .f32) (i : S5000x64.Idx) :
    k7_pay3 (F := Ideal) v3 v5 v9 v13 i = hpre v3 v5 v9 (row v13) i := by
  unfold k7_pay3
  show core64 (shapeCast S5000x64 v3 shapeCasts_S5000x64_S5000x64) (shapeCast S5000x64 v5 shapeCasts_S5000x64_S5000x64)
    (shapeCast S64x64 v9 shapeCasts_S64x64_S64x64) v13 i = _
  rw [shapeCast_self, shapeCast_self, shapeCast_self]
  exact hpre_vec (n := 5000) (C := 64) (H := 64) v3 v5 v9 v13 shapeCasts_S1x64_S1x64 broadcasts_S1x64_S5000x64 i

/-- Layer region 7: the accumulator of column totals after a block, at column j. -/
theorem pass1_pay7_s (v3 v5 : Vec Ideal S5000x64 .f32) (v9 : Vec Ideal S64x64 .f32) (v13 v18 : Vec Ideal S1x64 .f32) (j : Fin 64) :
    k7_pay4 (F := Ideal) v3 v5 v9 v13 v18 (ix2 ⟨0, Nat.one_pos⟩ j)
      = v18 (ix2 ⟨0, Nat.one_pos⟩ j) + ∑ r : Fin 5000, hpre v3 v5 v9 (row v13) (ix2 r j) := by
  unfold k7_pay4
  refine (acc_vec (n := 5000) (d := 64) (k7_pay3 (F := Ideal) v3 v5 v9 v13) v18 shapeCasts_S1x64_S1x64 0x00000000#32
    reduces_S5000x64_S64 shapeCasts_S64_S1x64 (.inl rfl) rfl j).trans ?_
  exact congrArg (fun s => v18 (ix2 ⟨0, Nat.one_pos⟩ j) + s) (Finset.sum_congr rfl fun r _ => pass1_pay7_h v3 v5 v9 v13 (ix2 r j))

/-- Layer region 7: the accumulator of column totals of squares after a block, at column j. -/
theorem pass1_pay7_q (v3 v5 : Vec Ideal S5000x64 .f32) (v9 : Vec Ideal S64x64 .f32) (v13 v24 : Vec Ideal S1x64 .f32) (j : Fin 64) :
    k7_pay5 (F := Ideal) v3 v5 v9 v13 v24 (ix2 ⟨0, Nat.one_pos⟩ j)
      = v24 (ix2 ⟨0, Nat.one_pos⟩ j) + ∑ r : Fin 5000, hpre v3 v5 v9 (row v13) (ix2 r j) * hpre v3 v5 v9 (row v13) (ix2 r j) := by
  unfold k7_pay5
  refine (acc_vec (n := 5000) (d := 64) (mulf (k7_pay3 (F := Ideal) v3 v5 v9 v13) (k7_pay3 (F := Ideal) v3 v5 v9 v13)) v24 shapeCasts_S1x64_S1x64 0x00000000#32
    reduces_S5000x64_S64 shapeCasts_S64_S1x64 (.inl rfl) rfl j).trans ?_
  refine congrArg (fun s => v24 (ix2 ⟨0, Nat.one_pos⟩ j) + s) (Finset.sum_congr rfl fun r _ => ?_)
  show k7_pay3 (F := Ideal) v3 v5 v9 v13 (ix2 r j) * k7_pay3 (F := Ideal) v3 v5 v9 v13 (ix2 r j) = _
  rw [pass1_pay7_h]

/-- Layer region 7: the two zero blocks the first point stores. -/
theorem pass1_pay7_z1 (i : S1x64.Idx) : k7_pay1 (F := Ideal) i = wZero := rfl
theorem pass1_pay7_z2 (i : S1x64.Idx) : k7_pay2 (F := Ideal) i = wZero := rfl

/-- Layer region 10: the block of the node map, at an entry. -/
theorem pass1_pay10_h (v3 v5 : Vec Ideal S5000x64 .f32) (v9 : Vec Ideal S64x64 .f32) (v13 : Vec Ideal S1x64 .f32) (i : S5000x64.Idx) :
    k10_pay3 (F := Ideal) v3 v5 v9 v13 i = hpre v3 v5 v9 (row v13) i := by
  unfold k10_pay3
  show core64 (shapeCast S5000x64 v3 shapeCasts_S5000x64_S5000x64) (shapeCast S5000x64 v5 shapeCasts_S5000x64_S5000x64)
    (shapeCast S64x64 v9 shapeCasts_S64x64_S64x64) v13 i = _
  rw [shapeCast_self, shapeCast_self, shapeCast_self]
  exact hpre_vec (n := 5000) (C := 64) (H := 64) v3 v5 v9 v13 shapeCasts_S1x64_S1x64 broadcasts_S1x64_S5000x64 i

/-- Layer region 10: the accumulator of column totals after a block, at column j. -/
theorem pass1_pay10_s (v3 v5 : Vec Ideal S5000x64 .f32) (v9 : Vec Ideal S64x64 .f32) (v13 v18 : Vec Ideal S1x64 .f32) (j : Fin 64) :
    k10_pay4 (F := Ideal) v3 v5 v9 v13 v18 (ix2 ⟨0, Nat.one_pos⟩ j)
      = v18 (ix2 ⟨0, Nat.one_pos⟩ j) + ∑ r : Fin 5000, hpre v3 v5 v9 (row v13) (ix2 r j) := by
  unfold k10_pay4
  refine (acc_vec (n := 5000) (d := 64) (k10_pay3 (F := Ideal) v3 v5 v9 v13) v18 shapeCasts_S1x64_S1x64 0x00000000#32
    reduces_S5000x64_S64 shapeCasts_S64_S1x64 (.inl rfl) rfl j).trans ?_
  exact congrArg (fun s => v18 (ix2 ⟨0, Nat.one_pos⟩ j) + s) (Finset.sum_congr rfl fun r _ => pass1_pay10_h v3 v5 v9 v13 (ix2 r j))

/-- Layer region 10: the accumulator of column totals of squares after a block, at column j. -/
theorem pass1_pay10_q (v3 v5 : Vec Ideal S5000x64 .f32) (v9 : Vec Ideal S64x64 .f32) (v13 v24 : Vec Ideal S1x64 .f32) (j : Fin 64) :
    k10_pay5 (F := Ideal) v3 v5 v9 v13 v24 (ix2 ⟨0, Nat.one_pos⟩ j)
      = v24 (ix2 ⟨0, Nat.one_pos⟩ j) + ∑ r : Fin 5000, hpre v3 v5 v9 (row v13) (ix2 r j) * hpre v3 v5 v9 (row v13) (ix2 r j) := by
  unfold k10_pay5
  refine (acc_vec (n := 5000) (d := 64) (mulf (k10_pay3 (F := Ideal) v3 v5 v9 v13) (k10_pay3 (F := Ideal) v3 v5 v9 v13)) v24 shapeCasts_S1x64_S1x64 0x00000000#32
    reduces_S5000x64_S64 shapeCasts_S64_S1x64 (.inl rfl) rfl j).trans ?_
  refine congrArg (fun s => v24 (ix2 ⟨0, Nat.one_pos⟩ j) + s) (Finset.sum_congr rfl fun r _ => ?_)
  show k10_pay3 (F := Ideal) v3 v5 v9 v13 (ix2 r j) * k10_pay3 (F := Ideal) v3 v5 v9 v13 (ix2 r j) = _
  rw [pass1_pay10_h]

/-- Layer region 10: the two zero blocks the first point stores. -/
theorem pass1_pay10_z1 (i : S1x64.Idx) : k10_pay1 (F := Ideal) i = wZero := rfl
theorem pass1_pay10_z2 (i : S1x64.Idx) : k10_pay2 (F := Ideal) i = wZero := rfl

/-- Layer region 13: the block of the node map, at an entry. -/
theorem pass1_pay13_h (v3 v5 : Vec Ideal S5000x64 .f32) (v9 : Vec Ideal S64x64 .f32) (v13 : Vec Ideal S1x64 .f32) (i : S5000x64.Idx) :
    k13_pay3 (F := Ideal) v3 v5 v9 v13 i = hpre v3 v5 v9 (row v13) i := by
  unfold k13_pay3
  show core64 (shapeCast S5000x64 v3 shapeCasts_S5000x64_S5000x64) (shapeCast S5000x64 v5 shapeCasts_S5000x64_S5000x64)
    (shapeCast S64x64 v9 shapeCasts_S64x64_S64x64) v13 i = _
  rw [shapeCast_self, shapeCast_self, shapeCast_self]
  exact hpre_vec (n := 5000) (C := 64) (H := 64) v3 v5 v9 v13 shapeCasts_S1x64_S1x64 broadcasts_S1x64_S5000x64 i

/-- Layer region 13: the accumulator of column totals after a block, at column j. -/
theorem pass1_pay13_s (v3 v5 : Vec Ideal S5000x64 .f32) (v9 : Vec Ideal S64x64 .f32) (v13 v18 : Vec Ideal S1x64 .f32) (j : Fin 64) :
    k13_pay4 (F := Ideal) v3 v5 v9 v13 v18 (ix2 ⟨0, Nat.one_pos⟩ j)
      = v18 (ix2 ⟨0, Nat.one_pos⟩ j) + ∑ r : Fin 5000, hpre v3 v5 v9 (row v13) (ix2 r j) := by
  unfold k13_pay4
  refine (acc_vec (n := 5000) (d := 64) (k13_pay3 (F := Ideal) v3 v5 v9 v13) v18 shapeCasts_S1x64_S1x64 0x00000000#32
    reduces_S5000x64_S64 shapeCasts_S64_S1x64 (.inl rfl) rfl j).trans ?_
  exact congrArg (fun s => v18 (ix2 ⟨0, Nat.one_pos⟩ j) + s) (Finset.sum_congr rfl fun r _ => pass1_pay13_h v3 v5 v9 v13 (ix2 r j))

/-- Layer region 13: the accumulator of column totals of squares after a block, at column j. -/
theorem pass1_pay13_q (v3 v5 : Vec Ideal S5000x64 .f32) (v9 : Vec Ideal S64x64 .f32) (v13 v24 : Vec Ideal S1x64 .f32) (j : Fin 64) :
    k13_pay5 (F := Ideal) v3 v5 v9 v13 v24 (ix2 ⟨0, Nat.one_pos⟩ j)
      = v24 (ix2 ⟨0, Nat.one_pos⟩ j) + ∑ r : Fin 5000, hpre v3 v5 v9 (row v13) (ix2 r j) * hpre v3 v5 v9 (row v13) (ix2 r j) := by
  unfold k13_pay5
  refine (acc_vec (n := 5000) (d := 64) (mulf (k13_pay3 (F := Ideal) v3 v5 v9 v13) (k13_pay3 (F := Ideal) v3 v5 v9 v13)) v24 shapeCasts_S1x64_S1x64 0x00000000#32
    reduces_S5000x64_S64 shapeCasts_S64_S1x64 (.inl rfl) rfl j).trans ?_
  refine congrArg (fun s => v24 (ix2 ⟨0, Nat.one_pos⟩ j) + s) (Finset.sum_congr rfl fun r _ => ?_)
  show k13_pay3 (F := Ideal) v3 v5 v9 v13 (ix2 r j) * k13_pay3 (F := Ideal) v3 v5 v9 v13 (ix2 r j) = _
  rw [pass1_pay13_h]

/-- Layer region 13: the two zero blocks the first point stores. -/
theorem pass1_pay13_z1 (i : S1x64.Idx) : k13_pay1 (F := Ideal) i = wZero := rfl
theorem pass1_pay13_z2 (i : S1x64.Idx) : k13_pay2 (F := Ideal) i = wZero := rfl

end Cert.KernelIdeal.RegVal

end
-- ==== Proof.LibSumBlocks.lean ====
/-
  Finite sums in a commutative additive monoid, regrouped.

  * A sum over `Fin N` with `N = a * b` is the double sum over a block number `x < a` and a position
    `y < b` inside the block, the index being `x * b + y`.
  * A sum of a function that vanishes off the range of an embedding is the sum over the embedding's domain.
  * A sum over `Finset.range n` of a function of naturals that is given by a `Fin n`-indexed family below `n`.

  Nothing here mentions floats or shapes; the monoid is arbitrary (the extended reals are one: their addition is
  commutative and associative, infinities included).
-/
import Mathlib.Algebra.BigOperators.Fin
import Mathlib.Logic.Equiv.Fin.Basic

namespace Cert.SumBlocks

open Finset

/-- Position `y` of block `x` is below `a * b`. -/
theorem block_lt {a b : ℕ} (x : Fin a) (y : Fin b) : x.val * b + y.val < a * b := by
  have hx : x.val + 1 ≤ a := x.isLt
  calc x.val * b + y.val < x.val * b + b := Nat.add_lt_add_left y.isLt _
    _ = (x.val + 1) * b := (Nat.succ_mul _ _).symm
    _ ≤ a * b := Nat.mul_le_mul_right _ hx

/-- A sum over `Fin N`, `N = a * b`, block by block. -/
theorem sum_fin_blocks {M : Type*} [AddCommMonoid M] {N : ℕ} (a b : ℕ) (h : N = a * b) (f : Fin N → M) :
    ∑ i : Fin N, f i = ∑ x : Fin a, ∑ y : Fin b, f ⟨x.val * b + y.val, h ▸ block_lt x y⟩ := by
  subst h
  rw [← finProdFinEquiv.sum_comp, Fintype.sum_prod_type]
  refine Finset.sum_congr rfl fun x _ => Finset.sum_congr rfl fun y _ => congrArg f (Fin.ext ?_)
  show y.val + b * x.val = x.val * b + y.val
  rw [Nat.mul_comm, Nat.add_comm]

/-- A function that vanishes off the range of an embedding sums to its sum along the embedding. -/
theorem sum_eq_sum_embedding {ι κ M : Type*} [Fintype ι] [Fintype κ] [AddCommMonoid M] (e : κ ↪ ι) (G : ι → M)
    (h : ∀ i, (∀ k, e k ≠ i) → G i = 0) : ∑ i, G i = ∑ k, G (e k) := by
  rw [← Finset.sum_map Finset.univ e G]
  symm
  refine Finset.sum_subset (Finset.subset_univ _) fun i _ hi => h i fun k hk => hi ?_
  exact Finset.mem_map.mpr ⟨k, Finset.mem_univ k, hk⟩

/-- A sum over `range n` of a function of naturals that agrees below `n` with a `Fin n`-indexed family. -/
theorem sum_range_eq_sum_fin {M : Type*} [AddCommMonoid M] (n : ℕ) (g : ℕ → M) (f : Fin n → M)
    (h : ∀ k : Fin n, g k.val = f k) : ∑ k ∈ Finset.range n, g k = ∑ k : Fin n, f k := by
  rw [Finset.sum_range]
  exact Finset.sum_congr rfl fun k _ => h k

end Cert.SumBlocks
-- ==== Proof.RegPass1.lean ====
/-
  The first node passes, from blocks to arrays.

  Each of the 10 points stores the node map (x + aggr)·Wa + ba of its block of 5000 rows; the blocks tile the
  50000 rows, so the output array ends holding the node map of the region's four operand arrays. The two
  one-row accumulators are zeroed at the first point and every point adds its block's column totals of the node
  map and of its squares: by induction on the point they hold, after point n, the zero word plus the totals of
  blocks 0..n (addition on the extended reals is associative), and a sum over 50000 rows is the sum over 10
  blocks of 5000, so the one write-back after the last point leaves the specification's column totals.
-/
import proofs.«122931_j61864708931975_1_alg».proof.Proof.Gen.KernelIdeal.Frame
import proofs.«122931_j61864708931975_1_alg».proof.Proof.Spec
import proofs.«122931_j61864708931975_1_alg».proof.Proof.PayPass1
import proofs.«122931_j61864708931975_1_alg».proof.Proof.LibSumBlocks

set_option maxRecDepth 16384

noncomputable section

namespace Cert.KernelIdeal.RegVal

open Idealize.ShloMosaic Idealize.ShloMosaic.ValueIdx Cert.KernelIdeal Cert.KernelIdeal.Gen Cert.Gine
open Idealize.ShloMosaic.Pipeline (Dat)
open Idealize.ShloMosaic.TcCoe

/-- The zero offset of a whole-block access. -/
theorem p1_hz : (![0, 0] : Fin 2 → Nat) = fun _ => 0 := funext fun a => by fin_cases a <;> rfl

/-- An index of a one-row matrix is (0, its column). -/
theorem p1_row_idx {d : ℕ} (i : (⟨2, ![1, d]⟩ : Shape).Idx) : i = ix2 ⟨0, Nat.one_pos⟩ (i 1) := by
  funext a
  match a with
  | ⟨0, _⟩ => exact Fin.ext (by have hlt : (i 0).val < 1 := idx2_lt0 i; show (i 0).val = 0; omega)
  | ⟨1, _⟩ => rfl

/-- Block x's column total of a 50000-row matrix, the blocks 5000 rows each; zero from block 10 on. -/
def p1_blkTot (G : Arr2 50000 64) (j : Fin 64) (x : ℕ) : EReal :=
  if h : x < 10 then ∑ y : Fin 5000, G (ix2 ⟨x * 5000 + y.val, Cert.SumBlocks.block_lt (a := 10) (b := 5000) ⟨x, h⟩ y⟩ j) else 0

theorem p1_blkTot_eq (G : Arr2 50000 64) (j : Fin 64) (x : ℕ) (h : x < 10) :
    p1_blkTot G j x = ∑ y : Fin 5000, G (ix2 ⟨x * 5000 + y.val, Cert.SumBlocks.block_lt (a := 10) (b := 5000) ⟨x, h⟩ y⟩ j) := dif_pos h

/-- The zero word plus the ten blocks' totals is the specification's column total. -/
theorem p1_acc_total (G : Arr2 50000 64) (j : Fin 64) : wZero + ∑ x ∈ Finset.range (9 + 1), p1_blkTot G j x = colSum G j := by
  unfold colSum
  refine congrArg (fun s => wZero + s) ?_
  refine Eq.trans ?_ (Cert.SumBlocks.sum_fin_blocks 10 5000 rfl (fun r : Fin 50000 => G (ix2 r j))).symm
  exact Cert.SumBlocks.sum_range_eq_sum_fin 10 (p1_blkTot G j) _ (fun k => p1_blkTot_eq G j k.val k.isLt)

variable (V : (c : Dev nD) → (b : Ref sig .tc) → Buf (Elt Ideal) ((c : Thread nD τ).loc b)) (c : Dev nD)

/-! ## Region 1 -/

/-- The block maps of region 1, decided over its 10 points: the two row operands and the node map move down
    with the point; the weight, the bias and the two accumulators stay. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- What the first point's body leaves in the node map's buffer: the node map of the loaded blocks. -/
theorem outA1_4 (c : Dev nD) (i : grid1.Coords) (a1 : Memref sig .tc .vmem S5000x2 .f32) (h1 : a1.IsWhole) (a2 : Memref sig .tc .vmem S5000x2 .f32) (h2 : a2.IsWhole)
    (a3 : Memref sig .tc .vmem S2x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond1_0 i) (x0 x1 : Vec Ideal S5000x2 .f32) (x2 : Vec Ideal S2x64 .f32) (x3 : Vec Ideal S1x64 .f32) :
    out1_A_4 (F := Ideal) c i a1 h1 a2 h2 a3 h3 a4 h4 a5 h5 a6 h6 a7 h7 hc x0 x1 x2 x3 = k1_pay3 x0 x1 x2 x3 := by
  unfold out1_A_4
  rw [View.read_writes_eq_canon _ _ _ (cover1_A_4 c i a1 h1 a2 h2 a3 h3 a4 h4 a5 h5 a6 h6 a7 h7 hc x0 x1 x2 x3)]
  unfold kernelRun1_A
  dsimp only
  rw [View.canon_unit_zero (S := S5000x64) p1_hz]
  simp only [View.readAt_eq_ld, h1.read_unread, h2.read_unread, h3.read_unread, h4.read_unread, h5.read_unread, h6.read_unread, h7.read_unread,
    View.ld_unit_zero (S := S5000x2) p1_hz, View.ld_unit_zero (S := S2x64) p1_hz, View.ld_unit_zero (S := S1x64) p1_hz, View.ld_unit_zero (S := S5000x64) p1_hz]

/-- What a later point's body leaves there: the same. -/
theorem outB1_4 (c : Dev nD) (i : grid1.Coords) (a1 : Memref sig .tc .vmem S5000x2 .f32) (h1 : a1.IsWhole) (a2 : Memref sig .tc .vmem S5000x2 .f32) (h2 : a2.IsWhole)
    (a3 : Memref sig .tc .vmem S2x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond1_0 i) (x0 x1 : Vec Ideal S5000x2 .f32) (x2 : Vec Ideal S2x64 .f32) (x3 : Vec Ideal S1x64 .f32) (xo5 xo6 : Vec Ideal S1x64 .f32) :
    out1_B_4 (F := Ideal) c i a1 h1 a2 h2 a3 h3 a4 h4 a5 h5 a6 h6 a7 h7 hc x0 x1 x2 x3 xo5 xo6 = k1_pay3 x0 x1 x2 x3 := by
  unfold out1_B_4
  rw [View.read_writes_eq_canon _ _ _ (cover1_B_4 c i a1 h1 a2 h2 a3 h3 a4 h4 a5 h5 a6 h6 a7 h7 hc x0 x1 x2 x3 xo5 xo6)]
  unfold kernelRun1_B
  dsimp only
  rw [View.canon_unit_zero (S := S5000x64) p1_hz]
  simp only [View.readAt_eq_ld, h1.read_unread, h2.read_unread, h3.read_unread, h4.read_unread, h5.read_unread, h6.read_unread, h7.read_unread,
    View.ld_unit_zero (S := S5000x2) p1_hz, View.ld_unit_zero (S := S2x64) p1_hz, View.ld_unit_zero (S := S1x64) p1_hz, View.ld_unit_zero (S := S5000x64) p1_hz]

/-- What the first point's body leaves in the first accumulator: the zero block plus the block's totals. -/
theorem outA1_5 (c : Dev nD) (i : grid1.Coords) (a1 : Memref sig .tc .vmem S5000x2 .f32) (h1 : a1.IsWhole) (a2 : Memref sig .tc .vmem S5000x2 .f32) (h2 : a2.IsWhole)
    (a3 : Memref sig .tc .vmem S2x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond1_0 i) (x0 x1 : Vec Ideal S5000x2 .f32) (x2 : Vec Ideal S2x64 .f32) (x3 : Vec Ideal S1x64 .f32) :
    out1_A_5 (F := Ideal) c i a1 h1 a2 h2 a3 h3 a4 h4 a5 h5 a6 h6 a7 h7 hc x0 x1 x2 x3 = k1_pay4 x0 x1 x2 x3 (k1_pay1 (F := Ideal)) := by
  unfold out1_A_5
  rw [View.read_writes_eq_canon _ _ _ (cover1_A_5 c i a1 h1 a2 h2 a3 h3 a4 h4 a5 h5 a6 h6 a7 h7 hc x0 x1 x2 x3)]
  unfold kernelRun1_A
  dsimp only
  sl_unfold_words
  rw [View.canon_cons_unit_zero (S := S1x64) p1_hz, View.readCov_unit_zero (S := S1x64) _ p1_hz]
  simp only [View.readAt_eq_ld, h1.read_unread, h2.read_unread, h3.read_unread, h4.read_unread, h5.read_unread, h6.read_unread, h7.read_unread,
    View.ld_unit_zero (S := S5000x2) p1_hz, View.ld_unit_zero (S := S2x64) p1_hz, View.ld_unit_zero (S := S1x64) p1_hz, View.ld_unit_zero (S := S5000x64) p1_hz]

/-- What a later point's body leaves there: what it held plus the block's totals. -/
theorem outB1_5 (c : Dev nD) (i : grid1.Coords) (a1 : Memref sig .tc .vmem S5000x2 .f32) (h1 : a1.IsWhole) (a2 : Memref sig .tc .vmem S5000x2 .f32) (h2 : a2.IsWhole)
    (a3 : Memref sig .tc .vmem S2x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond1_0 i) (x0 x1 : Vec Ideal S5000x2 .f32) (x2 : Vec Ideal S2x64 .f32) (x3 : Vec Ideal S1x64 .f32) (xo5 xo6 : Vec Ideal S1x64 .f32) :
    out1_B_5 (F := Ideal) c i a1 h1 a2 h2 a3 h3 a4 h4 a5 h5 a6 h6 a7 h7 hc x0 x1 x2 x3 xo5 xo6 = k1_pay4 x0 x1 x2 x3 xo5 := by
  unfold out1_B_5
  rw [View.read_writes_eq_canon _ _ _ (cover1_B_5 c i a1 h1 a2 h2 a3 h3 a4 h4 a5 h5 a6 h6 a7 h7 hc x0 x1 x2 x3 xo5 xo6)]
  unfold kernelRun1_B
  dsimp only
  rw [View.canon_unit_zero (S := S1x64) p1_hz]
  simp only [View.readAt_eq_ld, h1.read_unread, h2.read_unread, h3.read_unread, h4.read_unread, h5.read_unread, h6.read_unread, h7.read_unread,
    View.ld_unit_zero (S := S5000x2) p1_hz, View.ld_unit_zero (S := S2x64) p1_hz, View.ld_unit_zero (S := S1x64) p1_hz, View.ld_unit_zero (S := S5000x64) p1_hz]

/-- The same for the accumulator of squares. -/
theorem outA1_6 (c : Dev nD) (i : grid1.Coords) (a1 : Memref sig .tc .vmem S5000x2 .f32) (h1 : a1.IsWhole) (a2 : Memref sig .tc .vmem S5000x2 .f32) (h2 : a2.IsWhole)
    (a3 : Memref sig .tc .vmem S2x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond1_0 i) (x0 x1 : Vec Ideal S5000x2 .f32) (x2 : Vec Ideal S2x64 .f32) (x3 : Vec Ideal S1x64 .f32) :
    out1_A_6 (F := Ideal) c i a1 h1 a2 h2 a3 h3 a4 h4 a5 h5 a6 h6 a7 h7 hc x0 x1 x2 x3 = k1_pay5 x0 x1 x2 x3 (k1_pay2 (F := Ideal)) := by
  unfold out1_A_6
  rw [View.read_writes_eq_canon _ _ _ (cover1_A_6 c i a1 h1 a2 h2 a3 h3 a4 h4 a5 h5 a6 h6 a7 h7 hc x0 x1 x2 x3)]
  unfold kernelRun1_A
  dsimp only
  sl_unfold_words
  rw [View.canon_cons_unit_zero (S := S1x64) p1_hz, View.readCov_unit_zero (S := S1x64) _ p1_hz]
  simp only [View.readAt_eq_ld, h1.read_unread, h2.read_unread, h3.read_unread, h4.read_unread, h5.read_unread, h6.read_unread, h7.read_unread,
    View.ld_unit_zero (S := S5000x2) p1_hz, View.ld_unit_zero (S := S2x64) p1_hz, View.ld_unit_zero (S := S1x64) p1_hz, View.ld_unit_zero (S := S5000x64) p1_hz]

theorem outB1_6 (c : Dev nD) (i : grid1.Coords) (a1 : Memref sig .tc .vmem S5000x2 .f32) (h1 : a1.IsWhole) (a2 : Memref sig .tc .vmem S5000x2 .f32) (h2 : a2.IsWhole)
    (a3 : Memref sig .tc .vmem S2x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond1_0 i) (x0 x1 : Vec Ideal S5000x2 .f32) (x2 : Vec Ideal S2x64 .f32) (x3 : Vec Ideal S1x64 .f32) (xo5 xo6 : Vec Ideal S1x64 .f32) :
    out1_B_6 (F := Ideal) c i a1 h1 a2 h2 a3 h3 a4 h4 a5 h5 a6 h6 a7 h7 hc x0 x1 x2 x3 xo5 xo6 = k1_pay5 x0 x1 x2 x3 xo6 := by
  unfold out1_B_6
  rw [View.read_writes_eq_canon _ _ _ (cover1_B_6 c i a1 h1 a2 h2 a3 h3 a4 h4 a5 h5 a6 h6 a7 h7 hc x0 x1 x2 x3 xo5 xo6)]
  unfold kernelRun1_B
  dsimp only
  rw [View.canon_unit_zero (S := S1x64) p1_hz]
  simp only [View.readAt_eq_ld, h1.read_unread, h2.read_unread, h3.read_unread, h4.read_unread, h5.read_unread, h6.read_unread, h7.read_unread,
    View.ld_unit_zero (S := S5000x2) p1_hz, View.ld_unit_zero (S := S2x64) p1_hz, View.ld_unit_zero (S := S1x64) p1_hz, View.ld_unit_zero (S := S5000x64) p1_hz]

/-- The node map of the blocks point `t` loads, at an entry, is the node map of the arrays at the entry
    5000·t rows further down. -/
theorem blk1_h (t : Fin cfg1.N) (j : S5000x64.Idx) (i' : S50000x64.Idx)
    (e0 : (i' 0).val = t.val * 5000 + (j 0).val) (e1 : (i' 1).val = (j 1).val) :
    hpre (iblk1 (F := Ideal) V c 0 t) (iblk1 V c 1 t) (iblk1 V c 2 t) (row (iblk1 V c 3 t)) j = hpre (V c (Pipeline.arrRef spec1 0)) (V c (Pipeline.arrRef spec1 1)) (V c (Pipeline.arrRef spec1 2)) (row (V c (Pipeline.arrRef spec1 3))) i' := by
  obtain ⟨a0, a1, b0, b1, w0, w1, r0, r1, o0, o1, s0, s1, q0, q1⟩ := idx1 t
  refine hpre_congr (N := 5000) (N' := 50000) (C := 2) (H := 64) (iblk1 V c 0 t) (iblk1 V c 1 t) (V c (Pipeline.arrRef spec1 0)) (V c (Pipeline.arrRef spec1 1))
    (iblk1 V c 2 t) (V c (Pipeline.arrRef spec1 2)) (row (iblk1 V c 3 t)) (row (V c (Pipeline.arrRef spec1 3))) j i' ?_ ?_ ?_ ?_
  · intro q
    show (V c (Pipeline.arrRef spec1 0)) (((cfg1.win 0).blk t).view.emb (ix2 (j 0) q)) = (V c (Pipeline.arrRef spec1 0)) (ix2 (i' 0) q)
    refine congrArg _ (funext fun a => Fin.ext ?_)
    match a with
    | ⟨0, _⟩ => show win1_0.index t (0 : Fin 2) * 5000 + 1 * (j 0).val = (i' 0).val; omega
    | ⟨1, _⟩ => show win1_0.index t (1 : Fin 2) * 2 + 1 * q.val = q.val; omega
  · intro q
    show (V c (Pipeline.arrRef spec1 1)) (((cfg1.win 1).blk t).view.emb (ix2 (j 0) q)) = (V c (Pipeline.arrRef spec1 1)) (ix2 (i' 0) q)
    refine congrArg _ (funext fun a => Fin.ext ?_)
    match a with
    | ⟨0, _⟩ => show win1_1.index t (0 : Fin 2) * 5000 + 1 * (j 0).val = (i' 0).val; omega
    | ⟨1, _⟩ => show win1_1.index t (1 : Fin 2) * 2 + 1 * q.val = q.val; omega
  · intro q
    show (V c (Pipeline.arrRef spec1 2)) (((cfg1.win 2).blk t).view.emb (ix2 q (j 1))) = (V c (Pipeline.arrRef spec1 2)) (ix2 q (i' 1))
    refine congrArg _ (funext fun a => Fin.ext ?_)
    match a with
    | ⟨0, _⟩ => show win1_2.index t (0 : Fin 2) * 2 + 1 * q.val = q.val; omega
    | ⟨1, _⟩ => show win1_2.index t (1 : Fin 2) * 64 + 1 * (j 1).val = (i' 1).val; omega
  · show (V c (Pipeline.arrRef spec1 3)) (((cfg1.win 3).blk t).view.emb (ix2 0 (j 1))) = (V c (Pipeline.arrRef spec1 3)) (ix2 0 (i' 1))
    refine congrArg _ (funext fun a => Fin.ext ?_)
    match a with
    | ⟨0, _⟩ => show win1_3.index t (0 : Fin 2) * 1 + 1 * 0 = 0; omega
    | ⟨1, _⟩ => show win1_3.index t (1 : Fin 2) * 64 + 1 * (j 1).val = (i' 1).val; omega

set_option maxHeartbeats 2000000 in
/-- After every point the node map's buffer holds the node map of the point's blocks. -/
theorem outs1_h (t : Fin cfg1.N) (j : S5000x64.Idx) : (outsAt1 (F := Ideal) V c t.val t.isLt).1 j = k1_pay3 (iblk1 V c 0 t) (iblk1 V c 1 t) (iblk1 V c 2 t) (iblk1 V c 3 t) j := by
  by_cases h0 : t.val % 10 = 0
  · rw [outsAt1_A V c t h0]
    dsimp only
    rw [outA1_4]
  · rw [outsAt1_B V c t h0]
    dsimp only
    rw [outB1_4]

/-- The block point `t` adds to the first accumulator, at column j: block t's column total of the node map. -/
theorem blk1_s (t : Fin cfg1.N) (j : Fin 64) :
    ∑ r : Fin 5000, hpre (iblk1 (F := Ideal) V c 0 t) (iblk1 V c 1 t) (iblk1 V c 2 t) (row (iblk1 V c 3 t)) (ix2 r j)
      = p1_blkTot (hpre (V c (Pipeline.arrRef spec1 0)) (V c (Pipeline.arrRef spec1 1)) (V c (Pipeline.arrRef spec1 2)) (row (V c (Pipeline.arrRef spec1 3)))) j t.val := by
  have hN : t.val < 10 := lt_of_lt_of_eq t.isLt (show cfg1.N = 10 from N_1)
  rw [p1_blkTot_eq _ _ _ hN]
  exact Finset.sum_congr rfl fun r _ => blk1_h V c t (ix2 r j) (ix2 ⟨t.val * 5000 + r.val, Cert.SumBlocks.block_lt (a := 10) (b := 5000) ⟨t.val, hN⟩ r⟩ j) rfl rfl

/-- The same for the squares. -/
theorem blk1_q (t : Fin cfg1.N) (j : Fin 64) :
    ∑ r : Fin 5000, hpre (iblk1 (F := Ideal) V c 0 t) (iblk1 V c 1 t) (iblk1 V c 2 t) (row (iblk1 V c 3 t)) (ix2 r j)
        * hpre (iblk1 (F := Ideal) V c 0 t) (iblk1 V c 1 t) (iblk1 V c 2 t) (row (iblk1 V c 3 t)) (ix2 r j)
      = p1_blkTot (fun i => hpre (V c (Pipeline.arrRef spec1 0)) (V c (Pipeline.arrRef spec1 1)) (V c (Pipeline.arrRef spec1 2)) (row (V c (Pipeline.arrRef spec1 3))) i * hpre (V c (Pipeline.arrRef spec1 0)) (V c (Pipeline.arrRef spec1 1)) (V c (Pipeline.arrRef spec1 2)) (row (V c (Pipeline.arrRef spec1 3))) i) j t.val := by
  have hN : t.val < 10 := lt_of_lt_of_eq t.isLt (show cfg1.N = 10 from N_1)
  rw [p1_blkTot_eq _ _ _ hN]
  exact Finset.sum_congr rfl fun r _ => by rw [blk1_h V c t (ix2 r j) (ix2 ⟨t.val * 5000 + r.val, Cert.SumBlocks.block_lt (a := 10) (b := 5000) ⟨t.val, hN⟩ r⟩ j) rfl rfl]

set_option maxHeartbeats 2000000 in
/-- After point n the first accumulator holds, at column j, the zero word plus the column totals of blocks 0..n:
    by induction on the point, the first point storing the zero block first, a later one adding to what the
    point before left. -/
theorem outs1_s (j : Fin 64) : ∀ (n : ℕ) (t : Fin cfg1.N), t.val = n →
    (outsAt1 (F := Ideal) V c t.val t.isLt).2.1 (ix2 ⟨0, Nat.one_pos⟩ j)
      = wZero + ∑ x ∈ Finset.range (t.val + 1), p1_blkTot (hpre (V c (Pipeline.arrRef spec1 0)) (V c (Pipeline.arrRef spec1 1)) (V c (Pipeline.arrRef spec1 2)) (row (V c (Pipeline.arrRef spec1 3)))) j x
  | 0, t, ht => by
    have h0 : t.val % 10 = 0 := by omega
    rw [outsAt1_A V c t h0]
    dsimp only
    rw [outA1_5, pass1_pay1_s, blk1_s V c t j, Finset.sum_range_succ, ht, Finset.sum_range_zero, zero_add]
    rfl
  | n + 1, t, ht => by
    have hN : cfg1.N = 10 := N_1
    have hlt : t.val < cfg1.N := t.isLt
    have hB : ¬t.val % 10 = 0 := by omega
    rw [outsAt1_B V c t hB]
    dsimp only
    rw [outB1_5, pass1_pay1_s, blk1_s V c t j]
    have ih := outs1_s j n ⟨t.val - 1, Nat.lt_of_le_of_lt (Nat.sub_le _ _) t.isLt⟩ (by show t.val - 1 = n; omega)
    refine (congrArg (fun s => s + p1_blkTot (hpre (V c (Pipeline.arrRef spec1 0)) (V c (Pipeline.arrRef spec1 1)) (V c (Pipeline.arrRef spec1 2)) (row (V c (Pipeline.arrRef spec1 3)))) j t.val) ih).trans ?_
    dsimp only
    rw [show t.val - 1 + 1 = t.val from by omega, Finset.sum_range_succ _ t.val, add_assoc]

set_option maxHeartbeats 2000000 in
/-- After point n the second accumulator holds the same of the squares. -/
theorem outs1_q (j : Fin 64) : ∀ (n : ℕ) (t : Fin cfg1.N), t.val = n →
    (outsAt1 (F := Ideal) V c t.val t.isLt).2.2 (ix2 ⟨0, Nat.one_pos⟩ j)
      = wZero + ∑ x ∈ Finset.range (t.val + 1), p1_blkTot (fun i => hpre (V c (Pipeline.arrRef spec1 0)) (V c (Pipeline.arrRef spec1 1)) (V c (Pipeline.arrRef spec1 2)) (row (V c (Pipeline.arrRef spec1 3))) i * hpre (V c (Pipeline.arrRef spec1 0)) (V c (Pipeline.arrRef spec1 1)) (V c (Pipeline.arrRef spec1 2)) (row (V c (Pipeline.arrRef spec1 3))) i) j x
  | 0, t, ht => by
    have h0 : t.val % 10 = 0 := by omega
    rw [outsAt1_A V c t h0]
    dsimp only
    rw [outA1_6, pass1_pay1_q, blk1_q V c t j, Finset.sum_range_succ, ht, Finset.sum_range_zero, zero_add]
    rfl
  | n + 1, t, ht => by
    have hN : cfg1.N = 10 := N_1
    have hlt : t.val < cfg1.N := t.isLt
    have hB : ¬t.val % 10 = 0 := by omega
    rw [outsAt1_B V c t hB]
    dsimp only
    rw [outB1_6, pass1_pay1_q, blk1_q V c t j]
    have ih := outs1_q j n ⟨t.val - 1, Nat.lt_of_le_of_lt (Nat.sub_le _ _) t.isLt⟩ (by show t.val - 1 = n; omega)
    refine (congrArg (fun s => s + p1_blkTot (fun i => hpre (V c (Pipeline.arrRef spec1 0)) (V c (Pipeline.arrRef spec1 1)) (V c (Pipeline.arrRef spec1 2)) (row (V c (Pipeline.arrRef spec1 3))) i * hpre (V c (Pipeline.arrRef spec1 0)) (V c (Pipeline.arrRef spec1 1)) (V c (Pipeline.arrRef spec1 2)) (row (V c (Pipeline.arrRef spec1 3))) i) j t.val) ih).trans ?_
    dsimp only
    rw [show t.val - 1 + 1 = t.val from by omega, Finset.sum_range_succ _ t.val, add_assoc]

/-- What point `t` writes back is block `t` of the node map of the arrays the region finds. -/
theorem flushed1_4 (t : Fin cfg1.N) :
    (dat1 (F := Ideal) V c).flushed 4 t = ((cfg1.win 4).blk t).view.read (Elt Ideal) (hpre (V c (Pipeline.arrRef spec1 0)) (V c (Pipeline.arrRef spec1 1)) (V c (Pipeline.arrRef spec1 2)) (row (V c (Pipeline.arrRef spec1 3)))) := by
  show (cfg1.win 4).cut (grid1.coords t) ((dat1 V c).after 4 t) = _
  rw [after1_4]
  obtain ⟨a0, a1, b0, b1, w0, w1, r0, r1, o0, o1, s0, s1, q0, q1⟩ := idx1 t
  funext j
  refine (outs1_h V c t j).trans ?_
  refine (pass1_pay1_h (iblk1 V c 0 t) (iblk1 V c 1 t) (iblk1 V c 2 t) (iblk1 V c 3 t) j).trans ?_
  refine blk1_h V c t j (((cfg1.win 4).blk t).view.emb j) ?_ ?_
  · show win1_4.index t (0 : Fin 2) * 5000 + 1 * (j 0).val = t.val * 5000 + (j 0).val; omega
  · show win1_4.index t (1 : Fin 2) * 64 + 1 * (j 1).val = (j 1).val; omega

/-- An entry of the node map's array is in point `t`'s block iff each coordinate is in the block's range. -/
theorem mem_blk1_4 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v17_0).slice (win1_4.rect t)).set ↔ _
  rw [View.set_slice_whole, Rect.mem_set_unit]
  exact Iff.rfl

/-- Every row of the node map lies in the block of the point its number over 5000 names. -/
theorem cover1_4 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  have hN : cfg1.N = 10 := N_1
  refine ⟨⟨(i 0).val / 5000, by rw [hN]; omega⟩, flush1_4 _, ?_⟩
  rw [mem_blk1_4]
  obtain ⟨a0, a1, b0, b1, w0, w1, r0, r1, o0, o1, s0, s1, q0, q1⟩ := idx1 ⟨(i 0).val / 5000, by rw [hN]; omega⟩
  intro a
  match a with
  | ⟨0, _⟩ => show win1_4.index _ (0 : Fin 2) * 5000 ≤ (i 0).val ∧ (i 0).val < win1_4.index _ (0 : Fin 2) * 5000 + 5000; rw [o0]; dsimp only; omega
  | ⟨1, _⟩ => show win1_4.index _ (1 : Fin 2) * 64 ≤ (i 1).val ∧ (i 1).val < win1_4.index _ (1 : Fin 2) * 64 + 64; rw [o1]; omega

/-- The node map's array after region 1: the node map of its four operands. -/
theorem pass1_1_h_val : ((dat1 (F := Ideal) V c).arrAt 4 cfg1.N : Arr2 50000 64) = hpre (V c (Pipeline.arrRef spec1 0)) (V c (Pipeline.arrRef spec1 1)) (V c (Pipeline.arrRef spec1 2)) (row (V c (Pipeline.arrRef spec1 3))) :=
  (dat1 (F := Ideal) V c).arrAt_eq_of_cover 4 _ (fun t _ => flushed1_4 V c t) (cover1_4)

/-- The one write-back of the first accumulator, at the last point, writes the column totals. -/
theorem flushed1_5 (t : Fin cfg1.N) (hf : (cfg1.win 5).flush t = true) :
    (dat1 (F := Ideal) V c).flushed 5 t = ((cfg1.win 5).blk t).view.read (Elt Ideal)
      (fun i : S1x64.Idx => colSum (hpre (V c (Pipeline.arrRef spec1 0)) (V c (Pipeline.arrRef spec1 1)) (V c (Pipeline.arrRef spec1 2)) (row (V c (Pipeline.arrRef spec1 3)))) (i 1)) := by
  have hN : cfg1.N = 10 := N_1
  have h9 : t.val = 9 := by have := (flush1_5 t).mp hf; have := t.isLt; omega
  obtain ⟨a0, a1, b0, b1, w0, w1, r0, r1, o0, o1, s0, s1, q0, q1⟩ := idx1 t
  show (cfg1.win 5).cut (grid1.coords t) ((dat1 V c).after 5 t) = _
  rw [after1_5]
  funext i
  show (outsAt1 (F := Ideal) V c t.val t.isLt).2.1 i = colSum (hpre (V c (Pipeline.arrRef spec1 0)) (V c (Pipeline.arrRef spec1 1)) (V c (Pipeline.arrRef spec1 2)) (row (V c (Pipeline.arrRef spec1 3)))) ((((cfg1.win 5).blk t).view.emb i) 1)
  have hi : i = ix2 ⟨0, Nat.one_pos⟩ (i 1) := p1_row_idx i
  have he : (((cfg1.win 5).blk t).view.emb i) 1 = i 1 :=
    Fin.ext (by show win1_5.index t (1 : Fin 2) * 64 + 1 * (i 1).val = (i 1).val; omega)
  refine (congrArg (outsAt1 (F := Ideal) V c t.val t.isLt).2.1 hi).trans ?_
  refine (outs1_s V c (i 1) t.val t rfl).trans ?_
  rw [he, h9]
  exact p1_acc_total _ _

/-- The same for the accumulator of squares. -/
theorem flushed1_6 (t : Fin cfg1.N) (hf : (cfg1.win 6).flush t = true) :
    (dat1 (F := Ideal) V c).flushed 6 t = ((cfg1.win 6).blk t).view.read (Elt Ideal)
      (fun i : S1x64.Idx => colSum (fun j => hpre (V c (Pipeline.arrRef spec1 0)) (V c (Pipeline.arrRef spec1 1)) (V c (Pipeline.arrRef spec1 2)) (row (V c (Pipeline.arrRef spec1 3))) j * hpre (V c (Pipeline.arrRef spec1 0)) (V c (Pipeline.arrRef spec1 1)) (V c (Pipeline.arrRef spec1 2)) (row (V c (Pipeline.arrRef spec1 3))) j) (i 1)) := by
  have hN : cfg1.N = 10 := N_1
  have h9 : t.val = 9 := by have := (flush1_6 t).mp hf; have := t.isLt; omega
  obtain ⟨a0, a1, b0, b1, w0, w1, r0, r1, o0, o1, s0, s1, q0, q1⟩ := idx1 t
  show (cfg1.win 6).cut (grid1.coords t) ((dat1 V c).after 6 t) = _
  rw [after1_6]
  funext i
  show (outsAt1 (F := Ideal) V c t.val t.isLt).2.2 i
    = colSum (fun j => hpre (V c (Pipeline.arrRef spec1 0)) (V c (Pipeline.arrRef spec1 1)) (V c (Pipeline.arrRef spec1 2)) (row (V c (Pipeline.arrRef spec1 3))) j * hpre (V c (Pipeline.arrRef spec1 0)) (V c (Pipeline.arrRef spec1 1)) (V c (Pipeline.arrRef spec1 2)) (row (V c (Pipeline.arrRef spec1 3))) j) ((((cfg1.win 6).blk t).view.emb i) 1)
  have hi : i = ix2 ⟨0, Nat.one_pos⟩ (i 1) := p1_row_idx i
  have he : (((cfg1.win 6).blk t).view.emb i) 1 = i 1 :=
    Fin.ext (by show win1_6.index t (1 : Fin 2) * 64 + 1 * (i 1).val = (i 1).val; omega)
  refine (congrArg (outsAt1 (F := Ideal) V c t.val t.isLt).2.2 hi).trans ?_
  refine (outs1_q V c (i 1) t.val t rfl).trans ?_
  rw [he, h9]
  exact p1_acc_total _ _

/-- The last point's block of an accumulator is the whole one-row array. -/
theorem cover1_5 (i : S1x64.Idx) : ∃ t : Fin cfg1.N, (cfg1.win 5).flush t = true ∧ i ∈ ((cfg1.win 5).blk t).view.set := by
  have hi0 : (i 0).val < 1 := (i 0).isLt
  have hi1 : (i 1).val < 64 := (i 1).isLt
  refine ⟨t1_9, (flush1_5 t1_9).mpr rfl, ?_⟩
  obtain ⟨a0, a1, b0, b1, w0, w1, r0, r1, o0, o1, s0, s1, q0, q1⟩ := idx1 t1_9
  show i ∈ ((View.whole main_v17_1).slice (win1_5.rect t1_9)).set
  rw [View.set_slice_whole, Rect.mem_set_unit]
  intro a
  match a with
  | ⟨0, _⟩ => show win1_5.index t1_9 (0 : Fin 2) * 1 ≤ (i 0).val ∧ (i 0).val < win1_5.index t1_9 (0 : Fin 2) * 1 + 1; rw [s0]; omega
  | ⟨1, _⟩ => show win1_5.index t1_9 (1 : Fin 2) * 64 ≤ (i 1).val ∧ (i 1).val < win1_5.index t1_9 (1 : Fin 2) * 64 + 64; rw [s1]; omega

theorem cover1_6 (i : S1x64.Idx) : ∃ t : Fin cfg1.N, (cfg1.win 6).flush t = true ∧ i ∈ ((cfg1.win 6).blk t).view.set := by
  have hi0 : (i 0).val < 1 := (i 0).isLt
  have hi1 : (i 1).val < 64 := (i 1).isLt
  refine ⟨t1_9, (flush1_6 t1_9).mpr rfl, ?_⟩
  obtain ⟨a0, a1, b0, b1, w0, w1, r0, r1, o0, o1, s0, s1, q0, q1⟩ := idx1 t1_9
  show i ∈ ((View.whole main_v17_2).slice (win1_6.rect t1_9)).set
  rw [View.set_slice_whole, Rect.mem_set_unit]
  intro a
  match a with
  | ⟨0, _⟩ => show win1_6.index t1_9 (0 : Fin 2) * 1 ≤ (i 0).val ∧ (i 0).val < win1_6.index t1_9 (0 : Fin 2) * 1 + 1; rw [q0]; omega
  | ⟨1, _⟩ => show win1_6.index t1_9 (1 : Fin 2) * 64 ≤ (i 1).val ∧ (i 1).val < win1_6.index t1_9 (1 : Fin 2) * 64 + 64; rw [q1]; omega

/-- The two accumulator arrays after region 1: the column totals of the node map and of its squares. -/
theorem pass1_1_s_val : ((dat1 (F := Ideal) V c).arrAt 5 cfg1.N : Arr2 1 64) = fun i => colSum (hpre (V c (Pipeline.arrRef spec1 0)) (V c (Pipeline.arrRef spec1 1)) (V c (Pipeline.arrRef spec1 2)) (row (V c (Pipeline.arrRef spec1 3)))) (i 1) :=
  (dat1 (F := Ideal) V c).arrAt_eq_of_cover 5 _ (flushed1_5 V c) (cover1_5)

theorem pass1_1_q_val : ((dat1 (F := Ideal) V c).arrAt 6 cfg1.N : Arr2 1 64) = fun i => colSum (fun j => hpre (V c (Pipeline.arrRef spec1 0)) (V c (Pipeline.arrRef spec1 1)) (V c (Pipeline.arrRef spec1 2)) (row (V c (Pipeline.arrRef spec1 3))) j * hpre (V c (Pipeline.arrRef spec1 0)) (V c (Pipeline.arrRef spec1 1)) (V c (Pipeline.arrRef spec1 2)) (row (V c (Pipeline.arrRef spec1 3))) j) (i 1) :=
  (dat1 (F := Ideal) V c).arrAt_eq_of_cover 6 _ (flushed1_6 V c) (cover1_6)

/-! ## Region 4 -/

/-- The block maps of region 4, decided over its 10 points: the two row operands and the node map move down
    with the point; the weight, the bias and the two accumulators stay. -/
theorem idx4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- What the first point's body leaves in the node map's buffer: the node map of the loaded blocks. -/
theorem outA4_4 (c : Dev nD) (i : grid4.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond4_0 i) (x0 x1 : Vec Ideal S5000x64 .f32) (x2 : Vec Ideal S64x64 .f32) (x3 : Vec Ideal S1x64 .f32) :
    out4_A_4 (F := Ideal) c i a1 h1 a2 h2 a3 h3 a4 h4 a5 h5 a6 h6 a7 h7 hc x0 x1 x2 x3 = k4_pay3 x0 x1 x2 x3 := by
  unfold out4_A_4
  rw [View.read_writes_eq_canon _ _ _ (cover4_A_4 c i a1 h1 a2 h2 a3 h3 a4 h4 a5 h5 a6 h6 a7 h7 hc x0 x1 x2 x3)]
  unfold kernelRun4_A
  dsimp only
  rw [View.canon_unit_zero (S := S5000x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- What a later point's body leaves there: the same. -/
theorem outB4_4 (c : Dev nD) (i : grid4.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond4_0 i) (x0 x1 : Vec Ideal S5000x64 .f32) (x2 : Vec Ideal S64x64 .f32) (x3 : Vec Ideal S1x64 .f32) (xo5 xo6 : Vec Ideal S1x64 .f32) :
    out4_B_4 (F := Ideal) c i a1 h1 a2 h2 a3 h3 a4 h4 a5 h5 a6 h6 a7 h7 hc x0 x1 x2 x3 xo5 xo6 = k4_pay3 x0 x1 x2 x3 := by
  unfold out4_B_4
  rw [View.read_writes_eq_canon _ _ _ (cover4_B_4 c i a1 h1 a2 h2 a3 h3 a4 h4 a5 h5 a6 h6 a7 h7 hc x0 x1 x2 x3 xo5 xo6)]
  unfold kernelRun4_B
  dsimp only
  rw [View.canon_unit_zero (S := S5000x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- What the first point's body leaves in the first accumulator: the zero block plus the block's totals. -/
theorem outA4_5 (c : Dev nD) (i : grid4.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond4_0 i) (x0 x1 : Vec Ideal S5000x64 .f32) (x2 : Vec Ideal S64x64 .f32) (x3 : Vec Ideal S1x64 .f32) :
    out4_A_5 (F := Ideal) c i a1 h1 a2 h2 a3 h3 a4 h4 a5 h5 a6 h6 a7 h7 hc x0 x1 x2 x3 = k4_pay4 x0 x1 x2 x3 (k4_pay1 (F := Ideal)) := by
  unfold out4_A_5
  rw [View.read_writes_eq_canon _ _ _ (cover4_A_5 c i a1 h1 a2 h2 a3 h3 a4 h4 a5 h5 a6 h6 a7 h7 hc x0 x1 x2 x3)]
  unfold kernelRun4_A
  dsimp only
  sl_unfold_words
  rw [View.canon_cons_unit_zero (S := S1x64) p1_hz, View.readCov_unit_zero (S := S1x64) _ p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- What a later point's body leaves there: what it held plus the block's totals. -/
theorem outB4_5 (c : Dev nD) (i : grid4.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond4_0 i) (x0 x1 : Vec Ideal S5000x64 .f32) (x2 : Vec Ideal S64x64 .f32) (x3 : Vec Ideal S1x64 .f32) (xo5 xo6 : Vec Ideal S1x64 .f32) :
    out4_B_5 (F := Ideal) c i a1 h1 a2 h2 a3 h3 a4 h4 a5 h5 a6 h6 a7 h7 hc x0 x1 x2 x3 xo5 xo6 = k4_pay4 x0 x1 x2 x3 xo5 := by
  unfold out4_B_5
  rw [View.read_writes_eq_canon _ _ _ (cover4_B_5 c i a1 h1 a2 h2 a3 h3 a4 h4 a5 h5 a6 h6 a7 h7 hc x0 x1 x2 x3 xo5 xo6)]
  unfold kernelRun4_B
  dsimp only
  rw [View.canon_unit_zero (S := S1x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- The same for the accumulator of squares. -/
theorem outA4_6 (c : Dev nD) (i : grid4.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond4_0 i) (x0 x1 : Vec Ideal S5000x64 .f32) (x2 : Vec Ideal S64x64 .f32) (x3 : Vec Ideal S1x64 .f32) :
    out4_A_6 (F := Ideal) c i a1 h1 a2 h2 a3 h3 a4 h4 a5 h5 a6 h6 a7 h7 hc x0 x1 x2 x3 = k4_pay5 x0 x1 x2 x3 (k4_pay2 (F := Ideal)) := by
  unfold out4_A_6
  rw [View.read_writes_eq_canon _ _ _ (cover4_A_6 c i a1 h1 a2 h2 a3 h3 a4 h4 a5 h5 a6 h6 a7 h7 hc x0 x1 x2 x3)]
  unfold kernelRun4_A
  dsimp only
  sl_unfold_words
  rw [View.canon_cons_unit_zero (S := S1x64) p1_hz, View.readCov_unit_zero (S := S1x64) _ p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

theorem outB4_6 (c : Dev nD) (i : grid4.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond4_0 i) (x0 x1 : Vec Ideal S5000x64 .f32) (x2 : Vec Ideal S64x64 .f32) (x3 : Vec Ideal S1x64 .f32) (xo5 xo6 : Vec Ideal S1x64 .f32) :
    out4_B_6 (F := Ideal) c i a1 h1 a2 h2 a3 h3 a4 h4 a5 h5 a6 h6 a7 h7 hc x0 x1 x2 x3 xo5 xo6 = k4_pay5 x0 x1 x2 x3 xo6 := by
  unfold out4_B_6
  rw [View.read_writes_eq_canon _ _ _ (cover4_B_6 c i a1 h1 a2 h2 a3 h3 a4 h4 a5 h5 a6 h6 a7 h7 hc x0 x1 x2 x3 xo5 xo6)]
  unfold kernelRun4_B
  dsimp only
  rw [View.canon_unit_zero (S := S1x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- The node map of the blocks point `t` loads, at an entry, is the node map of the arrays at the entry
    5000·t rows further down. -/
theorem blk4_h (t : Fin cfg4.N) (j : S5000x64.Idx) (i' : S50000x64.Idx)
    (e0 : (i' 0).val = t.val * 5000 + (j 0).val) (e1 : (i' 1).val = (j 1).val) :
    hpre (iblk4 (F := Ideal) V c 0 t) (iblk4 V c 1 t) (iblk4 V c 2 t) (row (iblk4 V c 3 t)) j = hpre (V c (Pipeline.arrRef spec4 0)) (V c (Pipeline.arrRef spec4 1)) (V c (Pipeline.arrRef spec4 2)) (row (V c (Pipeline.arrRef spec4 3))) i' := by
  obtain ⟨a0, a1, b0, b1, w0, w1, r0, r1, o0, o1, s0, s1, q0, q1⟩ := idx4 t
  refine hpre_congr (N := 5000) (N' := 50000) (C := 64) (H := 64) (iblk4 V c 0 t) (iblk4 V c 1 t) (V c (Pipeline.arrRef spec4 0)) (V c (Pipeline.arrRef spec4 1))
    (iblk4 V c 2 t) (V c (Pipeline.arrRef spec4 2)) (row (iblk4 V c 3 t)) (row (V c (Pipeline.arrRef spec4 3))) j i' ?_ ?_ ?_ ?_
  · intro q
    show (V c (Pipeline.arrRef spec4 0)) (((cfg4.win 0).blk t).view.emb (ix2 (j 0) q)) = (V c (Pipeline.arrRef spec4 0)) (ix2 (i' 0) q)
    refine congrArg _ (funext fun a => Fin.ext ?_)
    match a with
    | ⟨0, _⟩ => show win4_0.index t (0 : Fin 2) * 5000 + 1 * (j 0).val = (i' 0).val; omega
    | ⟨1, _⟩ => show win4_0.index t (1 : Fin 2) * 64 + 1 * q.val = q.val; omega
  · intro q
    show (V c (Pipeline.arrRef spec4 1)) (((cfg4.win 1).blk t).view.emb (ix2 (j 0) q)) = (V c (Pipeline.arrRef spec4 1)) (ix2 (i' 0) q)
    refine congrArg _ (funext fun a => Fin.ext ?_)
    match a with
    | ⟨0, _⟩ => show win4_1.index t (0 : Fin 2) * 5000 + 1 * (j 0).val = (i' 0).val; omega
    | ⟨1, _⟩ => show win4_1.index t (1 : Fin 2) * 64 + 1 * q.val = q.val; omega
  · intro q
    show (V c (Pipeline.arrRef spec4 2)) (((cfg4.win 2).blk t).view.emb (ix2 q (j 1))) = (V c (Pipeline.arrRef spec4 2)) (ix2 q (i' 1))
    refine congrArg _ (funext fun a => Fin.ext ?_)
    match a with
    | ⟨0, _⟩ => show win4_2.index t (0 : Fin 2) * 64 + 1 * q.val = q.val; omega
    | ⟨1, _⟩ => show win4_2.index t (1 : Fin 2) * 64 + 1 * (j 1).val = (i' 1).val; omega
  · show (V c (Pipeline.arrRef spec4 3)) (((cfg4.win 3).blk t).view.emb (ix2 0 (j 1))) = (V c (Pipeline.arrRef spec4 3)) (ix2 0 (i' 1))
    refine congrArg _ (funext fun a => Fin.ext ?_)
    match a with
    | ⟨0, _⟩ => show win4_3.index t (0 : Fin 2) * 1 + 1 * 0 = 0; omega
    | ⟨1, _⟩ => show win4_3.index t (1 : Fin 2) * 64 + 1 * (j 1).val = (i' 1).val; omega

set_option maxHeartbeats 2000000 in
/-- After every point the node map's buffer holds the node map of the point's blocks. -/
theorem outs4_h (t : Fin cfg4.N) (j : S5000x64.Idx) : (outsAt4 (F := Ideal) V c t.val t.isLt).1 j = k4_pay3 (iblk4 V c 0 t) (iblk4 V c 1 t) (iblk4 V c 2 t) (iblk4 V c 3 t) j := by
  by_cases h0 : t.val % 10 = 0
  · rw [outsAt4_A V c t h0]
    dsimp only
    rw [outA4_4]
  · rw [outsAt4_B V c t h0]
    dsimp only
    rw [outB4_4]

/-- The block point `t` adds to the first accumulator, at column j: block t's column total of the node map. -/
theorem blk4_s (t : Fin cfg4.N) (j : Fin 64) :
    ∑ r : Fin 5000, hpre (iblk4 (F := Ideal) V c 0 t) (iblk4 V c 1 t) (iblk4 V c 2 t) (row (iblk4 V c 3 t)) (ix2 r j)
      = p1_blkTot (hpre (V c (Pipeline.arrRef spec4 0)) (V c (Pipeline.arrRef spec4 1)) (V c (Pipeline.arrRef spec4 2)) (row (V c (Pipeline.arrRef spec4 3)))) j t.val := by
  have hN : t.val < 10 := lt_of_lt_of_eq t.isLt (show cfg4.N = 10 from N_4)
  rw [p1_blkTot_eq _ _ _ hN]
  exact Finset.sum_congr rfl fun r _ => blk4_h V c t (ix2 r j) (ix2 ⟨t.val * 5000 + r.val, Cert.SumBlocks.block_lt (a := 10) (b := 5000) ⟨t.val, hN⟩ r⟩ j) rfl rfl

/-- The same for the squares. -/
theorem blk4_q (t : Fin cfg4.N) (j : Fin 64) :
    ∑ r : Fin 5000, hpre (iblk4 (F := Ideal) V c 0 t) (iblk4 V c 1 t) (iblk4 V c 2 t) (row (iblk4 V c 3 t)) (ix2 r j)
        * hpre (iblk4 (F := Ideal) V c 0 t) (iblk4 V c 1 t) (iblk4 V c 2 t) (row (iblk4 V c 3 t)) (ix2 r j)
      = p1_blkTot (fun i => hpre (V c (Pipeline.arrRef spec4 0)) (V c (Pipeline.arrRef spec4 1)) (V c (Pipeline.arrRef spec4 2)) (row (V c (Pipeline.arrRef spec4 3))) i * hpre (V c (Pipeline.arrRef spec4 0)) (V c (Pipeline.arrRef spec4 1)) (V c (Pipeline.arrRef spec4 2)) (row (V c (Pipeline.arrRef spec4 3))) i) j t.val := by
  have hN : t.val < 10 := lt_of_lt_of_eq t.isLt (show cfg4.N = 10 from N_4)
  rw [p1_blkTot_eq _ _ _ hN]
  exact Finset.sum_congr rfl fun r _ => by rw [blk4_h V c t (ix2 r j) (ix2 ⟨t.val * 5000 + r.val, Cert.SumBlocks.block_lt (a := 10) (b := 5000) ⟨t.val, hN⟩ r⟩ j) rfl rfl]

set_option maxHeartbeats 2000000 in
/-- After point n the first accumulator holds, at column j, the zero word plus the column totals of blocks 0..n:
    by induction on the point, the first point storing the zero block first, a later one adding to what the
    point before left. -/
theorem outs4_s (j : Fin 64) : ∀ (n : ℕ) (t : Fin cfg4.N), t.val = n →
    (outsAt4 (F := Ideal) V c t.val t.isLt).2.1 (ix2 ⟨0, Nat.one_pos⟩ j)
      = wZero + ∑ x ∈ Finset.range (t.val + 1), p1_blkTot (hpre (V c (Pipeline.arrRef spec4 0)) (V c (Pipeline.arrRef spec4 1)) (V c (Pipeline.arrRef spec4 2)) (row (V c (Pipeline.arrRef spec4 3)))) j x
  | 0, t, ht => by
    have h0 : t.val % 10 = 0 := by omega
    rw [outsAt4_A V c t h0]
    dsimp only
    rw [outA4_5, pass1_pay4_s, blk4_s V c t j, Finset.sum_range_succ, ht, Finset.sum_range_zero, zero_add]
    rfl
  | n + 1, t, ht => by
    have hN : cfg4.N = 10 := N_4
    have hlt : t.val < cfg4.N := t.isLt
    have hB : ¬t.val % 10 = 0 := by omega
    rw [outsAt4_B V c t hB]
    dsimp only
    rw [outB4_5, pass1_pay4_s, blk4_s V c t j]
    have ih := outs4_s j n ⟨t.val - 1, Nat.lt_of_le_of_lt (Nat.sub_le _ _) t.isLt⟩ (by show t.val - 1 = n; omega)
    refine (congrArg (fun s => s + p1_blkTot (hpre (V c (Pipeline.arrRef spec4 0)) (V c (Pipeline.arrRef spec4 1)) (V c (Pipeline.arrRef spec4 2)) (row (V c (Pipeline.arrRef spec4 3)))) j t.val) ih).trans ?_
    dsimp only
    rw [show t.val - 1 + 1 = t.val from by omega, Finset.sum_range_succ _ t.val, add_assoc]

set_option maxHeartbeats 2000000 in
/-- After point n the second accumulator holds the same of the squares. -/
theorem outs4_q (j : Fin 64) : ∀ (n : ℕ) (t : Fin cfg4.N), t.val = n →
    (outsAt4 (F := Ideal) V c t.val t.isLt).2.2 (ix2 ⟨0, Nat.one_pos⟩ j)
      = wZero + ∑ x ∈ Finset.range (t.val + 1), p1_blkTot (fun i => hpre (V c (Pipeline.arrRef spec4 0)) (V c (Pipeline.arrRef spec4 1)) (V c (Pipeline.arrRef spec4 2)) (row (V c (Pipeline.arrRef spec4 3))) i * hpre (V c (Pipeline.arrRef spec4 0)) (V c (Pipeline.arrRef spec4 1)) (V c (Pipeline.arrRef spec4 2)) (row (V c (Pipeline.arrRef spec4 3))) i) j x
  | 0, t, ht => by
    have h0 : t.val % 10 = 0 := by omega
    rw [outsAt4_A V c t h0]
    dsimp only
    rw [outA4_6, pass1_pay4_q, blk4_q V c t j, Finset.sum_range_succ, ht, Finset.sum_range_zero, zero_add]
    rfl
  | n + 1, t, ht => by
    have hN : cfg4.N = 10 := N_4
    have hlt : t.val < cfg4.N := t.isLt
    have hB : ¬t.val % 10 = 0 := by omega
    rw [outsAt4_B V c t hB]
    dsimp only
    rw [outB4_6, pass1_pay4_q, blk4_q V c t j]
    have ih := outs4_q j n ⟨t.val - 1, Nat.lt_of_le_of_lt (Nat.sub_le _ _) t.isLt⟩ (by show t.val - 1 = n; omega)
    refine (congrArg (fun s => s + p1_blkTot (fun i => hpre (V c (Pipeline.arrRef spec4 0)) (V c (Pipeline.arrRef spec4 1)) (V c (Pipeline.arrRef spec4 2)) (row (V c (Pipeline.arrRef spec4 3))) i * hpre (V c (Pipeline.arrRef spec4 0)) (V c (Pipeline.arrRef spec4 1)) (V c (Pipeline.arrRef spec4 2)) (row (V c (Pipeline.arrRef spec4 3))) i) j t.val) ih).trans ?_
    dsimp only
    rw [show t.val - 1 + 1 = t.val from by omega, Finset.sum_range_succ _ t.val, add_assoc]

/-- What point `t` writes back is block `t` of the node map of the arrays the region finds. -/
theorem flushed4_4 (t : Fin cfg4.N) :
    (dat4 (F := Ideal) V c).flushed 4 t = ((cfg4.win 4).blk t).view.read (Elt Ideal) (hpre (V c (Pipeline.arrRef spec4 0)) (V c (Pipeline.arrRef spec4 1)) (V c (Pipeline.arrRef spec4 2)) (row (V c (Pipeline.arrRef spec4 3)))) := by
  show (cfg4.win 4).cut (grid4.coords t) ((dat4 V c).after 4 t) = _
  rw [after4_4]
  obtain ⟨a0, a1, b0, b1, w0, w1, r0, r1, o0, o1, s0, s1, q0, q1⟩ := idx4 t
  funext j
  refine (outs4_h V c t j).trans ?_
  refine (pass1_pay4_h (iblk4 V c 0 t) (iblk4 V c 1 t) (iblk4 V c 2 t) (iblk4 V c 3 t) j).trans ?_
  refine blk4_h V c t j (((cfg4.win 4).blk t).view.emb j) ?_ ?_
  · show win4_4.index t (0 : Fin 2) * 5000 + 1 * (j 0).val = t.val * 5000 + (j 0).val; omega
  · show win4_4.index t (1 : Fin 2) * 64 + 1 * (j 1).val = (j 1).val; omega

/-- An entry of the node map's array is in point `t`'s block iff each coordinate is in the block's range. -/
theorem mem_blk4_4 (t : Fin cfg4.N) (i : S50000x64.Idx) :
    i ∈ ((cfg4.win 4).blk t).view.set ↔ ∀ a : Fin 2, win4_4.index t a * S5000x64.size a ≤ (i a).val ∧ (i a).val < win4_4.index t a * S5000x64.size a + S5000x64.size a := by
  show i ∈ ((View.whole main_v57_0).slice (win4_4.rect t)).set ↔ _
  rw [View.set_slice_whole, Rect.mem_set_unit]
  exact Iff.rfl

/-- Every row of the node map lies in the block of the point its number over 5000 names. -/
theorem cover4_4 (i : S50000x64.Idx) : ∃ t : Fin cfg4.N, (cfg4.win 4).flush t = true ∧ i ∈ ((cfg4.win 4).blk t).view.set := by
  have hi0 : (i 0).val < 50000 := (i 0).isLt
  have hi1 : (i 1).val < 64 := (i 1).isLt
  have hN : cfg4.N = 10 := N_4
  refine ⟨⟨(i 0).val / 5000, by rw [hN]; omega⟩, flush4_4 _, ?_⟩
  rw [mem_blk4_4]
  obtain ⟨a0, a1, b0, b1, w0, w1, r0, r1, o0, o1, s0, s1, q0, q1⟩ := idx4 ⟨(i 0).val / 5000, by rw [hN]; omega⟩
  intro a
  match a with
  | ⟨0, _⟩ => show win4_4.index _ (0 : Fin 2) * 5000 ≤ (i 0).val ∧ (i 0).val < win4_4.index _ (0 : Fin 2) * 5000 + 5000; rw [o0]; dsimp only; omega
  | ⟨1, _⟩ => show win4_4.index _ (1 : Fin 2) * 64 ≤ (i 1).val ∧ (i 1).val < win4_4.index _ (1 : Fin 2) * 64 + 64; rw [o1]; omega

/-- The node map's array after region 4: the node map of its four operands. -/
theorem pass1_4_h_val : ((dat4 (F := Ideal) V c).arrAt 4 cfg4.N : Arr2 50000 64) = hpre (V c (Pipeline.arrRef spec4 0)) (V c (Pipeline.arrRef spec4 1)) (V c (Pipeline.arrRef spec4 2)) (row (V c (Pipeline.arrRef spec4 3))) :=
  (dat4 (F := Ideal) V c).arrAt_eq_of_cover 4 _ (fun t _ => flushed4_4 V c t) (cover4_4)

/-- The one write-back of the first accumulator, at the last point, writes the column totals. -/
theorem flushed4_5 (t : Fin cfg4.N) (hf : (cfg4.win 5).flush t = true) :
    (dat4 (F := Ideal) V c).flushed 5 t = ((cfg4.win 5).blk t).view.read (Elt Ideal)
      (fun i : S1x64.Idx => colSum (hpre (V c (Pipeline.arrRef spec4 0)) (V c (Pipeline.arrRef spec4 1)) (V c (Pipeline.arrRef spec4 2)) (row (V c (Pipeline.arrRef spec4 3)))) (i 1)) := by
  have hN : cfg4.N = 10 := N_4
  have h9 : t.val = 9 := by have := (flush4_5 t).mp hf; have := t.isLt; omega
  obtain ⟨a0, a1, b0, b1, w0, w1, r0, r1, o0, o1, s0, s1, q0, q1⟩ := idx4 t
  show (cfg4.win 5).cut (grid4.coords t) ((dat4 V c).after 5 t) = _
  rw [after4_5]
  funext i
  show (outsAt4 (F := Ideal) V c t.val t.isLt).2.1 i = colSum (hpre (V c (Pipeline.arrRef spec4 0)) (V c (Pipeline.arrRef spec4 1)) (V c (Pipeline.arrRef spec4 2)) (row (V c (Pipeline.arrRef spec4 3)))) ((((cfg4.win 5).blk t).view.emb i) 1)
  have hi : i = ix2 ⟨0, Nat.one_pos⟩ (i 1) := p1_row_idx i
  have he : (((cfg4.win 5).blk t).view.emb i) 1 = i 1 :=
    Fin.ext (by show win4_5.index t (1 : Fin 2) * 64 + 1 * (i 1).val = (i 1).val; omega)
  refine (congrArg (outsAt4 (F := Ideal) V c t.val t.isLt).2.1 hi).trans ?_
  refine (outs4_s V c (i 1) t.val t rfl).trans ?_
  rw [he, h9]
  exact p1_acc_total _ _

/-- The same for the accumulator of squares. -/
theorem flushed4_6 (t : Fin cfg4.N) (hf : (cfg4.win 6).flush t = true) :
    (dat4 (F := Ideal) V c).flushed 6 t = ((cfg4.win 6).blk t).view.read (Elt Ideal)
      (fun i : S1x64.Idx => colSum (fun j => hpre (V c (Pipeline.arrRef spec4 0)) (V c (Pipeline.arrRef spec4 1)) (V c (Pipeline.arrRef spec4 2)) (row (V c (Pipeline.arrRef spec4 3))) j * hpre (V c (Pipeline.arrRef spec4 0)) (V c (Pipeline.arrRef spec4 1)) (V c (Pipeline.arrRef spec4 2)) (row (V c (Pipeline.arrRef spec4 3))) j) (i 1)) := by
  have hN : cfg4.N = 10 := N_4
  have h9 : t.val = 9 := by have := (flush4_6 t).mp hf; have := t.isLt; omega
  obtain ⟨a0, a1, b0, b1, w0, w1, r0, r1, o0, o1, s0, s1, q0, q1⟩ := idx4 t
  show (cfg4.win 6).cut (grid4.coords t) ((dat4 V c).after 6 t) = _
  rw [after4_6]
  funext i
  show (outsAt4 (F := Ideal) V c t.val t.isLt).2.2 i
    = colSum (fun j => hpre (V c (Pipeline.arrRef spec4 0)) (V c (Pipeline.arrRef spec4 1)) (V c (Pipeline.arrRef spec4 2)) (row (V c (Pipeline.arrRef spec4 3))) j * hpre (V c (Pipeline.arrRef spec4 0)) (V c (Pipeline.arrRef spec4 1)) (V c (Pipeline.arrRef spec4 2)) (row (V c (Pipeline.arrRef spec4 3))) j) ((((cfg4.win 6).blk t).view.emb i) 1)
  have hi : i = ix2 ⟨0, Nat.one_pos⟩ (i 1) := p1_row_idx i
  have he : (((cfg4.win 6).blk t).view.emb i) 1 = i 1 :=
    Fin.ext (by show win4_6.index t (1 : Fin 2) * 64 + 1 * (i 1).val = (i 1).val; omega)
  refine (congrArg (outsAt4 (F := Ideal) V c t.val t.isLt).2.2 hi).trans ?_
  refine (outs4_q V c (i 1) t.val t rfl).trans ?_
  rw [he, h9]
  exact p1_acc_total _ _

/-- The last point's block of an accumulator is the whole one-row array. -/
theorem cover4_5 (i : S1x64.Idx) : ∃ t : Fin cfg4.N, (cfg4.win 5).flush t = true ∧ i ∈ ((cfg4.win 5).blk t).view.set := by
  have hi0 : (i 0).val < 1 := (i 0).isLt
  have hi1 : (i 1).val < 64 := (i 1).isLt
  refine ⟨t4_9, (flush4_5 t4_9).mpr rfl, ?_⟩
  obtain ⟨a0, a1, b0, b1, w0, w1, r0, r1, o0, o1, s0, s1, q0, q1⟩ := idx4 t4_9
  show i ∈ ((View.whole main_v57_1).slice (win4_5.rect t4_9)).set
  rw [View.set_slice_whole, Rect.mem_set_unit]
  intro a
  match a with
  | ⟨0, _⟩ => show win4_5.index t4_9 (0 : Fin 2) * 1 ≤ (i 0).val ∧ (i 0).val < win4_5.index t4_9 (0 : Fin 2) * 1 + 1; rw [s0]; omega
  | ⟨1, _⟩ => show win4_5.index t4_9 (1 : Fin 2) * 64 ≤ (i 1).val ∧ (i 1).val < win4_5.index t4_9 (1 : Fin 2) * 64 + 64; rw [s1]; omega

theorem cover4_6 (i : S1x64.Idx) : ∃ t : Fin cfg4.N, (cfg4.win 6).flush t = true ∧ i ∈ ((cfg4.win 6).blk t).view.set := by
  have hi0 : (i 0).val < 1 := (i 0).isLt
  have hi1 : (i 1).val < 64 := (i 1).isLt
  refine ⟨t4_9, (flush4_6 t4_9).mpr rfl, ?_⟩
  obtain ⟨a0, a1, b0, b1, w0, w1, r0, r1, o0, o1, s0, s1, q0, q1⟩ := idx4 t4_9
  show i ∈ ((View.whole main_v57_2).slice (win4_6.rect t4_9)).set
  rw [View.set_slice_whole, Rect.mem_set_unit]
  intro a
  match a with
  | ⟨0, _⟩ => show win4_6.index t4_9 (0 : Fin 2) * 1 ≤ (i 0).val ∧ (i 0).val < win4_6.index t4_9 (0 : Fin 2) * 1 + 1; rw [q0]; omega
  | ⟨1, _⟩ => show win4_6.index t4_9 (1 : Fin 2) * 64 ≤ (i 1).val ∧ (i 1).val < win4_6.index t4_9 (1 : Fin 2) * 64 + 64; rw [q1]; omega

/-- The two accumulator arrays after region 4: the column totals of the node map and of its squares. -/
theorem pass1_4_s_val : ((dat4 (F := Ideal) V c).arrAt 5 cfg4.N : Arr2 1 64) = fun i => colSum (hpre (V c (Pipeline.arrRef spec4 0)) (V c (Pipeline.arrRef spec4 1)) (V c (Pipeline.arrRef spec4 2)) (row (V c (Pipeline.arrRef spec4 3)))) (i 1) :=
  (dat4 (F := Ideal) V c).arrAt_eq_of_cover 5 _ (flushed4_5 V c) (cover4_5)

theorem pass1_4_q_val : ((dat4 (F := Ideal) V c).arrAt 6 cfg4.N : Arr2 1 64) = fun i => colSum (fun j => hpre (V c (Pipeline.arrRef spec4 0)) (V c (Pipeline.arrRef spec4 1)) (V c (Pipeline.arrRef spec4 2)) (row (V c (Pipeline.arrRef spec4 3))) j * hpre (V c (Pipeline.arrRef spec4 0)) (V c (Pipeline.arrRef spec4 1)) (V c (Pipeline.arrRef spec4 2)) (row (V c (Pipeline.arrRef spec4 3))) j) (i 1) :=
  (dat4 (F := Ideal) V c).arrAt_eq_of_cover 6 _ (flushed4_6 V c) (cover4_6)

/-! ## Region 7 -/

/-- The block maps of region 7, decided over its 10 points: the two row operands and the node map move down
    with the point; the weight, the bias and the two accumulators stay. -/
theorem idx7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0 :=
  (by decide +kernel : ∀ t : Fin grid7.N, _)

/-- What the first point's body leaves in the node map's buffer: the node map of the loaded blocks. -/
theorem outA7_4 (c : Dev nD) (i : grid7.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond7_0 i) (x0 x1 : Vec Ideal S5000x64 .f32) (x2 : Vec Ideal S64x64 .f32) (x3 : Vec Ideal S1x64 .f32) :
    out7_A_4 (F := Ideal) c i a1 h1 a2 h2 a3 h3 a4 h4 a5 h5 a6 h6 a7 h7 hc x0 x1 x2 x3 = k7_pay3 x0 x1 x2 x3 := by
  unfold out7_A_4
  rw [View.read_writes_eq_canon _ _ _ (cover7_A_4 c i a1 h1 a2 h2 a3 h3 a4 h4 a5 h5 a6 h6 a7 h7 hc x0 x1 x2 x3)]
  unfold kernelRun7_A
  dsimp only
  rw [View.canon_unit_zero (S := S5000x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- What a later point's body leaves there: the same. -/
theorem outB7_4 (c : Dev nD) (i : grid7.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond7_0 i) (x0 x1 : Vec Ideal S5000x64 .f32) (x2 : Vec Ideal S64x64 .f32) (x3 : Vec Ideal S1x64 .f32) (xo5 xo6 : Vec Ideal S1x64 .f32) :
    out7_B_4 (F := Ideal) c i a1 h1 a2 h2 a3 h3 a4 h4 a5 h5 a6 h6 a7 h7 hc x0 x1 x2 x3 xo5 xo6 = k7_pay3 x0 x1 x2 x3 := by
  unfold out7_B_4
  rw [View.read_writes_eq_canon _ _ _ (cover7_B_4 c i a1 h1 a2 h2 a3 h3 a4 h4 a5 h5 a6 h6 a7 h7 hc x0 x1 x2 x3 xo5 xo6)]
  unfold kernelRun7_B
  dsimp only
  rw [View.canon_unit_zero (S := S5000x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- What the first point's body leaves in the first accumulator: the zero block plus the block's totals. -/
theorem outA7_5 (c : Dev nD) (i : grid7.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond7_0 i) (x0 x1 : Vec Ideal S5000x64 .f32) (x2 : Vec Ideal S64x64 .f32) (x3 : Vec Ideal S1x64 .f32) :
    out7_A_5 (F := Ideal) c i a1 h1 a2 h2 a3 h3 a4 h4 a5 h5 a6 h6 a7 h7 hc x0 x1 x2 x3 = k7_pay4 x0 x1 x2 x3 (k7_pay1 (F := Ideal)) := by
  unfold out7_A_5
  rw [View.read_writes_eq_canon _ _ _ (cover7_A_5 c i a1 h1 a2 h2 a3 h3 a4 h4 a5 h5 a6 h6 a7 h7 hc x0 x1 x2 x3)]
  unfold kernelRun7_A
  dsimp only
  sl_unfold_words
  rw [View.canon_cons_unit_zero (S := S1x64) p1_hz, View.readCov_unit_zero (S := S1x64) _ p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- What a later point's body leaves there: what it held plus the block's totals. -/
theorem outB7_5 (c : Dev nD) (i : grid7.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond7_0 i) (x0 x1 : Vec Ideal S5000x64 .f32) (x2 : Vec Ideal S64x64 .f32) (x3 : Vec Ideal S1x64 .f32) (xo5 xo6 : Vec Ideal S1x64 .f32) :
    out7_B_5 (F := Ideal) c i a1 h1 a2 h2 a3 h3 a4 h4 a5 h5 a6 h6 a7 h7 hc x0 x1 x2 x3 xo5 xo6 = k7_pay4 x0 x1 x2 x3 xo5 := by
  unfold out7_B_5
  rw [View.read_writes_eq_canon _ _ _ (cover7_B_5 c i a1 h1 a2 h2 a3 h3 a4 h4 a5 h5 a6 h6 a7 h7 hc x0 x1 x2 x3 xo5 xo6)]
  unfold kernelRun7_B
  dsimp only
  rw [View.canon_unit_zero (S := S1x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- The same for the accumulator of squares. -/
theorem outA7_6 (c : Dev nD) (i : grid7.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond7_0 i) (x0 x1 : Vec Ideal S5000x64 .f32) (x2 : Vec Ideal S64x64 .f32) (x3 : Vec Ideal S1x64 .f32) :
    out7_A_6 (F := Ideal) c i a1 h1 a2 h2 a3 h3 a4 h4 a5 h5 a6 h6 a7 h7 hc x0 x1 x2 x3 = k7_pay5 x0 x1 x2 x3 (k7_pay2 (F := Ideal)) := by
  unfold out7_A_6
  rw [View.read_writes_eq_canon _ _ _ (cover7_A_6 c i a1 h1 a2 h2 a3 h3 a4 h4 a5 h5 a6 h6 a7 h7 hc x0 x1 x2 x3)]
  unfold kernelRun7_A
  dsimp only
  sl_unfold_words
  rw [View.canon_cons_unit_zero (S := S1x64) p1_hz, View.readCov_unit_zero (S := S1x64) _ p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

theorem outB7_6 (c : Dev nD) (i : grid7.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond7_0 i) (x0 x1 : Vec Ideal S5000x64 .f32) (x2 : Vec Ideal S64x64 .f32) (x3 : Vec Ideal S1x64 .f32) (xo5 xo6 : Vec Ideal S1x64 .f32) :
    out7_B_6 (F := Ideal) c i a1 h1 a2 h2 a3 h3 a4 h4 a5 h5 a6 h6 a7 h7 hc x0 x1 x2 x3 xo5 xo6 = k7_pay5 x0 x1 x2 x3 xo6 := by
  unfold out7_B_6
  rw [View.read_writes_eq_canon _ _ _ (cover7_B_6 c i a1 h1 a2 h2 a3 h3 a4 h4 a5 h5 a6 h6 a7 h7 hc x0 x1 x2 x3 xo5 xo6)]
  unfold kernelRun7_B
  dsimp only
  rw [View.canon_unit_zero (S := S1x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- The node map of the blocks point `t` loads, at an entry, is the node map of the arrays at the entry
    5000·t rows further down. -/
theorem blk7_h (t : Fin cfg7.N) (j : S5000x64.Idx) (i' : S50000x64.Idx)
    (e0 : (i' 0).val = t.val * 5000 + (j 0).val) (e1 : (i' 1).val = (j 1).val) :
    hpre (iblk7 (F := Ideal) V c 0 t) (iblk7 V c 1 t) (iblk7 V c 2 t) (row (iblk7 V c 3 t)) j = hpre (V c (Pipeline.arrRef spec7 0)) (V c (Pipeline.arrRef spec7 1)) (V c (Pipeline.arrRef spec7 2)) (row (V c (Pipeline.arrRef spec7 3))) i' := by
  obtain ⟨a0, a1, b0, b1, w0, w1, r0, r1, o0, o1, s0, s1, q0, q1⟩ := idx7 t
  refine hpre_congr (N := 5000) (N' := 50000) (C := 64) (H := 64) (iblk7 V c 0 t) (iblk7 V c 1 t) (V c (Pipeline.arrRef spec7 0)) (V c (Pipeline.arrRef spec7 1))
    (iblk7 V c 2 t) (V c (Pipeline.arrRef spec7 2)) (row (iblk7 V c 3 t)) (row (V c (Pipeline.arrRef spec7 3))) j i' ?_ ?_ ?_ ?_
  · intro q
    show (V c (Pipeline.arrRef spec7 0)) (((cfg7.win 0).blk t).view.emb (ix2 (j 0) q)) = (V c (Pipeline.arrRef spec7 0)) (ix2 (i' 0) q)
    refine congrArg _ (funext fun a => Fin.ext ?_)
    match a with
    | ⟨0, _⟩ => show win7_0.index t (0 : Fin 2) * 5000 + 1 * (j 0).val = (i' 0).val; omega
    | ⟨1, _⟩ => show win7_0.index t (1 : Fin 2) * 64 + 1 * q.val = q.val; omega
  · intro q
    show (V c (Pipeline.arrRef spec7 1)) (((cfg7.win 1).blk t).view.emb (ix2 (j 0) q)) = (V c (Pipeline.arrRef spec7 1)) (ix2 (i' 0) q)
    refine congrArg _ (funext fun a => Fin.ext ?_)
    match a with
    | ⟨0, _⟩ => show win7_1.index t (0 : Fin 2) * 5000 + 1 * (j 0).val = (i' 0).val; omega
    | ⟨1, _⟩ => show win7_1.index t (1 : Fin 2) * 64 + 1 * q.val = q.val; omega
  · intro q
    show (V c (Pipeline.arrRef spec7 2)) (((cfg7.win 2).blk t).view.emb (ix2 q (j 1))) = (V c (Pipeline.arrRef spec7 2)) (ix2 q (i' 1))
    refine congrArg _ (funext fun a => Fin.ext ?_)
    match a with
    | ⟨0, _⟩ => show win7_2.index t (0 : Fin 2) * 64 + 1 * q.val = q.val; omega
    | ⟨1, _⟩ => show win7_2.index t (1 : Fin 2) * 64 + 1 * (j 1).val = (i' 1).val; omega
  · show (V c (Pipeline.arrRef spec7 3)) (((cfg7.win 3).blk t).view.emb (ix2 0 (j 1))) = (V c (Pipeline.arrRef spec7 3)) (ix2 0 (i' 1))
    refine congrArg _ (funext fun a => Fin.ext ?_)
    match a with
    | ⟨0, _⟩ => show win7_3.index t (0 : Fin 2) * 1 + 1 * 0 = 0; omega
    | ⟨1, _⟩ => show win7_3.index t (1 : Fin 2) * 64 + 1 * (j 1).val = (i' 1).val; omega

set_option maxHeartbeats 2000000 in
/-- After every point the node map's buffer holds the node map of the point's blocks. -/
theorem outs7_h (t : Fin cfg7.N) (j : S5000x64.Idx) : (outsAt7 (F := Ideal) V c t.val t.isLt).1 j = k7_pay3 (iblk7 V c 0 t) (iblk7 V c 1 t) (iblk7 V c 2 t) (iblk7 V c 3 t) j := by
  by_cases h0 : t.val % 10 = 0
  · rw [outsAt7_A V c t h0]
    dsimp only
    rw [outA7_4]
  · rw [outsAt7_B V c t h0]
    dsimp only
    rw [outB7_4]

/-- The block point `t` adds to the first accumulator, at column j: block t's column total of the node map. -/
theorem blk7_s (t : Fin cfg7.N) (j : Fin 64) :
    ∑ r : Fin 5000, hpre (iblk7 (F := Ideal) V c 0 t) (iblk7 V c 1 t) (iblk7 V c 2 t) (row (iblk7 V c 3 t)) (ix2 r j)
      = p1_blkTot (hpre (V c (Pipeline.arrRef spec7 0)) (V c (Pipeline.arrRef spec7 1)) (V c (Pipeline.arrRef spec7 2)) (row (V c (Pipeline.arrRef spec7 3)))) j t.val := by
  have hN : t.val < 10 := lt_of_lt_of_eq t.isLt (show cfg7.N = 10 from N_7)
  rw [p1_blkTot_eq _ _ _ hN]
  exact Finset.sum_congr rfl fun r _ => blk7_h V c t (ix2 r j) (ix2 ⟨t.val * 5000 + r.val, Cert.SumBlocks.block_lt (a := 10) (b := 5000) ⟨t.val, hN⟩ r⟩ j) rfl rfl

/-- The same for the squares. -/
theorem blk7_q (t : Fin cfg7.N) (j : Fin 64) :
    ∑ r : Fin 5000, hpre (iblk7 (F := Ideal) V c 0 t) (iblk7 V c 1 t) (iblk7 V c 2 t) (row (iblk7 V c 3 t)) (ix2 r j)
        * hpre (iblk7 (F := Ideal) V c 0 t) (iblk7 V c 1 t) (iblk7 V c 2 t) (row (iblk7 V c 3 t)) (ix2 r j)
      = p1_blkTot (fun i => hpre (V c (Pipeline.arrRef spec7 0)) (V c (Pipeline.arrRef spec7 1)) (V c (Pipeline.arrRef spec7 2)) (row (V c (Pipeline.arrRef spec7 3))) i * hpre (V c (Pipeline.arrRef spec7 0)) (V c (Pipeline.arrRef spec7 1)) (V c (Pipeline.arrRef spec7 2)) (row (V c (Pipeline.arrRef spec7 3))) i) j t.val := by
  have hN : t.val < 10 := lt_of_lt_of_eq t.isLt (show cfg7.N = 10 from N_7)
  rw [p1_blkTot_eq _ _ _ hN]
  exact Finset.sum_congr rfl fun r _ => by rw [blk7_h V c t (ix2 r j) (ix2 ⟨t.val * 5000 + r.val, Cert.SumBlocks.block_lt (a := 10) (b := 5000) ⟨t.val, hN⟩ r⟩ j) rfl rfl]

set_option maxHeartbeats 2000000 in
/-- After point n the first accumulator holds, at column j, the zero word plus the column totals of blocks 0..n:
    by induction on the point, the first point storing the zero block first, a later one adding to what the
    point before left. -/
theorem outs7_s (j : Fin 64) : ∀ (n : ℕ) (t : Fin cfg7.N), t.val = n →
    (outsAt7 (F := Ideal) V c t.val t.isLt).2.1 (ix2 ⟨0, Nat.one_pos⟩ j)
      = wZero + ∑ x ∈ Finset.range (t.val + 1), p1_blkTot (hpre (V c (Pipeline.arrRef spec7 0)) (V c (Pipeline.arrRef spec7 1)) (V c (Pipeline.arrRef spec7 2)) (row (V c (Pipeline.arrRef spec7 3)))) j x
  | 0, t, ht => by
    have h0 : t.val % 10 = 0 := by omega
    rw [outsAt7_A V c t h0]
    dsimp only
    rw [outA7_5, pass1_pay7_s, blk7_s V c t j, Finset.sum_range_succ, ht, Finset.sum_range_zero, zero_add]
    rfl
  | n + 1, t, ht => by
    have hN : cfg7.N = 10 := N_7
    have hlt : t.val < cfg7.N := t.isLt
    have hB : ¬t.val % 10 = 0 := by omega
    rw [outsAt7_B V c t hB]
    dsimp only
    rw [outB7_5, pass1_pay7_s, blk7_s V c t j]
    have ih := outs7_s j n ⟨t.val - 1, Nat.lt_of_le_of_lt (Nat.sub_le _ _) t.isLt⟩ (by show t.val - 1 = n; omega)
    refine (congrArg (fun s => s + p1_blkTot (hpre (V c (Pipeline.arrRef spec7 0)) (V c (Pipeline.arrRef spec7 1)) (V c (Pipeline.arrRef spec7 2)) (row (V c (Pipeline.arrRef spec7 3)))) j t.val) ih).trans ?_
    dsimp only
    rw [show t.val - 1 + 1 = t.val from by omega, Finset.sum_range_succ _ t.val, add_assoc]

set_option maxHeartbeats 2000000 in
/-- After point n the second accumulator holds the same of the squares. -/
theorem outs7_q (j : Fin 64) : ∀ (n : ℕ) (t : Fin cfg7.N), t.val = n →
    (outsAt7 (F := Ideal) V c t.val t.isLt).2.2 (ix2 ⟨0, Nat.one_pos⟩ j)
      = wZero + ∑ x ∈ Finset.range (t.val + 1), p1_blkTot (fun i => hpre (V c (Pipeline.arrRef spec7 0)) (V c (Pipeline.arrRef spec7 1)) (V c (Pipeline.arrRef spec7 2)) (row (V c (Pipeline.arrRef spec7 3))) i * hpre (V c (Pipeline.arrRef spec7 0)) (V c (Pipeline.arrRef spec7 1)) (V c (Pipeline.arrRef spec7 2)) (row (V c (Pipeline.arrRef spec7 3))) i) j x
  | 0, t, ht => by
    have h0 : t.val % 10 = 0 := by omega
    rw [outsAt7_A V c t h0]
    dsimp only
    rw [outA7_6, pass1_pay7_q, blk7_q V c t j, Finset.sum_range_succ, ht, Finset.sum_range_zero, zero_add]
    rfl
  | n + 1, t, ht => by
    have hN : cfg7.N = 10 := N_7
    have hlt : t.val < cfg7.N := t.isLt
    have hB : ¬t.val % 10 = 0 := by omega
    rw [outsAt7_B V c t hB]
    dsimp only
    rw [outB7_6, pass1_pay7_q, blk7_q V c t j]
    have ih := outs7_q j n ⟨t.val - 1, Nat.lt_of_le_of_lt (Nat.sub_le _ _) t.isLt⟩ (by show t.val - 1 = n; omega)
    refine (congrArg (fun s => s + p1_blkTot (fun i => hpre (V c (Pipeline.arrRef spec7 0)) (V c (Pipeline.arrRef spec7 1)) (V c (Pipeline.arrRef spec7 2)) (row (V c (Pipeline.arrRef spec7 3))) i * hpre (V c (Pipeline.arrRef spec7 0)) (V c (Pipeline.arrRef spec7 1)) (V c (Pipeline.arrRef spec7 2)) (row (V c (Pipeline.arrRef spec7 3))) i) j t.val) ih).trans ?_
    dsimp only
    rw [show t.val - 1 + 1 = t.val from by omega, Finset.sum_range_succ _ t.val, add_assoc]

/-- What point `t` writes back is block `t` of the node map of the arrays the region finds. -/
theorem flushed7_4 (t : Fin cfg7.N) :
    (dat7 (F := Ideal) V c).flushed 4 t = ((cfg7.win 4).blk t).view.read (Elt Ideal) (hpre (V c (Pipeline.arrRef spec7 0)) (V c (Pipeline.arrRef spec7 1)) (V c (Pipeline.arrRef spec7 2)) (row (V c (Pipeline.arrRef spec7 3)))) := by
  show (cfg7.win 4).cut (grid7.coords t) ((dat7 V c).after 4 t) = _
  rw [after7_4]
  obtain ⟨a0, a1, b0, b1, w0, w1, r0, r1, o0, o1, s0, s1, q0, q1⟩ := idx7 t
  funext j
  refine (outs7_h V c t j).trans ?_
  refine (pass1_pay7_h (iblk7 V c 0 t) (iblk7 V c 1 t) (iblk7 V c 2 t) (iblk7 V c 3 t) j).trans ?_
  refine blk7_h V c t j (((cfg7.win 4).blk t).view.emb j) ?_ ?_
  · show win7_4.index t (0 : Fin 2) * 5000 + 1 * (j 0).val = t.val * 5000 + (j 0).val; omega
  · show win7_4.index t (1 : Fin 2) * 64 + 1 * (j 1).val = (j 1).val; omega

/-- An entry of the node map's array is in point `t`'s block iff each coordinate is in the block's range. -/
theorem mem_blk7_4 (t : Fin cfg7.N) (i : S50000x64.Idx) :
    i ∈ ((cfg7.win 4).blk t).view.set ↔ ∀ a : Fin 2, win7_4.index t a * S5000x64.size a ≤ (i a).val ∧ (i a).val < win7_4.index t a * S5000x64.size a + S5000x64.size a := by
  show i ∈ ((View.whole main_v97_0).slice (win7_4.rect t)).set ↔ _
  rw [View.set_slice_whole, Rect.mem_set_unit]
  exact Iff.rfl

/-- Every row of the node map lies in the block of the point its number over 5000 names. -/
theorem cover7_4 (i : S50000x64.Idx) : ∃ t : Fin cfg7.N, (cfg7.win 4).flush t = true ∧ i ∈ ((cfg7.win 4).blk t).view.set := by
  have hi0 : (i 0).val < 50000 := (i 0).isLt
  have hi1 : (i 1).val < 64 := (i 1).isLt
  have hN : cfg7.N = 10 := N_7
  refine ⟨⟨(i 0).val / 5000, by rw [hN]; omega⟩, flush7_4 _, ?_⟩
  rw [mem_blk7_4]
  obtain ⟨a0, a1, b0, b1, w0, w1, r0, r1, o0, o1, s0, s1, q0, q1⟩ := idx7 ⟨(i 0).val / 5000, by rw [hN]; omega⟩
  intro a
  match a with
  | ⟨0, _⟩ => show win7_4.index _ (0 : Fin 2) * 5000 ≤ (i 0).val ∧ (i 0).val < win7_4.index _ (0 : Fin 2) * 5000 + 5000; rw [o0]; dsimp only; omega
  | ⟨1, _⟩ => show win7_4.index _ (1 : Fin 2) * 64 ≤ (i 1).val ∧ (i 1).val < win7_4.index _ (1 : Fin 2) * 64 + 64; rw [o1]; omega

/-- The node map's array after region 7: the node map of its four operands. -/
theorem pass1_7_h_val : ((dat7 (F := Ideal) V c).arrAt 4 cfg7.N : Arr2 50000 64) = hpre (V c (Pipeline.arrRef spec7 0)) (V c (Pipeline.arrRef spec7 1)) (V c (Pipeline.arrRef spec7 2)) (row (V c (Pipeline.arrRef spec7 3))) :=
  (dat7 (F := Ideal) V c).arrAt_eq_of_cover 4 _ (fun t _ => flushed7_4 V c t) (cover7_4)

/-- The one write-back of the first accumulator, at the last point, writes the column totals. -/
theorem flushed7_5 (t : Fin cfg7.N) (hf : (cfg7.win 5).flush t = true) :
    (dat7 (F := Ideal) V c).flushed 5 t = ((cfg7.win 5).blk t).view.read (Elt Ideal)
      (fun i : S1x64.Idx => colSum (hpre (V c (Pipeline.arrRef spec7 0)) (V c (Pipeline.arrRef spec7 1)) (V c (Pipeline.arrRef spec7 2)) (row (V c (Pipeline.arrRef spec7 3)))) (i 1)) := by
  have hN : cfg7.N = 10 := N_7
  have h9 : t.val = 9 := by have := (flush7_5 t).mp hf; have := t.isLt; omega
  obtain ⟨a0, a1, b0, b1, w0, w1, r0, r1, o0, o1, s0, s1, q0, q1⟩ := idx7 t
  show (cfg7.win 5).cut (grid7.coords t) ((dat7 V c).after 5 t) = _
  rw [after7_5]
  funext i
  show (outsAt7 (F := Ideal) V c t.val t.isLt).2.1 i = colSum (hpre (V c (Pipeline.arrRef spec7 0)) (V c (Pipeline.arrRef spec7 1)) (V c (Pipeline.arrRef spec7 2)) (row (V c (Pipeline.arrRef spec7 3)))) ((((cfg7.win 5).blk t).view.emb i) 1)
  have hi : i = ix2 ⟨0, Nat.one_pos⟩ (i 1) := p1_row_idx i
  have he : (((cfg7.win 5).blk t).view.emb i) 1 = i 1 :=
    Fin.ext (by show win7_5.index t (1 : Fin 2) * 64 + 1 * (i 1).val = (i 1).val; omega)
  refine (congrArg (outsAt7 (F := Ideal) V c t.val t.isLt).2.1 hi).trans ?_
  refine (outs7_s V c (i 1) t.val t rfl).trans ?_
  rw [he, h9]
  exact p1_acc_total _ _

/-- The same for the accumulator of squares. -/
theorem flushed7_6 (t : Fin cfg7.N) (hf : (cfg7.win 6).flush t = true) :
    (dat7 (F := Ideal) V c).flushed 6 t = ((cfg7.win 6).blk t).view.read (Elt Ideal)
      (fun i : S1x64.Idx => colSum (fun j => hpre (V c (Pipeline.arrRef spec7 0)) (V c (Pipeline.arrRef spec7 1)) (V c (Pipeline.arrRef spec7 2)) (row (V c (Pipeline.arrRef spec7 3))) j * hpre (V c (Pipeline.arrRef spec7 0)) (V c (Pipeline.arrRef spec7 1)) (V c (Pipeline.arrRef spec7 2)) (row (V c (Pipeline.arrRef spec7 3))) j) (i 1)) := by
  have hN : cfg7.N = 10 := N_7
  have h9 : t.val = 9 := by have := (flush7_6 t).mp hf; have := t.isLt; omega
  obtain ⟨a0, a1, b0, b1, w0, w1, r0, r1, o0, o1, s0, s1, q0, q1⟩ := idx7 t
  show (cfg7.win 6).cut (grid7.coords t) ((dat7 V c).after 6 t) = _
  rw [after7_6]
  funext i
  show (outsAt7 (F := Ideal) V c t.val t.isLt).2.2 i
    = colSum (fun j => hpre (V c (Pipeline.arrRef spec7 0)) (V c (Pipeline.arrRef spec7 1)) (V c (Pipeline.arrRef spec7 2)) (row (V c (Pipeline.arrRef spec7 3))) j * hpre (V c (Pipeline.arrRef spec7 0)) (V c (Pipeline.arrRef spec7 1)) (V c (Pipeline.arrRef spec7 2)) (row (V c (Pipeline.arrRef spec7 3))) j) ((((cfg7.win 6).blk t).view.emb i) 1)
  have hi : i = ix2 ⟨0, Nat.one_pos⟩ (i 1) := p1_row_idx i
  have he : (((cfg7.win 6).blk t).view.emb i) 1 = i 1 :=
    Fin.ext (by show win7_6.index t (1 : Fin 2) * 64 + 1 * (i 1).val = (i 1).val; omega)
  refine (congrArg (outsAt7 (F := Ideal) V c t.val t.isLt).2.2 hi).trans ?_
  refine (outs7_q V c (i 1) t.val t rfl).trans ?_
  rw [he, h9]
  exact p1_acc_total _ _

/-- The last point's block of an accumulator is the whole one-row array. -/
theorem cover7_5 (i : S1x64.Idx) : ∃ t : Fin cfg7.N, (cfg7.win 5).flush t = true ∧ i ∈ ((cfg7.win 5).blk t).view.set := by
  have hi0 : (i 0).val < 1 := (i 0).isLt
  have hi1 : (i 1).val < 64 := (i 1).isLt
  refine ⟨t7_9, (flush7_5 t7_9).mpr rfl, ?_⟩
  obtain ⟨a0, a1, b0, b1, w0, w1, r0, r1, o0, o1, s0, s1, q0, q1⟩ := idx7 t7_9
  show i ∈ ((View.whole main_v97_1).slice (win7_5.rect t7_9)).set
  rw [View.set_slice_whole, Rect.mem_set_unit]
  intro a
  match a with
  | ⟨0, _⟩ => show win7_5.index t7_9 (0 : Fin 2) * 1 ≤ (i 0).val ∧ (i 0).val < win7_5.index t7_9 (0 : Fin 2) * 1 + 1; rw [s0]; omega
  | ⟨1, _⟩ => show win7_5.index t7_9 (1 : Fin 2) * 64 ≤ (i 1).val ∧ (i 1).val < win7_5.index t7_9 (1 : Fin 2) * 64 + 64; rw [s1]; omega

theorem cover7_6 (i : S1x64.Idx) : ∃ t : Fin cfg7.N, (cfg7.win 6).flush t = true ∧ i ∈ ((cfg7.win 6).blk t).view.set := by
  have hi0 : (i 0).val < 1 := (i 0).isLt
  have hi1 : (i 1).val < 64 := (i 1).isLt
  refine ⟨t7_9, (flush7_6 t7_9).mpr rfl, ?_⟩
  obtain ⟨a0, a1, b0, b1, w0, w1, r0, r1, o0, o1, s0, s1, q0, q1⟩ := idx7 t7_9
  show i ∈ ((View.whole main_v97_2).slice (win7_6.rect t7_9)).set
  rw [View.set_slice_whole, Rect.mem_set_unit]
  intro a
  match a with
  | ⟨0, _⟩ => show win7_6.index t7_9 (0 : Fin 2) * 1 ≤ (i 0).val ∧ (i 0).val < win7_6.index t7_9 (0 : Fin 2) * 1 + 1; rw [q0]; omega
  | ⟨1, _⟩ => show win7_6.index t7_9 (1 : Fin 2) * 64 ≤ (i 1).val ∧ (i 1).val < win7_6.index t7_9 (1 : Fin 2) * 64 + 64; rw [q1]; omega

/-- The two accumulator arrays after region 7: the column totals of the node map and of its squares. -/
theorem pass1_7_s_val : ((dat7 (F := Ideal) V c).arrAt 5 cfg7.N : Arr2 1 64) = fun i => colSum (hpre (V c (Pipeline.arrRef spec7 0)) (V c (Pipeline.arrRef spec7 1)) (V c (Pipeline.arrRef spec7 2)) (row (V c (Pipeline.arrRef spec7 3)))) (i 1) :=
  (dat7 (F := Ideal) V c).arrAt_eq_of_cover 5 _ (flushed7_5 V c) (cover7_5)

theorem pass1_7_q_val : ((dat7 (F := Ideal) V c).arrAt 6 cfg7.N : Arr2 1 64) = fun i => colSum (fun j => hpre (V c (Pipeline.arrRef spec7 0)) (V c (Pipeline.arrRef spec7 1)) (V c (Pipeline.arrRef spec7 2)) (row (V c (Pipeline.arrRef spec7 3))) j * hpre (V c (Pipeline.arrRef spec7 0)) (V c (Pipeline.arrRef spec7 1)) (V c (Pipeline.arrRef spec7 2)) (row (V c (Pipeline.arrRef spec7 3))) j) (i 1) :=
  (dat7 (F := Ideal) V c).arrAt_eq_of_cover 6 _ (flushed7_6 V c) (cover7_6)

/-! ## Region 10 -/

/-- The block maps of region 10, decided over its 10 points: the two row operands and the node map move down
    with the point; the weight, the bias and the two accumulators stay. -/
theorem idx10 : ∀ t : Fin cfg10.N, win10_0.index t (0 : Fin 2) = t.val ∧ win10_0.index t (1 : Fin 2) = 0
    ∧ win10_1.index t (0 : Fin 2) = t.val ∧ win10_1.index t (1 : Fin 2) = 0
    ∧ win10_2.index t (0 : Fin 2) = 0 ∧ win10_2.index t (1 : Fin 2) = 0
    ∧ win10_3.index t (0 : Fin 2) = 0 ∧ win10_3.index t (1 : Fin 2) = 0
    ∧ win10_4.index t (0 : Fin 2) = t.val ∧ win10_4.index t (1 : Fin 2) = 0
    ∧ win10_5.index t (0 : Fin 2) = 0 ∧ win10_5.index t (1 : Fin 2) = 0
    ∧ win10_6.index t (0 : Fin 2) = 0 ∧ win10_6.index t (1 : Fin 2) = 0 :=
  (by decide +kernel : ∀ t : Fin grid10.N, _)

/-- What the first point's body leaves in the node map's buffer: the node map of the loaded blocks. -/
theorem outA10_4 (c : Dev nD) (i : grid10.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond10_0 i) (x0 x1 : Vec Ideal S5000x64 .f32) (x2 : Vec Ideal S64x64 .f32) (x3 : Vec Ideal S1x64 .f32) :
    out10_A_4 (F := Ideal) c i a1 h1 a2 h2 a3 h3 a4 h4 a5 h5 a6 h6 a7 h7 hc x0 x1 x2 x3 = k10_pay3 x0 x1 x2 x3 := by
  unfold out10_A_4
  rw [View.read_writes_eq_canon _ _ _ (cover10_A_4 c i a1 h1 a2 h2 a3 h3 a4 h4 a5 h5 a6 h6 a7 h7 hc x0 x1 x2 x3)]
  unfold kernelRun10_A
  dsimp only
  rw [View.canon_unit_zero (S := S5000x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- What a later point's body leaves there: the same. -/
theorem outB10_4 (c : Dev nD) (i : grid10.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond10_0 i) (x0 x1 : Vec Ideal S5000x64 .f32) (x2 : Vec Ideal S64x64 .f32) (x3 : Vec Ideal S1x64 .f32) (xo5 xo6 : Vec Ideal S1x64 .f32) :
    out10_B_4 (F := Ideal) c i a1 h1 a2 h2 a3 h3 a4 h4 a5 h5 a6 h6 a7 h7 hc x0 x1 x2 x3 xo5 xo6 = k10_pay3 x0 x1 x2 x3 := by
  unfold out10_B_4
  rw [View.read_writes_eq_canon _ _ _ (cover10_B_4 c i a1 h1 a2 h2 a3 h3 a4 h4 a5 h5 a6 h6 a7 h7 hc x0 x1 x2 x3 xo5 xo6)]
  unfold kernelRun10_B
  dsimp only
  rw [View.canon_unit_zero (S := S5000x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- What the first point's body leaves in the first accumulator: the zero block plus the block's totals. -/
theorem outA10_5 (c : Dev nD) (i : grid10.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond10_0 i) (x0 x1 : Vec Ideal S5000x64 .f32) (x2 : Vec Ideal S64x64 .f32) (x3 : Vec Ideal S1x64 .f32) :
    out10_A_5 (F := Ideal) c i a1 h1 a2 h2 a3 h3 a4 h4 a5 h5 a6 h6 a7 h7 hc x0 x1 x2 x3 = k10_pay4 x0 x1 x2 x3 (k10_pay1 (F := Ideal)) := by
  unfold out10_A_5
  rw [View.read_writes_eq_canon _ _ _ (cover10_A_5 c i a1 h1 a2 h2 a3 h3 a4 h4 a5 h5 a6 h6 a7 h7 hc x0 x1 x2 x3)]
  unfold kernelRun10_A
  dsimp only
  sl_unfold_words
  rw [View.canon_cons_unit_zero (S := S1x64) p1_hz, View.readCov_unit_zero (S := S1x64) _ p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- What a later point's body leaves there: what it held plus the block's totals. -/
theorem outB10_5 (c : Dev nD) (i : grid10.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond10_0 i) (x0 x1 : Vec Ideal S5000x64 .f32) (x2 : Vec Ideal S64x64 .f32) (x3 : Vec Ideal S1x64 .f32) (xo5 xo6 : Vec Ideal S1x64 .f32) :
    out10_B_5 (F := Ideal) c i a1 h1 a2 h2 a3 h3 a4 h4 a5 h5 a6 h6 a7 h7 hc x0 x1 x2 x3 xo5 xo6 = k10_pay4 x0 x1 x2 x3 xo5 := by
  unfold out10_B_5
  rw [View.read_writes_eq_canon _ _ _ (cover10_B_5 c i a1 h1 a2 h2 a3 h3 a4 h4 a5 h5 a6 h6 a7 h7 hc x0 x1 x2 x3 xo5 xo6)]
  unfold kernelRun10_B
  dsimp only
  rw [View.canon_unit_zero (S := S1x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- The same for the accumulator of squares. -/
theorem outA10_6 (c : Dev nD) (i : grid10.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond10_0 i) (x0 x1 : Vec Ideal S5000x64 .f32) (x2 : Vec Ideal S64x64 .f32) (x3 : Vec Ideal S1x64 .f32) :
    out10_A_6 (F := Ideal) c i a1 h1 a2 h2 a3 h3 a4 h4 a5 h5 a6 h6 a7 h7 hc x0 x1 x2 x3 = k10_pay5 x0 x1 x2 x3 (k10_pay2 (F := Ideal)) := by
  unfold out10_A_6
  rw [View.read_writes_eq_canon _ _ _ (cover10_A_6 c i a1 h1 a2 h2 a3 h3 a4 h4 a5 h5 a6 h6 a7 h7 hc x0 x1 x2 x3)]
  unfold kernelRun10_A
  dsimp only
  sl_unfold_words
  rw [View.canon_cons_unit_zero (S := S1x64) p1_hz, View.readCov_unit_zero (S := S1x64) _ p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

theorem outB10_6 (c : Dev nD) (i : grid10.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond10_0 i) (x0 x1 : Vec Ideal S5000x64 .f32) (x2 : Vec Ideal S64x64 .f32) (x3 : Vec Ideal S1x64 .f32) (xo5 xo6 : Vec Ideal S1x64 .f32) :
    out10_B_6 (F := Ideal) c i a1 h1 a2 h2 a3 h3 a4 h4 a5 h5 a6 h6 a7 h7 hc x0 x1 x2 x3 xo5 xo6 = k10_pay5 x0 x1 x2 x3 xo6 := by
  unfold out10_B_6
  rw [View.read_writes_eq_canon _ _ _ (cover10_B_6 c i a1 h1 a2 h2 a3 h3 a4 h4 a5 h5 a6 h6 a7 h7 hc x0 x1 x2 x3 xo5 xo6)]
  unfold kernelRun10_B
  dsimp only
  rw [View.canon_unit_zero (S := S1x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- The node map of the blocks point `t` loads, at an entry, is the node map of the arrays at the entry
    5000·t rows further down. -/
theorem blk10_h (t : Fin cfg10.N) (j : S5000x64.Idx) (i' : S50000x64.Idx)
    (e0 : (i' 0).val = t.val * 5000 + (j 0).val) (e1 : (i' 1).val = (j 1).val) :
    hpre (iblk10 (F := Ideal) V c 0 t) (iblk10 V c 1 t) (iblk10 V c 2 t) (row (iblk10 V c 3 t)) j = hpre (V c (Pipeline.arrRef spec10 0)) (V c (Pipeline.arrRef spec10 1)) (V c (Pipeline.arrRef spec10 2)) (row (V c (Pipeline.arrRef spec10 3))) i' := by
  obtain ⟨a0, a1, b0, b1, w0, w1, r0, r1, o0, o1, s0, s1, q0, q1⟩ := idx10 t
  refine hpre_congr (N := 5000) (N' := 50000) (C := 64) (H := 64) (iblk10 V c 0 t) (iblk10 V c 1 t) (V c (Pipeline.arrRef spec10 0)) (V c (Pipeline.arrRef spec10 1))
    (iblk10 V c 2 t) (V c (Pipeline.arrRef spec10 2)) (row (iblk10 V c 3 t)) (row (V c (Pipeline.arrRef spec10 3))) j i' ?_ ?_ ?_ ?_
  · intro q
    show (V c (Pipeline.arrRef spec10 0)) (((cfg10.win 0).blk t).view.emb (ix2 (j 0) q)) = (V c (Pipeline.arrRef spec10 0)) (ix2 (i' 0) q)
    refine congrArg _ (funext fun a => Fin.ext ?_)
    match a with
    | ⟨0, _⟩ => show win10_0.index t (0 : Fin 2) * 5000 + 1 * (j 0).val = (i' 0).val; omega
    | ⟨1, _⟩ => show win10_0.index t (1 : Fin 2) * 64 + 1 * q.val = q.val; omega
  · intro q
    show (V c (Pipeline.arrRef spec10 1)) (((cfg10.win 1).blk t).view.emb (ix2 (j 0) q)) = (V c (Pipeline.arrRef spec10 1)) (ix2 (i' 0) q)
    refine congrArg _ (funext fun a => Fin.ext ?_)
    match a with
    | ⟨0, _⟩ => show win10_1.index t (0 : Fin 2) * 5000 + 1 * (j 0).val = (i' 0).val; omega
    | ⟨1, _⟩ => show win10_1.index t (1 : Fin 2) * 64 + 1 * q.val = q.val; omega
  · intro q
    show (V c (Pipeline.arrRef spec10 2)) (((cfg10.win 2).blk t).view.emb (ix2 q (j 1))) = (V c (Pipeline.arrRef spec10 2)) (ix2 q (i' 1))
    refine congrArg _ (funext fun a => Fin.ext ?_)
    match a with
    | ⟨0, _⟩ => show win10_2.index t (0 : Fin 2) * 64 + 1 * q.val = q.val; omega
    | ⟨1, _⟩ => show win10_2.index t (1 : Fin 2) * 64 + 1 * (j 1).val = (i' 1).val; omega
  · show (V c (Pipeline.arrRef spec10 3)) (((cfg10.win 3).blk t).view.emb (ix2 0 (j 1))) = (V c (Pipeline.arrRef spec10 3)) (ix2 0 (i' 1))
    refine congrArg _ (funext fun a => Fin.ext ?_)
    match a with
    | ⟨0, _⟩ => show win10_3.index t (0 : Fin 2) * 1 + 1 * 0 = 0; omega
    | ⟨1, _⟩ => show win10_3.index t (1 : Fin 2) * 64 + 1 * (j 1).val = (i' 1).val; omega

set_option maxHeartbeats 2000000 in
/-- After every point the node map's buffer holds the node map of the point's blocks. -/
theorem outs10_h (t : Fin cfg10.N) (j : S5000x64.Idx) : (outsAt10 (F := Ideal) V c t.val t.isLt).1 j = k10_pay3 (iblk10 V c 0 t) (iblk10 V c 1 t) (iblk10 V c 2 t) (iblk10 V c 3 t) j := by
  by_cases h0 : t.val % 10 = 0
  · rw [outsAt10_A V c t h0]
    dsimp only
    rw [outA10_4]
  · rw [outsAt10_B V c t h0]
    dsimp only
    rw [outB10_4]

/-- The block point `t` adds to the first accumulator, at column j: block t's column total of the node map. -/
theorem blk10_s (t : Fin cfg10.N) (j : Fin 64) :
    ∑ r : Fin 5000, hpre (iblk10 (F := Ideal) V c 0 t) (iblk10 V c 1 t) (iblk10 V c 2 t) (row (iblk10 V c 3 t)) (ix2 r j)
      = p1_blkTot (hpre (V c (Pipeline.arrRef spec10 0)) (V c (Pipeline.arrRef spec10 1)) (V c (Pipeline.arrRef spec10 2)) (row (V c (Pipeline.arrRef spec10 3)))) j t.val := by
  have hN : t.val < 10 := lt_of_lt_of_eq t.isLt (show cfg10.N = 10 from N_10)
  rw [p1_blkTot_eq _ _ _ hN]
  exact Finset.sum_congr rfl fun r _ => blk10_h V c t (ix2 r j) (ix2 ⟨t.val * 5000 + r.val, Cert.SumBlocks.block_lt (a := 10) (b := 5000) ⟨t.val, hN⟩ r⟩ j) rfl rfl

/-- The same for the squares. -/
theorem blk10_q (t : Fin cfg10.N) (j : Fin 64) :
    ∑ r : Fin 5000, hpre (iblk10 (F := Ideal) V c 0 t) (iblk10 V c 1 t) (iblk10 V c 2 t) (row (iblk10 V c 3 t)) (ix2 r j)
        * hpre (iblk10 (F := Ideal) V c 0 t) (iblk10 V c 1 t) (iblk10 V c 2 t) (row (iblk10 V c 3 t)) (ix2 r j)
      = p1_blkTot (fun i => hpre (V c (Pipeline.arrRef spec10 0)) (V c (Pipeline.arrRef spec10 1)) (V c (Pipeline.arrRef spec10 2)) (row (V c (Pipeline.arrRef spec10 3))) i * hpre (V c (Pipeline.arrRef spec10 0)) (V c (Pipeline.arrRef spec10 1)) (V c (Pipeline.arrRef spec10 2)) (row (V c (Pipeline.arrRef spec10 3))) i) j t.val := by
  have hN : t.val < 10 := lt_of_lt_of_eq t.isLt (show cfg10.N = 10 from N_10)
  rw [p1_blkTot_eq _ _ _ hN]
  exact Finset.sum_congr rfl fun r _ => by rw [blk10_h V c t (ix2 r j) (ix2 ⟨t.val * 5000 + r.val, Cert.SumBlocks.block_lt (a := 10) (b := 5000) ⟨t.val, hN⟩ r⟩ j) rfl rfl]

set_option maxHeartbeats 2000000 in
/-- After point n the first accumulator holds, at column j, the zero word plus the column totals of blocks 0..n:
    by induction on the point, the first point storing the zero block first, a later one adding to what the
    point before left. -/
theorem outs10_s (j : Fin 64) : ∀ (n : ℕ) (t : Fin cfg10.N), t.val = n →
    (outsAt10 (F := Ideal) V c t.val t.isLt).2.1 (ix2 ⟨0, Nat.one_pos⟩ j)
      = wZero + ∑ x ∈ Finset.range (t.val + 1), p1_blkTot (hpre (V c (Pipeline.arrRef spec10 0)) (V c (Pipeline.arrRef spec10 1)) (V c (Pipeline.arrRef spec10 2)) (row (V c (Pipeline.arrRef spec10 3)))) j x
  | 0, t, ht => by
    have h0 : t.val % 10 = 0 := by omega
    rw [outsAt10_A V c t h0]
    dsimp only
    rw [outA10_5, pass1_pay10_s, blk10_s V c t j, Finset.sum_range_succ, ht, Finset.sum_range_zero, zero_add]
    rfl
  | n + 1, t, ht => by
    have hN : cfg10.N = 10 := N_10
    have hlt : t.val < cfg10.N := t.isLt
    have hB : ¬t.val % 10 = 0 := by omega
    rw [outsAt10_B V c t hB]
    dsimp only
    rw [outB10_5, pass1_pay10_s, blk10_s V c t j]
    have ih := outs10_s j n ⟨t.val - 1, Nat.lt_of_le_of_lt (Nat.sub_le _ _) t.isLt⟩ (by show t.val - 1 = n; omega)
    refine (congrArg (fun s => s + p1_blkTot (hpre (V c (Pipeline.arrRef spec10 0)) (V c (Pipeline.arrRef spec10 1)) (V c (Pipeline.arrRef spec10 2)) (row (V c (Pipeline.arrRef spec10 3)))) j t.val) ih).trans ?_
    dsimp only
    rw [show t.val - 1 + 1 = t.val from by omega, Finset.sum_range_succ _ t.val, add_assoc]

set_option maxHeartbeats 2000000 in
/-- After point n the second accumulator holds the same of the squares. -/
theorem outs10_q (j : Fin 64) : ∀ (n : ℕ) (t : Fin cfg10.N), t.val = n →
    (outsAt10 (F := Ideal) V c t.val t.isLt).2.2 (ix2 ⟨0, Nat.one_pos⟩ j)
      = wZero + ∑ x ∈ Finset.range (t.val + 1), p1_blkTot (fun i => hpre (V c (Pipeline.arrRef spec10 0)) (V c (Pipeline.arrRef spec10 1)) (V c (Pipeline.arrRef spec10 2)) (row (V c (Pipeline.arrRef spec10 3))) i * hpre (V c (Pipeline.arrRef spec10 0)) (V c (Pipeline.arrRef spec10 1)) (V c (Pipeline.arrRef spec10 2)) (row (V c (Pipeline.arrRef spec10 3))) i) j x
  | 0, t, ht => by
    have h0 : t.val % 10 = 0 := by omega
    rw [outsAt10_A V c t h0]
    dsimp only
    rw [outA10_6, pass1_pay10_q, blk10_q V c t j, Finset.sum_range_succ, ht, Finset.sum_range_zero, zero_add]
    rfl
  | n + 1, t, ht => by
    have hN : cfg10.N = 10 := N_10
    have hlt : t.val < cfg10.N := t.isLt
    have hB : ¬t.val % 10 = 0 := by omega
    rw [outsAt10_B V c t hB]
    dsimp only
    rw [outB10_6, pass1_pay10_q, blk10_q V c t j]
    have ih := outs10_q j n ⟨t.val - 1, Nat.lt_of_le_of_lt (Nat.sub_le _ _) t.isLt⟩ (by show t.val - 1 = n; omega)
    refine (congrArg (fun s => s + p1_blkTot (fun i => hpre (V c (Pipeline.arrRef spec10 0)) (V c (Pipeline.arrRef spec10 1)) (V c (Pipeline.arrRef spec10 2)) (row (V c (Pipeline.arrRef spec10 3))) i * hpre (V c (Pipeline.arrRef spec10 0)) (V c (Pipeline.arrRef spec10 1)) (V c (Pipeline.arrRef spec10 2)) (row (V c (Pipeline.arrRef spec10 3))) i) j t.val) ih).trans ?_
    dsimp only
    rw [show t.val - 1 + 1 = t.val from by omega, Finset.sum_range_succ _ t.val, add_assoc]

/-- What point `t` writes back is block `t` of the node map of the arrays the region finds. -/
theorem flushed10_4 (t : Fin cfg10.N) :
    (dat10 (F := Ideal) V c).flushed 4 t = ((cfg10.win 4).blk t).view.read (Elt Ideal) (hpre (V c (Pipeline.arrRef spec10 0)) (V c (Pipeline.arrRef spec10 1)) (V c (Pipeline.arrRef spec10 2)) (row (V c (Pipeline.arrRef spec10 3)))) := by
  show (cfg10.win 4).cut (grid10.coords t) ((dat10 V c).after 4 t) = _
  rw [after10_4]
  obtain ⟨a0, a1, b0, b1, w0, w1, r0, r1, o0, o1, s0, s1, q0, q1⟩ := idx10 t
  funext j
  refine (outs10_h V c t j).trans ?_
  refine (pass1_pay10_h (iblk10 V c 0 t) (iblk10 V c 1 t) (iblk10 V c 2 t) (iblk10 V c 3 t) j).trans ?_
  refine blk10_h V c t j (((cfg10.win 4).blk t).view.emb j) ?_ ?_
  · show win10_4.index t (0 : Fin 2) * 5000 + 1 * (j 0).val = t.val * 5000 + (j 0).val; omega
  · show win10_4.index t (1 : Fin 2) * 64 + 1 * (j 1).val = (j 1).val; omega

/-- An entry of the node map's array is in point `t`'s block iff each coordinate is in the block's range. -/
theorem mem_blk10_4 (t : Fin cfg10.N) (i : S50000x64.Idx) :
    i ∈ ((cfg10.win 4).blk t).view.set ↔ ∀ a : Fin 2, win10_4.index t a * S5000x64.size a ≤ (i a).val ∧ (i a).val < win10_4.index t a * S5000x64.size a + S5000x64.size a := by
  show i ∈ ((View.whole main_v137_0).slice (win10_4.rect t)).set ↔ _
  rw [View.set_slice_whole, Rect.mem_set_unit]
  exact Iff.rfl

/-- Every row of the node map lies in the block of the point its number over 5000 names. -/
theorem cover10_4 (i : S50000x64.Idx) : ∃ t : Fin cfg10.N, (cfg10.win 4).flush t = true ∧ i ∈ ((cfg10.win 4).blk t).view.set := by
  have hi0 : (i 0).val < 50000 := (i 0).isLt
  have hi1 : (i 1).val < 64 := (i 1).isLt
  have hN : cfg10.N = 10 := N_10
  refine ⟨⟨(i 0).val / 5000, by rw [hN]; omega⟩, flush10_4 _, ?_⟩
  rw [mem_blk10_4]
  obtain ⟨a0, a1, b0, b1, w0, w1, r0, r1, o0, o1, s0, s1, q0, q1⟩ := idx10 ⟨(i 0).val / 5000, by rw [hN]; omega⟩
  intro a
  match a with
  | ⟨0, _⟩ => show win10_4.index _ (0 : Fin 2) * 5000 ≤ (i 0).val ∧ (i 0).val < win10_4.index _ (0 : Fin 2) * 5000 + 5000; rw [o0]; dsimp only; omega
  | ⟨1, _⟩ => show win10_4.index _ (1 : Fin 2) * 64 ≤ (i 1).val ∧ (i 1).val < win10_4.index _ (1 : Fin 2) * 64 + 64; rw [o1]; omega

/-- The node map's array after region 10: the node map of its four operands. -/
theorem pass1_10_h_val : ((dat10 (F := Ideal) V c).arrAt 4 cfg10.N : Arr2 50000 64) = hpre (V c (Pipeline.arrRef spec10 0)) (V c (Pipeline.arrRef spec10 1)) (V c (Pipeline.arrRef spec10 2)) (row (V c (Pipeline.arrRef spec10 3))) :=
  (dat10 (F := Ideal) V c).arrAt_eq_of_cover 4 _ (fun t _ => flushed10_4 V c t) (cover10_4)

/-- The one write-back of the first accumulator, at the last point, writes the column totals. -/
theorem flushed10_5 (t : Fin cfg10.N) (hf : (cfg10.win 5).flush t = true) :
    (dat10 (F := Ideal) V c).flushed 5 t = ((cfg10.win 5).blk t).view.read (Elt Ideal)
      (fun i : S1x64.Idx => colSum (hpre (V c (Pipeline.arrRef spec10 0)) (V c (Pipeline.arrRef spec10 1)) (V c (Pipeline.arrRef spec10 2)) (row (V c (Pipeline.arrRef spec10 3)))) (i 1)) := by
  have hN : cfg10.N = 10 := N_10
  have h9 : t.val = 9 := by have := (flush10_5 t).mp hf; have := t.isLt; omega
  obtain ⟨a0, a1, b0, b1, w0, w1, r0, r1, o0, o1, s0, s1, q0, q1⟩ := idx10 t
  show (cfg10.win 5).cut (grid10.coords t) ((dat10 V c).after 5 t) = _
  rw [after10_5]
  funext i
  show (outsAt10 (F := Ideal) V c t.val t.isLt).2.1 i = colSum (hpre (V c (Pipeline.arrRef spec10 0)) (V c (Pipeline.arrRef spec10 1)) (V c (Pipeline.arrRef spec10 2)) (row (V c (Pipeline.arrRef spec10 3)))) ((((cfg10.win 5).blk t).view.emb i) 1)
  have hi : i = ix2 ⟨0, Nat.one_pos⟩ (i 1) := p1_row_idx i
  have he : (((cfg10.win 5).blk t).view.emb i) 1 = i 1 :=
    Fin.ext (by show win10_5.index t (1 : Fin 2) * 64 + 1 * (i 1).val = (i 1).val; omega)
  refine (congrArg (outsAt10 (F := Ideal) V c t.val t.isLt).2.1 hi).trans ?_
  refine (outs10_s V c (i 1) t.val t rfl).trans ?_
  rw [he, h9]
  exact p1_acc_total _ _

/-- The same for the accumulator of squares. -/
theorem flushed10_6 (t : Fin cfg10.N) (hf : (cfg10.win 6).flush t = true) :
    (dat10 (F := Ideal) V c).flushed 6 t = ((cfg10.win 6).blk t).view.read (Elt Ideal)
      (fun i : S1x64.Idx => colSum (fun j => hpre (V c (Pipeline.arrRef spec10 0)) (V c (Pipeline.arrRef spec10 1)) (V c (Pipeline.arrRef spec10 2)) (row (V c (Pipeline.arrRef spec10 3))) j * hpre (V c (Pipeline.arrRef spec10 0)) (V c (Pipeline.arrRef spec10 1)) (V c (Pipeline.arrRef spec10 2)) (row (V c (Pipeline.arrRef spec10 3))) j) (i 1)) := by
  have hN : cfg10.N = 10 := N_10
  have h9 : t.val = 9 := by have := (flush10_6 t).mp hf; have := t.isLt; omega
  obtain ⟨a0, a1, b0, b1, w0, w1, r0, r1, o0, o1, s0, s1, q0, q1⟩ := idx10 t
  show (cfg10.win 6).cut (grid10.coords t) ((dat10 V c).after 6 t) = _
  rw [after10_6]
  funext i
  show (outsAt10 (F := Ideal) V c t.val t.isLt).2.2 i
    = colSum (fun j => hpre (V c (Pipeline.arrRef spec10 0)) (V c (Pipeline.arrRef spec10 1)) (V c (Pipeline.arrRef spec10 2)) (row (V c (Pipeline.arrRef spec10 3))) j * hpre (V c (Pipeline.arrRef spec10 0)) (V c (Pipeline.arrRef spec10 1)) (V c (Pipeline.arrRef spec10 2)) (row (V c (Pipeline.arrRef spec10 3))) j) ((((cfg10.win 6).blk t).view.emb i) 1)
  have hi : i = ix2 ⟨0, Nat.one_pos⟩ (i 1) := p1_row_idx i
  have he : (((cfg10.win 6).blk t).view.emb i) 1 = i 1 :=
    Fin.ext (by show win10_6.index t (1 : Fin 2) * 64 + 1 * (i 1).val = (i 1).val; omega)
  refine (congrArg (outsAt10 (F := Ideal) V c t.val t.isLt).2.2 hi).trans ?_
  refine (outs10_q V c (i 1) t.val t rfl).trans ?_
  rw [he, h9]
  exact p1_acc_total _ _

/-- The last point's block of an accumulator is the whole one-row array. -/
theorem cover10_5 (i : S1x64.Idx) : ∃ t : Fin cfg10.N, (cfg10.win 5).flush t = true ∧ i ∈ ((cfg10.win 5).blk t).view.set := by
  have hi0 : (i 0).val < 1 := (i 0).isLt
  have hi1 : (i 1).val < 64 := (i 1).isLt
  refine ⟨t10_9, (flush10_5 t10_9).mpr rfl, ?_⟩
  obtain ⟨a0, a1, b0, b1, w0, w1, r0, r1, o0, o1, s0, s1, q0, q1⟩ := idx10 t10_9
  show i ∈ ((View.whole main_v137_1).slice (win10_5.rect t10_9)).set
  rw [View.set_slice_whole, Rect.mem_set_unit]
  intro a
  match a with
  | ⟨0, _⟩ => show win10_5.index t10_9 (0 : Fin 2) * 1 ≤ (i 0).val ∧ (i 0).val < win10_5.index t10_9 (0 : Fin 2) * 1 + 1; rw [s0]; omega
  | ⟨1, _⟩ => show win10_5.index t10_9 (1 : Fin 2) * 64 ≤ (i 1).val ∧ (i 1).val < win10_5.index t10_9 (1 : Fin 2) * 64 + 64; rw [s1]; omega

theorem cover10_6 (i : S1x64.Idx) : ∃ t : Fin cfg10.N, (cfg10.win 6).flush t = true ∧ i ∈ ((cfg10.win 6).blk t).view.set := by
  have hi0 : (i 0).val < 1 := (i 0).isLt
  have hi1 : (i 1).val < 64 := (i 1).isLt
  refine ⟨t10_9, (flush10_6 t10_9).mpr rfl, ?_⟩
  obtain ⟨a0, a1, b0, b1, w0, w1, r0, r1, o0, o1, s0, s1, q0, q1⟩ := idx10 t10_9
  show i ∈ ((View.whole main_v137_2).slice (win10_6.rect t10_9)).set
  rw [View.set_slice_whole, Rect.mem_set_unit]
  intro a
  match a with
  | ⟨0, _⟩ => show win10_6.index t10_9 (0 : Fin 2) * 1 ≤ (i 0).val ∧ (i 0).val < win10_6.index t10_9 (0 : Fin 2) * 1 + 1; rw [q0]; omega
  | ⟨1, _⟩ => show win10_6.index t10_9 (1 : Fin 2) * 64 ≤ (i 1).val ∧ (i 1).val < win10_6.index t10_9 (1 : Fin 2) * 64 + 64; rw [q1]; omega

/-- The two accumulator arrays after region 10: the column totals of the node map and of its squares. -/
theorem pass1_10_s_val : ((dat10 (F := Ideal) V c).arrAt 5 cfg10.N : Arr2 1 64) = fun i => colSum (hpre (V c (Pipeline.arrRef spec10 0)) (V c (Pipeline.arrRef spec10 1)) (V c (Pipeline.arrRef spec10 2)) (row (V c (Pipeline.arrRef spec10 3)))) (i 1) :=
  (dat10 (F := Ideal) V c).arrAt_eq_of_cover 5 _ (flushed10_5 V c) (cover10_5)

theorem pass1_10_q_val : ((dat10 (F := Ideal) V c).arrAt 6 cfg10.N : Arr2 1 64) = fun i => colSum (fun j => hpre (V c (Pipeline.arrRef spec10 0)) (V c (Pipeline.arrRef spec10 1)) (V c (Pipeline.arrRef spec10 2)) (row (V c (Pipeline.arrRef spec10 3))) j * hpre (V c (Pipeline.arrRef spec10 0)) (V c (Pipeline.arrRef spec10 1)) (V c (Pipeline.arrRef spec10 2)) (row (V c (Pipeline.arrRef spec10 3))) j) (i 1) :=
  (dat10 (F := Ideal) V c).arrAt_eq_of_cover 6 _ (flushed10_6 V c) (cover10_6)

/-! ## Region 13 -/

/-- The block maps of region 13, decided over its 10 points: the two row operands and the node map move down
    with the point; the weight, the bias and the two accumulators stay. -/
theorem idx13 : ∀ t : Fin cfg13.N, win13_0.index t (0 : Fin 2) = t.val ∧ win13_0.index t (1 : Fin 2) = 0
    ∧ win13_1.index t (0 : Fin 2) = t.val ∧ win13_1.index t (1 : Fin 2) = 0
    ∧ win13_2.index t (0 : Fin 2) = 0 ∧ win13_2.index t (1 : Fin 2) = 0
    ∧ win13_3.index t (0 : Fin 2) = 0 ∧ win13_3.index t (1 : Fin 2) = 0
    ∧ win13_4.index t (0 : Fin 2) = t.val ∧ win13_4.index t (1 : Fin 2) = 0
    ∧ win13_5.index t (0 : Fin 2) = 0 ∧ win13_5.index t (1 : Fin 2) = 0
    ∧ win13_6.index t (0 : Fin 2) = 0 ∧ win13_6.index t (1 : Fin 2) = 0 :=
  (by decide +kernel : ∀ t : Fin grid13.N, _)

/-- What the first point's body leaves in the node map's buffer: the node map of the loaded blocks. -/
theorem outA13_4 (c : Dev nD) (i : grid13.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond13_0 i) (x0 x1 : Vec Ideal S5000x64 .f32) (x2 : Vec Ideal S64x64 .f32) (x3 : Vec Ideal S1x64 .f32) :
    out13_A_4 (F := Ideal) c i a1 h1 a2 h2 a3 h3 a4 h4 a5 h5 a6 h6 a7 h7 hc x0 x1 x2 x3 = k13_pay3 x0 x1 x2 x3 := by
  unfold out13_A_4
  rw [View.read_writes_eq_canon _ _ _ (cover13_A_4 c i a1 h1 a2 h2 a3 h3 a4 h4 a5 h5 a6 h6 a7 h7 hc x0 x1 x2 x3)]
  unfold kernelRun13_A
  dsimp only
  rw [View.canon_unit_zero (S := S5000x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- What a later point's body leaves there: the same. -/
theorem outB13_4 (c : Dev nD) (i : grid13.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond13_0 i) (x0 x1 : Vec Ideal S5000x64 .f32) (x2 : Vec Ideal S64x64 .f32) (x3 : Vec Ideal S1x64 .f32) (xo5 xo6 : Vec Ideal S1x64 .f32) :
    out13_B_4 (F := Ideal) c i a1 h1 a2 h2 a3 h3 a4 h4 a5 h5 a6 h6 a7 h7 hc x0 x1 x2 x3 xo5 xo6 = k13_pay3 x0 x1 x2 x3 := by
  unfold out13_B_4
  rw [View.read_writes_eq_canon _ _ _ (cover13_B_4 c i a1 h1 a2 h2 a3 h3 a4 h4 a5 h5 a6 h6 a7 h7 hc x0 x1 x2 x3 xo5 xo6)]
  unfold kernelRun13_B
  dsimp only
  rw [View.canon_unit_zero (S := S5000x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- What the first point's body leaves in the first accumulator: the zero block plus the block's totals. -/
theorem outA13_5 (c : Dev nD) (i : grid13.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond13_0 i) (x0 x1 : Vec Ideal S5000x64 .f32) (x2 : Vec Ideal S64x64 .f32) (x3 : Vec Ideal S1x64 .f32) :
    out13_A_5 (F := Ideal) c i a1 h1 a2 h2 a3 h3 a4 h4 a5 h5 a6 h6 a7 h7 hc x0 x1 x2 x3 = k13_pay4 x0 x1 x2 x3 (k13_pay1 (F := Ideal)) := by
  unfold out13_A_5
  rw [View.read_writes_eq_canon _ _ _ (cover13_A_5 c i a1 h1 a2 h2 a3 h3 a4 h4 a5 h5 a6 h6 a7 h7 hc x0 x1 x2 x3)]
  unfold kernelRun13_A
  dsimp only
  sl_unfold_words
  rw [View.canon_cons_unit_zero (S := S1x64) p1_hz, View.readCov_unit_zero (S := S1x64) _ p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- What a later point's body leaves there: what it held plus the block's totals. -/
theorem outB13_5 (c : Dev nD) (i : grid13.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond13_0 i) (x0 x1 : Vec Ideal S5000x64 .f32) (x2 : Vec Ideal S64x64 .f32) (x3 : Vec Ideal S1x64 .f32) (xo5 xo6 : Vec Ideal S1x64 .f32) :
    out13_B_5 (F := Ideal) c i a1 h1 a2 h2 a3 h3 a4 h4 a5 h5 a6 h6 a7 h7 hc x0 x1 x2 x3 xo5 xo6 = k13_pay4 x0 x1 x2 x3 xo5 := by
  unfold out13_B_5
  rw [View.read_writes_eq_canon _ _ _ (cover13_B_5 c i a1 h1 a2 h2 a3 h3 a4 h4 a5 h5 a6 h6 a7 h7 hc x0 x1 x2 x3 xo5 xo6)]
  unfold kernelRun13_B
  dsimp only
  rw [View.canon_unit_zero (S := S1x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- The same for the accumulator of squares. -/
theorem outA13_6 (c : Dev nD) (i : grid13.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : cond13_0 i) (x0 x1 : Vec Ideal S5000x64 .f32) (x2 : Vec Ideal S64x64 .f32) (x3 : Vec Ideal S1x64 .f32) :
    out13_A_6 (F := Ideal) c i a1 h1 a2 h2 a3 h3 a4 h4 a5 h5 a6 h6 a7 h7 hc x0 x1 x2 x3 = k13_pay5 x0 x1 x2 x3 (k13_pay2 (F := Ideal)) := by
  unfold out13_A_6
  rw [View.read_writes_eq_canon _ _ _ (cover13_A_6 c i a1 h1 a2 h2 a3 h3 a4 h4 a5 h5 a6 h6 a7 h7 hc x0 x1 x2 x3)]
  unfold kernelRun13_A
  dsimp only
  sl_unfold_words
  rw [View.canon_cons_unit_zero (S := S1x64) p1_hz, View.readCov_unit_zero (S := S1x64) _ p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

theorem outB13_6 (c : Dev nD) (i : grid13.Coords) (a1 : Memref sig .tc .vmem S5000x64 .f32) (h1 : a1.IsWhole) (a2 : Memref sig .tc .vmem S5000x64 .f32) (h2 : a2.IsWhole)
    (a3 : Memref sig .tc .vmem S64x64 .f32) (h3 : a3.IsWhole) (a4 : Memref sig .tc .vmem S1x64 .f32) (h4 : a4.IsWhole)
    (a5 : Memref sig .tc .vmem S5000x64 .f32) (h5 : a5.IsWhole) (a6 : Memref sig .tc .vmem S1x64 .f32) (h6 : a6.IsWhole)
    (a7 : Memref sig .tc .vmem S1x64 .f32) (h7 : a7.IsWhole) (hc : ¬cond13_0 i) (x0 x1 : Vec Ideal S5000x64 .f32) (x2 : Vec Ideal S64x64 .f32) (x3 : Vec Ideal S1x64 .f32) (xo5 xo6 : Vec Ideal S1x64 .f32) :
    out13_B_6 (F := Ideal) c i a1 h1 a2 h2 a3 h3 a4 h4 a5 h5 a6 h6 a7 h7 hc x0 x1 x2 x3 xo5 xo6 = k13_pay5 x0 x1 x2 x3 xo6 := by
  unfold out13_B_6
  rw [View.read_writes_eq_canon _ _ _ (cover13_B_6 c i a1 h1 a2 h2 a3 h3 a4 h4 a5 h5 a6 h6 a7 h7 hc x0 x1 x2 x3 xo5 xo6)]
  unfold kernelRun13_B
  dsimp only
  rw [View.canon_unit_zero (S := S1x64) p1_hz]
  simp only [View.readAt_eq_ld, h1.read_unread, h2.read_unread, h3.read_unread, h4.read_unread, h5.read_unread, h6.read_unread, h7.read_unread,
    View.ld_unit_zero (S := S5000x64) p1_hz, View.ld_unit_zero (S := S64x64) p1_hz, View.ld_unit_zero (S := S1x64) p1_hz, View.ld_unit_zero (S := S5000x64) p1_hz]

/-- The node map of the blocks point `t` loads, at an entry, is the node map of the arrays at the entry
    5000·t rows further down. -/
theorem blk13_h (t : Fin cfg13.N) (j : S5000x64.Idx) (i' : S50000x64.Idx)
    (e0 : (i' 0).val = t.val * 5000 + (j 0).val) (e1 : (i' 1).val = (j 1).val) :
    hpre (iblk13 (F := Ideal) V c 0 t) (iblk13 V c 1 t) (iblk13 V c 2 t) (row (iblk13 V c 3 t)) j = hpre (V c (Pipeline.arrRef spec13 0)) (V c (Pipeline.arrRef spec13 1)) (V c (Pipeline.arrRef spec13 2)) (row (V c (Pipeline.arrRef spec13 3))) i' := by
  obtain ⟨a0, a1, b0, b1, w0, w1, r0, r1, o0, o1, s0, s1, q0, q1⟩ := idx13 t
  refine hpre_congr (N := 5000) (N' := 50000) (C := 64) (H := 64) (iblk13 V c 0 t) (iblk13 V c 1 t) (V c (Pipeline.arrRef spec13 0)) (V c (Pipeline.arrRef spec13 1))
    (iblk13 V c 2 t) (V c (Pipeline.arrRef spec13 2)) (row (iblk13 V c 3 t)) (row (V c (Pipeline.arrRef spec13 3))) j i' ?_ ?_ ?_ ?_
  · intro q
    show (V c (Pipeline.arrRef spec13 0)) (((cfg13.win 0).blk t).view.emb (ix2 (j 0) q)) = (V c (Pipeline.arrRef spec13 0)) (ix2 (i' 0) q)
    refine congrArg _ (funext fun a => Fin.ext ?_)
    match a with
    | ⟨0, _⟩ => show win13_0.index t (0 : Fin 2) * 5000 + 1 * (j 0).val = (i' 0).val; omega
    | ⟨1, _⟩ => show win13_0.index t (1 : Fin 2) * 64 + 1 * q.val = q.val; omega
  · intro q
    show (V c (Pipeline.arrRef spec13 1)) (((cfg13.win 1).blk t).view.emb (ix2 (j 0) q)) = (V c (Pipeline.arrRef spec13 1)) (ix2 (i' 0) q)
    refine congrArg _ (funext fun a => Fin.ext ?_)
    match a with
    | ⟨0, _⟩ => show win13_1.index t (0 : Fin 2) * 5000 + 1 * (j 0).val = (i' 0).val; omega
    | ⟨1, _⟩ => show win13_1.index t (1 : Fin 2) * 64 + 1 * q.val = q.val; omega
  · intro q
    show (V c (Pipeline.arrRef spec13 2)) (((cfg13.win 2).blk t).view.emb (ix2 q (j 1))) = (V c (Pipeline.arrRef spec13 2)) (ix2 q (i' 1))
    refine congrArg _ (funext fun a => Fin.ext ?_)
    match a with
    | ⟨0, _⟩ => show win13_2.index t (0 : Fin 2) * 64 + 1 * q.val = q.val; omega
    | ⟨1, _⟩ => show win13_2.index t (1 : Fin 2) * 64 + 1 * (j 1).val = (i' 1).val; omega
  · show (V c (Pipeline.arrRef spec13 3)) (((cfg13.win 3).blk t).view.emb (ix2 0 (j 1))) = (V c (Pipeline.arrRef spec13 3)) (ix2 0 (i' 1))
    refine congrArg _ (funext fun a => Fin.ext ?_)
    match a with
    | ⟨0, _⟩ => show win13_3.index t (0 : Fin 2) * 1 + 1 * 0 = 0; omega
    | ⟨1, _⟩ => show win13_3.index t (1 : Fin 2) * 64 + 1 * (j 1).val = (i' 1).val; omega

set_option maxHeartbeats 2000000 in
/-- After every point the node map's buffer holds the node map of the point's blocks. -/
theorem outs13_h (t : Fin cfg13.N) (j : S5000x64.Idx) : (outsAt13 (F := Ideal) V c t.val t.isLt).1 j = k13_pay3 (iblk13 V c 0 t) (iblk13 V c 1 t) (iblk13 V c 2 t) (iblk13 V c 3 t) j := by
  by_cases h0 : t.val % 10 = 0
  · rw [outsAt13_A V c t h0]
    dsimp only
    rw [outA13_4]
  · rw [outsAt13_B V c t h0]
    dsimp only
    rw [outB13_4]

/-- The block point `t` adds to the first accumulator, at column j: block t's column total of the node map. -/
theorem blk13_s (t : Fin cfg13.N) (j : Fin 64) :
    ∑ r : Fin 5000, hpre (iblk13 (F := Ideal) V c 0 t) (iblk13 V c 1 t) (iblk13 V c 2 t) (row (iblk13 V c 3 t)) (ix2 r j)
      = p1_blkTot (hpre (V c (Pipeline.arrRef spec13 0)) (V c (Pipeline.arrRef spec13 1)) (V c (Pipeline.arrRef spec13 2)) (row (V c (Pipeline.arrRef spec13 3)))) j t.val := by
  have hN : t.val < 10 := lt_of_lt_of_eq t.isLt (show cfg13.N = 10 from N_13)
  rw [p1_blkTot_eq _ _ _ hN]
  exact Finset.sum_congr rfl fun r _ => blk13_h V c t (ix2 r j) (ix2 ⟨t.val * 5000 + r.val, Cert.SumBlocks.block_lt (a := 10) (b := 5000) ⟨t.val, hN⟩ r⟩ j) rfl rfl

/-- The same for the squares. -/
theorem blk13_q (t : Fin cfg13.N) (j : Fin 64) :
    ∑ r : Fin 5000, hpre (iblk13 (F := Ideal) V c 0 t) (iblk13 V c 1 t) (iblk13 V c 2 t) (row (iblk13 V c 3 t)) (ix2 r j)
        * hpre (iblk13 (F := Ideal) V c 0 t) (iblk13 V c 1 t) (iblk13 V c 2 t) (row (iblk13 V c 3 t)) (ix2 r j)
      = p1_blkTot (fun i => hpre (V c (Pipeline.arrRef spec13 0)) (V c (Pipeline.arrRef spec13 1)) (V c (Pipeline.arrRef spec13 2)) (row (V c (Pipeline.arrRef spec13 3))) i * hpre (V c (Pipeline.arrRef spec13 0)) (V c (Pipeline.arrRef spec13 1)) (V c (Pipeline.arrRef spec13 2)) (row (V c (Pipeline.arrRef spec13 3))) i) j t.val := by
  have hN : t.val < 10 := lt_of_lt_of_eq t.isLt (show cfg13.N = 10 from N_13)
  rw [p1_blkTot_eq _ _ _ hN]
  exact Finset.sum_congr rfl fun r _ => by rw [blk13_h V c t (ix2 r j) (ix2 ⟨t.val * 5000 + r.val, Cert.SumBlocks.block_lt (a := 10) (b := 5000) ⟨t.val, hN⟩ r⟩ j) rfl rfl]

set_option maxHeartbeats 2000000 in
/-- After point n the first accumulator holds, at column j, the zero word plus the column totals of blocks 0..n:
    by induction on the point, the first point storing the zero block first, a later one adding to what the
    point before left. -/
theorem outs13_s (j : Fin 64) : ∀ (n : ℕ) (t : Fin cfg13.N), t.val = n →
    (outsAt13 (F := Ideal) V c t.val t.isLt).2.1 (ix2 ⟨0, Nat.one_pos⟩ j)
      = wZero + ∑ x ∈ Finset.range (t.val + 1), p1_blkTot (hpre (V c (Pipeline.arrRef spec13 0)) (V c (Pipeline.arrRef spec13 1)) (V c (Pipeline.arrRef spec13 2)) (row (V c (Pipeline.arrRef spec13 3)))) j x
  | 0, t, ht => by
    have h0 : t.val % 10 = 0 := by omega
    rw [outsAt13_A V c t h0]
    dsimp only
    rw [outA13_5, pass1_pay13_s, blk13_s V c t j, Finset.sum_range_succ, ht, Finset.sum_range_zero, zero_add]
    rfl
  | n + 1, t, ht => by
    have hN : cfg13.N = 10 := N_13
    have hlt : t.val < cfg13.N := t.isLt
    have hB : ¬t.val % 10 = 0 := by omega
    rw [outsAt13_B V c t hB]
    dsimp only
    rw [outB13_5, pass1_pay13_s, blk13_s V c t j]
    have ih := outs13_s j n ⟨t.val - 1, Nat.lt_of_le_of_lt (Nat.sub_le _ _) t.isLt⟩ (by show t.val - 1 = n; omega)
    refine (congrArg (fun s => s + p1_blkTot (hpre (V c (Pipeline.arrRef spec13 0)) (V c (Pipeline.arrRef spec13 1)) (V c (Pipeline.arrRef spec13 2)) (row (V c (Pipeline.arrRef spec13 3)))) j t.val) ih).trans ?_
    dsimp only
    rw [show t.val - 1 + 1 = t.val from by omega, Finset.sum_range_succ _ t.val, add_assoc]

set_option maxHeartbeats 2000000 in
/-- After point n the second accumulator holds the same of the squares. -/
theorem outs13_q (j : Fin 64) : ∀ (n : ℕ) (t : Fin cfg13.N), t.val = n →
    (outsAt13 (F := Ideal) V c t.val t.isLt).2.2 (ix2 ⟨0, Nat.one_pos⟩ j)
      = wZero + ∑ x ∈ Finset.range (t.val + 1), p1_blkTot (fun i => hpre (V c (Pipeline.arrRef spec13 0)) (V c (Pipeline.arrRef spec13 1)) (V c (Pipeline.arrRef spec13 2)) (row (V c (Pipeline.arrRef spec13 3))) i * hpre (V c (Pipeline.arrRef spec13 0)) (V c (Pipeline.arrRef spec13 1)) (V c (Pipeline.arrRef spec13 2)) (row (V c (Pipeline.arrRef spec13 3))) i) j x
  | 0, t, ht => by
    have h0 : t.val % 10 = 0 := by omega
    rw [outsAt13_A V c t h0]
    dsimp only
    rw [outA13_6, pass1_pay13_q, blk13_q V c t j, Finset.sum_range_succ, ht, Finset.sum_range_zero, zero_add]
    rfl
  | n + 1, t, ht => by
    have hN : cfg13.N = 10 := N_13
    have hlt : t.val < cfg13.N := t.isLt
    have hB : ¬t.val % 10 = 0 := by omega
    rw [outsAt13_B V c t hB]
    dsimp only
    rw [outB13_6, pass1_pay13_q, blk13_q V c t j]
    have ih := outs13_q j n ⟨t.val - 1, Nat.lt_of_le_of_lt (Nat.sub_le _ _) t.isLt⟩ (by show t.val - 1 = n; omega)
    refine (congrArg (fun s => s + p1_blkTot (fun i => hpre (V c (Pipeline.arrRef spec13 0)) (V c (Pipeline.arrRef spec13 1)) (V c (Pipeline.arrRef spec13 2)) (row (V c (Pipeline.arrRef spec13 3))) i * hpre (V c (Pipeline.arrRef spec13 0)) (V c (Pipeline.arrRef spec13 1)) (V c (Pipeline.arrRef spec13 2)) (row (V c (Pipeline.arrRef spec13 3))) i) j t.val) ih).trans ?_
    dsimp only
    rw [show t.val - 1 + 1 = t.val from by omega, Finset.sum_range_succ _ t.val, add_assoc]

/-- What point `t` writes back is block `t` of the node map of the arrays the region finds. -/
theorem flushed13_4 (t : Fin cfg13.N) :
    (dat13 (F := Ideal) V c).flushed 4 t = ((cfg13.win 4).blk t).view.read (Elt Ideal) (hpre (V c (Pipeline.arrRef spec13 0)) (V c (Pipeline.arrRef spec13 1)) (V c (Pipeline.arrRef spec13 2)) (row (V c (Pipeline.arrRef spec13 3)))) := by
  show (cfg13.win 4).cut (grid13.coords t) ((dat13 V c).after 4 t) = _
  rw [after13_4]
  obtain ⟨a0, a1, b0, b1, w0, w1, r0, r1, o0, o1, s0, s1, q0, q1⟩ := idx13 t
  funext j
  refine (outs13_h V c t j).trans ?_
  refine (pass1_pay13_h (iblk13 V c 0 t) (iblk13 V c 1 t) (iblk13 V c 2 t) (iblk13 V c 3 t) j).trans ?_
  refine blk13_h V c t j (((cfg13.win 4).blk t).view.emb j) ?_ ?_
  · show win13_4.index t (0 : Fin 2) * 5000 + 1 * (j 0).val = t.val * 5000 + (j 0).val; omega
  · show win13_4.index t (1 : Fin 2) * 64 + 1 * (j 1).val = (j 1).val; omega

/-- An entry of the node map's array is in point `t`'s block iff each coordinate is in the block's range. -/
theorem mem_blk13_4 (t : Fin cfg13.N) (i : S50000x64.Idx) :
    i ∈ ((cfg13.win 4).blk t).view.set ↔ ∀ a : Fin 2, win13_4.index t a * S5000x64.size a ≤ (i a).val ∧ (i a).val < win13_4.index t a * S5000x64.size a + S5000x64.size a := by
  show i ∈ ((View.whole main_v177_0).slice (win13_4.rect t)).set ↔ _
  rw [View.set_slice_whole, Rect.mem_set_unit]
  exact Iff.rfl

/-- Every row of the node map lies in the block of the point its number over 5000 names. -/
theorem cover13_4 (i : S50000x64.Idx) : ∃ t : Fin cfg13.N, (cfg13.win 4).flush t = true ∧ i ∈ ((cfg13.win 4).blk t).view.set := by
  have hi0 : (i 0).val < 50000 := (i 0).isLt
  have hi1 : (i 1).val < 64 := (i 1).isLt
  have hN : cfg13.N = 10 := N_13
  refine ⟨⟨(i 0).val / 5000, by rw [hN]; omega⟩, flush13_4 _, ?_⟩
  rw [mem_blk13_4]
  obtain ⟨a0, a1, b0, b1, w0, w1, r0, r1, o0, o1, s0, s1, q0, q1⟩ := idx13 ⟨(i 0).val / 5000, by rw [hN]; omega⟩
  intro a
  match a with
  | ⟨0, _⟩ => show win13_4.index _ (0 : Fin 2) * 5000 ≤ (i 0).val ∧ (i 0).val < win13_4.index _ (0 : Fin 2) * 5000 + 5000; rw [o0]; dsimp only; omega
  | ⟨1, _⟩ => show win13_4.index _ (1 : Fin 2) * 64 ≤ (i 1).val ∧ (i 1).val < win13_4.index _ (1 : Fin 2) * 64 + 64; rw [o1]; omega

/-- The node map's array after region 13: the node map of its four operands. -/
theorem pass1_13_h_val : ((dat13 (F := Ideal) V c).arrAt 4 cfg13.N : Arr2 50000 64) = hpre (V c (Pipeline.arrRef spec13 0)) (V c (Pipeline.arrRef spec13 1)) (V c (Pipeline.arrRef spec13 2)) (row (V c (Pipeline.arrRef spec13 3))) :=
  (dat13 (F := Ideal) V c).arrAt_eq_of_cover 4 _ (fun t _ => flushed13_4 V c t) (cover13_4)

/-- The one write-back of the first accumulator, at the last point, writes the column totals. -/
theorem flushed13_5 (t : Fin cfg13.N) (hf : (cfg13.win 5).flush t = true) :
    (dat13 (F := Ideal) V c).flushed 5 t = ((cfg13.win 5).blk t).view.read (Elt Ideal)
      (fun i : S1x64.Idx => colSum (hpre (V c (Pipeline.arrRef spec13 0)) (V c (Pipeline.arrRef spec13 1)) (V c (Pipeline.arrRef spec13 2)) (row (V c (Pipeline.arrRef spec13 3)))) (i 1)) := by
  have hN : cfg13.N = 10 := N_13
  have h9 : t.val = 9 := by have := (flush13_5 t).mp hf; have := t.isLt; omega
  obtain ⟨a0, a1, b0, b1, w0, w1, r0, r1, o0, o1, s0, s1, q0, q1⟩ := idx13 t
  show (cfg13.win 5).cut (grid13.coords t) ((dat13 V c).after 5 t) = _
  rw [after13_5]
  funext i
  show (outsAt13 (F := Ideal) V c t.val t.isLt).2.1 i = colSum (hpre (V c (Pipeline.arrRef spec13 0)) (V c (Pipeline.arrRef spec13 1)) (V c (Pipeline.arrRef spec13 2)) (row (V c (Pipeline.arrRef spec13 3)))) ((((cfg13.win 5).blk t).view.emb i) 1)
  have hi : i = ix2 ⟨0, Nat.one_pos⟩ (i 1) := p1_row_idx i
  have he : (((cfg13.win 5).blk t).view.emb i) 1 = i 1 :=
    Fin.ext (by show win13_5.index t (1 : Fin 2) * 64 + 1 * (i 1).val = (i 1).val; omega)
  refine (congrArg (outsAt13 (F := Ideal) V c t.val t.isLt).2.1 hi).trans ?_
  refine (outs13_s V c (i 1) t.val t rfl).trans ?_
  rw [he, h9]
  exact p1_acc_total _ _

/-- The same for the accumulator of squares. -/
theorem flushed13_6 (t : Fin cfg13.N) (hf : (cfg13.win 6).flush t = true) :
    (dat13 (F := Ideal) V c).flushed 6 t = ((cfg13.win 6).blk t).view.read (Elt Ideal)
      (fun i : S1x64.Idx => colSum (fun j => hpre (V c (Pipeline.arrRef spec13 0)) (V c (Pipeline.arrRef spec13 1)) (V c (Pipeline.arrRef spec13 2)) (row (V c (Pipeline.arrRef spec13 3))) j * hpre (V c (Pipeline.arrRef spec13 0)) (V c (Pipeline.arrRef spec13 1)) (V c (Pipeline.arrRef spec13 2)) (row (V c (Pipeline.arrRef spec13 3))) j) (i 1)) := by
  have hN : cfg13.N = 10 := N_13
  have h9 : t.val = 9 := by have := (flush13_6 t).mp hf; have := t.isLt; omega
  obtain ⟨a0, a1, b0, b1, w0, w1, r0, r1, o0, o1, s0, s1, q0, q1⟩ := idx13 t
  show (cfg13.win 6).cut (grid13.coords t) ((dat13 V c).after 6 t) = _
  rw [after13_6]
  funext i
  show (outsAt13 (F := Ideal) V c t.val t.isLt).2.2 i
    = colSum (fun j => hpre (V c (Pipeline.arrRef spec13 0)) (V c (Pipeline.arrRef spec13 1)) (V c (Pipeline.arrRef spec13 2)) (row (V c (Pipeline.arrRef spec13 3))) j * hpre (V c (Pipeline.arrRef spec13 0)) (V c (Pipeline.arrRef spec13 1)) (V c (Pipeline.arrRef spec13 2)) (row (V c (Pipeline.arrRef spec13 3))) j) ((((cfg13.win 6).blk t).view.emb i) 1)
  have hi : i = ix2 ⟨0, Nat.one_pos⟩ (i 1) := p1_row_idx i
  have he : (((cfg13.win 6).blk t).view.emb i) 1 = i 1 :=
    Fin.ext (by show win13_6.index t (1 : Fin 2) * 64 + 1 * (i 1).val = (i 1).val; omega)
  refine (congrArg (outsAt13 (F := Ideal) V c t.val t.isLt).2.2 hi).trans ?_
  refine (outs13_q V c (i 1) t.val t rfl).trans ?_
  rw [he, h9]
  exact p1_acc_total _ _

/-- The last point's block of an accumulator is the whole one-row array. -/
theorem cover13_5 (i : S1x64.Idx) : ∃ t : Fin cfg13.N, (cfg13.win 5).flush t = true ∧ i ∈ ((cfg13.win 5).blk t).view.set := by
  have hi0 : (i 0).val < 1 := (i 0).isLt
  have hi1 : (i 1).val < 64 := (i 1).isLt
  refine ⟨t13_9, (flush13_5 t13_9).mpr rfl, ?_⟩
  obtain ⟨a0, a1, b0, b1, w0, w1, r0, r1, o0, o1, s0, s1, q0, q1⟩ := idx13 t13_9
  show i ∈ ((View.whole main_v177_1).slice (win13_5.rect t13_9)).set
  rw [View.set_slice_whole, Rect.mem_set_unit]
  intro a
  match a with
  | ⟨0, _⟩ => show win13_5.index t13_9 (0 : Fin 2) * 1 ≤ (i 0).val ∧ (i 0).val < win13_5.index t13_9 (0 : Fin 2) * 1 + 1; rw [s0]; omega
  | ⟨1, _⟩ => show win13_5.index t13_9 (1 : Fin 2) * 64 ≤ (i 1).val ∧ (i 1).val < win13_5.index t13_9 (1 : Fin 2) * 64 + 64; rw [s1]; omega

theorem cover13_6 (i : S1x64.Idx) : ∃ t : Fin cfg13.N, (cfg13.win 6).flush t = true ∧ i ∈ ((cfg13.win 6).blk t).view.set := by
  have hi0 : (i 0).val < 1 := (i 0).isLt
  have hi1 : (i 1).val < 64 := (i 1).isLt
  refine ⟨t13_9, (flush13_6 t13_9).mpr rfl, ?_⟩
  obtain ⟨a0, a1, b0, b1, w0, w1, r0, r1, o0, o1, s0, s1, q0, q1⟩ := idx13 t13_9
  show i ∈ ((View.whole main_v177_2).slice (win13_6.rect t13_9)).set
  rw [View.set_slice_whole, Rect.mem_set_unit]
  intro a
  match a with
  | ⟨0, _⟩ => show win13_6.index t13_9 (0 : Fin 2) * 1 ≤ (i 0).val ∧ (i 0).val < win13_6.index t13_9 (0 : Fin 2) * 1 + 1; rw [q0]; omega
  | ⟨1, _⟩ => show win13_6.index t13_9 (1 : Fin 2) * 64 ≤ (i 1).val ∧ (i 1).val < win13_6.index t13_9 (1 : Fin 2) * 64 + 64; rw [q1]; omega

/-- The two accumulator arrays after region 13: the column totals of the node map and of its squares. -/
theorem pass1_13_s_val : ((dat13 (F := Ideal) V c).arrAt 5 cfg13.N : Arr2 1 64) = fun i => colSum (hpre (V c (Pipeline.arrRef spec13 0)) (V c (Pipeline.arrRef spec13 1)) (V c (Pipeline.arrRef spec13 2)) (row (V c (Pipeline.arrRef spec13 3)))) (i 1) :=
  (dat13 (F := Ideal) V c).arrAt_eq_of_cover 5 _ (flushed13_5 V c) (cover13_5)

theorem pass1_13_q_val : ((dat13 (F := Ideal) V c).arrAt 6 cfg13.N : Arr2 1 64) = fun i => colSum (fun j => hpre (V c (Pipeline.arrRef spec13 0)) (V c (Pipeline.arrRef spec13 1)) (V c (Pipeline.arrRef spec13 2)) (row (V c (Pipeline.arrRef spec13 3))) j * hpre (V c (Pipeline.arrRef spec13 0)) (V c (Pipeline.arrRef spec13 1)) (V c (Pipeline.arrRef spec13 2)) (row (V c (Pipeline.arrRef spec13 3))) j) (i 1) :=
  (dat13 (F := Ideal) V c).arrAt_eq_of_cover 6 _ (flushed13_6 V c) (cover13_6)

end Cert.KernelIdeal.RegVal

end
-- ==== Proof.PayPass2.lean ====
/-
  The second node pass's arithmetic, entry by entry, as the specification's `post` on the blocks the body
  loads.
-/
import proofs.«122931_j61864708931975_1_alg».proof.Proof.Gen.KernelIdeal.Skeleton
import proofs.«122931_j61864708931975_1_alg».proof.Proof.Spec
import proofs.«122931_j61864708931975_1_alg».proof.Proof.LibDense
import proofs.«122931_j61864708931975_1_alg».proof.Proof.LibBiasRows
import proofs.«122931_j61864708931975_1_alg».proof.Proof.LibAxisSum

noncomputable section

namespace Cert.KernelIdeal.RegVal

open Idealize.ShloMosaic Idealize.ShloMosaic.ValueIdx Cert.KernelIdeal Cert.KernelIdeal.Gen Cert.Gine

/-- The zero word and the slope word as the vector unit spells them. -/
theorem wZero_eq : (FloatOps.ofBits (F := Ideal) .f32 0x00000000#32 : EReal) = wZero := rfl
theorem wSlope_eq : (FloatOps.ofBits (F := Ideal) .f32 0x3C23D70A#32 : EReal) = wSlope := rfl
theorem wEps_eq : (FloatOps.ofBits (F := Ideal) .f32 0x3727C5AC#32 : EReal) = wEps := rfl

/-- The vector unit's leaky rectifier at an entry. -/
theorem leaky_vec {s : Shape} (a : FVec Ideal s .f32) (j : s.Idx) :
    select (cmpf .oge a (broadcast s (FloatOps.ofBits (F := Ideal) .f32 0x00000000#32))) a
      (mulf (broadcast s (FloatOps.ofBits (F := Ideal) .f32 0x3C23D70A#32)) a) j = leaky (a j) := rfl

/-- The normalised, scaled and shifted entry as the vector unit spells it: the four rows broadcast down
    the block. -/
theorem norm_vec {n H : ℕ} (h : FVec Ideal ⟨2, ![n, H]⟩ .f32) (mu var g be : FVec Ideal ⟨2, ![1, H]⟩ .f32)
    (h0 : (⟨2, ![n, H]⟩ : Shape).ShapeCasts ⟨2, ![n, H]⟩) (h1 : (⟨2, ![1, H]⟩ : Shape).ShapeCasts ⟨2, ![1, H]⟩)
    (h2 : (⟨2, ![1, H]⟩ : Shape).Broadcasts ⟨2, ![n, H]⟩) (j : (⟨2, ![n, H]⟩ : Shape).Idx) :
    addf (mulf (mulf (subf (shapeCast ⟨2, ![n, H]⟩ h h0) (broadcastTo ⟨2, ![n, H]⟩ (shapeCast ⟨2, ![1, H]⟩ mu h1) h2))
        (broadcastTo ⟨2, ![n, H]⟩ (rsqrt (addf (shapeCast ⟨2, ![1, H]⟩ var h1)
          (broadcast ⟨2, ![1, H]⟩ (FloatOps.ofBits (F := Ideal) .f32 0x3727C5AC#32)))) h2))
        (broadcastTo ⟨2, ![n, H]⟩ (shapeCast ⟨2, ![1, H]⟩ g h1) h2))
      (broadcastTo ⟨2, ![n, H]⟩ (shapeCast ⟨2, ![1, H]⟩ be h1) h2) j
      = ((h j - row mu (j 1)) * Ideal.rsqrt (row var (j 1) + wEps)) * row g (j 1) + row be (j 1) := by
  rw [shapeCast_self, shapeCast_self, shapeCast_self, shapeCast_self, shapeCast_self]
  show ((h j - broadcastTo ⟨2, ![n, H]⟩ mu h2 j) * broadcastTo ⟨2, ![n, H]⟩ (rsqrt (addf var
      (broadcast ⟨2, ![1, H]⟩ (FloatOps.ofBits (F := Ideal) .f32 0x3727C5AC#32)))) h2 j) * broadcastTo ⟨2, ![n, H]⟩ g h2 j
      + broadcastTo ⟨2, ![n, H]⟩ be h2 j = _
  rw [Cert.LibBiasRows.row_broadcast mu, Cert.LibBiasRows.row_broadcast g, Cert.LibBiasRows.row_broadcast be,
    Cert.LibBiasRows.row_broadcast (rsqrt (addf var (broadcast ⟨2, ![1, H]⟩ (FloatOps.ofBits (F := Ideal) .f32 0x3727C5AC#32))))]
  rfl

/-- The second node pass as the vector unit spells it, at an entry: normalise, rectify, the product into a zero
    accumulator, the bias row, rectify. -/
theorem post_vec {n H : ℕ} (h : FVec Ideal ⟨2, ![n, H]⟩ .f32) (mu var g be : FVec Ideal ⟨2, ![1, H]⟩ .f32)
    (Wb : FVec Ideal ⟨2, ![H, H]⟩ .f32) (bb : FVec Ideal ⟨2, ![1, H]⟩ .f32)
    (h0 : (⟨2, ![n, H]⟩ : Shape).ShapeCasts ⟨2, ![n, H]⟩) (h1 : (⟨2, ![1, H]⟩ : Shape).ShapeCasts ⟨2, ![1, H]⟩)
    (h2 : (⟨2, ![1, H]⟩ : Shape).Broadcasts ⟨2, ![n, H]⟩) (A : FVec Ideal ⟨2, ![n, H]⟩ .f32)
    (hA : A = addf (mulf (mulf (subf (shapeCast ⟨2, ![n, H]⟩ h h0) (broadcastTo ⟨2, ![n, H]⟩ (shapeCast ⟨2, ![1, H]⟩ mu h1) h2))
        (broadcastTo ⟨2, ![n, H]⟩ (rsqrt (addf (shapeCast ⟨2, ![1, H]⟩ var h1)
          (broadcast ⟨2, ![1, H]⟩ (FloatOps.ofBits (F := Ideal) .f32 0x3727C5AC#32)))) h2))
        (broadcastTo ⟨2, ![n, H]⟩ (shapeCast ⟨2, ![1, H]⟩ g h1) h2))
      (broadcastTo ⟨2, ![n, H]⟩ (shapeCast ⟨2, ![1, H]⟩ be h1) h2))
    (M : FVec Ideal ⟨2, ![n, H]⟩ .f32)
    (hM : M = addf (FloatOps.matmul (DotDims.plain n H H) none
        (select (cmpf .oge A (broadcast ⟨2, ![n, H]⟩ (FloatOps.ofBits (F := Ideal) .f32 0x00000000#32))) A
          (mulf (broadcast ⟨2, ![n, H]⟩ (FloatOps.ofBits (F := Ideal) .f32 0x3C23D70A#32)) A))
        Wb (constant (F := Ideal) ⟨2, ![n, H]⟩ .f32 0x00000000#32))
      (broadcastTo ⟨2, ![n, H]⟩ (shapeCast ⟨2, ![1, H]⟩ bb h1) h2))
    (i : (⟨2, ![n, H]⟩ : Shape).Idx) :
    select (cmpf .oge M (broadcast ⟨2, ![n, H]⟩ (FloatOps.ofBits (F := Ideal) .f32 0x00000000#32))) M
      (mulf (broadcast ⟨2, ![n, H]⟩ (FloatOps.ofBits (F := Ideal) .f32 0x3C23D70A#32)) M) i
      = Cert.Gine.post h (row mu) (row var) (row g) (row be) Wb (row bb) i := by
  rw [leaky_vec]
  unfold Cert.Gine.post
  refine congrArg leaky ?_
  rw [hM, shapeCast_self]
  show FloatOps.matmul (DotDims.plain n H H) none _ Wb (constant (F := Ideal) ⟨2, ![n, H]⟩ .f32 0x00000000#32) i
      + broadcastTo ⟨2, ![n, H]⟩ bb h2 i = _
  rw [Cert.LibDense.matmul_plain, Cert.LibBiasRows.row_broadcast]
  refine congrArg (· + row bb (i 1)) ?_
  show (∑ k : Fin H, _ * Wb (ix2 k (i 1))) = ∑ k : Fin H, _ * Wb (ix2 k (i 1))
  refine Finset.sum_congr rfl fun k _ => congrArg (· * Wb (ix2 k (i 1))) ?_
  rw [leaky_vec, hA, norm_vec]

/-- An entry (r, j) of `post` reads row r of h, the four statistics rows, column j of the weight and entry j of
    the bias: operands that agree there give the same entry. -/
theorem post_congr {N N' H : ℕ} (h : Arr2 N H) (h' : Arr2 N' H) (mu mu' var var' g g' be be' : Fin H → EReal)
    (Wb Wb' : Arr2 H H) (bb bb' : Fin H → EReal) (i : (⟨2, ![N, H]⟩ : Shape).Idx) (i' : (⟨2, ![N', H]⟩ : Shape).Idx)
    (hh : ∀ k : Fin H, h (ix2 (i 0) k) = h' (ix2 (i' 0) k)) (hmu : ∀ k : Fin H, mu k = mu' k)
    (hvar : ∀ k : Fin H, var k = var' k) (hg : ∀ k : Fin H, g k = g' k) (hbe : ∀ k : Fin H, be k = be' k)
    (hW : ∀ k : Fin H, Wb (ix2 k (i 1)) = Wb' (ix2 k (i' 1))) (hb : bb (i 1) = bb' (i' 1)) :
    Cert.Gine.post h mu var g be Wb bb i = Cert.Gine.post h' mu' var' g' be' Wb' bb' i' := by
  unfold Cert.Gine.post prod
  rw [hb]
  refine congrArg (fun s => leaky (s + bb' (i' 1))) (Finset.sum_congr rfl fun k _ => ?_)
  show leaky (((h (ix2 (i 0) k) - mu k) * Ideal.rsqrt (var k + wEps)) * g k + be k) * Wb (ix2 k (i 1))
    = leaky (((h' (ix2 (i' 0) k) - mu' k) * Ideal.rsqrt (var' k + wEps)) * g' k + be' k) * Wb' (ix2 k (i' 1))
  rw [hh k, hmu k, hvar k, hg k, hbe k, hW k]

/-- The first layer's second node pass on a block of 5000 rows is `post` of the blocks. -/
theorem pass2_pay2 (v0 : Vec Ideal S5000x64 .f32) (v2 v6 v13 v17 : Vec Ideal S1x64 .f32) (v27 : Vec Ideal S64x64 .f32)
    (v30 : Vec Ideal S1x64 .f32) (i : S5000x64.Idx) :
    k2_pay1 (F := Ideal) v0 v2 v6 v13 v17 v27 v30 i = Cert.Gine.post v0 (row v2) (row v6) (row v13) (row v17) v27 (row v30) i := by
  unfold k2_pay1
  exact post_vec (n := 5000) (H := 64) v0 v2 v6 v13 v17 v27 v30 shapeCasts_S5000x64_S5000x64 shapeCasts_S1x64_S1x64
    broadcasts_S1x64_S5000x64 _ rfl _ rfl i

/-- Layer 1's second node pass on a block of 5000 rows is `post` of the blocks. -/
theorem pass2_pay5 (v0 : Vec Ideal S5000x64 .f32) (v2 v6 v13 v17 : Vec Ideal S1x64 .f32) (v27 : Vec Ideal S64x64 .f32)
    (v31 : Vec Ideal S1x64 .f32) (i : S5000x64.Idx) :
    k5_pay1 (F := Ideal) (k5_pay2 v0 v2 v6 v13 v17 v27 v31) (k5_pay3 v0 v2 v6 v13 v17 v27 v31) (k5_pay4 v0 v2 v6 v13 v17 v27 v31) i
      = Cert.Gine.post v0 (row v2) (row v6) (row v13) (row v17) v27 (row v31) i := by
  unfold k5_pay1 k5_pay3 k5_pay4
  have e : shapeCast S64x64 v27 shapeCasts_S64x64_S64x64 = v27 := shapeCast_self _ _
  refine post_vec (n := 5000) (H := 64) v0 v2 v6 v13 v17 v27 v31 shapeCasts_S5000x64_S5000x64 shapeCasts_S1x64_S1x64
    broadcasts_S1x64_S5000x64 _ rfl (k5_pay2 v0 v2 v6 v13 v17 v27 v31) ?_ i
  unfold k5_pay2
  rw [e]
  rfl

/-- Layer 2's second node pass on a block of 5000 rows is `post` of the blocks. -/
theorem pass2_pay8 (v0 : Vec Ideal S5000x64 .f32) (v2 v6 v13 v17 : Vec Ideal S1x64 .f32) (v27 : Vec Ideal S64x64 .f32)
    (v31 : Vec Ideal S1x64 .f32) (i : S5000x64.Idx) :
    k8_pay1 (F := Ideal) (k8_pay2 v0 v2 v6 v13 v17 v27 v31) (k8_pay3 v0 v2 v6 v13 v17 v27 v31) (k8_pay4 v0 v2 v6 v13 v17 v27 v31) i
      = Cert.Gine.post v0 (row v2) (row v6) (row v13) (row v17) v27 (row v31) i := by
  unfold k8_pay1 k8_pay3 k8_pay4
  have e : shapeCast S64x64 v27 shapeCasts_S64x64_S64x64 = v27 := shapeCast_self _ _
  refine post_vec (n := 5000) (H := 64) v0 v2 v6 v13 v17 v27 v31 shapeCasts_S5000x64_S5000x64 shapeCasts_S1x64_S1x64
    broadcasts_S1x64_S5000x64 _ rfl (k8_pay2 v0 v2 v6 v13 v17 v27 v31) ?_ i
  unfold k8_pay2
  rw [e]
  rfl

/-- Layer 3's second node pass on a block of 5000 rows is `post` of the blocks. -/
theorem pass2_pay11 (v0 : Vec Ideal S5000x64 .f32) (v2 v6 v13 v17 : Vec Ideal S1x64 .f32) (v27 : Vec Ideal S64x64 .f32)
    (v31 : Vec Ideal S1x64 .f32) (i : S5000x64.Idx) :
    k11_pay1 (F := Ideal) (k11_pay2 v0 v2 v6 v13 v17 v27 v31) (k11_pay3 v0 v2 v6 v13 v17 v27 v31) (k11_pay4 v0 v2 v6 v13 v17 v27 v31) i
      = Cert.Gine.post v0 (row v2) (row v6) (row v13) (row v17) v27 (row v31) i := by
  unfold k11_pay1 k11_pay3 k11_pay4
  have e : shapeCast S64x64 v27 shapeCasts_S64x64_S64x64 = v27 := shapeCast_self _ _
  refine post_vec (n := 5000) (H := 64) v0 v2 v6 v13 v17 v27 v31 shapeCasts_S5000x64_S5000x64 shapeCasts_S1x64_S1x64
    broadcasts_S1x64_S5000x64 _ rfl (k11_pay2 v0 v2 v6 v13 v17 v27 v31) ?_ i
  unfold k11_pay2
  rw [e]
  rfl

/-- Layer 4's second node pass on a block of 5000 rows is `post` of the blocks. -/
theorem pass2_pay14 (v0 : Vec Ideal S5000x64 .f32) (v2 v6 v13 v17 : Vec Ideal S1x64 .f32) (v27 : Vec Ideal S64x64 .f32)
    (v31 : Vec Ideal S1x64 .f32) (i : S5000x64.Idx) :
    k14_pay1 (F := Ideal) (k14_pay2 v0 v2 v6 v13 v17 v27 v31) (k14_pay3 v0 v2 v6 v13 v17 v27 v31) (k14_pay4 v0 v2 v6 v13 v17 v27 v31) i
      = Cert.Gine.post v0 (row v2) (row v6) (row v13) (row v17) v27 (row v31) i := by
  unfold k14_pay1 k14_pay3 k14_pay4
  have e : shapeCast S64x64 v27 shapeCasts_S64x64_S64x64 = v27 := shapeCast_self _ _
  refine post_vec (n := 5000) (H := 64) v0 v2 v6 v13 v17 v27 v31 shapeCasts_S5000x64_S5000x64 shapeCasts_S1x64_S1x64
    broadcasts_S1x64_S5000x64 _ rfl (k14_pay2 v0 v2 v6 v13 v17 v27 v31) ?_ i
  unfold k14_pay2
  rw [e]
  rfl

end Cert.KernelIdeal.RegVal

end
-- ==== Proof.RegPass2.lean ====
/-
  The second node passes, from blocks to arrays: each of the 10 points writes back `post` of its block of
  5000 rows, the blocks tile the 50000 rows, so the output array ends holding `post` of the region's seven
  operand arrays.
-/
import proofs.«122931_j61864708931975_1_alg».proof.Proof.Gen.KernelIdeal.Frame
import proofs.«122931_j61864708931975_1_alg».proof.Proof.Spec
import proofs.«122931_j61864708931975_1_alg».proof.Proof.PayPass2

set_option maxRecDepth 16384

noncomputable section

namespace Cert.KernelIdeal.RegVal

open Idealize.ShloMosaic Idealize.ShloMosaic.TcCoe Idealize.ShloMosaic.ValueIdx Cert.KernelIdeal Cert.KernelIdeal.Gen Cert.Gine
open Idealize.ShloMosaic.Pipeline (Dat)

/-- The zero offset of a whole-block access. -/
theorem hz2p : (![0, 0] : Fin 2 → Nat) = fun _ => 0 := funext fun a => by fin_cases a <;> rfl

variable (V : (c : Dev nD) → (b : Ref sig .tc) → Buf (Elt Ideal) ((c : Thread nD τ).loc b)) (c : Dev nD)

/-! ## Region 2 -/

/-- The block maps of region 2, decided over its 10 points: the rows and the output move down with the point;
    the four statistics rows, the weight and the bias stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

set_option maxHeartbeats 1000000 in
/-- What point `t` writes back is block `t` of `post` of the arrays the region finds. -/
theorem flushed2 (t : Fin cfg2.N) :
    (dat2 (F := Ideal) V c).flushed 7 t = ((cfg2.win 7).blk t).view.read (Elt Ideal)
      (Cert.Gine.post (V c (Pipeline.arrRef spec2 0)) (row (V c (Pipeline.arrRef spec2 1))) (row (V c (Pipeline.arrRef spec2 2))) (row (V c (Pipeline.arrRef spec2 3))) (row (V c (Pipeline.arrRef spec2 4))) (V c (Pipeline.arrRef spec2 5)) (row (V c (Pipeline.arrRef spec2 6)))) := by
  show (cfg2.win 7).cut (grid2.coords t) ((dat2 V c).after 7 t) = _
  rw [after2_7]
  unfold out2_7
  rw [View.canon_unit_zero hz2p]
  simp only [View.ld_unit_zero (S := S5000x64) hz2p, View.ld_unit_zero (S := S1x64) hz2p, View.ld_unit_zero (S := S64x64) hz2p]
  obtain ⟨h0, h1, m0, m1, s0, s1, g0, g1, e0, e1, w0, w1, b0, b1, o0, o1⟩ := idx2 t
  funext j
  have hj0 : (j 0).val < 5000 := (j 0).isLt
  have hj1 : (j 1).val < 64 := (j 1).isLt
  refine (pass2_pay2 (iblk2 V c 0 t) (iblk2 V c 1 t) (iblk2 V c 2 t) (iblk2 V c 3 t) (iblk2 V c 4 t) (iblk2 V c 5 t) (iblk2 V c 6 t) j).trans ?_
  refine post_congr (N := 5000) (N' := 50000) (H := 64) (iblk2 V c 0 t) (V c (Pipeline.arrRef spec2 0))
    (row (iblk2 V c 1 t)) (row (V c (Pipeline.arrRef spec2 1))) (row (iblk2 V c 2 t)) (row (V c (Pipeline.arrRef spec2 2)))
    (row (iblk2 V c 3 t)) (row (V c (Pipeline.arrRef spec2 3))) (row (iblk2 V c 4 t)) (row (V c (Pipeline.arrRef spec2 4)))
    (iblk2 V c 5 t) (V c (Pipeline.arrRef spec2 5)) (row (iblk2 V c 6 t)) (row (V c (Pipeline.arrRef spec2 6))) j (((cfg2.win 7).blk t).view.emb j) ?_ ?_ ?_ ?_ ?_ ?_ ?_
  · intro q
    show V c (Pipeline.arrRef spec2 0) (((cfg2.win 0).blk t).view.emb (ix2 (j 0) q)) = V c (Pipeline.arrRef spec2 0) (ix2 ((((cfg2.win 7).blk t).view.emb j) 0) q)
    refine congrArg _ (funext fun a => Fin.ext ?_)
    match a with
    | ⟨0, _⟩ => show win2_0.index t (0 : Fin 2) * 5000 + 1 * (j 0).val = win2_7.index t (0 : Fin 2) * 5000 + 1 * (j 0).val; omega
    | ⟨1, _⟩ => show win2_0.index t (1 : Fin 2) * 64 + 1 * q.val = q.val; omega
  · intro q
    show V c (Pipeline.arrRef spec2 1) (((cfg2.win 1).blk t).view.emb (ix2 0 q)) = V c (Pipeline.arrRef spec2 1) (ix2 0 q)
    refine congrArg _ (funext fun a => Fin.ext ?_)
    match a with
    | ⟨0, _⟩ => show win2_1.index t (0 : Fin 2) * 1 + 1 * 0 = 0; omega
    | ⟨1, _⟩ => show win2_1.index t (1 : Fin 2) * 64 + 1 * q.val = q.val; omega
  · intro q
    show V c (Pipeline.arrRef spec2 2) (((cfg2.win 2).blk t).view.emb (ix2 0 q)) = V c (Pipeline.arrRef spec2 2) (ix2 0 q)
    refine congrArg _ (funext fun a => Fin.ext ?_)
    match a with
    | ⟨0, _⟩ => show win2_2.index t (0 : Fin 2) * 1 + 1 * 0 = 0; omega
    | ⟨1, _⟩ => show win2_2.index t (1 : Fin 2) * 64 + 1 * q.val = q.val; omega
  · intro q
    show V c (Pipeline.arrRef spec2 3) (((cfg2.win 3).blk t).view.emb (ix2 0 q)) = V c (Pipeline.arrRef spec2 3) (ix2 0 q)
    refine congrArg _ (funext fun a => Fin.ext ?_)
    match a with
    | ⟨0, _⟩ => show win2_3.index t (0 : Fin 2) * 1 + 1 * 0 = 0; omega
    | ⟨1, _⟩ => show win2_3.index t (1 : Fin 2) * 64 + 1 * q.val = q.val; omega
  · intro q
    show V c (Pipeline.arrRef spec2 4) (((cfg2.win 4).blk t).view.emb (ix2 0 q)) = V c (Pipeline.arrRef spec2 4) (ix2 0 q)
    refine congrArg _ (funext fun a => Fin.ext ?_)
    match a with
    | ⟨0, _⟩ => show win2_4.index t (0 : Fin 2) * 1 + 1 * 0 = 0; omega
    | ⟨1, _⟩ => show win2_4.index t (1 : Fin 2) * 64 + 1 * q.val = q.val; omega
  · intro q
    show V c (Pipeline.arrRef spec2 5) (((cfg2.win 5).blk t).view.emb (ix2 q (j 1))) = V c (Pipeline.arrRef spec2 5) (ix2 q ((((cfg2.win 7).blk t).view.emb j) 1))
    refine congrArg _ (funext fun a => Fin.ext ?_)
    match a with
    | ⟨0, _⟩ => show win2_5.index t (0 : Fin 2) * 64 + 1 * q.val = q.val; omega
    | ⟨1, _⟩ => show win2_5.index t (1 : Fin 2) * 64 + 1 * (j 1).val = win2_7.index t (1 : Fin 2) * 64 + 1 * (j 1).val; omega
  · show V c (Pipeline.arrRef spec2 6) (((cfg2.win 6).blk t).view.emb (ix2 0 (j 1))) = V c (Pipeline.arrRef spec2 6) (ix2 0 ((((cfg2.win 7).blk t).view.emb j) 1))
    refine congrArg _ (funext fun a => Fin.ext ?_)
    match a with
    | ⟨0, _⟩ => show win2_6.index t (0 : Fin 2) * 1 + 1 * 0 = 0; omega
    | ⟨1, _⟩ => show win2_6.index t (1 : Fin 2) * 64 + 1 * (j 1).val = win2_7.index t (1 : Fin 2) * 64 + 1 * (j 1).val; omega

/-- An entry of the output array is in point `t`'s block iff each coordinate is in the block's range. -/
theorem mem_blk2 (t : Fin cfg2.N) (i : S50000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v27).slice (win2_7.rect t)).set ↔ _
  rw [View.set_slice_whole, Rect.mem_set_unit]
  exact Iff.rfl

/-- Every row of the output lies in the block of the point its number over 5000 names. -/
theorem cover2 (i : S50000x64.Idx) : ∃ t : Fin cfg2.N, (cfg2.win 7).flush t = true ∧ i ∈ ((cfg2.win 7).blk t).view.set := by
  have hi0 : (i 0).val < 50000 := (i 0).isLt
  have hi1 : (i 1).val < 64 := (i 1).isLt
  have hN : cfg2.N = 10 := N_2
  refine ⟨⟨(i 0).val / 5000, by rw [hN]; omega⟩, flush2_7 _, ?_⟩
  rw [mem_blk2]
  obtain ⟨h0, h1, m0, m1, s0, s1, g0, g1, e0, e1, w0, w1, b0, b1, o0, o1⟩ := idx2 ⟨(i 0).val / 5000, by rw [hN]; omega⟩
  intro a
  match a with
  | ⟨0, _⟩ => show win2_7.index _ (0 : Fin 2) * 5000 ≤ (i 0).val ∧ (i 0).val < win2_7.index _ (0 : Fin 2) * 5000 + 5000; rw [o0]; dsimp only; omega
  | ⟨1, _⟩ => show win2_7.index _ (1 : Fin 2) * 64 ≤ (i 1).val ∧ (i 1).val < win2_7.index _ (1 : Fin 2) * 64 + 64; rw [o1]; omega

/-- The output array of region 2 after its points: `post` of its seven operands. -/
theorem pass2_2_val : ((dat2 (F := Ideal) V c).arrAt 7 cfg2.N : Arr2 50000 64) = Cert.Gine.post (V c (Pipeline.arrRef spec2 0)) (row (V c (Pipeline.arrRef spec2 1))) (row (V c (Pipeline.arrRef spec2 2))) (row (V c (Pipeline.arrRef spec2 3))) (row (V c (Pipeline.arrRef spec2 4))) (V c (Pipeline.arrRef spec2 5)) (row (V c (Pipeline.arrRef spec2 6))) :=
  (dat2 (F := Ideal) V c).arrAt_eq_of_cover 7 _ (fun t _ => flushed2 V c t) (cover2)

/-! ## Region 5 -/

/-- The block maps of region 5, decided over its 10 points: the rows and the output move down with the point;
    the four statistics rows, the weight and the bias stay. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

set_option maxHeartbeats 1000000 in
/-- What point `t` writes back is block `t` of `post` of the arrays the region finds. -/
theorem flushed5 (t : Fin cfg5.N) :
    (dat5 (F := Ideal) V c).flushed 7 t = ((cfg5.win 7).blk t).view.read (Elt Ideal)
      (Cert.Gine.post (V c (Pipeline.arrRef spec5 0)) (row (V c (Pipeline.arrRef spec5 1))) (row (V c (Pipeline.arrRef spec5 2))) (row (V c (Pipeline.arrRef spec5 3))) (row (V c (Pipeline.arrRef spec5 4))) (V c (Pipeline.arrRef spec5 5)) (row (V c (Pipeline.arrRef spec5 6)))) := by
  show (cfg5.win 7).cut (grid5.coords t) ((dat5 V c).after 7 t) = _
  rw [after5_7]
  unfold out5_7
  rw [View.canon_unit_zero hz2p]
  simp only [View.ld_unit_zero (S := S5000x64) hz2p, View.ld_unit_zero (S := S1x64) hz2p, View.ld_unit_zero (S := S64x64) hz2p]
  obtain ⟨h0, h1, m0, m1, s0, s1, g0, g1, e0, e1, w0, w1, b0, b1, o0, o1⟩ := idx5 t
  funext j
  have hj0 : (j 0).val < 5000 := (j 0).isLt
  have hj1 : (j 1).val < 64 := (j 1).isLt
  refine (pass2_pay5 (iblk5 V c 0 t) (iblk5 V c 1 t) (iblk5 V c 2 t) (iblk5 V c 3 t) (iblk5 V c 4 t) (iblk5 V c 5 t) (iblk5 V c 6 t) j).trans ?_
  refine post_congr (N := 5000) (N' := 50000) (H := 64) (iblk5 V c 0 t) (V c (Pipeline.arrRef spec5 0))
    (row (iblk5 V c 1 t)) (row (V c (Pipeline.arrRef spec5 1))) (row (iblk5 V c 2 t)) (row (V c (Pipeline.arrRef spec5 2)))
    (row (iblk5 V c 3 t)) (row (V c (Pipeline.arrRef spec5 3))) (row (iblk5 V c 4 t)) (row (V c (Pipeline.arrRef spec5 4)))
    (iblk5 V c 5 t) (V c (Pipeline.arrRef spec5 5)) (row (iblk5 V c 6 t)) (row (V c (Pipeline.arrRef spec5 6))) j (((cfg5.win 7).blk t).view.emb j) ?_ ?_ ?_ ?_ ?_ ?_ ?_
  · intro q
    show V c (Pipeline.arrRef spec5 0) (((cfg5.win 0).blk t).view.emb (ix2 (j 0) q)) = V c (Pipeline.arrRef spec5 0) (ix2 ((((cfg5.win 7).blk t).view.emb j) 0) q)
    refine congrArg _ (funext fun a => Fin.ext ?_)
    match a with
    | ⟨0, _⟩ => show win5_0.index t (0 : Fin 2) * 5000 + 1 * (j 0).val = win5_7.index t (0 : Fin 2) * 5000 + 1 * (j 0).val; omega
    | ⟨1, _⟩ => show win5_0.index t (1 : Fin 2) * 64 + 1 * q.val = q.val; omega
  · intro q
    show V c (Pipeline.arrRef spec5 1) (((cfg5.win 1).blk t).view.emb (ix2 0 q)) = V c (Pipeline.arrRef spec5 1) (ix2 0 q)
    refine congrArg _ (funext fun a => Fin.ext ?_)
    match a with
    | ⟨0, _⟩ => show win5_1.index t (0 : Fin 2) * 1 + 1 * 0 = 0; omega
    | ⟨1, _⟩ => show win5_1.index t (1 : Fin 2) * 64 + 1 * q.val = q.val; omega
  · intro q
    show V c (Pipeline.arrRef spec5 2) (((cfg5.win 2).blk t).view.emb (ix2 0 q)) = V c (Pipeline.arrRef spec5 2) (ix2 0 q)
    refine congrArg _ (funext fun a => Fin.ext ?_)
    match a with
    | ⟨0, _⟩ => show win5_2.index t (0 : Fin 2) * 1 + 1 * 0 = 0; omega
    | ⟨1, _⟩ => show win5_2.index t (1 : Fin 2) * 64 + 1 * q.val = q.val; omega
  · intro q
    show V c (Pipeline.arrRef spec5 3) (((cfg5.win 3).blk t).view.emb (ix2 0 q)) = V c (Pipeline.arrRef spec5 3) (ix2 0 q)
    refine congrArg _ (funext fun a => Fin.ext ?_)
    match a with
    | ⟨0, _⟩ => show win5_3.index t (0 : Fin 2) * 1 + 1 * 0 = 0; omega
    | ⟨1, _⟩ => show win5_3.index t (1 : Fin 2) * 64 + 1 * q.val = q.val; omega
  · intro q
    show V c (Pipeline.arrRef spec5 4) (((cfg5.win 4).blk t).view.emb (ix2 0 q)) = V c (Pipeline.arrRef spec5 4) (ix2 0 q)
    refine congrArg _ (funext fun a => Fin.ext ?_)
    match a with
    | ⟨0, _⟩ => show win5_4.index t (0 : Fin 2) * 1 + 1 * 0 = 0; omega
    | ⟨1, _⟩ => show win5_4.index t (1 : Fin 2) * 64 + 1 * q.val = q.val; omega
  · intro q
    show V c (Pipeline.arrRef spec5 5) (((cfg5.win 5).blk t).view.emb (ix2 q (j 1))) = V c (Pipeline.arrRef spec5 5) (ix2 q ((((cfg5.win 7).blk t).view.emb j) 1))
    refine congrArg _ (funext fun a => Fin.ext ?_)
    match a with
    | ⟨0, _⟩ => show win5_5.index t (0 : Fin 2) * 64 + 1 * q.val = q.val; omega
    | ⟨1, _⟩ => show win5_5.index t (1 : Fin 2) * 64 + 1 * (j 1).val = win5_7.index t (1 : Fin 2) * 64 + 1 * (j 1).val; omega
  · show V c (Pipeline.arrRef spec5 6) (((cfg5.win 6).blk t).view.emb (ix2 0 (j 1))) = V c (Pipeline.arrRef spec5 6) (ix2 0 ((((cfg5.win 7).blk t).view.emb j) 1))
    refine congrArg _ (funext fun a => Fin.ext ?_)
    match a with
    | ⟨0, _⟩ => show win5_6.index t (0 : Fin 2) * 1 + 1 * 0 = 0; omega
    | ⟨1, _⟩ => show win5_6.index t (1 : Fin 2) * 64 + 1 * (j 1).val = win5_7.index t (1 : Fin 2) * 64 + 1 * (j 1).val; omega

/-- An entry of the output array is in point `t`'s block iff each coordinate is in the block's range. -/
theorem mem_blk5 (t : Fin cfg5.N) (i : S50000x64.Idx) :
    i ∈ ((cfg5.win 7).blk t).view.set ↔ ∀ a : Fin 2, win5_7.index t a * S5000x64.size a ≤ (i a).val ∧ (i a).val < win5_7.index t a * S5000x64.size a + S5000x64.size a := by
  show i ∈ ((View.whole main_v67).slice (win5_7.rect t)).set ↔ _
  rw [View.set_slice_whole, Rect.mem_set_unit]
  exact Iff.rfl

/-- Every row of the output lies in the block of the point its number over 5000 names. -/
theorem cover5 (i : S50000x64.Idx) : ∃ t : Fin cfg5.N, (cfg5.win 7).flush t = true ∧ i ∈ ((cfg5.win 7).blk t).view.set := by
  have hi0 : (i 0).val < 50000 := (i 0).isLt
  have hi1 : (i 1).val < 64 := (i 1).isLt
  have hN : cfg5.N = 10 := N_5
  refine ⟨⟨(i 0).val / 5000, by rw [hN]; omega⟩, flush5_7 _, ?_⟩
  rw [mem_blk5]
  obtain ⟨h0, h1, m0, m1, s0, s1, g0, g1, e0, e1, w0, w1, b0, b1, o0, o1⟩ := idx5 ⟨(i 0).val / 5000, by rw [hN]; omega⟩
  intro a
  match a with
  | ⟨0, _⟩ => show win5_7.index _ (0 : Fin 2) * 5000 ≤ (i 0).val ∧ (i 0).val < win5_7.index _ (0 : Fin 2) * 5000 + 5000; rw [o0]; dsimp only; omega
  | ⟨1, _⟩ => show win5_7.index _ (1 : Fin 2) * 64 ≤ (i 1).val ∧ (i 1).val < win5_7.index _ (1 : Fin 2) * 64 + 64; rw [o1]; omega

/-- The output array of region 5 after its points: `post` of its seven operands. -/
theorem pass2_5_val : ((dat5 (F := Ideal) V c).arrAt 7 cfg5.N : Arr2 50000 64) = Cert.Gine.post (V c (Pipeline.arrRef spec5 0)) (row (V c (Pipeline.arrRef spec5 1))) (row (V c (Pipeline.arrRef spec5 2))) (row (V c (Pipeline.arrRef spec5 3))) (row (V c (Pipeline.arrRef spec5 4))) (V c (Pipeline.arrRef spec5 5)) (row (V c (Pipeline.arrRef spec5 6))) :=
  (dat5 (F := Ideal) V c).arrAt_eq_of_cover 7 _ (fun t _ => flushed5 V c t) (cover5)

/-! ## Region 8 -/

/-- The block maps of region 8, decided over its 10 points: the rows and the output move down with the point;
    the four statistics rows, the weight and the bias stay. -/
theorem idx8 : ∀ t : Fin cfg8.N, win8_0.index t (0 : Fin 2) = t.val ∧ win8_0.index t (1 : Fin 2) = 0
    ∧ win8_1.index t (0 : Fin 2) = 0 ∧ win8_1.index t (1 : Fin 2) = 0
    ∧ win8_2.index t (0 : Fin 2) = 0 ∧ win8_2.index t (1 : Fin 2) = 0
    ∧ win8_3.index t (0 : Fin 2) = 0 ∧ win8_3.index t (1 : Fin 2) = 0
    ∧ win8_4.index t (0 : Fin 2) = 0 ∧ win8_4.index t (1 : Fin 2) = 0
    ∧ win8_5.index t (0 : Fin 2) = 0 ∧ win8_5.index t (1 : Fin 2) = 0
    ∧ win8_6.index t (0 : Fin 2) = 0 ∧ win8_6.index t (1 : Fin 2) = 0
    ∧ win8_7.index t (0 : Fin 2) = t.val ∧ win8_7.index t (1 : Fin 2) = 0 :=
  (by decide +kernel : ∀ t : Fin grid8.N, _)

set_option maxHeartbeats 1000000 in
/-- What point `t` writes back is block `t` of `post` of the arrays the region finds. -/
theorem flushed8 (t : Fin cfg8.N) :
    (dat8 (F := Ideal) V c).flushed 7 t = ((cfg8.win 7).blk t).view.read (Elt Ideal)
      (Cert.Gine.post (V c (Pipeline.arrRef spec8 0)) (row (V c (Pipeline.arrRef spec8 1))) (row (V c (Pipeline.arrRef spec8 2))) (row (V c (Pipeline.arrRef spec8 3))) (row (V c (Pipeline.arrRef spec8 4))) (V c (Pipeline.arrRef spec8 5)) (row (V c (Pipeline.arrRef spec8 6)))) := by
  show (cfg8.win 7).cut (grid8.coords t) ((dat8 V c).after 7 t) = _
  rw [after8_7]
  unfold out8_7
  rw [View.canon_unit_zero hz2p]
  simp only [View.ld_unit_zero (S := S5000x64) hz2p, View.ld_unit_zero (S := S1x64) hz2p, View.ld_unit_zero (S := S64x64) hz2p]
  obtain ⟨h0, h1, m0, m1, s0, s1, g0, g1, e0, e1, w0, w1, b0, b1, o0, o1⟩ := idx8 t
  funext j
  have hj0 : (j 0).val < 5000 := (j 0).isLt
  have hj1 : (j 1).val < 64 := (j 1).isLt
  refine (pass2_pay8 (iblk8 V c 0 t) (iblk8 V c 1 t) (iblk8 V c 2 t) (iblk8 V c 3 t) (iblk8 V c 4 t) (iblk8 V c 5 t) (iblk8 V c 6 t) j).trans ?_
  refine post_congr (N := 5000) (N' := 50000) (H := 64) (iblk8 V c 0 t) (V c (Pipeline.arrRef spec8 0))
    (row (iblk8 V c 1 t)) (row (V c (Pipeline.arrRef spec8 1))) (row (iblk8 V c 2 t)) (row (V c (Pipeline.arrRef spec8 2)))
    (row (iblk8 V c 3 t)) (row (V c (Pipeline.arrRef spec8 3))) (row (iblk8 V c 4 t)) (row (V c (Pipeline.arrRef spec8 4)))
    (iblk8 V c 5 t) (V c (Pipeline.arrRef spec8 5)) (row (iblk8 V c 6 t)) (row (V c (Pipeline.arrRef spec8 6))) j (((cfg8.win 7).blk t).view.emb j) ?_ ?_ ?_ ?_ ?_ ?_ ?_
  · intro q
    show V c (Pipeline.arrRef spec8 0) (((cfg8.win 0).blk t).view.emb (ix2 (j 0) q)) = V c (Pipeline.arrRef spec8 0) (ix2 ((((cfg8.win 7).blk t).view.emb j) 0) q)
    refine congrArg _ (funext fun a => Fin.ext ?_)
    match a with
    | ⟨0, _⟩ => show win8_0.index t (0 : Fin 2) * 5000 + 1 * (j 0).val = win8_7.index t (0 : Fin 2) * 5000 + 1 * (j 0).val; omega
    | ⟨1, _⟩ => show win8_0.index t (1 : Fin 2) * 64 + 1 * q.val = q.val; omega
  · intro q
    show V c (Pipeline.arrRef spec8 1) (((cfg8.win 1).blk t).view.emb (ix2 0 q)) = V c (Pipeline.arrRef spec8 1) (ix2 0 q)
    refine congrArg _ (funext fun a => Fin.ext ?_)
    match a with
    | ⟨0, _⟩ => show win8_1.index t (0 : Fin 2) * 1 + 1 * 0 = 0; omega
    | ⟨1, _⟩ => show win8_1.index t (1 : Fin 2) * 64 + 1 * q.val = q.val; omega
  · intro q
    show V c (Pipeline.arrRef spec8 2) (((cfg8.win 2).blk t).view.emb (ix2 0 q)) = V c (Pipeline.arrRef spec8 2) (ix2 0 q)
    refine congrArg _ (funext fun a => Fin.ext ?_)
    match a with
    | ⟨0, _⟩ => show win8_2.index t (0 : Fin 2) * 1 + 1 * 0 = 0; omega
    | ⟨1, _⟩ => show win8_2.index t (1 : Fin 2) * 64 + 1 * q.val = q.val; omega
  · intro q
    show V c (Pipeline.arrRef spec8 3) (((cfg8.win 3).blk t).view.emb (ix2 0 q)) = V c (Pipeline.arrRef spec8 3) (ix2 0 q)
    refine congrArg _ (funext fun a => Fin.ext ?_)
    match a with
    | ⟨0, _⟩ => show win8_3.index t (0 : Fin 2) * 1 + 1 * 0 = 0; omega
    | ⟨1, _⟩ => show win8_3.index t (1 : Fin 2) * 64 + 1 * q.val = q.val; omega
  · intro q
    show V c (Pipeline.arrRef spec8 4) (((cfg8.win 4).blk t).view.emb (ix2 0 q)) = V c (Pipeline.arrRef spec8 4) (ix2 0 q)
    refine congrArg _ (funext fun a => Fin.ext ?_)
    match a with
    | ⟨0, _⟩ => show win8_4.index t (0 : Fin 2) * 1 + 1 * 0 = 0; omega
    | ⟨1, _⟩ => show win8_4.index t (1 : Fin 2) * 64 + 1 * q.val = q.val; omega
  · intro q
    show V c (Pipeline.arrRef spec8 5) (((cfg8.win 5).blk t).view.emb (ix2 q (j 1))) = V c (Pipeline.arrRef spec8 5) (ix2 q ((((cfg8.win 7).blk t).view.emb j) 1))
    refine congrArg _ (funext fun a => Fin.ext ?_)
    match a with
    | ⟨0, _⟩ => show win8_5.index t (0 : Fin 2) * 64 + 1 * q.val = q.val; omega
    | ⟨1, _⟩ => show win8_5.index t (1 : Fin 2) * 64 + 1 * (j 1).val = win8_7.index t (1 : Fin 2) * 64 + 1 * (j 1).val; omega
  · show V c (Pipeline.arrRef spec8 6) (((cfg8.win 6).blk t).view.emb (ix2 0 (j 1))) = V c (Pipeline.arrRef spec8 6) (ix2 0 ((((cfg8.win 7).blk t).view.emb j) 1))
    refine congrArg _ (funext fun a => Fin.ext ?_)
    match a with
    | ⟨0, _⟩ => show win8_6.index t (0 : Fin 2) * 1 + 1 * 0 = 0; omega
    | ⟨1, _⟩ => show win8_6.index t (1 : Fin 2) * 64 + 1 * (j 1).val = win8_7.index t (1 : Fin 2) * 64 + 1 * (j 1).val; omega

/-- An entry of the output array is in point `t`'s block iff each coordinate is in the block's range. -/
theorem mem_blk8 (t : Fin cfg8.N) (i : S50000x64.Idx) :
    i ∈ ((cfg8.win 7).blk t).view.set ↔ ∀ a : Fin 2, win8_7.index t a * S5000x64.size a ≤ (i a).val ∧ (i a).val < win8_7.index t a * S5000x64.size a + S5000x64.size a := by
  show i ∈ ((View.whole main_v107).slice (win8_7.rect t)).set ↔ _
  rw [View.set_slice_whole, Rect.mem_set_unit]
  exact Iff.rfl

/-- Every row of the output lies in the block of the point its number over 5000 names. -/
theorem cover8 (i : S50000x64.Idx) : ∃ t : Fin cfg8.N, (cfg8.win 7).flush t = true ∧ i ∈ ((cfg8.win 7).blk t).view.set := by
  have hi0 : (i 0).val < 50000 := (i 0).isLt
  have hi1 : (i 1).val < 64 := (i 1).isLt
  have hN : cfg8.N = 10 := N_8
  refine ⟨⟨(i 0).val / 5000, by rw [hN]; omega⟩, flush8_7 _, ?_⟩
  rw [mem_blk8]
  obtain ⟨h0, h1, m0, m1, s0, s1, g0, g1, e0, e1, w0, w1, b0, b1, o0, o1⟩ := idx8 ⟨(i 0).val / 5000, by rw [hN]; omega⟩
  intro a
  match a with
  | ⟨0, _⟩ => show win8_7.index _ (0 : Fin 2) * 5000 ≤ (i 0).val ∧ (i 0).val < win8_7.index _ (0 : Fin 2) * 5000 + 5000; rw [o0]; dsimp only; omega
  | ⟨1, _⟩ => show win8_7.index _ (1 : Fin 2) * 64 ≤ (i 1).val ∧ (i 1).val < win8_7.index _ (1 : Fin 2) * 64 + 64; rw [o1]; omega

/-- The output array of region 8 after its points: `post` of its seven operands. -/
theorem pass2_8_val : ((dat8 (F := Ideal) V c).arrAt 7 cfg8.N : Arr2 50000 64) = Cert.Gine.post (V c (Pipeline.arrRef spec8 0)) (row (V c (Pipeline.arrRef spec8 1))) (row (V c (Pipeline.arrRef spec8 2))) (row (V c (Pipeline.arrRef spec8 3))) (row (V c (Pipeline.arrRef spec8 4))) (V c (Pipeline.arrRef spec8 5)) (row (V c (Pipeline.arrRef spec8 6))) :=
  (dat8 (F := Ideal) V c).arrAt_eq_of_cover 7 _ (fun t _ => flushed8 V c t) (cover8)

/-! ## Region 11 -/

/-- The block maps of region 11, decided over its 10 points: the rows and the output move down with the point;
    the four statistics rows, the weight and the bias stay. -/
theorem idx11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = 0 ∧ win11_3.index t (1 : Fin 2) = 0
    ∧ win11_4.index t (0 : Fin 2) = 0 ∧ win11_4.index t (1 : Fin 2) = 0
    ∧ win11_5.index t (0 : Fin 2) = 0 ∧ win11_5.index t (1 : Fin 2) = 0
    ∧ win11_6.index t (0 : Fin 2) = 0 ∧ win11_6.index t (1 : Fin 2) = 0
    ∧ win11_7.index t (0 : Fin 2) = t.val ∧ win11_7.index t (1 : Fin 2) = 0 :=
  (by decide +kernel : ∀ t : Fin grid11.N, _)

set_option maxHeartbeats 1000000 in
/-- What point `t` writes back is block `t` of `post` of the arrays the region finds. -/
theorem flushed11 (t : Fin cfg11.N) :
    (dat11 (F := Ideal) V c).flushed 7 t = ((cfg11.win 7).blk t).view.read (Elt Ideal)
      (Cert.Gine.post (V c (Pipeline.arrRef spec11 0)) (row (V c (Pipeline.arrRef spec11 1))) (row (V c (Pipeline.arrRef spec11 2))) (row (V c (Pipeline.arrRef spec11 3))) (row (V c (Pipeline.arrRef spec11 4))) (V c (Pipeline.arrRef spec11 5)) (row (V c (Pipeline.arrRef spec11 6)))) := by
  show (cfg11.win 7).cut (grid11.coords t) ((dat11 V c).after 7 t) = _
  rw [after11_7]
  unfold out11_7
  rw [View.canon_unit_zero hz2p]
  simp only [View.ld_unit_zero (S := S5000x64) hz2p, View.ld_unit_zero (S := S1x64) hz2p, View.ld_unit_zero (S := S64x64) hz2p]
  obtain ⟨h0, h1, m0, m1, s0, s1, g0, g1, e0, e1, w0, w1, b0, b1, o0, o1⟩ := idx11 t
  funext j
  have hj0 : (j 0).val < 5000 := (j 0).isLt
  have hj1 : (j 1).val < 64 := (j 1).isLt
  refine (pass2_pay11 (iblk11 V c 0 t) (iblk11 V c 1 t) (iblk11 V c 2 t) (iblk11 V c 3 t) (iblk11 V c 4 t) (iblk11 V c 5 t) (iblk11 V c 6 t) j).trans ?_
  refine post_congr (N := 5000) (N' := 50000) (H := 64) (iblk11 V c 0 t) (V c (Pipeline.arrRef spec11 0))
    (row (iblk11 V c 1 t)) (row (V c (Pipeline.arrRef spec11 1))) (row (iblk11 V c 2 t)) (row (V c (Pipeline.arrRef spec11 2)))
    (row (iblk11 V c 3 t)) (row (V c (Pipeline.arrRef spec11 3))) (row (iblk11 V c 4 t)) (row (V c (Pipeline.arrRef spec11 4)))
    (iblk11 V c 5 t) (V c (Pipeline.arrRef spec11 5)) (row (iblk11 V c 6 t)) (row (V c (Pipeline.arrRef spec11 6))) j (((cfg11.win 7).blk t).view.emb j) ?_ ?_ ?_ ?_ ?_ ?_ ?_
  · intro q
    show V c (Pipeline.arrRef spec11 0) (((cfg11.win 0).blk t).view.emb (ix2 (j 0) q)) = V c (Pipeline.arrRef spec11 0) (ix2 ((((cfg11.win 7).blk t).view.emb j) 0) q)
    refine congrArg _ (funext fun a => Fin.ext ?_)
    match a with
    | ⟨0, _⟩ => show win11_0.index t (0 : Fin 2) * 5000 + 1 * (j 0).val = win11_7.index t (0 : Fin 2) * 5000 + 1 * (j 0).val; omega
    | ⟨1, _⟩ => show win11_0.index t (1 : Fin 2) * 64 + 1 * q.val = q.val; omega
  · intro q
    show V c (Pipeline.arrRef spec11 1) (((cfg11.win 1).blk t).view.emb (ix2 0 q)) = V c (Pipeline.arrRef spec11 1) (ix2 0 q)
    refine congrArg _ (funext fun a => Fin.ext ?_)
    match a with
    | ⟨0, _⟩ => show win11_1.index t (0 : Fin 2) * 1 + 1 * 0 = 0; omega
    | ⟨1, _⟩ => show win11_1.index t (1 : Fin 2) * 64 + 1 * q.val = q.val; omega
  · intro q
    show V c (Pipeline.arrRef spec11 2) (((cfg11.win 2).blk t).view.emb (ix2 0 q)) = V c (Pipeline.arrRef spec11 2) (ix2 0 q)
    refine congrArg _ (funext fun a => Fin.ext ?_)
    match a with
    | ⟨0, _⟩ => show win11_2.index t (0 : Fin 2) * 1 + 1 * 0 = 0; omega
    | ⟨1, _⟩ => show win11_2.index t (1 : Fin 2) * 64 + 1 * q.val = q.val; omega
  · intro q
    show V c (Pipeline.arrRef spec11 3) (((cfg11.win 3).blk t).view.emb (ix2 0 q)) = V c (Pipeline.arrRef spec11 3) (ix2 0 q)
    refine congrArg _ (funext fun a => Fin.ext ?_)
    match a with
    | ⟨0, _⟩ => show win11_3.index t (0 : Fin 2) * 1 + 1 * 0 = 0; omega
    | ⟨1, _⟩ => show win11_3.index t (1 : Fin 2) * 64 + 1 * q.val = q.val; omega
  · intro q
    show V c (Pipeline.arrRef spec11 4) (((cfg11.win 4).blk t).view.emb (ix2 0 q)) = V c (Pipeline.arrRef spec11 4) (ix2 0 q)
    refine congrArg _ (funext fun a => Fin.ext ?_)
    match a with
    | ⟨0, _⟩ => show win11_4.index t (0 : Fin 2) * 1 + 1 * 0 = 0; omega
    | ⟨1, _⟩ => show win11_4.index t (1 : Fin 2) * 64 + 1 * q.val = q.val; omega
  · intro q
    show V c (Pipeline.arrRef spec11 5) (((cfg11.win 5).blk t).view.emb (ix2 q (j 1))) = V c (Pipeline.arrRef spec11 5) (ix2 q ((((cfg11.win 7).blk t).view.emb j) 1))
    refine congrArg _ (funext fun a => Fin.ext ?_)
    match a with
    | ⟨0, _⟩ => show win11_5.index t (0 : Fin 2) * 64 + 1 * q.val = q.val; omega
    | ⟨1, _⟩ => show win11_5.index t (1 : Fin 2) * 64 + 1 * (j 1).val = win11_7.index t (1 : Fin 2) * 64 + 1 * (j 1).val; omega
  · show V c (Pipeline.arrRef spec11 6) (((cfg11.win 6).blk t).view.emb (ix2 0 (j 1))) = V c (Pipeline.arrRef spec11 6) (ix2 0 ((((cfg11.win 7).blk t).view.emb j) 1))
    refine congrArg _ (funext fun a => Fin.ext ?_)
    match a with
    | ⟨0, _⟩ => show win11_6.index t (0 : Fin 2) * 1 + 1 * 0 = 0; omega
    | ⟨1, _⟩ => show win11_6.index t (1 : Fin 2) * 64 + 1 * (j 1).val = win11_7.index t (1 : Fin 2) * 64 + 1 * (j 1).val; omega

/-- An entry of the output array is in point `t`'s block iff each coordinate is in the block's range. -/
theorem mem_blk11 (t : Fin cfg11.N) (i : S50000x64.Idx) :
    i ∈ ((cfg11.win 7).blk t).view.set ↔ ∀ a : Fin 2, win11_7.index t a * S5000x64.size a ≤ (i a).val ∧ (i a).val < win11_7.index t a * S5000x64.size a + S5000x64.size a := by
  show i ∈ ((View.whole main_v147).slice (win11_7.rect t)).set ↔ _
  rw [View.set_slice_whole, Rect.mem_set_unit]
  exact Iff.rfl

/-- Every row of the output lies in the block of the point its number over 5000 names. -/
theorem cover11 (i : S50000x64.Idx) : ∃ t : Fin cfg11.N, (cfg11.win 7).flush t = true ∧ i ∈ ((cfg11.win 7).blk t).view.set := by
  have hi0 : (i 0).val < 50000 := (i 0).isLt
  have hi1 : (i 1).val < 64 := (i 1).isLt
  have hN : cfg11.N = 10 := N_11
  refine ⟨⟨(i 0).val / 5000, by rw [hN]; omega⟩, flush11_7 _, ?_⟩
  rw [mem_blk11]
  obtain ⟨h0, h1, m0, m1, s0, s1, g0, g1, e0, e1, w0, w1, b0, b1, o0, o1⟩ := idx11 ⟨(i 0).val / 5000, by rw [hN]; omega⟩
  intro a
  match a with
  | ⟨0, _⟩ => show win11_7.index _ (0 : Fin 2) * 5000 ≤ (i 0).val ∧ (i 0).val < win11_7.index _ (0 : Fin 2) * 5000 + 5000; rw [o0]; dsimp only; omega
  | ⟨1, _⟩ => show win11_7.index _ (1 : Fin 2) * 64 ≤ (i 1).val ∧ (i 1).val < win11_7.index _ (1 : Fin 2) * 64 + 64; rw [o1]; omega

/-- The output array of region 11 after its points: `post` of its seven operands. -/
theorem pass2_11_val : ((dat11 (F := Ideal) V c).arrAt 7 cfg11.N : Arr2 50000 64) = Cert.Gine.post (V c (Pipeline.arrRef spec11 0)) (row (V c (Pipeline.arrRef spec11 1))) (row (V c (Pipeline.arrRef spec11 2))) (row (V c (Pipeline.arrRef spec11 3))) (row (V c (Pipeline.arrRef spec11 4))) (V c (Pipeline.arrRef spec11 5)) (row (V c (Pipeline.arrRef spec11 6))) :=
  (dat11 (F := Ideal) V c).arrAt_eq_of_cover 7 _ (fun t _ => flushed11 V c t) (cover11)

/-! ## Region 14 -/

/-- The block maps of region 14, decided over its 10 points: the rows and the output move down with the point;
    the four statistics rows, the weight and the bias stay. -/
theorem idx14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = 0 ∧ win14_3.index t (1 : Fin 2) = 0
    ∧ win14_4.index t (0 : Fin 2) = 0 ∧ win14_4.index t (1 : Fin 2) = 0
    ∧ win14_5.index t (0 : Fin 2) = 0 ∧ win14_5.index t (1 : Fin 2) = 0
    ∧ win14_6.index t (0 : Fin 2) = 0 ∧ win14_6.index t (1 : Fin 2) = 0
    ∧ win14_7.index t (0 : Fin 2) = t.val ∧ win14_7.index t (1 : Fin 2) = 0 :=
  (by decide +kernel : ∀ t : Fin grid14.N, _)

set_option maxHeartbeats 1000000 in
/-- What point `t` writes back is block `t` of `post` of the arrays the region finds. -/
theorem flushed14 (t : Fin cfg14.N) :
    (dat14 (F := Ideal) V c).flushed 7 t = ((cfg14.win 7).blk t).view.read (Elt Ideal)
      (Cert.Gine.post (V c (Pipeline.arrRef spec14 0)) (row (V c (Pipeline.arrRef spec14 1))) (row (V c (Pipeline.arrRef spec14 2))) (row (V c (Pipeline.arrRef spec14 3))) (row (V c (Pipeline.arrRef spec14 4))) (V c (Pipeline.arrRef spec14 5)) (row (V c (Pipeline.arrRef spec14 6)))) := by
  show (cfg14.win 7).cut (grid14.coords t) ((dat14 V c).after 7 t) = _
  rw [after14_7]
  unfold out14_7
  rw [View.canon_unit_zero hz2p]
  simp only [View.ld_unit_zero (S := S5000x64) hz2p, View.ld_unit_zero (S := S1x64) hz2p, View.ld_unit_zero (S := S64x64) hz2p]
  obtain ⟨h0, h1, m0, m1, s0, s1, g0, g1, e0, e1, w0, w1, b0, b1, o0, o1⟩ := idx14 t
  funext j
  have hj0 : (j 0).val < 5000 := (j 0).isLt
  have hj1 : (j 1).val < 64 := (j 1).isLt
  refine (pass2_pay14 (iblk14 V c 0 t) (iblk14 V c 1 t) (iblk14 V c 2 t) (iblk14 V c 3 t) (iblk14 V c 4 t) (iblk14 V c 5 t) (iblk14 V c 6 t) j).trans ?_
  refine post_congr (N := 5000) (N' := 50000) (H := 64) (iblk14 V c 0 t) (V c (Pipeline.arrRef spec14 0))
    (row (iblk14 V c 1 t)) (row (V c (Pipeline.arrRef spec14 1))) (row (iblk14 V c 2 t)) (row (V c (Pipeline.arrRef spec14 2)))
    (row (iblk14 V c 3 t)) (row (V c (Pipeline.arrRef spec14 3))) (row (iblk14 V c 4 t)) (row (V c (Pipeline.arrRef spec14 4)))
    (iblk14 V c 5 t) (V c (Pipeline.arrRef spec14 5)) (row (iblk14 V c 6 t)) (row (V c (Pipeline.arrRef spec14 6))) j (((cfg14.win 7).blk t).view.emb j) ?_ ?_ ?_ ?_ ?_ ?_ ?_
  · intro q
    show V c (Pipeline.arrRef spec14 0) (((cfg14.win 0).blk t).view.emb (ix2 (j 0) q)) = V c (Pipeline.arrRef spec14 0) (ix2 ((((cfg14.win 7).blk t).view.emb j) 0) q)
    refine congrArg _ (funext fun a => Fin.ext ?_)
    match a with
    | ⟨0, _⟩ => show win14_0.index t (0 : Fin 2) * 5000 + 1 * (j 0).val = win14_7.index t (0 : Fin 2) * 5000 + 1 * (j 0).val; omega
    | ⟨1, _⟩ => show win14_0.index t (1 : Fin 2) * 64 + 1 * q.val = q.val; omega
  · intro q
    show V c (Pipeline.arrRef spec14 1) (((cfg14.win 1).blk t).view.emb (ix2 0 q)) = V c (Pipeline.arrRef spec14 1) (ix2 0 q)
    refine congrArg _ (funext fun a => Fin.ext ?_)
    match a with
    | ⟨0, _⟩ => show win14_1.index t (0 : Fin 2) * 1 + 1 * 0 = 0; omega
    | ⟨1, _⟩ => show win14_1.index t (1 : Fin 2) * 64 + 1 * q.val = q.val; omega
  · intro q
    show V c (Pipeline.arrRef spec14 2) (((cfg14.win 2).blk t).view.emb (ix2 0 q)) = V c (Pipeline.arrRef spec14 2) (ix2 0 q)
    refine congrArg _ (funext fun a => Fin.ext ?_)
    match a with
    | ⟨0, _⟩ => show win14_2.index t (0 : Fin 2) * 1 + 1 * 0 = 0; omega
    | ⟨1, _⟩ => show win14_2.index t (1 : Fin 2) * 64 + 1 * q.val = q.val; omega
  · intro q
    show V c (Pipeline.arrRef spec14 3) (((cfg14.win 3).blk t).view.emb (ix2 0 q)) = V c (Pipeline.arrRef spec14 3) (ix2 0 q)
    refine congrArg _ (funext fun a => Fin.ext ?_)
    match a with
    | ⟨0, _⟩ => show win14_3.index t (0 : Fin 2) * 1 + 1 * 0 = 0; omega
    | ⟨1, _⟩ => show win14_3.index t (1 : Fin 2) * 64 + 1 * q.val = q.val; omega
  · intro q
    show V c (Pipeline.arrRef spec14 4) (((cfg14.win 4).blk t).view.emb (ix2 0 q)) = V c (Pipeline.arrRef spec14 4) (ix2 0 q)
    refine congrArg _ (funext fun a => Fin.ext ?_)
    match a with
    | ⟨0, _⟩ => show win14_4.index t (0 : Fin 2) * 1 + 1 * 0 = 0; omega
    | ⟨1, _⟩ => show win14_4.index t (1 : Fin 2) * 64 + 1 * q.val = q.val; omega
  · intro q
    show V c (Pipeline.arrRef spec14 5) (((cfg14.win 5).blk t).view.emb (ix2 q (j 1))) = V c (Pipeline.arrRef spec14 5) (ix2 q ((((cfg14.win 7).blk t).view.emb j) 1))
    refine congrArg _ (funext fun a => Fin.ext ?_)
    match a with
    | ⟨0, _⟩ => show win14_5.index t (0 : Fin 2) * 64 + 1 * q.val = q.val; omega
    | ⟨1, _⟩ => show win14_5.index t (1 : Fin 2) * 64 + 1 * (j 1).val = win14_7.index t (1 : Fin 2) * 64 + 1 * (j 1).val; omega
  · show V c (Pipeline.arrRef spec14 6) (((cfg14.win 6).blk t).view.emb (ix2 0 (j 1))) = V c (Pipeline.arrRef spec14 6) (ix2 0 ((((cfg14.win 7).blk t).view.emb j) 1))
    refine congrArg _ (funext fun a => Fin.ext ?_)
    match a with
    | ⟨0, _⟩ => show win14_6.index t (0 : Fin 2) * 1 + 1 * 0 = 0; omega
    | ⟨1, _⟩ => show win14_6.index t (1 : Fin 2) * 64 + 1 * (j 1).val = win14_7.index t (1 : Fin 2) * 64 + 1 * (j 1).val; omega

/-- An entry of the output array is in point `t`'s block iff each coordinate is in the block's range. -/
theorem mem_blk14 (t : Fin cfg14.N) (i : S50000x64.Idx) :
    i ∈ ((cfg14.win 7).blk t).view.set ↔ ∀ a : Fin 2, win14_7.index t a * S5000x64.size a ≤ (i a).val ∧ (i a).val < win14_7.index t a * S5000x64.size a + S5000x64.size a := by
  show i ∈ ((View.whole main_v187).slice (win14_7.rect t)).set ↔ _
  rw [View.set_slice_whole, Rect.mem_set_unit]
  exact Iff.rfl

/-- Every row of the output lies in the block of the point its number over 5000 names. -/
theorem cover14 (i : S50000x64.Idx) : ∃ t : Fin cfg14.N, (cfg14.win 7).flush t = true ∧ i ∈ ((cfg14.win 7).blk t).view.set := by
  have hi0 : (i 0).val < 50000 := (i 0).isLt
  have hi1 : (i 1).val < 64 := (i 1).isLt
  have hN : cfg14.N = 10 := N_14
  refine ⟨⟨(i 0).val / 5000, by rw [hN]; omega⟩, flush14_7 _, ?_⟩
  rw [mem_blk14]
  obtain ⟨h0, h1, m0, m1, s0, s1, g0, g1, e0, e1, w0, w1, b0, b1, o0, o1⟩ := idx14 ⟨(i 0).val / 5000, by rw [hN]; omega⟩
  intro a
  match a with
  | ⟨0, _⟩ => show win14_7.index _ (0 : Fin 2) * 5000 ≤ (i 0).val ∧ (i 0).val < win14_7.index _ (0 : Fin 2) * 5000 + 5000; rw [o0]; dsimp only; omega
  | ⟨1, _⟩ => show win14_7.index _ (1 : Fin 2) * 64 ≤ (i 1).val ∧ (i 1).val < win14_7.index _ (1 : Fin 2) * 64 + 64; rw [o1]; omega

/-- The output array of region 14 after its points: `post` of its seven operands. -/
theorem pass2_14_val : ((dat14 (F := Ideal) V c).arrAt 7 cfg14.N : Arr2 50000 64) = Cert.Gine.post (V c (Pipeline.arrRef spec14 0)) (row (V c (Pipeline.arrRef spec14 1))) (row (V c (Pipeline.arrRef spec14 2))) (row (V c (Pipeline.arrRef spec14 3))) (row (V c (Pipeline.arrRef spec14 4))) (V c (Pipeline.arrRef spec14 5)) (row (V c (Pipeline.arrRef spec14 6))) :=
  (dat14 (F := Ideal) V c).arrAt_eq_of_cover 7 _ (fun t _ => flushed14 V c t) (cover14)

end Cert.KernelIdeal.RegVal

end
-- ==== Proof.RegVal.lean ====
/-
  What each of the fifteen kernel regions leaves in its output arrays, as the specification's functions of
  the arrays the region reads, whatever the buffers hold when the region is entered.

  An edge region leaves the messages `msg` of its four operands; a first node pass leaves `hpre` and the
  column totals of it and of its squares; a second node pass leaves `post` of its seven operands.
-/
import proofs.«122931_j61864708931975_1_alg».proof.Proof.Gen.KernelIdeal.Frame
import proofs.«122931_j61864708931975_1_alg».proof.Proof.Spec
import proofs.«122931_j61864708931975_1_alg».proof.Proof.RegEdge
import proofs.«122931_j61864708931975_1_alg».proof.Proof.RegPass1
import proofs.«122931_j61864708931975_1_alg».proof.Proof.RegPass2

set_option maxRecDepth 16384

noncomputable section

namespace Cert.KernelIdeal.RegVal

open Idealize.ShloMosaic Idealize.ShloMosaic.TcCoe Idealize.ShloMosaic.ValueIdx Cert.KernelIdeal Cert.KernelIdeal.Gen Cert.Gine

variable (V : (c : Dev nD) → (b : Ref sig .tc) → Buf (Elt Ideal) ((c : Thread nD τ).loc b)) (c : Dev nD)

/-- Layer 0: the edge messages. -/
theorem edge0 : ((dat0 (F := Ideal) V c).arrAt 4 cfg0.N : Arr2 800000 2) = msg (V c (Pipeline.arrRef spec0 0)) (V c (Pipeline.arrRef spec0 1)) (V c (Pipeline.arrRef spec0 2)) (row (V c (Pipeline.arrRef spec0 3))) :=
  edge0_val V c

/-- Layer 0: the node map before normalisation, and its column totals and totals of squares. -/
theorem pass1_1_h : ((dat1 (F := Ideal) V c).arrAt 4 cfg1.N : Arr2 50000 64) = hpre (V c (Pipeline.arrRef spec1 0)) (V c (Pipeline.arrRef spec1 1)) (V c (Pipeline.arrRef spec1 2)) (row (V c (Pipeline.arrRef spec1 3))) :=
  pass1_1_h_val V c

theorem pass1_1_s : ((dat1 (F := Ideal) V c).arrAt 5 cfg1.N : Arr2 1 64) = fun i => colSum (hpre (V c (Pipeline.arrRef spec1 0)) (V c (Pipeline.arrRef spec1 1)) (V c (Pipeline.arrRef spec1 2)) (row (V c (Pipeline.arrRef spec1 3)))) (i 1) :=
  pass1_1_s_val V c

theorem pass1_1_q : ((dat1 (F := Ideal) V c).arrAt 6 cfg1.N : Arr2 1 64) = fun i => colSum (fun j => hpre (V c (Pipeline.arrRef spec1 0)) (V c (Pipeline.arrRef spec1 1)) (V c (Pipeline.arrRef spec1 2)) (row (V c (Pipeline.arrRef spec1 3))) j * hpre (V c (Pipeline.arrRef spec1 0)) (V c (Pipeline.arrRef spec1 1)) (V c (Pipeline.arrRef spec1 2)) (row (V c (Pipeline.arrRef spec1 3))) j) (i 1) :=
  pass1_1_q_val V c

/-- Layer 0: the normalised, rectified, mapped and rectified rows. -/
theorem pass2_2 : ((dat2 (F := Ideal) V c).arrAt 7 cfg2.N : Arr2 50000 64) = Cert.Gine.post (V c (Pipeline.arrRef spec2 0)) (row (V c (Pipeline.arrRef spec2 1))) (row (V c (Pipeline.arrRef spec2 2))) (row (V c (Pipeline.arrRef spec2 3))) (row (V c (Pipeline.arrRef spec2 4))) (V c (Pipeline.arrRef spec2 5)) (row (V c (Pipeline.arrRef spec2 6))) :=
  pass2_2_val V c

/-- Layer 1: the edge messages. -/
theorem edge3 : ((dat3 (F := Ideal) V c).arrAt 4 cfg3.N : Arr2 800000 64) = msg (V c (Pipeline.arrRef spec3 0)) (V c (Pipeline.arrRef spec3 1)) (V c (Pipeline.arrRef spec3 2)) (row (V c (Pipeline.arrRef spec3 3))) :=
  edge3_val V c

/-- Layer 1: the node map before normalisation, and its column totals and totals of squares. -/
theorem pass1_4_h : ((dat4 (F := Ideal) V c).arrAt 4 cfg4.N : Arr2 50000 64) = hpre (V c (Pipeline.arrRef spec4 0)) (V c (Pipeline.arrRef spec4 1)) (V c (Pipeline.arrRef spec4 2)) (row (V c (Pipeline.arrRef spec4 3))) :=
  pass1_4_h_val V c

theorem pass1_4_s : ((dat4 (F := Ideal) V c).arrAt 5 cfg4.N : Arr2 1 64) = fun i => colSum (hpre (V c (Pipeline.arrRef spec4 0)) (V c (Pipeline.arrRef spec4 1)) (V c (Pipeline.arrRef spec4 2)) (row (V c (Pipeline.arrRef spec4 3)))) (i 1) :=
  pass1_4_s_val V c

theorem pass1_4_q : ((dat4 (F := Ideal) V c).arrAt 6 cfg4.N : Arr2 1 64) = fun i => colSum (fun j => hpre (V c (Pipeline.arrRef spec4 0)) (V c (Pipeline.arrRef spec4 1)) (V c (Pipeline.arrRef spec4 2)) (row (V c (Pipeline.arrRef spec4 3))) j * hpre (V c (Pipeline.arrRef spec4 0)) (V c (Pipeline.arrRef spec4 1)) (V c (Pipeline.arrRef spec4 2)) (row (V c (Pipeline.arrRef spec4 3))) j) (i 1) :=
  pass1_4_q_val V c

/-- Layer 1: the normalised, rectified, mapped and rectified rows. -/
theorem pass2_5 : ((dat5 (F := Ideal) V c).arrAt 7 cfg5.N : Arr2 50000 64) = Cert.Gine.post (V c (Pipeline.arrRef spec5 0)) (row (V c (Pipeline.arrRef spec5 1))) (row (V c (Pipeline.arrRef spec5 2))) (row (V c (Pipeline.arrRef spec5 3))) (row (V c (Pipeline.arrRef spec5 4))) (V c (Pipeline.arrRef spec5 5)) (row (V c (Pipeline.arrRef spec5 6))) :=
  pass2_5_val V c

/-- Layer 2: the edge messages. -/
theorem edge6 : ((dat6 (F := Ideal) V c).arrAt 4 cfg6.N : Arr2 800000 64) = msg (V c (Pipeline.arrRef spec6 0)) (V c (Pipeline.arrRef spec6 1)) (V c (Pipeline.arrRef spec6 2)) (row (V c (Pipeline.arrRef spec6 3))) :=
  edge6_val V c

/-- Layer 2: the node map before normalisation, and its column totals and totals of squares. -/
theorem pass1_7_h : ((dat7 (F := Ideal) V c).arrAt 4 cfg7.N : Arr2 50000 64) = hpre (V c (Pipeline.arrRef spec7 0)) (V c (Pipeline.arrRef spec7 1)) (V c (Pipeline.arrRef spec7 2)) (row (V c (Pipeline.arrRef spec7 3))) :=
  pass1_7_h_val V c

theorem pass1_7_s : ((dat7 (F := Ideal) V c).arrAt 5 cfg7.N : Arr2 1 64) = fun i => colSum (hpre (V c (Pipeline.arrRef spec7 0)) (V c (Pipeline.arrRef spec7 1)) (V c (Pipeline.arrRef spec7 2)) (row (V c (Pipeline.arrRef spec7 3)))) (i 1) :=
  pass1_7_s_val V c

theorem pass1_7_q : ((dat7 (F := Ideal) V c).arrAt 6 cfg7.N : Arr2 1 64) = fun i => colSum (fun j => hpre (V c (Pipeline.arrRef spec7 0)) (V c (Pipeline.arrRef spec7 1)) (V c (Pipeline.arrRef spec7 2)) (row (V c (Pipeline.arrRef spec7 3))) j * hpre (V c (Pipeline.arrRef spec7 0)) (V c (Pipeline.arrRef spec7 1)) (V c (Pipeline.arrRef spec7 2)) (row (V c (Pipeline.arrRef spec7 3))) j) (i 1) :=
  pass1_7_q_val V c

/-- Layer 2: the normalised, rectified, mapped and rectified rows. -/
theorem pass2_8 : ((dat8 (F := Ideal) V c).arrAt 7 cfg8.N : Arr2 50000 64) = Cert.Gine.post (V c (Pipeline.arrRef spec8 0)) (row (V c (Pipeline.arrRef spec8 1))) (row (V c (Pipeline.arrRef spec8 2))) (row (V c (Pipeline.arrRef spec8 3))) (row (V c (Pipeline.arrRef spec8 4))) (V c (Pipeline.arrRef spec8 5)) (row (V c (Pipeline.arrRef spec8 6))) :=
  pass2_8_val V c

/-- Layer 3: the edge messages. -/
theorem edge9 : ((dat9 (F := Ideal) V c).arrAt 4 cfg9.N : Arr2 800000 64) = msg (V c (Pipeline.arrRef spec9 0)) (V c (Pipeline.arrRef spec9 1)) (V c (Pipeline.arrRef spec9 2)) (row (V c (Pipeline.arrRef spec9 3))) :=
  edge9_val V c

/-- Layer 3: the node map before normalisation, and its column totals and totals of squares. -/
theorem pass1_10_h : ((dat10 (F := Ideal) V c).arrAt 4 cfg10.N : Arr2 50000 64) = hpre (V c (Pipeline.arrRef spec10 0)) (V c (Pipeline.arrRef spec10 1)) (V c (Pipeline.arrRef spec10 2)) (row (V c (Pipeline.arrRef spec10 3))) :=
  pass1_10_h_val V c

theorem pass1_10_s : ((dat10 (F := Ideal) V c).arrAt 5 cfg10.N : Arr2 1 64) = fun i => colSum (hpre (V c (Pipeline.arrRef spec10 0)) (V c (Pipeline.arrRef spec10 1)) (V c (Pipeline.arrRef spec10 2)) (row (V c (Pipeline.arrRef spec10 3)))) (i 1) :=
  pass1_10_s_val V c

theorem pass1_10_q : ((dat10 (F := Ideal) V c).arrAt 6 cfg10.N : Arr2 1 64) = fun i => colSum (fun j => hpre (V c (Pipeline.arrRef spec10 0)) (V c (Pipeline.arrRef spec10 1)) (V c (Pipeline.arrRef spec10 2)) (row (V c (Pipeline.arrRef spec10 3))) j * hpre (V c (Pipeline.arrRef spec10 0)) (V c (Pipeline.arrRef spec10 1)) (V c (Pipeline.arrRef spec10 2)) (row (V c (Pipeline.arrRef spec10 3))) j) (i 1) :=
  pass1_10_q_val V c

/-- Layer 3: the normalised, rectified, mapped and rectified rows. -/
theorem pass2_11 : ((dat11 (F := Ideal) V c).arrAt 7 cfg11.N : Arr2 50000 64) = Cert.Gine.post (V c (Pipeline.arrRef spec11 0)) (row (V c (Pipeline.arrRef spec11 1))) (row (V c (Pipeline.arrRef spec11 2))) (row (V c (Pipeline.arrRef spec11 3))) (row (V c (Pipeline.arrRef spec11 4))) (V c (Pipeline.arrRef spec11 5)) (row (V c (Pipeline.arrRef spec11 6))) :=
  pass2_11_val V c

/-- Layer 4: the edge messages. -/
theorem edge12 : ((dat12 (F := Ideal) V c).arrAt 4 cfg12.N : Arr2 800000 64) = msg (V c (Pipeline.arrRef spec12 0)) (V c (Pipeline.arrRef spec12 1)) (V c (Pipeline.arrRef spec12 2)) (row (V c (Pipeline.arrRef spec12 3))) :=
  edge12_val V c

/-- Layer 4: the node map before normalisation, and its column totals and totals of squares. -/
theorem pass1_13_h : ((dat13 (F := Ideal) V c).arrAt 4 cfg13.N : Arr2 50000 64) = hpre (V c (Pipeline.arrRef spec13 0)) (V c (Pipeline.arrRef spec13 1)) (V c (Pipeline.arrRef spec13 2)) (row (V c (Pipeline.arrRef spec13 3))) :=
  pass1_13_h_val V c

theorem pass1_13_s : ((dat13 (F := Ideal) V c).arrAt 5 cfg13.N : Arr2 1 64) = fun i => colSum (hpre (V c (Pipeline.arrRef spec13 0)) (V c (Pipeline.arrRef spec13 1)) (V c (Pipeline.arrRef spec13 2)) (row (V c (Pipeline.arrRef spec13 3)))) (i 1) :=
  pass1_13_s_val V c

theorem pass1_13_q : ((dat13 (F := Ideal) V c).arrAt 6 cfg13.N : Arr2 1 64) = fun i => colSum (fun j => hpre (V c (Pipeline.arrRef spec13 0)) (V c (Pipeline.arrRef spec13 1)) (V c (Pipeline.arrRef spec13 2)) (row (V c (Pipeline.arrRef spec13 3))) j * hpre (V c (Pipeline.arrRef spec13 0)) (V c (Pipeline.arrRef spec13 1)) (V c (Pipeline.arrRef spec13 2)) (row (V c (Pipeline.arrRef spec13 3))) j) (i 1) :=
  pass1_13_q_val V c

/-- Layer 4: the normalised, rectified, mapped and rectified rows. -/
theorem pass2_14 : ((dat14 (F := Ideal) V c).arrAt 7 cfg14.N : Arr2 50000 64) = Cert.Gine.post (V c (Pipeline.arrRef spec14 0)) (row (V c (Pipeline.arrRef spec14 1))) (row (V c (Pipeline.arrRef spec14 2))) (row (V c (Pipeline.arrRef spec14 3))) (row (V c (Pipeline.arrRef spec14 4))) (V c (Pipeline.arrRef spec14 5)) (row (V c (Pipeline.arrRef spec14 6))) :=
  pass2_14_val V c

end Cert.KernelIdeal.RegVal

end
-- ==== Proof.KLayer0.lean ====
/-
  The first layer of the kernel program, read off its run.

  The program's first host stretch cuts the edge list into its source and destination rows, wraps a negative
  source once and gathers the source rows of x; region 0 turns the gathered rows, the edge features and the
  edge map into messages; the next stretch sums the messages into their destination rows from zeros; region 1
  maps x + aggr through the first node map and totals each column of the result and of its squares; the
  host divides the totals by the row count (the mean, and E[h²] − mean² for the variance); region 2
  normalises, scales, shifts, rectifies, applies the second node map and rectifies again. Each buffer a step
  reads is followed back to what the step before left in it; the buffer after region 2 is the
  specification's layer at the launch contents of the arguments.
-/
import proofs.«122931_j61864708931975_1_alg».proof.Proof.Gen.KernelIdeal.Frame
import proofs.«122931_j61864708931975_1_alg».proof.Proof.KBack
import proofs.«122931_j61864708931975_1_alg».proof.Proof.KOps
import proofs.«122931_j61864708931975_1_alg».proof.Proof.Params
import proofs.«122931_j61864708931975_1_alg».proof.Proof.RegVal

set_option maxRecDepth 16384

noncomputable section

namespace Cert.KernelIdeal.KValue

open Idealize.ShloMosaic Idealize.ShloMosaic.ValueIdx Idealize.ShloMosaic.TcCoe Idealize.ShloMosaic.StableHlo
open Cert.KernelIdeal Cert.KernelIdeal.Gen Cert.Gine Cert.RowOps

variable (m : (ℓ : Loc nD τ sig) → Buf (Elt Ideal) ℓ) (ρ : Dev nD → PrngReg) (c : Dev nD)

/-- The source column the first host stretch leaves. -/
theorem W1_src : (W1 m ρ c (Proc.devRef .tc main_v9) : IVec ⟨2, ![800000, 1]⟩ 32) = srcIdx (m ((c : Thread nD τ).loc main_arg1)) := by
  dsimp only [W1, hostOps0]
  after_results
  exact KOps.src_column (m ((c : Thread nD τ).loc main_arg1)) _ (fun e => KOps.edge_row 0 (m ((c : Thread nD τ).loc main_arg1)) _ _ e) _ _

/-- The gathered source rows. -/
theorem W1_gx : (W1 m ρ c (Proc.devRef .tc main_v10) : Arr2 800000 2)
    = gathered gather_S50000x2_S800000x1_S800000x2_1_0_n_n_0_1_12_wf (srcIdx (m ((c : Thread nD τ).loc main_arg1))) (m ((c : Thread nD τ).loc main_arg0)) := by
  dsimp only [W1, hostOps0]
  after_results
  exact congrArg (Host.gather (rowGather 50000 2 800000 gather_S50000x2_S800000x1_S800000x2_1_0_n_n_0_1_12_wf) (m ((c : Thread nD τ).loc main_arg0)))
    (KOps.src_column (m ((c : Thread nD τ).loc main_arg1)) _ (fun e => KOps.edge_row 0 (m ((c : Thread nD τ).loc main_arg1)) _ _ e) _ _)

theorem W1_eb : row (W1 m ρ c (Proc.devRef .tc main_v11) : Arr2 1 2) = vec (m ((c : Thread nD τ).loc main_arg4)) := by
  dsimp only [W1, hostOps0]
  after_results
  exact KOps.row_reshape (m ((c : Thread nD τ).loc main_arg4)) _

theorem W1_dstrow (e : Fin 800000) : (W1 m ρ c (Proc.devRef .tc main_v3) : IVec ⟨1, ![800000]⟩ 32) (ix1 e) = (m ((c : Thread nD τ).loc main_arg1)) (ix2 1 e) := by
  dsimp only [W1, hostOps0]
  after_results
  exact KOps.edge_row 1 (m ((c : Thread nD τ).loc main_arg1)) _ _ e

theorem W1_srcrow (e : Fin 800000) : (W1 m ρ c (Proc.devRef .tc main_v1) : IVec ⟨1, ![800000]⟩ 32) (ix1 e) = (m ((c : Thread nD τ).loc main_arg1)) (ix2 0 e) := by
  dsimp only [W1, hostOps0]
  after_results
  exact KOps.edge_row 0 (m ((c : Thread nD τ).loc main_arg1)) _ _ e

/-- Region 0 leaves the messages of the first layer. -/
theorem W2_msg : (W2 m ρ c (Proc.devRef .tc main_v12) : Arr2 800000 2)
    = msg (gathered gather_S50000x2_S800000x1_S800000x2_1_0_n_n_0_1_12_wf (srcIdx (m ((c : Thread nD τ).loc main_arg1))) (m ((c : Thread nD τ).loc main_arg0))) (m ((c : Thread nD τ).loc main_arg2)) (m ((c : Thread nD τ).loc main_arg3)) (vec (m ((c : Thread nD τ).loc main_arg4))) := by
  refine (W2_arr m ρ c (4 : Fin cfg0.W)).trans ?_
  rw [RegVal.edge0 (V1 m ρ) c]
  show msg (W1 m ρ c (Proc.devRef .tc main_v10)) (W1 m ρ c (Proc.devRef .tc main_arg2)) (W1 m ρ c (Proc.devRef .tc main_arg3)) (row (W1 m ρ c (Proc.devRef .tc main_v11))) = _
  rw [W1_gx, W1_eb, W1_keep m ρ c main_arg2 (by decide), W1_keep m ρ c main_arg3 (by decide)]

/-- The messages summed into their destination rows, and the first node map's bias as a row. -/
theorem W3_aggr : (W3 m ρ c (Proc.devRef .tc main_v15) : Arr2 50000 2) = summed scatter_S50000x2_S800000x1_S800000x2_1_0_0_1_wf (dstIdx (m ((c : Thread nD τ).loc main_arg1))) (msg (gathered gather_S50000x2_S800000x1_S800000x2_1_0_n_n_0_1_12_wf (srcIdx (m ((c : Thread nD τ).loc main_arg1))) (m ((c : Thread nD τ).loc main_arg0))) (m ((c : Thread nD τ).loc main_arg2)) (m ((c : Thread nD τ).loc main_arg3)) (vec (m ((c : Thread nD τ).loc main_arg4)))) := by
  dsimp only [W3, hostOps1]
  after_results
  rw [W2_msg, KOps.zeros, KOps.dst_column (m ((c : Thread nD τ).loc main_arg1)) (W2 m ρ c (Proc.devRef .tc main_v3)) (fun e => by
    rw [W2_of_ne m ρ c main_v3 (by decide)]; exact W1_dstrow m ρ c e)]
  rfl

theorem W3_ba : row (W3 m ρ c (Proc.devRef .tc main_v16) : Arr2 1 64) = vec (m ((c : Thread nD τ).loc main_arg6)) := by
  dsimp only [W3, hostOps1]
  after_results
  rw [W2_of_ne m ρ c main_arg6 (by decide), W1_keep m ρ c main_arg6 (by decide)]
  exact KOps.row_reshape (m ((c : Thread nD τ).loc main_arg6)) _

theorem W3_x : (W3 m ρ c (Proc.devRef .tc main_arg0) : Arr2 50000 2) = (m ((c : Thread nD τ).loc main_arg0)) := by
  rw [W3_keep m ρ c main_arg0 (by decide), W2_of_ne m ρ c main_arg0 (by decide), W1_keep m ρ c main_arg0 (by decide)]

theorem W3_Wa : (W3 m ρ c (Proc.devRef .tc main_arg5) : Arr2 2 64) = (m ((c : Thread nD τ).loc main_arg5)) := by
  rw [W3_keep m ρ c main_arg5 (by decide), W2_of_ne m ρ c main_arg5 (by decide), W1_keep m ρ c main_arg5 (by decide)]

/-- Region 1's operands, as it finds them, give the first node map. -/
theorem W4_hV : hpre (N := 50000) (C := 2) (H := 64) (V3 m ρ c (Pipeline.arrRef spec1 0)) (V3 m ρ c (Pipeline.arrRef spec1 1)) (V3 m ρ c (Pipeline.arrRef spec1 2)) (row (V3 m ρ c (Pipeline.arrRef spec1 3))) = hpre (m ((c : Thread nD τ).loc main_arg0)) (summed scatter_S50000x2_S800000x1_S800000x2_1_0_0_1_wf (dstIdx (m ((c : Thread nD τ).loc main_arg1))) (msg (gathered gather_S50000x2_S800000x1_S800000x2_1_0_n_n_0_1_12_wf (srcIdx (m ((c : Thread nD τ).loc main_arg1))) (m ((c : Thread nD τ).loc main_arg0))) (m ((c : Thread nD τ).loc main_arg2)) (m ((c : Thread nD τ).loc main_arg3)) (vec (m ((c : Thread nD τ).loc main_arg4))))) (m ((c : Thread nD τ).loc main_arg5)) (vec (m ((c : Thread nD τ).loc main_arg6))) := by
  show hpre (W3 m ρ c (Proc.devRef .tc main_arg0)) (W3 m ρ c (Proc.devRef .tc main_v15)) (W3 m ρ c (Proc.devRef .tc main_arg5)) (row (W3 m ρ c (Proc.devRef .tc main_v16))) = _
  rw [W3_x, W3_aggr, W3_Wa, W3_ba]

/-- Region 1 leaves the first node map and its column totals. -/
theorem W4_h : (W4 m ρ c (Proc.devRef .tc main_v17_0) : Arr2 50000 64) = hpre (m ((c : Thread nD τ).loc main_arg0)) (summed scatter_S50000x2_S800000x1_S800000x2_1_0_0_1_wf (dstIdx (m ((c : Thread nD τ).loc main_arg1))) (msg (gathered gather_S50000x2_S800000x1_S800000x2_1_0_n_n_0_1_12_wf (srcIdx (m ((c : Thread nD τ).loc main_arg1))) (m ((c : Thread nD τ).loc main_arg0))) (m ((c : Thread nD τ).loc main_arg2)) (m ((c : Thread nD τ).loc main_arg3)) (vec (m ((c : Thread nD τ).loc main_arg4))))) (m ((c : Thread nD τ).loc main_arg5)) (vec (m ((c : Thread nD τ).loc main_arg6))) :=
  (W4_arr m ρ c (4 : Fin cfg1.W)).trans ((RegVal.pass1_1_h (V3 m ρ) c).trans (W4_hV m ρ c))

theorem W4_s : (W4 m ρ c (Proc.devRef .tc main_v17_1) : Arr2 1 64) = fun i => colSum (hpre (m ((c : Thread nD τ).loc main_arg0)) (summed scatter_S50000x2_S800000x1_S800000x2_1_0_0_1_wf (dstIdx (m ((c : Thread nD τ).loc main_arg1))) (msg (gathered gather_S50000x2_S800000x1_S800000x2_1_0_n_n_0_1_12_wf (srcIdx (m ((c : Thread nD τ).loc main_arg1))) (m ((c : Thread nD τ).loc main_arg0))) (m ((c : Thread nD τ).loc main_arg2)) (m ((c : Thread nD τ).loc main_arg3)) (vec (m ((c : Thread nD τ).loc main_arg4))))) (m ((c : Thread nD τ).loc main_arg5)) (vec (m ((c : Thread nD τ).loc main_arg6)))) (i 1) := by
  refine (W4_arr m ρ c (5 : Fin cfg1.W)).trans ?_
  rw [RegVal.pass1_1_s (V3 m ρ) c, W4_hV m ρ c]

theorem W4_q : (W4 m ρ c (Proc.devRef .tc main_v17_2) : Arr2 1 64) = fun i => colSum (fun j => (hpre (m ((c : Thread nD τ).loc main_arg0)) (summed scatter_S50000x2_S800000x1_S800000x2_1_0_0_1_wf (dstIdx (m ((c : Thread nD τ).loc main_arg1))) (msg (gathered gather_S50000x2_S800000x1_S800000x2_1_0_n_n_0_1_12_wf (srcIdx (m ((c : Thread nD τ).loc main_arg1))) (m ((c : Thread nD τ).loc main_arg0))) (m ((c : Thread nD τ).loc main_arg2)) (m ((c : Thread nD τ).loc main_arg3)) (vec (m ((c : Thread nD τ).loc main_arg4))))) (m ((c : Thread nD τ).loc main_arg5)) (vec (m ((c : Thread nD τ).loc main_arg6)))) j * (hpre (m ((c : Thread nD τ).loc main_arg0)) (summed scatter_S50000x2_S800000x1_S800000x2_1_0_0_1_wf (dstIdx (m ((c : Thread nD τ).loc main_arg1))) (msg (gathered gather_S50000x2_S800000x1_S800000x2_1_0_n_n_0_1_12_wf (srcIdx (m ((c : Thread nD τ).loc main_arg1))) (m ((c : Thread nD τ).loc main_arg0))) (m ((c : Thread nD τ).loc main_arg2)) (m ((c : Thread nD τ).loc main_arg3)) (vec (m ((c : Thread nD τ).loc main_arg4))))) (m ((c : Thread nD τ).loc main_arg5)) (vec (m ((c : Thread nD τ).loc main_arg6)))) j) (i 1) := by
  refine (W4_arr m ρ c (6 : Fin cfg1.W)).trans ?_
  rw [RegVal.pass1_1_q (V3 m ρ) c, W4_hV m ρ c]

/-- The host's mean and variance rows, and the scale, shift and second bias as rows. -/
theorem W5_mu : row (W5 m ρ c (Proc.devRef .tc main_v19) : Arr2 1 64) = mean (hpre (m ((c : Thread nD τ).loc main_arg0)) (summed scatter_S50000x2_S800000x1_S800000x2_1_0_0_1_wf (dstIdx (m ((c : Thread nD τ).loc main_arg1))) (msg (gathered gather_S50000x2_S800000x1_S800000x2_1_0_n_n_0_1_12_wf (srcIdx (m ((c : Thread nD τ).loc main_arg1))) (m ((c : Thread nD τ).loc main_arg0))) (m ((c : Thread nD τ).loc main_arg2)) (m ((c : Thread nD τ).loc main_arg3)) (vec (m ((c : Thread nD τ).loc main_arg4))))) (m ((c : Thread nD τ).loc main_arg5)) (vec (m ((c : Thread nD τ).loc main_arg6)))) := by
  dsimp only [W5, hostOps2]
  after_results
  exact KOps.mean_row (hpre (m ((c : Thread nD τ).loc main_arg0)) (summed scatter_S50000x2_S800000x1_S800000x2_1_0_0_1_wf (dstIdx (m ((c : Thread nD τ).loc main_arg1))) (msg (gathered gather_S50000x2_S800000x1_S800000x2_1_0_n_n_0_1_12_wf (srcIdx (m ((c : Thread nD τ).loc main_arg1))) (m ((c : Thread nD τ).loc main_arg0))) (m ((c : Thread nD τ).loc main_arg2)) (m ((c : Thread nD τ).loc main_arg3)) (vec (m ((c : Thread nD τ).loc main_arg4))))) (m ((c : Thread nD τ).loc main_arg5)) (vec (m ((c : Thread nD τ).loc main_arg6)))) _ (W4_s m ρ c) _

theorem W5_var : row (W5 m ρ c (Proc.devRef .tc main_v23) : Arr2 1 64) = varOne (hpre (m ((c : Thread nD τ).loc main_arg0)) (summed scatter_S50000x2_S800000x1_S800000x2_1_0_0_1_wf (dstIdx (m ((c : Thread nD τ).loc main_arg1))) (msg (gathered gather_S50000x2_S800000x1_S800000x2_1_0_n_n_0_1_12_wf (srcIdx (m ((c : Thread nD τ).loc main_arg1))) (m ((c : Thread nD τ).loc main_arg0))) (m ((c : Thread nD τ).loc main_arg2)) (m ((c : Thread nD τ).loc main_arg3)) (vec (m ((c : Thread nD τ).loc main_arg4))))) (m ((c : Thread nD τ).loc main_arg5)) (vec (m ((c : Thread nD τ).loc main_arg6)))) := by
  dsimp only [W5, hostOps2]
  after_results
  exact KOps.var_row (hpre (m ((c : Thread nD τ).loc main_arg0)) (summed scatter_S50000x2_S800000x1_S800000x2_1_0_0_1_wf (dstIdx (m ((c : Thread nD τ).loc main_arg1))) (msg (gathered gather_S50000x2_S800000x1_S800000x2_1_0_n_n_0_1_12_wf (srcIdx (m ((c : Thread nD τ).loc main_arg1))) (m ((c : Thread nD τ).loc main_arg0))) (m ((c : Thread nD τ).loc main_arg2)) (m ((c : Thread nD τ).loc main_arg3)) (vec (m ((c : Thread nD τ).loc main_arg4))))) (m ((c : Thread nD τ).loc main_arg5)) (vec (m ((c : Thread nD τ).loc main_arg6)))) _ _ (W4_s m ρ c) (W4_q m ρ c) _

theorem W5_g : row (W5 m ρ c (Proc.devRef .tc main_v24) : Arr2 1 64) = vec (m ((c : Thread nD τ).loc main_arg7)) := by
  dsimp only [W5, hostOps2]
  after_results
  rw [W4_of_ne m ρ c main_arg7 (by decide), W3_keep m ρ c main_arg7 (by decide), W2_of_ne m ρ c main_arg7 (by decide), W1_keep m ρ c main_arg7 (by decide)]
  exact KOps.row_reshape (m ((c : Thread nD τ).loc main_arg7)) _

theorem W5_be : row (W5 m ρ c (Proc.devRef .tc main_v25) : Arr2 1 64) = vec (m ((c : Thread nD τ).loc main_arg8)) := by
  dsimp only [W5, hostOps2]
  after_results
  rw [W4_of_ne m ρ c main_arg8 (by decide), W3_keep m ρ c main_arg8 (by decide), W2_of_ne m ρ c main_arg8 (by decide), W1_keep m ρ c main_arg8 (by decide)]
  exact KOps.row_reshape (m ((c : Thread nD τ).loc main_arg8)) _

theorem W5_bb : row (W5 m ρ c (Proc.devRef .tc main_v26) : Arr2 1 64) = vec (m ((c : Thread nD τ).loc main_arg10)) := by
  dsimp only [W5, hostOps2]
  after_results
  rw [W4_of_ne m ρ c main_arg10 (by decide), W3_keep m ρ c main_arg10 (by decide), W2_of_ne m ρ c main_arg10 (by decide), W1_keep m ρ c main_arg10 (by decide)]
  exact KOps.row_reshape (m ((c : Thread nD τ).loc main_arg10)) _

theorem W5_h : (W5 m ρ c (Proc.devRef .tc main_v17_0) : Arr2 50000 64) = hpre (m ((c : Thread nD τ).loc main_arg0)) (summed scatter_S50000x2_S800000x1_S800000x2_1_0_0_1_wf (dstIdx (m ((c : Thread nD τ).loc main_arg1))) (msg (gathered gather_S50000x2_S800000x1_S800000x2_1_0_n_n_0_1_12_wf (srcIdx (m ((c : Thread nD τ).loc main_arg1))) (m ((c : Thread nD τ).loc main_arg0))) (m ((c : Thread nD τ).loc main_arg2)) (m ((c : Thread nD τ).loc main_arg3)) (vec (m ((c : Thread nD τ).loc main_arg4))))) (m ((c : Thread nD τ).loc main_arg5)) (vec (m ((c : Thread nD τ).loc main_arg6))) := by
  rw [W5_keep m ρ c main_v17_0 (by decide)]
  exact W4_h m ρ c

theorem W5_Wb : (W5 m ρ c (Proc.devRef .tc main_arg9) : Arr2 64 64) = (m ((c : Thread nD τ).loc main_arg9)) := by
  rw [W5_keep m ρ c main_arg9 (by decide), W4_of_ne m ρ c main_arg9 (by decide), W3_keep m ρ c main_arg9 (by decide), W2_of_ne m ρ c main_arg9 (by decide), W1_keep m ρ c main_arg9 (by decide)]

/-- The first layer of the kernel program is the specification's layer with the variance as E[h²] − mean². -/
theorem layer0 : (W6 m ρ c (Proc.devRef .tc main_v27) : Arr2 50000 64)
    = layer gather_S50000x2_S800000x1_S800000x2_1_0_n_n_0_1_12_wf scatter_S50000x2_S800000x1_S800000x2_1_0_0_1_wf varOne (srcIdx (m ((c : Thread nD τ).loc main_arg1))) (dstIdx (m ((c : Thread nD τ).loc main_arg1))) (m ((c : Thread nD τ).loc main_arg2)) (p1 (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))) (m ((c : Thread nD τ).loc main_arg0)) := by
  refine (W6_arr m ρ c (7 : Fin cfg2.W)).trans ?_
  rw [RegVal.pass2_2 (V5 m ρ) c]
  show Cert.Gine.post (W5 m ρ c (Proc.devRef .tc main_v17_0)) (row (W5 m ρ c (Proc.devRef .tc main_v19))) (row (W5 m ρ c (Proc.devRef .tc main_v23))) (row (W5 m ρ c (Proc.devRef .tc main_v24))) (row (W5 m ρ c (Proc.devRef .tc main_v25))) (W5 m ρ c (Proc.devRef .tc main_arg9)) (row (W5 m ρ c (Proc.devRef .tc main_v26))) = _
  rw [W5_h, W5_mu, W5_var, W5_g, W5_be, W5_Wb, W5_bb]
  rfl

end Cert.KernelIdeal.KValue
end
-- ==== Proof.KEa.lean ====
/-
  The edge features through the run: they are an operand of every edge region and the result of none, and no
  host stretch writes them, so at the entry and at the exit of each edge region their buffer holds what it
  was launched with.
-/
import proofs.«122931_j61864708931975_1_alg».proof.Proof.Gen.KernelIdeal.Frame
import proofs.«122931_j61864708931975_1_alg».proof.Proof.KBack
import proofs.«122931_j61864708931975_1_alg».proof.Proof.Params

set_option maxRecDepth 16384

noncomputable section

namespace Cert.KernelIdeal.KValue

open Idealize.ShloMosaic Idealize.ShloMosaic.ValueIdx Idealize.ShloMosaic.TcCoe Idealize.ShloMosaic.StableHlo
open Cert.KernelIdeal Cert.KernelIdeal.Gen Cert.Gine Cert.RowOps

variable (m : (ℓ : Loc nD τ sig) → Buf (Elt Ideal) ℓ) (ρ : Dev nD → PrngReg) (c : Dev nD)

/-- The edge features are an operand of region 0, which leaves them as it found them. -/
theorem L0_ea8 : (W2 m ρ c (Proc.devRef .tc main_arg2) : Arr2 800000 7) = (m ((c : Thread nD τ).loc main_arg2)) := by
  refine ((W2_arr m ρ c 1).trans (((dat0 (V1 m ρ) c).arrAt_in 1 rfl _).trans (A_eq0 (V1 m ρ) c 1))).trans ?_
  show W1 m ρ c (Proc.devRef .tc main_arg2) = _
  rw [W1_keep m ρ c main_arg2 (by decide)]

theorem L1_ea7 : (W7 m ρ c (Proc.devRef .tc main_arg2) : Arr2 800000 7) = (m ((c : Thread nD τ).loc main_arg2)) := by
  wback
  exact L0_ea8 m ρ c

theorem L1_ea8 : (W8 m ρ c (Proc.devRef .tc main_arg2) : Arr2 800000 7) = (m ((c : Thread nD τ).loc main_arg2)) :=
  ((W8_arr m ρ c 1).trans (((dat3 (V7 m ρ) c).arrAt_in 1 rfl _).trans (A_eq3 (V7 m ρ) c 1))).trans (L1_ea7 m ρ c)

theorem L2_ea7 : (W13 m ρ c (Proc.devRef .tc main_arg2) : Arr2 800000 7) = (m ((c : Thread nD τ).loc main_arg2)) := by
  wback
  exact L1_ea8 m ρ c

theorem L2_ea8 : (W14 m ρ c (Proc.devRef .tc main_arg2) : Arr2 800000 7) = (m ((c : Thread nD τ).loc main_arg2)) :=
  ((W14_arr m ρ c 1).trans (((dat6 (V13 m ρ) c).arrAt_in 1 rfl _).trans (A_eq6 (V13 m ρ) c 1))).trans (L2_ea7 m ρ c)

theorem L3_ea7 : (W19 m ρ c (Proc.devRef .tc main_arg2) : Arr2 800000 7) = (m ((c : Thread nD τ).loc main_arg2)) := by
  wback
  exact L2_ea8 m ρ c

theorem L3_ea8 : (W20 m ρ c (Proc.devRef .tc main_arg2) : Arr2 800000 7) = (m ((c : Thread nD τ).loc main_arg2)) :=
  ((W20_arr m ρ c 1).trans (((dat9 (V19 m ρ) c).arrAt_in 1 rfl _).trans (A_eq9 (V19 m ρ) c 1))).trans (L3_ea7 m ρ c)

theorem L4_ea7 : (W25 m ρ c (Proc.devRef .tc main_arg2) : Arr2 800000 7) = (m ((c : Thread nD τ).loc main_arg2)) := by
  wback
  exact L3_ea8 m ρ c

theorem L4_ea8 : (W26 m ρ c (Proc.devRef .tc main_arg2) : Arr2 800000 7) = (m ((c : Thread nD τ).loc main_arg2)) :=
  ((W26_arr m ρ c 1).trans (((dat12 (V25 m ρ) c).arrAt_in 1 rfl _).trans (A_eq12 (V25 m ρ) c 1))).trans (L4_ea7 m ρ c)

end Cert.KernelIdeal.KValue
end
-- ==== Proof.KLayer1.lean ====
/-
  Layer 2 of the kernel program, read off its run: the same six steps as the first layer on 64 input columns,
  with the layer's weights cut out of the stacked arguments (slice 0) by the host stretch before the edge region.
  The layer's input is whatever the boundary before the stretch holds in the buffer the layer before wrote.
-/
import proofs.«122931_j61864708931975_1_alg».proof.Proof.Gen.KernelIdeal.Frame
import proofs.«122931_j61864708931975_1_alg».proof.Proof.KBack
import proofs.«122931_j61864708931975_1_alg».proof.Proof.KOps
import proofs.«122931_j61864708931975_1_alg».proof.Proof.Params
import proofs.«122931_j61864708931975_1_alg».proof.Proof.RegVal
import proofs.«122931_j61864708931975_1_alg».proof.Proof.KLayer0
import proofs.«122931_j61864708931975_1_alg».proof.Proof.KEa

set_option maxRecDepth 16384

noncomputable section

namespace Cert.KernelIdeal.KValue

open Idealize.ShloMosaic Idealize.ShloMosaic.ValueIdx Idealize.ShloMosaic.TcCoe Idealize.ShloMosaic.StableHlo
open Cert.KernelIdeal Cert.KernelIdeal.Gen Cert.Gine Cert.RowOps

variable (m : (ℓ : Loc nD τ sig) → Buf (Elt Ideal) ℓ) (ρ : Dev nD → PrngReg) (c : Dev nD)

/-! ## Layer 2 of the program (regions 3, 4, 5) -/

/-- The slices of the stacked weights the stretch before region 3 cuts out. -/
theorem L1_eW : ((W7 m ρ c (Proc.devRef .tc main_v29)) : Arr2 7 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW := by
  dsimp only [W7, hostOps3]
  after_results
  have ha : (W6 m ρ c (Proc.devRef .tc main_arg11)) = (m ((c : Thread nD τ).loc main_arg11)) := by
    wback
    first | rfl | done
  rw [ha]
  exact KOps.stack3 0 (m ((c : Thread nD τ).loc main_arg11)) _ _

theorem L1_ebv : vec ((W7 m ρ c (Proc.devRef .tc main_v31)) : Arr1 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb := by
  dsimp only [W7, hostOps3]
  after_results
  have ha : (W6 m ρ c (Proc.devRef .tc main_arg12)) = (m ((c : Thread nD τ).loc main_arg12)) := by
    wback
    first | rfl | done
  rw [ha]
  exact KOps.stack2 0 (m ((c : Thread nD τ).loc main_arg12)) _ _

theorem L1_Wa : ((W7 m ρ c (Proc.devRef .tc main_v33)) : Arr2 64 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa := by
  dsimp only [W7, hostOps3]
  after_results
  have ha : (W6 m ρ c (Proc.devRef .tc main_arg13)) = (m ((c : Thread nD τ).loc main_arg13)) := by
    wback
    first | rfl | done
  rw [ha]
  exact KOps.stack3 0 (m ((c : Thread nD τ).loc main_arg13)) _ _

theorem L1_bav : vec ((W7 m ρ c (Proc.devRef .tc main_v35)) : Arr1 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  dsimp only [W7, hostOps3]
  after_results
  have ha : (W6 m ρ c (Proc.devRef .tc main_arg14)) = (m ((c : Thread nD τ).loc main_arg14)) := by
    wback
    first | rfl | done
  rw [ha]
  exact KOps.stack2 0 (m ((c : Thread nD τ).loc main_arg14)) _ _

theorem L1_gv : vec ((W7 m ρ c (Proc.devRef .tc main_v37)) : Arr1 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).g := by
  dsimp only [W7, hostOps3]
  after_results
  have ha : (W6 m ρ c (Proc.devRef .tc main_arg15)) = (m ((c : Thread nD τ).loc main_arg15)) := by
    wback
    first | rfl | done
  rw [ha]
  exact KOps.stack2 0 (m ((c : Thread nD τ).loc main_arg15)) _ _

theorem L1_bev : vec ((W7 m ρ c (Proc.devRef .tc main_v39)) : Arr1 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).be := by
  dsimp only [W7, hostOps3]
  after_results
  have ha : (W6 m ρ c (Proc.devRef .tc main_arg16)) = (m ((c : Thread nD τ).loc main_arg16)) := by
    wback
    first | rfl | done
  rw [ha]
  exact KOps.stack2 0 (m ((c : Thread nD τ).loc main_arg16)) _ _

theorem L1_Wb : ((W7 m ρ c (Proc.devRef .tc main_v41)) : Arr2 64 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wb := by
  dsimp only [W7, hostOps3]
  after_results
  have ha : (W6 m ρ c (Proc.devRef .tc main_arg17)) = (m ((c : Thread nD τ).loc main_arg17)) := by
    wback
    first | rfl | done
  rw [ha]
  exact KOps.stack3 0 (m ((c : Thread nD τ).loc main_arg17)) _ _

theorem L1_bbv : vec ((W7 m ρ c (Proc.devRef .tc main_v43)) : Arr1 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).bb := by
  dsimp only [W7, hostOps3]
  after_results
  have ha : (W6 m ρ c (Proc.devRef .tc main_arg18)) = (m ((c : Thread nD τ).loc main_arg18)) := by
    wback
    first | rfl | done
  rw [ha]
  exact KOps.stack2 0 (m ((c : Thread nD τ).loc main_arg18)) _ _

theorem L1_srcrow (e : Fin 800000) : ((W6 m ρ c (Proc.devRef .tc main_v1)) : IVec ⟨1, ![800000]⟩ 32) (ix1 e) = (m ((c : Thread nD τ).loc main_arg1)) (ix2 0 e) := by
  wback
  exact W1_srcrow m ρ c e

theorem L1_dstrow (e : Fin 800000) : ((W8 m ρ c (Proc.devRef .tc main_v3)) : IVec ⟨1, ![800000]⟩ 32) (ix1 e) = (m ((c : Thread nD τ).loc main_arg1)) (ix2 1 e) := by
  wback
  exact W1_dstrow m ρ c e

set_option maxHeartbeats 1000000 in
/-- The gathered source rows of the layer's input. -/
theorem L1_gx : ((W7 m ρ c (Proc.devRef .tc main_v50)) : Arr2 800000 64) = gathered gather_S50000x64_S800000x1_S800000x64_1_0_n_n_0_1_164_wf (srcIdx (m ((c : Thread nD τ).loc main_arg1))) (W6 m ρ c (Proc.devRef .tc main_v27)) := by
  dsimp only [W7, hostOps3]
  after_results
  exact congrArg (Host.gather (rowGather 50000 64 800000 gather_S50000x64_S800000x1_S800000x64_1_0_n_n_0_1_164_wf) (W6 m ρ c (Proc.devRef .tc main_v27)))
    (KOps.src_column (m ((c : Thread nD τ).loc main_arg1)) _ (fun e => L1_srcrow m ρ c e) _ _)

set_option maxHeartbeats 1000000 in
theorem L1_eb : row ((W7 m ρ c (Proc.devRef .tc main_v51)) : Arr2 1 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb := by
  have h := L1_ebv m ρ c
  dsimp only [W7, hostOps3] at h ⊢
  refine Eq.trans ?_ h
  after_results
  exact KOps.row_reshape _ _

/-- Region 3 leaves the layer's messages. -/
theorem L1_msg : ((W8 m ρ c (Proc.devRef .tc main_v52)) : Arr2 800000 64) = msg (gathered gather_S50000x64_S800000x1_S800000x64_1_0_n_n_0_1_164_wf (srcIdx (m ((c : Thread nD τ).loc main_arg1))) (W6 m ρ c (Proc.devRef .tc main_v27))) (m ((c : Thread nD τ).loc main_arg2)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb := by
  refine (W8_arr m ρ c (4 : Fin cfg3.W)).trans ?_
  rw [RegVal.edge3 (V7 m ρ) c]
  show msg (W7 m ρ c (Proc.devRef .tc main_v50)) (W7 m ρ c (Proc.devRef .tc main_arg2)) (W7 m ρ c (Proc.devRef .tc main_v29)) (row (W7 m ρ c (Proc.devRef .tc main_v51))) = _
  rw [L1_gx, L1_eb, L1_eW, L1_ea7]

/-- The messages summed into their destination rows, and the first node map's bias as a row. -/
theorem L1_aggr : ((W9 m ρ c (Proc.devRef .tc main_v55)) : Arr2 50000 64) = summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W6 m ρ c (Proc.devRef .tc main_v27))) (m ((c : Thread nD τ).loc main_arg2)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb) := by
  dsimp only [W9, hostOps4]
  after_results
  rw [L1_msg, KOps.zeros, KOps.dst_column (m ((c : Thread nD τ).loc main_arg1)) (W8 m ρ c (Proc.devRef .tc main_v3)) (fun e => L1_dstrow m ρ c e)]
  rfl

theorem L1_ba : row ((W9 m ρ c (Proc.devRef .tc main_v56)) : Arr2 1 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  dsimp only [W9, hostOps4]
  after_results
  rw [W8_of_ne m ρ c main_v35 (by decide)]
  exact (KOps.row_reshape _ _).trans (L1_bav m ρ c)

theorem L1_x9 : ((W9 m ρ c (Proc.devRef .tc main_v27)) : Arr2 50000 64) = (W6 m ρ c (Proc.devRef .tc main_v27)) := by
  rw [W9_keep m ρ c main_v27 (by decide), W8_of_ne m ρ c main_v27 (by decide), W7_keep m ρ c main_v27 (by decide)]

theorem L1_Wa9 : ((W9 m ρ c (Proc.devRef .tc main_v33)) : Arr2 64 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa := by
  rw [W9_keep m ρ c main_v33 (by decide), W8_of_ne m ρ c main_v33 (by decide)]
  exact L1_Wa m ρ c

/-- Region 4's operands, as it finds them, give the first node map. -/
theorem L1_hV : hpre (N := 50000) (C := 64) (H := 64) (V9 m ρ c (Pipeline.arrRef spec4 0)) (V9 m ρ c (Pipeline.arrRef spec4 1)) (V9 m ρ c (Pipeline.arrRef spec4 2)) (row (V9 m ρ c (Pipeline.arrRef spec4 3))) = hpre (W6 m ρ c (Proc.devRef .tc main_v27)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W6 m ρ c (Proc.devRef .tc main_v27))) (m ((c : Thread nD τ).loc main_arg2)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  show hpre (W9 m ρ c (Proc.devRef .tc main_v27)) (W9 m ρ c (Proc.devRef .tc main_v55)) (W9 m ρ c (Proc.devRef .tc main_v33)) (row (W9 m ρ c (Proc.devRef .tc main_v56))) = _
  rw [L1_x9, L1_aggr, L1_Wa9, L1_ba]

/-- Region 4 leaves the first node map and its column totals. -/
theorem L1_h : ((W10 m ρ c (Proc.devRef .tc main_v57_0)) : Arr2 50000 64) = hpre (W6 m ρ c (Proc.devRef .tc main_v27)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W6 m ρ c (Proc.devRef .tc main_v27))) (m ((c : Thread nD τ).loc main_arg2)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba :=
  (W10_arr m ρ c (4 : Fin cfg4.W)).trans ((RegVal.pass1_4_h (V9 m ρ) c).trans (L1_hV m ρ c))

theorem L1_s : ((W10 m ρ c (Proc.devRef .tc main_v57_1)) : Arr2 1 64) = fun i => colSum (hpre (W6 m ρ c (Proc.devRef .tc main_v27)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W6 m ρ c (Proc.devRef .tc main_v27))) (m ((c : Thread nD τ).loc main_arg2)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) (i 1) := by
  refine (W10_arr m ρ c (5 : Fin cfg4.W)).trans ?_
  rw [RegVal.pass1_4_s (V9 m ρ) c, L1_hV m ρ c]

theorem L1_q : ((W10 m ρ c (Proc.devRef .tc main_v57_2)) : Arr2 1 64) = fun i => colSum (fun j => (hpre (W6 m ρ c (Proc.devRef .tc main_v27)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W6 m ρ c (Proc.devRef .tc main_v27))) (m ((c : Thread nD τ).loc main_arg2)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) j * (hpre (W6 m ρ c (Proc.devRef .tc main_v27)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W6 m ρ c (Proc.devRef .tc main_v27))) (m ((c : Thread nD τ).loc main_arg2)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) j) (i 1) := by
  refine (W10_arr m ρ c (6 : Fin cfg4.W)).trans ?_
  rw [RegVal.pass1_4_q (V9 m ρ) c, L1_hV m ρ c]

/-- The host's mean and variance rows, and the scale, shift and second bias as rows. -/
theorem L1_mu : row ((W11 m ρ c (Proc.devRef .tc main_v59)) : Arr2 1 64) = mean (hpre (W6 m ρ c (Proc.devRef .tc main_v27)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W6 m ρ c (Proc.devRef .tc main_v27))) (m ((c : Thread nD τ).loc main_arg2)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) := by
  dsimp only [W11, hostOps5]
  after_results
  exact KOps.mean_row (hpre (W6 m ρ c (Proc.devRef .tc main_v27)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W6 m ρ c (Proc.devRef .tc main_v27))) (m ((c : Thread nD τ).loc main_arg2)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) _ (L1_s m ρ c) _

theorem L1_var : row ((W11 m ρ c (Proc.devRef .tc main_v63)) : Arr2 1 64) = varOne (hpre (W6 m ρ c (Proc.devRef .tc main_v27)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W6 m ρ c (Proc.devRef .tc main_v27))) (m ((c : Thread nD τ).loc main_arg2)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) := by
  dsimp only [W11, hostOps5]
  after_results
  exact KOps.var_row (hpre (W6 m ρ c (Proc.devRef .tc main_v27)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W6 m ρ c (Proc.devRef .tc main_v27))) (m ((c : Thread nD τ).loc main_arg2)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) _ _ (L1_s m ρ c) (L1_q m ρ c) _

theorem L1_g : row ((W11 m ρ c (Proc.devRef .tc main_v64)) : Arr2 1 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).g := by
  dsimp only [W11, hostOps5]
  after_results
  rw [W10_of_ne m ρ c main_v37 (by decide), W9_keep m ρ c main_v37 (by decide), W8_of_ne m ρ c main_v37 (by decide)]
  exact (KOps.row_reshape _ _).trans (L1_gv m ρ c)

theorem L1_be : row ((W11 m ρ c (Proc.devRef .tc main_v65)) : Arr2 1 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).be := by
  dsimp only [W11, hostOps5]
  after_results
  rw [W10_of_ne m ρ c main_v39 (by decide), W9_keep m ρ c main_v39 (by decide), W8_of_ne m ρ c main_v39 (by decide)]
  exact (KOps.row_reshape _ _).trans (L1_bev m ρ c)

theorem L1_bb : row ((W11 m ρ c (Proc.devRef .tc main_v66)) : Arr2 1 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).bb := by
  dsimp only [W11, hostOps5]
  after_results
  rw [W10_of_ne m ρ c main_v43 (by decide), W9_keep m ρ c main_v43 (by decide), W8_of_ne m ρ c main_v43 (by decide)]
  exact (KOps.row_reshape _ _).trans (L1_bbv m ρ c)

theorem L1_h11 : ((W11 m ρ c (Proc.devRef .tc main_v57_0)) : Arr2 50000 64) = hpre (W6 m ρ c (Proc.devRef .tc main_v27)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W6 m ρ c (Proc.devRef .tc main_v27))) (m ((c : Thread nD τ).loc main_arg2)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  rw [W11_keep m ρ c main_v57_0 (by decide)]
  exact L1_h m ρ c

theorem L1_Wb11 : ((W11 m ρ c (Proc.devRef .tc main_v41)) : Arr2 64 64) = (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wb := by
  rw [W11_keep m ρ c main_v41 (by decide), W10_of_ne m ρ c main_v41 (by decide), W9_keep m ρ c main_v41 (by decide), W8_of_ne m ρ c main_v41 (by decide)]
  exact L1_Wb m ρ c

/-- Layer 2 of the kernel program is the specification's layer, with the variance as E[h²] − mean², of what
    the layer before left. -/
theorem layer1 : ((W12 m ρ c (Proc.devRef .tc main_v67)) : Arr2 50000 64)
    = layer gather_S50000x64_S800000x1_S800000x64_1_0_n_n_0_1_164_wf scatter_S50000x64_S800000x1_S800000x64_1_0_0_1_wf varOne (srcIdx (m ((c : Thread nD τ).loc main_arg1))) (dstIdx (m ((c : Thread nD τ).loc main_arg1))) (m ((c : Thread nD τ).loc main_arg2)) (pl 0 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (W6 m ρ c (Proc.devRef .tc main_v27)) := by
  refine (W12_arr m ρ c (7 : Fin cfg5.W)).trans ?_
  rw [RegVal.pass2_5 (V11 m ρ) c]
  show Cert.Gine.post (W11 m ρ c (Proc.devRef .tc main_v57_0)) (row (W11 m ρ c (Proc.devRef .tc main_v59))) (row (W11 m ρ c (Proc.devRef .tc main_v63))) (row (W11 m ρ c (Proc.devRef .tc main_v64))) (row (W11 m ρ c (Proc.devRef .tc main_v65))) (W11 m ρ c (Proc.devRef .tc main_v41)) (row (W11 m ρ c (Proc.devRef .tc main_v66))) = _
  rw [L1_h11, L1_mu, L1_var, L1_g, L1_be, L1_Wb11, L1_bb]
  rfl

end Cert.KernelIdeal.KValue
end
-- ==== Proof.KLayer2.lean ====
/-
  Layer 3 of the kernel program, read off its run: the same six steps as the first layer on 64 input columns,
  with the layer's weights cut out of the stacked arguments (slice 1) by the host stretch before the edge region.
  The layer's input is whatever the boundary before the stretch holds in the buffer the layer before wrote.
-/
import proofs.«122931_j61864708931975_1_alg».proof.Proof.Gen.KernelIdeal.Frame
import proofs.«122931_j61864708931975_1_alg».proof.Proof.KBack
import proofs.«122931_j61864708931975_1_alg».proof.Proof.KOps
import proofs.«122931_j61864708931975_1_alg».proof.Proof.Params
import proofs.«122931_j61864708931975_1_alg».proof.Proof.RegVal
import proofs.«122931_j61864708931975_1_alg».proof.Proof.KLayer0
import proofs.«122931_j61864708931975_1_alg».proof.Proof.KEa

set_option maxRecDepth 16384

noncomputable section

namespace Cert.KernelIdeal.KValue

open Idealize.ShloMosaic Idealize.ShloMosaic.ValueIdx Idealize.ShloMosaic.TcCoe Idealize.ShloMosaic.StableHlo
open Cert.KernelIdeal Cert.KernelIdeal.Gen Cert.Gine Cert.RowOps

variable (m : (ℓ : Loc nD τ sig) → Buf (Elt Ideal) ℓ) (ρ : Dev nD → PrngReg) (c : Dev nD)

/-! ## Layer 3 of the program (regions 6, 7, 8) -/

/-- The slices of the stacked weights the stretch before region 6 cuts out. -/
theorem L2_eW : ((W13 m ρ c (Proc.devRef .tc main_v69)) : Arr2 7 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW := by
  dsimp only [W13, hostOps6]
  after_results
  have ha : (W12 m ρ c (Proc.devRef .tc main_arg11)) = (m ((c : Thread nD τ).loc main_arg11)) := by
    wback
    first | rfl | done
  rw [ha]
  exact KOps.stack3 1 (m ((c : Thread nD τ).loc main_arg11)) _ _

theorem L2_ebv : vec ((W13 m ρ c (Proc.devRef .tc main_v71)) : Arr1 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb := by
  dsimp only [W13, hostOps6]
  after_results
  have ha : (W12 m ρ c (Proc.devRef .tc main_arg12)) = (m ((c : Thread nD τ).loc main_arg12)) := by
    wback
    first | rfl | done
  rw [ha]
  exact KOps.stack2 1 (m ((c : Thread nD τ).loc main_arg12)) _ _

theorem L2_Wa : ((W13 m ρ c (Proc.devRef .tc main_v73)) : Arr2 64 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa := by
  dsimp only [W13, hostOps6]
  after_results
  have ha : (W12 m ρ c (Proc.devRef .tc main_arg13)) = (m ((c : Thread nD τ).loc main_arg13)) := by
    wback
    first | rfl | done
  rw [ha]
  exact KOps.stack3 1 (m ((c : Thread nD τ).loc main_arg13)) _ _

theorem L2_bav : vec ((W13 m ρ c (Proc.devRef .tc main_v75)) : Arr1 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  dsimp only [W13, hostOps6]
  after_results
  have ha : (W12 m ρ c (Proc.devRef .tc main_arg14)) = (m ((c : Thread nD τ).loc main_arg14)) := by
    wback
    first | rfl | done
  rw [ha]
  exact KOps.stack2 1 (m ((c : Thread nD τ).loc main_arg14)) _ _

theorem L2_gv : vec ((W13 m ρ c (Proc.devRef .tc main_v77)) : Arr1 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).g := by
  dsimp only [W13, hostOps6]
  after_results
  have ha : (W12 m ρ c (Proc.devRef .tc main_arg15)) = (m ((c : Thread nD τ).loc main_arg15)) := by
    wback
    first | rfl | done
  rw [ha]
  exact KOps.stack2 1 (m ((c : Thread nD τ).loc main_arg15)) _ _

theorem L2_bev : vec ((W13 m ρ c (Proc.devRef .tc main_v79)) : Arr1 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).be := by
  dsimp only [W13, hostOps6]
  after_results
  have ha : (W12 m ρ c (Proc.devRef .tc main_arg16)) = (m ((c : Thread nD τ).loc main_arg16)) := by
    wback
    first | rfl | done
  rw [ha]
  exact KOps.stack2 1 (m ((c : Thread nD τ).loc main_arg16)) _ _

theorem L2_Wb : ((W13 m ρ c (Proc.devRef .tc main_v81)) : Arr2 64 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wb := by
  dsimp only [W13, hostOps6]
  after_results
  have ha : (W12 m ρ c (Proc.devRef .tc main_arg17)) = (m ((c : Thread nD τ).loc main_arg17)) := by
    wback
    first | rfl | done
  rw [ha]
  exact KOps.stack3 1 (m ((c : Thread nD τ).loc main_arg17)) _ _

theorem L2_bbv : vec ((W13 m ρ c (Proc.devRef .tc main_v83)) : Arr1 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).bb := by
  dsimp only [W13, hostOps6]
  after_results
  have ha : (W12 m ρ c (Proc.devRef .tc main_arg18)) = (m ((c : Thread nD τ).loc main_arg18)) := by
    wback
    first | rfl | done
  rw [ha]
  exact KOps.stack2 1 (m ((c : Thread nD τ).loc main_arg18)) _ _

theorem L2_srcrow (e : Fin 800000) : ((W12 m ρ c (Proc.devRef .tc main_v1)) : IVec ⟨1, ![800000]⟩ 32) (ix1 e) = (m ((c : Thread nD τ).loc main_arg1)) (ix2 0 e) := by
  wback
  exact W1_srcrow m ρ c e

theorem L2_dstrow (e : Fin 800000) : ((W14 m ρ c (Proc.devRef .tc main_v3)) : IVec ⟨1, ![800000]⟩ 32) (ix1 e) = (m ((c : Thread nD τ).loc main_arg1)) (ix2 1 e) := by
  wback
  exact W1_dstrow m ρ c e

set_option maxHeartbeats 1000000 in
/-- The gathered source rows of the layer's input. -/
theorem L2_gx : ((W13 m ρ c (Proc.devRef .tc main_v90)) : Arr2 800000 64) = gathered gather_S50000x64_S800000x1_S800000x64_1_0_n_n_0_1_164_wf (srcIdx (m ((c : Thread nD τ).loc main_arg1))) (W12 m ρ c (Proc.devRef .tc main_v67)) := by
  dsimp only [W13, hostOps6]
  after_results
  exact congrArg (Host.gather (rowGather 50000 64 800000 gather_S50000x64_S800000x1_S800000x64_1_0_n_n_0_1_164_wf) (W12 m ρ c (Proc.devRef .tc main_v67)))
    (KOps.src_column (m ((c : Thread nD τ).loc main_arg1)) _ (fun e => L2_srcrow m ρ c e) _ _)

set_option maxHeartbeats 1000000 in
theorem L2_eb : row ((W13 m ρ c (Proc.devRef .tc main_v91)) : Arr2 1 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb := by
  have h := L2_ebv m ρ c
  dsimp only [W13, hostOps6] at h ⊢
  refine Eq.trans ?_ h
  after_results
  exact KOps.row_reshape _ _

/-- Region 6 leaves the layer's messages. -/
theorem L2_msg : ((W14 m ρ c (Proc.devRef .tc main_v92)) : Arr2 800000 64) = msg (gathered gather_S50000x64_S800000x1_S800000x64_1_0_n_n_0_1_164_wf (srcIdx (m ((c : Thread nD τ).loc main_arg1))) (W12 m ρ c (Proc.devRef .tc main_v67))) (m ((c : Thread nD τ).loc main_arg2)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb := by
  refine (W14_arr m ρ c (4 : Fin cfg6.W)).trans ?_
  rw [RegVal.edge6 (V13 m ρ) c]
  show msg (W13 m ρ c (Proc.devRef .tc main_v90)) (W13 m ρ c (Proc.devRef .tc main_arg2)) (W13 m ρ c (Proc.devRef .tc main_v69)) (row (W13 m ρ c (Proc.devRef .tc main_v91))) = _
  rw [L2_gx, L2_eb, L2_eW, L2_ea7]

/-- The messages summed into their destination rows, and the first node map's bias as a row. -/
theorem L2_aggr : ((W15 m ρ c (Proc.devRef .tc main_v95)) : Arr2 50000 64) = summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W12 m ρ c (Proc.devRef .tc main_v67))) (m ((c : Thread nD τ).loc main_arg2)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb) := by
  dsimp only [W15, hostOps7]
  after_results
  rw [L2_msg, KOps.zeros, KOps.dst_column (m ((c : Thread nD τ).loc main_arg1)) (W14 m ρ c (Proc.devRef .tc main_v3)) (fun e => L2_dstrow m ρ c e)]
  rfl

theorem L2_ba : row ((W15 m ρ c (Proc.devRef .tc main_v96)) : Arr2 1 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  dsimp only [W15, hostOps7]
  after_results
  rw [W14_of_ne m ρ c main_v75 (by decide)]
  exact (KOps.row_reshape _ _).trans (L2_bav m ρ c)

theorem L2_x9 : ((W15 m ρ c (Proc.devRef .tc main_v67)) : Arr2 50000 64) = (W12 m ρ c (Proc.devRef .tc main_v67)) := by
  rw [W15_keep m ρ c main_v67 (by decide), W14_of_ne m ρ c main_v67 (by decide), W13_keep m ρ c main_v67 (by decide)]

theorem L2_Wa9 : ((W15 m ρ c (Proc.devRef .tc main_v73)) : Arr2 64 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa := by
  rw [W15_keep m ρ c main_v73 (by decide), W14_of_ne m ρ c main_v73 (by decide)]
  exact L2_Wa m ρ c

/-- Region 7's operands, as it finds them, give the first node map. -/
theorem L2_hV : hpre (N := 50000) (C := 64) (H := 64) (V15 m ρ c (Pipeline.arrRef spec7 0)) (V15 m ρ c (Pipeline.arrRef spec7 1)) (V15 m ρ c (Pipeline.arrRef spec7 2)) (row (V15 m ρ c (Pipeline.arrRef spec7 3))) = hpre (W12 m ρ c (Proc.devRef .tc main_v67)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W12 m ρ c (Proc.devRef .tc main_v67))) (m ((c : Thread nD τ).loc main_arg2)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  show hpre (W15 m ρ c (Proc.devRef .tc main_v67)) (W15 m ρ c (Proc.devRef .tc main_v95)) (W15 m ρ c (Proc.devRef .tc main_v73)) (row (W15 m ρ c (Proc.devRef .tc main_v96))) = _
  rw [L2_x9, L2_aggr, L2_Wa9, L2_ba]

/-- Region 7 leaves the first node map and its column totals. -/
theorem L2_h : ((W16 m ρ c (Proc.devRef .tc main_v97_0)) : Arr2 50000 64) = hpre (W12 m ρ c (Proc.devRef .tc main_v67)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W12 m ρ c (Proc.devRef .tc main_v67))) (m ((c : Thread nD τ).loc main_arg2)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba :=
  (W16_arr m ρ c (4 : Fin cfg7.W)).trans ((RegVal.pass1_7_h (V15 m ρ) c).trans (L2_hV m ρ c))

theorem L2_s : ((W16 m ρ c (Proc.devRef .tc main_v97_1)) : Arr2 1 64) = fun i => colSum (hpre (W12 m ρ c (Proc.devRef .tc main_v67)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W12 m ρ c (Proc.devRef .tc main_v67))) (m ((c : Thread nD τ).loc main_arg2)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) (i 1) := by
  refine (W16_arr m ρ c (5 : Fin cfg7.W)).trans ?_
  rw [RegVal.pass1_7_s (V15 m ρ) c, L2_hV m ρ c]

theorem L2_q : ((W16 m ρ c (Proc.devRef .tc main_v97_2)) : Arr2 1 64) = fun i => colSum (fun j => (hpre (W12 m ρ c (Proc.devRef .tc main_v67)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W12 m ρ c (Proc.devRef .tc main_v67))) (m ((c : Thread nD τ).loc main_arg2)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) j * (hpre (W12 m ρ c (Proc.devRef .tc main_v67)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W12 m ρ c (Proc.devRef .tc main_v67))) (m ((c : Thread nD τ).loc main_arg2)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) j) (i 1) := by
  refine (W16_arr m ρ c (6 : Fin cfg7.W)).trans ?_
  rw [RegVal.pass1_7_q (V15 m ρ) c, L2_hV m ρ c]

/-- The host's mean and variance rows, and the scale, shift and second bias as rows. -/
theorem L2_mu : row ((W17 m ρ c (Proc.devRef .tc main_v99)) : Arr2 1 64) = mean (hpre (W12 m ρ c (Proc.devRef .tc main_v67)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W12 m ρ c (Proc.devRef .tc main_v67))) (m ((c : Thread nD τ).loc main_arg2)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) := by
  dsimp only [W17, hostOps8]
  after_results
  exact KOps.mean_row (hpre (W12 m ρ c (Proc.devRef .tc main_v67)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W12 m ρ c (Proc.devRef .tc main_v67))) (m ((c : Thread nD τ).loc main_arg2)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) _ (L2_s m ρ c) _

theorem L2_var : row ((W17 m ρ c (Proc.devRef .tc main_v103)) : Arr2 1 64) = varOne (hpre (W12 m ρ c (Proc.devRef .tc main_v67)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W12 m ρ c (Proc.devRef .tc main_v67))) (m ((c : Thread nD τ).loc main_arg2)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) := by
  dsimp only [W17, hostOps8]
  after_results
  exact KOps.var_row (hpre (W12 m ρ c (Proc.devRef .tc main_v67)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W12 m ρ c (Proc.devRef .tc main_v67))) (m ((c : Thread nD τ).loc main_arg2)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) _ _ (L2_s m ρ c) (L2_q m ρ c) _

theorem L2_g : row ((W17 m ρ c (Proc.devRef .tc main_v104)) : Arr2 1 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).g := by
  dsimp only [W17, hostOps8]
  after_results
  rw [W16_of_ne m ρ c main_v77 (by decide), W15_keep m ρ c main_v77 (by decide), W14_of_ne m ρ c main_v77 (by decide)]
  exact (KOps.row_reshape _ _).trans (L2_gv m ρ c)

theorem L2_be : row ((W17 m ρ c (Proc.devRef .tc main_v105)) : Arr2 1 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).be := by
  dsimp only [W17, hostOps8]
  after_results
  rw [W16_of_ne m ρ c main_v79 (by decide), W15_keep m ρ c main_v79 (by decide), W14_of_ne m ρ c main_v79 (by decide)]
  exact (KOps.row_reshape _ _).trans (L2_bev m ρ c)

theorem L2_bb : row ((W17 m ρ c (Proc.devRef .tc main_v106)) : Arr2 1 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).bb := by
  dsimp only [W17, hostOps8]
  after_results
  rw [W16_of_ne m ρ c main_v83 (by decide), W15_keep m ρ c main_v83 (by decide), W14_of_ne m ρ c main_v83 (by decide)]
  exact (KOps.row_reshape _ _).trans (L2_bbv m ρ c)

theorem L2_h11 : ((W17 m ρ c (Proc.devRef .tc main_v97_0)) : Arr2 50000 64) = hpre (W12 m ρ c (Proc.devRef .tc main_v67)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W12 m ρ c (Proc.devRef .tc main_v67))) (m ((c : Thread nD τ).loc main_arg2)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  rw [W17_keep m ρ c main_v97_0 (by decide)]
  exact L2_h m ρ c

theorem L2_Wb11 : ((W17 m ρ c (Proc.devRef .tc main_v81)) : Arr2 64 64) = (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wb := by
  rw [W17_keep m ρ c main_v81 (by decide), W16_of_ne m ρ c main_v81 (by decide), W15_keep m ρ c main_v81 (by decide), W14_of_ne m ρ c main_v81 (by decide)]
  exact L2_Wb m ρ c

/-- Layer 3 of the kernel program is the specification's layer, with the variance as E[h²] − mean², of what
    the layer before left. -/
theorem layer2 : ((W18 m ρ c (Proc.devRef .tc main_v107)) : Arr2 50000 64)
    = layer gather_S50000x64_S800000x1_S800000x64_1_0_n_n_0_1_164_wf scatter_S50000x64_S800000x1_S800000x64_1_0_0_1_wf varOne (srcIdx (m ((c : Thread nD τ).loc main_arg1))) (dstIdx (m ((c : Thread nD τ).loc main_arg1))) (m ((c : Thread nD τ).loc main_arg2)) (pl 1 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (W12 m ρ c (Proc.devRef .tc main_v67)) := by
  refine (W18_arr m ρ c (7 : Fin cfg8.W)).trans ?_
  rw [RegVal.pass2_8 (V17 m ρ) c]
  show Cert.Gine.post (W17 m ρ c (Proc.devRef .tc main_v97_0)) (row (W17 m ρ c (Proc.devRef .tc main_v99))) (row (W17 m ρ c (Proc.devRef .tc main_v103))) (row (W17 m ρ c (Proc.devRef .tc main_v104))) (row (W17 m ρ c (Proc.devRef .tc main_v105))) (W17 m ρ c (Proc.devRef .tc main_v81)) (row (W17 m ρ c (Proc.devRef .tc main_v106))) = _
  rw [L2_h11, L2_mu, L2_var, L2_g, L2_be, L2_Wb11, L2_bb]
  rfl

end Cert.KernelIdeal.KValue
end
-- ==== Proof.KLayer3.lean ====
/-
  Layer 4 of the kernel program, read off its run: the same six steps as the first layer on 64 input columns,
  with the layer's weights cut out of the stacked arguments (slice 2) by the host stretch before the edge region.
  The layer's input is whatever the boundary before the stretch holds in the buffer the layer before wrote.
-/
import proofs.«122931_j61864708931975_1_alg».proof.Proof.Gen.KernelIdeal.Frame
import proofs.«122931_j61864708931975_1_alg».proof.Proof.KBack
import proofs.«122931_j61864708931975_1_alg».proof.Proof.KOps
import proofs.«122931_j61864708931975_1_alg».proof.Proof.Params
import proofs.«122931_j61864708931975_1_alg».proof.Proof.RegVal
import proofs.«122931_j61864708931975_1_alg».proof.Proof.KLayer0
import proofs.«122931_j61864708931975_1_alg».proof.Proof.KEa

set_option maxRecDepth 16384

noncomputable section

namespace Cert.KernelIdeal.KValue

open Idealize.ShloMosaic Idealize.ShloMosaic.ValueIdx Idealize.ShloMosaic.TcCoe Idealize.ShloMosaic.StableHlo
open Cert.KernelIdeal Cert.KernelIdeal.Gen Cert.Gine Cert.RowOps

variable (m : (ℓ : Loc nD τ sig) → Buf (Elt Ideal) ℓ) (ρ : Dev nD → PrngReg) (c : Dev nD)

/-! ## Layer 4 of the program (regions 9, 10, 11) -/

/-- The slices of the stacked weights the stretch before region 9 cuts out. -/
theorem L3_eW : ((W19 m ρ c (Proc.devRef .tc main_v109)) : Arr2 7 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW := by
  dsimp only [W19, hostOps9]
  after_results
  have ha : (W18 m ρ c (Proc.devRef .tc main_arg11)) = (m ((c : Thread nD τ).loc main_arg11)) := by
    wback
    first | rfl | done
  rw [ha]
  exact KOps.stack3 2 (m ((c : Thread nD τ).loc main_arg11)) _ _

theorem L3_ebv : vec ((W19 m ρ c (Proc.devRef .tc main_v111)) : Arr1 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb := by
  dsimp only [W19, hostOps9]
  after_results
  have ha : (W18 m ρ c (Proc.devRef .tc main_arg12)) = (m ((c : Thread nD τ).loc main_arg12)) := by
    wback
    first | rfl | done
  rw [ha]
  exact KOps.stack2 2 (m ((c : Thread nD τ).loc main_arg12)) _ _

theorem L3_Wa : ((W19 m ρ c (Proc.devRef .tc main_v113)) : Arr2 64 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa := by
  dsimp only [W19, hostOps9]
  after_results
  have ha : (W18 m ρ c (Proc.devRef .tc main_arg13)) = (m ((c : Thread nD τ).loc main_arg13)) := by
    wback
    first | rfl | done
  rw [ha]
  exact KOps.stack3 2 (m ((c : Thread nD τ).loc main_arg13)) _ _

theorem L3_bav : vec ((W19 m ρ c (Proc.devRef .tc main_v115)) : Arr1 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  dsimp only [W19, hostOps9]
  after_results
  have ha : (W18 m ρ c (Proc.devRef .tc main_arg14)) = (m ((c : Thread nD τ).loc main_arg14)) := by
    wback
    first | rfl | done
  rw [ha]
  exact KOps.stack2 2 (m ((c : Thread nD τ).loc main_arg14)) _ _

theorem L3_gv : vec ((W19 m ρ c (Proc.devRef .tc main_v117)) : Arr1 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).g := by
  dsimp only [W19, hostOps9]
  after_results
  have ha : (W18 m ρ c (Proc.devRef .tc main_arg15)) = (m ((c : Thread nD τ).loc main_arg15)) := by
    wback
    first | rfl | done
  rw [ha]
  exact KOps.stack2 2 (m ((c : Thread nD τ).loc main_arg15)) _ _

theorem L3_bev : vec ((W19 m ρ c (Proc.devRef .tc main_v119)) : Arr1 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).be := by
  dsimp only [W19, hostOps9]
  after_results
  have ha : (W18 m ρ c (Proc.devRef .tc main_arg16)) = (m ((c : Thread nD τ).loc main_arg16)) := by
    wback
    first | rfl | done
  rw [ha]
  exact KOps.stack2 2 (m ((c : Thread nD τ).loc main_arg16)) _ _

theorem L3_Wb : ((W19 m ρ c (Proc.devRef .tc main_v121)) : Arr2 64 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wb := by
  dsimp only [W19, hostOps9]
  after_results
  have ha : (W18 m ρ c (Proc.devRef .tc main_arg17)) = (m ((c : Thread nD τ).loc main_arg17)) := by
    wback
    first | rfl | done
  rw [ha]
  exact KOps.stack3 2 (m ((c : Thread nD τ).loc main_arg17)) _ _

theorem L3_bbv : vec ((W19 m ρ c (Proc.devRef .tc main_v123)) : Arr1 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).bb := by
  dsimp only [W19, hostOps9]
  after_results
  have ha : (W18 m ρ c (Proc.devRef .tc main_arg18)) = (m ((c : Thread nD τ).loc main_arg18)) := by
    wback
    first | rfl | done
  rw [ha]
  exact KOps.stack2 2 (m ((c : Thread nD τ).loc main_arg18)) _ _

theorem L3_srcrow (e : Fin 800000) : ((W18 m ρ c (Proc.devRef .tc main_v1)) : IVec ⟨1, ![800000]⟩ 32) (ix1 e) = (m ((c : Thread nD τ).loc main_arg1)) (ix2 0 e) := by
  wback
  exact W1_srcrow m ρ c e

theorem L3_dstrow (e : Fin 800000) : ((W20 m ρ c (Proc.devRef .tc main_v3)) : IVec ⟨1, ![800000]⟩ 32) (ix1 e) = (m ((c : Thread nD τ).loc main_arg1)) (ix2 1 e) := by
  wback
  exact W1_dstrow m ρ c e

set_option maxHeartbeats 1000000 in
/-- The gathered source rows of the layer's input. -/
theorem L3_gx : ((W19 m ρ c (Proc.devRef .tc main_v130)) : Arr2 800000 64) = gathered gather_S50000x64_S800000x1_S800000x64_1_0_n_n_0_1_164_wf (srcIdx (m ((c : Thread nD τ).loc main_arg1))) (W18 m ρ c (Proc.devRef .tc main_v107)) := by
  dsimp only [W19, hostOps9]
  after_results
  exact congrArg (Host.gather (rowGather 50000 64 800000 gather_S50000x64_S800000x1_S800000x64_1_0_n_n_0_1_164_wf) (W18 m ρ c (Proc.devRef .tc main_v107)))
    (KOps.src_column (m ((c : Thread nD τ).loc main_arg1)) _ (fun e => L3_srcrow m ρ c e) _ _)

set_option maxHeartbeats 1000000 in
theorem L3_eb : row ((W19 m ρ c (Proc.devRef .tc main_v131)) : Arr2 1 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb := by
  have h := L3_ebv m ρ c
  dsimp only [W19, hostOps9] at h ⊢
  refine Eq.trans ?_ h
  after_results
  exact KOps.row_reshape _ _

/-- Region 9 leaves the layer's messages. -/
theorem L3_msg : ((W20 m ρ c (Proc.devRef .tc main_v132)) : Arr2 800000 64) = msg (gathered gather_S50000x64_S800000x1_S800000x64_1_0_n_n_0_1_164_wf (srcIdx (m ((c : Thread nD τ).loc main_arg1))) (W18 m ρ c (Proc.devRef .tc main_v107))) (m ((c : Thread nD τ).loc main_arg2)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb := by
  refine (W20_arr m ρ c (4 : Fin cfg9.W)).trans ?_
  rw [RegVal.edge9 (V19 m ρ) c]
  show msg (W19 m ρ c (Proc.devRef .tc main_v130)) (W19 m ρ c (Proc.devRef .tc main_arg2)) (W19 m ρ c (Proc.devRef .tc main_v109)) (row (W19 m ρ c (Proc.devRef .tc main_v131))) = _
  rw [L3_gx, L3_eb, L3_eW, L3_ea7]

/-- The messages summed into their destination rows, and the first node map's bias as a row. -/
theorem L3_aggr : ((W21 m ρ c (Proc.devRef .tc main_v135)) : Arr2 50000 64) = summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W18 m ρ c (Proc.devRef .tc main_v107))) (m ((c : Thread nD τ).loc main_arg2)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb) := by
  dsimp only [W21, hostOps10]
  after_results
  rw [L3_msg, KOps.zeros, KOps.dst_column (m ((c : Thread nD τ).loc main_arg1)) (W20 m ρ c (Proc.devRef .tc main_v3)) (fun e => L3_dstrow m ρ c e)]
  rfl

theorem L3_ba : row ((W21 m ρ c (Proc.devRef .tc main_v136)) : Arr2 1 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  dsimp only [W21, hostOps10]
  after_results
  rw [W20_of_ne m ρ c main_v115 (by decide)]
  exact (KOps.row_reshape _ _).trans (L3_bav m ρ c)

theorem L3_x9 : ((W21 m ρ c (Proc.devRef .tc main_v107)) : Arr2 50000 64) = (W18 m ρ c (Proc.devRef .tc main_v107)) := by
  rw [W21_keep m ρ c main_v107 (by decide), W20_of_ne m ρ c main_v107 (by decide), W19_keep m ρ c main_v107 (by decide)]

theorem L3_Wa9 : ((W21 m ρ c (Proc.devRef .tc main_v113)) : Arr2 64 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa := by
  rw [W21_keep m ρ c main_v113 (by decide), W20_of_ne m ρ c main_v113 (by decide)]
  exact L3_Wa m ρ c

/-- Region 10's operands, as it finds them, give the first node map. -/
theorem L3_hV : hpre (N := 50000) (C := 64) (H := 64) (V21 m ρ c (Pipeline.arrRef spec10 0)) (V21 m ρ c (Pipeline.arrRef spec10 1)) (V21 m ρ c (Pipeline.arrRef spec10 2)) (row (V21 m ρ c (Pipeline.arrRef spec10 3))) = hpre (W18 m ρ c (Proc.devRef .tc main_v107)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W18 m ρ c (Proc.devRef .tc main_v107))) (m ((c : Thread nD τ).loc main_arg2)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  show hpre (W21 m ρ c (Proc.devRef .tc main_v107)) (W21 m ρ c (Proc.devRef .tc main_v135)) (W21 m ρ c (Proc.devRef .tc main_v113)) (row (W21 m ρ c (Proc.devRef .tc main_v136))) = _
  rw [L3_x9, L3_aggr, L3_Wa9, L3_ba]

/-- Region 10 leaves the first node map and its column totals. -/
theorem L3_h : ((W22 m ρ c (Proc.devRef .tc main_v137_0)) : Arr2 50000 64) = hpre (W18 m ρ c (Proc.devRef .tc main_v107)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W18 m ρ c (Proc.devRef .tc main_v107))) (m ((c : Thread nD τ).loc main_arg2)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba :=
  (W22_arr m ρ c (4 : Fin cfg10.W)).trans ((RegVal.pass1_10_h (V21 m ρ) c).trans (L3_hV m ρ c))

theorem L3_s : ((W22 m ρ c (Proc.devRef .tc main_v137_1)) : Arr2 1 64) = fun i => colSum (hpre (W18 m ρ c (Proc.devRef .tc main_v107)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W18 m ρ c (Proc.devRef .tc main_v107))) (m ((c : Thread nD τ).loc main_arg2)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) (i 1) := by
  refine (W22_arr m ρ c (5 : Fin cfg10.W)).trans ?_
  rw [RegVal.pass1_10_s (V21 m ρ) c, L3_hV m ρ c]

theorem L3_q : ((W22 m ρ c (Proc.devRef .tc main_v137_2)) : Arr2 1 64) = fun i => colSum (fun j => (hpre (W18 m ρ c (Proc.devRef .tc main_v107)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W18 m ρ c (Proc.devRef .tc main_v107))) (m ((c : Thread nD τ).loc main_arg2)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) j * (hpre (W18 m ρ c (Proc.devRef .tc main_v107)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W18 m ρ c (Proc.devRef .tc main_v107))) (m ((c : Thread nD τ).loc main_arg2)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) j) (i 1) := by
  refine (W22_arr m ρ c (6 : Fin cfg10.W)).trans ?_
  rw [RegVal.pass1_10_q (V21 m ρ) c, L3_hV m ρ c]

/-- The host's mean and variance rows, and the scale, shift and second bias as rows. -/
theorem L3_mu : row ((W23 m ρ c (Proc.devRef .tc main_v139)) : Arr2 1 64) = mean (hpre (W18 m ρ c (Proc.devRef .tc main_v107)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W18 m ρ c (Proc.devRef .tc main_v107))) (m ((c : Thread nD τ).loc main_arg2)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) := by
  dsimp only [W23, hostOps11]
  after_results
  exact KOps.mean_row (hpre (W18 m ρ c (Proc.devRef .tc main_v107)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W18 m ρ c (Proc.devRef .tc main_v107))) (m ((c : Thread nD τ).loc main_arg2)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) _ (L3_s m ρ c) _

theorem L3_var : row ((W23 m ρ c (Proc.devRef .tc main_v143)) : Arr2 1 64) = varOne (hpre (W18 m ρ c (Proc.devRef .tc main_v107)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W18 m ρ c (Proc.devRef .tc main_v107))) (m ((c : Thread nD τ).loc main_arg2)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) := by
  dsimp only [W23, hostOps11]
  after_results
  exact KOps.var_row (hpre (W18 m ρ c (Proc.devRef .tc main_v107)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W18 m ρ c (Proc.devRef .tc main_v107))) (m ((c : Thread nD τ).loc main_arg2)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) _ _ (L3_s m ρ c) (L3_q m ρ c) _

theorem L3_g : row ((W23 m ρ c (Proc.devRef .tc main_v144)) : Arr2 1 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).g := by
  dsimp only [W23, hostOps11]
  after_results
  rw [W22_of_ne m ρ c main_v117 (by decide), W21_keep m ρ c main_v117 (by decide), W20_of_ne m ρ c main_v117 (by decide)]
  exact (KOps.row_reshape _ _).trans (L3_gv m ρ c)

theorem L3_be : row ((W23 m ρ c (Proc.devRef .tc main_v145)) : Arr2 1 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).be := by
  dsimp only [W23, hostOps11]
  after_results
  rw [W22_of_ne m ρ c main_v119 (by decide), W21_keep m ρ c main_v119 (by decide), W20_of_ne m ρ c main_v119 (by decide)]
  exact (KOps.row_reshape _ _).trans (L3_bev m ρ c)

theorem L3_bb : row ((W23 m ρ c (Proc.devRef .tc main_v146)) : Arr2 1 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).bb := by
  dsimp only [W23, hostOps11]
  after_results
  rw [W22_of_ne m ρ c main_v123 (by decide), W21_keep m ρ c main_v123 (by decide), W20_of_ne m ρ c main_v123 (by decide)]
  exact (KOps.row_reshape _ _).trans (L3_bbv m ρ c)

theorem L3_h11 : ((W23 m ρ c (Proc.devRef .tc main_v137_0)) : Arr2 50000 64) = hpre (W18 m ρ c (Proc.devRef .tc main_v107)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W18 m ρ c (Proc.devRef .tc main_v107))) (m ((c : Thread nD τ).loc main_arg2)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  rw [W23_keep m ρ c main_v137_0 (by decide)]
  exact L3_h m ρ c

theorem L3_Wb11 : ((W23 m ρ c (Proc.devRef .tc main_v121)) : Arr2 64 64) = (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wb := by
  rw [W23_keep m ρ c main_v121 (by decide), W22_of_ne m ρ c main_v121 (by decide), W21_keep m ρ c main_v121 (by decide), W20_of_ne m ρ c main_v121 (by decide)]
  exact L3_Wb m ρ c

/-- Layer 4 of the kernel program is the specification's layer, with the variance as E[h²] − mean², of what
    the layer before left. -/
theorem layer3 : ((W24 m ρ c (Proc.devRef .tc main_v147)) : Arr2 50000 64)
    = layer gather_S50000x64_S800000x1_S800000x64_1_0_n_n_0_1_164_wf scatter_S50000x64_S800000x1_S800000x64_1_0_0_1_wf varOne (srcIdx (m ((c : Thread nD τ).loc main_arg1))) (dstIdx (m ((c : Thread nD τ).loc main_arg1))) (m ((c : Thread nD τ).loc main_arg2)) (pl 2 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (W18 m ρ c (Proc.devRef .tc main_v107)) := by
  refine (W24_arr m ρ c (7 : Fin cfg11.W)).trans ?_
  rw [RegVal.pass2_11 (V23 m ρ) c]
  show Cert.Gine.post (W23 m ρ c (Proc.devRef .tc main_v137_0)) (row (W23 m ρ c (Proc.devRef .tc main_v139))) (row (W23 m ρ c (Proc.devRef .tc main_v143))) (row (W23 m ρ c (Proc.devRef .tc main_v144))) (row (W23 m ρ c (Proc.devRef .tc main_v145))) (W23 m ρ c (Proc.devRef .tc main_v121)) (row (W23 m ρ c (Proc.devRef .tc main_v146))) = _
  rw [L3_h11, L3_mu, L3_var, L3_g, L3_be, L3_Wb11, L3_bb]
  rfl

end Cert.KernelIdeal.KValue
end
-- ==== Proof.KLayer4.lean ====
/-
  Layer 5 of the kernel program, read off its run: the same six steps as the first layer on 64 input columns,
  with the layer's weights cut out of the stacked arguments (slice 3) by the host stretch before the edge region.
  The layer's input is whatever the boundary before the stretch holds in the buffer the layer before wrote.
-/
import proofs.«122931_j61864708931975_1_alg».proof.Proof.Gen.KernelIdeal.Frame
import proofs.«122931_j61864708931975_1_alg».proof.Proof.KBack
import proofs.«122931_j61864708931975_1_alg».proof.Proof.KOps
import proofs.«122931_j61864708931975_1_alg».proof.Proof.Params
import proofs.«122931_j61864708931975_1_alg».proof.Proof.RegVal
import proofs.«122931_j61864708931975_1_alg».proof.Proof.KLayer0
import proofs.«122931_j61864708931975_1_alg».proof.Proof.KEa

set_option maxRecDepth 16384

noncomputable section

namespace Cert.KernelIdeal.KValue

open Idealize.ShloMosaic Idealize.ShloMosaic.ValueIdx Idealize.ShloMosaic.TcCoe Idealize.ShloMosaic.StableHlo
open Cert.KernelIdeal Cert.KernelIdeal.Gen Cert.Gine Cert.RowOps

variable (m : (ℓ : Loc nD τ sig) → Buf (Elt Ideal) ℓ) (ρ : Dev nD → PrngReg) (c : Dev nD)

/-! ## Layer 5 of the program (regions 12, 13, 14) -/

/-- The slices of the stacked weights the stretch before region 12 cuts out. -/
theorem L4_eW : ((W25 m ρ c (Proc.devRef .tc main_v149)) : Arr2 7 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW := by
  dsimp only [W25, hostOps12]
  after_results
  have ha : (W24 m ρ c (Proc.devRef .tc main_arg11)) = (m ((c : Thread nD τ).loc main_arg11)) := by
    wback
    first | rfl | done
  rw [ha]
  exact KOps.stack3 3 (m ((c : Thread nD τ).loc main_arg11)) _ _

theorem L4_ebv : vec ((W25 m ρ c (Proc.devRef .tc main_v151)) : Arr1 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb := by
  dsimp only [W25, hostOps12]
  after_results
  have ha : (W24 m ρ c (Proc.devRef .tc main_arg12)) = (m ((c : Thread nD τ).loc main_arg12)) := by
    wback
    first | rfl | done
  rw [ha]
  exact KOps.stack2 3 (m ((c : Thread nD τ).loc main_arg12)) _ _

theorem L4_Wa : ((W25 m ρ c (Proc.devRef .tc main_v153)) : Arr2 64 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa := by
  dsimp only [W25, hostOps12]
  after_results
  have ha : (W24 m ρ c (Proc.devRef .tc main_arg13)) = (m ((c : Thread nD τ).loc main_arg13)) := by
    wback
    first | rfl | done
  rw [ha]
  exact KOps.stack3 3 (m ((c : Thread nD τ).loc main_arg13)) _ _

theorem L4_bav : vec ((W25 m ρ c (Proc.devRef .tc main_v155)) : Arr1 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  dsimp only [W25, hostOps12]
  after_results
  have ha : (W24 m ρ c (Proc.devRef .tc main_arg14)) = (m ((c : Thread nD τ).loc main_arg14)) := by
    wback
    first | rfl | done
  rw [ha]
  exact KOps.stack2 3 (m ((c : Thread nD τ).loc main_arg14)) _ _

theorem L4_gv : vec ((W25 m ρ c (Proc.devRef .tc main_v157)) : Arr1 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).g := by
  dsimp only [W25, hostOps12]
  after_results
  have ha : (W24 m ρ c (Proc.devRef .tc main_arg15)) = (m ((c : Thread nD τ).loc main_arg15)) := by
    wback
    first | rfl | done
  rw [ha]
  exact KOps.stack2 3 (m ((c : Thread nD τ).loc main_arg15)) _ _

theorem L4_bev : vec ((W25 m ρ c (Proc.devRef .tc main_v159)) : Arr1 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).be := by
  dsimp only [W25, hostOps12]
  after_results
  have ha : (W24 m ρ c (Proc.devRef .tc main_arg16)) = (m ((c : Thread nD τ).loc main_arg16)) := by
    wback
    first | rfl | done
  rw [ha]
  exact KOps.stack2 3 (m ((c : Thread nD τ).loc main_arg16)) _ _

theorem L4_Wb : ((W25 m ρ c (Proc.devRef .tc main_v161)) : Arr2 64 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wb := by
  dsimp only [W25, hostOps12]
  after_results
  have ha : (W24 m ρ c (Proc.devRef .tc main_arg17)) = (m ((c : Thread nD τ).loc main_arg17)) := by
    wback
    first | rfl | done
  rw [ha]
  exact KOps.stack3 3 (m ((c : Thread nD τ).loc main_arg17)) _ _

theorem L4_bbv : vec ((W25 m ρ c (Proc.devRef .tc main_v163)) : Arr1 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).bb := by
  dsimp only [W25, hostOps12]
  after_results
  have ha : (W24 m ρ c (Proc.devRef .tc main_arg18)) = (m ((c : Thread nD τ).loc main_arg18)) := by
    wback
    first | rfl | done
  rw [ha]
  exact KOps.stack2 3 (m ((c : Thread nD τ).loc main_arg18)) _ _

theorem L4_srcrow (e : Fin 800000) : ((W24 m ρ c (Proc.devRef .tc main_v1)) : IVec ⟨1, ![800000]⟩ 32) (ix1 e) = (m ((c : Thread nD τ).loc main_arg1)) (ix2 0 e) := by
  wback
  exact W1_srcrow m ρ c e

theorem L4_dstrow (e : Fin 800000) : ((W26 m ρ c (Proc.devRef .tc main_v3)) : IVec ⟨1, ![800000]⟩ 32) (ix1 e) = (m ((c : Thread nD τ).loc main_arg1)) (ix2 1 e) := by
  wback
  exact W1_dstrow m ρ c e

set_option maxHeartbeats 1000000 in
/-- The gathered source rows of the layer's input. -/
theorem L4_gx : ((W25 m ρ c (Proc.devRef .tc main_v170)) : Arr2 800000 64) = gathered gather_S50000x64_S800000x1_S800000x64_1_0_n_n_0_1_164_wf (srcIdx (m ((c : Thread nD τ).loc main_arg1))) (W24 m ρ c (Proc.devRef .tc main_v147)) := by
  dsimp only [W25, hostOps12]
  after_results
  exact congrArg (Host.gather (rowGather 50000 64 800000 gather_S50000x64_S800000x1_S800000x64_1_0_n_n_0_1_164_wf) (W24 m ρ c (Proc.devRef .tc main_v147)))
    (KOps.src_column (m ((c : Thread nD τ).loc main_arg1)) _ (fun e => L4_srcrow m ρ c e) _ _)

set_option maxHeartbeats 1000000 in
theorem L4_eb : row ((W25 m ρ c (Proc.devRef .tc main_v171)) : Arr2 1 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb := by
  have h := L4_ebv m ρ c
  dsimp only [W25, hostOps12] at h ⊢
  refine Eq.trans ?_ h
  after_results
  exact KOps.row_reshape _ _

/-- Region 12 leaves the layer's messages. -/
theorem L4_msg : ((W26 m ρ c (Proc.devRef .tc main_v172)) : Arr2 800000 64) = msg (gathered gather_S50000x64_S800000x1_S800000x64_1_0_n_n_0_1_164_wf (srcIdx (m ((c : Thread nD τ).loc main_arg1))) (W24 m ρ c (Proc.devRef .tc main_v147))) (m ((c : Thread nD τ).loc main_arg2)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb := by
  refine (W26_arr m ρ c (4 : Fin cfg12.W)).trans ?_
  rw [RegVal.edge12 (V25 m ρ) c]
  show msg (W25 m ρ c (Proc.devRef .tc main_v170)) (W25 m ρ c (Proc.devRef .tc main_arg2)) (W25 m ρ c (Proc.devRef .tc main_v149)) (row (W25 m ρ c (Proc.devRef .tc main_v171))) = _
  rw [L4_gx, L4_eb, L4_eW, L4_ea7]

/-- The messages summed into their destination rows, and the first node map's bias as a row. -/
theorem L4_aggr : ((W27 m ρ c (Proc.devRef .tc main_v175)) : Arr2 50000 64) = summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W24 m ρ c (Proc.devRef .tc main_v147))) (m ((c : Thread nD τ).loc main_arg2)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb) := by
  dsimp only [W27, hostOps13]
  after_results
  rw [L4_msg, KOps.zeros, KOps.dst_column (m ((c : Thread nD τ).loc main_arg1)) (W26 m ρ c (Proc.devRef .tc main_v3)) (fun e => L4_dstrow m ρ c e)]
  rfl

theorem L4_ba : row ((W27 m ρ c (Proc.devRef .tc main_v176)) : Arr2 1 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  dsimp only [W27, hostOps13]
  after_results
  rw [W26_of_ne m ρ c main_v155 (by decide)]
  exact (KOps.row_reshape _ _).trans (L4_bav m ρ c)

theorem L4_x9 : ((W27 m ρ c (Proc.devRef .tc main_v147)) : Arr2 50000 64) = (W24 m ρ c (Proc.devRef .tc main_v147)) := by
  rw [W27_keep m ρ c main_v147 (by decide), W26_of_ne m ρ c main_v147 (by decide), W25_keep m ρ c main_v147 (by decide)]

theorem L4_Wa9 : ((W27 m ρ c (Proc.devRef .tc main_v153)) : Arr2 64 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa := by
  rw [W27_keep m ρ c main_v153 (by decide), W26_of_ne m ρ c main_v153 (by decide)]
  exact L4_Wa m ρ c

/-- Region 13's operands, as it finds them, give the first node map. -/
theorem L4_hV : hpre (N := 50000) (C := 64) (H := 64) (V27 m ρ c (Pipeline.arrRef spec13 0)) (V27 m ρ c (Pipeline.arrRef spec13 1)) (V27 m ρ c (Pipeline.arrRef spec13 2)) (row (V27 m ρ c (Pipeline.arrRef spec13 3))) = hpre (W24 m ρ c (Proc.devRef .tc main_v147)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W24 m ρ c (Proc.devRef .tc main_v147))) (m ((c : Thread nD τ).loc main_arg2)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  show hpre (W27 m ρ c (Proc.devRef .tc main_v147)) (W27 m ρ c (Proc.devRef .tc main_v175)) (W27 m ρ c (Proc.devRef .tc main_v153)) (row (W27 m ρ c (Proc.devRef .tc main_v176))) = _
  rw [L4_x9, L4_aggr, L4_Wa9, L4_ba]

/-- Region 13 leaves the first node map and its column totals. -/
theorem L4_h : ((W28 m ρ c (Proc.devRef .tc main_v177_0)) : Arr2 50000 64) = hpre (W24 m ρ c (Proc.devRef .tc main_v147)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W24 m ρ c (Proc.devRef .tc main_v147))) (m ((c : Thread nD τ).loc main_arg2)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba :=
  (W28_arr m ρ c (4 : Fin cfg13.W)).trans ((RegVal.pass1_13_h (V27 m ρ) c).trans (L4_hV m ρ c))

theorem L4_s : ((W28 m ρ c (Proc.devRef .tc main_v177_1)) : Arr2 1 64) = fun i => colSum (hpre (W24 m ρ c (Proc.devRef .tc main_v147)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W24 m ρ c (Proc.devRef .tc main_v147))) (m ((c : Thread nD τ).loc main_arg2)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) (i 1) := by
  refine (W28_arr m ρ c (5 : Fin cfg13.W)).trans ?_
  rw [RegVal.pass1_13_s (V27 m ρ) c, L4_hV m ρ c]

theorem L4_q : ((W28 m ρ c (Proc.devRef .tc main_v177_2)) : Arr2 1 64) = fun i => colSum (fun j => (hpre (W24 m ρ c (Proc.devRef .tc main_v147)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W24 m ρ c (Proc.devRef .tc main_v147))) (m ((c : Thread nD τ).loc main_arg2)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) j * (hpre (W24 m ρ c (Proc.devRef .tc main_v147)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W24 m ρ c (Proc.devRef .tc main_v147))) (m ((c : Thread nD τ).loc main_arg2)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) j) (i 1) := by
  refine (W28_arr m ρ c (6 : Fin cfg13.W)).trans ?_
  rw [RegVal.pass1_13_q (V27 m ρ) c, L4_hV m ρ c]

/-- The host's mean and variance rows, and the scale, shift and second bias as rows. -/
theorem L4_mu : row ((W29 m ρ c (Proc.devRef .tc main_v179)) : Arr2 1 64) = mean (hpre (W24 m ρ c (Proc.devRef .tc main_v147)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W24 m ρ c (Proc.devRef .tc main_v147))) (m ((c : Thread nD τ).loc main_arg2)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) := by
  dsimp only [W29, hostOps14]
  after_results
  exact KOps.mean_row (hpre (W24 m ρ c (Proc.devRef .tc main_v147)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W24 m ρ c (Proc.devRef .tc main_v147))) (m ((c : Thread nD τ).loc main_arg2)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) _ (L4_s m ρ c) _

theorem L4_var : row ((W29 m ρ c (Proc.devRef .tc main_v183)) : Arr2 1 64) = varOne (hpre (W24 m ρ c (Proc.devRef .tc main_v147)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W24 m ρ c (Proc.devRef .tc main_v147))) (m ((c : Thread nD τ).loc main_arg2)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) := by
  dsimp only [W29, hostOps14]
  after_results
  exact KOps.var_row (hpre (W24 m ρ c (Proc.devRef .tc main_v147)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W24 m ρ c (Proc.devRef .tc main_v147))) (m ((c : Thread nD τ).loc main_arg2)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba) _ _ (L4_s m ρ c) (L4_q m ρ c) _

theorem L4_g : row ((W29 m ρ c (Proc.devRef .tc main_v184)) : Arr2 1 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).g := by
  dsimp only [W29, hostOps14]
  after_results
  rw [W28_of_ne m ρ c main_v157 (by decide), W27_keep m ρ c main_v157 (by decide), W26_of_ne m ρ c main_v157 (by decide)]
  exact (KOps.row_reshape _ _).trans (L4_gv m ρ c)

theorem L4_be : row ((W29 m ρ c (Proc.devRef .tc main_v185)) : Arr2 1 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).be := by
  dsimp only [W29, hostOps14]
  after_results
  rw [W28_of_ne m ρ c main_v159 (by decide), W27_keep m ρ c main_v159 (by decide), W26_of_ne m ρ c main_v159 (by decide)]
  exact (KOps.row_reshape _ _).trans (L4_bev m ρ c)

theorem L4_bb : row ((W29 m ρ c (Proc.devRef .tc main_v186)) : Arr2 1 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).bb := by
  dsimp only [W29, hostOps14]
  after_results
  rw [W28_of_ne m ρ c main_v163 (by decide), W27_keep m ρ c main_v163 (by decide), W26_of_ne m ρ c main_v163 (by decide)]
  exact (KOps.row_reshape _ _).trans (L4_bbv m ρ c)

theorem L4_h11 : ((W29 m ρ c (Proc.devRef .tc main_v177_0)) : Arr2 50000 64) = hpre (W24 m ρ c (Proc.devRef .tc main_v147)) (summed scatter_S50000x64_S800000x1_S800000x64_1_0_0_1_wf (dstIdx (m ((c : Thread nD τ).loc main_arg1))) (msg (gathered gather_S50000x64_S800000x1_S800000x64_1_0_n_n_0_1_164_wf (srcIdx (m ((c : Thread nD τ).loc main_arg1))) (W24 m ρ c (Proc.devRef .tc main_v147))) (m ((c : Thread nD τ).loc main_arg2)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eW (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).eb)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wa (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).ba := by
  rw [W29_keep m ρ c main_v177_0 (by decide)]
  exact L4_h m ρ c

theorem L4_Wb11 : ((W29 m ρ c (Proc.devRef .tc main_v161)) : Arr2 64 64) = (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))).Wb := by
  rw [W29_keep m ρ c main_v161 (by decide), W28_of_ne m ρ c main_v161 (by decide), W27_keep m ρ c main_v161 (by decide), W26_of_ne m ρ c main_v161 (by decide)]
  exact L4_Wb m ρ c

/-- Layer 5 of the kernel program is the specification's layer, with the variance as E[h²] − mean², of what
    the layer before left. -/
theorem layer4 : ((W30 m ρ c (Proc.devRef .tc main_v187)) : Arr2 50000 64)
    = layer gather_S50000x64_S800000x1_S800000x64_1_0_n_n_0_1_164_wf scatter_S50000x64_S800000x1_S800000x64_1_0_0_1_wf varOne (srcIdx (m ((c : Thread nD τ).loc main_arg1))) (dstIdx (m ((c : Thread nD τ).loc main_arg1))) (m ((c : Thread nD τ).loc main_arg2)) (pl 3 (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))) (W24 m ρ c (Proc.devRef .tc main_v147)) := by
  refine (W30_arr m ρ c (7 : Fin cfg14.W)).trans ?_
  rw [RegVal.pass2_14 (V29 m ρ) c]
  show Cert.Gine.post (W29 m ρ c (Proc.devRef .tc main_v177_0)) (row (W29 m ρ c (Proc.devRef .tc main_v179))) (row (W29 m ρ c (Proc.devRef .tc main_v183))) (row (W29 m ρ c (Proc.devRef .tc main_v184))) (row (W29 m ρ c (Proc.devRef .tc main_v185))) (W29 m ρ c (Proc.devRef .tc main_v161)) (row (W29 m ρ c (Proc.devRef .tc main_v186))) = _
  rw [L4_h11, L4_mu, L4_var, L4_g, L4_be, L4_Wb11, L4_bb]
  rfl

end Cert.KernelIdeal.KValue
end
-- ==== Proof.KHead.lean ====
/-
  The head of the kernel program, read off its run.

  After the fifth layer the host maps the rows through the first head map and adds its bias, laid as a row and
  repeated down the rows; applies the leaky rectifier, spelt as a comparison with zero, a product with the slope
  and a choice between the two; maps the result through the second head map and adds its bias the same way. The
  two maps and the two biases are arguments no stretch or region writes, so they still hold their launch
  contents; the buffer after the last stretch is the specification's head of the fifth layer's output.
-/
import proofs.«122931_j61864708931975_1_alg».proof.Proof.Gen.KernelIdeal.Frame
import proofs.«122931_j61864708931975_1_alg».proof.Proof.KBack
import proofs.«122931_j61864708931975_1_alg».proof.Proof.KOps
import proofs.«122931_j61864708931975_1_alg».proof.Proof.Params
import proofs.«122931_j61864708931975_1_alg».proof.Proof.RefLayer

set_option maxRecDepth 16384

noncomputable section

namespace Cert.KernelIdeal.KValue

open Idealize.ShloMosaic Idealize.ShloMosaic.ValueIdx Idealize.ShloMosaic.TcCoe Idealize.ShloMosaic.StableHlo
open Cert.KernelIdeal Cert.KernelIdeal.Gen Cert.Gine Cert.RowOps

variable (m : (ℓ : Loc nD τ sig) → Buf (Elt Ideal) ℓ) (ρ : Dev nD → PrngReg) (c : Dev nD)

/-- The first head map is an argument no stretch or region writes: after the fifth layer it still holds its launch contents. -/
theorem W30_Wh : (W30 m ρ c (Proc.devRef .tc main_arg19) : Arr2 64 500) = m ((c : Thread nD τ).loc main_arg19) := by
  refine Eq.trans (b := W0 m ρ c (Proc.devRef .tc main_arg19)) ?_ rfl
  wback

/-- The first head bias is an argument no stretch or region writes: after the fifth layer it still holds its launch contents. -/
theorem W30_bh : (W30 m ρ c (Proc.devRef .tc main_arg20) : Arr1 500) = m ((c : Thread nD τ).loc main_arg20) := by
  refine Eq.trans (b := W0 m ρ c (Proc.devRef .tc main_arg20)) ?_ rfl
  wback

/-- The second head map is an argument no stretch or region writes: after the fifth layer it still holds its launch contents. -/
theorem W30_We : (W30 m ρ c (Proc.devRef .tc main_arg21) : Arr2 500 1) = m ((c : Thread nD τ).loc main_arg21) := by
  refine Eq.trans (b := W0 m ρ c (Proc.devRef .tc main_arg21)) ?_ rfl
  wback

/-- The second head bias is an argument no stretch or region writes: after the fifth layer it still holds its launch contents. -/
theorem W30_bee : (W30 m ρ c (Proc.devRef .tc main_arg22) : Arr1 1) = m ((c : Thread nD τ).loc main_arg22) := by
  refine Eq.trans (b := W0 m ρ c (Proc.devRef .tc main_arg22)) ?_ rfl
  wback

set_option maxHeartbeats 1000000 in
/-- The last three host stretches leave the specification's head of what the fifth layer left. -/
theorem head_val : (W33 m ρ c (Proc.devRef .tc main_v200) : Arr2 50000 1)
    = head (W30 m ρ c (Proc.devRef .tc main_v187)) (m ((c : Thread nD τ).loc main_arg19)) (vec (m ((c : Thread nD τ).loc main_arg20))) (m ((c : Thread nD τ).loc main_arg21)) (vec (m ((c : Thread nD τ).loc main_arg22))) := by
  dsimp only [W33, hostOps15_2]
  after_results
  refine Eq.trans (b := Cert.Gine.Ref.refHead dot_S50000x64_S64x500_S50000x500_1_0_0_1_n_n dot_S50000x500_S500x1_S50000x1_1_0_0_1_n_n
    bcast_S500_S1x500_1 bcast_S1x500_S50000x500_0_1 bcast_S_S50000x500 bcast_S1_S1x1_1 bcast_S1x1_S50000x1_0_1
    (W30 m ρ c (Proc.devRef .tc main_v187)) (W30 m ρ c (Proc.devRef .tc main_arg19)) (W30 m ρ c (Proc.devRef .tc main_arg20)) (W30 m ρ c (Proc.devRef .tc main_arg21)) (W30 m ρ c (Proc.devRef .tc main_arg22))) rfl ?_
  rw [Cert.Gine.Ref.refHead_eq dot_S50000x64_S64x500_S50000x500_1_0_0_1_n_n rfl dot_S50000x500_S500x1_S50000x1_1_0_0_1_n_n rfl,
    W30_Wh m ρ c, W30_bh m ρ c, W30_We m ρ c, W30_bee m ρ c]

end Cert.KernelIdeal.KValue

end
-- ==== Proof.KValue.lean ====
/-
  The kernel program's result: the network of the specification, with each layer's variance as
  E[h²] − mean², at the launch contents of the twenty-three arguments.

  The result buffer holds the head of what the fifth layer left, each layer's output is the specification's
  layer of the output of the layer before, and the first layer reads the first argument; composing the six
  equations gives the network. The program's run then ends with the result buffer at the network's value and
  every argument as launched.
-/
import proofs.«122931_j61864708931975_1_alg».proof.Proof.Gen.KernelIdeal.Frame
import proofs.«122931_j61864708931975_1_alg».proof.Proof.KRun
import proofs.«122931_j61864708931975_1_alg».proof.Proof.KBack
import proofs.«122931_j61864708931975_1_alg».proof.Proof.KOps
import proofs.«122931_j61864708931975_1_alg».proof.Proof.Params
import proofs.«122931_j61864708931975_1_alg».proof.Proof.KLayer0
import proofs.«122931_j61864708931975_1_alg».proof.Proof.KLayer1
import proofs.«122931_j61864708931975_1_alg».proof.Proof.KLayer2
import proofs.«122931_j61864708931975_1_alg».proof.Proof.KLayer3
import proofs.«122931_j61864708931975_1_alg».proof.Proof.KLayer4
import proofs.«122931_j61864708931975_1_alg».proof.Proof.KHead

set_option maxRecDepth 16384

noncomputable section

namespace Cert.KernelIdeal.KValue

open Idealize.ShloMosaic Idealize.ShloMosaic.ValueIdx Idealize.ShloMosaic.TcCoe Idealize.ShloMosaic.StableHlo
open Idealize.SL.Sem
open Cert.KernelIdeal Cert.KernelIdeal.Gen Cert.Gine Cert.RowOps

variable (m : (ℓ : Loc nD τ sig) → Buf (Elt Ideal) ℓ) (ρ : Dev nD → PrngReg) (c : Dev nD)

/-- The result buffer after the whole fold: the network at the arguments. -/
theorem result : (W33 m ρ c (Proc.devRef .tc main_v200) : Arr2 50000 1)
    = netOf gather_S50000x2_S800000x1_S800000x2_1_0_n_n_0_1_12_wf scatter_S50000x2_S800000x1_S800000x2_1_0_0_1_wf gather_S50000x64_S800000x1_S800000x64_1_0_n_n_0_1_164_wf scatter_S50000x64_S800000x1_S800000x64_1_0_0_1_wf varOne
        (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) := by
  rw [head_val m ρ c, layer4 m ρ c, layer3 m ρ c, layer2 m ρ c, layer1 m ρ c, layer0 m ρ c]
  rfl

/-- Every weakly fair execution of the program terminates without fault, with the result buffer at the network's
    value and each argument as launched. -/
theorem run : θ_run (defs (F := Ideal)) (onTc (τ := τ) (main (F := Ideal))) ⟨m, fun _ => 0, ρ⟩ (fun r => ∀ c : Dev nD,
      r.2.mem ((c.tc : Thread nD τ).loc main_v200) = netOf gather_S50000x2_S800000x1_S800000x2_1_0_n_n_0_1_12_wf scatter_S50000x2_S800000x1_S800000x2_1_0_0_1_wf gather_S50000x64_S800000x1_S800000x64_1_0_n_n_0_1_164_wf scatter_S50000x64_S800000x1_S800000x64_1_0_0_1_wf varOne
        (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run _ _ _).mono (fun r h c => ⟨(h c).1.trans (result m ρ c), (h c).2⟩) (run_W33 m ρ)

end Cert.KernelIdeal.KValue
end
-- ==== Proof.LibVariance.lean ====
/-
  The two-pass and the one-pass sample variance agree on the extended reals.

  For a finite family of REAL numbers r i (read as extended reals), with S = ∑ r i, Q = ∑ r i · r i,
  N the number of terms (N > 1) and mu = S / N, the one-pass form  (Q − N · (mu · mu)) / (N − 1)  and the
  two-pass form  (∑ (r i − mu) · (r i − mu)) / (N − 1)  are the same nonnegative real, so clamping the first
  at zero changes nothing and their square roots agree. All of it is real algebra: every operand is the
  coercion of a real, every divisor is a nonzero real, so each extended-real operation is the coercion
  of the real one, and the identity  ∑ (r i − mu)² = Q − N · mu²  (which holds because S = N · mu) finishes.

  Also here: the coercion of a finite real sum is the sum of the coercions, and the real values of the
  four binary32 words 200000, 199999, 0 and 1.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import Idealize.ShloMosaic.PureOps.Ideal.Laws

noncomputable section

namespace Cert.Lib.Variance

open Idealize.ShloMosaic
open scoped BigOperators

variable {ι : Type*}

/-! ### (a) Coercion commutes with finite sums -/

/-- The coercion of a finite sum of reals is the sum of the coercions (over any finite set). -/
theorem coe_finset_sum (s : Finset ι) (r : ι → ℝ) :
    ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The coercion of a sum of reals over a finite type is the sum of the coercions. -/
theorem coe_sum [Fintype ι] (r : ι → ℝ) : ((∑ i, r i : ℝ) : EReal) = ∑ i, (r i : EReal) :=
  coe_finset_sum Finset.univ r

/-- The same from a zero start: 0 + ∑ of the coercions is the coercion of the real sum. -/
theorem zero_add_coe_sum [Fintype ι] (r : ι → ℝ) :
    (0 : EReal) + ∑ i, (r i : EReal) = ((∑ i, r i : ℝ) : EReal) := by
  rw [zero_add, coe_sum]

/-- A zero start and a sum of products of coercions. -/
theorem zero_add_coe_sum_mul [Fintype ι] (a b : ι → ℝ) :
    (0 : EReal) + ∑ i, (a i : EReal) * (b i : EReal) = ((∑ i, a i * b i : ℝ) : EReal) := by
  rw [zero_add, coe_sum]; simp only [EReal.coe_mul]

/-! ### The quotient of two reals -/

/-- The quotient of two coerced reals by a nonzero divisor is the coerced real quotient. -/
theorem div_coe_coe (a b : ℝ) (hb : b ≠ 0) : Ideal.div (a : EReal) (b : EReal) = ((a / b : ℝ) : EReal) := by
  rw [Ideal.div_coe hb, ← EReal.coe_mul, mul_one_div]

/-! ### (b) The real identity -/

/-- If S = N · m (m the mean), the sum of squared deviations from m is Q − N · m². -/
theorem sum_sq_dev_of_mean [Fintype ι] (r : ι → ℝ) (N m : ℝ) (hN : N = (Fintype.card ι : ℝ))
    (hm : ∑ j, r j = N * m) :
    ∑ i, (r i - m) * (r i - m) = (∑ i, r i * r i) - N * (m * m) := by
  have h1 : ∀ i, (r i - m) * (r i - m) = r i * r i - 2 * m * r i + m * m := fun i => by ring
  rw [Finset.sum_congr rfl (fun i _ => h1 i), Finset.sum_add_distrib, Finset.sum_sub_distrib,
    ← Finset.mul_sum, hm, Finset.sum_const, Finset.card_univ, nsmul_eq_mul, ← hN]
  ring

/-- The sum of squared deviations from the mean S / N is Q − N · (S/N)². -/
theorem sum_sq_dev [Fintype ι] (r : ι → ℝ) (N : ℝ) (hN : N = (Fintype.card ι : ℝ)) (hN0 : N ≠ 0) :
    ∑ i, (r i - (∑ j, r j) / N) * (r i - (∑ j, r j) / N)
      = (∑ i, r i * r i) - N * (((∑ j, r j) / N) * ((∑ j, r j) / N)) :=
  sum_sq_dev_of_mean r N _ hN (by field_simp)

/-- A sum of squares is nonnegative. -/
theorem sum_sq_dev_nonneg [Fintype ι] (r : ι → ℝ) (m : ℝ) : 0 ≤ ∑ i, (r i - m) * (r i - m) :=
  Finset.sum_nonneg fun i _ => mul_self_nonneg _

/-- Hence the one-pass numerator is nonnegative. -/
theorem one_pass_nonneg [Fintype ι] (r : ι → ℝ) (N : ℝ) (hN : N = (Fintype.card ι : ℝ)) (hN0 : N ≠ 0) :
    0 ≤ (∑ i, r i * r i) - N * (((∑ j, r j) / N) * ((∑ j, r j) / N)) := by
  rw [← sum_sq_dev r N hN hN0]; exact sum_sq_dev_nonneg r _

/-! ### (c) The law on the extended reals -/

section Law
variable [Fintype ι] (r : ι → ℝ) (N : ℝ)

/-- The mean, as an extended real, is the coerced real mean. -/
theorem mean_eq (hN0 : N ≠ 0) :
    Ideal.div ((0 : EReal) + ∑ i, (r i : EReal)) ((N : ℝ) : EReal) = (((∑ i, r i) / N : ℝ) : EReal) := by
  rw [zero_add_coe_sum, div_coe_coe _ _ hN0]

/-- The two-pass variance is the coercion of a real: (∑ (r i − m)²) / (N − 1) with m = S / N. -/
theorem two_pass_eq (hN0 : N ≠ 0) (hN1 : N - 1 ≠ 0) :
    Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)
      = (((∑ i, (r i - (∑ j, r j) / N) * (r i - (∑ j, r j) / N)) / (N - 1) : ℝ) : EReal) := by
  rw [mean_eq r N hN0]
  simp only [← EReal.coe_sub]
  rw [zero_add_coe_sum_mul, div_coe_coe _ _ hN1]

/-- The one-pass variance is the coercion of a real: (Q − N · (m · m)) / (N − 1) with m = S / N. -/
theorem one_pass_eq (hN0 : N ≠ 0) (hN1 : N - 1 ≠ 0) :
    Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)
      = ((((∑ i, r i * r i) - N * (((∑ j, r j) / N) * ((∑ j, r j) / N))) / (N - 1) : ℝ) : EReal) := by
  rw [mean_eq r N hN0, zero_add_coe_sum_mul, ← EReal.coe_mul, ← EReal.coe_mul, ← EReal.coe_sub,
    div_coe_coe _ _ hN1]

/-- THE LAW, before the square root: the one-pass variance clamped at zero is the two-pass variance. -/
theorem var_eq (hN : N = (Fintype.card ι : ℝ)) (h1 : 1 < N) :
    max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0
      = Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal) := by
  have hN0 : N ≠ 0 := by linarith
  have hN1 : N - 1 ≠ 0 := by linarith
  have hpos : (0 : ℝ) < N - 1 := by linarith
  rw [one_pass_eq r N hN0 hN1, two_pass_eq r N hN0 hN1, sum_sq_dev r N hN hN0]
  refine max_eq_left ?_
  have : (0 : ℝ) ≤ ((∑ i, r i * r i) - N * (((∑ j, r j) / N) * ((∑ j, r j) / N))) / (N - 1) :=
    div_nonneg (one_pass_nonneg r N hN hN0) hpos.le
  exact_mod_cast this

/-- THE LAW: the square roots of the clamped one-pass variance and of the two-pass variance agree. -/
theorem sqrt_var_eq (hN : N = (Fintype.card ι : ℝ)) (h1 : 1 < N) :
    Ideal.sqrt (max (Ideal.div (((0 : EReal) + ∑ i, (r i : EReal) * (r i : EReal))
        - ((N : ℝ) : EReal) * (Ideal.div ((0 : EReal) + ∑ i, (r i : EReal)) ((N : ℝ) : EReal)
            * Ideal.div ((0 : EReal) + ∑ i, (r i : EReal)) ((N : ℝ) : EReal))) (((N - 1 : ℝ)) : EReal)) 0)
      = Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal)) :=
  congrArg Ideal.sqrt (var_eq r N hN h1)

/-- The common value is a finite nonnegative real: the two-pass standard deviation is the coercion of a real ≥ 0. -/
theorem sqrt_two_pass_eq (h1 : 1 < N) :
    ∃ v : ℝ, 0 ≤ v ∧
      Ideal.sqrt (Ideal.div ((0 : EReal) + ∑ i, ((r i : EReal) - Ideal.div ((0 : EReal) + ∑ i, (r i : EReal)) ((N : ℝ) : EReal))
        * ((r i : EReal) - Ideal.div ((0 : EReal) + ∑ i, (r i : EReal)) ((N : ℝ) : EReal))) (((N - 1 : ℝ)) : EReal))
        = ((Real.sqrt v : ℝ) : EReal) := by
  have hN0 : N ≠ 0 := by linarith
  have hN1 : N - 1 ≠ 0 := by linarith
  have hpos : (0 : ℝ) < N - 1 := by linarith
  refine ⟨(∑ i, (r i - (∑ j, r j) / N) * (r i - (∑ j, r j) / N)) / (N - 1),
    div_nonneg (sum_sq_dev_nonneg r _) hpos.le, ?_⟩
  rw [two_pass_eq r N hN0 hN1, Ideal.sqrt_coe, if_neg (not_lt.mpr (div_nonneg (sum_sq_dev_nonneg r _) hpos.le))]

end Law

/-! ### (d) Four binary32 words as reals

  0x48435000: exponent field 144, fraction 4411392, so (2^23 + 4411392) · 2^(144 − 127 − 23) = 12800000 / 64 = 200000.
  0x48434FC0: exponent field 144, fraction 4411328, so 12799936 / 64 = 199999. -/

/-- The word 0x48435000 denotes the real 200000. -/
theorem ofBits_200000 : Ideal.ofBits .f32 0x48435000#32 = ((200000 : ℝ) : EReal) := by
  simp [Ideal.ofBits, Ideal.ieee, -EReal.coe_mul]; norm_num

/-- The word 0x48434FC0 denotes the real 199999. -/
theorem ofBits_199999 : Ideal.ofBits .f32 0x48434FC0#32 = ((199999 : ℝ) : EReal) := by
  simp [Ideal.ofBits, Ideal.ieee, -EReal.coe_mul]; norm_num

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := by
  simp [Ideal.ofBits, Ideal.ieee, -EReal.coe_mul]; norm_num

/-- 199999 is 200000 − 1, as coerced reals (the divisor of the variance against the count). -/
theorem coe_199999 : ((199999 : ℝ) : EReal) = ((200000 - 1 : ℝ) : EReal) := by norm_num

end Cert.Lib.Variance

end
-- ==== Proof.LibBatchNorm.lean ====
/-
  Batch-norm column statistics on the extended reals: the one-pass and the two-pass forms agree.

  For a finite family of entries x i that are all (coercions of) real numbers, with N > 0 the number of
  entries, S = ∑ x i and Q = ∑ x i · x i (grouped in any way: addition on the extended reals is commutative
  and associative, infinities included), the one-pass statistics
      mean = S / N,    variance = max (Q / N − mean · mean) 0
  are the two-pass textbook statistics
      mean = S / N,    variance = (∑ (x i − mean) · (x i − mean)) / N.
  Every operand is the coercion of a real and the divisor is a nonzero real, so each extended-real operation
  is the coercion of the real one; the real identity  ∑ (r i − m)² = Q − N · m²  (m = S / N) then gives
  (∑ (r i − m)²) / N = Q / N − m², a nonnegative real, so the clamp at zero changes nothing.

  Also here: "is a real" is closed under the arithmetic used (sum, difference, product, maximum, finite sums,
  division by a nonzero real, reciprocal square root of a positive real); a sum over n = T · B rows is the
  sum over T tiles of the sums over the B rows of each tile; and the real values of four binary32 words.
-/
import Mathlib.Data.EReal.Inv
import Mathlib.Algebra.BigOperators.Field
import Mathlib.Algebra.Order.BigOperators.Ring.Finset
import Mathlib.Analysis.SpecialFunctions.Pow.Real
import Idealize.ShloMosaic.PureOps.Ideal
import Idealize.ShloMosaic.PureOps.Ideal.Laws
import proofs.«122931_j61864708931975_1_alg».proof.Proof.LibVariance
import proofs.«122931_j61864708931975_1_alg».proof.Proof.LibSumBlocks

noncomputable section

namespace Cert.LibBatchNorm

open Idealize.ShloMosaic
open scoped BigOperators

/-! ### Extended reals that are real numbers -/

/-- an extended real that is a real number -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩; exact ⟨a + b, (EReal.coe_add a b).symm⟩

theorem IsReal.sub {x y : EReal} : IsReal x → IsReal y → IsReal (x - y) := by
  rintro ⟨a, rfl⟩ ⟨b, rfl⟩; exact ⟨a - b, (EReal.coe_sub a b).symm⟩

theorem IsReal.mul {x y : EReal} : IsReal x → IsReal y → IsReal (x * y) := by
  rintro ⟨a, rfl⟩ ⟨b, rfl⟩; exact ⟨a * b, (EReal.coe_mul a b).symm⟩

theorem IsReal.max {x y : EReal} : IsReal x → IsReal y → IsReal (max x y) := by
  rintro ⟨a, rfl⟩ ⟨b, rfl⟩; exact ⟨Max.max a b, (EReal.coe_strictMono.monotone.map_max).symm⟩

theorem IsReal.sum {ι : Type*} (s : Finset ι) (f : ι → EReal) :
    (∀ i ∈ s, IsReal (f i)) → IsReal (∑ i ∈ s, f i) :=
  Finset.sum_induction f IsReal (fun _ _ => IsReal.add) IsReal.zero

theorem IsReal.div_coe {x : EReal} (hx : IsReal x) {y : ℝ} (hy : y ≠ 0) :
    IsReal (Ideal.div x (y : EReal)) := by
  obtain ⟨a, rfl⟩ := hx
  exact ⟨a / y, Cert.Lib.Variance.div_coe_coe a y hy⟩

/-- rsqrt of a positive real is a positive real -/
theorem IsReal.rsqrt_of_pos {x : EReal} (hx : IsReal x) (hpos : 0 < x) :
    IsReal (Ideal.rsqrt x) ∧ 0 < Ideal.rsqrt x := by
  obtain ⟨a, rfl⟩ := hx
  have ha : 0 < a := by exact_mod_cast hpos
  have hs : 0 < (Real.sqrt a)⁻¹ := inv_pos.mpr (Real.sqrt_pos.mpr ha)
  rw [Ideal.rsqrt_coe, if_neg (not_lt.mpr ha.le), if_neg ha.ne']
  exact ⟨⟨_, rfl⟩, by exact_mod_cast hs⟩

/-- a maximum with one is positive -/
theorem one_le_max_one (x : EReal) : (0 : EReal) < max x 1 :=
  lt_max_of_lt_right zero_lt_one

/-! ### The statistics -/

section Stats
variable {ι : Type*} [Fintype ι] (x : ι → EReal) (cN cEps : EReal)

/-- two-pass column mean -/
def meanR : EReal := Ideal.div (0 + ∑ i, x i) cN

/-- two-pass column variance -/
def varR : EReal := Ideal.div (0 + ∑ i, (x i - meanR x cN) * (x i - meanR x cN)) cN

/-- one-pass mean from the total S -/
def meanK (S : EReal) : EReal := Ideal.div S cN

/-- one-pass variance from the total S and the total of squares Q -/
def varK (S Q : EReal) : EReal := max (Ideal.div Q cN - meanK cN S * meanK cN S) 0

end Stats

/-- THE LAW. N is the number of rows as a real; every entry real; S and Q are the totals (however they were grouped). -/
theorem stats_eq {ι : Type*} [Fintype ι] (x : ι → EReal) (hx : ∀ i, IsReal (x i)) (N : ℝ)
    (hN : N = (Fintype.card ι : ℝ)) (hpos : 0 < N)
    (S Q : EReal) (hS : S = 0 + ∑ i, x i) (hQ : Q = 0 + ∑ i, x i * x i) :
    meanK (N : EReal) S = meanR x (N : EReal) ∧ varK (N : EReal) S Q = varR x (N : EReal)
      ∧ IsReal (meanR x (N : EReal)) ∧ IsReal (varR x (N : EReal)) ∧ 0 ≤ varR x (N : EReal) := by
  choose r hr using hx
  obtain rfl : x = fun i => (r i : EReal) := funext hr
  subst hS hQ
  have hN0 : N ≠ 0 := hpos.ne'
  have hmean : meanR (fun i => (r i : EReal)) (N : EReal) = (((∑ i, r i) / N : ℝ) : EReal) :=
    Cert.Lib.Variance.mean_eq r N hN0
  have hvarR : varR (fun i => (r i : EReal)) (N : EReal)
      = (((∑ i, (r i - (∑ j, r j) / N) * (r i - (∑ j, r j) / N)) / N : ℝ) : EReal) := by
    unfold varR
    rw [hmean]
    simp only [← EReal.coe_sub]
    rw [Cert.Lib.Variance.zero_add_coe_sum_mul, Cert.Lib.Variance.div_coe_coe _ _ hN0]
  have hnn : (0 : ℝ) ≤ (∑ i, (r i - (∑ j, r j) / N) * (r i - (∑ j, r j) / N)) / N :=
    div_nonneg (Cert.Lib.Variance.sum_sq_dev_nonneg r _) hpos.le
  have hreal : (∑ i, r i * r i) / N - (∑ i, r i) / N * ((∑ i, r i) / N)
      = (∑ i, (r i - (∑ j, r j) / N) * (r i - (∑ j, r j) / N)) / N := by
    rw [Cert.Lib.Variance.sum_sq_dev r N hN hN0]; field_simp
  have hvarK : varK (N : EReal) (0 + ∑ i, (r i : EReal)) (0 + ∑ i, (r i : EReal) * (r i : EReal))
      = (((∑ i, (r i - (∑ j, r j) / N) * (r i - (∑ j, r j) / N)) / N : ℝ) : EReal) := by
    unfold varK meanK
    rw [Cert.Lib.Variance.mean_eq r N hN0, Cert.Lib.Variance.zero_add_coe_sum_mul,
      Cert.Lib.Variance.div_coe_coe _ _ hN0, ← EReal.coe_mul, ← EReal.coe_sub, hreal]
    exact max_eq_left (by exact_mod_cast hnn)
  refine ⟨rfl, hvarK.trans hvarR.symm, ⟨_, hmean⟩, ⟨_, hvarR⟩, ?_⟩
  rw [hvarR]; exact_mod_cast hnn

/-! ### Regrouping rows into tiles -/

/-- row y of tile t, tiles of B rows: t * B + y -/
def rowOf {T B n : ℕ} (h : n = T * B) (t : Fin T) (y : Fin B) : Fin n :=
  ⟨t.val * B + y.val, by subst h; exact Cert.SumBlocks.block_lt t y⟩

/-- regrouping rows into T tiles of B rows (plain inner sums). No finiteness. -/
theorem sum_tiles' {T B n : ℕ} (h : n = T * B) (f : Fin n → EReal) :
    (0 : EReal) + ∑ t : Fin T, (∑ y : Fin B, f (rowOf h t y)) = 0 + ∑ r : Fin n, f r := by
  rw [Cert.SumBlocks.sum_fin_blocks T B h f]; rfl

/-- regrouping rows into T tiles of B rows, each tile summed from a zero start. No finiteness. -/
theorem sum_tiles {T B n : ℕ} (h : n = T * B) (f : Fin n → EReal) :
    (0 : EReal) + ∑ t : Fin T, ((0 : EReal) + ∑ y : Fin B, f (rowOf h t y)) = 0 + ∑ r : Fin n, f r := by
  simp only [zero_add]
  exact (zero_add _).symm.trans ((sum_tiles' h f).trans (zero_add _))

/-! ### The inverse standard deviation -/

/-- the inverse standard deviation is a (positive) real when the variance is a nonnegative real and eps a positive real -/
theorem invstd_real {v : EReal} (hv : IsReal v) (h0 : 0 ≤ v) {e : ℝ} (he : 0 < e) :
    IsReal (Ideal.rsqrt (v + (e : EReal))) := by
  obtain ⟨a, rfl⟩ := hv
  have ha : 0 ≤ a := by exact_mod_cast h0
  have hpos : (0 : EReal) < (a : EReal) + (e : EReal) := by
    rw [← EReal.coe_add]; exact_mod_cast add_pos_of_nonneg_of_pos ha he
  exact ((IsReal.coe a).add (IsReal.coe e)).rsqrt_of_pos hpos |>.1

/-! ### Four binary32 words as reals

  0x47C35000: exponent field 143, fraction 4411392, so (2^23 + 4411392) · 2^(143 − 127 − 23) = 12800000 / 128 = 100000.
  0x3727C5AC: exponent field 110, fraction 2606508, so (2^23 + 2606508) · 2^(110 − 127 − 23) = 10995116 · 2^(−40),
  a positive real (about 1.0e-5). -/

/-- The word 0x47C35000 denotes the real 100000. -/
theorem ofBits_100000 : Ideal.ofBits .f32 0x47C35000#32 = ((100000 : ℝ) : EReal) := by
  simp [Ideal.ofBits, Ideal.ieee, -EReal.coe_mul]; norm_num

/-- The word 0x3727C5AC denotes a positive real. -/
theorem ofBits_eps_pos : ∃ e : ℝ, 0 < e ∧ Ideal.ofBits .f32 0x3727C5AC#32 = (e : EReal) := by
  refine ⟨(10995116 : ℝ) * (2 : ℝ) ^ (-40 : ℤ), by positivity, ?_⟩
  simp [Ideal.ofBits, Ideal.ieee, -EReal.coe_mul]

/-- The zero word denotes 0. -/
theorem ofBits_zero : Ideal.ofBits .f32 0x00000000#32 = 0 := Ideal.ofBits_zero_f32

/-- The word 0x3F800000 denotes 1. -/
theorem ofBits_one : Ideal.ofBits .f32 0x3F800000#32 = 1 := Cert.Lib.Variance.ofBits_one

end Cert.LibBatchNorm

end
-- ==== Proof.Law1.lean ====
/-
  The two spellings of the batch variance agree on real entries.

  A column of 50000 real entries r has total S = Σ r and total of squares Q = Σ r². Every operand below is
  the coercion of a real and the divisor 50000 is a nonzero real, so each extended-real operation is the
  coercion of the real one, and the real identity  Σ (r − S/n)² = Q − n·(S/n)²  (n the number of entries)
  gives  Q/n − (S/n)² = Σ (r − S/n)² / n.  The right side is a nonnegative real, which is what makes the
  reciprocal square root of (variance + ε) a real later on.

  Also here: the four float words as reals, and "every entry is a real" for the column statistics.
-/
import proofs.«122931_j61864708931975_1_alg».proof.Proof.Params
import proofs.«122931_j61864708931975_1_alg».proof.Proof.LibBatchNorm

noncomputable section

open scoped BigOperators

namespace Cert.Gine

open Idealize.ShloMosaic Idealize.ShloMosaic.ValueIdx Cert.LibBatchNorm

/-- Every entry of a family of extended reals is a real number. -/
def AllReal {α : Type} (a : α → EReal) : Prop := ∀ i, ∃ r : ℝ, a i = (r : EReal)

/-! ### The four words -/

/-- 0x47435000: exponent field 142, fraction 4411392, so (2^23 + 4411392) · 2^(142 − 150) = 12800000 / 256 = 50000. -/
theorem wCount_eq : wCount = ((50000 : ℝ) : EReal) := by
  unfold wCount; simp [Ideal.ofBits, Ideal.ieee, -EReal.coe_mul]; norm_num

theorem wZero_eq : wZero = 0 := Ideal.ofBits_zero_f32

theorem wZero_real : IsReal wZero := by rw [wZero_eq]; exact IsReal.zero

/-- The variance's ε is a positive real. -/
theorem wEps_pos : ∃ e : ℝ, 0 < e ∧ wEps = (e : EReal) := ofBits_eps_pos

/-- 0x3C23D70A: exponent field 120, fraction 2348810, so (2^23 + 2348810) · 2^(120 − 150) = 10737418 · 2^(−30), a real. -/
theorem wSlope_real : IsReal wSlope := by
  refine ⟨(10737418 : ℝ) * (2 : ℝ) ^ (-30 : ℤ), ?_⟩
  unfold wSlope; simp [Ideal.ofBits, Ideal.ieee, -EReal.coe_mul]

/-! ### Coordinates of a rank-2 index built from its coordinates -/

theorem ix2_at0 {n0 n1 : ℕ} (a : Fin n0) (b : Fin n1) : (ix2 a b) 0 = a := rfl
theorem ix2_at1 {n0 n1 : ℕ} (a : Fin n0) (b : Fin n1) : (ix2 a b) 1 = b := rfl

/-! ### The real-number core -/

section Core
variable {ι : Type*} [Fintype ι] (r : ι → ℝ) (N : ℝ)

/-- E[(r − mean)²] on coerced reals is the coercion of the real one. No relation between N and the count is needed. -/
theorem two_pass_coe (hN0 : N ≠ 0) :
    Ideal.div ((0 : EReal) + ∑ i, ((r i : EReal) - Ideal.div ((0 : EReal) + ∑ i, (r i : EReal)) (N : EReal))
        * ((r i : EReal) - Ideal.div ((0 : EReal) + ∑ i, (r i : EReal)) (N : EReal))) (N : EReal)
      = (((∑ i, (r i - (∑ j, r j) / N) * (r i - (∑ j, r j) / N)) / N : ℝ) : EReal) := by
  rw [Cert.Lib.Variance.mean_eq r N hN0]
  simp only [← EReal.coe_sub]
  rw [Cert.Lib.Variance.zero_add_coe_sum_mul, Cert.Lib.Variance.div_coe_coe _ _ hN0]

/-- E[r²] − mean² on coerced reals is the same real, when N is the number of entries. -/
theorem one_pass_coe (hN : N = (Fintype.card ι : ℝ)) (hN0 : N ≠ 0) :
    Ideal.div ((0 : EReal) + ∑ i, (r i : EReal) * (r i : EReal)) (N : EReal)
        - Ideal.div ((0 : EReal) + ∑ i, (r i : EReal)) (N : EReal)
          * Ideal.div ((0 : EReal) + ∑ i, (r i : EReal)) (N : EReal)
      = (((∑ i, (r i - (∑ j, r j) / N) * (r i - (∑ j, r j) / N)) / N : ℝ) : EReal) := by
  have hreal : (∑ i, r i * r i) / N - (∑ i, r i) / N * ((∑ i, r i) / N)
      = (∑ i, (r i - (∑ j, r j) / N) * (r i - (∑ j, r j) / N)) / N := by
    rw [Cert.Lib.Variance.sum_sq_dev r N hN hN0]; field_simp
  rw [Cert.Lib.Variance.mean_eq r N hN0, Cert.Lib.Variance.zero_add_coe_sum_mul,
    Cert.Lib.Variance.div_coe_coe _ _ hN0, ← EReal.coe_mul, ← EReal.coe_sub, hreal]

end Core

/-! ### The statistics of a matrix of reals -/

section Stats
variable {N H : ℕ} (ρ : (⟨2, ![N, H]⟩ : Shape).Idx → ℝ)

/-- The mean of a column of coerced reals. -/
theorem mean_coe (j : Fin H) :
    mean (fun i => ((ρ i : ℝ) : EReal)) j = (((∑ k : Fin N, ρ (ix2 k j)) / 50000 : ℝ) : EReal) := by
  unfold mean colSum
  rw [wZero_eq, wCount_eq]
  exact Cert.Lib.Variance.mean_eq (fun k : Fin N => ρ (ix2 k j)) 50000 (by norm_num)

/-- The two-pass variance of a column of coerced reals. -/
theorem varTwo_coe (j : Fin H) :
    varTwo (fun i => ((ρ i : ℝ) : EReal)) j
      = (((∑ k : Fin N, (ρ (ix2 k j) - (∑ l : Fin N, ρ (ix2 l j)) / 50000)
            * (ρ (ix2 k j) - (∑ l : Fin N, ρ (ix2 l j)) / 50000)) / 50000 : ℝ) : EReal) := by
  unfold varTwo mean colSum
  simp only [wZero_eq, wCount_eq, ix2_at1]
  exact two_pass_coe (fun k : Fin N => ρ (ix2 k j)) 50000 (by norm_num)

end Stats

/-- The one-pass variance of a column of 50000 coerced reals. -/
theorem varOne_coe {H : ℕ} (ρ : (⟨2, ![50000, H]⟩ : Shape).Idx → ℝ) (j : Fin H) :
    varOne (fun i => ((ρ i : ℝ) : EReal)) j
      = (((∑ k : Fin 50000, (ρ (ix2 k j) - (∑ l : Fin 50000, ρ (ix2 l j)) / 50000)
            * (ρ (ix2 k j) - (∑ l : Fin 50000, ρ (ix2 l j)) / 50000)) / 50000 : ℝ) : EReal) := by
  unfold varOne mean colSum
  simp only [wZero_eq, wCount_eq]
  exact one_pass_coe (fun k : Fin 50000 => ρ (ix2 k j)) 50000 (by simp) (by norm_num)

/-- THE LAW: on real entries E[h²] − mean² is E[(h − mean)²]. -/
theorem var_agree {H : ℕ} (h : Arr2 50000 H) (hh : AllReal h) : varOne h = varTwo h := by
  choose ρ hρ using hh
  obtain rfl : h = fun i => ((ρ i : ℝ) : EReal) := funext hρ
  funext j
  rw [varOne_coe, varTwo_coe]

/-- The column means of a matrix of reals are reals. -/
theorem mean_real {N H : ℕ} {h : Arr2 N H} (hh : AllReal h) : AllReal (mean h) := by
  choose ρ hρ using hh
  obtain rfl : h = fun i => ((ρ i : ℝ) : EReal) := funext hρ
  exact fun j => ⟨_, mean_coe ρ j⟩

/-- The two-pass column variances of a matrix of reals are reals … -/
theorem varTwo_real {N H : ℕ} {h : Arr2 N H} (hh : AllReal h) : AllReal (varTwo h) := by
  choose ρ hρ using hh
  obtain rfl : h = fun i => ((ρ i : ℝ) : EReal) := funext hρ
  exact fun j => ⟨_, varTwo_coe ρ j⟩

/-- … and nonnegative: a sum of squares over a positive count. -/
theorem varTwo_nonneg {N H : ℕ} {h : Arr2 N H} (hh : AllReal h) (j : Fin H) : 0 ≤ varTwo h j := by
  choose ρ hρ using hh
  obtain rfl : h = fun i => ((ρ i : ℝ) : EReal) := funext hρ
  rw [varTwo_coe]
  have : (0 : ℝ) ≤ (∑ k : Fin N, (ρ (ix2 k j) - (∑ l : Fin N, ρ (ix2 l j)) / 50000)
      * (ρ (ix2 k j) - (∑ l : Fin N, ρ (ix2 l j)) / 50000)) / 50000 :=
    div_nonneg (Cert.Lib.Variance.sum_sq_dev_nonneg (fun k : Fin N => ρ (ix2 k j)) _) (by norm_num)
  exact_mod_cast this

end Cert.Gine

end
-- ==== Proof.Law2.lean ====
/-
  "Every entry is a real" is preserved by a layer.

  Each piece of a layer is built from sums, differences, products, maxima, finite sums, a division by the
  real 50000 and a reciprocal square root of (variance + ε) with the variance a nonnegative real and ε a
  positive real; the rectifier picks between v and slope · v, both reals. The two irregular steps keep
  realness for a plain reason: a gathered entry IS an entry of the table, and a scatter-added entry is the
  zero word plus a finite sum of update entries and zeros.
-/
import proofs.«122931_j61864708931975_1_alg».proof.Proof.Law1

noncomputable section

open scoped BigOperators

namespace Cert.Gine

open Idealize.ShloMosaic Idealize.ShloMosaic.ValueIdx Cert.RowOps Cert.LibBatchNorm

/-- Every weight of a layer is a real. -/
structure LayerP.AllReal {K C H : ℕ} (p : LayerP K C H) : Prop where
  eW : Cert.Gine.AllReal p.eW
  eb : Cert.Gine.AllReal p.eb
  Wa : Cert.Gine.AllReal p.Wa
  ba : Cert.Gine.AllReal p.ba
  g : Cert.Gine.AllReal p.g
  be : Cert.Gine.AllReal p.be
  Wb : Cert.Gine.AllReal p.Wb
  bb : Cert.Gine.AllReal p.bb

/-- The rectifier of a real is a real: it is v or slope · v. -/
theorem leaky_real {v : EReal} (hv : IsReal v) : IsReal (leaky v) := by
  unfold leaky Scalar.select
  split_ifs
  · exact hv
  · exact wSlope_real.mul hv

/-- A product of matrices of reals is a matrix of reals. -/
theorem prod_real {n K d : ℕ} {a : Arr2 n K} {w : Arr2 K d} (ha : AllReal a) (hw : AllReal w) :
    AllReal (prod a w) := by
  intro i
  exact IsReal.sum _ _ fun k _ => IsReal.mul (ha _) (hw _)

theorem msg_real {E C K : ℕ} {gx : Arr2 E C} {ea : Arr2 E K} {eW : Arr2 K C} {eb : Fin C → EReal}
    (hgx : AllReal gx) (hea : AllReal ea) (heW : AllReal eW) (heb : AllReal eb) : AllReal (msg gx ea eW eb) := by
  intro i
  exact IsReal.max (IsReal.add (IsReal.add (hgx i) (prod_real hea heW i)) (heb (i 1))) wZero_real

theorem hpre_real {N C H : ℕ} {x a : Arr2 N C} {Wa : Arr2 C H} {ba : Fin H → EReal}
    (hx : AllReal x) (ha : AllReal a) (hWa : AllReal Wa) (hba : AllReal ba) : AllReal (hpre x a Wa ba) := by
  intro i
  have hs : AllReal (fun j => x j + a j) := fun j => IsReal.add (hx j) (ha j)
  exact IsReal.add (prod_real hs hWa i) (hba (i 1))

section Irregular
variable {N E C : ℕ}
  (wfG : GatherDims.WF ⟨2, ![N, C]⟩ ⟨2, ![E, 1]⟩ ⟨2, ![E, C]⟩ [1] [0] [] [0] [] 1 ![1, C])
  (wfS : ScatterDims.WF ⟨2, ![N, C]⟩ ⟨2, ![E, 1]⟩ ⟨2, ![E, C]⟩ [1] [0] [0] 1)

/-- A gathered entry is an entry of the table. -/
theorem gathered_real (hN : 0 < N) (src : IVec ⟨2, ![E, 1]⟩ 32) {x : Arr2 N C} (hx : AllReal x) :
    AllReal (gathered wfG src x) := by
  intro i
  obtain ⟨e, k, rfl⟩ : ∃ e k, i = ix2 e k := ⟨_, _, eq_ix2 i⟩
  unfold gathered
  rw [gather_rows_apply hN wfG x src e k]
  exact hx _

/-- A scatter-added entry is the zero word plus a finite sum of update entries and zeros. -/
theorem summed_real (dst : IVec ⟨2, ![E, 1]⟩ 32) {mg : Arr2 E C} (hm : AllReal mg) :
    AllReal (summed wfS dst mg) := by
  intro i
  obtain ⟨r, o, rfl⟩ : ∃ r o, i = ix2 r o := ⟨_, _, eq_ix2 i⟩
  unfold summed
  rw [scatterAdd_rows_apply wfS _ dst mg r o]
  refine IsReal.add wZero_real (IsReal.sum _ _ fun e _ => ?_)
  split_ifs
  · exact hm _
  · exact IsReal.zero

end Irregular

/-- The part of a layer after the statistics: reals in, reals out, given a nonnegative real variance. -/
theorem post_real {N H : ℕ} {h : Arr2 N H} {mu var g be : Fin H → EReal} {Wb : Arr2 H H} {bb : Fin H → EReal}
    (hh : AllReal h) (hmu : AllReal mu) (hvar : AllReal var) (hv0 : ∀ j, 0 ≤ var j)
    (hg : AllReal g) (hbe : AllReal be) (hWb : AllReal Wb) (hbb : AllReal bb) :
    AllReal (post h mu var g be Wb bb) := by
  obtain ⟨e, he, hE⟩ := wEps_pos
  have hin : AllReal (fun j : (⟨2, ![N, H]⟩ : Shape).Idx =>
      leaky (((h j - mu (j 1)) * Ideal.rsqrt (var (j 1) + wEps)) * g (j 1) + be (j 1))) := by
    intro j
    refine leaky_real (IsReal.add (IsReal.mul (IsReal.mul (IsReal.sub (hh j) (hmu (j 1))) ?_) (hg (j 1))) (hbe (j 1)))
    rw [hE]
    exact invstd_real (hvar (j 1)) (hv0 (j 1)) he
  intro i
  exact leaky_real (IsReal.add (prod_real hin hWb i) (hbb (i 1)))

/-- A layer with the two-pass variance maps reals to reals. -/
theorem layer_real {N E K C H : ℕ} (hN : 0 < N)
    (wfG : GatherDims.WF ⟨2, ![N, C]⟩ ⟨2, ![E, 1]⟩ ⟨2, ![E, C]⟩ [1] [0] [] [0] [] 1 ![1, C])
    (wfS : ScatterDims.WF ⟨2, ![N, C]⟩ ⟨2, ![E, 1]⟩ ⟨2, ![E, C]⟩ [1] [0] [0] 1)
    (src dst : IVec ⟨2, ![E, 1]⟩ 32) {ea : Arr2 E K} {p : LayerP K C H} {x : Arr2 N C}
    (hx : AllReal x) (hea : AllReal ea) (hp : p.AllReal) :
    AllReal (layer wfG wfS (varTwo (N := N) (H := H)) src dst ea p x) ∧
      AllReal (hpre x (summed wfS dst (msg (gathered wfG src x) ea p.eW p.eb)) p.Wa p.ba) := by
  have hh : AllReal (hpre x (summed wfS dst (msg (gathered wfG src x) ea p.eW p.eb)) p.Wa p.ba) :=
    hpre_real hx (summed_real wfS dst (msg_real (gathered_real wfG hN src hx) hea hp.eW hp.eb)) hp.Wa hp.ba
  refine ⟨?_, hh⟩
  unfold layer layerWith
  exact post_real hh (mean_real hh) (varTwo_real hh) (varTwo_nonneg hh) hp.g hp.be hp.Wb hp.bb

end Cert.Gine

end
-- ==== Proof.Law.lean ====
/-
  The network with E[h²] − mean² and the network with E[(h − mean)²] are the same function of real inputs.

  A layer's two spellings differ only in the variance handed to the normalisation, and the variance is
  taken of (x + aggr)·Wa + ba, whose entries are reals when x, the edge features and the layer's weights
  are: there the two variances agree. A layer with the two-pass variance maps reals to reals, so the
  argument repeats through the five layers; the head does not mention the variance.
-/
import proofs.«122931_j61864708931975_1_alg».proof.Proof.Law2

noncomputable section

open scoped BigOperators

namespace Cert.Gine

open Idealize.ShloMosaic Idealize.ShloMosaic.ValueIdx Cert.RowOps Cert.LibBatchNorm

/-- The part of a layer after the two irregular steps: the two spellings agree when (x + aggr)·Wa + ba is real. -/
theorem layerWith_agree {C H : ℕ} (x a : Arr2 50000 C) (Wa : Arr2 C H) (ba g be : Fin H → EReal)
    (Wb : Arr2 H H) (bb : Fin H → EReal) (hh : AllReal (hpre x a Wa ba)) :
    layerWith varOne x a Wa ba g be Wb bb = layerWith varTwo x a Wa ba g be Wb bb := by
  unfold layerWith
  rw [var_agree _ hh]

/-- A layer's two spellings agree on real node features, real edge features and real weights. -/
theorem layer_agree {E K C H : ℕ}
    (wfG : GatherDims.WF ⟨2, ![50000, C]⟩ ⟨2, ![E, 1]⟩ ⟨2, ![E, C]⟩ [1] [0] [] [0] [] 1 ![1, C])
    (wfS : ScatterDims.WF ⟨2, ![50000, C]⟩ ⟨2, ![E, 1]⟩ ⟨2, ![E, C]⟩ [1] [0] [0] 1)
    (src dst : IVec ⟨2, ![E, 1]⟩ 32) {ea : Arr2 E K} {p : LayerP K C H} {x : Arr2 50000 C}
    (hx : AllReal x) (hea : AllReal ea) (hp : p.AllReal) :
    layer wfG wfS varOne src dst ea p x = layer wfG wfS varTwo src dst ea p x := by
  unfold layer
  exact layerWith_agree _ _ _ _ _ _ _ _ (layer_real (by norm_num) wfG wfS src dst hx hea hp).2

/-- Layer 1's weights are reals when their arguments are. -/
theorem p1_real {a3 : Arr2 7 2} {a4 : Arr1 2} {a5 : Arr2 2 64} {a6 a7 a8 : Arr1 64} {a9 : Arr2 64 64}
    {a10 : Arr1 64} (h3 : AllReal a3) (h4 : AllReal a4) (h5 : AllReal a5) (h6 : AllReal a6) (h7 : AllReal a7)
    (h8 : AllReal a8) (h9 : AllReal a9) (h10 : AllReal a10) : (p1 a3 a4 a5 a6 a7 a8 a9 a10).AllReal :=
  ⟨h3, fun _ => h4 _, h5, fun _ => h6 _, fun _ => h7 _, fun _ => h8 _, h9, fun _ => h10 _⟩

/-- A slice of the stacked weights is real when the stacked arguments are. -/
theorem pl_real (l : Fin 4) {a11 : Arr3 4 7 64} {a12 : Arr2 4 64} {a13 : Arr3 4 64 64} {a14 a15 a16 : Arr2 4 64}
    {a17 : Arr3 4 64 64} {a18 : Arr2 4 64} (h11 : AllReal a11) (h12 : AllReal a12) (h13 : AllReal a13)
    (h14 : AllReal a14) (h15 : AllReal a15) (h16 : AllReal a16) (h17 : AllReal a17) (h18 : AllReal a18) :
    (pl l a11 a12 a13 a14 a15 a16 a17 a18).AllReal :=
  ⟨fun _ => h11 _, fun _ => h12 _, fun _ => h13 _, fun _ => h14 _, fun _ => h15 _, fun _ => h16 _,
    fun _ => h17 _, fun _ => h18 _⟩

/-- THE NETWORKS AGREE on real arguments. -/
theorem netOf_agree
    (wfG0 : GatherDims.WF ⟨2, ![50000, 2]⟩ ⟨2, ![800000, 1]⟩ ⟨2, ![800000, 2]⟩ [1] [0] [] [0] [] 1 ![1, 2])
    (wfS0 : ScatterDims.WF ⟨2, ![50000, 2]⟩ ⟨2, ![800000, 1]⟩ ⟨2, ![800000, 2]⟩ [1] [0] [0] 1)
    (wfG : GatherDims.WF ⟨2, ![50000, 64]⟩ ⟨2, ![800000, 1]⟩ ⟨2, ![800000, 64]⟩ [1] [0] [] [0] [] 1 ![1, 64])
    (wfS : ScatterDims.WF ⟨2, ![50000, 64]⟩ ⟨2, ![800000, 1]⟩ ⟨2, ![800000, 64]⟩ [1] [0] [0] 1)
    (a0 : Arr2 50000 2) (a1 : IVec ⟨2, ![2, 800000]⟩ 32) (a2 : Arr2 800000 7) (a3 : Arr2 7 2) (a4 : Arr1 2)
    (a5 : Arr2 2 64) (a6 a7 a8 : Arr1 64) (a9 : Arr2 64 64) (a10 : Arr1 64)
    (a11 : Arr3 4 7 64) (a12 : Arr2 4 64) (a13 : Arr3 4 64 64) (a14 a15 a16 : Arr2 4 64) (a17 : Arr3 4 64 64)
    (a18 : Arr2 4 64) (a19 : Arr2 64 500) (a20 : Arr1 500) (a21 : Arr2 500 1) (a22 : Arr1 1)
    (h0 : AllReal a0) (h2 : AllReal a2) (h3 : AllReal a3) (h4 : AllReal a4) (h5 : AllReal a5) (h6 : AllReal a6)
    (h7 : AllReal a7) (h8 : AllReal a8) (h9 : AllReal a9) (h10 : AllReal a10) (h11 : AllReal a11)
    (h12 : AllReal a12) (h13 : AllReal a13) (h14 : AllReal a14) (h15 : AllReal a15) (h16 : AllReal a16)
    (h17 : AllReal a17) (h18 : AllReal a18) (h19 : AllReal a19) (h20 : AllReal a20) (h21 : AllReal a21)
    (h22 : AllReal a22) :
    netOf wfG0 wfS0 wfG wfS varOne a0 a1 a2 a3 a4 a5 a6 a7 a8 a9 a10 a11 a12 a13 a14 a15 a16 a17 a18 a19 a20 a21 a22
      = netOf wfG0 wfS0 wfG wfS varTwo a0 a1 a2 a3 a4 a5 a6 a7 a8 a9 a10 a11 a12 a13 a14 a15 a16 a17 a18 a19 a20
          a21 a22 := by
  have hP1 := p1_real h3 h4 h5 h6 h7 h8 h9 h10
  have hPl := fun l => pl_real l h11 h12 h13 h14 h15 h16 h17 h18
  have e1 := layer_agree wfG0 wfS0 (srcIdx a1) (dstIdx a1) h0 h2 hP1
  have r1 := (layer_real (by norm_num) wfG0 wfS0 (srcIdx a1) (dstIdx a1) h0 h2 hP1).1
  have e2 := layer_agree wfG wfS (srcIdx a1) (dstIdx a1) r1 h2 (hPl 0)
  have r2 := (layer_real (by norm_num) wfG wfS (srcIdx a1) (dstIdx a1) r1 h2 (hPl 0)).1
  have e3 := layer_agree wfG wfS (srcIdx a1) (dstIdx a1) r2 h2 (hPl 1)
  have r3 := (layer_real (by norm_num) wfG wfS (srcIdx a1) (dstIdx a1) r2 h2 (hPl 1)).1
  have e4 := layer_agree wfG wfS (srcIdx a1) (dstIdx a1) r3 h2 (hPl 2)
  have r4 := (layer_real (by norm_num) wfG wfS (srcIdx a1) (dstIdx a1) r3 h2 (hPl 2)).1
  have e5 := layer_agree wfG wfS (srcIdx a1) (dstIdx a1) r4 h2 (hPl 3)
  unfold netOf net
  rw [e1, e2, e3, e4, e5]

end Cert.Gine

end
-- ==== Proof.FiniteElem.lean ====
/-
  From "every |x| is below +∞" to "every x is a real".

  A precondition that says an array is finite prints as: the absolute values, compared below the word of
  +∞ (0x7F800000) entry by entry, and the one-bit results reduced by "and" from 1 into a single bit that
  is 1. Then every comparison came out 1, so every |x| = max x (−x) is below ⊤; an extended real whose
  absolute value is below ⊤ is neither ⊤ nor ⊥, that is, a real. A conjunction of such bits that is 1 has
  both sides 1.
-/
import Idealize.ShloMosaic.Lib.ReduceAll
import Idealize.ShloMosaic.Lib.ValueIdx
import Idealize.ShloMosaic.PureOps
import proofs.«122931_j61864708931975_1_alg».proof.Proof.Law1

noncomputable section

namespace Cert.Gine

open Idealize.ShloMosaic

/-- The all-ones exponent with a zero significand and a clear sign bit denotes +∞. -/
theorem wInf_eq : Ideal.ofBits .f32 0x7F800000#32 = ⊤ := by simp [Ideal.ofBits, Ideal.ieee]

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a Boolean is 1 only if the Boolean is true. -/
theorem ofBool_one (b : Bool) (h : BitVec.ofBool b = 1#1) : b = true := by
  cases b <;> first | rfl | exact absurd h (by decide)

/-- The scalar shape has one index. -/
instance : Subsingleton (⟨0, ![]⟩ : Shape).Idx := ⟨fun a b => funext fun d => d.elim0⟩

/-- "All |x| < +∞" reduced to one bit that is 1: every entry of x is a real. -/
theorem allReal_of_all_finite {s : Shape} {axes : List (Fin s.rank)} (x : FVec Ideal s .f32)
    (bc : (⟨0, ![]⟩ : Shape).BroadcastsInDim s (![] : Fin 0 → Fin s.rank))
    (hr : s.ReducesTo axes ⟨0, ![]⟩) (hu : 0 < (⟨0, ![]⟩ : Shape).numel)
    (e : Host.reduce IntOp.andi
          (cmpf .olt (Host.absf x) (broadcastInDim s ![] bc (constant ⟨0, ![]⟩ .f32 0x7F800000#32)))
          (constantI ⟨0, ![]⟩ 1 1#1) hr hu ValueIdx.ix0 = 1#1) :
    AllReal (x : s.Idx → EReal) := by
  intro i
  have h1 := Host.reduce_andi_all _ _ hr hu ValueIdx.ix0 e i
  have h2 : Ideal.cmp .olt (max (x i : EReal) (-(x i))) (Ideal.ofBits .f32 0x7F800000#32) = 1#1 := h1
  rw [wInf_eq] at h2
  exact real_of_abs_lt_top _ (of_decide_eq_true (ofBool_one _ h2))

/-- A conjunction of two one-bit arrays that is 1 at an index has both sides 1 there. -/
theorem andi_split {s : Shape} (a b : IVec s 1) (i : s.Idx) (h : andi a b i = 1#1) : a i = 1#1 ∧ b i = 1#1 :=
  IntOp.andi_eq_one.1 h

end Cert.Gine

end
-- ==== Proof.Finite.lean ====
/-
  The precondition says every float argument is finite; hence every entry of every float argument is a real.

  The precondition's function is a conjunction, nested to the left, of twenty-two bits, one per float
  argument in argument order (the integer edge list is not mentioned): bit k is "all |x| < +∞" over
  argument k. The function's value is 1, so each bit is 1, and each bit being 1 makes its argument's
  entries reals.
-/
import proofs.«122931_j61864708931975_1_alg».proof.Defs
import proofs.«122931_j61864708931975_1_alg».proof.Proof.FiniteElem

noncomputable section

namespace Cert.Gine

open Idealize.ShloMosaic Idealize.SL.Sem

variable [Cert.Pre_finite_inputs.Facts]
  {m : (ℓ : Loc Cert.KernelIdeal.nD Cert.KernelIdeal.τ Cert.KernelIdeal.sig) → Buf (Elt Ideal) ℓ}

/-- All twenty-two at once: split the conjunction from the outside in, then read each bit. -/
theorem real_args (h : Cert.Pre_KernelIdeal m) (c : Dev Cert.KernelIdeal.nD) :
    AllReal (m ((c.tc : Thread Cert.KernelIdeal.nD Cert.KernelIdeal.τ).loc Cert.KernelIdeal.main_arg0) : Arr2 50000 2) ∧
      AllReal (m ((c.tc : Thread Cert.KernelIdeal.nD Cert.KernelIdeal.τ).loc Cert.KernelIdeal.main_arg2) : Arr2 800000 7) ∧
      AllReal (m ((c.tc : Thread Cert.KernelIdeal.nD Cert.KernelIdeal.τ).loc Cert.KernelIdeal.main_arg3) : Arr2 7 2) ∧
      AllReal (m ((c.tc : Thread Cert.KernelIdeal.nD Cert.KernelIdeal.τ).loc Cert.KernelIdeal.main_arg4) : Arr1 2) ∧
      AllReal (m ((c.tc : Thread Cert.KernelIdeal.nD Cert.KernelIdeal.τ).loc Cert.KernelIdeal.main_arg5) : Arr2 2 64) ∧
      AllReal (m ((c.tc : Thread Cert.KernelIdeal.nD Cert.KernelIdeal.τ).loc Cert.KernelIdeal.main_arg6) : Arr1 64) ∧
      AllReal (m ((c.tc : Thread Cert.KernelIdeal.nD Cert.KernelIdeal.τ).loc Cert.KernelIdeal.main_arg7) : Arr1 64) ∧
      AllReal (m ((c.tc : Thread Cert.KernelIdeal.nD Cert.KernelIdeal.τ).loc Cert.KernelIdeal.main_arg8) : Arr1 64) ∧
      AllReal (m ((c.tc : Thread Cert.KernelIdeal.nD Cert.KernelIdeal.τ).loc Cert.KernelIdeal.main_arg9) : Arr2 64 64) ∧
      AllReal (m ((c.tc : Thread Cert.KernelIdeal.nD Cert.KernelIdeal.τ).loc Cert.KernelIdeal.main_arg10) : Arr1 64) ∧
      AllReal (m ((c.tc : Thread Cert.KernelIdeal.nD Cert.KernelIdeal.τ).loc Cert.KernelIdeal.main_arg11) : Arr3 4 7 64) ∧
      AllReal (m ((c.tc : Thread Cert.KernelIdeal.nD Cert.KernelIdeal.τ).loc Cert.KernelIdeal.main_arg12) : Arr2 4 64) ∧
      AllReal (m ((c.tc : Thread Cert.KernelIdeal.nD Cert.KernelIdeal.τ).loc Cert.KernelIdeal.main_arg13) : Arr3 4 64 64) ∧
      AllReal (m ((c.tc : Thread Cert.KernelIdeal.nD Cert.KernelIdeal.τ).loc Cert.KernelIdeal.main_arg14) : Arr2 4 64) ∧
      AllReal (m ((c.tc : Thread Cert.KernelIdeal.nD Cert.KernelIdeal.τ).loc Cert.KernelIdeal.main_arg15) : Arr2 4 64) ∧
      AllReal (m ((c.tc : Thread Cert.KernelIdeal.nD Cert.KernelIdeal.τ).loc Cert.KernelIdeal.main_arg16) : Arr2 4 64) ∧
      AllReal (m ((c.tc : Thread Cert.KernelIdeal.nD Cert.KernelIdeal.τ).loc Cert.KernelIdeal.main_arg17) : Arr3 4 64 64) ∧
      AllReal (m ((c.tc : Thread Cert.KernelIdeal.nD Cert.KernelIdeal.τ).loc Cert.KernelIdeal.main_arg18) : Arr2 4 64) ∧
      AllReal (m ((c.tc : Thread Cert.KernelIdeal.nD Cert.KernelIdeal.τ).loc Cert.KernelIdeal.main_arg19) : Arr2 64 500) ∧
      AllReal (m ((c.tc : Thread Cert.KernelIdeal.nD Cert.KernelIdeal.τ).loc Cert.KernelIdeal.main_arg20) : Arr1 500) ∧
      AllReal (m ((c.tc : Thread Cert.KernelIdeal.nD Cert.KernelIdeal.τ).loc Cert.KernelIdeal.main_arg21) : Arr2 500 1) ∧
      AllReal (m ((c.tc : Thread Cert.KernelIdeal.nD Cert.KernelIdeal.τ).loc Cert.KernelIdeal.main_arg22) : Arr1 1) := by
  have e := congrFun (h c) ValueIdx.ix0
  obtain ⟨e, e22⟩ := andi_split _ _ _ e
  obtain ⟨e, e21⟩ := andi_split _ _ _ e
  obtain ⟨e, e20⟩ := andi_split _ _ _ e
  obtain ⟨e, e19⟩ := andi_split _ _ _ e
  obtain ⟨e, e18⟩ := andi_split _ _ _ e
  obtain ⟨e, e17⟩ := andi_split _ _ _ e
  obtain ⟨e, e16⟩ := andi_split _ _ _ e
  obtain ⟨e, e15⟩ := andi_split _ _ _ e
  obtain ⟨e, e14⟩ := andi_split _ _ _ e
  obtain ⟨e, e13⟩ := andi_split _ _ _ e
  obtain ⟨e, e12⟩ := andi_split _ _ _ e
  obtain ⟨e, e11⟩ := andi_split _ _ _ e
  obtain ⟨e, e10⟩ := andi_split _ _ _ e
  obtain ⟨e, e9⟩ := andi_split _ _ _ e
  obtain ⟨e, e8⟩ := andi_split _ _ _ e
  obtain ⟨e, e7⟩ := andi_split _ _ _ e
  obtain ⟨e, e6⟩ := andi_split _ _ _ e
  obtain ⟨e, e5⟩ := andi_split _ _ _ e
  obtain ⟨e, e4⟩ := andi_split _ _ _ e
  obtain ⟨e, e3⟩ := andi_split _ _ _ e
  obtain ⟨e0, e2⟩ := andi_split _ _ _ e
  exact ⟨allReal_of_all_finite _ _ _ _ e0,
    allReal_of_all_finite _ _ _ _ e2,
    allReal_of_all_finite _ _ _ _ e3,
    allReal_of_all_finite _ _ _ _ e4,
    allReal_of_all_finite _ _ _ _ e5,
    allReal_of_all_finite _ _ _ _ e6,
    allReal_of_all_finite _ _ _ _ e7,
    allReal_of_all_finite _ _ _ _ e8,
    allReal_of_all_finite _ _ _ _ e9,
    allReal_of_all_finite _ _ _ _ e10,
    allReal_of_all_finite _ _ _ _ e11,
    allReal_of_all_finite _ _ _ _ e12,
    allReal_of_all_finite _ _ _ _ e13,
    allReal_of_all_finite _ _ _ _ e14,
    allReal_of_all_finite _ _ _ _ e15,
    allReal_of_all_finite _ _ _ _ e16,
    allReal_of_all_finite _ _ _ _ e17,
    allReal_of_all_finite _ _ _ _ e18,
    allReal_of_all_finite _ _ _ _ e19,
    allReal_of_all_finite _ _ _ _ e20,
    allReal_of_all_finite _ _ _ _ e21,
    allReal_of_all_finite _ _ _ _ e22⟩

theorem real_arg0 (h : Cert.Pre_KernelIdeal m) (c : Dev Cert.KernelIdeal.nD) :
    AllReal (m ((c.tc : Thread Cert.KernelIdeal.nD Cert.KernelIdeal.τ).loc Cert.KernelIdeal.main_arg0) : Arr2 50000 2) :=
  (real_args h c).1

theorem real_arg2 (h : Cert.Pre_KernelIdeal m) (c : Dev Cert.KernelIdeal.nD) :
    AllReal (m ((c.tc : Thread Cert.KernelIdeal.nD Cert.KernelIdeal.τ).loc Cert.KernelIdeal.main_arg2) : Arr2 800000 7) :=
  (real_args h c).2.1

theorem real_arg3 (h : Cert.Pre_KernelIdeal m) (c : Dev Cert.KernelIdeal.nD) :
    AllReal (m ((c.tc : Thread Cert.KernelIdeal.nD Cert.KernelIdeal.τ).loc Cert.KernelIdeal.main_arg3) : Arr2 7 2) :=
  (real_args h c).2.2.1

theorem real_arg4 (h : Cert.Pre_KernelIdeal m) (c : Dev Cert.KernelIdeal.nD) :
    AllReal (m ((c.tc : Thread Cert.KernelIdeal.nD Cert.KernelIdeal.τ).loc Cert.KernelIdeal.main_arg4) : Arr1 2) :=
  (real_args h c).2.2.2.1

theorem real_arg5 (h : Cert.Pre_KernelIdeal m) (c : Dev Cert.KernelIdeal.nD) :
    AllReal (m ((c.tc : Thread Cert.KernelIdeal.nD Cert.KernelIdeal.τ).loc Cert.KernelIdeal.main_arg5) : Arr2 2 64) :=
  (real_args h c).2.2.2.2.1

theorem real_arg6 (h : Cert.Pre_KernelIdeal m) (c : Dev Cert.KernelIdeal.nD) :
    AllReal (m ((c.tc : Thread Cert.KernelIdeal.nD Cert.KernelIdeal.τ).loc Cert.KernelIdeal.main_arg6) : Arr1 64) :=
  (real_args h c).2.2.2.2.2.1

theorem real_arg7 (h : Cert.Pre_KernelIdeal m) (c : Dev Cert.KernelIdeal.nD) :
    AllReal (m ((c.tc : Thread Cert.KernelIdeal.nD Cert.KernelIdeal.τ).loc Cert.KernelIdeal.main_arg7) : Arr1 64) :=
  (real_args h c).2.2.2.2.2.2.1

theorem real_arg8 (h : Cert.Pre_KernelIdeal m) (c : Dev Cert.KernelIdeal.nD) :
    AllReal (m ((c.tc : Thread Cert.KernelIdeal.nD Cert.KernelIdeal.τ).loc Cert.KernelIdeal.main_arg8) : Arr1 64) :=
  (real_args h c).2.2.2.2.2.2.2.1

theorem real_arg9 (h : Cert.Pre_KernelIdeal m) (c : Dev Cert.KernelIdeal.nD) :
    AllReal (m ((c.tc : Thread Cert.KernelIdeal.nD Cert.KernelIdeal.τ).loc Cert.KernelIdeal.main_arg9) : Arr2 64 64) :=
  (real_args h c).2.2.2.2.2.2.2.2.1

theorem real_arg10 (h : Cert.Pre_KernelIdeal m) (c : Dev Cert.KernelIdeal.nD) :
    AllReal (m ((c.tc : Thread Cert.KernelIdeal.nD Cert.KernelIdeal.τ).loc Cert.KernelIdeal.main_arg10) : Arr1 64) :=
  (real_args h c).2.2.2.2.2.2.2.2.2.1

theorem real_arg11 (h : Cert.Pre_KernelIdeal m) (c : Dev Cert.KernelIdeal.nD) :
    AllReal (m ((c.tc : Thread Cert.KernelIdeal.nD Cert.KernelIdeal.τ).loc Cert.KernelIdeal.main_arg11) : Arr3 4 7 64) :=
  (real_args h c).2.2.2.2.2.2.2.2.2.2.1

theorem real_arg12 (h : Cert.Pre_KernelIdeal m) (c : Dev Cert.KernelIdeal.nD) :
    AllReal (m ((c.tc : Thread Cert.KernelIdeal.nD Cert.KernelIdeal.τ).loc Cert.KernelIdeal.main_arg12) : Arr2 4 64) :=
  (real_args h c).2.2.2.2.2.2.2.2.2.2.2.1

theorem real_arg13 (h : Cert.Pre_KernelIdeal m) (c : Dev Cert.KernelIdeal.nD) :
    AllReal (m ((c.tc : Thread Cert.KernelIdeal.nD Cert.KernelIdeal.τ).loc Cert.KernelIdeal.main_arg13) : Arr3 4 64 64) :=
  (real_args h c).2.2.2.2.2.2.2.2.2.2.2.2.1

theorem real_arg14 (h : Cert.Pre_KernelIdeal m) (c : Dev Cert.KernelIdeal.nD) :
    AllReal (m ((c.tc : Thread Cert.KernelIdeal.nD Cert.KernelIdeal.τ).loc Cert.KernelIdeal.main_arg14) : Arr2 4 64) :=
  (real_args h c).2.2.2.2.2.2.2.2.2.2.2.2.2.1

theorem real_arg15 (h : Cert.Pre_KernelIdeal m) (c : Dev Cert.KernelIdeal.nD) :
    AllReal (m ((c.tc : Thread Cert.KernelIdeal.nD Cert.KernelIdeal.τ).loc Cert.KernelIdeal.main_arg15) : Arr2 4 64) :=
  (real_args h c).2.2.2.2.2.2.2.2.2.2.2.2.2.2.1

theorem real_arg16 (h : Cert.Pre_KernelIdeal m) (c : Dev Cert.KernelIdeal.nD) :
    AllReal (m ((c.tc : Thread Cert.KernelIdeal.nD Cert.KernelIdeal.τ).loc Cert.KernelIdeal.main_arg16) : Arr2 4 64) :=
  (real_args h c).2.2.2.2.2.2.2.2.2.2.2.2.2.2.2.1

theorem real_arg17 (h : Cert.Pre_KernelIdeal m) (c : Dev Cert.KernelIdeal.nD) :
    AllReal (m ((c.tc : Thread Cert.KernelIdeal.nD Cert.KernelIdeal.τ).loc Cert.KernelIdeal.main_arg17) : Arr3 4 64 64) :=
  (real_args h c).2.2.2.2.2.2.2.2.2.2.2.2.2.2.2.2.1

theorem real_arg18 (h : Cert.Pre_KernelIdeal m) (c : Dev Cert.KernelIdeal.nD) :
    AllReal (m ((c.tc : Thread Cert.KernelIdeal.nD Cert.KernelIdeal.τ).loc Cert.KernelIdeal.main_arg18) : Arr2 4 64) :=
  (real_args h c).2.2.2.2.2.2.2.2.2.2.2.2.2.2.2.2.2.1

theorem real_arg19 (h : Cert.Pre_KernelIdeal m) (c : Dev Cert.KernelIdeal.nD) :
    AllReal (m ((c.tc : Thread Cert.KernelIdeal.nD Cert.KernelIdeal.τ).loc Cert.KernelIdeal.main_arg19) : Arr2 64 500) :=
  (real_args h c).2.2.2.2.2.2.2.2.2.2.2.2.2.2.2.2.2.2.1

theorem real_arg20 (h : Cert.Pre_KernelIdeal m) (c : Dev Cert.KernelIdeal.nD) :
    AllReal (m ((c.tc : Thread Cert.KernelIdeal.nD Cert.KernelIdeal.τ).loc Cert.KernelIdeal.main_arg20) : Arr1 500) :=
  (real_args h c).2.2.2.2.2.2.2.2.2.2.2.2.2.2.2.2.2.2.2.1

theorem real_arg21 (h : Cert.Pre_KernelIdeal m) (c : Dev Cert.KernelIdeal.nD) :
    AllReal (m ((c.tc : Thread Cert.KernelIdeal.nD Cert.KernelIdeal.τ).loc Cert.KernelIdeal.main_arg21) : Arr2 500 1) :=
  (real_args h c).2.2.2.2.2.2.2.2.2.2.2.2.2.2.2.2.2.2.2.2.1

theorem real_arg22 (h : Cert.Pre_KernelIdeal m) (c : Dev Cert.KernelIdeal.nD) :
    AllReal (m ((c.tc : Thread Cert.KernelIdeal.nD Cert.KernelIdeal.τ).loc Cert.KernelIdeal.main_arg22) : Arr1 1) :=
  (real_args h c).2.2.2.2.2.2.2.2.2.2.2.2.2.2.2.2.2.2.2.2.2

end Cert.Gine

end
-- ==== Proof.lean ====
/-
  The certificate's claims from their parts: the two kernels' frames, the reference's run, and the two result arrays
  equal because both are the network of the specification on real arguments, where the two spellings of the variance agree.
-/
import proofs.«122931_j61864708931975_1_alg».proof.Defs
import proofs.«122931_j61864708931975_1_alg».proof.Proof.Gen.Kernel
import proofs.«122931_j61864708931975_1_alg».proof.Proof.Gen.Kernel.Skeleton
import proofs.«122931_j61864708931975_1_alg».proof.Proof.Gen.Kernel.Launch
import proofs.«122931_j61864708931975_1_alg».proof.Proof.Gen.Kernel.Points
import proofs.«122931_j61864708931975_1_alg».proof.Proof.Gen.Kernel.Frame
import proofs.«122931_j61864708931975_1_alg».proof.Proof.Gen.KernelIdeal
import proofs.«122931_j61864708931975_1_alg».proof.Proof.Gen.KernelIdeal.Skeleton
import proofs.«122931_j61864708931975_1_alg».proof.Proof.Gen.KernelIdeal.Launch
import proofs.«122931_j61864708931975_1_alg».proof.Proof.Gen.KernelIdeal.Points
import proofs.«122931_j61864708931975_1_alg».proof.Proof.Gen.KernelIdeal.Frame
import proofs.«122931_j61864708931975_1_alg».proof.Proof.Gen.ReferenceIdeal
import proofs.«122931_j61864708931975_1_alg».proof.Proof.Gen.Pre_finite_inputs
import proofs.«122931_j61864708931975_1_alg».proof.Proof.RefValue
import proofs.«122931_j61864708931975_1_alg».proof.Proof.KValue
import proofs.«122931_j61864708931975_1_alg».proof.Proof.Law
import proofs.«122931_j61864708931975_1_alg».proof.Proof.Finite
import Idealize.ShloMosaic.Adequacy
import Idealize.ShloMosaic.Init

noncomputable section

namespace Cert.Proof

open Idealize.ShloMosaic Idealize.SL.Sem

/-- The kernel as printed runs and leaves its arguments as launched. -/
theorem frameK : Cert.frame_Kernel := fun m ρ _ => Cert.Kernel.Gen.frame m ρ

/-- The kernel at the extended reals runs and leaves its arguments as launched. -/
theorem frameKI : Cert.frame_KernelIdeal := fun m ρ _ => Cert.KernelIdeal.Gen.frame m ρ

/-- The reference runs and leaves its arguments as launched: its value run, the result dropped. -/
theorem frameR : Cert.frame_ReferenceIdeal := fun m ρ _ =>
  (θ_run Cert.ReferenceIdeal.defs _ _).mono (fun _ h c => (h c).2) (Cert.ReferenceIdeal.RefValue.run m ρ)

/-- The two programs end with one result array: the kernel's is the network with the variance E[h²] − mean², the
    reference's the network with E[(h − mean)²], of arguments that agree; the arguments are finite, hence real, and
    on real arguments the two networks are one. -/
theorem algebraic : Cert.algebraic_KernelIdeal_ReferenceIdeal := by
  intro m ρ m' ρ' hpre hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8, e9, e10, e11, e12, e13, e14, e15, e16, e17, e18, e19, e20, e21, e22⟩ := hagree c
  rw [e0, e1, e2, e3, e4, e5, e6, e7, e8, e9, e10, e11, e12, e13, e14, e15, e16, e17, e18, e19, e20, e21, e22]
  exact (Cert.Gine.netOf_agree _ _ _ _ _ _ _ _ _ _ _ _ _ _ _ _ _ _ _ _ _ _ _ _ _ _ _
    (Cert.Gine.real_arg0 hpre c) (Cert.Gine.real_arg2 hpre c) (Cert.Gine.real_arg3 hpre c) (Cert.Gine.real_arg4 hpre c) (Cert.Gine.real_arg5 hpre c) (Cert.Gine.real_arg6 hpre c) (Cert.Gine.real_arg7 hpre c) (Cert.Gine.real_arg8 hpre c) (Cert.Gine.real_arg9 hpre c) (Cert.Gine.real_arg10 hpre c) (Cert.Gine.real_arg11 hpre c) (Cert.Gine.real_arg12 hpre c) (Cert.Gine.real_arg13 hpre c) (Cert.Gine.real_arg14 hpre c) (Cert.Gine.real_arg15 hpre c) (Cert.Gine.real_arg16 hpre c) (Cert.Gine.real_arg17 hpre c) (Cert.Gine.real_arg18 hpre c) (Cert.Gine.real_arg19 hpre c) (Cert.Gine.real_arg20 hpre c) (Cert.Gine.real_arg21 hpre c) (Cert.Gine.real_arg22 hpre c)).symm

theorem claim : Cert.Claim :=
  ⟨Cert.Kernel.Gen.facts, Cert.KernelIdeal.Gen.facts, Cert.ReferenceIdeal.Gen.facts, Cert.Pre_finite_inputs.Gen.facts,
    frameK, frameKI, frameR, trivial, algebraic⟩

end Cert.Proof

end
